-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S4096 : Shape := ⟨1, ![4096]⟩
abbrev S2048x4096 : Shape := ⟨2, ![2048, 4096]⟩
abbrev S2048 : Shape := ⟨1, ![2048]⟩
abbrev S1024x2048 : Shape := ⟨2, ![1024, 2048]⟩
abbrev S1024 : Shape := ⟨1, ![1024]⟩
abbrev S512x1024 : Shape := ⟨2, ![512, 1024]⟩
abbrev S512 : Shape := ⟨1, ![512]⟩
abbrev S256x512 : Shape := ⟨2, ![256, 512]⟩
abbrev S256 : Shape := ⟨1, ![256]⟩
abbrev S1x256 : Shape := ⟨2, ![1, 256]⟩
abbrev S1 : Shape := ⟨1, ![1]⟩
abbrev S1x7680 : Shape := ⟨2, ![1, 7680]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S4096 : S_.BroadcastsInDim S4096 (![] : Fin 0 → Fin S4096.rank)
  reducesTo_S4096_S_d0 : S4096.ReducesTo [0] S_
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_
  bcast_S_S1x7680 : S_.BroadcastsInDim S1x7680 (![] : Fin 0 → Fin S1x7680.rank)
  reducesTo_S1x7680_S_d0_1 : S1x7680.ReducesTo [0, 1] S_
  reducesTo_S_S_d : S_.ReducesTo [] S_

variable [Facts]

def fn_part6 {F : FTy → Type} [FloatOps F] (main_arg21 : FVec F S1x7680 .f32) (main_arg22 : FVec F S_ .f32) (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  let main_v104 : FVec F S1x7680 .f32 := Host.absf main_arg21
  let main_cst_40 : FVec F S_ .f32 := constant S_ .f32 0x7F800000#32
  let main_v105 : FVec F S1x7680 .f32 := broadcastInDim S1x7680 ![] bcast_S_S1x7680 main_cst_40
  let main_v106 : IVec S1x7680 1 := cmpf .olt main_v104 main_v105
  let main_c_41 : IVec S_ 1 := constantI S_ 1 1#1
  let main_v107 : IVec S_ 1 := (fun x v => Host.reduce IntOp.andi x v reducesTo_S1x7680_S_d0_1 h_S_) main_v106 main_c_41
  let main_v108 : IVec S_ 1 := andi main_v103 main_v107
  let main_v109 : FVec F S_ .f32 := Host.absf main_arg22
  let main_cst_42 : FVec F S_ .f32 := constant S_ .f32 0x7F800000#32
  let main_v110 : IVec S_ 1 := cmpf .olt main_v109 main_cst_42
  let main_c_43 : IVec S_ 1 := constantI S_ 1 1#1
  let main_v111 : IVec S_ 1 := (fun x v => Host.reduce IntOp.andi x v reducesTo_S_S_d h_S_) main_v110 main_c_43
  let main_v112 : IVec S_ 1 := andi main_v108 main_v111
  main_v112

def fn_part5 {F : FTy → Type} [FloatOps F] (main_arg18 : FVec F S1x256 .f32) (main_arg19 : FVec F S1x7680 .f32) (main_arg20 : FVec F S1 .f32) (main_arg21 : FVec F S1x7680 .f32) (main_arg22 : FVec F S_ .f32) (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  let main_v89 : FVec F S1x256 .f32 := Host.absf main_arg18
  let main_cst_34 : FVec F S_ .f32 := constant S_ .f32 0x7F800000#32
  let main_v90 : FVec F S1x256 .f32 := broadcastInDim S1x256 ![] bcast_S_S1x256 main_cst_34
  let main_v91 : IVec S1x256 1 := cmpf .olt main_v89 main_v90
  let main_c_35 : IVec S_ 1 := constantI S_ 1 1#1
  let main_v92 : IVec S_ 1 := (fun x v => Host.reduce IntOp.andi x v reducesTo_S1x256_S_d0_1 h_S_) main_v91 main_c_35
  let main_v93 : IVec S_ 1 := andi main_v88 main_v92
  let main_v94 : FVec F S1x7680 .f32 := Host.absf main_arg19
  let main_cst_36 : FVec F S_ .f32 := constant S_ .f32 0x7F800000#32
  let main_v95 : FVec F S1x7680 .f32 := broadcastInDim S1x7680 ![] bcast_S_S1x7680 main_cst_36
  let main_v96 : IVec S1x7680 1 := cmpf .olt main_v94 main_v95
  let main_c_37 : IVec S_ 1 := constantI S_ 1 1#1
  let main_v97 : IVec S_ 1 := (fun x v => Host.reduce IntOp.andi x v reducesTo_S1x7680_S_d0_1 h_S_) main_v96 main_c_37
  let main_v98 : IVec S_ 1 := andi main_v93 main_v97
  let main_v99 : FVec F S1 .f32 := Host.absf main_arg20
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S256 .f32) (main_arg15 : FVec F S256x512 .f32) (main_arg16 : FVec F S1x256 .f32) (main_arg17 : FVec F S1 .f32) (main_arg18 : FVec F S1x256 .f32) (main_arg19 : FVec F S1x7680 .f32) (main_arg20 : FVec F S1 .f32) (main_arg21 : FVec F S1x7680 .f32) (main_arg22 : FVec F S_ .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x512 .f32 := Host.absf main_arg15
  let main_cst_28 : FVec F S_ .f32 := constant S_ .f32 0x7F800000#32
  let main_v75 : FVec F S256x512 .f32 := broadcastInDim S256x512 ![] bcast_S_S256x512 main_cst_28
  let main_v76 : IVec S256x512 1 := cmpf .olt main_v74 main_v75
  let main_c_29 : IVec S_ 1 := constantI S_ 1 1#1
  let main_v77 : IVec S_ 1 := (fun x v => Host.reduce IntOp.andi x v reducesTo_S256x512_S_d0_1 h_S_) main_v76 main_c_29
  let main_v78 : IVec S_ 1 := andi main_v73 main_v77
  let main_v79 : FVec F S1x256 .f32 := Host.absf main_arg16
  let main_cst_30 : FVec F S_ .f32 := constant S_ .f32 0x7F800000#32
  let main_v80 : FVec F S1x256 .f32 := broadcastInDim S1x256 ![] bcast_S_S1x256 main_cst_30
  let main_v81 : IVec S1x256 1 := cmpf .olt main_v79 main_v80
  let main_c_31 : IVec S_ 1 := constantI S_ 1 1#1
  let main_v82 : IVec S_ 1 := (fun x v => Host.reduce IntOp.andi x v reducesTo_S1x256_S_d0_1 h_S_) main_v81 main_c_31
  let main_v83 : IVec S_ 1 := andi main_v78 main_v82
  let main_v84 : FVec F S1 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S512 .f32) (main_arg12 : FVec F S512x1024 .f32) (main_arg13 : FVec F S256x512 .f32) (main_arg14 : FVec F S256 .f32) (main_arg15 : FVec F S256x512 .f32) (main_arg16 : FVec F S1x256 .f32) (main_arg17 : FVec F S1 .f32) (main_arg18 : FVec F S1x256 .f32) (main_arg19 : FVec F S1x7680 .f32) (main_arg20 : FVec F S1 .f32) (main_arg21 : FVec F S1x7680 .f32) (main_arg22 : FVec F S_ .f32) (main_v48 : IVec S_ 1) (main_v49 : FVec F S512x1024 .f32) (main_v50 : FVec F S512x1024 .f32) : IVec S_ 1 :=
  let main_v51 : IVec S512x1024 1 := cmpf .olt main_v49 main_v50
  let main_c_19 : IVec S_ 1 := constantI S_ 1 1#1
  let main_v52 : IVec S_ 1 := (fun x v => Host.reduce IntOp.andi x v reducesTo_S512x1024_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x1024 .f32 := Host.absf main_arg12
  let main_cst_22 : FVec F S_ .f32 := constant S_ .f32 0x7F800000#32
  let main_v60 : FVec F S512x1024 .f32 := broadcastInDim S512x1024 ![] bcast_S_S512x1024 main_cst_22
  let main_v61 : IVec S512x1024 1 := cmpf .olt main_v59 main_v60
  let main_c_23 : IVec S_ 1 := constantI S_ 1 1#1
  let main_v62 : IVec S_ 1 := (fun x v => Host.reduce IntOp.andi x v reducesTo_S512x1024_S_d0_1 h_S_) main_v61 main_c_23
  let main_v63 : IVec S_ 1 := andi main_v58 main_v62
  let main_v64 : FVec F S256x512 .f32 := Host.absf main_arg13
  let main_cst_24 : FVec F S_ .f32 := constant S_ .f32 0x7F800000#32
  let main_v65 : FVec F S256x512 .f32 := broadcastInDim S256x512 ![] bcast_S_S256x512 main_cst_24
  let main_v66 : IVec S256x512 1 := cmpf .olt main_v64 main_v65
  let main_c_25 : IVec S_ 1 := constantI S_ 1 1#1
  let main_v67 : IVec S_ 1 := (fun x v => Host.reduce IntOp.andi x v reducesTo_S256x512_S_d0_1 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S1024x2048 .f32) (main_arg8 : FVec F S1024 .f32) (main_arg9 : FVec F S1024x2048 .f32) (main_arg10 : FVec F S512x1024 .f32) (main_arg11 : FVec F S512 .f32) (main_arg12 : FVec F S512x1024 .f32) (main_arg13 : FVec F S256x512 .f32) (main_arg14 : FVec F S256 .f32) (main_arg15 : FVec F S256x512 .f32) (main_arg16 : FVec F S1x256 .f32) (main_arg17 : FVec F S1 .f32) (main_arg18 : FVec F S1x256 .f32) (main_arg19 : FVec F S1x7680 .f32) (main_arg20 : FVec F S1 .f32) (main_arg21 : FVec F S1x7680 .f32) (main_arg22 : FVec F S_ .f32) (main_v33 : IVec S_ 1) : IVec S_ 1 :=
  let main_v34 : FVec F S1024x2048 .f32 := Host.absf main_arg7
  let main_cst_12 : FVec F S_ .f32 := constant S_ .f32 0x7F800000#32
  let main_v35 : FVec F S1024x2048 .f32 := broadcastInDim S1024x2048 ![] bcast_S_S1024x2048 main_cst_12
  let main_v36 : IVec S1024x2048 1 := cmpf .olt main_v34 main_v35
  let main_c_13 : IVec S_ 1 := constantI S_ 1 1#1
  let main_v37 : IVec S_ 1 := (fun x v => Host.reduce IntOp.andi x v reducesTo_S1024x2048_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x2048 .f32 := Host.absf main_arg9
  let main_cst_16 : FVec F S_ .f32 := constant S_ .f32 0x7F800000#32
  let main_v45 : FVec F S1024x2048 .f32 := broadcastInDim S1024x2048 ![] bcast_S_S1024x2048 main_cst_16
  let main_v46 : IVec S1024x2048 1 := cmpf .olt main_v44 main_v45
  let main_c_17 : IVec S_ 1 := constantI S_ 1 1#1
  let main_v47 : IVec S_ 1 := (fun x v => Host.reduce IntOp.andi x v reducesTo_S1024x2048_S_d0_1 h_S_) main_v46 main_c_17
  let main_v48 : IVec S_ 1 := andi main_v43 main_v47
  let main_v49 : FVec F S512x1024 .f32 := Host.absf main_arg10
  let main_cst_18 : FVec F S_ .f32 := constant S_ .f32 0x7F800000#32
  let main_v50 : FVec F S512x1024 .f32 := broadcastInDim S512x1024 ![] bcast_S_S512x1024 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S2048x4096 .f32) (main_arg5 : FVec F S2048 .f32) (main_arg6 : FVec F S2048x4096 .f32) (main_arg7 : FVec F S1024x2048 .f32) (main_arg8 : FVec F S1024 .f32) (main_arg9 : FVec F S1024x2048 .f32) (main_arg10 : FVec F S512x1024 .f32) (main_arg11 : FVec F S512 .f32) (main_arg12 : FVec F S512x1024 .f32) (main_arg13 : FVec F S256x512 .f32) (main_arg14 : FVec F S256 .f32) (main_arg15 : FVec F S256x512 .f32) (main_arg16 : FVec F S1x256 .f32) (main_arg17 : FVec F S1 .f32) (main_arg18 : FVec F S1x256 .f32) (main_arg19 : FVec F S1x7680 .f32) (main_arg20 : FVec F S1 .f32) (main_arg21 : FVec F S1x7680 .f32) (main_arg22 : FVec F S_ .f32) (main_v13 : IVec S_ 1) (main_v16 : IVec S4096x8192 1) : IVec S_ 1 :=
  let main_c_5 : IVec S_ 1 := constantI S_ 1 1#1
  let main_v17 : IVec S_ 1 := (fun x v => Host.reduce IntOp.andi x v reducesTo_S4096x8192_S_d0_1 h_S_) main_v16 main_c_5
  let main_v18 : IVec S_ 1 := andi main_v13 main_v17
  let main_v19 : FVec F S2048x4096 .f32 := Host.absf main_arg4
  let main_cst_6 : FVec F S_ .f32 := constant S_ .f32 0x7F800000#32
  let main_v20 : FVec F S2048x4096 .f32 := broadcastInDim S2048x4096 ![] bcast_S_S2048x4096 main_cst_6
  let main_v21 : IVec S2048x4096 1 := cmpf .olt main_v19 main_v20
  let main_c_7 : IVec S_ 1 := constantI S_ 1 1#1
  let main_v22 : IVec S_ 1 := (fun x v => Host.reduce IntOp.andi x v reducesTo_S2048x4096_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048x4096 .f32 := Host.absf main_arg6
  let main_cst_10 : FVec F S_ .f32 := constant S_ .f32 0x7F800000#32
  let main_v30 : FVec F S2048x4096 .f32 := broadcastInDim S2048x4096 ![] bcast_S_S2048x4096 main_cst_10
  let main_v31 : IVec S2048x4096 1 := cmpf .olt main_v29 main_v30
  let main_c_11 : IVec S_ 1 := constantI S_ 1 1#1
  let main_v32 : IVec S_ 1 := (fun x v => Host.reduce IntOp.andi x v reducesTo_S2048x4096_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S4096x8192 .f32) (main_arg1 : FVec F S4096x8192 .f32) (main_arg2 : FVec F S4096 .f32) (main_arg3 : FVec F S4096x8192 .f32) (main_arg4 : FVec F S2048x4096 .f32) (main_arg5 : FVec F S2048 .f32) (main_arg6 : FVec F S2048x4096 .f32) (main_arg7 : FVec F S1024x2048 .f32) (main_arg8 : FVec F S1024 .f32) (main_arg9 : FVec F S1024x2048 .f32) (main_arg10 : FVec F S512x1024 .f32) (main_arg11 : FVec F S512 .f32) (main_arg12 : FVec F S512x1024 .f32) (main_arg13 : FVec F S256x512 .f32) (main_arg14 : FVec F S256 .f32) (main_arg15 : FVec F S256x512 .f32) (main_arg16 : FVec F S1x256 .f32) (main_arg17 : FVec F S1 .f32) (main_arg18 : FVec F S1x256 .f32) (main_arg19 : FVec F S1x7680 .f32) (main_arg20 : FVec F S1 .f32) (main_arg21 : FVec F S1x7680 .f32) (main_arg22 : FVec F S_ .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x8192 .f32 := Host.absf main_arg3
  let main_cst_4 : FVec F S_ .f32 := constant S_ .f32 0x7F800000#32
  let main_v15 : FVec F S4096x8192 .f32 := broadcastInDim S4096x8192 ![] bcast_S_S4096x8192 main_cst_4
  let main_v16 : IVec S4096x8192 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S4096x8192 : Shape := ⟨2, ![4096, 8192]⟩
abbrev S4096 : Shape := ⟨1, ![4096]⟩
abbrev S2048x4096 : Shape := ⟨2, ![2048, 4096]⟩
abbrev S2048 : Shape := ⟨1, ![2048]⟩
abbrev S1024x2048 : Shape := ⟨2, ![1024, 2048]⟩
abbrev S1024 : Shape := ⟨1, ![1024]⟩
abbrev S512x1024 : Shape := ⟨2, ![512, 1024]⟩
abbrev S512 : Shape := ⟨1, ![512]⟩
abbrev S256x512 : Shape := ⟨2, ![256, 512]⟩
abbrev S256 : Shape := ⟨1, ![256]⟩
abbrev S1x256 : Shape := ⟨2, ![1, 256]⟩
abbrev S1 : Shape := ⟨1, ![1]⟩
abbrev S1x7680 : Shape := ⟨2, ![1, 7680]⟩
abbrev S_ : Shape := ⟨0, ![]⟩
abbrev S1x4096 : Shape := ⟨2, ![1, 4096]⟩
abbrev S4096x4096 : Shape := ⟨2, ![4096, 4096]⟩
abbrev S1x512 : Shape := ⟨2, ![1, 512]⟩
abbrev S512x512 : Shape := ⟨2, ![512, 512]⟩
abbrev S1x2048 : Shape := ⟨2, ![1, 2048]⟩
abbrev S4096x2048 : Shape := ⟨2, ![4096, 2048]⟩
abbrev S1x1024 : Shape := ⟨2, ![1, 1024]⟩
abbrev S4096x1024 : Shape := ⟨2, ![4096, 1024]⟩
abbrev S4096x512 : Shape := ⟨2, ![4096, 512]⟩
abbrev S4096x256 : Shape := ⟨2, ![4096, 256]⟩
abbrev S512x256 : Shape := ⟨2, ![512, 256]⟩
abbrev S1x1 : Shape := ⟨2, ![1, 1]⟩
abbrev S4096x1 : Shape := ⟨2, ![4096, 1]⟩
abbrev S512x1 : Shape := ⟨2, ![512, 1]⟩
abbrev S4096x7680 : Shape := ⟨2, ![4096, 7680]⟩
abbrev S512x1280 : Shape := ⟨2, ![512, 1280]⟩
abbrev S1x1280 : Shape := ⟨2, ![1, 1280]⟩

abbrev nBuf : Space → Nat
  | .hbm => 55
  | .vmem => 81
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S4096, .f32⟩
  | .hbm, ⟨3, _⟩ => ⟨S4096x8192, .f32⟩
  | .hbm, ⟨4, _⟩ => ⟨S2048x4096, .f32⟩
  | .hbm, ⟨5, _⟩ => ⟨S2048, .f32⟩
  | .hbm, ⟨6, _⟩ => ⟨S2048x4096, .f32⟩
  | .hbm, ⟨7, _⟩ => ⟨S1024x2048, .f32⟩
  | .hbm, ⟨8, _⟩ => ⟨S1024, .f32⟩
  | .hbm, ⟨9, _⟩ => ⟨S1024x2048, .f32⟩
  | .hbm, ⟨10, _⟩ => ⟨S512x1024, .f32⟩
  | .hbm, ⟨11, _⟩ => ⟨S512, .f32⟩
  | .hbm, ⟨12, _⟩ => ⟨S512x1024, .f32⟩
  | .hbm, ⟨13, _⟩ => ⟨S256x512, .f32⟩
  | .hbm, ⟨14, _⟩ => ⟨S256, .f32⟩
  | .hbm, ⟨15, _⟩ => ⟨S256x512, .f32⟩
  | .hbm, ⟨16, _⟩ => ⟨S1x256, .f32⟩
  | .hbm, ⟨17, _⟩ => ⟨S1, .f32⟩
  | .hbm, ⟨18, _⟩ => ⟨S1x256, .f32⟩
  | .hbm, ⟨19, _⟩ => ⟨S1x7680, .f32⟩
  | .hbm, ⟨20, _⟩ => ⟨S1, .f32⟩
  | .hbm, ⟨21, _⟩ => ⟨S1x7680, .f32⟩
  | .hbm, ⟨22, _⟩ => ⟨S_, .f32⟩
  | .hbm, ⟨23, _⟩ => ⟨S1x4096, .f32⟩
  | .hbm, ⟨24, _⟩ => ⟨S4096x4096, .f32⟩
  | .hbm, ⟨25, _⟩ => ⟨S4096x4096, .bf16⟩
  | .hbm, ⟨26, _⟩ => ⟨S1x2048, .f32⟩
  | .hbm, ⟨27, _⟩ => ⟨S4096x2048, .f32⟩
  | .hbm, ⟨28, _⟩ => ⟨S4096x2048, .bf16⟩
  | .hbm, ⟨29, _⟩ => ⟨S1x1024, .f32⟩
  | .hbm, ⟨30, _⟩ => ⟨S4096x1024, .f32⟩
  | .hbm, ⟨31, _⟩ => ⟨S4096x1024, .bf16⟩
  | .hbm, ⟨32, _⟩ => ⟨S1x512, .f32⟩
  | .hbm, ⟨33, _⟩ => ⟨S4096x512, .f32⟩
  | .hbm, ⟨34, _⟩ => ⟨S4096x512, .bf16⟩
  | .hbm, ⟨35, _⟩ => ⟨S1x256, .f32⟩
  | .hbm, ⟨36, _⟩ => ⟨S4096x256, .f32⟩
  | .hbm, ⟨37, _⟩ => ⟨S4096x256, .bf16⟩
  | .hbm, ⟨38, _⟩ => ⟨S1x1, .f32⟩
  | .hbm, ⟨39, _⟩ => ⟨S4096x1, .f32⟩
  | .hbm, ⟨40, _⟩ => ⟨S4096x1, .bf16⟩
  | .hbm, ⟨41, _⟩ => ⟨S4096x7680, .f32⟩
  | .hbm, ⟨42, _⟩ => ⟨S1x1, .f32⟩
  | .hbm, ⟨43, _⟩ => ⟨S4096x1, .f32⟩
  | .hbm, ⟨44, _⟩ => ⟨S4096x1, .bf16⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S4096x1, .f32⟩
  | .hbm, ⟨54, _⟩ => ⟨S4096, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S512x512, .f32⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S1x512, .f32⟩
  | .local _ .vmem, ⟨20, _⟩ => ⟨S1x512, .f32⟩
  | .local _ .vmem, ⟨21, _⟩ => ⟨S512x512, .f32⟩
  | .local _ .vmem, ⟨22, _⟩ => ⟨S512x512, .f32⟩
  | .local _ .vmem, ⟨23, _⟩ => ⟨S512x512, .bf16⟩
  | .local _ .vmem, ⟨24, _⟩ => ⟨S512x512, .bf16⟩
  | .local _ .vmem, ⟨25, _⟩ => ⟨S512x512, .f32⟩
  | .local _ .vmem, ⟨26, _⟩ => ⟨S512x1024, .bf16⟩
  | .local _ .vmem, ⟨27, _⟩ => ⟨S512x1024, .bf16⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | .local _ .vmem, ⟨31, _⟩ => ⟨S512x1024, .f32⟩
  | .local _ .vmem, ⟨32, _⟩ => ⟨S1x512, .f32⟩
  | .local _ .vmem, ⟨33, _⟩ => ⟨S1x512, .f32⟩
  | .local _ .vmem, ⟨34, _⟩ => ⟨S512x512, .f32⟩
  | .local _ .vmem, ⟨35, _⟩ => ⟨S512x512, .f32⟩
  | .local _ .vmem, ⟨36, _⟩ => ⟨S512x512, .bf16⟩
  | .local _ .vmem, ⟨37, _⟩ => ⟨S512x512, .bf16⟩
  | .local _ .vmem, ⟨38, _⟩ => ⟨S512x512, .f32⟩
  | .local _ .vmem, ⟨39, _⟩ => ⟨S512x1024, .bf16⟩
  | .local _ .vmem, ⟨40, _⟩ => ⟨S512x1024, .bf16⟩
  | .local _ .vmem, ⟨41, _⟩ => ⟨S512x1024, .f32⟩
  | .local _ .vmem, ⟨42, _⟩ => ⟨S512x1024, .f32⟩
  | .local _ .vmem, ⟨43, _⟩ => ⟨S1x512, .f32⟩
  | .local _ .vmem, ⟨44, _⟩ => ⟨S512x512, .f32⟩
  | .local _ .vmem, ⟨45, _⟩ => ⟨S512x512, .f32⟩
  | .local _ .vmem, ⟨46, _⟩ => ⟨S512x512, .bf16⟩
  | .local _ .vmem, ⟨47, _⟩ => ⟨S512x512, .bf16⟩
  | .local _ .vmem, ⟨48, _⟩ => ⟨S512x512, .f32⟩
  | .local _ .vmem, ⟨49, _⟩ => ⟨S512x512, .bf16⟩
  | .local _ .vmem, ⟨50, _⟩ => ⟨S512x512, .bf16⟩
  | .local _ .vmem, ⟨51, _⟩ => ⟨S256x512, .f32⟩
  | .local _ .vmem, ⟨52, _⟩ => ⟨S256x512, .f32⟩
  | .local _ .vmem, ⟨53, _⟩ => ⟨S1x256, .f32⟩
  | .local _ .vmem, ⟨54, _⟩ => ⟨S512x256, .f32⟩
  | .local _ .vmem, ⟨55, _⟩ => ⟨S512x256, .f32⟩
  | .local _ .vmem, ⟨56, _⟩ => ⟨S512x256, .bf16⟩
  | .local _ .vmem, ⟨57, _⟩ => ⟨S512x256, .bf16⟩
  | .local _ .vmem, ⟨58, _⟩ => ⟨S512x256, .f32⟩
  | .local _ .vmem, ⟨59, _⟩ => ⟨S512x256, .bf16⟩
  | .local _ .vmem, ⟨60, _⟩ => ⟨S512x256, .bf16⟩
  | .local _ .vmem, ⟨61, _⟩ => ⟨S1x256, .f32⟩
  | .local _ .vmem, ⟨62, _⟩ => ⟨S1x256, .f32⟩
  | .local _ .vmem, ⟨63, _⟩ => ⟨S1x1, .f32⟩
  | .local _ .vmem, ⟨64, _⟩ => ⟨S512x1, .f32⟩
  | .local _ .vmem, ⟨65, _⟩ => ⟨S512x1, .f32⟩
  | .local _ .vmem, ⟨66, _⟩ => ⟨S512x1, .bf16⟩
  | .local _ .vmem, ⟨67, _⟩ => ⟨S512x1, .bf16⟩
  | .local _ .vmem, ⟨68, _⟩ => ⟨S512x1, .f32⟩
  | .local _ .vmem, ⟨69, _⟩ => ⟨S512x1280, .f32⟩
  | .local _ .vmem, ⟨70, _⟩ => ⟨S512x1280, .f32⟩
  | .local _ .vmem, ⟨71, _⟩ => ⟨S1x1280, .f32⟩
  | .local _ .vmem, ⟨72, _⟩ => ⟨S1x1280, .f32⟩
  | .local _ .vmem, ⟨73, _⟩ => ⟨S1x1280, .f32⟩
  | .local _ .vmem, ⟨74, _⟩ => ⟨S1x1280, .f32⟩
  | .local _ .vmem, ⟨75, _⟩ => ⟨S1x1, .f32⟩
  | .local _ .vmem, ⟨76, _⟩ => ⟨S512x1, .f32⟩
  | .local _ .vmem, ⟨77, _⟩ => ⟨S512x1, .f32⟩
  | .local _ .vmem, ⟨78, _⟩ => ⟨S512x1, .bf16⟩
  | .local _ .vmem, ⟨79, _⟩ => ⟨S512x1, .bf16⟩
  | .local _ .vmem, ⟨80, _⟩ => ⟨S512x1, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | _, _ => false

abbrev semScoped : Fin 0 → Bool
  | ⟨_, h⟩ => absurd h (Nat.not_lt_zero _)

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  ofTc nBuf bufTy 0 74 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1_0 : Ref sig .tc := ⟨.hbm, 24, rfl⟩
abbrev main_v1_1 : Ref sig .tc := ⟨.hbm, 25, rfl⟩
abbrev main_v2 : Ref sig .tc := ⟨.hbm, 26, rfl⟩
abbrev main_v3_0 : Ref sig .tc := ⟨.hbm, 27, rfl⟩
abbrev main_v3_1 : Ref sig .tc := ⟨.hbm, 28, rfl⟩
abbrev main_v4 : Ref sig .tc := ⟨.hbm, 29, rfl⟩
abbrev main_v5_0 : Ref sig .tc := ⟨.hbm, 30, rfl⟩
abbrev main_v5_1 : Ref sig .tc := ⟨.hbm, 31, rfl⟩
abbrev main_v6 : Ref sig .tc := ⟨.hbm, 32, rfl⟩
abbrev main_v7_0 : Ref sig .tc := ⟨.hbm, 33, rfl⟩
abbrev main_v7_1 : Ref sig .tc := ⟨.hbm, 34, rfl⟩
abbrev main_v8 : Ref sig .tc := ⟨.hbm, 35, rfl⟩
abbrev main_v9_0 : Ref sig .tc := ⟨.hbm, 36, rfl⟩
abbrev main_v9_1 : Ref sig .tc := ⟨.hbm, 37, rfl⟩
abbrev main_v10 : Ref sig .tc := ⟨.hbm, 38, rfl⟩
abbrev main_v11_0 : Ref sig .tc := ⟨.hbm, 39, rfl⟩
abbrev main_v11_1 : Ref sig .tc := ⟨.hbm, 40, rfl⟩
abbrev main_v12 : Ref sig .tc := ⟨.hbm, 41, rfl⟩
abbrev main_v13 : Ref sig .tc := ⟨.hbm, 42, rfl⟩
abbrev main_v14_0 : Ref sig .tc := ⟨.hbm, 43, rfl⟩
abbrev main_v14_1 : Ref sig .tc := ⟨.hbm, 44, rfl⟩
abbrev main_v15 : Ref sig .tc := ⟨.hbm, 45, rfl⟩
abbrev main_v16 : Ref sig .tc := ⟨.hbm, 46, rfl⟩
abbrev main_cst : Ref sig .tc := ⟨.hbm, 47, rfl⟩
abbrev main_v17 : Ref sig .tc := ⟨.hbm, 48, rfl⟩
abbrev main_cst_0 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_scratch0 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg3_1 : Ref sig .tc := ⟨.vmem, 33, rfl⟩
abbrev cc2_stg4_0 : Ref sig .tc := ⟨.vmem, 34, rfl⟩
abbrev cc2_stg4_1 : Ref sig .tc := ⟨.vmem, 35, rfl⟩
abbrev cc2_stg5_0 : Ref sig .tc := ⟨.vmem, 36, rfl⟩
abbrev cc2_stg5_1 : Ref sig .tc := ⟨.vmem, 37, rfl⟩
abbrev cc2_scratch0 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg2_0 : Ref sig .tc := ⟨.vmem, 42, rfl⟩
abbrev cc3_stg3_0 : Ref sig .tc := ⟨.vmem, 43, rfl⟩
abbrev cc3_stg4_0 : Ref sig .tc := ⟨.vmem, 44, rfl⟩
abbrev cc3_stg4_1 : Ref sig .tc := ⟨.vmem, 45, rfl⟩
abbrev cc3_stg5_0 : Ref sig .tc := ⟨.vmem, 46, rfl⟩
abbrev cc3_stg5_1 : Ref sig .tc := ⟨.vmem, 47, rfl⟩
abbrev cc3_scratch0 : Ref sig .tc := ⟨.vmem, 48, rfl⟩
abbrev cc4_stg0_0 : Ref sig .tc := ⟨.vmem, 49, rfl⟩
abbrev cc4_stg0_1 : Ref sig .tc := ⟨.vmem, 50, rfl⟩
abbrev cc4_stg1_0 : Ref sig .tc := ⟨.vmem, 51, rfl⟩
abbrev cc4_stg2_0 : Ref sig .tc := ⟨.vmem, 52, rfl⟩
abbrev cc4_stg3_0 : Ref sig .tc := ⟨.vmem, 53, rfl⟩
abbrev cc4_stg4_0 : Ref sig .tc := ⟨.vmem, 54, rfl⟩
abbrev cc4_stg4_1 : Ref sig .tc := ⟨.vmem, 55, rfl⟩
abbrev cc4_stg5_0 : Ref sig .tc := ⟨.vmem, 56, rfl⟩
abbrev cc4_stg5_1 : Ref sig .tc := ⟨.vmem, 57, rfl⟩
abbrev cc4_scratch0 : Ref sig .tc := ⟨.vmem, 58, rfl⟩
abbrev cc5_stg0_0 : Ref sig .tc := ⟨.vmem, 59, rfl⟩
abbrev cc5_stg0_1 : Ref sig .tc := ⟨.vmem, 60, rfl⟩
abbrev cc5_stg1_0 : Ref sig .tc := ⟨.vmem, 61, rfl⟩
abbrev cc5_stg2_0 : Ref sig .tc := ⟨.vmem, 62, rfl⟩
abbrev cc5_stg3_0 : Ref sig .tc := ⟨.vmem, 63, rfl⟩
abbrev cc5_stg4_0 : Ref sig .tc := ⟨.vmem, 64, rfl⟩
abbrev cc5_stg4_1 : Ref sig .tc := ⟨.vmem, 65, rfl⟩
abbrev cc5_stg5_0 : Ref sig .tc := ⟨.vmem, 66, rfl⟩
abbrev cc5_stg5_1 : Ref sig .tc := ⟨.vmem, 67, rfl⟩
abbrev cc5_scratch0 : Ref sig .tc := ⟨.vmem, 68, rfl⟩
abbrev cc6_stg0_0 : Ref sig .tc := ⟨.vmem, 69, rfl⟩
abbrev cc6_stg0_1 : Ref sig .tc := ⟨.vmem, 70, rfl⟩
abbrev cc6_stg1_0 : Ref sig .tc := ⟨.vmem, 71, rfl⟩
abbrev cc6_stg1_1 : Ref sig .tc := ⟨.vmem, 72, rfl⟩
abbrev cc6_stg2_0 : Ref sig .tc := ⟨.vmem, 73, rfl⟩
abbrev cc6_stg2_1 : Ref sig .tc := ⟨.vmem, 74, rfl⟩
abbrev cc6_stg3_0 : Ref sig .tc := ⟨.vmem, 75, rfl⟩
abbrev cc6_stg4_0 : Ref sig .tc := ⟨.vmem, 76, rfl⟩
abbrev cc6_stg4_1 : Ref sig .tc := ⟨.vmem, 77, rfl⟩
abbrev cc6_stg5_0 : Ref sig .tc := ⟨.vmem, 78, rfl⟩
abbrev cc6_stg5_1 : Ref sig .tc := ⟨.vmem, 79, rfl⟩
abbrev cc6_scratch0 : Ref sig .tc := ⟨.vmem, 80, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem4_1 : DmaSem sig := 33
abbrev cc2_sem5_0 : DmaSem sig := 34
abbrev cc2_sem5_1 : DmaSem sig := 35
abbrev cc3_sem0_0 : DmaSem sig := 36
abbrev cc3_sem0_1 : DmaSem sig := 37
abbrev cc3_sem1_0 : DmaSem sig := 38
abbrev cc3_sem2_0 : DmaSem sig := 39
abbrev cc3_sem3_0 : DmaSem sig := 40
abbrev cc3_sem4_0 : DmaSem sig := 41
abbrev cc3_sem4_1 : DmaSem sig := 42
abbrev cc3_sem5_0 : DmaSem sig := 43
abbrev cc3_sem5_1 : DmaSem sig := 44
abbrev cc4_sem0_0 : DmaSem sig := 45
abbrev cc4_sem0_1 : DmaSem sig := 46
abbrev cc4_sem1_0 : DmaSem sig := 47
abbrev cc4_sem2_0 : DmaSem sig := 48
abbrev cc4_sem3_0 : DmaSem sig := 49
abbrev cc4_sem4_0 : DmaSem sig := 50
abbrev cc4_sem4_1 : DmaSem sig := 51
abbrev cc4_sem5_0 : DmaSem sig := 52
abbrev cc4_sem5_1 : DmaSem sig := 53
abbrev cc5_sem0_0 : DmaSem sig := 54
abbrev cc5_sem0_1 : DmaSem sig := 55
abbrev cc5_sem1_0 : DmaSem sig := 56
abbrev cc5_sem2_0 : DmaSem sig := 57
abbrev cc5_sem3_0 : DmaSem sig := 58
abbrev cc5_sem4_0 : DmaSem sig := 59
abbrev cc5_sem4_1 : DmaSem sig := 60
abbrev cc5_sem5_0 : DmaSem sig := 61
abbrev cc5_sem5_1 : DmaSem sig := 62
abbrev cc6_sem0_0 : DmaSem sig := 63
abbrev cc6_sem0_1 : DmaSem sig := 64
abbrev cc6_sem1_0 : DmaSem sig := 65
abbrev cc6_sem1_1 : DmaSem sig := 66
abbrev cc6_sem2_0 : DmaSem sig := 67
abbrev cc6_sem2_1 : DmaSem sig := 68
abbrev cc6_sem3_0 : DmaSem sig := 69
abbrev cc6_sem4_0 : DmaSem sig := 70
abbrev cc6_sem4_1 : DmaSem sig := 71
abbrev cc6_sem5_0 : DmaSem sig := 72
abbrev cc6_sem5_1 : DmaSem sig := 73

abbrev nD : Nat := 1
abbrev τ : Topo := Topo.v7x

variable {F : FTy → Type} [FloatOps F]

abbrev grid0 : Pipeline.Grid := ⟨3, ![8, 8, 8], ![false, false, false]⟩

def k0_cond2 (i : grid0.Coords) : BitVec 1 :=
  let arg2 : BitVec 32 := BitVec.ofNat 32 (i 2).val
  let c7_i32 : BitVec 32 := 7#32
  let v15 : BitVec 1 := Scalar.cmpi .eq arg2 c7_i32
  let v16 : BitVec 32 := Scalar.extui v15
  let c0_i32_10 : BitVec 32 := 0#32
  let v17 : BitVec 1 := Scalar.cmpi .ne v16 c0_i32_10
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_10 : BitVec 32 := 0#32
  let v17 : BitVec 1 := Scalar.cmpi .ne v16 c0_i32_10
  v17

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S512x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev grid2 : Pipeline.Grid := ⟨3, ![8, 2, 2], ![false, false, false]⟩

def k2_cond2 (i : grid2.Coords) : BitVec 1 :=
  let arg2 : BitVec 32 := BitVec.ofNat 32 (i 2).val
  let c1_i32 : BitVec 32 := 1#32
  let v15 : BitVec 1 := Scalar.cmpi .eq arg2 c1_i32
  let v16 : BitVec 32 := Scalar.extui v15
  let c0_i32_10 : BitVec 32 := 0#32
  let v17 : BitVec 1 := Scalar.cmpi .ne v16 c0_i32_10
  v17

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, true]

abbrev stage2_3 : Fin 2 → Memref sig .tc .vmem S1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true, false]

abbrev stage2_4 : Fin 2 → Memref sig .tc .vmem S512x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

abbrev stage2_5 : Fin 2 → Memref sig .tc .vmem S512x512 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, false]

abbrev grid3 : Pipeline.Grid := ⟨3, ![8, 1, 1], ![false, false, false]⟩

def k3_cond2 (i : grid3.Coords) : BitVec 1 :=
  let arg2 : BitVec 32 := BitVec.ofNat 32 (i 2).val
  let c0_i32_10 : BitVec 32 := 0#32
  let v15 : BitVec 1 := Scalar.cmpi .eq arg2 c0_i32_10
  let v16 : BitVec 32 := Scalar.extui v15
  let c0_i32_11 : BitVec 32 := 0#32
  let v17 : BitVec 1 := Scalar.cmpi .ne v16 c0_i32_11
  v17

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_4 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_5 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S512x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 1 → Memref sig .tc .vmem S512x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, true, true]

abbrev stage3_3 : Fin 1 → Memref sig .tc .vmem S1x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, true, false]

abbrev stage3_4 : Fin 2 → Memref sig .tc .vmem S512x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, false]

abbrev stage3_5 : Fin 2 → Memref sig .tc .vmem S512x512 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true, false]

abbrev grid4 : Pipeline.Grid := ⟨3, ![8, 1, 1], ![false, false, false]⟩

def k4_cond2 (i : grid4.Coords) : BitVec 1 :=
  let arg2 : BitVec 32 := BitVec.ofNat 32 (i 2).val
  let c0_i32_10 : BitVec 32 := 0#32
  let v15 : BitVec 1 := Scalar.cmpi .eq arg2 c0_i32_10
  let v16 : BitVec 32 := Scalar.extui v15
  let c0_i32_11 : BitVec 32 := 0#32
  let v17 : BitVec 1 := Scalar.cmpi .ne v16 c0_i32_11
  v17

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc4_transform_4 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc4_transform_5 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S512x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S256x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 1 → Memref sig .tc .vmem S256x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, true, true]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, true, false]

abbrev stage4_4 : Fin 2 → Memref sig .tc .vmem S512x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true, false]

abbrev stage4_5 : Fin 2 → Memref sig .tc .vmem S512x256 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true, false]

abbrev grid5 : Pipeline.Grid := ⟨3, ![8, 1, 1], ![false, false, false]⟩

def k5_cond2 (i : grid5.Coords) : BitVec 1 :=
  let arg2 : BitVec 32 := BitVec.ofNat 32 (i 2).val
  let c0_i32_10 : BitVec 32 := 0#32
  let v18 : BitVec 1 := Scalar.cmpi .eq arg2 c0_i32_10
  let v19 : BitVec 32 := Scalar.extui v18
  let c0_i32_11 : BitVec 32 := 0#32
  let v20 : BitVec 1 := Scalar.cmpi .ne v19 c0_i32_11
  v20

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_3 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc5_transform_4 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc5_transform_5 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S512x256 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, true, true]

abbrev stage5_3 : Fin 1 → Memref sig .tc .vmem S1x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, true, false]

abbrev stage5_4 : Fin 2 → Memref sig .tc .vmem S512x1 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true, false]

abbrev stage5_5 : Fin 2 → Memref sig .tc .vmem S512x1 .bf16 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, true, false]

abbrev grid6 : Pipeline.Grid := ⟨3, ![8, 1, 6], ![false, false, false]⟩

def k6_cond2 (i : grid6.Coords) : BitVec 1 :=
  let arg2 : BitVec 32 := BitVec.ofNat 32 (i 2).val
  let c5_i32 : BitVec 32 := 5#32
  let v17 : BitVec 1 := Scalar.cmpi .eq arg2 c5_i32
  let v18 : BitVec 32 := Scalar.extui v17
  let c0_i32_10 : BitVec 32 := 0#32
  let v19 : BitVec 1 := Scalar.cmpi .ne v18 c0_i32_10
  v19

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc6_transform_3 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc6_transform_4 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc6_transform_5 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S512x1280 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S1x1280 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1x1280 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![false, true, true]

abbrev stage6_3 : Fin 1 → Memref sig .tc .vmem S1x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false, true, false]

abbrev stage6_4 : Fin 2 → Memref sig .tc .vmem S512x1 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, true, false]

abbrev stage6_5 : Fin 2 → Memref sig .tc .vmem S512x1 .bf16 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true, true, false]

class Facts₀ : Prop where
  shapeCasts_S4096_S1x4096 : S4096.ShapeCasts S1x4096
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  packedbf16_S512x512_S512x512_0_0 : (Rect.unit (s := S512x512) ![0, 0] S512x512.size inb_S512x512_S512x512_0_0).PackedRows (EltTy.packing .bf16)
  shapeCasts_S2048_S1x2048 : S2048.ShapeCasts S1x2048
  shapeCasts_S512x1024_S512x1024 : S512x1024.ShapeCasts S512x1024
  shapeCasts_S1024_S1x1024 : S1024.ShapeCasts S1x1024
  shapeCasts_S512_S1x512 : S512.ShapeCasts S1x512
  shapeCasts_S256_S1x256 : S256.ShapeCasts S1x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x512_S256x512_0_0 : ∀ a, (![0, 0] : Fin 2 → Nat) a + S256x512.size a ≤ S256x512.size a
  h_S256x512 : 0 < S256x512.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  packedbf16_S512x256_S512x256_0_0 : (Rect.unit (s := S512x256) ![0, 0] S512x256.size inb_S512x256_S512x256_0_0).PackedRows (EltTy.packing .bf16)
  shapeCasts_S1_S1x1 : S1.ShapeCasts S1x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  reduces_S512x256_S512 : S512x256.Reduces [1] S512
  shapeCasts_S512_S512x1 : S512.ShapeCasts S512x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  packedbf16_S512x1_S512x1_0_0 : (Rect.unit (s := S512x1) ![0, 0] S512x1.size inb_S512x1_S512x1_0_0).PackedRows (EltTy.packing .bf16)
  concatenates_S4096x4096_S4096x2048_S4096x1024_S4096x512_S4096x7680_d1 : Shape.Concatenates [S4096x4096, S4096x2048, S4096x1024, S4096x512] S4096x7680 1
  inb_S512x1280_S512x1280_0_0 : ∀ a, (![0, 0] : Fin 2 → Nat) a + S512x1280.size a ≤ S512x1280.size a
  h_S512x1280 : 0 < S512x1280.numel
  shapeCasts_S512x1280_S512x1280 : S512x1280.ShapeCasts S512x1280
  inb_S1x1280_S1x1280_0_0 : ∀ a, (![0, 0] : Fin 2 → Nat) a + S1x1280.size a ≤ S1x1280.size a
  h_S1x1280 : 0 < S1x1280.numel
  broadcasts_S1x1280_S512x1280 : S1x1280.Broadcasts S512x1280
  reduces_S512x1280_S512 : S512x1280.Reduces [1] S512
  bcast_S_S4096x1 : S_.BroadcastsInDim S4096x1 (![] : Fin 0 → Fin S4096x1.rank)
  shapeCasts_S4096x1_S4096 : S4096x1.ShapeCasts S4096
  dot_S512x1024_S512x1024_S512x512_1_1_0_0_n_n_wf : DotDims.WF S512x1024 S512x1024 S512x512 [1] [1] [0] [0] [] []
  dot_S512x512_S256x512_S512x256_1_1_0_0_n_n_wf : DotDims.WF S512x512 S256x512 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x8192.size a
  hwx0_0 : ∀ i : grid0.Coords, EltTy.bits .f32 = 32 ∨ (Rect.block (s := S4096x8192) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x8192.size a
  hwx0_1 : ∀ i : grid0.Coords, EltTy.bits .f32 = 32 ∨ (Rect.block (s := S4096x8192) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x8192.size a
  hwx0_2 : ∀ i : grid0.Coords, EltTy.bits .f32 = 32 ∨ (Rect.block (s := S4096x8192) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S4096x4096.size a
  hwx0_4 : ∀ i : grid0.Coords, EltTy.bits .f32 = 32 ∨ (Rect.block (s := S4096x4096) S512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S4096x4096.size a
  hwx0_5 : ∀ i : grid0.Coords, EltTy.bits .bf16 = 32 ∨ (Rect.block (s := S4096x4096) S512x512.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x4096.size a
  hwx1_0 : ∀ i : grid1.Coords, EltTy.bits .bf16 = 32 ∨ (Rect.block (s := S4096x4096) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S2048x4096.size a
  hwx1_1 : ∀ i : grid1.Coords, EltTy.bits .f32 = 32 ∨ (Rect.block (s := S2048x4096) S512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S2048x4096.size a
  hwx1_2 : ∀ i : grid1.Coords, EltTy.bits .f32 = 32 ∨ (Rect.block (s := S2048x4096) S512x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x2048.size a
  hwx1_3 : ∀ i : grid1.Coords, EltTy.bits .f32 = 32 ∨ (Rect.block (s := S1x2048) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S4096x2048.size a
  hwx1_4 : ∀ i : grid1.Coords, EltTy.bits .f32 = 32 ∨ (Rect.block (s := S4096x2048) S512x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S4096x2048.size a
  hwx1_5 : ∀ i : grid1.Coords, EltTy.bits .bf16 = 32 ∨ (Rect.block (s := S4096x2048) S512x512.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x2048.size a
  hwx2_0 : ∀ i : grid2.Coords, EltTy.bits .bf16 = 32 ∨ (Rect.block (s := S4096x2048) S512x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S1024x2048.size a
  hwx2_1 : ∀ i : grid2.Coords, EltTy.bits .f32 = 32 ∨ (Rect.block (s := S1024x2048) S512x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S1024x2048.size a
  hwx2_2 : ∀ i : grid2.Coords, EltTy.bits .f32 = 32 ∨ (Rect.block (s := S1024x2048) S512x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x1024.size a
  hwx2_3 : ∀ i : grid2.Coords, EltTy.bits .f32 = 32 ∨ (Rect.block (s := S1x1024) S1x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x512.size a ≤ S4096x1024.size a
  hwx2_4 : ∀ i : grid2.Coords, EltTy.bits .f32 = 32 ∨ (Rect.block (s := S4096x1024) S512x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x512.size a ≤ S4096x1024.size a
  hwx2_5 : ∀ i : grid2.Coords, EltTy.bits .bf16 = 32 ∨ (Rect.block (s := S4096x1024) S512x512.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x1024.size a ≤ S4096x1024.size a
  hwx3_0 : ∀ i : grid3.Coords, EltTy.bits .bf16 = 32 ∨ (Rect.block (s := S4096x1024) S512x1024.size (cc3_transform_0 i) (hinb3_0 i)).WholeWords (EltTy.packing .bf16)
  hstage3_1 : ∀ j, (stage3_1 j).IsWhole
  nbuf3_1 : grid3.bufCount reads3_1 false = 1
  hreads3_1 : ∀ i i' : grid3.Coords, (∀ a, reads3_1 a = true → i a = i' a) → cc3_transform_1 i = cc3_transform_1 i'
  hinb3_1 : ∀ (i : grid3.Coords) a, (cc3_transform_1 i a + 1) * S512x1024.size a ≤ S512x1024.size a
  hwx3_1 : ∀ i : grid3.Coords, EltTy.bits .f32 = 32 ∨ (Rect.block (s := S512x1024) S512x1024.size (cc3_transform_1 i) (hinb3_1 i)).WholeWords (EltTy.packing .f32)
  hstage3_2 : ∀ j, (stage3_2 j).IsWhole
  nbuf3_2 : grid3.bufCount reads3_2 false = 1
  hreads3_2 : ∀ i i' : grid3.Coords, (∀ a, reads3_2 a = true → i a = i' a) → cc3_transform_2 i = cc3_transform_2 i'
  hinb3_2 : ∀ (i : grid3.Coords) a, (cc3_transform_2 i a + 1) * S512x1024.size a ≤ S512x1024.size a
  hwx3_2 : ∀ i : grid3.Coords, EltTy.bits .f32 = 32 ∨ (Rect.block (s := S512x1024) S512x1024.size (cc3_transform_2 i) (hinb3_2 i)).WholeWords (EltTy.packing .f32)
  hstage3_3 : ∀ j, (stage3_3 j).IsWhole
  nbuf3_3 : grid3.bufCount reads3_3 false = 1
  hreads3_3 : ∀ i i' : grid3.Coords, (∀ a, reads3_3 a = true → i a = i' a) → cc3_transform_3 i = cc3_transform_3 i'
  hinb3_3 : ∀ (i : grid3.Coords) a, (cc3_transform_3 i a + 1) * S1x512.size a ≤ S1x512.size a
  hwx3_3 : ∀ i : grid3.Coords, EltTy.bits .f32 = 32 ∨ (Rect.block (s := S1x512) S1x512.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S512x512.size a ≤ S4096x512.size a
  hwx3_4 : ∀ i : grid3.Coords, EltTy.bits .f32 = 32 ∨ (Rect.block (s := S4096x512) S512x512.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S512x512.size a ≤ S4096x512.size a
  hwx3_5 : ∀ i : grid3.Coords, EltTy.bits .bf16 = 32 ∨ (Rect.block (s := S4096x512) S512x512.size (cc3_transform_5 i) (hinb3_5 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x512.size a ≤ S4096x512.size a
  hwx4_0 : ∀ i : grid4.Coords, EltTy.bits .bf16 = 32 ∨ (Rect.block (s := S4096x512) S512x512.size (cc4_transform_0 i) (hinb4_0 i)).WholeWords (EltTy.packing .bf16)
  hstage4_1 : ∀ j, (stage4_1 j).IsWhole
  nbuf4_1 : grid4.bufCount reads4_1 false = 1
  hreads4_1 : ∀ i i' : grid4.Coords, (∀ a, reads4_1 a = true → i a = i' a) → cc4_transform_1 i = cc4_transform_1 i'
  hinb4_1 : ∀ (i : grid4.Coords) a, (cc4_transform_1 i a + 1) * S256x512.size a ≤ S256x512.size a
  hwx4_1 : ∀ i : grid4.Coords, EltTy.bits .f32 = 32 ∨ (Rect.block (s := S256x512) S256x512.size (cc4_transform_1 i) (hinb4_1 i)).WholeWords (EltTy.packing .f32)
  hstage4_2 : ∀ j, (stage4_2 j).IsWhole
  nbuf4_2 : grid4.bufCount reads4_2 false = 1
  hreads4_2 : ∀ i i' : grid4.Coords, (∀ a, reads4_2 a = true → i a = i' a) → cc4_transform_2 i = cc4_transform_2 i'
  hinb4_2 : ∀ (i : grid4.Coords) a, (cc4_transform_2 i a + 1) * S256x512.size a ≤ S256x512.size a
  hwx4_2 : ∀ i : grid4.Coords, EltTy.bits .f32 = 32 ∨ (Rect.block (s := S256x512) S256x512.size (cc4_transform_2 i) (hinb4_2 i)).WholeWords (EltTy.packing .f32)
  hstage4_3 : ∀ j, (stage4_3 j).IsWhole
  nbuf4_3 : grid4.bufCount reads4_3 false = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S512x256.size a ≤ S4096x256.size a
  hwx4_4 : ∀ i : grid4.Coords, EltTy.bits .f32 = 32 ∨ (Rect.block (s := S4096x256) S512x256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S512x256.size a ≤ S4096x256.size a
  hwx4_5 : ∀ i : grid4.Coords, EltTy.bits .bf16 = 32 ∨ (Rect.block (s := S4096x256) S512x256.size (cc4_transform_5 i) (hinb4_5 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x256.size a ≤ S4096x256.size a
  hwx5_0 : ∀ i : grid5.Coords, EltTy.bits .bf16 = 32 ∨ (Rect.block (s := S4096x256) S512x256.size (cc5_transform_0 i) (hinb5_0 i)).WholeWords (EltTy.packing .bf16)
  hstage5_1 : ∀ j, (stage5_1 j).IsWhole
  nbuf5_1 : grid5.bufCount reads5_1 false = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 false = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 false = 1
  hreads5_3 : ∀ i i' : grid5.Coords, (∀ a, reads5_3 a = true → i a = i' a) → cc5_transform_3 i = cc5_transform_3 i'
  hinb5_3 : ∀ (i : grid5.Coords) a, (cc5_transform_3 i a + 1) * S1x1.size a ≤ S1x1.size a
  hwx5_3 : ∀ i : grid5.Coords, EltTy.bits .f32 = 32 ∨ (Rect.block (s := S1x1) S1x1.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S512x1.size a ≤ S4096x1.size a
  hwx5_4 : ∀ i : grid5.Coords, EltTy.bits .f32 = 32 ∨ (Rect.block (s := S4096x1) S512x1.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S512x1.size a ≤ S4096x1.size a
  hwx5_5 : ∀ i : grid5.Coords, EltTy.bits .bf16 = 32 ∨ (Rect.block (s := S4096x1) S512x1.size (cc5_transform_5 i) (hinb5_5 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S512x1280.size a ≤ S4096x7680.size a
  hwx6_0 : ∀ i : grid6.Coords, EltTy.bits .f32 = 32 ∨ (Rect.block (s := S4096x7680) S512x1280.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1x1280.size a ≤ S1x7680.size a
  hwx6_1 : ∀ i : grid6.Coords, EltTy.bits .f32 = 32 ∨ (Rect.block (s := S1x7680) S1x1280.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1x1280.size a ≤ S1x7680.size a
  hwx6_2 : ∀ i : grid6.Coords, EltTy.bits .f32 = 32 ∨ (Rect.block (s := S1x7680) S1x1280.size (cc6_transform_2 i) (hinb6_2 i)).WholeWords (EltTy.packing .f32)
  hstage6_3 : ∀ j, (stage6_3 j).IsWhole
  nbuf6_3 : grid6.bufCount reads6_3 false = 1
  hreads6_3 : ∀ i i' : grid6.Coords, (∀ a, reads6_3 a = true → i a = i' a) → cc6_transform_3 i = cc6_transform_3 i'
  hinb6_3 : ∀ (i : grid6.Coords) a, (cc6_transform_3 i a + 1) * S1x1.size a ≤ S1x1.size a
  hwx6_3 : ∀ i : grid6.Coords, EltTy.bits .f32 = 32 ∨ (Rect.block (s := S1x1) S1x1.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S512x1.size a ≤ S4096x1.size a
  hwx6_4 : ∀ i : grid6.Coords, EltTy.bits .f32 = 32 ∨ (Rect.block (s := S4096x1) S512x1.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S512x1.size a ≤ S4096x1.size a
  hwx6_5 : ∀ i : grid6.Coords, EltTy.bits .bf16 = 32 ∨ (Rect.block (s := S4096x1) S512x1.size (cc6_transform_5 i) (hinb6_5 i)).WholeWords (EltTy.packing .bf16)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S256x512_S512x256_1_1_0_0_n_n : DotDims S512x512 S256x512 S512x256 where
  lhsContracting := [1]
  rhsContracting := [1]
  lhsNonContracting := [0]
  rhsNonContracting := [0]
  lhsBatch := []
  rhsBatch := []
  wf := dot_S512x512_S256x512_S512x256_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S512x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v1_1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3_0) S512x512.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3_1) S512x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun i => !(k1_cond2 i == 1#1) | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v3_1) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S512x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S512x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4) S1x512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v5_0) S512x512.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v5_1) S512x512.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun i => !(k2_cond2 i == 1#1) | 5 => fun i => !(k2_cond2 i == 1#1) | ⟨_ + 6, h⟩ => absurd h (Nat.not_lt.2 (Nat.le_add_left _ _))

abbrev win3_0 : Pipeline.Window sig grid3 :=
  Pipeline.Window.ofSpec (Memref.whole main_v5_1) S512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S512x1024.size cc3_transform_1 reads3_1 false false 1 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S512x1024.size cc3_transform_2 reads3_2 false false 1 stage3_2 sem3_2
    hrank3 hreads3_2 hinb3_2 nbuf3_2 (Memref.isWhole_whole _) hwx3_2 hstage3_2

abbrev win3_3 : Pipeline.Window sig grid3 :=
  Pipeline.Window.ofSpec (Memref.whole main_v6) S1x512.size cc3_transform_3 reads3_3 false false 1 stage3_3 sem3_3
    hrank3 hreads3_3 hinb3_3 nbuf3_3 (Memref.isWhole_whole _) hwx3_3 hstage3_3

abbrev win3_4 : Pipeline.Window sig grid3 :=
  Pipeline.Window.ofSpec (Memref.whole main_v7_0) S512x512.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v7_1) S512x512.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun i => !(k3_cond2 i == 1#1) | 5 => fun i => !(k3_cond2 i == 1#1) | ⟨_ + 6, h⟩ => absurd h (Nat.not_lt.2 (Nat.le_add_left _ _))

abbrev win4_0 : Pipeline.Window sig grid4 :=
  Pipeline.Window.ofSpec (Memref.whole main_v7_1) S512x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg13) S256x512.size cc4_transform_1 reads4_1 false false 1 stage4_1 sem4_1
    hrank4 hreads4_1 hinb4_1 nbuf4_1 (Memref.isWhole_whole _) hwx4_1 hstage4_1

abbrev win4_2 : Pipeline.Window sig grid4 :=
  Pipeline.Window.ofSpec (Memref.whole main_arg15) S256x512.size cc4_transform_2 reads4_2 false false 1 stage4_2 sem4_2
    hrank4 hreads4_2 hinb4_2 nbuf4_2 (Memref.isWhole_whole _) hwx4_2 hstage4_2

abbrev win4_3 : Pipeline.Window sig grid4 :=
  Pipeline.Window.ofSpec (Memref.whole main_v8) S1x256.size cc4_transform_3 reads4_3 false false 1 stage4_3 sem4_3
    hrank4 hreads4_3 hinb4_3 nbuf4_3 (Memref.isWhole_whole _) hwx4_3 hstage4_3

abbrev win4_4 : Pipeline.Window sig grid4 :=
  Pipeline.Window.ofSpec (Memref.whole main_v9_0) S512x256.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v9_1) S512x256.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev idle4 : Fin 6 → grid4.Coords → Bool := fun | 0 => fun _ => false | 1 => fun _ => false | 2 => fun _ => false | 3 => fun _ => false | 4 => fun i => !(k4_cond2 i == 1#1) | 5 => fun i => !(k4_cond2 i == 1#1) | ⟨_ + 6, h⟩ => absurd h (Nat.not_lt.2 (Nat.le_add_left _ _))

abbrev win5_0 : Pipeline.Window sig grid5 :=
  Pipeline.Window.ofSpec (Memref.whole main_v9_1) S512x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg16) S1x256.size cc5_transform_1 reads5_1 false false 1 stage5_1 sem5_1
    hrank5 hreads5_1 hinb5_1 nbuf5_1 (Memref.isWhole_whole _) hwx5_1 hstage5_1

abbrev win5_2 : Pipeline.Window sig grid5 :=
  Pipeline.Window.ofSpec (Memref.whole main_arg18) S1x256.size cc5_transform_2 reads5_2 false false 1 stage5_2 sem5_2
    hrank5 hreads5_2 hinb5_2 nbuf5_2 (Memref.isWhole_whole _) hwx5_2 hstage5_2

abbrev win5_3 : Pipeline.Window sig grid5 :=
  Pipeline.Window.ofSpec (Memref.whole main_v10) S1x1.size cc5_transform_3 reads5_3 false false 1 stage5_3 sem5_3
    hrank5 hreads5_3 hinb5_3 nbuf5_3 (Memref.isWhole_whole _) hwx5_3 hstage5_3

abbrev win5_4 : Pipeline.Window sig grid5 :=
  Pipeline.Window.ofSpec (Memref.whole main_v11_0) S512x1.size cc5_transform_4 reads5_4 true false 2 stage5_4 sem5_4
    hrank5 hreads5_4 hinb5_4 nbuf5_4 (Memref.isWhole_whole _) hwx5_4 hstage5_4

abbrev win5_5 : Pipeline.Window sig grid5 :=
  Pipeline.Window.ofSpec (Memref.whole main_v11_1) S512x1.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev idle5 : Fin 6 → grid5.Coords → Bool := fun | 0 => fun _ => false | 1 => fun _ => false | 2 => fun _ => false | 3 => fun _ => false | 4 => fun i => !(k5_cond2 i == 1#1) | 5 => fun i => !(k5_cond2 i == 1#1) | ⟨_ + 6, h⟩ => absurd h (Nat.not_lt.2 (Nat.le_add_left _ _))

abbrev win6_0 : Pipeline.Window sig grid6 :=
  Pipeline.Window.ofSpec (Memref.whole main_v12) S512x1280.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg19) S1x1280.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg21) S1x1280.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v13) S1x1.size cc6_transform_3 reads6_3 false false 1 stage6_3 sem6_3
    hrank6 hreads6_3 hinb6_3 nbuf6_3 (Memref.isWhole_whole _) hwx6_3 hstage6_3

abbrev win6_4 : Pipeline.Window sig grid6 :=
  Pipeline.Window.ofSpec (Memref.whole main_v14_0) S512x1.size cc6_transform_4 reads6_4 true false 2 stage6_4 sem6_4
    hrank6 hreads6_4 hinb6_4 nbuf6_4 (Memref.isWhole_whole _) hwx6_4 hstage6_4

abbrev win6_5 : Pipeline.Window sig grid6 :=
  Pipeline.Window.ofSpec (Memref.whole main_v14_1) S512x1.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev idle6 : Fin 6 → grid6.Coords → Bool := fun | 0 => fun _ => false | 1 => fun _ => false | 2 => fun _ => false | 3 => fun _ => false | 4 => fun i => !(k6_cond2 i == 1#1) | 5 => fun i => !(k6_cond2 i == 1#1) | ⟨_ + 6, h⟩ => absurd h (Nat.not_lt.2 (Nat.le_add_left _ _))

class Facts : Prop extends Facts₀ where

variable [Facts]
-- ==== ReferenceIdeal.lean ====
abbrev S4096x8192 : Shape := ⟨2, ![4096, 8192]⟩
abbrev S4096 : Shape := ⟨1, ![4096]⟩
abbrev S2048x4096 : Shape := ⟨2, ![2048, 4096]⟩
abbrev S2048 : Shape := ⟨1, ![2048]⟩
abbrev S1024x2048 : Shape := ⟨2, ![1024, 2048]⟩
abbrev S1024 : Shape := ⟨1, ![1024]⟩
abbrev S512x1024 : Shape := ⟨2, ![512, 1024]⟩
abbrev S512 : Shape := ⟨1, ![512]⟩
abbrev S256x512 : Shape := ⟨2, ![256, 512]⟩
abbrev S256 : Shape := ⟨1, ![256]⟩
abbrev S1x256 : Shape := ⟨2, ![1, 256]⟩
abbrev S1 : Shape := ⟨1, ![1]⟩
abbrev S1x7680 : Shape := ⟨2, ![1, 7680]⟩
abbrev S_ : Shape := ⟨0, ![]⟩
abbrev S8192x4096 : Shape := ⟨2, ![8192, 4096]⟩
abbrev S4096x4096 : Shape := ⟨2, ![4096, 4096]⟩
abbrev S1x4096 : Shape := ⟨2, ![1, 4096]⟩
abbrev S4096x2048 : Shape := ⟨2, ![4096, 2048]⟩
abbrev S1x2048 : Shape := ⟨2, ![1, 2048]⟩
abbrev S2048x1024 : Shape := ⟨2, ![2048, 1024]⟩
abbrev S4096x1024 : Shape := ⟨2, ![4096, 1024]⟩
abbrev S1x1024 : Shape := ⟨2, ![1, 1024]⟩
abbrev S1024x512 : Shape := ⟨2, ![1024, 512]⟩
abbrev S4096x512 : Shape := ⟨2, ![4096, 512]⟩
abbrev S1x512 : Shape := ⟨2, ![1, 512]⟩
abbrev S512x256 : Shape := ⟨2, ![512, 256]⟩
abbrev S4096x256 : Shape := ⟨2, ![4096, 256]⟩
abbrev S256x1 : Shape := ⟨2, ![256, 1]⟩
abbrev S4096x1 : Shape := ⟨2, ![4096, 1]⟩
abbrev S1x1 : Shape := ⟨2, ![1, 1]⟩
abbrev S4096x7680 : Shape := ⟨2, ![4096, 7680]⟩
abbrev S7680x1 : Shape := ⟨2, ![7680, 1]⟩

abbrev nBuf : Space → Nat
  | .hbm => 91
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S4096, .f32⟩
  | .hbm, ⟨3, _⟩ => ⟨S4096x8192, .f32⟩
  | .hbm, ⟨4, _⟩ => ⟨S2048x4096, .f32⟩
  | .hbm, ⟨5, _⟩ => ⟨S2048, .f32⟩
  | .hbm, ⟨6, _⟩ => ⟨S2048x4096, .f32⟩
  | .hbm, ⟨7, _⟩ => ⟨S1024x2048, .f32⟩
  | .hbm, ⟨8, _⟩ => ⟨S1024, .f32⟩
  | .hbm, ⟨9, _⟩ => ⟨S1024x2048, .f32⟩
  | .hbm, ⟨10, _⟩ => ⟨S512x1024, .f32⟩
  | .hbm, ⟨11, _⟩ => ⟨S512, .f32⟩
  | .hbm, ⟨12, _⟩ => ⟨S512x1024, .f32⟩
  | .hbm, ⟨13, _⟩ => ⟨S256x512, .f32⟩
  | .hbm, ⟨14, _⟩ => ⟨S256, .f32⟩
  | .hbm, ⟨15, _⟩ => ⟨S256x512, .f32⟩
  | .hbm, ⟨16, _⟩ => ⟨S1x256, .f32⟩
  | .hbm, ⟨17, _⟩ => ⟨S1, .f32⟩
  | .hbm, ⟨18, _⟩ => ⟨S1x256, .f32⟩
  | .hbm, ⟨19, _⟩ => ⟨S1x7680, .f32⟩
  | .hbm, ⟨20, _⟩ => ⟨S1, .f32⟩
  | .hbm, ⟨21, _⟩ => ⟨S1x7680, .f32⟩
  | .hbm, ⟨22, _⟩ => ⟨S_, .f32⟩
  | .hbm, ⟨23, _⟩ => ⟨S4096x8192, .f32⟩
  | .hbm, ⟨24, _⟩ => ⟨S8192x4096, .f32⟩
  | .hbm, ⟨25, _⟩ => ⟨S4096x4096, .f32⟩
  | .hbm, ⟨26, _⟩ => ⟨S1x4096, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S2048x4096, .f32⟩
  | .hbm, ⟨33, _⟩ => ⟨S4096x2048, .f32⟩
  | .hbm, ⟨34, _⟩ => ⟨S4096x2048, .f32⟩
  | .hbm, ⟨35, _⟩ => ⟨S1x2048, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S4096x2048, .f32⟩
  | .hbm, ⟨40, _⟩ => ⟨S4096x2048, .f32⟩
  | .hbm, ⟨41, _⟩ => ⟨S1024x2048, .f32⟩
  | .hbm, ⟨42, _⟩ => ⟨S2048x1024, .f32⟩
  | .hbm, ⟨43, _⟩ => ⟨S4096x1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S512x1024, .f32⟩
  | .hbm, ⟨51, _⟩ => ⟨S1024x512, .f32⟩
  | .hbm, ⟨52, _⟩ => ⟨S4096x512, .f32⟩
  | .hbm, ⟨53, _⟩ => ⟨S1x512, .f32⟩
  | .hbm, ⟨54, _⟩ => ⟨S4096x512, .f32⟩
  | .hbm, ⟨55, _⟩ => ⟨S4096x512, .f32⟩
  | .hbm, ⟨56, _⟩ => ⟨S_, .f32⟩
  | .hbm, ⟨57, _⟩ => ⟨S4096x512, .f32⟩
  | .hbm, ⟨58, _⟩ => ⟨S4096x512, .f32⟩
  | .hbm, ⟨59, _⟩ => ⟨S256x512, .f32⟩
  | .hbm, ⟨60, _⟩ => ⟨S512x256, .f32⟩
  | .hbm, ⟨61, _⟩ => ⟨S4096x256, .f32⟩
  | .hbm, ⟨62, _⟩ => ⟨S1x256, .f32⟩
  | .hbm, ⟨63, _⟩ => ⟨S4096x256, .f32⟩
  | .hbm, ⟨64, _⟩ => ⟨S4096x256, .f32⟩
  | .hbm, ⟨65, _⟩ => ⟨S_, .f32⟩
  | .hbm, ⟨66, _⟩ => ⟨S4096x256, .f32⟩
  | .hbm, ⟨67, _⟩ => ⟨S4096x256, .f32⟩
  | .hbm, ⟨68, _⟩ => ⟨S1x256, .f32⟩
  | .hbm, ⟨69, _⟩ => ⟨S256x1, .f32⟩
  | .hbm, ⟨70, _⟩ => ⟨S4096x1, .f32⟩
  | .hbm, ⟨71, _⟩ => ⟨S1x1, .f32⟩
  | .hbm, ⟨72, _⟩ => ⟨S4096x1, .f32⟩
  | .hbm, ⟨73, _⟩ => ⟨S4096x1, .f32⟩
  | .hbm, ⟨74, _⟩ => ⟨S4096x7680, .f32⟩
  | .hbm, ⟨75, _⟩ => ⟨S1x7680, .f32⟩
  | .hbm, ⟨76, _⟩ => ⟨S7680x1, .f32⟩
  | .hbm, ⟨77, _⟩ => ⟨S4096x1, .f32⟩
  | .hbm, ⟨78, _⟩ => ⟨S1x1, .f32⟩
  | .hbm, ⟨79, _⟩ => ⟨S4096x1, .f32⟩
  | .hbm, ⟨80, _⟩ => ⟨S4096x1, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S4096x1, .f32⟩
  | .hbm, ⟨88, _⟩ => ⟨S4096x1, .f32⟩
  | .hbm, ⟨89, _⟩ => ⟨S4096x1, .f32⟩
  | .hbm, ⟨90, _⟩ => ⟨S4096, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_call0_cst : Ref sig .tc := ⟨.hbm, 29, rfl⟩
abbrev main_call0_v0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_call1_cst : Ref sig .tc := ⟨.hbm, 38, rfl⟩
abbrev main_call1_v0 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_call2_cst : Ref sig .tc := ⟨.hbm, 47, rfl⟩
abbrev main_call2_v0 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_call3_cst : Ref sig .tc := ⟨.hbm, 56, rfl⟩
abbrev main_call3_v0 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_call4_cst : Ref sig .tc := ⟨.hbm, 65, rfl⟩
abbrev main_call4_v0 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst : Ref sig .tc := ⟨.hbm, 83, rfl⟩
abbrev main_v50 : Ref sig .tc := ⟨.hbm, 84, rfl⟩
abbrev main_cst_0 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩

abbrev nD : Nat := 1
abbrev τ : Topo := Topo.v7x

variable {F : FTy → Type} [FloatOps F]

class Facts₀ : Prop where
  transposes_S4096x8192_S8192x4096_1_0 : S4096x8192.Transposes [1, 0] S8192x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  transposes_S2048x4096_S4096x2048_1_0 : S2048x4096.Transposes [1, 0] S4096x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  transposes_S1024x2048_S2048x1024_1_0 : S1024x2048.Transposes [1, 0] S2048x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  transposes_S512x1024_S1024x512_1_0 : S512x1024.Transposes [1, 0] S1024x512
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S_S4096x512 : S_.BroadcastsInDim S4096x512 (![] : Fin 0 → Fin S4096x512.rank)
  transposes_S256x512_S512x256_1_0 : S256x512.Transposes [1, 0] S512x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  transposes_S1x256_S256x1_1_0 : S1x256.Transposes [1, 0] S256x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  concatenates_S4096x4096_S4096x2048_S4096x1024_S4096x512_S4096x7680_d1 : Shape.Concatenates [S4096x4096, S4096x2048, S4096x1024, S4096x512] S4096x7680 1
  transposes_S1x7680_S7680x1_1_0 : S1x7680.Transposes [1, 0] S7680x1
  bcast_S_S4096x1 : S_.BroadcastsInDim S4096x1 (![] : Fin 0 → Fin S4096x1.rank)
  shapeCasts_S4096x1_S4096 : S4096x1.ShapeCasts S4096
  dot_S4096x8192_S8192x4096_S4096x4096_1_0_0_1_n_n_wf : DotDims.WF S4096x8192 S8192x4096 S4096x4096 [1] [0] [0] [1] [] []
  dot_S4096x4096_S4096x2048_S4096x2048_1_0_0_1_n_n_wf : DotDims.WF S4096x4096 S4096x2048 S4096x2048 [1] [0] [0] [1] [] []
  dot_S4096x2048_S2048x1024_S4096x1024_1_0_0_1_n_n_wf : DotDims.WF S4096x2048 S2048x1024 S4096x1024 [1] [0] [0] [1] [] []
  dot_S4096x1024_S1024x512_S4096x512_1_0_0_1_n_n_wf : DotDims.WF S4096x1024 S1024x512 S4096x512 [1] [0] [0] [1] [] []
  dot_S4096x512_S512x256_S4096x256_1_0_0_1_n_n_wf : DotDims.WF S4096x512 S512x256 S4096x256 [1] [0] [0] [1] [] []
  dot_S4096x256_S256x1_S4096x1_1_0_0_1_n_n_wf : DotDims.WF S4096x256 S256x1 S4096x1 [1] [0] [0] [1] [] []
  dot_S4096x7680_S7680x1_S4096x1_1_0_0_1_n_n_wf : DotDims.WF S4096x7680 S7680x1 S4096x1 [1] [0] [0] [1] [] []

variable [Facts₀]

def dot_S4096x8192_S8192x4096_S4096x4096_1_0_0_1_n_n : DotDims S4096x8192 S8192x4096 S4096x4096 where
  lhsContracting := [1]
  rhsContracting := [0]
  lhsNonContracting := [0]
  rhsNonContracting := [1]
  lhsBatch := []
  rhsBatch := []
  wf := dot_S4096x8192_S8192x4096_S4096x4096_1_0_0_1_n_n_wf
def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def dot_S4096x2048_S2048x1024_S4096x1024_1_0_0_1_n_n : DotDims S4096x2048 S2048x1024 S4096x1024 where
  lhsContracting := [1]
  rhsContracting := [0]
  lhsNonContracting := [0]
  rhsNonContracting := [1]
  lhsBatch := []
  rhsBatch := []
  wf := dot_S4096x2048_S2048x1024_S4096x1024_1_0_0_1_n_n_wf
def dot_S4096x1024_S1024x512_S4096x512_1_0_0_1_n_n : DotDims S4096x1024 S1024x512 S4096x512 where
  lhsContracting := [1]
  rhsContracting := [0]
  lhsNonContracting := [0]
  rhsNonContracting := [1]
  lhsBatch := []
  rhsBatch := []
  wf := dot_S4096x1024_S1024x512_S4096x512_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf
def dot_S4096x7680_S7680x1_S4096x1_1_0_0_1_n_n : DotDims S4096x7680 S7680x1 S4096x1 where
  lhsContracting := [1]
  rhsContracting := [0]
  lhsNonContracting := [0]
  rhsNonContracting := [1]
  lhsBatch := []
  rhsBatch := []
  wf := dot_S4096x7680_S7680x1_S4096x1_1_0_0_1_n_n_wf

class Facts : Prop extends Facts₀ where

variable [Facts]
-- ==== Proof.Kernel.C0.lean ====
import proofs.«152868_j57621281243253_2_alg».proof.Proof.Gen.Kernel.Launch
import proofs.«152868_j57621281243253_2_alg».proof.Proof.Gen.Kernel.Skeleton
import proofs.«152868_j57621281243253_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 0: where on its grid the body's two conditionals hold, where its output windows are idle, and the
    memrefs the body is called with. The body resets its accumulator when the last grid coordinate is 0 and stores
    its two outputs when that coordinate is the last one. -/

/-- The accumulator is reset: the last grid coordinate is 0. -/
abbrev cond0_0 (i : grid0.Coords) : Prop := (Scalar.cmpi .ne (Scalar.extui (Scalar.cmpi .eq (BitVec.ofNat 32 (i 2).val) 0#32)) 0#32) = 1#1
/-- The outputs are stored: the last grid coordinate is the last one. -/
abbrev cond0_1 (i : grid0.Coords) : Prop := k0_cond2 i = 1#1

theorem hcond0_0 : ∀ t : Fin cfg0.N, cond0_0 (grid0.coords t) ↔ t.val % 8 = 0 :=
  (by decide +kernel : ∀ t : Fin grid0.N, cond0_0 (grid0.coords t) ↔ t.val % 8 = 0)
theorem hcond0_1 : ∀ t : Fin cfg0.N, cond0_1 (grid0.coords t) ↔ t.val % 8 = 7 :=
  (by decide +kernel : ∀ t : Fin grid0.N, cond0_1 (grid0.coords t) ↔ t.val % 8 = 7)
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cond0_1 (grid0.coords t) → cfg0.idle 4 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_5 : ∀ t : Fin cfg0.N, cond0_1 (grid0.coords t) → cfg0.idle 5 (grid0.coords t) = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel

/-- One staging buffer of each output window, through which its contents are stated. -/
abbrev VO0_4 : View sig .tc .vmem S512x512 .f32 := (Memref.whole cc0_stg4_0 : Memref sig .tc .vmem S512x512 .f32).view
abbrev VO0_5 : View sig .tc .vmem S512x512 .bf16 := (Memref.whole cc0_stg5_0 : Memref sig .tc .vmem S512x512 .bf16).view
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x512 .bf16 := win0_5.stage (cfg0.slots t 5)
abbrev hs0_5 (t : Fin cfg0.N) : (ms0_5 t).IsWhole := hstage0_5 ((cfg0.slots t 5).cast nbuf0_5)
/-- The accumulator: a whole buffer of the kernel's own, passed beside the windows. -/
abbrev scM0 : Memref sig .tc .vmem S512x512 .f32 := Memref.whole cc0_scratch0
abbrev VS0 : View sig .tc .vmem S512x512 .f32 := (scM0).view

/-- The region's invariant, opened at the accumulator: it at some contents, every other buffer the region does not
    stage unopened, the generator register at some state. -/
theorem PhiA0_eq (c : Dev nD) :
    (Pipeline.ΦA spec0 c : sProp 𝕄)
      = iprop(iprop((∃ d, owns (c : Thread nD τ) scM0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

end Cert.Kernel.Hand

end
-- ==== Proof.Kernel.Run0A.lean ====
import proofs.«152868_j57621281243253_2_alg».proof.Proof.Kernel.C0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 0, the body run whole in one case of its two conditionals (the accumulator is reset, the outputs are left alone):
    on whole staging memrefs holding the input blocks, the body runs to its end; what it leaves in the accumulator
    is found by the run as a list of stored pieces. -/

set_option maxHeartbeats 1000000 in
noncomputable def kernelRun0_A (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : cond0_0 i) (hc1 : ¬cond0_1 i)
    (x0 : Vec F S512x1024 .f32) (x1 : Vec F S512x1024 .f32) (x2 : Vec F S512x1024 .f32) (x3 : Vec F S1x512 .f32) :
    Σ' (L4 : List (View.Piece (Elt F) S512x512 .f32)) (L5 : List (View.Piece (Elt F) S512x512 .bf16)), { LS0 : List (View.Piece (Elt F) S512x512 .f32) //
      ∀ (xi4 : Vec F S512x512 .f32) (xi5 : Vec F S512x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi4 ∗ owns (c : Thread nD τ) arg8 fullShare xi5
                ∗ (∃ f, arg9.view.loc (c : Thread nD τ) ↦[arg9.view.set]{fullShare} arg9.view.writes (Elt F) f LS0)) -∗ K ⟨⟩))
          ⊢ wp frame (wpE (defs₀ (F := F)) Variants.none c none) E (cc0__layer_kernel i arg3 harg3 arg4 harg4 arg5 harg5 arg6 harg6 arg7 harg7 arg8 harg8 arg9 harg9) K } := by
  refine ⟨[], [], ?_, fun xi4 xi5 E K => ?run⟩
  case run =>
    simp only [cc0__layer_kernel_eq_skeleton]; unfold cc0__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Hand

end
-- ==== Proof.Kernel.Run0B.lean ====
import proofs.«152868_j57621281243253_2_alg».proof.Proof.Kernel.C0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 0, the body run whole in one case of its two conditionals (the accumulator is carried in, the outputs are left alone):
    on whole staging memrefs holding the input blocks, the body runs to its end; what it leaves in the accumulator
    is found by the run as a list of stored pieces. -/

set_option maxHeartbeats 1000000 in
noncomputable def kernelRun0_B (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond0_0 i) (hc1 : ¬cond0_1 i)
    (x0 : Vec F S512x1024 .f32) (x1 : Vec F S512x1024 .f32) (x2 : Vec F S512x1024 .f32) (x3 : Vec F S1x512 .f32) (xs0 : Vec F S512x512 .f32) :
    Σ' (L4 : List (View.Piece (Elt F) S512x512 .f32)) (L5 : List (View.Piece (Elt F) S512x512 .bf16)), { LS0 : List (View.Piece (Elt F) S512x512 .f32) //
      ∀ (xi4 : Vec F S512x512 .f32) (xi5 : Vec F S512x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi4 ∗ owns (c : Thread nD τ) arg8 fullShare xi5
                ∗ (∃ f, arg9.view.loc (c : Thread nD τ) ↦[arg9.view.set]{fullShare} arg9.view.writes (Elt F) f LS0)) -∗ K ⟨⟩))
          ⊢ wp frame (wpE (defs₀ (F := F)) Variants.none c none) E (cc0__layer_kernel i arg3 harg3 arg4 harg4 arg5 harg5 arg6 harg6 arg7 harg7 arg8 harg8 arg9 harg9) K } := by
  refine ⟨[], [], ?_, fun xi4 xi5 E K => ?run⟩
  case run =>
    simp only [cc0__layer_kernel_eq_skeleton]; unfold cc0__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Hand

end
-- ==== Proof.Kernel.Run0C.lean ====
import proofs.«152868_j57621281243253_2_alg».proof.Proof.Kernel.C0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 0, the body run whole in one case of its two conditionals (the accumulator is carried in, the outputs are stored):
    on whole staging memrefs holding the input blocks, the body runs to its end; what it leaves in the accumulator
    and in the two output buffers is found by the run as a list of stored pieces. -/

set_option maxHeartbeats 1000000 in
noncomputable def kernelRun0_C (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond0_0 i) (hc1 : cond0_1 i)
    (x0 : Vec F S512x1024 .f32) (x1 : Vec F S512x1024 .f32) (x2 : Vec F S512x1024 .f32) (x3 : Vec F S1x512 .f32) (xs0 : Vec F S512x512 .f32) :
    Σ' (L4 : List (View.Piece (Elt F) S512x512 .f32)) (L5 : List (View.Piece (Elt F) S512x512 .bf16)), { LS0 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5)
                ∗ (∃ f, arg9.view.loc (c : Thread nD τ) ↦[arg9.view.set]{fullShare} arg9.view.writes (Elt F) f LS0)) -∗ K ⟨⟩))
          ⊢ wp frame (wpE (defs₀ (F := F)) Variants.none c none) E (cc0__layer_kernel i arg3 harg3 arg4 harg4 arg5 harg5 arg6 harg6 arg7 harg7 arg8 harg8 arg9 harg9) K } := by
  refine ⟨?_, ?_, ?_, fun E K => ?run⟩
  case run =>
    simp only [cc0__layer_kernel_eq_skeleton]; unfold cc0__layer_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    iexists _; iexact HS0

end Cert.Kernel.Hand

end
-- ==== Proof.Kernel.Rgn0.lean ====
import proofs.«152868_j57621281243253_2_alg».proof.Proof.Kernel.Run0A
import proofs.«152868_j57621281243253_2_alg».proof.Proof.Kernel.Run0B
import proofs.«152868_j57621281243253_2_alg».proof.Proof.Kernel.Run0C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 0 over any contents `V` of the buffers at its entry: what each output window's staging buffer and the
    accumulator hold after the body at every grid point, the proof data of the region's pipeline, and the body
    obligation. The grid's last coordinate runs over 8 steps: the first resets the accumulator, every step adds its product, the last stores both outputs; in between the outputs' buffers are left alone and the accumulator is carried. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- What case A leaves in output window 4's staging buffer: its pieces read back (none: a placeholder nothing consults, the window being idle and not written back at these points). -/
def out0_A_4 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : cond0_0 i) (hc1 : ¬cond0_1 i)
    (x0 : Vec F S512x1024 .f32) (x1 : Vec F S512x1024 .f32) (x2 : Vec F S512x1024 .f32) (x3 : Vec F S1x512 .f32) : Vec F S512x512 .f32 :=
  VO0_4.read (Elt F) (VO0_4.writes (Elt F) VO0_4.junk (kernelRun0_A c i arg3 harg3 arg4 harg4 arg5 harg5 arg6 harg6 arg7 harg7 arg8 harg8 arg9 harg9 hc0 hc1 x0 x1 x2 x3).1)
/-- The same for output window 5. -/
def out0_A_5 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : cond0_0 i) (hc1 : ¬cond0_1 i)
    (x0 : Vec F S512x1024 .f32) (x1 : Vec F S512x1024 .f32) (x2 : Vec F S512x1024 .f32) (x3 : Vec F S1x512 .f32) : Vec F S512x512 .bf16 :=
  VO0_5.read (Elt F) (VO0_5.writes (Elt F) VO0_5.junk (kernelRun0_A c i arg3 harg3 arg4 harg4 arg5 harg5 arg6 harg6 arg7 harg7 arg8 harg8 arg9 harg9 hc0 hc1 x0 x1 x2 x3).2.1)
/-- The pieces case A stores into the accumulator cover it. -/
theorem scover0_A (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : cond0_0 i) (hc1 : ¬cond0_1 i)
    (x0 : Vec F S512x1024 .f32) (x1 : Vec F S512x1024 .f32) (x2 : Vec F S512x1024 .f32) (x3 : Vec F S1x512 .f32) (y : S512x512.Idx) :
    ∃ pc ∈ (kernelRun0_A c i arg3 harg3 arg4 harg4 arg5 harg5 arg6 harg6 arg7 harg7 arg8 harg8 arg9 harg9 hc0 hc1 x0 x1 x2 x3).2.2.1, y ∈ pc.1.set :=
  View.cover_of_tiledL (kernelRun0_A c i arg3 harg3 arg4 harg4 arg5 harg5 arg6 harg6 arg7 harg7 arg8 harg8 arg9 harg9 hc0 hc1 x0 x1 x2 x3).2.2.1 S512x512.size (by sl_kernel_rfl) y
/-- What case A leaves in the accumulator. -/
def sout0_A (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : cond0_0 i) (hc1 : ¬cond0_1 i)
    (x0 : Vec F S512x1024 .f32) (x1 : Vec F S512x1024 .f32) (x2 : Vec F S512x1024 .f32) (x3 : Vec F S1x512 .f32) : Vec F S512x512 .f32 :=
  VS0.read (Elt F) (VS0.writes (Elt F) VS0.junk (kernelRun0_A c i arg3 harg3 arg4 harg4 arg5 harg5 arg6 harg6 arg7 harg7 arg8 harg8 arg9 harg9 hc0 hc1 x0 x1 x2 x3).2.2.1)

/-- What case B leaves in output window 4's staging buffer: its pieces read back (none: a placeholder nothing consults, the window being idle and not written back at these points). -/
def out0_B_4 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond0_0 i) (hc1 : ¬cond0_1 i)
    (x0 : Vec F S512x1024 .f32) (x1 : Vec F S512x1024 .f32) (x2 : Vec F S512x1024 .f32) (x3 : Vec F S1x512 .f32) (xs0 : Vec F S512x512 .f32) : Vec F S512x512 .f32 :=
  VO0_4.read (Elt F) (VO0_4.writes (Elt F) VO0_4.junk (kernelRun0_B c i arg3 harg3 arg4 harg4 arg5 harg5 arg6 harg6 arg7 harg7 arg8 harg8 arg9 harg9 hc0 hc1 x0 x1 x2 x3 xs0).1)
/-- The same for output window 5. -/
def out0_B_5 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond0_0 i) (hc1 : ¬cond0_1 i)
    (x0 : Vec F S512x1024 .f32) (x1 : Vec F S512x1024 .f32) (x2 : Vec F S512x1024 .f32) (x3 : Vec F S1x512 .f32) (xs0 : Vec F S512x512 .f32) : Vec F S512x512 .bf16 :=
  VO0_5.read (Elt F) (VO0_5.writes (Elt F) VO0_5.junk (kernelRun0_B c i arg3 harg3 arg4 harg4 arg5 harg5 arg6 harg6 arg7 harg7 arg8 harg8 arg9 harg9 hc0 hc1 x0 x1 x2 x3 xs0).2.1)
/-- The pieces case B stores into the accumulator cover it. -/
theorem scover0_B (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond0_0 i) (hc1 : ¬cond0_1 i)
    (x0 : Vec F S512x1024 .f32) (x1 : Vec F S512x1024 .f32) (x2 : Vec F S512x1024 .f32) (x3 : Vec F S1x512 .f32) (xs0 : Vec F S512x512 .f32) (y : S512x512.Idx) :
    ∃ pc ∈ (kernelRun0_B c i arg3 harg3 arg4 harg4 arg5 harg5 arg6 harg6 arg7 harg7 arg8 harg8 arg9 harg9 hc0 hc1 x0 x1 x2 x3 xs0).2.2.1, y ∈ pc.1.set :=
  View.cover_of_tiledL (kernelRun0_B c i arg3 harg3 arg4 harg4 arg5 harg5 arg6 harg6 arg7 harg7 arg8 harg8 arg9 harg9 hc0 hc1 x0 x1 x2 x3 xs0).2.2.1 S512x512.size (by sl_kernel_rfl) y
/-- What case B leaves in the accumulator. -/
def sout0_B (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond0_0 i) (hc1 : ¬cond0_1 i)
    (x0 : Vec F S512x1024 .f32) (x1 : Vec F S512x1024 .f32) (x2 : Vec F S512x1024 .f32) (x3 : Vec F S1x512 .f32) (xs0 : Vec F S512x512 .f32) : Vec F S512x512 .f32 :=
  VS0.read (Elt F) (VS0.writes (Elt F) VS0.junk (kernelRun0_B c i arg3 harg3 arg4 harg4 arg5 harg5 arg6 harg6 arg7 harg7 arg8 harg8 arg9 harg9 hc0 hc1 x0 x1 x2 x3 xs0).2.2.1)

/-- The pieces case C stores into output window 4 tile its block, so they cover it. -/
theorem cover0_C_4 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond0_0 i) (hc1 : cond0_1 i)
    (x0 : Vec F S512x1024 .f32) (x1 : Vec F S512x1024 .f32) (x2 : Vec F S512x1024 .f32) (x3 : Vec F S1x512 .f32) (xs0 : Vec F S512x512 .f32) (y : S512x512.Idx) :
    ∃ pc ∈ (kernelRun0_C c i arg3 harg3 arg4 harg4 arg5 harg5 arg6 harg6 arg7 harg7 arg8 harg8 arg9 harg9 hc0 hc1 x0 x1 x2 x3 xs0).1, y ∈ pc.1.set :=
  View.cover_of_tiledL (kernelRun0_C c i arg3 harg3 arg4 harg4 arg5 harg5 arg6 harg6 arg7 harg7 arg8 harg8 arg9 harg9 hc0 hc1 x0 x1 x2 x3 xs0).1 S512x512.size (by sl_kernel_rfl) y
/-- The same for output window 5. -/
theorem cover0_C_5 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond0_0 i) (hc1 : cond0_1 i)
    (x0 : Vec F S512x1024 .f32) (x1 : Vec F S512x1024 .f32) (x2 : Vec F S512x1024 .f32) (x3 : Vec F S1x512 .f32) (xs0 : Vec F S512x512 .f32) (y : S512x512.Idx) :
    ∃ pc ∈ (kernelRun0_C c i arg3 harg3 arg4 harg4 arg5 harg5 arg6 harg6 arg7 harg7 arg8 harg8 arg9 harg9 hc0 hc1 x0 x1 x2 x3 xs0).2.1, y ∈ pc.1.set :=
  View.cover_of_tiledL (kernelRun0_C c i arg3 harg3 arg4 harg4 arg5 harg5 arg6 harg6 arg7 harg7 arg8 harg8 arg9 harg9 hc0 hc1 x0 x1 x2 x3 xs0).2.1 S512x512.size (by sl_kernel_rfl) y

/-- What case C leaves in output window 4's staging buffer: its pieces read back. -/
def out0_C_4 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond0_0 i) (hc1 : cond0_1 i)
    (x0 : Vec F S512x1024 .f32) (x1 : Vec F S512x1024 .f32) (x2 : Vec F S512x1024 .f32) (x3 : Vec F S1x512 .f32) (xs0 : Vec F S512x512 .f32) : Vec F S512x512 .f32 :=
  VO0_4.read (Elt F) (VO0_4.writes (Elt F) VO0_4.junk (kernelRun0_C c i arg3 harg3 arg4 harg4 arg5 harg5 arg6 harg6 arg7 harg7 arg8 harg8 arg9 harg9 hc0 hc1 x0 x1 x2 x3 xs0).1)
/-- The same for output window 5. -/
def out0_C_5 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond0_0 i) (hc1 : cond0_1 i)
    (x0 : Vec F S512x1024 .f32) (x1 : Vec F S512x1024 .f32) (x2 : Vec F S512x1024 .f32) (x3 : Vec F S1x512 .f32) (xs0 : Vec F S512x512 .f32) : Vec F S512x512 .bf16 :=
  VO0_5.read (Elt F) (VO0_5.writes (Elt F) VO0_5.junk (kernelRun0_C c i arg3 harg3 arg4 harg4 arg5 harg5 arg6 harg6 arg7 harg7 arg8 harg8 arg9 harg9 hc0 hc1 x0 x1 x2 x3 xs0).2.1)
/-- The pieces case C stores into the accumulator cover it. -/
theorem scover0_C (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond0_0 i) (hc1 : cond0_1 i)
    (x0 : Vec F S512x1024 .f32) (x1 : Vec F S512x1024 .f32) (x2 : Vec F S512x1024 .f32) (x3 : Vec F S1x512 .f32) (xs0 : Vec F S512x512 .f32) (y : S512x512.Idx) :
    ∃ pc ∈ (kernelRun0_C c i arg3 harg3 arg4 harg4 arg5 harg5 arg6 harg6 arg7 harg7 arg8 harg8 arg9 harg9 hc0 hc1 x0 x1 x2 x3 xs0).2.2.1, y ∈ pc.1.set :=
  View.cover_of_tiledL (kernelRun0_C c i arg3 harg3 arg4 harg4 arg5 harg5 arg6 harg6 arg7 harg7 arg8 harg8 arg9 harg9 hc0 hc1 x0 x1 x2 x3 xs0).2.2.1 S512x512.size (by sl_kernel_rfl) y
/-- What case C leaves in the accumulator. -/
def sout0_C (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond0_0 i) (hc1 : cond0_1 i)
    (x0 : Vec F S512x1024 .f32) (x1 : Vec F S512x1024 .f32) (x2 : Vec F S512x1024 .f32) (x3 : Vec F S1x512 .f32) (xs0 : Vec F S512x512 .f32) : Vec F S512x512 .f32 :=
  VS0.read (Elt F) (VS0.writes (Elt F) VS0.junk (kernelRun0_C c i arg3 harg3 arg4 harg4 arg5 harg5 arg6 harg6 arg7 harg7 arg8 harg8 arg9 harg9 hc0 hc1 x0 x1 x2 x3 xs0).2.2.1)

/-- THE ACCUMULATION. What the two outputs' staging buffers and the accumulator hold after the body at position `n`
    (a triple): the case the closed forms select at `n`, run at the point's memrefs and input blocks, the accumulator
    carried in at what position `n - 1` left. -/
def outsAt0 (c : Dev nD) : (n : ℕ) → n < cfg0.N → Vec F S512x512 .f32 × Vec F S512x512 .bf16 × Vec F S512x512 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 8 = 0 then
      if h1 : (n + 1) % 8 = 7 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 8 = 7 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2)

theorem outsAt0_A (c : Dev nD) (t : Fin cfg0.N) (h0 : t.val % 8 = 0) (h1 : ¬t.val % 8 = 7) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h0) (fun h => h1 ((hcond0_1 t).mp h)) (iblk0 V c 0 t) (iblk0 V c 1 t) (iblk0 V c 2 t) (iblk0 V c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h0) (fun h => h1 ((hcond0_1 t).mp h)) (iblk0 V c 0 t) (iblk0 V c 1 t) (iblk0 V c 2 t) (iblk0 V c 3 t), sout0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

theorem outsAt0_C (c : Dev nD) (t : Fin cfg0.N) (h0 : ¬t.val % 8 = 0) (h1 : t.val % 8 = 7) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2, sout0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

theorem outsAt0_B (c : Dev nD) (t : Fin cfg0.N) (h0 : ¬t.val % 8 = 0) (h1 : ¬t.val % 8 = 7) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2, sout0_B c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- The region's invariant before position `n`: before the first point every buffer the region does not stage at
    anything; afterwards the accumulator at what the point before left in it. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2.2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2.2) ∗ Pipeline.scopedRestBut (Ix := Unit) (Name := ℕ) (U := UR sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2.2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- The proof data of region 0's pipeline on core `c`: the arrays as the region finds them; after the body at point
    `t` each input's buffer at its block and the outputs' at what the point leaves; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

theorem PhiS0_castSucc (c : Dev nD) (t : Fin cfg0.N) :
    (dat0 V c).Φ t.castSucc = PhiS0 V c t.val (Nat.le_of_lt t.isLt) := by
  dsimp only [dat0]; simp only [Fin.coe_castSucc]

set_option maxHeartbeats 4800000 in
/-- The body at any point: the inputs' memrefs hold their blocks; the closed forms say which case the point is in;
    the invariant hands the body the accumulator at what the point before left (at anything before the first point) and
    takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 512 := lt_of_lt_of_eq t.isLt (show cfg0.N = 512 from N_0)
  by_cases h0 : t.val % 8 = 0
  · by_cases h1 : t.val % 8 = 7
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4 t (fun h => h1 ((hcond0_1 t).mp h))) (noFlush0_4 t (fun h => h1 ((hcond0_1 t).mp h)))]
      rw [Dat.leavesExact_idle (dat0 V c) 5 t (idleAt0_5 t (fun h => h1 ((hcond0_1 t).mp h))) (noFlush0_5 t (fun h => h1 ((hcond0_1 t).mp h)))]
      rw [outsAt0_A V c t h0 h1]
      unfold sout0_A; (try dsimp only)
      by_cases hz : t.val = 0
      ·
        rw [PhiS0_castSucc V c t, PhiS0_zero V c _ _ hz, PhiA0_eq]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5
      ·
        rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5

  · by_cases h1 : t.val % 8 = 7
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t ((hcond0_1 t).mpr h1)], after0_4]
      rw [show (dat0 V c).leavesExact 5 t = owns (c : Thread nD τ) (ms0_5 t) fullShare ((dat0 V c).after 5 t) from by
        unfold Dat.leavesExact; rw [liveAt0_5 t ((hcond0_1 t).mpr h1)], after0_5]
      rw [outsAt0_C V c t h0 h1]
      unfold out0_C_4 out0_C_5 sout0_C; (try dsimp only)
      have hz : t.val ≠ 0 := by omega
      ·
        rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) _).2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        iintro ⟨H0, H1, H2, H3, ⟨%e4, H4⟩, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_C_4 c _ _ _ _ _ _ _ _ _ _ _ _ _ _ _ _ _ _ _ _ _ _)
        unfold owns; iexists _; isplitr
        swap; · iexact H5
        ipureintro; exact View.read_writes_of_cover _ _ _ _ _ (cover0_C_5 c _ _ _ _ _ _ _ _ _ _ _ _ _ _ _ _ _ _ _ _ _ _)

    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4 t (fun h => h1 ((hcond0_1 t).mp h))) (noFlush0_4 t (fun h => h1 ((hcond0_1 t).mp h)))]
      rw [Dat.leavesExact_idle (dat0 V c) 5 t (idleAt0_5 t (fun h => h1 ((hcond0_1 t).mp h))) (noFlush0_5 t (fun h => h1 ((hcond0_1 t).mp h)))]
      rw [outsAt0_B V c t h0 h1]
      unfold sout0_B; (try dsimp only)
      have hz : t.val ≠ 0 := by omega
      ·
        rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg
theorem hout0 (c : Dev nD) : (dat0 V c).Φ (Fin.last cfg0.N) ⊢ Pipeline.ΦA spec0 c :=
  Phi_out0 V c _ (by rw [Fin.val_last]; have : cfg0.N = 512 := N_0; omega)

end Cert.Kernel.Hand

end
-- ==== Proof.Kernel.C1.lean ====
import proofs.«152868_j57621281243253_2_alg».proof.Proof.Gen.Kernel.Launch
import proofs.«152868_j57621281243253_2_alg».proof.Proof.Gen.Kernel.Skeleton
import proofs.«152868_j57621281243253_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 1: where on its grid the body's two conditionals hold, where its output windows are idle, and the
    memrefs the body is called with. The body resets its accumulator when the last grid coordinate is 0 and stores
    its two outputs when that coordinate is the last one. -/

/-- The accumulator is reset: the last grid coordinate is 0. -/
abbrev cond1_0 (i : grid1.Coords) : Prop := (Scalar.cmpi .ne (Scalar.extui (Scalar.cmpi .eq (BitVec.ofNat 32 (i 2).val) 0#32)) 0#32) = 1#1
/-- The outputs are stored: the last grid coordinate is the last one. -/
abbrev cond1_1 (i : grid1.Coords) : Prop := k1_cond2 i = 1#1

theorem hcond1_0 : ∀ t : Fin cfg1.N, cond1_0 (grid1.coords t) ↔ t.val % 4 = 0 :=
  (by decide +kernel : ∀ t : Fin grid1.N, cond1_0 (grid1.coords t) ↔ t.val % 4 = 0)
theorem hcond1_1 : ∀ t : Fin cfg1.N, cond1_1 (grid1.coords t) ↔ t.val % 4 = 3 :=
  (by decide +kernel : ∀ t : Fin grid1.N, cond1_1 (grid1.coords t) ↔ t.val % 4 = 3)
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cond1_1 (grid1.coords t) → cfg1.idle 4 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_5 : ∀ t : Fin cfg1.N, cond1_1 (grid1.coords t) → cfg1.idle 5 (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel

/-- One staging buffer of each output window, through which its contents are stated. -/
abbrev VO1_4 : View sig .tc .vmem S512x512 .f32 := (Memref.whole cc1_stg4_0 : Memref sig .tc .vmem S512x512 .f32).view
abbrev VO1_5 : View sig .tc .vmem S512x512 .bf16 := (Memref.whole cc1_stg5_0 : Memref sig .tc .vmem S512x512 .bf16).view
abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x512 .bf16 := win1_5.stage (cfg1.slots t 5)
abbrev hs1_5 (t : Fin cfg1.N) : (ms1_5 t).IsWhole := hstage1_5 ((cfg1.slots t 5).cast nbuf1_5)
/-- The accumulator: a whole buffer of the kernel's own, passed beside the windows. -/
abbrev scM1 : Memref sig .tc .vmem S512x512 .f32 := Memref.whole cc1_scratch0
abbrev VS1 : View sig .tc .vmem S512x512 .f32 := (scM1).view

/-- The region's invariant, opened at the accumulator: it at some contents, every other buffer the region does not
    stage unopened, the generator register at some state. -/
theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

end Cert.Kernel.Hand

end
-- ==== Proof.Kernel.Run1A.lean ====
import proofs.«152868_j57621281243253_2_alg».proof.Proof.Kernel.C1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 1, the body run whole in one case of its two conditionals (the accumulator is reset, the outputs are left alone):
    on whole staging memrefs holding the input blocks, the body runs to its end; what it leaves in the accumulator
    is found by the run as a list of stored pieces. -/

set_option maxHeartbeats 1000000 in
noncomputable def kernelRun1_A (c : Dev nD) (i : grid1.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : cond1_0 i) (hc1 : ¬cond1_1 i)
    (x0 : Vec F S512x1024 .bf16) (x1 : Vec F S512x1024 .f32) (x2 : Vec F S512x1024 .f32) (x3 : Vec F S1x512 .f32) :
    Σ' (L4 : List (View.Piece (Elt F) S512x512 .f32)) (L5 : List (View.Piece (Elt F) S512x512 .bf16)), { LS0 : List (View.Piece (Elt F) S512x512 .f32) //
      ∀ (xi4 : Vec F S512x512 .f32) (xi5 : Vec F S512x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi4 ∗ owns (c : Thread nD τ) arg8 fullShare xi5
                ∗ (∃ f, arg9.view.loc (c : Thread nD τ) ↦[arg9.view.set]{fullShare} arg9.view.writes (Elt F) f LS0)) -∗ K ⟨⟩))
          ⊢ wp frame (wpE (defs₀ (F := F)) Variants.none c none) E (cc1__layer_kernel i arg3 harg3 arg4 harg4 arg5 harg5 arg6 harg6 arg7 harg7 arg8 harg8 arg9 harg9) K } := by
  refine ⟨[], [], ?_, fun xi4 xi5 E K => ?run⟩
  case run =>
    simp only [cc1__layer_kernel_eq_skeleton]; unfold cc1__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Hand

end
-- ==== Proof.Kernel.Run1B.lean ====
import proofs.«152868_j57621281243253_2_alg».proof.Proof.Kernel.C1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 1, the body run whole in one case of its two conditionals (the accumulator is carried in, the outputs are left alone):
    on whole staging memrefs holding the input blocks, the body runs to its end; what it leaves in the accumulator
    is found by the run as a list of stored pieces. -/

set_option maxHeartbeats 1000000 in
noncomputable def kernelRun1_B (c : Dev nD) (i : grid1.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond1_0 i) (hc1 : ¬cond1_1 i)
    (x0 : Vec F S512x1024 .bf16) (x1 : Vec F S512x1024 .f32) (x2 : Vec F S512x1024 .f32) (x3 : Vec F S1x512 .f32) (xs0 : Vec F S512x512 .f32) :
    Σ' (L4 : List (View.Piece (Elt F) S512x512 .f32)) (L5 : List (View.Piece (Elt F) S512x512 .bf16)), { LS0 : List (View.Piece (Elt F) S512x512 .f32) //
      ∀ (xi4 : Vec F S512x512 .f32) (xi5 : Vec F S512x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi4 ∗ owns (c : Thread nD τ) arg8 fullShare xi5
                ∗ (∃ f, arg9.view.loc (c : Thread nD τ) ↦[arg9.view.set]{fullShare} arg9.view.writes (Elt F) f LS0)) -∗ K ⟨⟩))
          ⊢ wp frame (wpE (defs₀ (F := F)) Variants.none c none) E (cc1__layer_kernel i arg3 harg3 arg4 harg4 arg5 harg5 arg6 harg6 arg7 harg7 arg8 harg8 arg9 harg9) K } := by
  refine ⟨[], [], ?_, fun xi4 xi5 E K => ?run⟩
  case run =>
    simp only [cc1__layer_kernel_eq_skeleton]; unfold cc1__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Hand

end
-- ==== Proof.Kernel.Run1C.lean ====
import proofs.«152868_j57621281243253_2_alg».proof.Proof.Kernel.C1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 1, the body run whole in one case of its two conditionals (the accumulator is carried in, the outputs are stored):
    on whole staging memrefs holding the input blocks, the body runs to its end; what it leaves in the accumulator
    and in the two output buffers is found by the run as a list of stored pieces. -/

set_option maxHeartbeats 1000000 in
noncomputable def kernelRun1_C (c : Dev nD) (i : grid1.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond1_0 i) (hc1 : cond1_1 i)
    (x0 : Vec F S512x1024 .bf16) (x1 : Vec F S512x1024 .f32) (x2 : Vec F S512x1024 .f32) (x3 : Vec F S1x512 .f32) (xs0 : Vec F S512x512 .f32) :
    Σ' (L4 : List (View.Piece (Elt F) S512x512 .f32)) (L5 : List (View.Piece (Elt F) S512x512 .bf16)), { LS0 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5)
                ∗ (∃ f, arg9.view.loc (c : Thread nD τ) ↦[arg9.view.set]{fullShare} arg9.view.writes (Elt F) f LS0)) -∗ K ⟨⟩))
          ⊢ wp frame (wpE (defs₀ (F := F)) Variants.none c none) E (cc1__layer_kernel i arg3 harg3 arg4 harg4 arg5 harg5 arg6 harg6 arg7 harg7 arg8 harg8 arg9 harg9) K } := by
  refine ⟨?_, ?_, ?_, fun E K => ?run⟩
  case run =>
    simp only [cc1__layer_kernel_eq_skeleton]; unfold cc1__layer_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    iexists _; iexact HS0

end Cert.Kernel.Hand

end
-- ==== Proof.Kernel.Rgn1.lean ====
import proofs.«152868_j57621281243253_2_alg».proof.Proof.Kernel.Run1A
import proofs.«152868_j57621281243253_2_alg».proof.Proof.Kernel.Run1B
import proofs.«152868_j57621281243253_2_alg».proof.Proof.Kernel.Run1C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 1 over any contents `V` of the buffers at its entry: what each output window's staging buffer and the
    accumulator hold after the body at every grid point, the proof data of the region's pipeline, and the body
    obligation. The grid's last coordinate runs over 4 steps: the first resets the accumulator, every step adds its product, the last stores both outputs; in between the outputs' buffers are left alone and the accumulator is carried. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- What case A leaves in output window 4's staging buffer: its pieces read back (none: a placeholder nothing consults, the window being idle and not written back at these points). -/
def out1_A_4 (c : Dev nD) (i : grid1.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : cond1_0 i) (hc1 : ¬cond1_1 i)
    (x0 : Vec F S512x1024 .bf16) (x1 : Vec F S512x1024 .f32) (x2 : Vec F S512x1024 .f32) (x3 : Vec F S1x512 .f32) : Vec F S512x512 .f32 :=
  VO1_4.read (Elt F) (VO1_4.writes (Elt F) VO1_4.junk (kernelRun1_A c i arg3 harg3 arg4 harg4 arg5 harg5 arg6 harg6 arg7 harg7 arg8 harg8 arg9 harg9 hc0 hc1 x0 x1 x2 x3).1)
/-- The same for output window 5. -/
def out1_A_5 (c : Dev nD) (i : grid1.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : cond1_0 i) (hc1 : ¬cond1_1 i)
    (x0 : Vec F S512x1024 .bf16) (x1 : Vec F S512x1024 .f32) (x2 : Vec F S512x1024 .f32) (x3 : Vec F S1x512 .f32) : Vec F S512x512 .bf16 :=
  VO1_5.read (Elt F) (VO1_5.writes (Elt F) VO1_5.junk (kernelRun1_A c i arg3 harg3 arg4 harg4 arg5 harg5 arg6 harg6 arg7 harg7 arg8 harg8 arg9 harg9 hc0 hc1 x0 x1 x2 x3).2.1)
/-- The pieces case A stores into the accumulator cover it. -/
theorem scover1_A (c : Dev nD) (i : grid1.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : cond1_0 i) (hc1 : ¬cond1_1 i)
    (x0 : Vec F S512x1024 .bf16) (x1 : Vec F S512x1024 .f32) (x2 : Vec F S512x1024 .f32) (x3 : Vec F S1x512 .f32) (y : S512x512.Idx) :
    ∃ pc ∈ (kernelRun1_A c i arg3 harg3 arg4 harg4 arg5 harg5 arg6 harg6 arg7 harg7 arg8 harg8 arg9 harg9 hc0 hc1 x0 x1 x2 x3).2.2.1, y ∈ pc.1.set :=
  View.cover_of_tiledL (kernelRun1_A c i arg3 harg3 arg4 harg4 arg5 harg5 arg6 harg6 arg7 harg7 arg8 harg8 arg9 harg9 hc0 hc1 x0 x1 x2 x3).2.2.1 S512x512.size (by sl_kernel_rfl) y
/-- What case A leaves in the accumulator. -/
def sout1_A (c : Dev nD) (i : grid1.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : cond1_0 i) (hc1 : ¬cond1_1 i)
    (x0 : Vec F S512x1024 .bf16) (x1 : Vec F S512x1024 .f32) (x2 : Vec F S512x1024 .f32) (x3 : Vec F S1x512 .f32) : Vec F S512x512 .f32 :=
  VS1.read (Elt F) (VS1.writes (Elt F) VS1.junk (kernelRun1_A c i arg3 harg3 arg4 harg4 arg5 harg5 arg6 harg6 arg7 harg7 arg8 harg8 arg9 harg9 hc0 hc1 x0 x1 x2 x3).2.2.1)

/-- What case B leaves in output window 4's staging buffer: its pieces read back (none: a placeholder nothing consults, the window being idle and not written back at these points). -/
def out1_B_4 (c : Dev nD) (i : grid1.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond1_0 i) (hc1 : ¬cond1_1 i)
    (x0 : Vec F S512x1024 .bf16) (x1 : Vec F S512x1024 .f32) (x2 : Vec F S512x1024 .f32) (x3 : Vec F S1x512 .f32) (xs0 : Vec F S512x512 .f32) : Vec F S512x512 .f32 :=
  VO1_4.read (Elt F) (VO1_4.writes (Elt F) VO1_4.junk (kernelRun1_B c i arg3 harg3 arg4 harg4 arg5 harg5 arg6 harg6 arg7 harg7 arg8 harg8 arg9 harg9 hc0 hc1 x0 x1 x2 x3 xs0).1)
/-- The same for output window 5. -/
def out1_B_5 (c : Dev nD) (i : grid1.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond1_0 i) (hc1 : ¬cond1_1 i)
    (x0 : Vec F S512x1024 .bf16) (x1 : Vec F S512x1024 .f32) (x2 : Vec F S512x1024 .f32) (x3 : Vec F S1x512 .f32) (xs0 : Vec F S512x512 .f32) : Vec F S512x512 .bf16 :=
  VO1_5.read (Elt F) (VO1_5.writes (Elt F) VO1_5.junk (kernelRun1_B c i arg3 harg3 arg4 harg4 arg5 harg5 arg6 harg6 arg7 harg7 arg8 harg8 arg9 harg9 hc0 hc1 x0 x1 x2 x3 xs0).2.1)
/-- The pieces case B stores into the accumulator cover it. -/
theorem scover1_B (c : Dev nD) (i : grid1.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond1_0 i) (hc1 : ¬cond1_1 i)
    (x0 : Vec F S512x1024 .bf16) (x1 : Vec F S512x1024 .f32) (x2 : Vec F S512x1024 .f32) (x3 : Vec F S1x512 .f32) (xs0 : Vec F S512x512 .f32) (y : S512x512.Idx) :
    ∃ pc ∈ (kernelRun1_B c i arg3 harg3 arg4 harg4 arg5 harg5 arg6 harg6 arg7 harg7 arg8 harg8 arg9 harg9 hc0 hc1 x0 x1 x2 x3 xs0).2.2.1, y ∈ pc.1.set :=
  View.cover_of_tiledL (kernelRun1_B c i arg3 harg3 arg4 harg4 arg5 harg5 arg6 harg6 arg7 harg7 arg8 harg8 arg9 harg9 hc0 hc1 x0 x1 x2 x3 xs0).2.2.1 S512x512.size (by sl_kernel_rfl) y
/-- What case B leaves in the accumulator. -/
def sout1_B (c : Dev nD) (i : grid1.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond1_0 i) (hc1 : ¬cond1_1 i)
    (x0 : Vec F S512x1024 .bf16) (x1 : Vec F S512x1024 .f32) (x2 : Vec F S512x1024 .f32) (x3 : Vec F S1x512 .f32) (xs0 : Vec F S512x512 .f32) : Vec F S512x512 .f32 :=
  VS1.read (Elt F) (VS1.writes (Elt F) VS1.junk (kernelRun1_B c i arg3 harg3 arg4 harg4 arg5 harg5 arg6 harg6 arg7 harg7 arg8 harg8 arg9 harg9 hc0 hc1 x0 x1 x2 x3 xs0).2.2.1)

/-- The pieces case C stores into output window 4 tile its block, so they cover it. -/
theorem cover1_C_4 (c : Dev nD) (i : grid1.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond1_0 i) (hc1 : cond1_1 i)
    (x0 : Vec F S512x1024 .bf16) (x1 : Vec F S512x1024 .f32) (x2 : Vec F S512x1024 .f32) (x3 : Vec F S1x512 .f32) (xs0 : Vec F S512x512 .f32) (y : S512x512.Idx) :
    ∃ pc ∈ (kernelRun1_C c i arg3 harg3 arg4 harg4 arg5 harg5 arg6 harg6 arg7 harg7 arg8 harg8 arg9 harg9 hc0 hc1 x0 x1 x2 x3 xs0).1, y ∈ pc.1.set :=
  View.cover_of_tiledL (kernelRun1_C c i arg3 harg3 arg4 harg4 arg5 harg5 arg6 harg6 arg7 harg7 arg8 harg8 arg9 harg9 hc0 hc1 x0 x1 x2 x3 xs0).1 S512x512.size (by sl_kernel_rfl) y
/-- The same for output window 5. -/
theorem cover1_C_5 (c : Dev nD) (i : grid1.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond1_0 i) (hc1 : cond1_1 i)
    (x0 : Vec F S512x1024 .bf16) (x1 : Vec F S512x1024 .f32) (x2 : Vec F S512x1024 .f32) (x3 : Vec F S1x512 .f32) (xs0 : Vec F S512x512 .f32) (y : S512x512.Idx) :
    ∃ pc ∈ (kernelRun1_C c i arg3 harg3 arg4 harg4 arg5 harg5 arg6 harg6 arg7 harg7 arg8 harg8 arg9 harg9 hc0 hc1 x0 x1 x2 x3 xs0).2.1, y ∈ pc.1.set :=
  View.cover_of_tiledL (kernelRun1_C c i arg3 harg3 arg4 harg4 arg5 harg5 arg6 harg6 arg7 harg7 arg8 harg8 arg9 harg9 hc0 hc1 x0 x1 x2 x3 xs0).2.1 S512x512.size (by sl_kernel_rfl) y

/-- What case C leaves in output window 4's staging buffer: its pieces read back. -/
def out1_C_4 (c : Dev nD) (i : grid1.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond1_0 i) (hc1 : cond1_1 i)
    (x0 : Vec F S512x1024 .bf16) (x1 : Vec F S512x1024 .f32) (x2 : Vec F S512x1024 .f32) (x3 : Vec F S1x512 .f32) (xs0 : Vec F S512x512 .f32) : Vec F S512x512 .f32 :=
  VO1_4.read (Elt F) (VO1_4.writes (Elt F) VO1_4.junk (kernelRun1_C c i arg3 harg3 arg4 harg4 arg5 harg5 arg6 harg6 arg7 harg7 arg8 harg8 arg9 harg9 hc0 hc1 x0 x1 x2 x3 xs0).1)
/-- The same for output window 5. -/
def out1_C_5 (c : Dev nD) (i : grid1.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond1_0 i) (hc1 : cond1_1 i)
    (x0 : Vec F S512x1024 .bf16) (x1 : Vec F S512x1024 .f32) (x2 : Vec F S512x1024 .f32) (x3 : Vec F S1x512 .f32) (xs0 : Vec F S512x512 .f32) : Vec F S512x512 .bf16 :=
  VO1_5.read (Elt F) (VO1_5.writes (Elt F) VO1_5.junk (kernelRun1_C c i arg3 harg3 arg4 harg4 arg5 harg5 arg6 harg6 arg7 harg7 arg8 harg8 arg9 harg9 hc0 hc1 x0 x1 x2 x3 xs0).2.1)
/-- The pieces case C stores into the accumulator cover it. -/
theorem scover1_C (c : Dev nD) (i : grid1.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond1_0 i) (hc1 : cond1_1 i)
    (x0 : Vec F S512x1024 .bf16) (x1 : Vec F S512x1024 .f32) (x2 : Vec F S512x1024 .f32) (x3 : Vec F S1x512 .f32) (xs0 : Vec F S512x512 .f32) (y : S512x512.Idx) :
    ∃ pc ∈ (kernelRun1_C c i arg3 harg3 arg4 harg4 arg5 harg5 arg6 harg6 arg7 harg7 arg8 harg8 arg9 harg9 hc0 hc1 x0 x1 x2 x3 xs0).2.2.1, y ∈ pc.1.set :=
  View.cover_of_tiledL (kernelRun1_C c i arg3 harg3 arg4 harg4 arg5 harg5 arg6 harg6 arg7 harg7 arg8 harg8 arg9 harg9 hc0 hc1 x0 x1 x2 x3 xs0).2.2.1 S512x512.size (by sl_kernel_rfl) y
/-- What case C leaves in the accumulator. -/
def sout1_C (c : Dev nD) (i : grid1.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond1_0 i) (hc1 : cond1_1 i)
    (x0 : Vec F S512x1024 .bf16) (x1 : Vec F S512x1024 .f32) (x2 : Vec F S512x1024 .f32) (x3 : Vec F S1x512 .f32) (xs0 : Vec F S512x512 .f32) : Vec F S512x512 .f32 :=
  VS1.read (Elt F) (VS1.writes (Elt F) VS1.junk (kernelRun1_C c i arg3 harg3 arg4 harg4 arg5 harg5 arg6 harg6 arg7 harg7 arg8 harg8 arg9 harg9 hc0 hc1 x0 x1 x2 x3 xs0).2.2.1)

/-- THE ACCUMULATION. What the two outputs' staging buffers and the accumulator hold after the body at position `n`
    (a triple): the case the closed forms select at `n`, run at the point's memrefs and input blocks, the accumulator
    carried in at what position `n - 1` left. -/
def outsAt1 (c : Dev nD) : (n : ℕ) → n < cfg1.N → Vec F S512x512 .f32 × Vec F S512x512 .bf16 × Vec F S512x512 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 4 = 0 then
      if h1 : (n + 1) % 4 = 3 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 4 = 3 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2, out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2, out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2)

theorem outsAt1_A (c : Dev nD) (t : Fin cfg1.N) (h0 : t.val % 4 = 0) (h1 : ¬t.val % 4 = 3) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t) (iblk1 V c 2 t) (iblk1 V c 3 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t) (iblk1 V c 2 t) (iblk1 V c 3 t), sout1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_C (c : Dev nD) (t : Fin cfg1.N) (h0 : ¬t.val % 4 = 0) (h1 : t.val % 4 = 3) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2, out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2, sout1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

theorem outsAt1_B (c : Dev nD) (t : Fin cfg1.N) (h0 : ¬t.val % 4 = 0) (h1 : ¬t.val % 4 = 3) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2, out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2, sout1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- The region's invariant before position `n`: before the first point every buffer the region does not stage at
    anything; afterwards the accumulator at what the point before left in it. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2.2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2.2) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2.2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The proof data of region 1's pipeline on core `c`: the arrays as the region finds them; after the body at point
    `t` each input's buffer at its block and the outputs' at what the point leaves; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

theorem PhiS1_castSucc (c : Dev nD) (t : Fin cfg1.N) :
    (dat1 V c).Φ t.castSucc = PhiS1 V c t.val (Nat.le_of_lt t.isLt) := by
  dsimp only [dat1]; simp only [Fin.coe_castSucc]

set_option maxHeartbeats 4800000 in
/-- The body at any point: the inputs' memrefs hold their blocks; the closed forms say which case the point is in;
    the invariant hands the body the accumulator at what the point before left (at anything before the first point) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => h1 ((hcond1_1 t).mp h))) (noFlush1_4 t (fun h => h1 ((hcond1_1 t).mp h)))]
      rw [Dat.leavesExact_idle (dat1 V c) 5 t (idleAt1_5 t (fun h => h1 ((hcond1_1 t).mp h))) (noFlush1_5 t (fun h => h1 ((hcond1_1 t).mp h)))]
      rw [outsAt1_A V c t h0 h1]
      unfold sout1_A; (try dsimp only)
      by_cases hz : t.val = 0
      ·
        rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5
      ·
        rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5

  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t ((hcond1_1 t).mpr h1)], after1_4]
      rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold out1_C_4 out1_C_5 sout1_C; (try dsimp only)
      have hz : t.val ≠ 0 := by omega
      ·
        rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) _).2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        iintro ⟨H0, H1, H2, H3, ⟨%e4, H4⟩, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover1_C_4 c _ _ _ _ _ _ _ _ _ _ _ _ _ _ _ _ _ _ _ _ _ _)
        unfold owns; iexists _; isplitr
        swap; · iexact H5
        ipureintro; exact View.read_writes_of_cover _ _ _ _ _ (cover1_C_5 c _ _ _ _ _ _ _ _ _ _ _ _ _ _ _ _ _ _ _ _ _ _)

    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => h1 ((hcond1_1 t).mp h))) (noFlush1_4 t (fun h => h1 ((hcond1_1 t).mp h)))]
      rw [Dat.leavesExact_idle (dat1 V c) 5 t (idleAt1_5 t (fun h => h1 ((hcond1_1 t).mp h))) (noFlush1_5 t (fun h => h1 ((hcond1_1 t).mp h)))]
      rw [outsAt1_B V c t h0 h1]
      unfold sout1_B; (try dsimp only)
      have hz : t.val ≠ 0 := by omega
      ·
        rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg
theorem hout1 (c : Dev nD) : (dat1 V c).Φ (Fin.last cfg1.N) ⊢ Pipeline.ΦA spec1 c :=
  Phi_out1 V c _ (by rw [Fin.val_last]; have : cfg1.N = 128 := N_1; omega)

end Cert.Kernel.Hand

end
-- ==== Proof.Kernel.C2.lean ====
import proofs.«152868_j57621281243253_2_alg».proof.Proof.Gen.Kernel.Launch
import proofs.«152868_j57621281243253_2_alg».proof.Proof.Gen.Kernel.Skeleton
import proofs.«152868_j57621281243253_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 2: where on its grid the body's two conditionals hold, where its output windows are idle, and the
    memrefs the body is called with. The body resets its accumulator when the last grid coordinate is 0 and stores
    its two outputs when that coordinate is the last one. -/

/-- The accumulator is reset: the last grid coordinate is 0. -/
abbrev cond2_0 (i : grid2.Coords) : Prop := (Scalar.cmpi .ne (Scalar.extui (Scalar.cmpi .eq (BitVec.ofNat 32 (i 2).val) 0#32)) 0#32) = 1#1
/-- The outputs are stored: the last grid coordinate is the last one. -/
abbrev cond2_1 (i : grid2.Coords) : Prop := k2_cond2 i = 1#1

theorem hcond2_0 : ∀ t : Fin cfg2.N, cond2_0 (grid2.coords t) ↔ t.val % 2 = 0 :=
  (by decide +kernel : ∀ t : Fin grid2.N, cond2_0 (grid2.coords t) ↔ t.val % 2 = 0)
theorem hcond2_1 : ∀ t : Fin cfg2.N, cond2_1 (grid2.coords t) ↔ t.val % 2 = 1 :=
  (by decide +kernel : ∀ t : Fin grid2.N, cond2_1 (grid2.coords t) ↔ t.val % 2 = 1)
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cond2_1 (grid2.coords t) → cfg2.idle 4 (grid2.coords t) = false := by decide +kernel
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_5 : ∀ t : Fin cfg2.N, cond2_1 (grid2.coords t) → cfg2.idle 5 (grid2.coords t) = false := by decide +kernel
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel

/-- One staging buffer of each output window, through which its contents are stated. -/
abbrev VO2_4 : View sig .tc .vmem S512x512 .f32 := (Memref.whole cc2_stg4_0 : Memref sig .tc .vmem S512x512 .f32).view
abbrev VO2_5 : View sig .tc .vmem S512x512 .bf16 := (Memref.whole cc2_stg5_0 : Memref sig .tc .vmem S512x512 .bf16).view
abbrev ms2_0 (t : Fin cfg2.N) : Memref sig .tc .vmem S512x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x512 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S512x512 .bf16 := win2_5.stage (cfg2.slots t 5)
abbrev hs2_5 (t : Fin cfg2.N) : (ms2_5 t).IsWhole := hstage2_5 ((cfg2.slots t 5).cast nbuf2_5)
/-- The accumulator: a whole buffer of the kernel's own, passed beside the windows. -/
abbrev scM2 : Memref sig .tc .vmem S512x512 .f32 := Memref.whole cc2_scratch0
abbrev VS2 : View sig .tc .vmem S512x512 .f32 := (scM2).view

/-- The region's invariant, opened at the accumulator: it at some contents, every other buffer the region does not
    stage unopened, the generator register at some state. -/
theorem PhiA2_eq (c : Dev nD) :
    (Pipeline.ΦA spec2 c : sProp 𝕄)
      = iprop(iprop((∃ d, owns (c : Thread nD τ) scM2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

end Cert.Kernel.Hand

end
-- ==== Proof.Kernel.Run2A.lean ====
import proofs.«152868_j57621281243253_2_alg».proof.Proof.Kernel.C2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 2, the body run whole in one case of its two conditionals (the accumulator is reset, the outputs are left alone):
    on whole staging memrefs holding the input blocks, the body runs to its end; what it leaves in the accumulator
    is found by the run as a list of stored pieces. -/

set_option maxHeartbeats 1000000 in
noncomputable def kernelRun2_A (c : Dev nD) (i : grid2.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : cond2_0 i) (hc1 : ¬cond2_1 i)
    (x0 : Vec F S512x1024 .bf16) (x1 : Vec F S512x1024 .f32) (x2 : Vec F S512x1024 .f32) (x3 : Vec F S1x512 .f32) :
    Σ' (L4 : List (View.Piece (Elt F) S512x512 .f32)) (L5 : List (View.Piece (Elt F) S512x512 .bf16)), { LS0 : List (View.Piece (Elt F) S512x512 .f32) //
      ∀ (xi4 : Vec F S512x512 .f32) (xi5 : Vec F S512x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi4 ∗ owns (c : Thread nD τ) arg8 fullShare xi5
                ∗ (∃ f, arg9.view.loc (c : Thread nD τ) ↦[arg9.view.set]{fullShare} arg9.view.writes (Elt F) f LS0)) -∗ K ⟨⟩))
          ⊢ wp frame (wpE (defs₀ (F := F)) Variants.none c none) E (cc2__layer_kernel i arg3 harg3 arg4 harg4 arg5 harg5 arg6 harg6 arg7 harg7 arg8 harg8 arg9 harg9) K } := by
  refine ⟨[], [], ?_, fun xi4 xi5 E K => ?run⟩
  case run =>
    simp only [cc2__layer_kernel_eq_skeleton]; unfold cc2__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Hand

end
-- ==== Proof.Kernel.Run2C.lean ====
import proofs.«152868_j57621281243253_2_alg».proof.Proof.Kernel.C2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 2, the body run whole in one case of its two conditionals (the accumulator is carried in, the outputs are stored):
    on whole staging memrefs holding the input blocks, the body runs to its end; what it leaves in the accumulator
    and in the two output buffers is found by the run as a list of stored pieces. -/

set_option maxHeartbeats 1000000 in
noncomputable def kernelRun2_C (c : Dev nD) (i : grid2.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond2_0 i) (hc1 : cond2_1 i)
    (x0 : Vec F S512x1024 .bf16) (x1 : Vec F S512x1024 .f32) (x2 : Vec F S512x1024 .f32) (x3 : Vec F S1x512 .f32) (xs0 : Vec F S512x512 .f32) :
    Σ' (L4 : List (View.Piece (Elt F) S512x512 .f32)) (L5 : List (View.Piece (Elt F) S512x512 .bf16)), { LS0 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5)
                ∗ (∃ f, arg9.view.loc (c : Thread nD τ) ↦[arg9.view.set]{fullShare} arg9.view.writes (Elt F) f LS0)) -∗ K ⟨⟩))
          ⊢ wp frame (wpE (defs₀ (F := F)) Variants.none c none) E (cc2__layer_kernel i arg3 harg3 arg4 harg4 arg5 harg5 arg6 harg6 arg7 harg7 arg8 harg8 arg9 harg9) K } := by
  refine ⟨?_, ?_, ?_, fun E K => ?run⟩
  case run =>
    simp only [cc2__layer_kernel_eq_skeleton]; unfold cc2__layer_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    iexists _; iexact HS0

end Cert.Kernel.Hand

end
-- ==== Proof.Kernel.Rgn2.lean ====
import proofs.«152868_j57621281243253_2_alg».proof.Proof.Kernel.Run2A
import proofs.«152868_j57621281243253_2_alg».proof.Proof.Kernel.Run2C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 2 over any contents `V` of the buffers at its entry: what each output window's staging buffer and the
    accumulator hold after the body at every grid point, the proof data of the region's pipeline, and the body
    obligation. The grid's last coordinate runs over 2 steps: the first resets the accumulator, every step adds its product, the last stores both outputs; in between the outputs' buffers are left alone and the accumulator is carried. -/

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- What case A leaves in output window 4's staging buffer: its pieces read back (none: a placeholder nothing consults, the window being idle and not written back at these points). -/
def out2_A_4 (c : Dev nD) (i : grid2.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : cond2_0 i) (hc1 : ¬cond2_1 i)
    (x0 : Vec F S512x1024 .bf16) (x1 : Vec F S512x1024 .f32) (x2 : Vec F S512x1024 .f32) (x3 : Vec F S1x512 .f32) : Vec F S512x512 .f32 :=
  VO2_4.read (Elt F) (VO2_4.writes (Elt F) VO2_4.junk (kernelRun2_A c i arg3 harg3 arg4 harg4 arg5 harg5 arg6 harg6 arg7 harg7 arg8 harg8 arg9 harg9 hc0 hc1 x0 x1 x2 x3).1)
/-- The same for output window 5. -/
def out2_A_5 (c : Dev nD) (i : grid2.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : cond2_0 i) (hc1 : ¬cond2_1 i)
    (x0 : Vec F S512x1024 .bf16) (x1 : Vec F S512x1024 .f32) (x2 : Vec F S512x1024 .f32) (x3 : Vec F S1x512 .f32) : Vec F S512x512 .bf16 :=
  VO2_5.read (Elt F) (VO2_5.writes (Elt F) VO2_5.junk (kernelRun2_A c i arg3 harg3 arg4 harg4 arg5 harg5 arg6 harg6 arg7 harg7 arg8 harg8 arg9 harg9 hc0 hc1 x0 x1 x2 x3).2.1)
/-- The pieces case A stores into the accumulator cover it. -/
theorem scover2_A (c : Dev nD) (i : grid2.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : cond2_0 i) (hc1 : ¬cond2_1 i)
    (x0 : Vec F S512x1024 .bf16) (x1 : Vec F S512x1024 .f32) (x2 : Vec F S512x1024 .f32) (x3 : Vec F S1x512 .f32) (y : S512x512.Idx) :
    ∃ pc ∈ (kernelRun2_A c i arg3 harg3 arg4 harg4 arg5 harg5 arg6 harg6 arg7 harg7 arg8 harg8 arg9 harg9 hc0 hc1 x0 x1 x2 x3).2.2.1, y ∈ pc.1.set :=
  View.cover_of_tiledL (kernelRun2_A c i arg3 harg3 arg4 harg4 arg5 harg5 arg6 harg6 arg7 harg7 arg8 harg8 arg9 harg9 hc0 hc1 x0 x1 x2 x3).2.2.1 S512x512.size (by sl_kernel_rfl) y
/-- What case A leaves in the accumulator. -/
def sout2_A (c : Dev nD) (i : grid2.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : cond2_0 i) (hc1 : ¬cond2_1 i)
    (x0 : Vec F S512x1024 .bf16) (x1 : Vec F S512x1024 .f32) (x2 : Vec F S512x1024 .f32) (x3 : Vec F S1x512 .f32) : Vec F S512x512 .f32 :=
  VS2.read (Elt F) (VS2.writes (Elt F) VS2.junk (kernelRun2_A c i arg3 harg3 arg4 harg4 arg5 harg5 arg6 harg6 arg7 harg7 arg8 harg8 arg9 harg9 hc0 hc1 x0 x1 x2 x3).2.2.1)

/-- The pieces case C stores into output window 4 tile its block, so they cover it. -/
theorem cover2_C_4 (c : Dev nD) (i : grid2.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond2_0 i) (hc1 : cond2_1 i)
    (x0 : Vec F S512x1024 .bf16) (x1 : Vec F S512x1024 .f32) (x2 : Vec F S512x1024 .f32) (x3 : Vec F S1x512 .f32) (xs0 : Vec F S512x512 .f32) (y : S512x512.Idx) :
    ∃ pc ∈ (kernelRun2_C c i arg3 harg3 arg4 harg4 arg5 harg5 arg6 harg6 arg7 harg7 arg8 harg8 arg9 harg9 hc0 hc1 x0 x1 x2 x3 xs0).1, y ∈ pc.1.set :=
  View.cover_of_tiledL (kernelRun2_C c i arg3 harg3 arg4 harg4 arg5 harg5 arg6 harg6 arg7 harg7 arg8 harg8 arg9 harg9 hc0 hc1 x0 x1 x2 x3 xs0).1 S512x512.size (by sl_kernel_rfl) y
/-- The same for output window 5. -/
theorem cover2_C_5 (c : Dev nD) (i : grid2.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond2_0 i) (hc1 : cond2_1 i)
    (x0 : Vec F S512x1024 .bf16) (x1 : Vec F S512x1024 .f32) (x2 : Vec F S512x1024 .f32) (x3 : Vec F S1x512 .f32) (xs0 : Vec F S512x512 .f32) (y : S512x512.Idx) :
    ∃ pc ∈ (kernelRun2_C c i arg3 harg3 arg4 harg4 arg5 harg5 arg6 harg6 arg7 harg7 arg8 harg8 arg9 harg9 hc0 hc1 x0 x1 x2 x3 xs0).2.1, y ∈ pc.1.set :=
  View.cover_of_tiledL (kernelRun2_C c i arg3 harg3 arg4 harg4 arg5 harg5 arg6 harg6 arg7 harg7 arg8 harg8 arg9 harg9 hc0 hc1 x0 x1 x2 x3 xs0).2.1 S512x512.size (by sl_kernel_rfl) y

/-- What case C leaves in output window 4's staging buffer: its pieces read back. -/
def out2_C_4 (c : Dev nD) (i : grid2.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond2_0 i) (hc1 : cond2_1 i)
    (x0 : Vec F S512x1024 .bf16) (x1 : Vec F S512x1024 .f32) (x2 : Vec F S512x1024 .f32) (x3 : Vec F S1x512 .f32) (xs0 : Vec F S512x512 .f32) : Vec F S512x512 .f32 :=
  VO2_4.read (Elt F) (VO2_4.writes (Elt F) VO2_4.junk (kernelRun2_C c i arg3 harg3 arg4 harg4 arg5 harg5 arg6 harg6 arg7 harg7 arg8 harg8 arg9 harg9 hc0 hc1 x0 x1 x2 x3 xs0).1)
/-- The same for output window 5. -/
def out2_C_5 (c : Dev nD) (i : grid2.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond2_0 i) (hc1 : cond2_1 i)
    (x0 : Vec F S512x1024 .bf16) (x1 : Vec F S512x1024 .f32) (x2 : Vec F S512x1024 .f32) (x3 : Vec F S1x512 .f32) (xs0 : Vec F S512x512 .f32) : Vec F S512x512 .bf16 :=
  VO2_5.read (Elt F) (VO2_5.writes (Elt F) VO2_5.junk (kernelRun2_C c i arg3 harg3 arg4 harg4 arg5 harg5 arg6 harg6 arg7 harg7 arg8 harg8 arg9 harg9 hc0 hc1 x0 x1 x2 x3 xs0).2.1)
/-- The pieces case C stores into the accumulator cover it. -/
theorem scover2_C (c : Dev nD) (i : grid2.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond2_0 i) (hc1 : cond2_1 i)
    (x0 : Vec F S512x1024 .bf16) (x1 : Vec F S512x1024 .f32) (x2 : Vec F S512x1024 .f32) (x3 : Vec F S1x512 .f32) (xs0 : Vec F S512x512 .f32) (y : S512x512.Idx) :
    ∃ pc ∈ (kernelRun2_C c i arg3 harg3 arg4 harg4 arg5 harg5 arg6 harg6 arg7 harg7 arg8 harg8 arg9 harg9 hc0 hc1 x0 x1 x2 x3 xs0).2.2.1, y ∈ pc.1.set :=
  View.cover_of_tiledL (kernelRun2_C c i arg3 harg3 arg4 harg4 arg5 harg5 arg6 harg6 arg7 harg7 arg8 harg8 arg9 harg9 hc0 hc1 x0 x1 x2 x3 xs0).2.2.1 S512x512.size (by sl_kernel_rfl) y
/-- What case C leaves in the accumulator. -/
def sout2_C (c : Dev nD) (i : grid2.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond2_0 i) (hc1 : cond2_1 i)
    (x0 : Vec F S512x1024 .bf16) (x1 : Vec F S512x1024 .f32) (x2 : Vec F S512x1024 .f32) (x3 : Vec F S1x512 .f32) (xs0 : Vec F S512x512 .f32) : Vec F S512x512 .f32 :=
  VS2.read (Elt F) (VS2.writes (Elt F) VS2.junk (kernelRun2_C c i arg3 harg3 arg4 harg4 arg5 harg5 arg6 harg6 arg7 harg7 arg8 harg8 arg9 harg9 hc0 hc1 x0 x1 x2 x3 xs0).2.2.1)

/-- THE ACCUMULATION. What the two outputs' staging buffers and the accumulator hold after the body at position `n`
    (a triple): the case the closed forms select at `n`, run at the point's memrefs and input blocks, the accumulator
    carried in at what position `n - 1` left. -/
def outsAt2 (c : Dev nD) : (n : ℕ) → n < cfg2.N → Vec F S512x512 .f32 × Vec F S512x512 .bf16 × Vec F S512x512 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h0 : (n + 1) % 2 = 0 then
      if h1 : (n + 1) % 2 = 1 then
        False.elim (by omega)
      else
        (out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩), out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩), sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩))
    else
      if h1 : (n + 1) % 2 = 1 then
        (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2, out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2, sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2)
      else
        False.elim (by omega)

theorem outsAt2_A (c : Dev nD) (t : Fin cfg2.N) (h0 : t.val % 2 = 0) (h1 : ¬t.val % 2 = 1) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) ((hcond2_0 t).mpr h0) (fun h => h1 ((hcond2_1 t).mp h)) (iblk2 V c 0 t) (iblk2 V c 1 t) (iblk2 V c 2 t) (iblk2 V c 3 t), out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) ((hcond2_0 t).mpr h0) (fun h => h1 ((hcond2_1 t).mp h)) (iblk2 V c 0 t) (iblk2 V c 1 t) (iblk2 V c 2 t) (iblk2 V c 3 t), sout2_A c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact (dif_pos h0).trans ((dif_neg h1).trans rfl)

theorem outsAt2_C (c : Dev nD) (t : Fin cfg2.N) (h0 : ¬t.val % 2 = 0) (h1 : t.val % 2 = 1) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2, out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2, sout2_C c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every buffer the region does not stage at
    anything; afterwards the accumulator at what the point before left in it. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2.2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare ((outsAt2 V c n hn).2.2) ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(owns (c : Thread nD τ) scM2 fullShare ((outsAt2 V c (n - 1) (by omega)).2.2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- The proof data of region 2's pipeline on core `c`: the arrays as the region finds them; after the body at point
    `t` each input's buffer at its block and the outputs' at what the point leaves; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
    | ⟨5, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]
theorem after2_5 (c : Dev nD) (t : Fin cfg2.N) : (dat2 V c).after 5 t = (outsAt2 V c t.val t.isLt).2.1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

theorem PhiS2_castSucc (c : Dev nD) (t : Fin cfg2.N) :
    (dat2 V c).Φ t.castSucc = PhiS2 V c t.val (Nat.le_of_lt t.isLt) := by
  dsimp only [dat2]; simp only [Fin.coe_castSucc]

set_option maxHeartbeats 4800000 in
/-- The body at any point: the inputs' memrefs hold their blocks; the closed forms say which case the point is in;
    the invariant hands the body the accumulator at what the point before left (at anything before the first point) and
    takes it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  by_cases h0 : t.val % 2 = 0
  · by_cases h1 : t.val % 2 = 1
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4 t (fun h => h1 ((hcond2_1 t).mp h))) (noFlush2_4 t (fun h => h1 ((hcond2_1 t).mp h)))]
      rw [Dat.leavesExact_idle (dat2 V c) 5 t (idleAt2_5 t (fun h => h1 ((hcond2_1 t).mp h))) (noFlush2_5 t (fun h => h1 ((hcond2_1 t).mp h)))]
      rw [outsAt2_A V c t h0 h1]
      unfold sout2_A; (try dsimp only)
      by_cases hz : t.val = 0
      ·
        rw [PhiS2_castSucc V c t, PhiS2_zero V c _ _ hz, PhiA2_eq]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5
      ·
        rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5

  · by_cases h1 : t.val % 2 = 1
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t ((hcond2_1 t).mpr h1)], after2_4]
      rw [show (dat2 V c).leavesExact 5 t = owns (c : Thread nD τ) (ms2_5 t) fullShare ((dat2 V c).after 5 t) from by
        unfold Dat.leavesExact; rw [liveAt2_5 t ((hcond2_1 t).mpr h1)], after2_5]
      rw [outsAt2_C V c t h0 h1]
      unfold out2_C_4 out2_C_5 sout2_C; (try dsimp only)
      have hz : t.val ≠ 0 := by omega
      ·
        rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) _).2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        iintro ⟨H0, H1, H2, H3, ⟨%e4, H4⟩, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_C c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover2_C_4 c _ _ _ _ _ _ _ _ _ _ _ _ _ _ _ _ _ _ _ _ _ _)
        unfold owns; iexists _; isplitr
        swap; · iexact H5
        ipureintro; exact View.read_writes_of_cover _ _ _ _ _ (cover2_C_5 c _ _ _ _ _ _ _ _ _ _ _ _ _ _ _ _ _ _ _ _ _ _)

    ·
      exfalso; omega

/-- The library's body obligation, at every point. -/
theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg
theorem hout2 (c : Dev nD) : (dat2 V c).Φ (Fin.last cfg2.N) ⊢ Pipeline.ΦA spec2 c :=
  Phi_out2 V c _ (by rw [Fin.val_last]; have : cfg2.N = 32 := N_2; omega)

end Cert.Kernel.Hand

end
-- ==== Proof.Kernel.C3.lean ====
import proofs.«152868_j57621281243253_2_alg».proof.Proof.Gen.Kernel.Launch
import proofs.«152868_j57621281243253_2_alg».proof.Proof.Gen.Kernel.Skeleton
import proofs.«152868_j57621281243253_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 3: where on its grid the body's two conditionals hold, where its output windows are idle, and the
    memrefs the body is called with. The body resets its accumulator when the last grid coordinate is 0 and stores
    its two outputs when that coordinate is the last one. -/

/-- The accumulator is reset: the last grid coordinate is 0. -/
abbrev cond3_0 (i : grid3.Coords) : Prop := (Scalar.cmpi .ne (Scalar.extui (Scalar.cmpi .eq (BitVec.ofNat 32 (i 2).val) 0#32)) 0#32) = 1#1
/-- The outputs are stored: the last grid coordinate is the last one. -/
abbrev cond3_1 (i : grid3.Coords) : Prop := k3_cond2 i = 1#1

theorem hcond3_0 : ∀ t : Fin cfg3.N, cond3_0 (grid3.coords t) :=
  (by decide +kernel : ∀ t : Fin grid3.N, cond3_0 (grid3.coords t))
theorem hcond3_1 : ∀ t : Fin cfg3.N, cond3_1 (grid3.coords t) :=
  (by decide +kernel : ∀ t : Fin grid3.N, cond3_1 (grid3.coords t))
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cond3_1 (grid3.coords t) → cfg3.idle 4 (grid3.coords t) = false := by decide +kernel
theorem liveAt3_5 : ∀ t : Fin cfg3.N, cond3_1 (grid3.coords t) → cfg3.idle 5 (grid3.coords t) = false := by decide +kernel

/-- One staging buffer of each output window, through which its contents are stated. -/
abbrev VO3_4 : View sig .tc .vmem S512x512 .f32 := (Memref.whole cc3_stg4_0 : Memref sig .tc .vmem S512x512 .f32).view
abbrev VO3_5 : View sig .tc .vmem S512x512 .bf16 := (Memref.whole cc3_stg5_0 : Memref sig .tc .vmem S512x512 .bf16).view
abbrev ms3_0 (t : Fin cfg3.N) : Memref sig .tc .vmem S512x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S512x1024 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S512x1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x512 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S512x512 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S512x512 .bf16 := win3_5.stage (cfg3.slots t 5)
abbrev hs3_5 (t : Fin cfg3.N) : (ms3_5 t).IsWhole := hstage3_5 ((cfg3.slots t 5).cast nbuf3_5)
/-- The accumulator: a whole buffer of the kernel's own, passed beside the windows. -/
abbrev scM3 : Memref sig .tc .vmem S512x512 .f32 := Memref.whole cc3_scratch0
abbrev VS3 : View sig .tc .vmem S512x512 .f32 := (scM3).view

/-- The region's invariant, opened at the accumulator: it at some contents, every other buffer the region does not
    stage unopened, the generator register at some state. -/
theorem PhiA3_eq (c : Dev nD) :
    (Pipeline.ΦA spec3 c : sProp 𝕄)
      = iprop(iprop((∃ d, owns (c : Thread nD τ) scM3 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

end Cert.Kernel.Hand

end
-- ==== Proof.Kernel.Run3D.lean ====
import proofs.«152868_j57621281243253_2_alg».proof.Proof.Kernel.C3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 3, the body run whole in one case of its two conditionals (the accumulator is reset, the outputs are stored):
    on whole staging memrefs holding the input blocks, the body runs to its end; what it leaves in the accumulator
    and in the two output buffers is found by the run as a list of stored pieces. -/

set_option maxHeartbeats 1000000 in
noncomputable def kernelRun3_D (c : Dev nD) (i : grid3.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : cond3_0 i) (hc1 : cond3_1 i)
    (x0 : Vec F S512x1024 .bf16) (x1 : Vec F S512x1024 .f32) (x2 : Vec F S512x1024 .f32) (x3 : Vec F S1x512 .f32) :
    Σ' (L4 : List (View.Piece (Elt F) S512x512 .f32)) (L5 : List (View.Piece (Elt F) S512x512 .bf16)), { LS0 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5)
                ∗ (∃ f, arg9.view.loc (c : Thread nD τ) ↦[arg9.view.set]{fullShare} arg9.view.writes (Elt F) f LS0)) -∗ K ⟨⟩))
          ⊢ wp frame (wpE (defs₀ (F := F)) Variants.none c none) E (cc3__layer_kernel i arg3 harg3 arg4 harg4 arg5 harg5 arg6 harg6 arg7 harg7 arg8 harg8 arg9 harg9) K } := by
  refine ⟨?_, ?_, ?_, fun E K => ?run⟩
  case run =>
    simp only [cc3__layer_kernel_eq_skeleton]; unfold cc3__layer_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    iexists _; iexact HS0

end Cert.Kernel.Hand

end
-- ==== Proof.Kernel.Rgn3.lean ====
import proofs.«152868_j57621281243253_2_alg».proof.Proof.Kernel.Run3D

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 3 over any contents `V` of the buffers at its entry: what each output window's staging buffer and the
    accumulator hold after the body at every grid point, the proof data of the region's pipeline, and the body
    obligation. Every point resets the accumulator, adds its product and stores both outputs. -/

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The pieces case D stores into output window 4 tile its block, so they cover it. -/
theorem cover3_D_4 (c : Dev nD) (i : grid3.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : cond3_0 i) (hc1 : cond3_1 i)
    (x0 : Vec F S512x1024 .bf16) (x1 : Vec F S512x1024 .f32) (x2 : Vec F S512x1024 .f32) (x3 : Vec F S1x512 .f32) (y : S512x512.Idx) :
    ∃ pc ∈ (kernelRun3_D c i arg3 harg3 arg4 harg4 arg5 harg5 arg6 harg6 arg7 harg7 arg8 harg8 arg9 harg9 hc0 hc1 x0 x1 x2 x3).1, y ∈ pc.1.set :=
  View.cover_of_tiledL (kernelRun3_D c i arg3 harg3 arg4 harg4 arg5 harg5 arg6 harg6 arg7 harg7 arg8 harg8 arg9 harg9 hc0 hc1 x0 x1 x2 x3).1 S512x512.size (by sl_kernel_rfl) y
/-- The same for output window 5. -/
theorem cover3_D_5 (c : Dev nD) (i : grid3.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : cond3_0 i) (hc1 : cond3_1 i)
    (x0 : Vec F S512x1024 .bf16) (x1 : Vec F S512x1024 .f32) (x2 : Vec F S512x1024 .f32) (x3 : Vec F S1x512 .f32) (y : S512x512.Idx) :
    ∃ pc ∈ (kernelRun3_D c i arg3 harg3 arg4 harg4 arg5 harg5 arg6 harg6 arg7 harg7 arg8 harg8 arg9 harg9 hc0 hc1 x0 x1 x2 x3).2.1, y ∈ pc.1.set :=
  View.cover_of_tiledL (kernelRun3_D c i arg3 harg3 arg4 harg4 arg5 harg5 arg6 harg6 arg7 harg7 arg8 harg8 arg9 harg9 hc0 hc1 x0 x1 x2 x3).2.1 S512x512.size (by sl_kernel_rfl) y

/-- What case D leaves in output window 4's staging buffer: its pieces read back. -/
def out3_D_4 (c : Dev nD) (i : grid3.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : cond3_0 i) (hc1 : cond3_1 i)
    (x0 : Vec F S512x1024 .bf16) (x1 : Vec F S512x1024 .f32) (x2 : Vec F S512x1024 .f32) (x3 : Vec F S1x512 .f32) : Vec F S512x512 .f32 :=
  VO3_4.read (Elt F) (VO3_4.writes (Elt F) VO3_4.junk (kernelRun3_D c i arg3 harg3 arg4 harg4 arg5 harg5 arg6 harg6 arg7 harg7 arg8 harg8 arg9 harg9 hc0 hc1 x0 x1 x2 x3).1)
/-- The same for output window 5. -/
def out3_D_5 (c : Dev nD) (i : grid3.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : cond3_0 i) (hc1 : cond3_1 i)
    (x0 : Vec F S512x1024 .bf16) (x1 : Vec F S512x1024 .f32) (x2 : Vec F S512x1024 .f32) (x3 : Vec F S1x512 .f32) : Vec F S512x512 .bf16 :=
  VO3_5.read (Elt F) (VO3_5.writes (Elt F) VO3_5.junk (kernelRun3_D c i arg3 harg3 arg4 harg4 arg5 harg5 arg6 harg6 arg7 harg7 arg8 harg8 arg9 harg9 hc0 hc1 x0 x1 x2 x3).2.1)
/-- The pieces case D stores into the accumulator cover it. -/
theorem scover3_D (c : Dev nD) (i : grid3.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : cond3_0 i) (hc1 : cond3_1 i)
    (x0 : Vec F S512x1024 .bf16) (x1 : Vec F S512x1024 .f32) (x2 : Vec F S512x1024 .f32) (x3 : Vec F S1x512 .f32) (y : S512x512.Idx) :
    ∃ pc ∈ (kernelRun3_D c i arg3 harg3 arg4 harg4 arg5 harg5 arg6 harg6 arg7 harg7 arg8 harg8 arg9 harg9 hc0 hc1 x0 x1 x2 x3).2.2.1, y ∈ pc.1.set :=
  View.cover_of_tiledL (kernelRun3_D c i arg3 harg3 arg4 harg4 arg5 harg5 arg6 harg6 arg7 harg7 arg8 harg8 arg9 harg9 hc0 hc1 x0 x1 x2 x3).2.2.1 S512x512.size (by sl_kernel_rfl) y
/-- What case D leaves in the accumulator. -/
def sout3_D (c : Dev nD) (i : grid3.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : cond3_0 i) (hc1 : cond3_1 i)
    (x0 : Vec F S512x1024 .bf16) (x1 : Vec F S512x1024 .f32) (x2 : Vec F S512x1024 .f32) (x3 : Vec F S1x512 .f32) : Vec F S512x512 .f32 :=
  VS3.read (Elt F) (VS3.writes (Elt F) VS3.junk (kernelRun3_D c i arg3 harg3 arg4 harg4 arg5 harg5 arg6 harg6 arg7 harg7 arg8 harg8 arg9 harg9 hc0 hc1 x0 x1 x2 x3).2.2.1)

/-- The proof data of region 3's pipeline on core `c`: the arrays as the region finds them; after the body at point
    `t` each input's buffer at its block and the outputs' at what the point leaves; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_D_4 c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) (hcond3_0 t) (hcond3_1 t) (iblk3 V c 0 t) (iblk3 V c 1 t) (iblk3 V c 2 t) (iblk3 V c 3 t)
    | ⟨5, _⟩ => out3_D_5 c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) (hcond3_0 t) (hcond3_1 t) (iblk3 V c 0 t) (iblk3 V c 1 t) (iblk3 V c 2 t) (iblk3 V c 3 t)
  Φ t := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_D_4 c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) (hcond3_0 t) (hcond3_1 t) (iblk3 V c 0 t) (iblk3 V c 1 t) (iblk3 V c 2 t) (iblk3 V c 3 t) := by dsimp only [dat3]
theorem after3_5 (c : Dev nD) (t : Fin cfg3.N) : (dat3 V c).after 5 t = out3_D_5 c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) (hcond3_0 t) (hcond3_1 t) (iblk3 V c 0 t) (iblk3 V c 1 t) (iblk3 V c 2 t) (iblk3 V c 3 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 4800000 in
/-- The body at any point: the inputs' memrefs hold their blocks; the run applies; the invariant hands the body the
    accumulator at some contents and takes it back at some contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = Pipeline.ΦA spec3 c from rfl, show (dat3 V c).Φ t.castSucc = Pipeline.ΦA spec3 c from rfl, PhiA3_eq]
  ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [show (dat3 V c).leavesExact 4 t = owns (c : Thread nD τ) (ms3_4 t) fullShare ((dat3 V c).after 4 t) from by
        unfold Dat.leavesExact; rw [liveAt3_4 t (hcond3_1 t)], after3_4]
      rw [show (dat3 V c).leavesExact 5 t = owns (c : Thread nD τ) (ms3_5 t) fullShare ((dat3 V c).after 5 t) from by
        unfold Dat.leavesExact; rw [liveAt3_5 t (hcond3_1 t)], after3_5]
      unfold out3_D_4 out3_D_5; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun3_D c (grid3.coords t) _ _ _ _ _ _ _ _ _ _ _ _ _ _ (hcond3_0 t) (hcond3_1 t) (iblk3 V c 0 t) (iblk3 V c 1 t) (iblk3 V c 2 t) (iblk3 V c 3 t)).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 HR Hg]
      · isplitl [HS0 HR]
        · isplitl [HS0]
          · iexists _; unfold owns; iexists _; isplitr
            swap; · iexact HS0
            ipureintro; rfl
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover3_D_4 c _ _ _ _ _ _ _ _ _ _ _ _ _ _ _ _ _ _ _ _ _)
      unfold owns; iexists _; isplitr
      swap; · iexact H5
      ipureintro; exact View.read_writes_of_cover _ _ _ _ _ (cover3_D_5 c _ _ _ _ _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := .rfl
theorem hout3 (c : Dev nD) : (dat3 V c).Φ (Fin.last cfg3.N) ⊢ Pipeline.ΦA spec3 c := .rfl

end Cert.Kernel.Hand

end
-- ==== Proof.Kernel.C4.lean ====
import proofs.«152868_j57621281243253_2_alg».proof.Proof.Gen.Kernel.Launch
import proofs.«152868_j57621281243253_2_alg».proof.Proof.Gen.Kernel.Skeleton
import proofs.«152868_j57621281243253_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 4: where on its grid the body's two conditionals hold, where its output windows are idle, and the
    memrefs the body is called with. The body resets its accumulator when the last grid coordinate is 0 and stores
    its two outputs when that coordinate is the last one. -/

/-- The accumulator is reset: the last grid coordinate is 0. -/
abbrev cond4_0 (i : grid4.Coords) : Prop := (Scalar.cmpi .ne (Scalar.extui (Scalar.cmpi .eq (BitVec.ofNat 32 (i 2).val) 0#32)) 0#32) = 1#1
/-- The outputs are stored: the last grid coordinate is the last one. -/
abbrev cond4_1 (i : grid4.Coords) : Prop := k4_cond2 i = 1#1

theorem hcond4_0 : ∀ t : Fin cfg4.N, cond4_0 (grid4.coords t) :=
  (by decide +kernel : ∀ t : Fin grid4.N, cond4_0 (grid4.coords t))
theorem hcond4_1 : ∀ t : Fin cfg4.N, cond4_1 (grid4.coords t) :=
  (by decide +kernel : ∀ t : Fin grid4.N, cond4_1 (grid4.coords t))
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cond4_1 (grid4.coords t) → cfg4.idle 4 (grid4.coords t) = false := by decide +kernel
theorem liveAt4_5 : ∀ t : Fin cfg4.N, cond4_1 (grid4.coords t) → cfg4.idle 5 (grid4.coords t) = false := by decide +kernel

/-- One staging buffer of each output window, through which its contents are stated. -/
abbrev VO4_4 : View sig .tc .vmem S512x256 .f32 := (Memref.whole cc4_stg4_0 : Memref sig .tc .vmem S512x256 .f32).view
abbrev VO4_5 : View sig .tc .vmem S512x256 .bf16 := (Memref.whole cc4_stg5_0 : Memref sig .tc .vmem S512x256 .bf16).view
abbrev ms4_0 (t : Fin cfg4.N) : Memref sig .tc .vmem S512x512 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S256x512 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S256x512 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x256 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S512x256 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S512x256 .bf16 := win4_5.stage (cfg4.slots t 5)
abbrev hs4_5 (t : Fin cfg4.N) : (ms4_5 t).IsWhole := hstage4_5 ((cfg4.slots t 5).cast nbuf4_5)
/-- The accumulator: a whole buffer of the kernel's own, passed beside the windows. -/
abbrev scM4 : Memref sig .tc .vmem S512x256 .f32 := Memref.whole cc4_scratch0
abbrev VS4 : View sig .tc .vmem S512x256 .f32 := (scM4).view

/-- The region's invariant, opened at the accumulator: it at some contents, every other buffer the region does not
    stage unopened, the generator register at some state. -/
theorem PhiA4_eq (c : Dev nD) :
    (Pipeline.ΦA spec4 c : sProp 𝕄)
      = iprop(iprop((∃ d, owns (c : Thread nD τ) scM4 fullShare d) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

end Cert.Kernel.Hand

end
-- ==== Proof.Kernel.Run4D.lean ====
import proofs.«152868_j57621281243253_2_alg».proof.Proof.Kernel.C4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 4, the body run whole in one case of its two conditionals (the accumulator is reset, the outputs are stored):
    on whole staging memrefs holding the input blocks, the body runs to its end; what it leaves in the accumulator
    and in the two output buffers is found by the run as a list of stored pieces. -/

set_option maxHeartbeats 1000000 in
noncomputable def kernelRun4_D (c : Dev nD) (i : grid4.Coords) (arg3 : Memref sig .tc .vmem S512x512 .bf16) (harg3 : arg3.IsWhole) (arg4 : Memref sig .tc .vmem S256x512 .f32) (harg4 : arg4.IsWhole) (arg5 : Memref sig .tc .vmem S256x512 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .bf16) (harg8 : arg8.IsWhole) (arg9 : Memref sig .tc .vmem S512x256 .f32) (harg9 : arg9.IsWhole) (hc0 : cond4_0 i) (hc1 : cond4_1 i)
    (x0 : Vec F S512x512 .bf16) (x1 : Vec F S256x512 .f32) (x2 : Vec F S256x512 .f32) (x3 : Vec F S1x256 .f32) :
    Σ' (L4 : List (View.Piece (Elt F) S512x256 .f32)) (L5 : List (View.Piece (Elt F) S512x256 .bf16)), { LS0 : List (View.Piece (Elt F) S512x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5)
                ∗ (∃ f, arg9.view.loc (c : Thread nD τ) ↦[arg9.view.set]{fullShare} arg9.view.writes (Elt F) f LS0)) -∗ K ⟨⟩))
          ⊢ wp frame (wpE (defs₀ (F := F)) Variants.none c none) E (cc4__layer_kernel i arg3 harg3 arg4 harg4 arg5 harg5 arg6 harg6 arg7 harg7 arg8 harg8 arg9 harg9) K } := by
  refine ⟨?_, ?_, ?_, fun E K => ?run⟩
  case run =>
    simp only [cc4__layer_kernel_eq_skeleton]; unfold cc4__layer_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    iexists _; iexact HS0

end Cert.Kernel.Hand

end
-- ==== Proof.Kernel.Rgn4.lean ====
import proofs.«152868_j57621281243253_2_alg».proof.Proof.Kernel.Run4D

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 4 over any contents `V` of the buffers at its entry: what each output window's staging buffer and the
    accumulator hold after the body at every grid point, the proof data of the region's pipeline, and the body
    obligation. Every point resets the accumulator, adds its product and stores both outputs. -/

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- The pieces case D stores into output window 4 tile its block, so they cover it. -/
theorem cover4_D_4 (c : Dev nD) (i : grid4.Coords) (arg3 : Memref sig .tc .vmem S512x512 .bf16) (harg3 : arg3.IsWhole) (arg4 : Memref sig .tc .vmem S256x512 .f32) (harg4 : arg4.IsWhole) (arg5 : Memref sig .tc .vmem S256x512 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .bf16) (harg8 : arg8.IsWhole) (arg9 : Memref sig .tc .vmem S512x256 .f32) (harg9 : arg9.IsWhole) (hc0 : cond4_0 i) (hc1 : cond4_1 i)
    (x0 : Vec F S512x512 .bf16) (x1 : Vec F S256x512 .f32) (x2 : Vec F S256x512 .f32) (x3 : Vec F S1x256 .f32) (y : S512x256.Idx) :
    ∃ pc ∈ (kernelRun4_D c i arg3 harg3 arg4 harg4 arg5 harg5 arg6 harg6 arg7 harg7 arg8 harg8 arg9 harg9 hc0 hc1 x0 x1 x2 x3).1, y ∈ pc.1.set :=
  View.cover_of_tiledL (kernelRun4_D c i arg3 harg3 arg4 harg4 arg5 harg5 arg6 harg6 arg7 harg7 arg8 harg8 arg9 harg9 hc0 hc1 x0 x1 x2 x3).1 S512x256.size (by sl_kernel_rfl) y
/-- The same for output window 5. -/
theorem cover4_D_5 (c : Dev nD) (i : grid4.Coords) (arg3 : Memref sig .tc .vmem S512x512 .bf16) (harg3 : arg3.IsWhole) (arg4 : Memref sig .tc .vmem S256x512 .f32) (harg4 : arg4.IsWhole) (arg5 : Memref sig .tc .vmem S256x512 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .bf16) (harg8 : arg8.IsWhole) (arg9 : Memref sig .tc .vmem S512x256 .f32) (harg9 : arg9.IsWhole) (hc0 : cond4_0 i) (hc1 : cond4_1 i)
    (x0 : Vec F S512x512 .bf16) (x1 : Vec F S256x512 .f32) (x2 : Vec F S256x512 .f32) (x3 : Vec F S1x256 .f32) (y : S512x256.Idx) :
    ∃ pc ∈ (kernelRun4_D c i arg3 harg3 arg4 harg4 arg5 harg5 arg6 harg6 arg7 harg7 arg8 harg8 arg9 harg9 hc0 hc1 x0 x1 x2 x3).2.1, y ∈ pc.1.set :=
  View.cover_of_tiledL (kernelRun4_D c i arg3 harg3 arg4 harg4 arg5 harg5 arg6 harg6 arg7 harg7 arg8 harg8 arg9 harg9 hc0 hc1 x0 x1 x2 x3).2.1 S512x256.size (by sl_kernel_rfl) y

/-- What case D leaves in output window 4's staging buffer: its pieces read back. -/
def out4_D_4 (c : Dev nD) (i : grid4.Coords) (arg3 : Memref sig .tc .vmem S512x512 .bf16) (harg3 : arg3.IsWhole) (arg4 : Memref sig .tc .vmem S256x512 .f32) (harg4 : arg4.IsWhole) (arg5 : Memref sig .tc .vmem S256x512 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .bf16) (harg8 : arg8.IsWhole) (arg9 : Memref sig .tc .vmem S512x256 .f32) (harg9 : arg9.IsWhole) (hc0 : cond4_0 i) (hc1 : cond4_1 i)
    (x0 : Vec F S512x512 .bf16) (x1 : Vec F S256x512 .f32) (x2 : Vec F S256x512 .f32) (x3 : Vec F S1x256 .f32) : Vec F S512x256 .f32 :=
  VO4_4.read (Elt F) (VO4_4.writes (Elt F) VO4_4.junk (kernelRun4_D c i arg3 harg3 arg4 harg4 arg5 harg5 arg6 harg6 arg7 harg7 arg8 harg8 arg9 harg9 hc0 hc1 x0 x1 x2 x3).1)
/-- The same for output window 5. -/
def out4_D_5 (c : Dev nD) (i : grid4.Coords) (arg3 : Memref sig .tc .vmem S512x512 .bf16) (harg3 : arg3.IsWhole) (arg4 : Memref sig .tc .vmem S256x512 .f32) (harg4 : arg4.IsWhole) (arg5 : Memref sig .tc .vmem S256x512 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .bf16) (harg8 : arg8.IsWhole) (arg9 : Memref sig .tc .vmem S512x256 .f32) (harg9 : arg9.IsWhole) (hc0 : cond4_0 i) (hc1 : cond4_1 i)
    (x0 : Vec F S512x512 .bf16) (x1 : Vec F S256x512 .f32) (x2 : Vec F S256x512 .f32) (x3 : Vec F S1x256 .f32) : Vec F S512x256 .bf16 :=
  VO4_5.read (Elt F) (VO4_5.writes (Elt F) VO4_5.junk (kernelRun4_D c i arg3 harg3 arg4 harg4 arg5 harg5 arg6 harg6 arg7 harg7 arg8 harg8 arg9 harg9 hc0 hc1 x0 x1 x2 x3).2.1)
/-- The pieces case D stores into the accumulator cover it. -/
theorem scover4_D (c : Dev nD) (i : grid4.Coords) (arg3 : Memref sig .tc .vmem S512x512 .bf16) (harg3 : arg3.IsWhole) (arg4 : Memref sig .tc .vmem S256x512 .f32) (harg4 : arg4.IsWhole) (arg5 : Memref sig .tc .vmem S256x512 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .bf16) (harg8 : arg8.IsWhole) (arg9 : Memref sig .tc .vmem S512x256 .f32) (harg9 : arg9.IsWhole) (hc0 : cond4_0 i) (hc1 : cond4_1 i)
    (x0 : Vec F S512x512 .bf16) (x1 : Vec F S256x512 .f32) (x2 : Vec F S256x512 .f32) (x3 : Vec F S1x256 .f32) (y : S512x256.Idx) :
    ∃ pc ∈ (kernelRun4_D c i arg3 harg3 arg4 harg4 arg5 harg5 arg6 harg6 arg7 harg7 arg8 harg8 arg9 harg9 hc0 hc1 x0 x1 x2 x3).2.2.1, y ∈ pc.1.set :=
  View.cover_of_tiledL (kernelRun4_D c i arg3 harg3 arg4 harg4 arg5 harg5 arg6 harg6 arg7 harg7 arg8 harg8 arg9 harg9 hc0 hc1 x0 x1 x2 x3).2.2.1 S512x256.size (by sl_kernel_rfl) y
/-- What case D leaves in the accumulator. -/
def sout4_D (c : Dev nD) (i : grid4.Coords) (arg3 : Memref sig .tc .vmem S512x512 .bf16) (harg3 : arg3.IsWhole) (arg4 : Memref sig .tc .vmem S256x512 .f32) (harg4 : arg4.IsWhole) (arg5 : Memref sig .tc .vmem S256x512 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .bf16) (harg8 : arg8.IsWhole) (arg9 : Memref sig .tc .vmem S512x256 .f32) (harg9 : arg9.IsWhole) (hc0 : cond4_0 i) (hc1 : cond4_1 i)
    (x0 : Vec F S512x512 .bf16) (x1 : Vec F S256x512 .f32) (x2 : Vec F S256x512 .f32) (x3 : Vec F S1x256 .f32) : Vec F S512x256 .f32 :=
  VS4.read (Elt F) (VS4.writes (Elt F) VS4.junk (kernelRun4_D c i arg3 harg3 arg4 harg4 arg5 harg5 arg6 harg6 arg7 harg7 arg8 harg8 arg9 harg9 hc0 hc1 x0 x1 x2 x3).2.2.1)

/-- The proof data of region 4's pipeline on core `c`: the arrays as the region finds them; after the body at point
    `t` each input's buffer at its block and the outputs' at what the point leaves; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_D_4 c (grid4.coords t) (ms4_0 t) (hs4_0 t) (ms4_1 t) (hs4_1 t) (ms4_2 t) (hs4_2 t) (ms4_3 t) (hs4_3 t) (ms4_4 t) (hs4_4 t) (ms4_5 t) (hs4_5 t) scM4 (Memref.isWhole_whole _) (hcond4_0 t) (hcond4_1 t) (iblk4 V c 0 t) (iblk4 V c 1 t) (iblk4 V c 2 t) (iblk4 V c 3 t)
    | ⟨5, _⟩ => out4_D_5 c (grid4.coords t) (ms4_0 t) (hs4_0 t) (ms4_1 t) (hs4_1 t) (ms4_2 t) (hs4_2 t) (ms4_3 t) (hs4_3 t) (ms4_4 t) (hs4_4 t) (ms4_5 t) (hs4_5 t) scM4 (Memref.isWhole_whole _) (hcond4_0 t) (hcond4_1 t) (iblk4 V c 0 t) (iblk4 V c 1 t) (iblk4 V c 2 t) (iblk4 V c 3 t)
  Φ t := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_D_4 c (grid4.coords t) (ms4_0 t) (hs4_0 t) (ms4_1 t) (hs4_1 t) (ms4_2 t) (hs4_2 t) (ms4_3 t) (hs4_3 t) (ms4_4 t) (hs4_4 t) (ms4_5 t) (hs4_5 t) scM4 (Memref.isWhole_whole _) (hcond4_0 t) (hcond4_1 t) (iblk4 V c 0 t) (iblk4 V c 1 t) (iblk4 V c 2 t) (iblk4 V c 3 t) := by dsimp only [dat4]
theorem after4_5 (c : Dev nD) (t : Fin cfg4.N) : (dat4 V c).after 5 t = out4_D_5 c (grid4.coords t) (ms4_0 t) (hs4_0 t) (ms4_1 t) (hs4_1 t) (ms4_2 t) (hs4_2 t) (ms4_3 t) (hs4_3 t) (ms4_4 t) (hs4_4 t) (ms4_5 t) (hs4_5 t) scM4 (Memref.isWhole_whole _) (hcond4_0 t) (hcond4_1 t) (iblk4 V c 0 t) (iblk4 V c 1 t) (iblk4 V c 2 t) (iblk4 V c 3 t) := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t)

set_option maxHeartbeats 4800000 in
/-- The body at any point: the inputs' memrefs hold their blocks; the run applies; the invariant hands the body the
    accumulator at some contents and takes it back at some contents; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = Pipeline.ΦA spec4 c from rfl, show (dat4 V c).Φ t.castSucc = Pipeline.ΦA spec4 c from rfl, PhiA4_eq]
  ·
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t (hcond4_1 t)], after4_4]
      rw [show (dat4 V c).leavesExact 5 t = owns (c : Thread nD τ) (ms4_5 t) fullShare ((dat4 V c).after 5 t) from by
        unfold Dat.leavesExact; rw [liveAt4_5 t (hcond4_1 t)], after4_5]
      unfold out4_D_4 out4_D_5; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun4_D c (grid4.coords t) _ _ _ _ _ _ _ _ _ _ _ _ _ _ (hcond4_0 t) (hcond4_1 t) (iblk4 V c 0 t) (iblk4 V c 1 t) (iblk4 V c 2 t) (iblk4 V c 3 t)).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 HR Hg]
      · isplitl [HS0 HR]
        · isplitl [HS0]
          · iexists _; unfold owns; iexists _; isplitr
            swap; · iexact HS0
            ipureintro; rfl
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover4_D_4 c _ _ _ _ _ _ _ _ _ _ _ _ _ _ _ _ _ _ _ _ _)
      unfold owns; iexists _; isplitr
      swap; · iexact H5
      ipureintro; exact View.read_writes_of_cover _ _ _ _ _ (cover4_D_5 c _ _ _ _ _ _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := .rfl
theorem hout4 (c : Dev nD) : (dat4 V c).Φ (Fin.last cfg4.N) ⊢ Pipeline.ΦA spec4 c := .rfl

end Cert.Kernel.Hand

end
-- ==== Proof.Kernel.C5.lean ====
import proofs.«152868_j57621281243253_2_alg».proof.Proof.Gen.Kernel.Launch
import proofs.«152868_j57621281243253_2_alg».proof.Proof.Gen.Kernel.Skeleton
import proofs.«152868_j57621281243253_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 5: where on its grid the body's two conditionals hold, where its output windows are idle, and the
    memrefs the body is called with. The body resets its accumulator when the last grid coordinate is 0 and stores
    its two outputs when that coordinate is the last one. -/

/-- The accumulator is reset: the last grid coordinate is 0. -/
abbrev cond5_0 (i : grid5.Coords) : Prop := (Scalar.cmpi .ne (Scalar.extui (Scalar.cmpi .eq (BitVec.ofNat 32 (i 2).val) 0#32)) 0#32) = 1#1
/-- The outputs are stored: the last grid coordinate is the last one. -/
abbrev cond5_1 (i : grid5.Coords) : Prop := k5_cond2 i = 1#1

theorem hcond5_0 : ∀ t : Fin cfg5.N, cond5_0 (grid5.coords t) :=
  (by decide +kernel : ∀ t : Fin grid5.N, cond5_0 (grid5.coords t))
theorem hcond5_1 : ∀ t : Fin cfg5.N, cond5_1 (grid5.coords t) :=
  (by decide +kernel : ∀ t : Fin grid5.N, cond5_1 (grid5.coords t))
theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
theorem liveAt5_3 : ∀ t : Fin cfg5.N, cfg5.idle 3 (grid5.coords t) = false := by decide +kernel
theorem liveAt5_4 : ∀ t : Fin cfg5.N, cond5_1 (grid5.coords t) → cfg5.idle 4 (grid5.coords t) = false := by decide +kernel
theorem liveAt5_5 : ∀ t : Fin cfg5.N, cond5_1 (grid5.coords t) → cfg5.idle 5 (grid5.coords t) = false := by decide +kernel

/-- One staging buffer of each output window, through which its contents are stated. -/
abbrev VO5_4 : View sig .tc .vmem S512x1 .f32 := (Memref.whole cc5_stg4_0 : Memref sig .tc .vmem S512x1 .f32).view
abbrev VO5_5 : View sig .tc .vmem S512x1 .bf16 := (Memref.whole cc5_stg5_0 : Memref sig .tc .vmem S512x1 .bf16).view
abbrev ms5_0 (t : Fin cfg5.N) : Memref sig .tc .vmem S512x256 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1x256 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x256 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x1 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S512x1 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S512x1 .bf16 := win5_5.stage (cfg5.slots t 5)
abbrev hs5_5 (t : Fin cfg5.N) : (ms5_5 t).IsWhole := hstage5_5 ((cfg5.slots t 5).cast nbuf5_5)
/-- The accumulator: a whole buffer of the kernel's own, passed beside the windows. -/
abbrev scM5 : Memref sig .tc .vmem S512x1 .f32 := Memref.whole cc5_scratch0
abbrev VS5 : View sig .tc .vmem S512x1 .f32 := (scM5).view

/-- The region's invariant, opened at the accumulator: it at some contents, every other buffer the region does not
    stage unopened, the generator register at some state. -/
theorem PhiA5_eq (c : Dev nD) :
    (Pipeline.ΦA spec5 c : sProp 𝕄)
      = iprop(iprop((∃ d, owns (c : Thread nD τ) scM5 fullShare d) ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; try rfl

end Cert.Kernel.Hand

end
-- ==== Proof.Kernel.Run5D.lean ====
import proofs.«152868_j57621281243253_2_alg».proof.Proof.Kernel.C5

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 5, the body run whole in one case of its two conditionals (the accumulator is reset, the outputs are stored):
    on whole staging memrefs holding the input blocks, the body runs to its end; what it leaves in the accumulator
    and in the two output buffers is found by the run as a list of stored pieces. -/

set_option maxHeartbeats 1000000 in
noncomputable def kernelRun5_D (c : Dev nD) (i : grid5.Coords) (arg3 : Memref sig .tc .vmem S512x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : cond5_0 i) (hc1 : cond5_1 i)
    (x0 : Vec F S512x256 .bf16) (x1 : Vec F S1x256 .f32) (x2 : Vec F S1x256 .f32) (x3 : Vec F S1x1 .f32) :
    Σ' (L4 : List (View.Piece (Elt F) S512x1 .f32)) (L5 : List (View.Piece (Elt F) S512x1 .bf16)), { LS0 : List (View.Piece (Elt F) S512x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5)
                ∗ (∃ f, arg9.view.loc (c : Thread nD τ) ↦[arg9.view.set]{fullShare} arg9.view.writes (Elt F) f LS0)) -∗ K ⟨⟩))
          ⊢ wp frame (wpE (defs₀ (F := F)) Variants.none c none) E (cc5__layer_kernel i arg3 harg3 arg4 harg4 arg5 harg5 arg6 harg6 arg7 harg7 arg8 harg8 arg9 harg9) K } := by
  refine ⟨?_, ?_, ?_, fun E K => ?run⟩
  case run =>
    simp only [cc5__layer_kernel_eq_skeleton]; unfold cc5__layer_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    iexists _; iexact HS0

end Cert.Kernel.Hand

end
-- ==== Proof.Kernel.Rgn5.lean ====
import proofs.«152868_j57621281243253_2_alg».proof.Proof.Kernel.Run5D

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 5 over any contents `V` of the buffers at its entry: what each output window's staging buffer and the
    accumulator hold after the body at every grid point, the proof data of the region's pipeline, and the body
    obligation. Every point resets the accumulator, adds its product and stores both outputs. -/

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- The pieces case D stores into output window 4 tile its block, so they cover it. -/
theorem cover5_D_4 (c : Dev nD) (i : grid5.Coords) (arg3 : Memref sig .tc .vmem S512x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : cond5_0 i) (hc1 : cond5_1 i)
    (x0 : Vec F S512x256 .bf16) (x1 : Vec F S1x256 .f32) (x2 : Vec F S1x256 .f32) (x3 : Vec F S1x1 .f32) (y : S512x1.Idx) :
    ∃ pc ∈ (kernelRun5_D c i arg3 harg3 arg4 harg4 arg5 harg5 arg6 harg6 arg7 harg7 arg8 harg8 arg9 harg9 hc0 hc1 x0 x1 x2 x3).1, y ∈ pc.1.set :=
  View.cover_of_tiledL (kernelRun5_D c i arg3 harg3 arg4 harg4 arg5 harg5 arg6 harg6 arg7 harg7 arg8 harg8 arg9 harg9 hc0 hc1 x0 x1 x2 x3).1 S512x1.size (by sl_kernel_rfl) y
/-- The same for output window 5. -/
theorem cover5_D_5 (c : Dev nD) (i : grid5.Coords) (arg3 : Memref sig .tc .vmem S512x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : cond5_0 i) (hc1 : cond5_1 i)
    (x0 : Vec F S512x256 .bf16) (x1 : Vec F S1x256 .f32) (x2 : Vec F S1x256 .f32) (x3 : Vec F S1x1 .f32) (y : S512x1.Idx) :
    ∃ pc ∈ (kernelRun5_D c i arg3 harg3 arg4 harg4 arg5 harg5 arg6 harg6 arg7 harg7 arg8 harg8 arg9 harg9 hc0 hc1 x0 x1 x2 x3).2.1, y ∈ pc.1.set :=
  View.cover_of_tiledL (kernelRun5_D c i arg3 harg3 arg4 harg4 arg5 harg5 arg6 harg6 arg7 harg7 arg8 harg8 arg9 harg9 hc0 hc1 x0 x1 x2 x3).2.1 S512x1.size (by sl_kernel_rfl) y

/-- What case D leaves in output window 4's staging buffer: its pieces read back. -/
def out5_D_4 (c : Dev nD) (i : grid5.Coords) (arg3 : Memref sig .tc .vmem S512x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : cond5_0 i) (hc1 : cond5_1 i)
    (x0 : Vec F S512x256 .bf16) (x1 : Vec F S1x256 .f32) (x2 : Vec F S1x256 .f32) (x3 : Vec F S1x1 .f32) : Vec F S512x1 .f32 :=
  VO5_4.read (Elt F) (VO5_4.writes (Elt F) VO5_4.junk (kernelRun5_D c i arg3 harg3 arg4 harg4 arg5 harg5 arg6 harg6 arg7 harg7 arg8 harg8 arg9 harg9 hc0 hc1 x0 x1 x2 x3).1)
/-- The same for output window 5. -/
def out5_D_5 (c : Dev nD) (i : grid5.Coords) (arg3 : Memref sig .tc .vmem S512x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : cond5_0 i) (hc1 : cond5_1 i)
    (x0 : Vec F S512x256 .bf16) (x1 : Vec F S1x256 .f32) (x2 : Vec F S1x256 .f32) (x3 : Vec F S1x1 .f32) : Vec F S512x1 .bf16 :=
  VO5_5.read (Elt F) (VO5_5.writes (Elt F) VO5_5.junk (kernelRun5_D c i arg3 harg3 arg4 harg4 arg5 harg5 arg6 harg6 arg7 harg7 arg8 harg8 arg9 harg9 hc0 hc1 x0 x1 x2 x3).2.1)
/-- The pieces case D stores into the accumulator cover it. -/
theorem scover5_D (c : Dev nD) (i : grid5.Coords) (arg3 : Memref sig .tc .vmem S512x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : cond5_0 i) (hc1 : cond5_1 i)
    (x0 : Vec F S512x256 .bf16) (x1 : Vec F S1x256 .f32) (x2 : Vec F S1x256 .f32) (x3 : Vec F S1x1 .f32) (y : S512x1.Idx) :
    ∃ pc ∈ (kernelRun5_D c i arg3 harg3 arg4 harg4 arg5 harg5 arg6 harg6 arg7 harg7 arg8 harg8 arg9 harg9 hc0 hc1 x0 x1 x2 x3).2.2.1, y ∈ pc.1.set :=
  View.cover_of_tiledL (kernelRun5_D c i arg3 harg3 arg4 harg4 arg5 harg5 arg6 harg6 arg7 harg7 arg8 harg8 arg9 harg9 hc0 hc1 x0 x1 x2 x3).2.2.1 S512x1.size (by sl_kernel_rfl) y
/-- What case D leaves in the accumulator. -/
def sout5_D (c : Dev nD) (i : grid5.Coords) (arg3 : Memref sig .tc .vmem S512x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : cond5_0 i) (hc1 : cond5_1 i)
    (x0 : Vec F S512x256 .bf16) (x1 : Vec F S1x256 .f32) (x2 : Vec F S1x256 .f32) (x3 : Vec F S1x1 .f32) : Vec F S512x1 .f32 :=
  VS5.read (Elt F) (VS5.writes (Elt F) VS5.junk (kernelRun5_D c i arg3 harg3 arg4 harg4 arg5 harg5 arg6 harg6 arg7 harg7 arg8 harg8 arg9 harg9 hc0 hc1 x0 x1 x2 x3).2.2.1)

/-- The proof data of region 5's pipeline on core `c`: the arrays as the region finds them; after the body at point
    `t` each input's buffer at its block and the outputs' at what the point leaves; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_D_4 c (grid5.coords t) (ms5_0 t) (hs5_0 t) (ms5_1 t) (hs5_1 t) (ms5_2 t) (hs5_2 t) (ms5_3 t) (hs5_3 t) (ms5_4 t) (hs5_4 t) (ms5_5 t) (hs5_5 t) scM5 (Memref.isWhole_whole _) (hcond5_0 t) (hcond5_1 t) (iblk5 V c 0 t) (iblk5 V c 1 t) (iblk5 V c 2 t) (iblk5 V c 3 t)
    | ⟨5, _⟩ => out5_D_5 c (grid5.coords t) (ms5_0 t) (hs5_0 t) (ms5_1 t) (hs5_1 t) (ms5_2 t) (hs5_2 t) (ms5_3 t) (hs5_3 t) (ms5_4 t) (hs5_4 t) (ms5_5 t) (hs5_5 t) scM5 (Memref.isWhole_whole _) (hcond5_0 t) (hcond5_1 t) (iblk5 V c 0 t) (iblk5 V c 1 t) (iblk5 V c 2 t) (iblk5 V c 3 t)
  Φ t := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5_D_4 c (grid5.coords t) (ms5_0 t) (hs5_0 t) (ms5_1 t) (hs5_1 t) (ms5_2 t) (hs5_2 t) (ms5_3 t) (hs5_3 t) (ms5_4 t) (hs5_4 t) (ms5_5 t) (hs5_5 t) scM5 (Memref.isWhole_whole _) (hcond5_0 t) (hcond5_1 t) (iblk5 V c 0 t) (iblk5 V c 1 t) (iblk5 V c 2 t) (iblk5 V c 3 t) := by dsimp only [dat5]
theorem after5_5 (c : Dev nD) (t : Fin cfg5.N) : (dat5 V c).after 5 t = out5_D_5 c (grid5.coords t) (ms5_0 t) (hs5_0 t) (ms5_1 t) (hs5_1 t) (ms5_2 t) (hs5_2 t) (ms5_3 t) (hs5_3 t) (ms5_4 t) (hs5_4 t) (ms5_5 t) (hs5_5 t) scM5 (Memref.isWhole_whole _) (hcond5_0 t) (hcond5_1 t) (iblk5 V c 0 t) (iblk5 V c 1 t) (iblk5 V c 2 t) (iblk5 V c 3 t) := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t)

set_option maxHeartbeats 4800000 in
/-- The body at any point: the inputs' memrefs hold their blocks; the run applies; the invariant hands the body the
    accumulator at some contents and takes it back at some contents; the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).owesAt () t.succ = (dat5 V c).owesAt () t.castSucc from rfl]
  rw [show (dat5 V c).Φ t.succ = Pipeline.ΦA spec5 c from rfl, show (dat5 V c).Φ t.castSucc = Pipeline.ΦA spec5 c from rfl, PhiA5_eq]
  ·
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [show (dat5 V c).leavesExact 3 t = owns (c : Thread nD τ) (ms5_3 t) fullShare ((dat5 V c).after 3 t) from by
        unfold Dat.leavesExact; rw [liveAt5_3 t], after5_3]
      rw [show (dat5 V c).leavesExact 4 t = owns (c : Thread nD τ) (ms5_4 t) fullShare ((dat5 V c).after 4 t) from by
        unfold Dat.leavesExact; rw [liveAt5_4 t (hcond5_1 t)], after5_4]
      rw [show (dat5 V c).leavesExact 5 t = owns (c : Thread nD τ) (ms5_5 t) fullShare ((dat5 V c).after 5 t) from by
        unfold Dat.leavesExact; rw [liveAt5_5 t (hcond5_1 t)], after5_5]
      unfold out5_D_4 out5_D_5; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun5_D c (grid5.coords t) _ _ _ _ _ _ _ _ _ _ _ _ _ _ (hcond5_0 t) (hcond5_1 t) (iblk5 V c 0 t) (iblk5 V c 1 t) (iblk5 V c 2 t) (iblk5 V c 3 t)).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 HR Hg]
      · isplitl [HS0 HR]
        · isplitl [HS0]
          · iexists _; unfold owns; iexists _; isplitr
            swap; · iexact HS0
            ipureintro; rfl
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover5_D_4 c _ _ _ _ _ _ _ _ _ _ _ _ _ _ _ _ _ _ _ _ _)
      unfold owns; iexists _; isplitr
      swap; · iexact H5
      ipureintro; exact View.read_writes_of_cover _ _ _ _ _ (cover5_D_5 c _ _ _ _ _ _ _ _ _ _ _ _ _ _ _ _ _ _ _ _ _)

/-- The library's body obligation, at every point. -/
theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := .rfl
theorem hout5 (c : Dev nD) : (dat5 V c).Φ (Fin.last cfg5.N) ⊢ Pipeline.ΦA spec5 c := .rfl

end Cert.Kernel.Hand

end
-- ==== Proof.Kernel.C6.lean ====
import proofs.«152868_j57621281243253_2_alg».proof.Proof.Gen.Kernel.Launch
import proofs.«152868_j57621281243253_2_alg».proof.Proof.Gen.Kernel.Skeleton
import proofs.«152868_j57621281243253_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 6: where on its grid the body's two conditionals hold, where its output windows are idle, and the
    memrefs the body is called with. The body resets its accumulator when the last grid coordinate is 0 and stores
    its two outputs when that coordinate is the last one. -/

/-- The accumulator is reset: the last grid coordinate is 0. -/
abbrev cond6_0 (i : grid6.Coords) : Prop := (Scalar.cmpi .ne (Scalar.extui (Scalar.cmpi .eq (BitVec.ofNat 32 (i 2).val) 0#32)) 0#32) = 1#1
/-- The outputs are stored: the last grid coordinate is the last one. -/
abbrev cond6_1 (i : grid6.Coords) : Prop := k6_cond2 i = 1#1

theorem hcond6_0 : ∀ t : Fin cfg6.N, cond6_0 (grid6.coords t) ↔ t.val % 6 = 0 :=
  (by decide +kernel : ∀ t : Fin grid6.N, cond6_0 (grid6.coords t) ↔ t.val % 6 = 0)
theorem hcond6_1 : ∀ t : Fin cfg6.N, cond6_1 (grid6.coords t) ↔ t.val % 6 = 5 :=
  (by decide +kernel : ∀ t : Fin grid6.N, cond6_1 (grid6.coords t) ↔ t.val % 6 = 5)
theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem liveAt6_3 : ∀ t : Fin cfg6.N, cfg6.idle 3 (grid6.coords t) = false := by decide +kernel
theorem liveAt6_4 : ∀ t : Fin cfg6.N, cond6_1 (grid6.coords t) → cfg6.idle 4 (grid6.coords t) = false := by decide +kernel
theorem idleAt6_4 : ∀ t : Fin cfg6.N, ¬cond6_1 (grid6.coords t) → cfg6.idle 4 (grid6.coords t) = true := by decide +kernel
theorem noFlush6_4 : ∀ t : Fin cfg6.N, ¬cond6_1 (grid6.coords t) → (cfg6.win 4).flush t = false := by decide +kernel
theorem liveAt6_5 : ∀ t : Fin cfg6.N, cond6_1 (grid6.coords t) → cfg6.idle 5 (grid6.coords t) = false := by decide +kernel
theorem idleAt6_5 : ∀ t : Fin cfg6.N, ¬cond6_1 (grid6.coords t) → cfg6.idle 5 (grid6.coords t) = true := by decide +kernel
theorem noFlush6_5 : ∀ t : Fin cfg6.N, ¬cond6_1 (grid6.coords t) → (cfg6.win 5).flush t = false := by decide +kernel

/-- One staging buffer of each output window, through which its contents are stated. -/
abbrev VO6_4 : View sig .tc .vmem S512x1 .f32 := (Memref.whole cc6_stg4_0 : Memref sig .tc .vmem S512x1 .f32).view
abbrev VO6_5 : View sig .tc .vmem S512x1 .bf16 := (Memref.whole cc6_stg5_0 : Memref sig .tc .vmem S512x1 .bf16).view
abbrev ms6_0 (t : Fin cfg6.N) : Memref sig .tc .vmem S512x1280 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S1x1280 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1x1280 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x1 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S512x1 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S512x1 .bf16 := win6_5.stage (cfg6.slots t 5)
abbrev hs6_5 (t : Fin cfg6.N) : (ms6_5 t).IsWhole := hstage6_5 ((cfg6.slots t 5).cast nbuf6_5)
/-- The accumulator: a whole buffer of the kernel's own, passed beside the windows. -/
abbrev scM6 : Memref sig .tc .vmem S512x1 .f32 := Memref.whole cc6_scratch0
abbrev VS6 : View sig .tc .vmem S512x1 .f32 := (scM6).view

/-- The region's invariant, opened at the accumulator: it at some contents, every other buffer the region does not
    stage unopened, the generator register at some state. -/
theorem PhiA6_eq (c : Dev nD) :
    (Pipeline.ΦA spec6 c : sProp 𝕄)
      = iprop(iprop((∃ d, owns (c : Thread nD τ) scM6 fullShare d) ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6, owns_whole]; try rfl

end Cert.Kernel.Hand

end
-- ==== Proof.Kernel.Run6A.lean ====
import proofs.«152868_j57621281243253_2_alg».proof.Proof.Kernel.C6

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 6, the body run whole in one case of its two conditionals (the accumulator is reset, the outputs are left alone):
    on whole staging memrefs holding the input blocks, the body runs to its end; what it leaves in the accumulator
    is found by the run as a list of stored pieces. -/

set_option maxHeartbeats 1000000 in
noncomputable def kernelRun6_A (c : Dev nD) (i : grid6.Coords) (arg3 : Memref sig .tc .vmem S512x1280 .f32) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : cond6_0 i) (hc1 : ¬cond6_1 i)
    (x0 : Vec F S512x1280 .f32) (x1 : Vec F S1x1280 .f32) (x2 : Vec F S1x1280 .f32) (x3 : Vec F S1x1 .f32) :
    Σ' (L4 : List (View.Piece (Elt F) S512x1 .f32)) (L5 : List (View.Piece (Elt F) S512x1 .bf16)), { LS0 : List (View.Piece (Elt F) S512x1 .f32) //
      ∀ (xi4 : Vec F S512x1 .f32) (xi5 : Vec F S512x1 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi4 ∗ owns (c : Thread nD τ) arg8 fullShare xi5
                ∗ (∃ f, arg9.view.loc (c : Thread nD τ) ↦[arg9.view.set]{fullShare} arg9.view.writes (Elt F) f LS0)) -∗ K ⟨⟩))
          ⊢ wp frame (wpE (defs₀ (F := F)) Variants.none c none) E (cc6__layer_kernel i arg3 harg3 arg4 harg4 arg5 harg5 arg6 harg6 arg7 harg7 arg8 harg8 arg9 harg9) K } := by
  refine ⟨[], [], ?_, fun xi4 xi5 E K => ?run⟩
  case run =>
    simp only [cc6__layer_kernel_eq_skeleton]; unfold cc6__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Hand

end
-- ==== Proof.Kernel.Run6B.lean ====
import proofs.«152868_j57621281243253_2_alg».proof.Proof.Kernel.C6

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 6, the body run whole in one case of its two conditionals (the accumulator is carried in, the outputs are left alone):
    on whole staging memrefs holding the input blocks, the body runs to its end; what it leaves in the accumulator
    is found by the run as a list of stored pieces. -/

set_option maxHeartbeats 1000000 in
noncomputable def kernelRun6_B (c : Dev nD) (i : grid6.Coords) (arg3 : Memref sig .tc .vmem S512x1280 .f32) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : ¬cond6_0 i) (hc1 : ¬cond6_1 i)
    (x0 : Vec F S512x1280 .f32) (x1 : Vec F S1x1280 .f32) (x2 : Vec F S1x1280 .f32) (x3 : Vec F S1x1 .f32) (xs0 : Vec F S512x1 .f32) :
    Σ' (L4 : List (View.Piece (Elt F) S512x1 .f32)) (L5 : List (View.Piece (Elt F) S512x1 .bf16)), { LS0 : List (View.Piece (Elt F) S512x1 .f32) //
      ∀ (xi4 : Vec F S512x1 .f32) (xi5 : Vec F S512x1 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi4 ∗ owns (c : Thread nD τ) arg8 fullShare xi5
                ∗ (∃ f, arg9.view.loc (c : Thread nD τ) ↦[arg9.view.set]{fullShare} arg9.view.writes (Elt F) f LS0)) -∗ K ⟨⟩))
          ⊢ wp frame (wpE (defs₀ (F := F)) Variants.none c none) E (cc6__layer_kernel i arg3 harg3 arg4 harg4 arg5 harg5 arg6 harg6 arg7 harg7 arg8 harg8 arg9 harg9) K } := by
  refine ⟨[], [], ?_, fun xi4 xi5 E K => ?run⟩
  case run =>
    simp only [cc6__layer_kernel_eq_skeleton]; unfold cc6__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Hand

end
-- ==== Proof.Kernel.Run6C.lean ====
import proofs.«152868_j57621281243253_2_alg».proof.Proof.Kernel.C6

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 6, the body run whole in one case of its two conditionals (the accumulator is carried in, the outputs are stored):
    on whole staging memrefs holding the input blocks, the body runs to its end; what it leaves in the accumulator
    and in the two output buffers is found by the run as a list of stored pieces. -/

set_option maxHeartbeats 1000000 in
noncomputable def kernelRun6_C (c : Dev nD) (i : grid6.Coords) (arg3 : Memref sig .tc .vmem S512x1280 .f32) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : ¬cond6_0 i) (hc1 : cond6_1 i)
    (x0 : Vec F S512x1280 .f32) (x1 : Vec F S1x1280 .f32) (x2 : Vec F S1x1280 .f32) (x3 : Vec F S1x1 .f32) (xs0 : Vec F S512x1 .f32) :
    Σ' (L4 : List (View.Piece (Elt F) S512x1 .f32)) (L5 : List (View.Piece (Elt F) S512x1 .bf16)), { LS0 : List (View.Piece (Elt F) S512x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5)
                ∗ (∃ f, arg9.view.loc (c : Thread nD τ) ↦[arg9.view.set]{fullShare} arg9.view.writes (Elt F) f LS0)) -∗ K ⟨⟩))
          ⊢ wp frame (wpE (defs₀ (F := F)) Variants.none c none) E (cc6__layer_kernel i arg3 harg3 arg4 harg4 arg5 harg5 arg6 harg6 arg7 harg7 arg8 harg8 arg9 harg9) K } := by
  refine ⟨?_, ?_, ?_, fun E K => ?run⟩
  case run =>
    simp only [cc6__layer_kernel_eq_skeleton]; unfold cc6__layer_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    iexists _; iexact HS0

end Cert.Kernel.Hand

end
-- ==== Proof.Kernel.Rgn6.lean ====
import proofs.«152868_j57621281243253_2_alg».proof.Proof.Kernel.Run6A
import proofs.«152868_j57621281243253_2_alg».proof.Proof.Kernel.Run6B
import proofs.«152868_j57621281243253_2_alg».proof.Proof.Kernel.Run6C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 6 over any contents `V` of the buffers at its entry: what each output window's staging buffer and the
    accumulator hold after the body at every grid point, the proof data of the region's pipeline, and the body
    obligation. The grid's last coordinate runs over 6 steps: the first resets the accumulator, every step adds its product, the last stores both outputs; in between the outputs' buffers are left alone and the accumulator is carried. -/

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- What case A leaves in output window 4's staging buffer: its pieces read back (none: a placeholder nothing consults, the window being idle and not written back at these points). -/
def out6_A_4 (c : Dev nD) (i : grid6.Coords) (arg3 : Memref sig .tc .vmem S512x1280 .f32) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : cond6_0 i) (hc1 : ¬cond6_1 i)
    (x0 : Vec F S512x1280 .f32) (x1 : Vec F S1x1280 .f32) (x2 : Vec F S1x1280 .f32) (x3 : Vec F S1x1 .f32) : Vec F S512x1 .f32 :=
  VO6_4.read (Elt F) (VO6_4.writes (Elt F) VO6_4.junk (kernelRun6_A c i arg3 harg3 arg4 harg4 arg5 harg5 arg6 harg6 arg7 harg7 arg8 harg8 arg9 harg9 hc0 hc1 x0 x1 x2 x3).1)
/-- The same for output window 5. -/
def out6_A_5 (c : Dev nD) (i : grid6.Coords) (arg3 : Memref sig .tc .vmem S512x1280 .f32) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : cond6_0 i) (hc1 : ¬cond6_1 i)
    (x0 : Vec F S512x1280 .f32) (x1 : Vec F S1x1280 .f32) (x2 : Vec F S1x1280 .f32) (x3 : Vec F S1x1 .f32) : Vec F S512x1 .bf16 :=
  VO6_5.read (Elt F) (VO6_5.writes (Elt F) VO6_5.junk (kernelRun6_A c i arg3 harg3 arg4 harg4 arg5 harg5 arg6 harg6 arg7 harg7 arg8 harg8 arg9 harg9 hc0 hc1 x0 x1 x2 x3).2.1)
/-- The pieces case A stores into the accumulator cover it. -/
theorem scover6_A (c : Dev nD) (i : grid6.Coords) (arg3 : Memref sig .tc .vmem S512x1280 .f32) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : cond6_0 i) (hc1 : ¬cond6_1 i)
    (x0 : Vec F S512x1280 .f32) (x1 : Vec F S1x1280 .f32) (x2 : Vec F S1x1280 .f32) (x3 : Vec F S1x1 .f32) (y : S512x1.Idx) :
    ∃ pc ∈ (kernelRun6_A c i arg3 harg3 arg4 harg4 arg5 harg5 arg6 harg6 arg7 harg7 arg8 harg8 arg9 harg9 hc0 hc1 x0 x1 x2 x3).2.2.1, y ∈ pc.1.set :=
  View.cover_of_tiledL (kernelRun6_A c i arg3 harg3 arg4 harg4 arg5 harg5 arg6 harg6 arg7 harg7 arg8 harg8 arg9 harg9 hc0 hc1 x0 x1 x2 x3).2.2.1 S512x1.size (by sl_kernel_rfl) y
/-- What case A leaves in the accumulator. -/
def sout6_A (c : Dev nD) (i : grid6.Coords) (arg3 : Memref sig .tc .vmem S512x1280 .f32) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : cond6_0 i) (hc1 : ¬cond6_1 i)
    (x0 : Vec F S512x1280 .f32) (x1 : Vec F S1x1280 .f32) (x2 : Vec F S1x1280 .f32) (x3 : Vec F S1x1 .f32) : Vec F S512x1 .f32 :=
  VS6.read (Elt F) (VS6.writes (Elt F) VS6.junk (kernelRun6_A c i arg3 harg3 arg4 harg4 arg5 harg5 arg6 harg6 arg7 harg7 arg8 harg8 arg9 harg9 hc0 hc1 x0 x1 x2 x3).2.2.1)

/-- What case B leaves in output window 4's staging buffer: its pieces read back (none: a placeholder nothing consults, the window being idle and not written back at these points). -/
def out6_B_4 (c : Dev nD) (i : grid6.Coords) (arg3 : Memref sig .tc .vmem S512x1280 .f32) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : ¬cond6_0 i) (hc1 : ¬cond6_1 i)
    (x0 : Vec F S512x1280 .f32) (x1 : Vec F S1x1280 .f32) (x2 : Vec F S1x1280 .f32) (x3 : Vec F S1x1 .f32) (xs0 : Vec F S512x1 .f32) : Vec F S512x1 .f32 :=
  VO6_4.read (Elt F) (VO6_4.writes (Elt F) VO6_4.junk (kernelRun6_B c i arg3 harg3 arg4 harg4 arg5 harg5 arg6 harg6 arg7 harg7 arg8 harg8 arg9 harg9 hc0 hc1 x0 x1 x2 x3 xs0).1)
/-- The same for output window 5. -/
def out6_B_5 (c : Dev nD) (i : grid6.Coords) (arg3 : Memref sig .tc .vmem S512x1280 .f32) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : ¬cond6_0 i) (hc1 : ¬cond6_1 i)
    (x0 : Vec F S512x1280 .f32) (x1 : Vec F S1x1280 .f32) (x2 : Vec F S1x1280 .f32) (x3 : Vec F S1x1 .f32) (xs0 : Vec F S512x1 .f32) : Vec F S512x1 .bf16 :=
  VO6_5.read (Elt F) (VO6_5.writes (Elt F) VO6_5.junk (kernelRun6_B c i arg3 harg3 arg4 harg4 arg5 harg5 arg6 harg6 arg7 harg7 arg8 harg8 arg9 harg9 hc0 hc1 x0 x1 x2 x3 xs0).2.1)
/-- The pieces case B stores into the accumulator cover it. -/
theorem scover6_B (c : Dev nD) (i : grid6.Coords) (arg3 : Memref sig .tc .vmem S512x1280 .f32) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : ¬cond6_0 i) (hc1 : ¬cond6_1 i)
    (x0 : Vec F S512x1280 .f32) (x1 : Vec F S1x1280 .f32) (x2 : Vec F S1x1280 .f32) (x3 : Vec F S1x1 .f32) (xs0 : Vec F S512x1 .f32) (y : S512x1.Idx) :
    ∃ pc ∈ (kernelRun6_B c i arg3 harg3 arg4 harg4 arg5 harg5 arg6 harg6 arg7 harg7 arg8 harg8 arg9 harg9 hc0 hc1 x0 x1 x2 x3 xs0).2.2.1, y ∈ pc.1.set :=
  View.cover_of_tiledL (kernelRun6_B c i arg3 harg3 arg4 harg4 arg5 harg5 arg6 harg6 arg7 harg7 arg8 harg8 arg9 harg9 hc0 hc1 x0 x1 x2 x3 xs0).2.2.1 S512x1.size (by sl_kernel_rfl) y
/-- What case B leaves in the accumulator. -/
def sout6_B (c : Dev nD) (i : grid6.Coords) (arg3 : Memref sig .tc .vmem S512x1280 .f32) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : ¬cond6_0 i) (hc1 : ¬cond6_1 i)
    (x0 : Vec F S512x1280 .f32) (x1 : Vec F S1x1280 .f32) (x2 : Vec F S1x1280 .f32) (x3 : Vec F S1x1 .f32) (xs0 : Vec F S512x1 .f32) : Vec F S512x1 .f32 :=
  VS6.read (Elt F) (VS6.writes (Elt F) VS6.junk (kernelRun6_B c i arg3 harg3 arg4 harg4 arg5 harg5 arg6 harg6 arg7 harg7 arg8 harg8 arg9 harg9 hc0 hc1 x0 x1 x2 x3 xs0).2.2.1)

/-- The pieces case C stores into output window 4 tile its block, so they cover it. -/
theorem cover6_C_4 (c : Dev nD) (i : grid6.Coords) (arg3 : Memref sig .tc .vmem S512x1280 .f32) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : ¬cond6_0 i) (hc1 : cond6_1 i)
    (x0 : Vec F S512x1280 .f32) (x1 : Vec F S1x1280 .f32) (x2 : Vec F S1x1280 .f32) (x3 : Vec F S1x1 .f32) (xs0 : Vec F S512x1 .f32) (y : S512x1.Idx) :
    ∃ pc ∈ (kernelRun6_C c i arg3 harg3 arg4 harg4 arg5 harg5 arg6 harg6 arg7 harg7 arg8 harg8 arg9 harg9 hc0 hc1 x0 x1 x2 x3 xs0).1, y ∈ pc.1.set :=
  View.cover_of_tiledL (kernelRun6_C c i arg3 harg3 arg4 harg4 arg5 harg5 arg6 harg6 arg7 harg7 arg8 harg8 arg9 harg9 hc0 hc1 x0 x1 x2 x3 xs0).1 S512x1.size (by sl_kernel_rfl) y
/-- The same for output window 5. -/
theorem cover6_C_5 (c : Dev nD) (i : grid6.Coords) (arg3 : Memref sig .tc .vmem S512x1280 .f32) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : ¬cond6_0 i) (hc1 : cond6_1 i)
    (x0 : Vec F S512x1280 .f32) (x1 : Vec F S1x1280 .f32) (x2 : Vec F S1x1280 .f32) (x3 : Vec F S1x1 .f32) (xs0 : Vec F S512x1 .f32) (y : S512x1.Idx) :
    ∃ pc ∈ (kernelRun6_C c i arg3 harg3 arg4 harg4 arg5 harg5 arg6 harg6 arg7 harg7 arg8 harg8 arg9 harg9 hc0 hc1 x0 x1 x2 x3 xs0).2.1, y ∈ pc.1.set :=
  View.cover_of_tiledL (kernelRun6_C c i arg3 harg3 arg4 harg4 arg5 harg5 arg6 harg6 arg7 harg7 arg8 harg8 arg9 harg9 hc0 hc1 x0 x1 x2 x3 xs0).2.1 S512x1.size (by sl_kernel_rfl) y

/-- What case C leaves in output window 4's staging buffer: its pieces read back. -/
def out6_C_4 (c : Dev nD) (i : grid6.Coords) (arg3 : Memref sig .tc .vmem S512x1280 .f32) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : ¬cond6_0 i) (hc1 : cond6_1 i)
    (x0 : Vec F S512x1280 .f32) (x1 : Vec F S1x1280 .f32) (x2 : Vec F S1x1280 .f32) (x3 : Vec F S1x1 .f32) (xs0 : Vec F S512x1 .f32) : Vec F S512x1 .f32 :=
  VO6_4.read (Elt F) (VO6_4.writes (Elt F) VO6_4.junk (kernelRun6_C c i arg3 harg3 arg4 harg4 arg5 harg5 arg6 harg6 arg7 harg7 arg8 harg8 arg9 harg9 hc0 hc1 x0 x1 x2 x3 xs0).1)
/-- The same for output window 5. -/
def out6_C_5 (c : Dev nD) (i : grid6.Coords) (arg3 : Memref sig .tc .vmem S512x1280 .f32) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : ¬cond6_0 i) (hc1 : cond6_1 i)
    (x0 : Vec F S512x1280 .f32) (x1 : Vec F S1x1280 .f32) (x2 : Vec F S1x1280 .f32) (x3 : Vec F S1x1 .f32) (xs0 : Vec F S512x1 .f32) : Vec F S512x1 .bf16 :=
  VO6_5.read (Elt F) (VO6_5.writes (Elt F) VO6_5.junk (kernelRun6_C c i arg3 harg3 arg4 harg4 arg5 harg5 arg6 harg6 arg7 harg7 arg8 harg8 arg9 harg9 hc0 hc1 x0 x1 x2 x3 xs0).2.1)
/-- The pieces case C stores into the accumulator cover it. -/
theorem scover6_C (c : Dev nD) (i : grid6.Coords) (arg3 : Memref sig .tc .vmem S512x1280 .f32) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : ¬cond6_0 i) (hc1 : cond6_1 i)
    (x0 : Vec F S512x1280 .f32) (x1 : Vec F S1x1280 .f32) (x2 : Vec F S1x1280 .f32) (x3 : Vec F S1x1 .f32) (xs0 : Vec F S512x1 .f32) (y : S512x1.Idx) :
    ∃ pc ∈ (kernelRun6_C c i arg3 harg3 arg4 harg4 arg5 harg5 arg6 harg6 arg7 harg7 arg8 harg8 arg9 harg9 hc0 hc1 x0 x1 x2 x3 xs0).2.2.1, y ∈ pc.1.set :=
  View.cover_of_tiledL (kernelRun6_C c i arg3 harg3 arg4 harg4 arg5 harg5 arg6 harg6 arg7 harg7 arg8 harg8 arg9 harg9 hc0 hc1 x0 x1 x2 x3 xs0).2.2.1 S512x1.size (by sl_kernel_rfl) y
/-- What case C leaves in the accumulator. -/
def sout6_C (c : Dev nD) (i : grid6.Coords) (arg3 : Memref sig .tc .vmem S512x1280 .f32) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : ¬cond6_0 i) (hc1 : cond6_1 i)
    (x0 : Vec F S512x1280 .f32) (x1 : Vec F S1x1280 .f32) (x2 : Vec F S1x1280 .f32) (x3 : Vec F S1x1 .f32) (xs0 : Vec F S512x1 .f32) : Vec F S512x1 .f32 :=
  VS6.read (Elt F) (VS6.writes (Elt F) VS6.junk (kernelRun6_C c i arg3 harg3 arg4 harg4 arg5 harg5 arg6 harg6 arg7 harg7 arg8 harg8 arg9 harg9 hc0 hc1 x0 x1 x2 x3 xs0).2.2.1)

/-- THE ACCUMULATION. What the two outputs' staging buffers and the accumulator hold after the body at position `n`
    (a triple): the case the closed forms select at `n`, run at the point's memrefs and input blocks, the accumulator
    carried in at what position `n - 1` left. -/
def outsAt6 (c : Dev nD) : (n : ℕ) → n < cfg6.N → Vec F S512x1 .f32 × Vec F S512x1 .bf16 × Vec F S512x1 .f32
  | 0, hn => (out6_A_4 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩), out6_A_5 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩), sout6_A c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩))
  | n + 1, hn =>
    if h0 : (n + 1) % 6 = 0 then
      if h1 : (n + 1) % 6 = 5 then
        False.elim (by omega)
      else
        (out6_A_4 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩), out6_A_5 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩), sout6_A c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩))
    else
      if h1 : (n + 1) % 6 = 5 then
        (out6_C_4 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (outsAt6 c n (Nat.lt_of_succ_lt hn)).2.2, out6_C_5 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (outsAt6 c n (Nat.lt_of_succ_lt hn)).2.2, sout6_C c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (outsAt6 c n (Nat.lt_of_succ_lt hn)).2.2)
      else
        (out6_B_4 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (outsAt6 c n (Nat.lt_of_succ_lt hn)).2.2, out6_B_5 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (outsAt6 c n (Nat.lt_of_succ_lt hn)).2.2, sout6_B c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (outsAt6 c n (Nat.lt_of_succ_lt hn)).2.2)

theorem outsAt6_A (c : Dev nD) (t : Fin cfg6.N) (h0 : t.val % 6 = 0) (h1 : ¬t.val % 6 = 5) :
    outsAt6 V c t.val t.isLt = (out6_A_4 c (grid6.coords t) (ms6_0 t) (hs6_0 t) (ms6_1 t) (hs6_1 t) (ms6_2 t) (hs6_2 t) (ms6_3 t) (hs6_3 t) (ms6_4 t) (hs6_4 t) (ms6_5 t) (hs6_5 t) scM6 (Memref.isWhole_whole _) ((hcond6_0 t).mpr h0) (fun h => h1 ((hcond6_1 t).mp h)) (iblk6 V c 0 t) (iblk6 V c 1 t) (iblk6 V c 2 t) (iblk6 V c 3 t), out6_A_5 c (grid6.coords t) (ms6_0 t) (hs6_0 t) (ms6_1 t) (hs6_1 t) (ms6_2 t) (hs6_2 t) (ms6_3 t) (hs6_3 t) (ms6_4 t) (hs6_4 t) (ms6_5 t) (hs6_5 t) scM6 (Memref.isWhole_whole _) ((hcond6_0 t).mpr h0) (fun h => h1 ((hcond6_1 t).mp h)) (iblk6 V c 0 t) (iblk6 V c 1 t) (iblk6 V c 2 t) (iblk6 V c 3 t), sout6_A c (grid6.coords t) (ms6_0 t) (hs6_0 t) (ms6_1 t) (hs6_1 t) (ms6_2 t) (hs6_2 t) (ms6_3 t) (hs6_3 t) (ms6_4 t) (hs6_4 t) (ms6_5 t) (hs6_5 t) scM6 (Memref.isWhole_whole _) ((hcond6_0 t).mpr h0) (fun h => h1 ((hcond6_1 t).mp h)) (iblk6 V c 0 t) (iblk6 V c 1 t) (iblk6 V c 2 t) (iblk6 V c 3 t)) := by
  obtain ⟨n, hn⟩ := t
  cases n with
  | zero => exact rfl
  | succ n => exact (dif_pos h0).trans ((dif_neg h1).trans rfl)

theorem outsAt6_C (c : Dev nD) (t : Fin cfg6.N) (h0 : ¬t.val % 6 = 0) (h1 : t.val % 6 = 5) :
    outsAt6 V c t.val t.isLt = (out6_C_4 c (grid6.coords t) (ms6_0 t) (hs6_0 t) (ms6_1 t) (hs6_1 t) (ms6_2 t) (hs6_2 t) (ms6_3 t) (hs6_3 t) (ms6_4 t) (hs6_4 t) (ms6_5 t) (hs6_5 t) scM6 (Memref.isWhole_whole _) (fun h => h0 ((hcond6_0 t).mp h)) ((hcond6_1 t).mpr h1) (iblk6 V c 0 t) (iblk6 V c 1 t) (iblk6 V c 2 t) (iblk6 V c 3 t) (outsAt6 V c (t.val - 1) (Nat.lt_of_le_of_lt (Nat.sub_le _ _) t.isLt)).2.2, out6_C_5 c (grid6.coords t) (ms6_0 t) (hs6_0 t) (ms6_1 t) (hs6_1 t) (ms6_2 t) (hs6_2 t) (ms6_3 t) (hs6_3 t) (ms6_4 t) (hs6_4 t) (ms6_5 t) (hs6_5 t) scM6 (Memref.isWhole_whole _) (fun h => h0 ((hcond6_0 t).mp h)) ((hcond6_1 t).mpr h1) (iblk6 V c 0 t) (iblk6 V c 1 t) (iblk6 V c 2 t) (iblk6 V c 3 t) (outsAt6 V c (t.val - 1) (Nat.lt_of_le_of_lt (Nat.sub_le _ _) t.isLt)).2.2, sout6_C c (grid6.coords t) (ms6_0 t) (hs6_0 t) (ms6_1 t) (hs6_1 t) (ms6_2 t) (hs6_2 t) (ms6_3 t) (hs6_3 t) (ms6_4 t) (hs6_4 t) (ms6_5 t) (hs6_5 t) scM6 (Memref.isWhole_whole _) (fun h => h0 ((hcond6_0 t).mp h)) ((hcond6_1 t).mpr h1) (iblk6 V c 0 t) (iblk6 V c 1 t) (iblk6 V c 2 t) (iblk6 V c 3 t) (outsAt6 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

theorem outsAt6_B (c : Dev nD) (t : Fin cfg6.N) (h0 : ¬t.val % 6 = 0) (h1 : ¬t.val % 6 = 5) :
    outsAt6 V c t.val t.isLt = (out6_B_4 c (grid6.coords t) (ms6_0 t) (hs6_0 t) (ms6_1 t) (hs6_1 t) (ms6_2 t) (hs6_2 t) (ms6_3 t) (hs6_3 t) (ms6_4 t) (hs6_4 t) (ms6_5 t) (hs6_5 t) scM6 (Memref.isWhole_whole _) (fun h => h0 ((hcond6_0 t).mp h)) (fun h => h1 ((hcond6_1 t).mp h)) (iblk6 V c 0 t) (iblk6 V c 1 t) (iblk6 V c 2 t) (iblk6 V c 3 t) (outsAt6 V c (t.val - 1) (Nat.lt_of_le_of_lt (Nat.sub_le _ _) t.isLt)).2.2, out6_B_5 c (grid6.coords t) (ms6_0 t) (hs6_0 t) (ms6_1 t) (hs6_1 t) (ms6_2 t) (hs6_2 t) (ms6_3 t) (hs6_3 t) (ms6_4 t) (hs6_4 t) (ms6_5 t) (hs6_5 t) scM6 (Memref.isWhole_whole _) (fun h => h0 ((hcond6_0 t).mp h)) (fun h => h1 ((hcond6_1 t).mp h)) (iblk6 V c 0 t) (iblk6 V c 1 t) (iblk6 V c 2 t) (iblk6 V c 3 t) (outsAt6 V c (t.val - 1) (Nat.lt_of_le_of_lt (Nat.sub_le _ _) t.isLt)).2.2, sout6_B c (grid6.coords t) (ms6_0 t) (hs6_0 t) (ms6_1 t) (hs6_1 t) (ms6_2 t) (hs6_2 t) (ms6_3 t) (hs6_3 t) (ms6_4 t) (hs6_4 t) (ms6_5 t) (hs6_5 t) scM6 (Memref.isWhole_whole _) (fun h => h0 ((hcond6_0 t).mp h)) (fun h => h1 ((hcond6_1 t).mp h)) (iblk6 V c 0 t) (iblk6 V c 1 t) (iblk6 V c 2 t) (iblk6 V c 3 t) (outsAt6 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- The region's invariant before position `n`: before the first point every buffer the region does not stage at
    anything; afterwards the accumulator at what the point before left in it. -/
def PhiS6 (c : Dev nD) : (n : ℕ) → n ≤ cfg6.N → sProp 𝕄
  | 0, _ => Pipeline.ΦA spec6 c
  | n + 1, hn => iprop(iprop(owns (c : Thread nD τ) scM6 fullShare ((outsAt6 V c n hn).2.2) ∗ Pipeline.scopedRestBut (Ix := Unit) (Name := ℕ) (U := UR sig nD τ) (Lvl := ℕ) (Val := Elt F) spec6 c [cc6_scratch0]) ∗ (∃ r, prngReg c r))

theorem PhiS6_zero (c : Dev nD) (n : ℕ) (h : n ≤ cfg6.N) (hz : n = 0) : PhiS6 V c n h = Pipeline.ΦA spec6 c := by
  subst hz; rfl
theorem PhiS6_succ (c : Dev nD) (n : ℕ) (hn : n < cfg6.N) :
    PhiS6 V c (n + 1) hn = iprop(iprop(owns (c : Thread nD τ) scM6 fullShare ((outsAt6 V c n hn).2.2) ∗ Pipeline.scopedRestBut (Ix := Unit) (Name := ℕ) (U := UR sig nD τ) (Lvl := ℕ) (Val := Elt F) spec6 c [cc6_scratch0]) ∗ (∃ r, prngReg c r)) := rfl
theorem PhiS6_pos (c : Dev nD) (n : ℕ) (h : n ≤ cfg6.N) (hz : n ≠ 0) :
    PhiS6 V c n h = iprop(iprop(owns (c : Thread nD τ) scM6 fullShare ((outsAt6 V c (n - 1) (by omega)).2.2) ∗ Pipeline.scopedRestBut (Ix := Unit) (Name := ℕ) (U := UR sig nD τ) (Lvl := ℕ) (Val := Elt F) spec6 c [cc6_scratch0]) ∗ (∃ r, prngReg c r)) := by
  cases n with
  | zero => exact absurd rfl hz
  | succ n => rfl

/-- The proof data of region 6's pipeline on core `c`: the arrays as the region finds them; after the body at point
    `t` each input's buffer at its block and the outputs' at what the point leaves; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => (outsAt6 V c t.val t.isLt).1
    | ⟨5, _⟩ => (outsAt6 V c t.val t.isLt).2.1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = (outsAt6 V c t.val t.isLt).1 := by dsimp only [dat6]
theorem after6_5 (c : Dev nD) (t : Fin cfg6.N) : (dat6 V c).after 5 t = (outsAt6 V c t.val t.isLt).2.1 := by dsimp only [dat6]
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t)

theorem PhiS6_castSucc (c : Dev nD) (t : Fin cfg6.N) :
    (dat6 V c).Φ t.castSucc = PhiS6 V c t.val (Nat.le_of_lt t.isLt) := by
  dsimp only [dat6]; simp only [Fin.coe_castSucc]

set_option maxHeartbeats 4800000 in
/-- The body at any point: the inputs' memrefs hold their blocks; the closed forms say which case the point is in;
    the invariant hands the body the accumulator at what the point before left (at anything before the first point) and
    takes it back at this point's contents; the core owes nothing throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).owesAt () t.succ = (dat6 V c).owesAt () t.castSucc from rfl]
  rw [show (dat6 V c).Φ t.succ = PhiS6 V c (t.val + 1) t.isLt from rfl, PhiS6_succ]
  have hN : t.val < 48 := lt_of_lt_of_eq t.isLt (show cfg6.N = 48 from N_6)
  by_cases h0 : t.val % 6 = 0
  · by_cases h1 : t.val % 6 = 5
    · exfalso; omega
    ·
      rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2 t], after6_2]
      rw [show (dat6 V c).leavesExact 3 t = owns (c : Thread nD τ) (ms6_3 t) fullShare ((dat6 V c).after 3 t) from by
        unfold Dat.leavesExact; rw [liveAt6_3 t], after6_3]
      rw [Dat.leavesExact_idle (dat6 V c) 4 t (idleAt6_4 t (fun h => h1 ((hcond6_1 t).mp h))) (noFlush6_4 t (fun h => h1 ((hcond6_1 t).mp h)))]
      rw [Dat.leavesExact_idle (dat6 V c) 5 t (idleAt6_5 t (fun h => h1 ((hcond6_1 t).mp h))) (noFlush6_5 t (fun h => h1 ((hcond6_1 t).mp h)))]
      rw [outsAt6_A V c t h0 h1]
      unfold sout6_A; (try dsimp only)
      by_cases hz : t.val = 0
      ·
        rw [PhiS6_castSucc V c t, PhiS6_zero V c _ _ hz, PhiA6_eq]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun6_A c (grid6.coords t) _ _ _ _ _ _ _ _ _ _ _ _ _ _ ((hcond6_0 t).mpr h0) (fun h => h1 ((hcond6_1 t).mp h)) (iblk6 V c 0 t) (iblk6 V c 1 t) (iblk6 V c 2 t) (iblk6 V c 3 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover6_A c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5
      ·
        rw [PhiS6_castSucc V c t, PhiS6_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun6_A c (grid6.coords t) _ _ _ _ _ _ _ _ _ _ _ _ _ _ ((hcond6_0 t).mpr h0) (fun h => h1 ((hcond6_1 t).mp h)) (iblk6 V c 0 t) (iblk6 V c 1 t) (iblk6 V c 2 t) (iblk6 V c 3 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover6_A c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5

  · by_cases h1 : t.val % 6 = 5
    ·
      rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2 t], after6_2]
      rw [show (dat6 V c).leavesExact 3 t = owns (c : Thread nD τ) (ms6_3 t) fullShare ((dat6 V c).after 3 t) from by
        unfold Dat.leavesExact; rw [liveAt6_3 t], after6_3]
      rw [show (dat6 V c).leavesExact 4 t = owns (c : Thread nD τ) (ms6_4 t) fullShare ((dat6 V c).after 4 t) from by
        unfold Dat.leavesExact; rw [liveAt6_4 t ((hcond6_1 t).mpr h1)], after6_4]
      rw [show (dat6 V c).leavesExact 5 t = owns (c : Thread nD τ) (ms6_5 t) fullShare ((dat6 V c).after 5 t) from by
        unfold Dat.leavesExact; rw [liveAt6_5 t ((hcond6_1 t).mpr h1)], after6_5]
      rw [outsAt6_C V c t h0 h1]
      unfold out6_C_4 out6_C_5 sout6_C; (try dsimp only)
      have hz : t.val ≠ 0 := by omega
      ·
        rw [PhiS6_castSucc V c t, PhiS6_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun6_C c (grid6.coords t) _ _ _ _ _ _ _ _ _ _ _ _ _ _ (fun h => h0 ((hcond6_0 t).mp h)) ((hcond6_1 t).mpr h1) (iblk6 V c 0 t) (iblk6 V c 1 t) (iblk6 V c 2 t) (iblk6 V c 3 t) _).2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        iintro ⟨H0, H1, H2, H3, ⟨%e4, H4⟩, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover6_C c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover6_C_4 c _ _ _ _ _ _ _ _ _ _ _ _ _ _ _ _ _ _ _ _ _ _)
        unfold owns; iexists _; isplitr
        swap; · iexact H5
        ipureintro; exact View.read_writes_of_cover _ _ _ _ _ (cover6_C_5 c _ _ _ _ _ _ _ _ _ _ _ _ _ _ _ _ _ _ _ _ _ _)

    ·
      rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2 t], after6_2]
      rw [show (dat6 V c).leavesExact 3 t = owns (c : Thread nD τ) (ms6_3 t) fullShare ((dat6 V c).after 3 t) from by
        unfold Dat.leavesExact; rw [liveAt6_3 t], after6_3]
      rw [Dat.leavesExact_idle (dat6 V c) 4 t (idleAt6_4 t (fun h => h1 ((hcond6_1 t).mp h))) (noFlush6_4 t (fun h => h1 ((hcond6_1 t).mp h)))]
      rw [Dat.leavesExact_idle (dat6 V c) 5 t (idleAt6_5 t (fun h => h1 ((hcond6_1 t).mp h))) (noFlush6_5 t (fun h => h1 ((hcond6_1 t).mp h)))]
      rw [outsAt6_B V c t h0 h1]
      unfold sout6_B; (try dsimp only)
      have hz : t.val ≠ 0 := by omega
      ·
        rw [PhiS6_castSucc V c t, PhiS6_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun6_B c (grid6.coords t) _ _ _ _ _ _ _ _ _ _ _ _ _ _ (fun h => h0 ((hcond6_0 t).mp h)) (fun h => h1 ((hcond6_1 t).mp h)) (iblk6 V c 0 t) (iblk6 V c 1 t) (iblk6 V c 2 t) (iblk6 V c 3 t) _).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover6_B c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5

/-- The library's body obligation, at every point. -/
theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After the last point the invariant gives the class's back: the accumulator's named contents are forgotten. -/
theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨HS0, HR⟩, Hg⟩
  isplitl [HS0 HR]
  · isplitl [HS0]
    · iexists _; iexact HS0
    iexact HR
  iexact Hg
theorem hout6 (c : Dev nD) : (dat6 V c).Φ (Fin.last cfg6.N) ⊢ Pipeline.ΦA spec6 c :=
  Phi_out6 V c _ (by rw [Fin.val_last]; have : cfg6.N = 48 := N_6; omega)

end Cert.Kernel.Hand

end
-- ==== Proof.Kernel.Main.lean ====
import proofs.«152868_j57621281243253_2_alg».proof.Proof.Kernel.Rgn0
import proofs.«152868_j57621281243253_2_alg».proof.Proof.Kernel.Rgn1
import proofs.«152868_j57621281243253_2_alg».proof.Proof.Kernel.Rgn2
import proofs.«152868_j57621281243253_2_alg».proof.Proof.Kernel.Rgn3
import proofs.«152868_j57621281243253_2_alg».proof.Proof.Kernel.Rgn4
import proofs.«152868_j57621281243253_2_alg».proof.Proof.Kernel.Rgn5
import proofs.«152868_j57621281243253_2_alg».proof.Proof.Kernel.Rgn6
import proofs.«152868_j57621281243253_2_alg».proof.Proof.Gen.Kernel.Regions
import Idealize.ShloMosaic.Lib.Pipeline.Regions
import Idealize.ShloMosaic.Lib.Pipeline.RegionsLoop
import Idealize.ShloMosaic.Lib.Pipeline.FrameSuffix
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The whole run of @main: host stretches and the seven regions in order, each entered from what the one before it
    left. Every buffer no scope hides ends at a NAMED valuation, `Wt15`: the launch contents pushed through each host
    stretch and, at each region, the region's arrays replaced by what its pipeline leaves in them. -/

variable (m : (ℓ : Loc nD τ sig) → Buf (Elt F) ℓ) (ρ : Dev nD → PrngReg)

/-- The buffers at launch. -/
abbrev Wt0 : Dev nD → Valuation τ sig (Elt F) := fun c b => (s₀ m ρ).mem ((c : Dev nD), b)

/-- After host stretch 0: region 0's entry. -/
abbrev Wt1 : Dev nD → Valuation τ sig (Elt F) := fun c => StableHlo.after hostOps0 (Wt0 m ρ c)
abbrev Vt1 : (c : Dev nD) → (b : Ref sig .tc) → Buf (Elt F) ((c : Thread nD τ).loc b) := fun c b => Wt1 m ρ c b
/-- After region 0: its arrays at what the pipeline leaves, every other buffer as entered. -/
def Wt2 (c : Dev nD) : Valuation τ sig (Elt F) :=
  Pipeline.withArrays spec0 c (Wt1 m ρ c) fun w => (dat0 (Vt1 m ρ) c).arrAt w cfg0.N
theorem Wt2_arr (c : Dev nD) (w : Fin cfg0.W) :
    Wt2 m ρ c (Proc.devRef .tc (Pipeline.arrRef spec0 w)) = (dat0 (Vt1 m ρ) c).arrAt w cfg0.N := by
  unfold Wt2; exact Pipeline.withArrays_arr spec0 launch0.win.arr_inj c _ _ w
theorem Wt2_of_ne (c : Dev nD) (b : Ref sig .tc) (hb : ∀ w, Pipeline.arrRef spec0 w ≠ b) :
    Wt2 m ρ c (Proc.devRef .tc b) = Wt1 m ρ c (Proc.devRef .tc b) := by
  unfold Wt2; exact Pipeline.withArrays_of_ne spec0 c _ _ b hb
abbrev Vt2 : (c : Dev nD) → (b : Ref sig .tc) → Buf (Elt F) ((c : Thread nD τ).loc b) := fun c b => Wt2 m ρ c b
theorem hF0 (c : Dev nD) (w : Fin cfg0.W) : (dat0 (Vt1 m ρ) c).arrAt w cfg0.N = Vt2 m ρ c (Pipeline.arrRef spec0 w) :=
  (Wt2_arr m ρ c w).symm
theorem hrest0 (c : Dev nD) : ∀ b, b ∉ Finset.univ.image (Pipeline.arrRef spec0) → Vt2 m ρ c b = Vt1 m ρ c b :=
  fun b hb => Wt2_of_ne m ρ c b fun w e => hb (Finset.mem_image.mpr ⟨w, Finset.mem_univ _, e⟩)
/-- Region 0 changes only its two output arrays: an input window's array ends as entered, any other buffer is bypassed. -/
theorem Wt2_keep (c : Dev nD) (b : Ref sig .tc) (h4 : b ≠ main_v1_0) (h5 : b ≠ main_v1_1) :
    Wt2 m ρ c (Proc.devRef .tc b) = Wt1 m ρ c (Proc.devRef .tc b) := by
  by_cases h : ∃ w, Pipeline.arrRef spec0 w = b
  · obtain ⟨w, rfl⟩ := h
    rw [Wt2_arr]
    match w with
    | ⟨0, _⟩ => exact ((dat0 (Vt1 m ρ) c).arrAt_in 0 rfl _).trans (A_eq0 (Vt1 m ρ) c 0)
    | ⟨1, _⟩ => exact ((dat0 (Vt1 m ρ) c).arrAt_in 1 rfl _).trans (A_eq0 (Vt1 m ρ) c 1)
    | ⟨2, _⟩ => exact ((dat0 (Vt1 m ρ) c).arrAt_in 2 rfl _).trans (A_eq0 (Vt1 m ρ) c 2)
    | ⟨3, _⟩ => exact ((dat0 (Vt1 m ρ) c).arrAt_in 3 rfl _).trans (A_eq0 (Vt1 m ρ) c 3)
    | ⟨4, _⟩ => exact absurd rfl h4
    | ⟨5, _⟩ => exact absurd rfl h5
  · exact Wt2_of_ne m ρ c b fun w e => h ⟨w, e⟩

/-- After host stretch 1: region 1's entry. -/
abbrev Wt3 : Dev nD → Valuation τ sig (Elt F) := fun c => StableHlo.after hostOps1 (Wt2 m ρ c)
abbrev Vt3 : (c : Dev nD) → (b : Ref sig .tc) → Buf (Elt F) ((c : Thread nD τ).loc b) := fun c b => Wt3 m ρ c b
/-- After region 1: its arrays at what the pipeline leaves, every other buffer as entered. -/
def Wt4 (c : Dev nD) : Valuation τ sig (Elt F) :=
  Pipeline.withArrays spec1 c (Wt3 m ρ c) fun w => (dat1 (Vt3 m ρ) c).arrAt w cfg1.N
theorem Wt4_arr (c : Dev nD) (w : Fin cfg1.W) :
    Wt4 m ρ c (Proc.devRef .tc (Pipeline.arrRef spec1 w)) = (dat1 (Vt3 m ρ) c).arrAt w cfg1.N := by
  unfold Wt4; exact Pipeline.withArrays_arr spec1 launch1.win.arr_inj c _ _ w
theorem Wt4_of_ne (c : Dev nD) (b : Ref sig .tc) (hb : ∀ w, Pipeline.arrRef spec1 w ≠ b) :
    Wt4 m ρ c (Proc.devRef .tc b) = Wt3 m ρ c (Proc.devRef .tc b) := by
  unfold Wt4; exact Pipeline.withArrays_of_ne spec1 c _ _ b hb
abbrev Vt4 : (c : Dev nD) → (b : Ref sig .tc) → Buf (Elt F) ((c : Thread nD τ).loc b) := fun c b => Wt4 m ρ c b
theorem hF1 (c : Dev nD) (w : Fin cfg1.W) : (dat1 (Vt3 m ρ) c).arrAt w cfg1.N = Vt4 m ρ c (Pipeline.arrRef spec1 w) :=
  (Wt4_arr m ρ c w).symm
theorem hrest1 (c : Dev nD) : ∀ b, b ∉ Finset.univ.image (Pipeline.arrRef spec1) → Vt4 m ρ c b = Vt3 m ρ c b :=
  fun b hb => Wt4_of_ne m ρ c b fun w e => hb (Finset.mem_image.mpr ⟨w, Finset.mem_univ _, e⟩)
/-- Region 1 changes only its two output arrays: an input window's array ends as entered, any other buffer is bypassed. -/
theorem Wt4_keep (c : Dev nD) (b : Ref sig .tc) (h4 : b ≠ main_v3_0) (h5 : b ≠ main_v3_1) :
    Wt4 m ρ c (Proc.devRef .tc b) = Wt3 m ρ c (Proc.devRef .tc b) := by
  by_cases h : ∃ w, Pipeline.arrRef spec1 w = b
  · obtain ⟨w, rfl⟩ := h
    rw [Wt4_arr]
    match w with
    | ⟨0, _⟩ => exact ((dat1 (Vt3 m ρ) c).arrAt_in 0 rfl _).trans (A_eq1 (Vt3 m ρ) c 0)
    | ⟨1, _⟩ => exact ((dat1 (Vt3 m ρ) c).arrAt_in 1 rfl _).trans (A_eq1 (Vt3 m ρ) c 1)
    | ⟨2, _⟩ => exact ((dat1 (Vt3 m ρ) c).arrAt_in 2 rfl _).trans (A_eq1 (Vt3 m ρ) c 2)
    | ⟨3, _⟩ => exact ((dat1 (Vt3 m ρ) c).arrAt_in 3 rfl _).trans (A_eq1 (Vt3 m ρ) c 3)
    | ⟨4, _⟩ => exact absurd rfl h4
    | ⟨5, _⟩ => exact absurd rfl h5
  · exact Wt4_of_ne m ρ c b fun w e => h ⟨w, e⟩

/-- After host stretch 2: region 2's entry. -/
abbrev Wt5 : Dev nD → Valuation τ sig (Elt F) := fun c => StableHlo.after hostOps2 (Wt4 m ρ c)
abbrev Vt5 : (c : Dev nD) → (b : Ref sig .tc) → Buf (Elt F) ((c : Thread nD τ).loc b) := fun c b => Wt5 m ρ c b
/-- After region 2: its arrays at what the pipeline leaves, every other buffer as entered. -/
def Wt6 (c : Dev nD) : Valuation τ sig (Elt F) :=
  Pipeline.withArrays spec2 c (Wt5 m ρ c) fun w => (dat2 (Vt5 m ρ) c).arrAt w cfg2.N
theorem Wt6_arr (c : Dev nD) (w : Fin cfg2.W) :
    Wt6 m ρ c (Proc.devRef .tc (Pipeline.arrRef spec2 w)) = (dat2 (Vt5 m ρ) c).arrAt w cfg2.N := by
  unfold Wt6; exact Pipeline.withArrays_arr spec2 launch2.win.arr_inj c _ _ w
theorem Wt6_of_ne (c : Dev nD) (b : Ref sig .tc) (hb : ∀ w, Pipeline.arrRef spec2 w ≠ b) :
    Wt6 m ρ c (Proc.devRef .tc b) = Wt5 m ρ c (Proc.devRef .tc b) := by
  unfold Wt6; exact Pipeline.withArrays_of_ne spec2 c _ _ b hb
abbrev Vt6 : (c : Dev nD) → (b : Ref sig .tc) → Buf (Elt F) ((c : Thread nD τ).loc b) := fun c b => Wt6 m ρ c b
theorem hF2 (c : Dev nD) (w : Fin cfg2.W) : (dat2 (Vt5 m ρ) c).arrAt w cfg2.N = Vt6 m ρ c (Pipeline.arrRef spec2 w) :=
  (Wt6_arr m ρ c w).symm
theorem hrest2 (c : Dev nD) : ∀ b, b ∉ Finset.univ.image (Pipeline.arrRef spec2) → Vt6 m ρ c b = Vt5 m ρ c b :=
  fun b hb => Wt6_of_ne m ρ c b fun w e => hb (Finset.mem_image.mpr ⟨w, Finset.mem_univ _, e⟩)
/-- Region 2 changes only its two output arrays: an input window's array ends as entered, any other buffer is bypassed. -/
theorem Wt6_keep (c : Dev nD) (b : Ref sig .tc) (h4 : b ≠ main_v5_0) (h5 : b ≠ main_v5_1) :
    Wt6 m ρ c (Proc.devRef .tc b) = Wt5 m ρ c (Proc.devRef .tc b) := by
  by_cases h : ∃ w, Pipeline.arrRef spec2 w = b
  · obtain ⟨w, rfl⟩ := h
    rw [Wt6_arr]
    match w with
    | ⟨0, _⟩ => exact ((dat2 (Vt5 m ρ) c).arrAt_in 0 rfl _).trans (A_eq2 (Vt5 m ρ) c 0)
    | ⟨1, _⟩ => exact ((dat2 (Vt5 m ρ) c).arrAt_in 1 rfl _).trans (A_eq2 (Vt5 m ρ) c 1)
    | ⟨2, _⟩ => exact ((dat2 (Vt5 m ρ) c).arrAt_in 2 rfl _).trans (A_eq2 (Vt5 m ρ) c 2)
    | ⟨3, _⟩ => exact ((dat2 (Vt5 m ρ) c).arrAt_in 3 rfl _).trans (A_eq2 (Vt5 m ρ) c 3)
    | ⟨4, _⟩ => exact absurd rfl h4
    | ⟨5, _⟩ => exact absurd rfl h5
  · exact Wt6_of_ne m ρ c b fun w e => h ⟨w, e⟩

/-- After host stretch 3: region 3's entry. -/
abbrev Wt7 : Dev nD → Valuation τ sig (Elt F) := fun c => StableHlo.after hostOps3 (Wt6 m ρ c)
abbrev Vt7 : (c : Dev nD) → (b : Ref sig .tc) → Buf (Elt F) ((c : Thread nD τ).loc b) := fun c b => Wt7 m ρ c b
/-- After region 3: its arrays at what the pipeline leaves, every other buffer as entered. -/
def Wt8 (c : Dev nD) : Valuation τ sig (Elt F) :=
  Pipeline.withArrays spec3 c (Wt7 m ρ c) fun w => (dat3 (Vt7 m ρ) c).arrAt w cfg3.N
theorem Wt8_arr (c : Dev nD) (w : Fin cfg3.W) :
    Wt8 m ρ c (Proc.devRef .tc (Pipeline.arrRef spec3 w)) = (dat3 (Vt7 m ρ) c).arrAt w cfg3.N := by
  unfold Wt8; exact Pipeline.withArrays_arr spec3 launch3.win.arr_inj c _ _ w
theorem Wt8_of_ne (c : Dev nD) (b : Ref sig .tc) (hb : ∀ w, Pipeline.arrRef spec3 w ≠ b) :
    Wt8 m ρ c (Proc.devRef .tc b) = Wt7 m ρ c (Proc.devRef .tc b) := by
  unfold Wt8; exact Pipeline.withArrays_of_ne spec3 c _ _ b hb
abbrev Vt8 : (c : Dev nD) → (b : Ref sig .tc) → Buf (Elt F) ((c : Thread nD τ).loc b) := fun c b => Wt8 m ρ c b
theorem hF3 (c : Dev nD) (w : Fin cfg3.W) : (dat3 (Vt7 m ρ) c).arrAt w cfg3.N = Vt8 m ρ c (Pipeline.arrRef spec3 w) :=
  (Wt8_arr m ρ c w).symm
theorem hrest3 (c : Dev nD) : ∀ b, b ∉ Finset.univ.image (Pipeline.arrRef spec3) → Vt8 m ρ c b = Vt7 m ρ c b :=
  fun b hb => Wt8_of_ne m ρ c b fun w e => hb (Finset.mem_image.mpr ⟨w, Finset.mem_univ _, e⟩)
/-- Region 3 changes only its two output arrays: an input window's array ends as entered, any other buffer is bypassed. -/
theorem Wt8_keep (c : Dev nD) (b : Ref sig .tc) (h4 : b ≠ main_v7_0) (h5 : b ≠ main_v7_1) :
    Wt8 m ρ c (Proc.devRef .tc b) = Wt7 m ρ c (Proc.devRef .tc b) := by
  by_cases h : ∃ w, Pipeline.arrRef spec3 w = b
  · obtain ⟨w, rfl⟩ := h
    rw [Wt8_arr]
    match w with
    | ⟨0, _⟩ => exact ((dat3 (Vt7 m ρ) c).arrAt_in 0 rfl _).trans (A_eq3 (Vt7 m ρ) c 0)
    | ⟨1, _⟩ => exact ((dat3 (Vt7 m ρ) c).arrAt_in 1 rfl _).trans (A_eq3 (Vt7 m ρ) c 1)
    | ⟨2, _⟩ => exact ((dat3 (Vt7 m ρ) c).arrAt_in 2 rfl _).trans (A_eq3 (Vt7 m ρ) c 2)
    | ⟨3, _⟩ => exact ((dat3 (Vt7 m ρ) c).arrAt_in 3 rfl _).trans (A_eq3 (Vt7 m ρ) c 3)
    | ⟨4, _⟩ => exact absurd rfl h4
    | ⟨5, _⟩ => exact absurd rfl h5
  · exact Wt8_of_ne m ρ c b fun w e => h ⟨w, e⟩

/-- After host stretch 4: region 4's entry. -/
abbrev Wt9 : Dev nD → Valuation τ sig (Elt F) := fun c => StableHlo.after hostOps4 (Wt8 m ρ c)
abbrev Vt9 : (c : Dev nD) → (b : Ref sig .tc) → Buf (Elt F) ((c : Thread nD τ).loc b) := fun c b => Wt9 m ρ c b
/-- After region 4: its arrays at what the pipeline leaves, every other buffer as entered. -/
def Wt10 (c : Dev nD) : Valuation τ sig (Elt F) :=
  Pipeline.withArrays spec4 c (Wt9 m ρ c) fun w => (dat4 (Vt9 m ρ) c).arrAt w cfg4.N
theorem Wt10_arr (c : Dev nD) (w : Fin cfg4.W) :
    Wt10 m ρ c (Proc.devRef .tc (Pipeline.arrRef spec4 w)) = (dat4 (Vt9 m ρ) c).arrAt w cfg4.N := by
  unfold Wt10; exact Pipeline.withArrays_arr spec4 launch4.win.arr_inj c _ _ w
theorem Wt10_of_ne (c : Dev nD) (b : Ref sig .tc) (hb : ∀ w, Pipeline.arrRef spec4 w ≠ b) :
    Wt10 m ρ c (Proc.devRef .tc b) = Wt9 m ρ c (Proc.devRef .tc b) := by
  unfold Wt10; exact Pipeline.withArrays_of_ne spec4 c _ _ b hb
abbrev Vt10 : (c : Dev nD) → (b : Ref sig .tc) → Buf (Elt F) ((c : Thread nD τ).loc b) := fun c b => Wt10 m ρ c b
theorem hF4 (c : Dev nD) (w : Fin cfg4.W) : (dat4 (Vt9 m ρ) c).arrAt w cfg4.N = Vt10 m ρ c (Pipeline.arrRef spec4 w) :=
  (Wt10_arr m ρ c w).symm
theorem hrest4 (c : Dev nD) : ∀ b, b ∉ Finset.univ.image (Pipeline.arrRef spec4) → Vt10 m ρ c b = Vt9 m ρ c b :=
  fun b hb => Wt10_of_ne m ρ c b fun w e => hb (Finset.mem_image.mpr ⟨w, Finset.mem_univ _, e⟩)
/-- Region 4 changes only its two output arrays: an input window's array ends as entered, any other buffer is bypassed. -/
theorem Wt10_keep (c : Dev nD) (b : Ref sig .tc) (h4 : b ≠ main_v9_0) (h5 : b ≠ main_v9_1) :
    Wt10 m ρ c (Proc.devRef .tc b) = Wt9 m ρ c (Proc.devRef .tc b) := by
  by_cases h : ∃ w, Pipeline.arrRef spec4 w = b
  · obtain ⟨w, rfl⟩ := h
    rw [Wt10_arr]
    match w with
    | ⟨0, _⟩ => exact ((dat4 (Vt9 m ρ) c).arrAt_in 0 rfl _).trans (A_eq4 (Vt9 m ρ) c 0)
    | ⟨1, _⟩ => exact ((dat4 (Vt9 m ρ) c).arrAt_in 1 rfl _).trans (A_eq4 (Vt9 m ρ) c 1)
    | ⟨2, _⟩ => exact ((dat4 (Vt9 m ρ) c).arrAt_in 2 rfl _).trans (A_eq4 (Vt9 m ρ) c 2)
    | ⟨3, _⟩ => exact ((dat4 (Vt9 m ρ) c).arrAt_in 3 rfl _).trans (A_eq4 (Vt9 m ρ) c 3)
    | ⟨4, _⟩ => exact absurd rfl h4
    | ⟨5, _⟩ => exact absurd rfl h5
  · exact Wt10_of_ne m ρ c b fun w e => h ⟨w, e⟩

/-- After host stretch 5: region 5's entry. -/
abbrev Wt11 : Dev nD → Valuation τ sig (Elt F) := fun c => StableHlo.after hostOps5 (Wt10 m ρ c)
abbrev Vt11 : (c : Dev nD) → (b : Ref sig .tc) → Buf (Elt F) ((c : Thread nD τ).loc b) := fun c b => Wt11 m ρ c b
/-- After region 5: its arrays at what the pipeline leaves, every other buffer as entered. -/
def Wt12 (c : Dev nD) : Valuation τ sig (Elt F) :=
  Pipeline.withArrays spec5 c (Wt11 m ρ c) fun w => (dat5 (Vt11 m ρ) c).arrAt w cfg5.N
theorem Wt12_arr (c : Dev nD) (w : Fin cfg5.W) :
    Wt12 m ρ c (Proc.devRef .tc (Pipeline.arrRef spec5 w)) = (dat5 (Vt11 m ρ) c).arrAt w cfg5.N := by
  unfold Wt12; exact Pipeline.withArrays_arr spec5 launch5.win.arr_inj c _ _ w
theorem Wt12_of_ne (c : Dev nD) (b : Ref sig .tc) (hb : ∀ w, Pipeline.arrRef spec5 w ≠ b) :
    Wt12 m ρ c (Proc.devRef .tc b) = Wt11 m ρ c (Proc.devRef .tc b) := by
  unfold Wt12; exact Pipeline.withArrays_of_ne spec5 c _ _ b hb
abbrev Vt12 : (c : Dev nD) → (b : Ref sig .tc) → Buf (Elt F) ((c : Thread nD τ).loc b) := fun c b => Wt12 m ρ c b
theorem hF5 (c : Dev nD) (w : Fin cfg5.W) : (dat5 (Vt11 m ρ) c).arrAt w cfg5.N = Vt12 m ρ c (Pipeline.arrRef spec5 w) :=
  (Wt12_arr m ρ c w).symm
theorem hrest5 (c : Dev nD) : ∀ b, b ∉ Finset.univ.image (Pipeline.arrRef spec5) → Vt12 m ρ c b = Vt11 m ρ c b :=
  fun b hb => Wt12_of_ne m ρ c b fun w e => hb (Finset.mem_image.mpr ⟨w, Finset.mem_univ _, e⟩)
/-- Region 5 changes only its two output arrays: an input window's array ends as entered, any other buffer is bypassed. -/
theorem Wt12_keep (c : Dev nD) (b : Ref sig .tc) (h4 : b ≠ main_v11_0) (h5 : b ≠ main_v11_1) :
    Wt12 m ρ c (Proc.devRef .tc b) = Wt11 m ρ c (Proc.devRef .tc b) := by
  by_cases h : ∃ w, Pipeline.arrRef spec5 w = b
  · obtain ⟨w, rfl⟩ := h
    rw [Wt12_arr]
    match w with
    | ⟨0, _⟩ => exact ((dat5 (Vt11 m ρ) c).arrAt_in 0 rfl _).trans (A_eq5 (Vt11 m ρ) c 0)
    | ⟨1, _⟩ => exact ((dat5 (Vt11 m ρ) c).arrAt_in 1 rfl _).trans (A_eq5 (Vt11 m ρ) c 1)
    | ⟨2, _⟩ => exact ((dat5 (Vt11 m ρ) c).arrAt_in 2 rfl _).trans (A_eq5 (Vt11 m ρ) c 2)
    | ⟨3, _⟩ => exact ((dat5 (Vt11 m ρ) c).arrAt_in 3 rfl _).trans (A_eq5 (Vt11 m ρ) c 3)
    | ⟨4, _⟩ => exact absurd rfl h4
    | ⟨5, _⟩ => exact absurd rfl h5
  · exact Wt12_of_ne m ρ c b fun w e => h ⟨w, e⟩

/-- After host stretch 6: region 6's entry. -/
abbrev Wt13 : Dev nD → Valuation τ sig (Elt F) := fun c => StableHlo.after hostOps6 (Wt12 m ρ c)
abbrev Vt13 : (c : Dev nD) → (b : Ref sig .tc) → Buf (Elt F) ((c : Thread nD τ).loc b) := fun c b => Wt13 m ρ c b
/-- After region 6: its arrays at what the pipeline leaves, every other buffer as entered. -/
def Wt14 (c : Dev nD) : Valuation τ sig (Elt F) :=
  Pipeline.withArrays spec6 c (Wt13 m ρ c) fun w => (dat6 (Vt13 m ρ) c).arrAt w cfg6.N
theorem Wt14_arr (c : Dev nD) (w : Fin cfg6.W) :
    Wt14 m ρ c (Proc.devRef .tc (Pipeline.arrRef spec6 w)) = (dat6 (Vt13 m ρ) c).arrAt w cfg6.N := by
  unfold Wt14; exact Pipeline.withArrays_arr spec6 launch6.win.arr_inj c _ _ w
theorem Wt14_of_ne (c : Dev nD) (b : Ref sig .tc) (hb : ∀ w, Pipeline.arrRef spec6 w ≠ b) :
    Wt14 m ρ c (Proc.devRef .tc b) = Wt13 m ρ c (Proc.devRef .tc b) := by
  unfold Wt14; exact Pipeline.withArrays_of_ne spec6 c _ _ b hb
abbrev Vt14 : (c : Dev nD) → (b : Ref sig .tc) → Buf (Elt F) ((c : Thread nD τ).loc b) := fun c b => Wt14 m ρ c b
theorem hF6 (c : Dev nD) (w : Fin cfg6.W) : (dat6 (Vt13 m ρ) c).arrAt w cfg6.N = Vt14 m ρ c (Pipeline.arrRef spec6 w) :=
  (Wt14_arr m ρ c w).symm
theorem hrest6 (c : Dev nD) : ∀ b, b ∉ Finset.univ.image (Pipeline.arrRef spec6) → Vt14 m ρ c b = Vt13 m ρ c b :=
  fun b hb => Wt14_of_ne m ρ c b fun w e => hb (Finset.mem_image.mpr ⟨w, Finset.mem_univ _, e⟩)
/-- Region 6 changes only its two output arrays: an input window's array ends as entered, any other buffer is bypassed. -/
theorem Wt14_keep (c : Dev nD) (b : Ref sig .tc) (h4 : b ≠ main_v14_0) (h5 : b ≠ main_v14_1) :
    Wt14 m ρ c (Proc.devRef .tc b) = Wt13 m ρ c (Proc.devRef .tc b) := by
  by_cases h : ∃ w, Pipeline.arrRef spec6 w = b
  · obtain ⟨w, rfl⟩ := h
    rw [Wt14_arr]
    match w with
    | ⟨0, _⟩ => exact ((dat6 (Vt13 m ρ) c).arrAt_in 0 rfl _).trans (A_eq6 (Vt13 m ρ) c 0)
    | ⟨1, _⟩ => exact ((dat6 (Vt13 m ρ) c).arrAt_in 1 rfl _).trans (A_eq6 (Vt13 m ρ) c 1)
    | ⟨2, _⟩ => exact ((dat6 (Vt13 m ρ) c).arrAt_in 2 rfl _).trans (A_eq6 (Vt13 m ρ) c 2)
    | ⟨3, _⟩ => exact ((dat6 (Vt13 m ρ) c).arrAt_in 3 rfl _).trans (A_eq6 (Vt13 m ρ) c 3)
    | ⟨4, _⟩ => exact absurd rfl h4
    | ⟨5, _⟩ => exact absurd rfl h5
  · exact Wt14_of_ne m ρ c b fun w e => h ⟨w, e⟩

/-- After the last host stretch: the end. -/
abbrev Wt15 : Dev nD → Valuation τ sig (Elt F) := fun c => StableHlo.after hostOps7 (Wt14 m ρ c)
theorem Wt15_main_arg0 (c : Dev nD) : Wt15 m ρ c (Proc.devRef .tc main_arg0) = m ((c : Thread nD τ).loc main_arg0) :=
  (StableHlo.after_of_writes_sub hostOps7 _ hostOps7_writes (by decide : main_arg0 ∉ hostOps7_W)).trans <|
    (Wt14_keep m ρ c main_arg0 (by decide) (by decide)).trans <|
    (StableHlo.after_of_writes_sub hostOps6 _ hostOps6_writes (by decide : main_arg0 ∉ hostOps6_W)).trans <|
    (Wt12_keep m ρ c main_arg0 (by decide) (by decide)).trans <|
    (StableHlo.after_of_writes_sub hostOps5 _ hostOps5_writes (by decide : main_arg0 ∉ hostOps5_W)).trans <|
    (Wt10_keep m ρ c main_arg0 (by decide) (by decide)).trans <|
    (StableHlo.after_of_writes_sub hostOps4 _ hostOps4_writes (by decide : main_arg0 ∉ hostOps4_W)).trans <|
    (Wt8_keep m ρ c main_arg0 (by decide) (by decide)).trans <|
    (StableHlo.after_of_writes_sub hostOps3 _ hostOps3_writes (by decide : main_arg0 ∉ hostOps3_W)).trans <|
    (Wt6_keep m ρ c main_arg0 (by decide) (by decide)).trans <|
    (StableHlo.after_of_writes_sub hostOps2 _ hostOps2_writes (by decide : main_arg0 ∉ hostOps2_W)).trans <|
    (Wt4_keep m ρ c main_arg0 (by decide) (by decide)).trans <|
    (StableHlo.after_of_writes_sub hostOps1 _ hostOps1_writes (by decide : main_arg0 ∉ hostOps1_W)).trans <|
    (Wt2_keep m ρ c main_arg0 (by decide) (by decide)).trans <|
    (StableHlo.after_of_writes_sub hostOps0 _ hostOps0_writes (by decide : main_arg0 ∉ hostOps0_W))
theorem Wt15_main_arg1 (c : Dev nD) : Wt15 m ρ c (Proc.devRef .tc main_arg1) = m ((c : Thread nD τ).loc main_arg1) :=
  (StableHlo.after_of_writes_sub hostOps7 _ hostOps7_writes (by decide : main_arg1 ∉ hostOps7_W)).trans <|
    (Wt14_keep m ρ c main_arg1 (by decide) (by decide)).trans <|
    (StableHlo.after_of_writes_sub hostOps6 _ hostOps6_writes (by decide : main_arg1 ∉ hostOps6_W)).trans <|
    (Wt12_keep m ρ c main_arg1 (by decide) (by decide)).trans <|
    (StableHlo.after_of_writes_sub hostOps5 _ hostOps5_writes (by decide : main_arg1 ∉ hostOps5_W)).trans <|
    (Wt10_keep m ρ c main_arg1 (by decide) (by decide)).trans <|
    (StableHlo.after_of_writes_sub hostOps4 _ hostOps4_writes (by decide : main_arg1 ∉ hostOps4_W)).trans <|
    (Wt8_keep m ρ c main_arg1 (by decide) (by decide)).trans <|
    (StableHlo.after_of_writes_sub hostOps3 _ hostOps3_writes (by decide : main_arg1 ∉ hostOps3_W)).trans <|
    (Wt6_keep m ρ c main_arg1 (by decide) (by decide)).trans <|
    (StableHlo.after_of_writes_sub hostOps2 _ hostOps2_writes (by decide : main_arg1 ∉ hostOps2_W)).trans <|
    (Wt4_keep m ρ c main_arg1 (by decide) (by decide)).trans <|
    (StableHlo.after_of_writes_sub hostOps1 _ hostOps1_writes (by decide : main_arg1 ∉ hostOps1_W)).trans <|
    (Wt2_keep m ρ c main_arg1 (by decide) (by decide)).trans <|
    (StableHlo.after_of_writes_sub hostOps0 _ hostOps0_writes (by decide : main_arg1 ∉ hostOps0_W))
theorem Wt15_main_arg2 (c : Dev nD) : Wt15 m ρ c (Proc.devRef .tc main_arg2) = m ((c : Thread nD τ).loc main_arg2) :=
  (StableHlo.after_of_writes_sub hostOps7 _ hostOps7_writes (by decide : main_arg2 ∉ hostOps7_W)).trans <|
    (Wt14_keep m ρ c main_arg2 (by decide) (by decide)).trans <|
    (StableHlo.after_of_writes_sub hostOps6 _ hostOps6_writes (by decide : main_arg2 ∉ hostOps6_W)).trans <|
    (Wt12_keep m ρ c main_arg2 (by decide) (by decide)).trans <|
    (StableHlo.after_of_writes_sub hostOps5 _ hostOps5_writes (by decide : main_arg2 ∉ hostOps5_W)).trans <|
    (Wt10_keep m ρ c main_arg2 (by decide) (by decide)).trans <|
    (StableHlo.after_of_writes_sub hostOps4 _ hostOps4_writes (by decide : main_arg2 ∉ hostOps4_W)).trans <|
    (Wt8_keep m ρ c main_arg2 (by decide) (by decide)).trans <|
    (StableHlo.after_of_writes_sub hostOps3 _ hostOps3_writes (by decide : main_arg2 ∉ hostOps3_W)).trans <|
    (Wt6_keep m ρ c main_arg2 (by decide) (by decide)).trans <|
    (StableHlo.after_of_writes_sub hostOps2 _ hostOps2_writes (by decide : main_arg2 ∉ hostOps2_W)).trans <|
    (Wt4_keep m ρ c main_arg2 (by decide) (by decide)).trans <|
    (StableHlo.after_of_writes_sub hostOps1 _ hostOps1_writes (by decide : main_arg2 ∉ hostOps1_W)).trans <|
    (Wt2_keep m ρ c main_arg2 (by decide) (by decide)).trans <|
    (StableHlo.after_of_writes_sub hostOps0 _ hostOps0_writes (by decide : main_arg2 ∉ hostOps0_W))
theorem Wt15_main_arg3 (c : Dev nD) : Wt15 m ρ c (Proc.devRef .tc main_arg3) = m ((c : Thread nD τ).loc main_arg3) :=
  (StableHlo.after_of_writes_sub hostOps7 _ hostOps7_writes (by decide : main_arg3 ∉ hostOps7_W)).trans <|
    (Wt14_keep m ρ c main_arg3 (by decide) (by decide)).trans <|
    (StableHlo.after_of_writes_sub hostOps6 _ hostOps6_writes (by decide : main_arg3 ∉ hostOps6_W)).trans <|
    (Wt12_keep m ρ c main_arg3 (by decide) (by decide)).trans <|
    (StableHlo.after_of_writes_sub hostOps5 _ hostOps5_writes (by decide : main_arg3 ∉ hostOps5_W)).trans <|
    (Wt10_keep m ρ c main_arg3 (by decide) (by decide)).trans <|
    (StableHlo.after_of_writes_sub hostOps4 _ hostOps4_writes (by decide : main_arg3 ∉ hostOps4_W)).trans <|
    (Wt8_keep m ρ c main_arg3 (by decide) (by decide)).trans <|
    (StableHlo.after_of_writes_sub hostOps3 _ hostOps3_writes (by decide : main_arg3 ∉ hostOps3_W)).trans <|
    (Wt6_keep m ρ c main_arg3 (by decide) (by decide)).trans <|
    (StableHlo.after_of_writes_sub hostOps2 _ hostOps2_writes (by decide : main_arg3 ∉ hostOps2_W)).trans <|
    (Wt4_keep m ρ c main_arg3 (by decide) (by decide)).trans <|
    (StableHlo.after_of_writes_sub hostOps1 _ hostOps1_writes (by decide : main_arg3 ∉ hostOps1_W)).trans <|
    (Wt2_keep m ρ c main_arg3 (by decide) (by decide)).trans <|
    (StableHlo.after_of_writes_sub hostOps0 _ hostOps0_writes (by decide : main_arg3 ∉ hostOps0_W))
theorem Wt15_main_arg4 (c : Dev nD) : Wt15 m ρ c (Proc.devRef .tc main_arg4) = m ((c : Thread nD τ).loc main_arg4) :=
  (StableHlo.after_of_writes_sub hostOps7 _ hostOps7_writes (by decide : main_arg4 ∉ hostOps7_W)).trans <|
    (Wt14_keep m ρ c main_arg4 (by decide) (by decide)).trans <|
    (StableHlo.after_of_writes_sub hostOps6 _ hostOps6_writes (by decide : main_arg4 ∉ hostOps6_W)).trans <|
    (Wt12_keep m ρ c main_arg4 (by decide) (by decide)).trans <|
    (StableHlo.after_of_writes_sub hostOps5 _ hostOps5_writes (by decide : main_arg4 ∉ hostOps5_W)).trans <|
    (Wt10_keep m ρ c main_arg4 (by decide) (by decide)).trans <|
    (StableHlo.after_of_writes_sub hostOps4 _ hostOps4_writes (by decide : main_arg4 ∉ hostOps4_W)).trans <|
    (Wt8_keep m ρ c main_arg4 (by decide) (by decide)).trans <|
    (StableHlo.after_of_writes_sub hostOps3 _ hostOps3_writes (by decide : main_arg4 ∉ hostOps3_W)).trans <|
    (Wt6_keep m ρ c main_arg4 (by decide) (by decide)).trans <|
    (StableHlo.after_of_writes_sub hostOps2 _ hostOps2_writes (by decide : main_arg4 ∉ hostOps2_W)).trans <|
    (Wt4_keep m ρ c main_arg4 (by decide) (by decide)).trans <|
    (StableHlo.after_of_writes_sub hostOps1 _ hostOps1_writes (by decide : main_arg4 ∉ hostOps1_W)).trans <|
    (Wt2_keep m ρ c main_arg4 (by decide) (by decide)).trans <|
    (StableHlo.after_of_writes_sub hostOps0 _ hostOps0_writes (by decide : main_arg4 ∉ hostOps0_W))
theorem Wt15_main_arg5 (c : Dev nD) : Wt15 m ρ c (Proc.devRef .tc main_arg5) = m ((c : Thread nD τ).loc main_arg5) :=
  (StableHlo.after_of_writes_sub hostOps7 _ hostOps7_writes (by decide : main_arg5 ∉ hostOps7_W)).trans <|
    (Wt14_keep m ρ c main_arg5 (by decide) (by decide)).trans <|
    (StableHlo.after_of_writes_sub hostOps6 _ hostOps6_writes (by decide : main_arg5 ∉ hostOps6_W)).trans <|
    (Wt12_keep m ρ c main_arg5 (by decide) (by decide)).trans <|
    (StableHlo.after_of_writes_sub hostOps5 _ hostOps5_writes (by decide : main_arg5 ∉ hostOps5_W)).trans <|
    (Wt10_keep m ρ c main_arg5 (by decide) (by decide)).trans <|
    (StableHlo.after_of_writes_sub hostOps4 _ hostOps4_writes (by decide : main_arg5 ∉ hostOps4_W)).trans <|
    (Wt8_keep m ρ c main_arg5 (by decide) (by decide)).trans <|
    (StableHlo.after_of_writes_sub hostOps3 _ hostOps3_writes (by decide : main_arg5 ∉ hostOps3_W)).trans <|
    (Wt6_keep m ρ c main_arg5 (by decide) (by decide)).trans <|
    (StableHlo.after_of_writes_sub hostOps2 _ hostOps2_writes (by decide : main_arg5 ∉ hostOps2_W)).trans <|
    (Wt4_keep m ρ c main_arg5 (by decide) (by decide)).trans <|
    (StableHlo.after_of_writes_sub hostOps1 _ hostOps1_writes (by decide : main_arg5 ∉ hostOps1_W)).trans <|
    (Wt2_keep m ρ c main_arg5 (by decide) (by decide)).trans <|
    (StableHlo.after_of_writes_sub hostOps0 _ hostOps0_writes (by decide : main_arg5 ∉ hostOps0_W))
theorem Wt15_main_arg6 (c : Dev nD) : Wt15 m ρ c (Proc.devRef .tc main_arg6) = m ((c : Thread nD τ).loc main_arg6) :=
  (StableHlo.after_of_writes_sub hostOps7 _ hostOps7_writes (by decide : main_arg6 ∉ hostOps7_W)).trans <|
    (Wt14_keep m ρ c main_arg6 (by decide) (by decide)).trans <|
    (StableHlo.after_of_writes_sub hostOps6 _ hostOps6_writes (by decide : main_arg6 ∉ hostOps6_W)).trans <|
    (Wt12_keep m ρ c main_arg6 (by decide) (by decide)).trans <|
    (StableHlo.after_of_writes_sub hostOps5 _ hostOps5_writes (by decide : main_arg6 ∉ hostOps5_W)).trans <|
    (Wt10_keep m ρ c main_arg6 (by decide) (by decide)).trans <|
    (StableHlo.after_of_writes_sub hostOps4 _ hostOps4_writes (by decide : main_arg6 ∉ hostOps4_W)).trans <|
    (Wt8_keep m ρ c main_arg6 (by decide) (by decide)).trans <|
    (StableHlo.after_of_writes_sub hostOps3 _ hostOps3_writes (by decide : main_arg6 ∉ hostOps3_W)).trans <|
    (Wt6_keep m ρ c main_arg6 (by decide) (by decide)).trans <|
    (StableHlo.after_of_writes_sub hostOps2 _ hostOps2_writes (by decide : main_arg6 ∉ hostOps2_W)).trans <|
    (Wt4_keep m ρ c main_arg6 (by decide) (by decide)).trans <|
    (StableHlo.after_of_writes_sub hostOps1 _ hostOps1_writes (by decide : main_arg6 ∉ hostOps1_W)).trans <|
    (Wt2_keep m ρ c main_arg6 (by decide) (by decide)).trans <|
    (StableHlo.after_of_writes_sub hostOps0 _ hostOps0_writes (by decide : main_arg6 ∉ hostOps0_W))
theorem Wt15_main_arg7 (c : Dev nD) : Wt15 m ρ c (Proc.devRef .tc main_arg7) = m ((c : Thread nD τ).loc main_arg7) :=
  (StableHlo.after_of_writes_sub hostOps7 _ hostOps7_writes (by decide : main_arg7 ∉ hostOps7_W)).trans <|
    (Wt14_keep m ρ c main_arg7 (by decide) (by decide)).trans <|
    (StableHlo.after_of_writes_sub hostOps6 _ hostOps6_writes (by decide : main_arg7 ∉ hostOps6_W)).trans <|
    (Wt12_keep m ρ c main_arg7 (by decide) (by decide)).trans <|
    (StableHlo.after_of_writes_sub hostOps5 _ hostOps5_writes (by decide : main_arg7 ∉ hostOps5_W)).trans <|
    (Wt10_keep m ρ c main_arg7 (by decide) (by decide)).trans <|
    (StableHlo.after_of_writes_sub hostOps4 _ hostOps4_writes (by decide : main_arg7 ∉ hostOps4_W)).trans <|
    (Wt8_keep m ρ c main_arg7 (by decide) (by decide)).trans <|
    (StableHlo.after_of_writes_sub hostOps3 _ hostOps3_writes (by decide : main_arg7 ∉ hostOps3_W)).trans <|
    (Wt6_keep m ρ c main_arg7 (by decide) (by decide)).trans <|
    (StableHlo.after_of_writes_sub hostOps2 _ hostOps2_writes (by decide : main_arg7 ∉ hostOps2_W)).trans <|
    (Wt4_keep m ρ c main_arg7 (by decide) (by decide)).trans <|
    (StableHlo.after_of_writes_sub hostOps1 _ hostOps1_writes (by decide : main_arg7 ∉ hostOps1_W)).trans <|
    (Wt2_keep m ρ c main_arg7 (by decide) (by decide)).trans <|
    (StableHlo.after_of_writes_sub hostOps0 _ hostOps0_writes (by decide : main_arg7 ∉ hostOps0_W))
theorem Wt15_main_arg8 (c : Dev nD) : Wt15 m ρ c (Proc.devRef .tc main_arg8) = m ((c : Thread nD τ).loc main_arg8) :=
  (StableHlo.after_of_writes_sub hostOps7 _ hostOps7_writes (by decide : main_arg8 ∉ hostOps7_W)).trans <|
    (Wt14_keep m ρ c main_arg8 (by decide) (by decide)).trans <|
    (StableHlo.after_of_writes_sub hostOps6 _ hostOps6_writes (by decide : main_arg8 ∉ hostOps6_W)).trans <|
    (Wt12_keep m ρ c main_arg8 (by decide) (by decide)).trans <|
    (StableHlo.after_of_writes_sub hostOps5 _ hostOps5_writes (by decide : main_arg8 ∉ hostOps5_W)).trans <|
    (Wt10_keep m ρ c main_arg8 (by decide) (by decide)).trans <|
    (StableHlo.after_of_writes_sub hostOps4 _ hostOps4_writes (by decide : main_arg8 ∉ hostOps4_W)).trans <|
    (Wt8_keep m ρ c main_arg8 (by decide) (by decide)).trans <|
    (StableHlo.after_of_writes_sub hostOps3 _ hostOps3_writes (by decide : main_arg8 ∉ hostOps3_W)).trans <|
    (Wt6_keep m ρ c main_arg8 (by decide) (by decide)).trans <|
    (StableHlo.after_of_writes_sub hostOps2 _ hostOps2_writes (by decide : main_arg8 ∉ hostOps2_W)).trans <|
    (Wt4_keep m ρ c main_arg8 (by decide) (by decide)).trans <|
    (StableHlo.after_of_writes_sub hostOps1 _ hostOps1_writes (by decide : main_arg8 ∉ hostOps1_W)).trans <|
    (Wt2_keep m ρ c main_arg8 (by decide) (by decide)).trans <|
    (StableHlo.after_of_writes_sub hostOps0 _ hostOps0_writes (by decide : main_arg8 ∉ hostOps0_W))
theorem Wt15_main_arg9 (c : Dev nD) : Wt15 m ρ c (Proc.devRef .tc main_arg9) = m ((c : Thread nD τ).loc main_arg9) :=
  (StableHlo.after_of_writes_sub hostOps7 _ hostOps7_writes (by decide : main_arg9 ∉ hostOps7_W)).trans <|
    (Wt14_keep m ρ c main_arg9 (by decide) (by decide)).trans <|
    (StableHlo.after_of_writes_sub hostOps6 _ hostOps6_writes (by decide : main_arg9 ∉ hostOps6_W)).trans <|
    (Wt12_keep m ρ c main_arg9 (by decide) (by decide)).trans <|
    (StableHlo.after_of_writes_sub hostOps5 _ hostOps5_writes (by decide : main_arg9 ∉ hostOps5_W)).trans <|
    (Wt10_keep m ρ c main_arg9 (by decide) (by decide)).trans <|
    (StableHlo.after_of_writes_sub hostOps4 _ hostOps4_writes (by decide : main_arg9 ∉ hostOps4_W)).trans <|
    (Wt8_keep m ρ c main_arg9 (by decide) (by decide)).trans <|
    (StableHlo.after_of_writes_sub hostOps3 _ hostOps3_writes (by decide : main_arg9 ∉ hostOps3_W)).trans <|
    (Wt6_keep m ρ c main_arg9 (by decide) (by decide)).trans <|
    (StableHlo.after_of_writes_sub hostOps2 _ hostOps2_writes (by decide : main_arg9 ∉ hostOps2_W)).trans <|
    (Wt4_keep m ρ c main_arg9 (by decide) (by decide)).trans <|
    (StableHlo.after_of_writes_sub hostOps1 _ hostOps1_writes (by decide : main_arg9 ∉ hostOps1_W)).trans <|
    (Wt2_keep m ρ c main_arg9 (by decide) (by decide)).trans <|
    (StableHlo.after_of_writes_sub hostOps0 _ hostOps0_writes (by decide : main_arg9 ∉ hostOps0_W))
theorem Wt15_main_arg10 (c : Dev nD) : Wt15 m ρ c (Proc.devRef .tc main_arg10) = m ((c : Thread nD τ).loc main_arg10) :=
  (StableHlo.after_of_writes_sub hostOps7 _ hostOps7_writes (by decide : main_arg10 ∉ hostOps7_W)).trans <|
    (Wt14_keep m ρ c main_arg10 (by decide) (by decide)).trans <|
    (StableHlo.after_of_writes_sub hostOps6 _ hostOps6_writes (by decide : main_arg10 ∉ hostOps6_W)).trans <|
    (Wt12_keep m ρ c main_arg10 (by decide) (by decide)).trans <|
    (StableHlo.after_of_writes_sub hostOps5 _ hostOps5_writes (by decide : main_arg10 ∉ hostOps5_W)).trans <|
    (Wt10_keep m ρ c main_arg10 (by decide) (by decide)).trans <|
    (StableHlo.after_of_writes_sub hostOps4 _ hostOps4_writes (by decide : main_arg10 ∉ hostOps4_W)).trans <|
    (Wt8_keep m ρ c main_arg10 (by decide) (by decide)).trans <|
    (StableHlo.after_of_writes_sub hostOps3 _ hostOps3_writes (by decide : main_arg10 ∉ hostOps3_W)).trans <|
    (Wt6_keep m ρ c main_arg10 (by decide) (by decide)).trans <|
    (StableHlo.after_of_writes_sub hostOps2 _ hostOps2_writes (by decide : main_arg10 ∉ hostOps2_W)).trans <|
    (Wt4_keep m ρ c main_arg10 (by decide) (by decide)).trans <|
    (StableHlo.after_of_writes_sub hostOps1 _ hostOps1_writes (by decide : main_arg10 ∉ hostOps1_W)).trans <|
    (Wt2_keep m ρ c main_arg10 (by decide) (by decide)).trans <|
    (StableHlo.after_of_writes_sub hostOps0 _ hostOps0_writes (by decide : main_arg10 ∉ hostOps0_W))
theorem Wt15_main_arg11 (c : Dev nD) : Wt15 m ρ c (Proc.devRef .tc main_arg11) = m ((c : Thread nD τ).loc main_arg11) :=
  (StableHlo.after_of_writes_sub hostOps7 _ hostOps7_writes (by decide : main_arg11 ∉ hostOps7_W)).trans <|
    (Wt14_keep m ρ c main_arg11 (by decide) (by decide)).trans <|
    (StableHlo.after_of_writes_sub hostOps6 _ hostOps6_writes (by decide : main_arg11 ∉ hostOps6_W)).trans <|
    (Wt12_keep m ρ c main_arg11 (by decide) (by decide)).trans <|
    (StableHlo.after_of_writes_sub hostOps5 _ hostOps5_writes (by decide : main_arg11 ∉ hostOps5_W)).trans <|
    (Wt10_keep m ρ c main_arg11 (by decide) (by decide)).trans <|
    (StableHlo.after_of_writes_sub hostOps4 _ hostOps4_writes (by decide : main_arg11 ∉ hostOps4_W)).trans <|
    (Wt8_keep m ρ c main_arg11 (by decide) (by decide)).trans <|
    (StableHlo.after_of_writes_sub hostOps3 _ hostOps3_writes (by decide : main_arg11 ∉ hostOps3_W)).trans <|
    (Wt6_keep m ρ c main_arg11 (by decide) (by decide)).trans <|
    (StableHlo.after_of_writes_sub hostOps2 _ hostOps2_writes (by decide : main_arg11 ∉ hostOps2_W)).trans <|
    (Wt4_keep m ρ c main_arg11 (by decide) (by decide)).trans <|
    (StableHlo.after_of_writes_sub hostOps1 _ hostOps1_writes (by decide : main_arg11 ∉ hostOps1_W)).trans <|
    (Wt2_keep m ρ c main_arg11 (by decide) (by decide)).trans <|
    (StableHlo.after_of_writes_sub hostOps0 _ hostOps0_writes (by decide : main_arg11 ∉ hostOps0_W))
theorem Wt15_main_arg12 (c : Dev nD) : Wt15 m ρ c (Proc.devRef .tc main_arg12) = m ((c : Thread nD τ).loc main_arg12) :=
  (StableHlo.after_of_writes_sub hostOps7 _ hostOps7_writes (by decide : main_arg12 ∉ hostOps7_W)).trans <|
    (Wt14_keep m ρ c main_arg12 (by decide) (by decide)).trans <|
    (StableHlo.after_of_writes_sub hostOps6 _ hostOps6_writes (by decide : main_arg12 ∉ hostOps6_W)).trans <|
    (Wt12_keep m ρ c main_arg12 (by decide) (by decide)).trans <|
    (StableHlo.after_of_writes_sub hostOps5 _ hostOps5_writes (by decide : main_arg12 ∉ hostOps5_W)).trans <|
    (Wt10_keep m ρ c main_arg12 (by decide) (by decide)).trans <|
    (StableHlo.after_of_writes_sub hostOps4 _ hostOps4_writes (by decide : main_arg12 ∉ hostOps4_W)).trans <|
    (Wt8_keep m ρ c main_arg12 (by decide) (by decide)).trans <|
    (StableHlo.after_of_writes_sub hostOps3 _ hostOps3_writes (by decide : main_arg12 ∉ hostOps3_W)).trans <|
    (Wt6_keep m ρ c main_arg12 (by decide) (by decide)).trans <|
    (StableHlo.after_of_writes_sub hostOps2 _ hostOps2_writes (by decide : main_arg12 ∉ hostOps2_W)).trans <|
    (Wt4_keep m ρ c main_arg12 (by decide) (by decide)).trans <|
    (StableHlo.after_of_writes_sub hostOps1 _ hostOps1_writes (by decide : main_arg12 ∉ hostOps1_W)).trans <|
    (Wt2_keep m ρ c main_arg12 (by decide) (by decide)).trans <|
    (StableHlo.after_of_writes_sub hostOps0 _ hostOps0_writes (by decide : main_arg12 ∉ hostOps0_W))
theorem Wt15_main_arg13 (c : Dev nD) : Wt15 m ρ c (Proc.devRef .tc main_arg13) = m ((c : Thread nD τ).loc main_arg13) :=
  (StableHlo.after_of_writes_sub hostOps7 _ hostOps7_writes (by decide : main_arg13 ∉ hostOps7_W)).trans <|
    (Wt14_keep m ρ c main_arg13 (by decide) (by decide)).trans <|
    (StableHlo.after_of_writes_sub hostOps6 _ hostOps6_writes (by decide : main_arg13 ∉ hostOps6_W)).trans <|
    (Wt12_keep m ρ c main_arg13 (by decide) (by decide)).trans <|
    (StableHlo.after_of_writes_sub hostOps5 _ hostOps5_writes (by decide : main_arg13 ∉ hostOps5_W)).trans <|
    (Wt10_keep m ρ c main_arg13 (by decide) (by decide)).trans <|
    (StableHlo.after_of_writes_sub hostOps4 _ hostOps4_writes (by decide : main_arg13 ∉ hostOps4_W)).trans <|
    (Wt8_keep m ρ c main_arg13 (by decide) (by decide)).trans <|
    (StableHlo.after_of_writes_sub hostOps3 _ hostOps3_writes (by decide : main_arg13 ∉ hostOps3_W)).trans <|
    (Wt6_keep m ρ c main_arg13 (by decide) (by decide)).trans <|
    (StableHlo.after_of_writes_sub hostOps2 _ hostOps2_writes (by decide : main_arg13 ∉ hostOps2_W)).trans <|
    (Wt4_keep m ρ c main_arg13 (by decide) (by decide)).trans <|
    (StableHlo.after_of_writes_sub hostOps1 _ hostOps1_writes (by decide : main_arg13 ∉ hostOps1_W)).trans <|
    (Wt2_keep m ρ c main_arg13 (by decide) (by decide)).trans <|
    (StableHlo.after_of_writes_sub hostOps0 _ hostOps0_writes (by decide : main_arg13 ∉ hostOps0_W))
theorem Wt15_main_arg14 (c : Dev nD) : Wt15 m ρ c (Proc.devRef .tc main_arg14) = m ((c : Thread nD τ).loc main_arg14) :=
  (StableHlo.after_of_writes_sub hostOps7 _ hostOps7_writes (by decide : main_arg14 ∉ hostOps7_W)).trans <|
    (Wt14_keep m ρ c main_arg14 (by decide) (by decide)).trans <|
    (StableHlo.after_of_writes_sub hostOps6 _ hostOps6_writes (by decide : main_arg14 ∉ hostOps6_W)).trans <|
    (Wt12_keep m ρ c main_arg14 (by decide) (by decide)).trans <|
    (StableHlo.after_of_writes_sub hostOps5 _ hostOps5_writes (by decide : main_arg14 ∉ hostOps5_W)).trans <|
    (Wt10_keep m ρ c main_arg14 (by decide) (by decide)).trans <|
    (StableHlo.after_of_writes_sub hostOps4 _ hostOps4_writes (by decide : main_arg14 ∉ hostOps4_W)).trans <|
    (Wt8_keep m ρ c main_arg14 (by decide) (by decide)).trans <|
    (StableHlo.after_of_writes_sub hostOps3 _ hostOps3_writes (by decide : main_arg14 ∉ hostOps3_W)).trans <|
    (Wt6_keep m ρ c main_arg14 (by decide) (by decide)).trans <|
    (StableHlo.after_of_writes_sub hostOps2 _ hostOps2_writes (by decide : main_arg14 ∉ hostOps2_W)).trans <|
    (Wt4_keep m ρ c main_arg14 (by decide) (by decide)).trans <|
    (StableHlo.after_of_writes_sub hostOps1 _ hostOps1_writes (by decide : main_arg14 ∉ hostOps1_W)).trans <|
    (Wt2_keep m ρ c main_arg14 (by decide) (by decide)).trans <|
    (StableHlo.after_of_writes_sub hostOps0 _ hostOps0_writes (by decide : main_arg14 ∉ hostOps0_W))
theorem Wt15_main_arg15 (c : Dev nD) : Wt15 m ρ c (Proc.devRef .tc main_arg15) = m ((c : Thread nD τ).loc main_arg15) :=
  (StableHlo.after_of_writes_sub hostOps7 _ hostOps7_writes (by decide : main_arg15 ∉ hostOps7_W)).trans <|
    (Wt14_keep m ρ c main_arg15 (by decide) (by decide)).trans <|
    (StableHlo.after_of_writes_sub hostOps6 _ hostOps6_writes (by decide : main_arg15 ∉ hostOps6_W)).trans <|
    (Wt12_keep m ρ c main_arg15 (by decide) (by decide)).trans <|
    (StableHlo.after_of_writes_sub hostOps5 _ hostOps5_writes (by decide : main_arg15 ∉ hostOps5_W)).trans <|
    (Wt10_keep m ρ c main_arg15 (by decide) (by decide)).trans <|
    (StableHlo.after_of_writes_sub hostOps4 _ hostOps4_writes (by decide : main_arg15 ∉ hostOps4_W)).trans <|
    (Wt8_keep m ρ c main_arg15 (by decide) (by decide)).trans <|
    (StableHlo.after_of_writes_sub hostOps3 _ hostOps3_writes (by decide : main_arg15 ∉ hostOps3_W)).trans <|
    (Wt6_keep m ρ c main_arg15 (by decide) (by decide)).trans <|
    (StableHlo.after_of_writes_sub hostOps2 _ hostOps2_writes (by decide : main_arg15 ∉ hostOps2_W)).trans <|
    (Wt4_keep m ρ c main_arg15 (by decide) (by decide)).trans <|
    (StableHlo.after_of_writes_sub hostOps1 _ hostOps1_writes (by decide : main_arg15 ∉ hostOps1_W)).trans <|
    (Wt2_keep m ρ c main_arg15 (by decide) (by decide)).trans <|
    (StableHlo.after_of_writes_sub hostOps0 _ hostOps0_writes (by decide : main_arg15 ∉ hostOps0_W))
theorem Wt15_main_arg16 (c : Dev nD) : Wt15 m ρ c (Proc.devRef .tc main_arg16) = m ((c : Thread nD τ).loc main_arg16) :=
  (StableHlo.after_of_writes_sub hostOps7 _ hostOps7_writes (by decide : main_arg16 ∉ hostOps7_W)).trans <|
    (Wt14_keep m ρ c main_arg16 (by decide) (by decide)).trans <|
    (StableHlo.after_of_writes_sub hostOps6 _ hostOps6_writes (by decide : main_arg16 ∉ hostOps6_W)).trans <|
    (Wt12_keep m ρ c main_arg16 (by decide) (by decide)).trans <|
    (StableHlo.after_of_writes_sub hostOps5 _ hostOps5_writes (by decide : main_arg16 ∉ hostOps5_W)).trans <|
    (Wt10_keep m ρ c main_arg16 (by decide) (by decide)).trans <|
    (StableHlo.after_of_writes_sub hostOps4 _ hostOps4_writes (by decide : main_arg16 ∉ hostOps4_W)).trans <|
    (Wt8_keep m ρ c main_arg16 (by decide) (by decide)).trans <|
    (StableHlo.after_of_writes_sub hostOps3 _ hostOps3_writes (by decide : main_arg16 ∉ hostOps3_W)).trans <|
    (Wt6_keep m ρ c main_arg16 (by decide) (by decide)).trans <|
    (StableHlo.after_of_writes_sub hostOps2 _ hostOps2_writes (by decide : main_arg16 ∉ hostOps2_W)).trans <|
    (Wt4_keep m ρ c main_arg16 (by decide) (by decide)).trans <|
    (StableHlo.after_of_writes_sub hostOps1 _ hostOps1_writes (by decide : main_arg16 ∉ hostOps1_W)).trans <|
    (Wt2_keep m ρ c main_arg16 (by decide) (by decide)).trans <|
    (StableHlo.after_of_writes_sub hostOps0 _ hostOps0_writes (by decide : main_arg16 ∉ hostOps0_W))
theorem Wt15_main_arg17 (c : Dev nD) : Wt15 m ρ c (Proc.devRef .tc main_arg17) = m ((c : Thread nD τ).loc main_arg17) :=
  (StableHlo.after_of_writes_sub hostOps7 _ hostOps7_writes (by decide : main_arg17 ∉ hostOps7_W)).trans <|
    (Wt14_keep m ρ c main_arg17 (by decide) (by decide)).trans <|
    (StableHlo.after_of_writes_sub hostOps6 _ hostOps6_writes (by decide : main_arg17 ∉ hostOps6_W)).trans <|
    (Wt12_keep m ρ c main_arg17 (by decide) (by decide)).trans <|
    (StableHlo.after_of_writes_sub hostOps5 _ hostOps5_writes (by decide : main_arg17 ∉ hostOps5_W)).trans <|
    (Wt10_keep m ρ c main_arg17 (by decide) (by decide)).trans <|
    (StableHlo.after_of_writes_sub hostOps4 _ hostOps4_writes (by decide : main_arg17 ∉ hostOps4_W)).trans <|
    (Wt8_keep m ρ c main_arg17 (by decide) (by decide)).trans <|
    (StableHlo.after_of_writes_sub hostOps3 _ hostOps3_writes (by decide : main_arg17 ∉ hostOps3_W)).trans <|
    (Wt6_keep m ρ c main_arg17 (by decide) (by decide)).trans <|
    (StableHlo.after_of_writes_sub hostOps2 _ hostOps2_writes (by decide : main_arg17 ∉ hostOps2_W)).trans <|
    (Wt4_keep m ρ c main_arg17 (by decide) (by decide)).trans <|
    (StableHlo.after_of_writes_sub hostOps1 _ hostOps1_writes (by decide : main_arg17 ∉ hostOps1_W)).trans <|
    (Wt2_keep m ρ c main_arg17 (by decide) (by decide)).trans <|
    (StableHlo.after_of_writes_sub hostOps0 _ hostOps0_writes (by decide : main_arg17 ∉ hostOps0_W))
theorem Wt15_main_arg18 (c : Dev nD) : Wt15 m ρ c (Proc.devRef .tc main_arg18) = m ((c : Thread nD τ).loc main_arg18) :=
  (StableHlo.after_of_writes_sub hostOps7 _ hostOps7_writes (by decide : main_arg18 ∉ hostOps7_W)).trans <|
    (Wt14_keep m ρ c main_arg18 (by decide) (by decide)).trans <|
    (StableHlo.after_of_writes_sub hostOps6 _ hostOps6_writes (by decide : main_arg18 ∉ hostOps6_W)).trans <|
    (Wt12_keep m ρ c main_arg18 (by decide) (by decide)).trans <|
    (StableHlo.after_of_writes_sub hostOps5 _ hostOps5_writes (by decide : main_arg18 ∉ hostOps5_W)).trans <|
    (Wt10_keep m ρ c main_arg18 (by decide) (by decide)).trans <|
    (StableHlo.after_of_writes_sub hostOps4 _ hostOps4_writes (by decide : main_arg18 ∉ hostOps4_W)).trans <|
    (Wt8_keep m ρ c main_arg18 (by decide) (by decide)).trans <|
    (StableHlo.after_of_writes_sub hostOps3 _ hostOps3_writes (by decide : main_arg18 ∉ hostOps3_W)).trans <|
    (Wt6_keep m ρ c main_arg18 (by decide) (by decide)).trans <|
    (StableHlo.after_of_writes_sub hostOps2 _ hostOps2_writes (by decide : main_arg18 ∉ hostOps2_W)).trans <|
    (Wt4_keep m ρ c main_arg18 (by decide) (by decide)).trans <|
    (StableHlo.after_of_writes_sub hostOps1 _ hostOps1_writes (by decide : main_arg18 ∉ hostOps1_W)).trans <|
    (Wt2_keep m ρ c main_arg18 (by decide) (by decide)).trans <|
    (StableHlo.after_of_writes_sub hostOps0 _ hostOps0_writes (by decide : main_arg18 ∉ hostOps0_W))
theorem Wt15_main_arg19 (c : Dev nD) : Wt15 m ρ c (Proc.devRef .tc main_arg19) = m ((c : Thread nD τ).loc main_arg19) :=
  (StableHlo.after_of_writes_sub hostOps7 _ hostOps7_writes (by decide : main_arg19 ∉ hostOps7_W)).trans <|
    (Wt14_keep m ρ c main_arg19 (by decide) (by decide)).trans <|
    (StableHlo.after_of_writes_sub hostOps6 _ hostOps6_writes (by decide : main_arg19 ∉ hostOps6_W)).trans <|
    (Wt12_keep m ρ c main_arg19 (by decide) (by decide)).trans <|
    (StableHlo.after_of_writes_sub hostOps5 _ hostOps5_writes (by decide : main_arg19 ∉ hostOps5_W)).trans <|
    (Wt10_keep m ρ c main_arg19 (by decide) (by decide)).trans <|
    (StableHlo.after_of_writes_sub hostOps4 _ hostOps4_writes (by decide : main_arg19 ∉ hostOps4_W)).trans <|
    (Wt8_keep m ρ c main_arg19 (by decide) (by decide)).trans <|
    (StableHlo.after_of_writes_sub hostOps3 _ hostOps3_writes (by decide : main_arg19 ∉ hostOps3_W)).trans <|
    (Wt6_keep m ρ c main_arg19 (by decide) (by decide)).trans <|
    (StableHlo.after_of_writes_sub hostOps2 _ hostOps2_writes (by decide : main_arg19 ∉ hostOps2_W)).trans <|
    (Wt4_keep m ρ c main_arg19 (by decide) (by decide)).trans <|
    (StableHlo.after_of_writes_sub hostOps1 _ hostOps1_writes (by decide : main_arg19 ∉ hostOps1_W)).trans <|
    (Wt2_keep m ρ c main_arg19 (by decide) (by decide)).trans <|
    (StableHlo.after_of_writes_sub hostOps0 _ hostOps0_writes (by decide : main_arg19 ∉ hostOps0_W))
theorem Wt15_main_arg20 (c : Dev nD) : Wt15 m ρ c (Proc.devRef .tc main_arg20) = m ((c : Thread nD τ).loc main_arg20) :=
  (StableHlo.after_of_writes_sub hostOps7 _ hostOps7_writes (by decide : main_arg20 ∉ hostOps7_W)).trans <|
    (Wt14_keep m ρ c main_arg20 (by decide) (by decide)).trans <|
    (StableHlo.after_of_writes_sub hostOps6 _ hostOps6_writes (by decide : main_arg20 ∉ hostOps6_W)).trans <|
    (Wt12_keep m ρ c main_arg20 (by decide) (by decide)).trans <|
    (StableHlo.after_of_writes_sub hostOps5 _ hostOps5_writes (by decide : main_arg20 ∉ hostOps5_W)).trans <|
    (Wt10_keep m ρ c main_arg20 (by decide) (by decide)).trans <|
    (StableHlo.after_of_writes_sub hostOps4 _ hostOps4_writes (by decide : main_arg20 ∉ hostOps4_W)).trans <|
    (Wt8_keep m ρ c main_arg20 (by decide) (by decide)).trans <|
    (StableHlo.after_of_writes_sub hostOps3 _ hostOps3_writes (by decide : main_arg20 ∉ hostOps3_W)).trans <|
    (Wt6_keep m ρ c main_arg20 (by decide) (by decide)).trans <|
    (StableHlo.after_of_writes_sub hostOps2 _ hostOps2_writes (by decide : main_arg20 ∉ hostOps2_W)).trans <|
    (Wt4_keep m ρ c main_arg20 (by decide) (by decide)).trans <|
    (StableHlo.after_of_writes_sub hostOps1 _ hostOps1_writes (by decide : main_arg20 ∉ hostOps1_W)).trans <|
    (Wt2_keep m ρ c main_arg20 (by decide) (by decide)).trans <|
    (StableHlo.after_of_writes_sub hostOps0 _ hostOps0_writes (by decide : main_arg20 ∉ hostOps0_W))
theorem Wt15_main_arg21 (c : Dev nD) : Wt15 m ρ c (Proc.devRef .tc main_arg21) = m ((c : Thread nD τ).loc main_arg21) :=
  (StableHlo.after_of_writes_sub hostOps7 _ hostOps7_writes (by decide : main_arg21 ∉ hostOps7_W)).trans <|
    (Wt14_keep m ρ c main_arg21 (by decide) (by decide)).trans <|
    (StableHlo.after_of_writes_sub hostOps6 _ hostOps6_writes (by decide : main_arg21 ∉ hostOps6_W)).trans <|
    (Wt12_keep m ρ c main_arg21 (by decide) (by decide)).trans <|
    (StableHlo.after_of_writes_sub hostOps5 _ hostOps5_writes (by decide : main_arg21 ∉ hostOps5_W)).trans <|
    (Wt10_keep m ρ c main_arg21 (by decide) (by decide)).trans <|
    (StableHlo.after_of_writes_sub hostOps4 _ hostOps4_writes (by decide : main_arg21 ∉ hostOps4_W)).trans <|
    (Wt8_keep m ρ c main_arg21 (by decide) (by decide)).trans <|
    (StableHlo.after_of_writes_sub hostOps3 _ hostOps3_writes (by decide : main_arg21 ∉ hostOps3_W)).trans <|
    (Wt6_keep m ρ c main_arg21 (by decide) (by decide)).trans <|
    (StableHlo.after_of_writes_sub hostOps2 _ hostOps2_writes (by decide : main_arg21 ∉ hostOps2_W)).trans <|
    (Wt4_keep m ρ c main_arg21 (by decide) (by decide)).trans <|
    (StableHlo.after_of_writes_sub hostOps1 _ hostOps1_writes (by decide : main_arg21 ∉ hostOps1_W)).trans <|
    (Wt2_keep m ρ c main_arg21 (by decide) (by decide)).trans <|
    (StableHlo.after_of_writes_sub hostOps0 _ hostOps0_writes (by decide : main_arg21 ∉ hostOps0_W))
theorem Wt15_main_arg22 (c : Dev nD) : Wt15 m ρ c (Proc.devRef .tc main_arg22) = m ((c : Thread nD τ).loc main_arg22) :=
  (StableHlo.after_of_writes_sub hostOps7 _ hostOps7_writes (by decide : main_arg22 ∉ hostOps7_W)).trans <|
    (Wt14_keep m ρ c main_arg22 (by decide) (by decide)).trans <|
    (StableHlo.after_of_writes_sub hostOps6 _ hostOps6_writes (by decide : main_arg22 ∉ hostOps6_W)).trans <|
    (Wt12_keep m ρ c main_arg22 (by decide) (by decide)).trans <|
    (StableHlo.after_of_writes_sub hostOps5 _ hostOps5_writes (by decide : main_arg22 ∉ hostOps5_W)).trans <|
    (Wt10_keep m ρ c main_arg22 (by decide) (by decide)).trans <|
    (StableHlo.after_of_writes_sub hostOps4 _ hostOps4_writes (by decide : main_arg22 ∉ hostOps4_W)).trans <|
    (Wt8_keep m ρ c main_arg22 (by decide) (by decide)).trans <|
    (StableHlo.after_of_writes_sub hostOps3 _ hostOps3_writes (by decide : main_arg22 ∉ hostOps3_W)).trans <|
    (Wt6_keep m ρ c main_arg22 (by decide) (by decide)).trans <|
    (StableHlo.after_of_writes_sub hostOps2 _ hostOps2_writes (by decide : main_arg22 ∉ hostOps2_W)).trans <|
    (Wt4_keep m ρ c main_arg22 (by decide) (by decide)).trans <|
    (StableHlo.after_of_writes_sub hostOps1 _ hostOps1_writes (by decide : main_arg22 ∉ hostOps1_W)).trans <|
    (Wt2_keep m ρ c main_arg22 (by decide) (by decide)).trans <|
    (StableHlo.after_of_writes_sub hostOps0 _ hostOps0_writes (by decide : main_arg22 ∉ hostOps0_W))

/-- Every pipeline's proof data, each at its region's entry contents. -/
def pdats : (p : Fin 7) → (c : Dev nD) → Dat τ (Elt F) Unit ℕ (UR sig nD τ) ℕ (Pipeline.pin (pcfgs (F := F)) adm p) c
  | ⟨0, _⟩ => fun c => dat0 (Vt1 m ρ) c
  | ⟨1, _⟩ => fun c => dat1 (Vt3 m ρ) c
  | ⟨2, _⟩ => fun c => dat2 (Vt5 m ρ) c
  | ⟨3, _⟩ => fun c => dat3 (Vt7 m ρ) c
  | ⟨4, _⟩ => fun c => dat4 (Vt9 m ρ) c
  | ⟨5, _⟩ => fun c => dat5 (Vt11 m ρ) c
  | ⟨6, _⟩ => fun c => dat6 (Vt13 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev Rr (c : Dev nD) : sProp 𝕄 := iprop((∃ r, prngReg c r) ∗ ∃ W, owes (c : Thread nD τ) (0 : CellTallies nD τ sig Unit) W)
/-- A host stretch as a segment over the buffers no scope hides. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Region 0 over the thread state: entered from every unhidden buffer at `Wt1`, left at `Wt2`. Its arrays are
    split out of those buffers and put back at the exit contents; the generator register goes into the invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vt1 m ρ) c).loose
  hwaits := Pipeline.hwaits_of_owed_zero _ _ _ _ L lv 0 fun _ _ => rfl
  pre c := iprop(StableHlo.held (c : Thread nD τ) (Pipeline.ucRefs τ sig) (Wt1 m ρ c) ∗ Rr c)
  post c := iprop(StableHlo.held (c : Thread nD τ) (Pipeline.ucRefs τ sig) (Wt2 m ρ c) ∗ Rr c)
  X c := iprop(∃ r, prngReg c r)
  Y c := iprop(∃ r, prngReg c r)
  Z c := Pipeline.unscopedRest (Ix := Unit) (Name := ℕ) (U := UR sig nD τ) (Lvl := ℕ) spec0 c (Vt1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vt1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vt1 m ρ) c); unfold Pipeline.ΦA
    iintro ⟨Hp, -, Hr⟩
    isplitl [Hr]; · iexact Hr
    iexact Hp
  hout c := by
    rw [Pipeline.ownSems0_none]
    refine BIBase.Entails.trans (hout0 (Vt1 m ρ) c) ?_; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vt1 m ρ c) (Vt2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unhidden buffer at `Wt3`, left at `Wt4`. Its arrays are
    split out of those buffers and put back at the exit contents; the generator register goes into the invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vt3 m ρ) c).loose
  hwaits := Pipeline.hwaits_of_owed_zero _ _ _ _ L lv 1 fun _ _ => rfl
  pre c := iprop(StableHlo.held (c : Thread nD τ) (Pipeline.ucRefs τ sig) (Wt3 m ρ c) ∗ Rr c)
  post c := iprop(StableHlo.held (c : Thread nD τ) (Pipeline.ucRefs τ sig) (Wt4 m ρ c) ∗ Rr c)
  X c := iprop(∃ r, prngReg c r)
  Y c := iprop(∃ r, prngReg c r)
  Z c := Pipeline.unscopedRest (Ix := Unit) (Name := ℕ) (U := UR sig nD τ) (Lvl := ℕ) spec1 c (Vt3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vt3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vt3 m ρ) c); unfold Pipeline.ΦA
    iintro ⟨Hp, -, Hr⟩
    isplitl [Hr]; · iexact Hr
    iexact Hp
  hout c := by
    rw [Pipeline.ownSems0_none]
    refine BIBase.Entails.trans (hout1 (Vt3 m ρ) c) ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vt3 m ρ c) (Vt4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unhidden buffer at `Wt5`, left at `Wt6`. Its arrays are
    split out of those buffers and put back at the exit contents; the generator register goes into the invariant and
    comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vt5 m ρ) c).loose
  hwaits := Pipeline.hwaits_of_owed_zero _ _ _ _ L lv 2 fun _ _ => rfl
  pre c := iprop(StableHlo.held (c : Thread nD τ) (Pipeline.ucRefs τ sig) (Wt5 m ρ c) ∗ Rr c)
  post c := iprop(StableHlo.held (c : Thread nD τ) (Pipeline.ucRefs τ sig) (Wt6 m ρ c) ∗ Rr c)
  X c := iprop(∃ r, prngReg c r)
  Y c := iprop(∃ r, prngReg c r)
  Z c := Pipeline.unscopedRest (Ix := Unit) (Name := ℕ) (U := UR sig nD τ) (Lvl := ℕ) spec2 c (Vt5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vt5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (Vt5 m ρ) c); unfold Pipeline.ΦA
    iintro ⟨Hp, -, Hr⟩
    isplitl [Hr]; · iexact Hr
    iexact Hp
  hout c := by
    rw [Pipeline.ownSems0_none]
    refine BIBase.Entails.trans (hout2 (Vt5 m ρ) c) ?_; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vt5 m ρ c) (Vt6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unhidden buffer at `Wt7`, left at `Wt8`. Its arrays are
    split out of those buffers and put back at the exit contents; the generator register goes into the invariant and
    comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vt7 m ρ) c).loose
  hwaits := Pipeline.hwaits_of_owed_zero _ _ _ _ L lv 3 fun _ _ => rfl
  pre c := iprop(StableHlo.held (c : Thread nD τ) (Pipeline.ucRefs τ sig) (Wt7 m ρ c) ∗ Rr c)
  post c := iprop(StableHlo.held (c : Thread nD τ) (Pipeline.ucRefs τ sig) (Wt8 m ρ c) ∗ Rr c)
  X c := iprop(∃ r, prngReg c r)
  Y c := iprop(∃ r, prngReg c r)
  Z c := Pipeline.unscopedRest (Ix := Unit) (Name := ℕ) (U := UR sig nD τ) (Lvl := ℕ) spec3 c (Vt7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vt7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (Vt7 m ρ) c); unfold Pipeline.ΦA
    iintro ⟨Hp, -, Hr⟩
    isplitl [Hr]; · iexact Hr
    iexact Hp
  hout c := by
    rw [Pipeline.ownSems0_none]
    refine BIBase.Entails.trans (hout3 (Vt7 m ρ) c) ?_; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vt7 m ρ c) (Vt8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unhidden buffer at `Wt9`, left at `Wt10`. Its arrays are
    split out of those buffers and put back at the exit contents; the generator register goes into the invariant and
    comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vt9 m ρ) c).loose
  hwaits := Pipeline.hwaits_of_owed_zero _ _ _ _ L lv 4 fun _ _ => rfl
  pre c := iprop(StableHlo.held (c : Thread nD τ) (Pipeline.ucRefs τ sig) (Wt9 m ρ c) ∗ Rr c)
  post c := iprop(StableHlo.held (c : Thread nD τ) (Pipeline.ucRefs τ sig) (Wt10 m ρ c) ∗ Rr c)
  X c := iprop(∃ r, prngReg c r)
  Y c := iprop(∃ r, prngReg c r)
  Z c := Pipeline.unscopedRest (Ix := Unit) (Name := ℕ) (U := UR sig nD τ) (Lvl := ℕ) spec4 c (Vt9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (Vt9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (Vt9 m ρ) c); unfold Pipeline.ΦA
    iintro ⟨Hp, -, Hr⟩
    isplitl [Hr]; · iexact Hr
    iexact Hp
  hout c := by
    rw [Pipeline.ownSems0_none]
    refine BIBase.Entails.trans (hout4 (Vt9 m ρ) c) ?_; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (Vt9 m ρ c) (Vt10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unhidden buffer at `Wt11`, left at `Wt12`. Its arrays are
    split out of those buffers and put back at the exit contents; the generator register goes into the invariant and
    comes back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vt11 m ρ) c).loose
  hwaits := Pipeline.hwaits_of_owed_zero _ _ _ _ L lv 5 fun _ _ => rfl
  pre c := iprop(StableHlo.held (c : Thread nD τ) (Pipeline.ucRefs τ sig) (Wt11 m ρ c) ∗ Rr c)
  post c := iprop(StableHlo.held (c : Thread nD τ) (Pipeline.ucRefs τ sig) (Wt12 m ρ c) ∗ Rr c)
  X c := iprop(∃ r, prngReg c r)
  Y c := iprop(∃ r, prngReg c r)
  Z c := Pipeline.unscopedRest (Ix := Unit) (Name := ℕ) (U := UR sig nD τ) (Lvl := ℕ) spec5 c (Vt11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (Vt11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin5 (Vt11 m ρ) c); unfold Pipeline.ΦA
    iintro ⟨Hp, -, Hr⟩
    isplitl [Hr]; · iexact Hr
    iexact Hp
  hout c := by
    rw [Pipeline.ownSems0_none]
    refine BIBase.Entails.trans (hout5 (Vt11 m ρ) c) ?_; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (Vt11 m ρ c) (Vt12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unhidden buffer at `Wt13`, left at `Wt14`. Its arrays are
    split out of those buffers and put back at the exit contents; the generator register goes into the invariant and
    comes back; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Vt13 m ρ) c).loose
  hwaits := Pipeline.hwaits_of_owed_zero _ _ _ _ L lv 6 fun _ _ => rfl
  pre c := iprop(StableHlo.held (c : Thread nD τ) (Pipeline.ucRefs τ sig) (Wt13 m ρ c) ∗ Rr c)
  post c := iprop(StableHlo.held (c : Thread nD τ) (Pipeline.ucRefs τ sig) (Wt14 m ρ c) ∗ Rr c)
  X c := iprop(∃ r, prngReg c r)
  Y c := iprop(∃ r, prngReg c r)
  Z c := Pipeline.unscopedRest (Ix := Unit) (Name := ℕ) (U := UR sig nD τ) (Lvl := ℕ) spec6 c (Vt13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (Vt13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin6 (Vt13 m ρ) c); unfold Pipeline.ΦA
    iintro ⟨Hp, -, Hr⟩
    isplitl [Hr]; · iexact Hr
    iexact Hp
  hout c := by
    rw [Pipeline.ownSems0_none]
    refine BIBase.Entails.trans (hout6 (Vt13 m ρ) c) ?_; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (Vt13 m ρ c) (Vt14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The last thread state without the `owes`: every unhidden buffer at `Wt15`, the generator register at some state. -/
abbrev Tn (c : Dev nD) : sProp 𝕄 := iprop(StableHlo.held (c : Thread nD τ) (Pipeline.ucRefs τ sig) (Wt15 m ρ c) ∗ ∃ r, prngReg c r)

/-- @main's fifteen segments in order. -/
abbrev segs : List (Pipeline.Seg (pcfgs (F := F)) adm (pdats m ρ) () defs₀ 𝒱₀ L lv) :=
  [ .host (hseg hostOps0 hostOps0_sub hostOps0_fresh (Wt0 m ρ)),
    .region (reg0 m ρ),
    .host (hseg hostOps1 hostOps1_sub hostOps1_fresh (Wt2 m ρ)),
    .region (reg1 m ρ),
    .host (hseg hostOps2 hostOps2_sub hostOps2_fresh (Wt4 m ρ)),
    .region (reg2 m ρ),
    .host (hseg hostOps3 hostOps3_sub hostOps3_fresh (Wt6 m ρ)),
    .region (reg3 m ρ),
    .host (hseg hostOps4 hostOps4_sub hostOps4_fresh (Wt8 m ρ)),
    .region (reg4 m ρ),
    .host (hseg hostOps5 hostOps5_sub hostOps5_fresh (Wt10 m ρ)),
    .region (reg5 m ρ),
    .host (hseg hostOps6 hostOps6_sub hostOps6_fresh (Wt12 m ρ)),
    .region (reg6 m ρ),
    .host (hseg hostOps7 hostOps7_sub hostOps7_fresh (Wt14 m ρ)) ]

theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    every final memory holds every unhidden buffer of every core at `Wt15`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = Wt15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wt0 m ρ c) ∗ Rr c)) (Tₙ := Tn m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (Wt15 m ρ c) ∗ Rr c) ⊢ iprop(Tn m ρ c ∗ ∃ W, owes (c : Thread nD τ) (0 : CellTallies nD τ sig Unit) W)
      unfold Rr Tn
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Wt0 m ρ c)
        from Pipeline.unscopedBufs_held c (Wt0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wt15 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wt15 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)
      ∧       r.2.mem ((c.tc : Thread nD τ).loc main_arg14) = m ((c.tc : Thread nD τ).loc main_arg14)
      ∧       r.2.mem ((c.tc : Thread nD τ).loc main_arg15) = m ((c.tc : Thread nD τ).loc main_arg15)
      ∧       r.2.mem ((c.tc : Thread nD τ).loc main_arg16) = m ((c.tc : Thread nD τ).loc main_arg16)
      ∧       r.2.mem ((c.tc : Thread nD τ).loc main_arg17) = m ((c.tc : Thread nD τ).loc main_arg17)
      ∧       r.2.mem ((c.tc : Thread nD τ).loc main_arg18) = m ((c.tc : Thread nD τ).loc main_arg18)
      ∧       r.2.mem ((c.tc : Thread nD τ).loc main_arg19) = m ((c.tc : Thread nD τ).loc main_arg19)
      ∧       r.2.mem ((c.tc : Thread nD τ).loc main_arg20) = m ((c.tc : Thread nD τ).loc main_arg20)
      ∧       r.2.mem ((c.tc : Thread nD τ).loc main_arg21) = m ((c.tc : Thread nD τ).loc main_arg21)
      ∧       r.2.mem ((c.tc : Thread nD τ).loc main_arg22) = m ((c.tc : Thread nD τ).loc main_arg22)) :=
  (θ_run defs _ _).mono (fun s h c =>
    ⟨(h c _ (mem_uc main_arg0 (by decide))).trans (Wt15_main_arg0 m ρ c),
     (h c _ (mem_uc main_arg1 (by decide))).trans (Wt15_main_arg1 m ρ c),
     (h c _ (mem_uc main_arg2 (by decide))).trans (Wt15_main_arg2 m ρ c),
     (h c _ (mem_uc main_arg3 (by decide))).trans (Wt15_main_arg3 m ρ c),
     (h c _ (mem_uc main_arg4 (by decide))).trans (Wt15_main_arg4 m ρ c),
     (h c _ (mem_uc main_arg5 (by decide))).trans (Wt15_main_arg5 m ρ c),
     (h c _ (mem_uc main_arg6 (by decide))).trans (Wt15_main_arg6 m ρ c),
     (h c _ (mem_uc main_arg7 (by decide))).trans (Wt15_main_arg7 m ρ c),
     (h c _ (mem_uc main_arg8 (by decide))).trans (Wt15_main_arg8 m ρ c),
     (h c _ (mem_uc main_arg9 (by decide))).trans (Wt15_main_arg9 m ρ c),
     (h c _ (mem_uc main_arg10 (by decide))).trans (Wt15_main_arg10 m ρ c),
     (h c _ (mem_uc main_arg11 (by decide))).trans (Wt15_main_arg11 m ρ c),
     (h c _ (mem_uc main_arg12 (by decide))).trans (Wt15_main_arg12 m ρ c),
     (h c _ (mem_uc main_arg13 (by decide))).trans (Wt15_main_arg13 m ρ c),
     (h c _ (mem_uc main_arg14 (by decide))).trans (Wt15_main_arg14 m ρ c),
     (h c _ (mem_uc main_arg15 (by decide))).trans (Wt15_main_arg15 m ρ c),
     (h c _ (mem_uc main_arg16 (by decide))).trans (Wt15_main_arg16 m ρ c),
     (h c _ (mem_uc main_arg17 (by decide))).trans (Wt15_main_arg17 m ρ c),
     (h c _ (mem_uc main_arg18 (by decide))).trans (Wt15_main_arg18 m ρ c),
     (h c _ (mem_uc main_arg19 (by decide))).trans (Wt15_main_arg19 m ρ c),
     (h c _ (mem_uc main_arg20 (by decide))).trans (Wt15_main_arg20 m ρ c),
     (h c _ (mem_uc main_arg21 (by decide))).trans (Wt15_main_arg21 m ρ c),
     (h c _ (mem_uc main_arg22 (by decide))).trans (Wt15_main_arg22 m ρ c)⟩) (run_all m ρ)

end Cert.Kernel.Hand

end
-- ==== Proof.KernelIdeal.C0.lean ====
import proofs.«152868_j57621281243253_2_alg».proof.Proof.Gen.KernelIdeal.Launch
import proofs.«152868_j57621281243253_2_alg».proof.Proof.Gen.KernelIdeal.Skeleton
import proofs.«152868_j57621281243253_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 0: where on its grid the body's two conditionals hold, where its output windows are idle, and the
    memrefs the body is called with. The body resets its accumulator when the last grid coordinate is 0 and stores
    its two outputs when that coordinate is the last one. -/

/-- The accumulator is reset: the last grid coordinate is 0. -/
abbrev cond0_0 (i : grid0.Coords) : Prop := (Scalar.cmpi .ne (Scalar.extui (Scalar.cmpi .eq (BitVec.ofNat 32 (i 2).val) 0#32)) 0#32) = 1#1
/-- The outputs are stored: the last grid coordinate is the last one. -/
abbrev cond0_1 (i : grid0.Coords) : Prop := k0_cond2 i = 1#1

theorem hcond0_0 : ∀ t : Fin cfg0.N, cond0_0 (grid0.coords t) ↔ t.val % 8 = 0 :=
  (by decide +kernel : ∀ t : Fin grid0.N, cond0_0 (grid0.coords t) ↔ t.val % 8 = 0)
theorem hcond0_1 : ∀ t : Fin cfg0.N, cond0_1 (grid0.coords t) ↔ t.val % 8 = 7 :=
  (by decide +kernel : ∀ t : Fin grid0.N, cond0_1 (grid0.coords t) ↔ t.val % 8 = 7)
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cond0_1 (grid0.coords t) → cfg0.idle 4 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_5 : ∀ t : Fin cfg0.N, cond0_1 (grid0.coords t) → cfg0.idle 5 (grid0.coords t) = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel

/-- One staging buffer of each output window, through which its contents are stated. -/
abbrev VO0_4 : View sig .tc .vmem S512x512 .f32 := (Memref.whole cc0_stg4_0 : Memref sig .tc .vmem S512x512 .f32).view
abbrev VO0_5 : View sig .tc .vmem S512x512 .bf16 := (Memref.whole cc0_stg5_0 : Memref sig .tc .vmem S512x512 .bf16).view
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x512 .bf16 := win0_5.stage (cfg0.slots t 5)
abbrev hs0_5 (t : Fin cfg0.N) : (ms0_5 t).IsWhole := hstage0_5 ((cfg0.slots t 5).cast nbuf0_5)
/-- The accumulator: a whole buffer of the kernel's own, passed beside the windows. -/
abbrev scM0 : Memref sig .tc .vmem S512x512 .f32 := Memref.whole cc0_scratch0
abbrev VS0 : View sig .tc .vmem S512x512 .f32 := (scM0).view

/-- The region's invariant, opened at the accumulator: it at some contents, every other buffer the region does not
    stage unopened, the generator register at some state. -/
theorem PhiA0_eq (c : Dev nD) :
    (Pipeline.ΦA spec0 c : sProp 𝕄)
      = iprop(iprop((∃ d, owns (c : Thread nD τ) scM0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

end Cert.KernelIdeal.Hand

end
-- ==== Proof.KernelIdeal.Run0A.lean ====
import proofs.«152868_j57621281243253_2_alg».proof.Proof.KernelIdeal.C0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 0, the body run whole in one case of its two conditionals (the accumulator is reset, the outputs are left alone):
    on whole staging memrefs holding the input blocks, the body runs to its end; what it leaves in the accumulator
    is found by the run as a list of stored pieces. -/

set_option maxHeartbeats 1000000 in
noncomputable def kernelRun0_A (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : cond0_0 i) (hc1 : ¬cond0_1 i)
    (x0 : Vec F S512x1024 .f32) (x1 : Vec F S512x1024 .f32) (x2 : Vec F S512x1024 .f32) (x3 : Vec F S1x512 .f32) :
    Σ' (L4 : List (View.Piece (Elt F) S512x512 .f32)) (L5 : List (View.Piece (Elt F) S512x512 .bf16)), { LS0 : List (View.Piece (Elt F) S512x512 .f32) //
      ∀ (xi4 : Vec F S512x512 .f32) (xi5 : Vec F S512x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi4 ∗ owns (c : Thread nD τ) arg8 fullShare xi5
                ∗ (∃ f, arg9.view.loc (c : Thread nD τ) ↦[arg9.view.set]{fullShare} arg9.view.writes (Elt F) f LS0)) -∗ K ⟨⟩))
          ⊢ wp frame (wpE (defs₀ (F := F)) Variants.none c none) E (cc0__layer_kernel i arg3 harg3 arg4 harg4 arg5 harg5 arg6 harg6 arg7 harg7 arg8 harg8 arg9 harg9) K } := by
  refine ⟨[], [], ?_, fun xi4 xi5 E K => ?run⟩
  case run =>
    simp only [cc0__layer_kernel_eq_skeleton]; unfold cc0__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Hand

end
-- ==== Proof.KernelIdeal.Run0B.lean ====
import proofs.«152868_j57621281243253_2_alg».proof.Proof.KernelIdeal.C0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 0, the body run whole in one case of its two conditionals (the accumulator is carried in, the outputs are left alone):
    on whole staging memrefs holding the input blocks, the body runs to its end; what it leaves in the accumulator
    is found by the run as a list of stored pieces. -/

set_option maxHeartbeats 1000000 in
noncomputable def kernelRun0_B (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond0_0 i) (hc1 : ¬cond0_1 i)
    (x0 : Vec F S512x1024 .f32) (x1 : Vec F S512x1024 .f32) (x2 : Vec F S512x1024 .f32) (x3 : Vec F S1x512 .f32) (xs0 : Vec F S512x512 .f32) :
    Σ' (L4 : List (View.Piece (Elt F) S512x512 .f32)) (L5 : List (View.Piece (Elt F) S512x512 .bf16)), { LS0 : List (View.Piece (Elt F) S512x512 .f32) //
      ∀ (xi4 : Vec F S512x512 .f32) (xi5 : Vec F S512x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi4 ∗ owns (c : Thread nD τ) arg8 fullShare xi5
                ∗ (∃ f, arg9.view.loc (c : Thread nD τ) ↦[arg9.view.set]{fullShare} arg9.view.writes (Elt F) f LS0)) -∗ K ⟨⟩))
          ⊢ wp frame (wpE (defs₀ (F := F)) Variants.none c none) E (cc0__layer_kernel i arg3 harg3 arg4 harg4 arg5 harg5 arg6 harg6 arg7 harg7 arg8 harg8 arg9 harg9) K } := by
  refine ⟨[], [], ?_, fun xi4 xi5 E K => ?run⟩
  case run =>
    simp only [cc0__layer_kernel_eq_skeleton]; unfold cc0__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Hand

end
-- ==== Proof.KernelIdeal.Run0C.lean ====
import proofs.«152868_j57621281243253_2_alg».proof.Proof.KernelIdeal.C0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 0, the body run whole in one case of its two conditionals (the accumulator is carried in, the outputs are stored):
    on whole staging memrefs holding the input blocks, the body runs to its end; what it leaves in the accumulator
    and in the two output buffers is found by the run as a list of stored pieces. -/

set_option maxHeartbeats 1000000 in
noncomputable def kernelRun0_C (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond0_0 i) (hc1 : cond0_1 i)
    (x0 : Vec F S512x1024 .f32) (x1 : Vec F S512x1024 .f32) (x2 : Vec F S512x1024 .f32) (x3 : Vec F S1x512 .f32) (xs0 : Vec F S512x512 .f32) :
    Σ' (L4 : List (View.Piece (Elt F) S512x512 .f32)) (L5 : List (View.Piece (Elt F) S512x512 .bf16)), { LS0 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5)
                ∗ (∃ f, arg9.view.loc (c : Thread nD τ) ↦[arg9.view.set]{fullShare} arg9.view.writes (Elt F) f LS0)) -∗ K ⟨⟩))
          ⊢ wp frame (wpE (defs₀ (F := F)) Variants.none c none) E (cc0__layer_kernel i arg3 harg3 arg4 harg4 arg5 harg5 arg6 harg6 arg7 harg7 arg8 harg8 arg9 harg9) K } := by
  refine ⟨?_, ?_, ?_, fun E K => ?run⟩
  case run =>
    simp only [cc0__layer_kernel_eq_skeleton]; unfold cc0__layer_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    iexists _; iexact HS0

end Cert.KernelIdeal.Hand

end
-- ==== Proof.KernelIdeal.Rgn0.lean ====
import proofs.«152868_j57621281243253_2_alg».proof.Proof.KernelIdeal.Run0A
import proofs.«152868_j57621281243253_2_alg».proof.Proof.KernelIdeal.Run0B
import proofs.«152868_j57621281243253_2_alg».proof.Proof.KernelIdeal.Run0C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 0 over any contents `V` of the buffers at its entry: what each output window's staging buffer and the
    accumulator hold after the body at every grid point, the proof data of the region's pipeline, and the body
    obligation. The grid's last coordinate runs over 8 steps: the first resets the accumulator, every step adds its product, the last stores both outputs; in between the outputs' buffers are left alone and the accumulator is carried. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- What case A leaves in output window 4's staging buffer: its pieces read back (none: a placeholder nothing consults, the window being idle and not written back at these points). -/
def out0_A_4 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : cond0_0 i) (hc1 : ¬cond0_1 i)
    (x0 : Vec F S512x1024 .f32) (x1 : Vec F S512x1024 .f32) (x2 : Vec F S512x1024 .f32) (x3 : Vec F S1x512 .f32) : Vec F S512x512 .f32 :=
  VO0_4.read (Elt F) (VO0_4.writes (Elt F) VO0_4.junk (kernelRun0_A c i arg3 harg3 arg4 harg4 arg5 harg5 arg6 harg6 arg7 harg7 arg8 harg8 arg9 harg9 hc0 hc1 x0 x1 x2 x3).1)
/-- The same for output window 5. -/
def out0_A_5 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : cond0_0 i) (hc1 : ¬cond0_1 i)
    (x0 : Vec F S512x1024 .f32) (x1 : Vec F S512x1024 .f32) (x2 : Vec F S512x1024 .f32) (x3 : Vec F S1x512 .f32) : Vec F S512x512 .bf16 :=
  VO0_5.read (Elt F) (VO0_5.writes (Elt F) VO0_5.junk (kernelRun0_A c i arg3 harg3 arg4 harg4 arg5 harg5 arg6 harg6 arg7 harg7 arg8 harg8 arg9 harg9 hc0 hc1 x0 x1 x2 x3).2.1)
/-- The pieces case A stores into the accumulator cover it. -/
theorem scover0_A (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : cond0_0 i) (hc1 : ¬cond0_1 i)
    (x0 : Vec F S512x1024 .f32) (x1 : Vec F S512x1024 .f32) (x2 : Vec F S512x1024 .f32) (x3 : Vec F S1x512 .f32) (y : S512x512.Idx) :
    ∃ pc ∈ (kernelRun0_A c i arg3 harg3 arg4 harg4 arg5 harg5 arg6 harg6 arg7 harg7 arg8 harg8 arg9 harg9 hc0 hc1 x0 x1 x2 x3).2.2.1, y ∈ pc.1.set :=
  View.cover_of_tiledL (kernelRun0_A c i arg3 harg3 arg4 harg4 arg5 harg5 arg6 harg6 arg7 harg7 arg8 harg8 arg9 harg9 hc0 hc1 x0 x1 x2 x3).2.2.1 S512x512.size (by sl_kernel_rfl) y
/-- What case A leaves in the accumulator. -/
def sout0_A (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : cond0_0 i) (hc1 : ¬cond0_1 i)
    (x0 : Vec F S512x1024 .f32) (x1 : Vec F S512x1024 .f32) (x2 : Vec F S512x1024 .f32) (x3 : Vec F S1x512 .f32) : Vec F S512x512 .f32 :=
  VS0.read (Elt F) (VS0.writes (Elt F) VS0.junk (kernelRun0_A c i arg3 harg3 arg4 harg4 arg5 harg5 arg6 harg6 arg7 harg7 arg8 harg8 arg9 harg9 hc0 hc1 x0 x1 x2 x3).2.2.1)

/-- What case B leaves in output window 4's staging buffer: its pieces read back (none: a placeholder nothing consults, the window being idle and not written back at these points). -/
def out0_B_4 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond0_0 i) (hc1 : ¬cond0_1 i)
    (x0 : Vec F S512x1024 .f32) (x1 : Vec F S512x1024 .f32) (x2 : Vec F S512x1024 .f32) (x3 : Vec F S1x512 .f32) (xs0 : Vec F S512x512 .f32) : Vec F S512x512 .f32 :=
  VO0_4.read (Elt F) (VO0_4.writes (Elt F) VO0_4.junk (kernelRun0_B c i arg3 harg3 arg4 harg4 arg5 harg5 arg6 harg6 arg7 harg7 arg8 harg8 arg9 harg9 hc0 hc1 x0 x1 x2 x3 xs0).1)
/-- The same for output window 5. -/
def out0_B_5 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond0_0 i) (hc1 : ¬cond0_1 i)
    (x0 : Vec F S512x1024 .f32) (x1 : Vec F S512x1024 .f32) (x2 : Vec F S512x1024 .f32) (x3 : Vec F S1x512 .f32) (xs0 : Vec F S512x512 .f32) : Vec F S512x512 .bf16 :=
  VO0_5.read (Elt F) (VO0_5.writes (Elt F) VO0_5.junk (kernelRun0_B c i arg3 harg3 arg4 harg4 arg5 harg5 arg6 harg6 arg7 harg7 arg8 harg8 arg9 harg9 hc0 hc1 x0 x1 x2 x3 xs0).2.1)
/-- The pieces case B stores into the accumulator cover it. -/
theorem scover0_B (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond0_0 i) (hc1 : ¬cond0_1 i)
    (x0 : Vec F S512x1024 .f32) (x1 : Vec F S512x1024 .f32) (x2 : Vec F S512x1024 .f32) (x3 : Vec F S1x512 .f32) (xs0 : Vec F S512x512 .f32) (y : S512x512.Idx) :
    ∃ pc ∈ (kernelRun0_B c i arg3 harg3 arg4 harg4 arg5 harg5 arg6 harg6 arg7 harg7 arg8 harg8 arg9 harg9 hc0 hc1 x0 x1 x2 x3 xs0).2.2.1, y ∈ pc.1.set :=
  View.cover_of_tiledL (kernelRun0_B c i arg3 harg3 arg4 harg4 arg5 harg5 arg6 harg6 arg7 harg7 arg8 harg8 arg9 harg9 hc0 hc1 x0 x1 x2 x3 xs0).2.2.1 S512x512.size (by sl_kernel_rfl) y
/-- What case B leaves in the accumulator. -/
def sout0_B (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond0_0 i) (hc1 : ¬cond0_1 i)
    (x0 : Vec F S512x1024 .f32) (x1 : Vec F S512x1024 .f32) (x2 : Vec F S512x1024 .f32) (x3 : Vec F S1x512 .f32) (xs0 : Vec F S512x512 .f32) : Vec F S512x512 .f32 :=
  VS0.read (Elt F) (VS0.writes (Elt F) VS0.junk (kernelRun0_B c i arg3 harg3 arg4 harg4 arg5 harg5 arg6 harg6 arg7 harg7 arg8 harg8 arg9 harg9 hc0 hc1 x0 x1 x2 x3 xs0).2.2.1)

/-- The pieces case C stores into output window 4 tile its block, so they cover it. -/
theorem cover0_C_4 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond0_0 i) (hc1 : cond0_1 i)
    (x0 : Vec F S512x1024 .f32) (x1 : Vec F S512x1024 .f32) (x2 : Vec F S512x1024 .f32) (x3 : Vec F S1x512 .f32) (xs0 : Vec F S512x512 .f32) (y : S512x512.Idx) :
    ∃ pc ∈ (kernelRun0_C c i arg3 harg3 arg4 harg4 arg5 harg5 arg6 harg6 arg7 harg7 arg8 harg8 arg9 harg9 hc0 hc1 x0 x1 x2 x3 xs0).1, y ∈ pc.1.set :=
  View.cover_of_tiledL (kernelRun0_C c i arg3 harg3 arg4 harg4 arg5 harg5 arg6 harg6 arg7 harg7 arg8 harg8 arg9 harg9 hc0 hc1 x0 x1 x2 x3 xs0).1 S512x512.size (by sl_kernel_rfl) y
/-- The same for output window 5. -/
theorem cover0_C_5 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond0_0 i) (hc1 : cond0_1 i)
    (x0 : Vec F S512x1024 .f32) (x1 : Vec F S512x1024 .f32) (x2 : Vec F S512x1024 .f32) (x3 : Vec F S1x512 .f32) (xs0 : Vec F S512x512 .f32) (y : S512x512.Idx) :
    ∃ pc ∈ (kernelRun0_C c i arg3 harg3 arg4 harg4 arg5 harg5 arg6 harg6 arg7 harg7 arg8 harg8 arg9 harg9 hc0 hc1 x0 x1 x2 x3 xs0).2.1, y ∈ pc.1.set :=
  View.cover_of_tiledL (kernelRun0_C c i arg3 harg3 arg4 harg4 arg5 harg5 arg6 harg6 arg7 harg7 arg8 harg8 arg9 harg9 hc0 hc1 x0 x1 x2 x3 xs0).2.1 S512x512.size (by sl_kernel_rfl) y

/-- What case C leaves in output window 4's staging buffer: its pieces read back. -/
def out0_C_4 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond0_0 i) (hc1 : cond0_1 i)
    (x0 : Vec F S512x1024 .f32) (x1 : Vec F S512x1024 .f32) (x2 : Vec F S512x1024 .f32) (x3 : Vec F S1x512 .f32) (xs0 : Vec F S512x512 .f32) : Vec F S512x512 .f32 :=
  VO0_4.read (Elt F) (VO0_4.writes (Elt F) VO0_4.junk (kernelRun0_C c i arg3 harg3 arg4 harg4 arg5 harg5 arg6 harg6 arg7 harg7 arg8 harg8 arg9 harg9 hc0 hc1 x0 x1 x2 x3 xs0).1)
/-- The same for output window 5. -/
def out0_C_5 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond0_0 i) (hc1 : cond0_1 i)
    (x0 : Vec F S512x1024 .f32) (x1 : Vec F S512x1024 .f32) (x2 : Vec F S512x1024 .f32) (x3 : Vec F S1x512 .f32) (xs0 : Vec F S512x512 .f32) : Vec F S512x512 .bf16 :=
  VO0_5.read (Elt F) (VO0_5.writes (Elt F) VO0_5.junk (kernelRun0_C c i arg3 harg3 arg4 harg4 arg5 harg5 arg6 harg6 arg7 harg7 arg8 harg8 arg9 harg9 hc0 hc1 x0 x1 x2 x3 xs0).2.1)
/-- The pieces case C stores into the accumulator cover it. -/
theorem scover0_C (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond0_0 i) (hc1 : cond0_1 i)
    (x0 : Vec F S512x1024 .f32) (x1 : Vec F S512x1024 .f32) (x2 : Vec F S512x1024 .f32) (x3 : Vec F S1x512 .f32) (xs0 : Vec F S512x512 .f32) (y : S512x512.Idx) :
    ∃ pc ∈ (kernelRun0_C c i arg3 harg3 arg4 harg4 arg5 harg5 arg6 harg6 arg7 harg7 arg8 harg8 arg9 harg9 hc0 hc1 x0 x1 x2 x3 xs0).2.2.1, y ∈ pc.1.set :=
  View.cover_of_tiledL (kernelRun0_C c i arg3 harg3 arg4 harg4 arg5 harg5 arg6 harg6 arg7 harg7 arg8 harg8 arg9 harg9 hc0 hc1 x0 x1 x2 x3 xs0).2.2.1 S512x512.size (by sl_kernel_rfl) y
/-- What case C leaves in the accumulator. -/
def sout0_C (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond0_0 i) (hc1 : cond0_1 i)
    (x0 : Vec F S512x1024 .f32) (x1 : Vec F S512x1024 .f32) (x2 : Vec F S512x1024 .f32) (x3 : Vec F S1x512 .f32) (xs0 : Vec F S512x512 .f32) : Vec F S512x512 .f32 :=
  VS0.read (Elt F) (VS0.writes (Elt F) VS0.junk (kernelRun0_C c i arg3 harg3 arg4 harg4 arg5 harg5 arg6 harg6 arg7 harg7 arg8 harg8 arg9 harg9 hc0 hc1 x0 x1 x2 x3 xs0).2.2.1)

/-- THE ACCUMULATION. What the two outputs' staging buffers and the accumulator hold after the body at position `n`
    (a triple): the case the closed forms select at `n`, run at the point's memrefs and input blocks, the accumulator
    carried in at what position `n - 1` left. -/
def outsAt0 (c : Dev nD) : (n : ℕ) → n < cfg0.N → Vec F S512x512 .f32 × Vec F S512x512 .bf16 × Vec F S512x512 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 8 = 0 then
      if h1 : (n + 1) % 8 = 7 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 8 = 7 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2)

theorem outsAt0_A (c : Dev nD) (t : Fin cfg0.N) (h0 : t.val % 8 = 0) (h1 : ¬t.val % 8 = 7) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h0) (fun h => h1 ((hcond0_1 t).mp h)) (iblk0 V c 0 t) (iblk0 V c 1 t) (iblk0 V c 2 t) (iblk0 V c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h0) (fun h => h1 ((hcond0_1 t).mp h)) (iblk0 V c 0 t) (iblk0 V c 1 t) (iblk0 V c 2 t) (iblk0 V c 3 t), sout0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

theorem outsAt0_C (c : Dev nD) (t : Fin cfg0.N) (h0 : ¬t.val % 8 = 0) (h1 : t.val % 8 = 7) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2, sout0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

theorem outsAt0_B (c : Dev nD) (t : Fin cfg0.N) (h0 : ¬t.val % 8 = 0) (h1 : ¬t.val % 8 = 7) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2, sout0_B c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- The region's invariant before position `n`: before the first point every buffer the region does not stage at
    anything; afterwards the accumulator at what the point before left in it. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2.2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2.2) ∗ Pipeline.scopedRestBut (Ix := Unit) (Name := ℕ) (U := UR sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2.2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- The proof data of region 0's pipeline on core `c`: the arrays as the region finds them; after the body at point
    `t` each input's buffer at its block and the outputs' at what the point leaves; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

theorem PhiS0_castSucc (c : Dev nD) (t : Fin cfg0.N) :
    (dat0 V c).Φ t.castSucc = PhiS0 V c t.val (Nat.le_of_lt t.isLt) := by
  dsimp only [dat0]; simp only [Fin.coe_castSucc]

set_option maxHeartbeats 4800000 in
/-- The body at any point: the inputs' memrefs hold their blocks; the closed forms say which case the point is in;
    the invariant hands the body the accumulator at what the point before left (at anything before the first point) and
    takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 512 := lt_of_lt_of_eq t.isLt (show cfg0.N = 512 from N_0)
  by_cases h0 : t.val % 8 = 0
  · by_cases h1 : t.val % 8 = 7
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4 t (fun h => h1 ((hcond0_1 t).mp h))) (noFlush0_4 t (fun h => h1 ((hcond0_1 t).mp h)))]
      rw [Dat.leavesExact_idle (dat0 V c) 5 t (idleAt0_5 t (fun h => h1 ((hcond0_1 t).mp h))) (noFlush0_5 t (fun h => h1 ((hcond0_1 t).mp h)))]
      rw [outsAt0_A V c t h0 h1]
      unfold sout0_A; (try dsimp only)
      by_cases hz : t.val = 0
      ·
        rw [PhiS0_castSucc V c t, PhiS0_zero V c _ _ hz, PhiA0_eq]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5
      ·
        rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5

  · by_cases h1 : t.val % 8 = 7
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t ((hcond0_1 t).mpr h1)], after0_4]
      rw [show (dat0 V c).leavesExact 5 t = owns (c : Thread nD τ) (ms0_5 t) fullShare ((dat0 V c).after 5 t) from by
        unfold Dat.leavesExact; rw [liveAt0_5 t ((hcond0_1 t).mpr h1)], after0_5]
      rw [outsAt0_C V c t h0 h1]
      unfold out0_C_4 out0_C_5 sout0_C; (try dsimp only)
      have hz : t.val ≠ 0 := by omega
      ·
        rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) _).2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        iintro ⟨H0, H1, H2, H3, ⟨%e4, H4⟩, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_C_4 c _ _ _ _ _ _ _ _ _ _ _ _ _ _ _ _ _ _ _ _ _ _)
        unfold owns; iexists _; isplitr
        swap; · iexact H5
        ipureintro; exact View.read_writes_of_cover _ _ _ _ _ (cover0_C_5 c _ _ _ _ _ _ _ _ _ _ _ _ _ _ _ _ _ _ _ _ _ _)

    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4 t (fun h => h1 ((hcond0_1 t).mp h))) (noFlush0_4 t (fun h => h1 ((hcond0_1 t).mp h)))]
      rw [Dat.leavesExact_idle (dat0 V c) 5 t (idleAt0_5 t (fun h => h1 ((hcond0_1 t).mp h))) (noFlush0_5 t (fun h => h1 ((hcond0_1 t).mp h)))]
      rw [outsAt0_B V c t h0 h1]
      unfold sout0_B; (try dsimp only)
      have hz : t.val ≠ 0 := by omega
      ·
        rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg
theorem hout0 (c : Dev nD) : (dat0 V c).Φ (Fin.last cfg0.N) ⊢ Pipeline.ΦA spec0 c :=
  Phi_out0 V c _ (by rw [Fin.val_last]; have : cfg0.N = 512 := N_0; omega)

end Cert.KernelIdeal.Hand

end
-- ==== Proof.KernelIdeal.C1.lean ====
import proofs.«152868_j57621281243253_2_alg».proof.Proof.Gen.KernelIdeal.Launch
import proofs.«152868_j57621281243253_2_alg».proof.Proof.Gen.KernelIdeal.Skeleton
import proofs.«152868_j57621281243253_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 1: where on its grid the body's two conditionals hold, where its output windows are idle, and the
    memrefs the body is called with. The body resets its accumulator when the last grid coordinate is 0 and stores
    its two outputs when that coordinate is the last one. -/

/-- The accumulator is reset: the last grid coordinate is 0. -/
abbrev cond1_0 (i : grid1.Coords) : Prop := (Scalar.cmpi .ne (Scalar.extui (Scalar.cmpi .eq (BitVec.ofNat 32 (i 2).val) 0#32)) 0#32) = 1#1
/-- The outputs are stored: the last grid coordinate is the last one. -/
abbrev cond1_1 (i : grid1.Coords) : Prop := k1_cond2 i = 1#1

theorem hcond1_0 : ∀ t : Fin cfg1.N, cond1_0 (grid1.coords t) ↔ t.val % 4 = 0 :=
  (by decide +kernel : ∀ t : Fin grid1.N, cond1_0 (grid1.coords t) ↔ t.val % 4 = 0)
theorem hcond1_1 : ∀ t : Fin cfg1.N, cond1_1 (grid1.coords t) ↔ t.val % 4 = 3 :=
  (by decide +kernel : ∀ t : Fin grid1.N, cond1_1 (grid1.coords t) ↔ t.val % 4 = 3)
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cond1_1 (grid1.coords t) → cfg1.idle 4 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_5 : ∀ t : Fin cfg1.N, cond1_1 (grid1.coords t) → cfg1.idle 5 (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel

/-- One staging buffer of each output window, through which its contents are stated. -/
abbrev VO1_4 : View sig .tc .vmem S512x512 .f32 := (Memref.whole cc1_stg4_0 : Memref sig .tc .vmem S512x512 .f32).view
abbrev VO1_5 : View sig .tc .vmem S512x512 .bf16 := (Memref.whole cc1_stg5_0 : Memref sig .tc .vmem S512x512 .bf16).view
abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x512 .bf16 := win1_5.stage (cfg1.slots t 5)
abbrev hs1_5 (t : Fin cfg1.N) : (ms1_5 t).IsWhole := hstage1_5 ((cfg1.slots t 5).cast nbuf1_5)
/-- The accumulator: a whole buffer of the kernel's own, passed beside the windows. -/
abbrev scM1 : Memref sig .tc .vmem S512x512 .f32 := Memref.whole cc1_scratch0
abbrev VS1 : View sig .tc .vmem S512x512 .f32 := (scM1).view

/-- The region's invariant, opened at the accumulator: it at some contents, every other buffer the region does not
    stage unopened, the generator register at some state. -/
theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

end Cert.KernelIdeal.Hand

end
-- ==== Proof.KernelIdeal.Run1A.lean ====
import proofs.«152868_j57621281243253_2_alg».proof.Proof.KernelIdeal.C1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 1, the body run whole in one case of its two conditionals (the accumulator is reset, the outputs are left alone):
    on whole staging memrefs holding the input blocks, the body runs to its end; what it leaves in the accumulator
    is found by the run as a list of stored pieces. -/

set_option maxHeartbeats 1000000 in
noncomputable def kernelRun1_A (c : Dev nD) (i : grid1.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : cond1_0 i) (hc1 : ¬cond1_1 i)
    (x0 : Vec F S512x1024 .bf16) (x1 : Vec F S512x1024 .f32) (x2 : Vec F S512x1024 .f32) (x3 : Vec F S1x512 .f32) :
    Σ' (L4 : List (View.Piece (Elt F) S512x512 .f32)) (L5 : List (View.Piece (Elt F) S512x512 .bf16)), { LS0 : List (View.Piece (Elt F) S512x512 .f32) //
      ∀ (xi4 : Vec F S512x512 .f32) (xi5 : Vec F S512x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi4 ∗ owns (c : Thread nD τ) arg8 fullShare xi5
                ∗ (∃ f, arg9.view.loc (c : Thread nD τ) ↦[arg9.view.set]{fullShare} arg9.view.writes (Elt F) f LS0)) -∗ K ⟨⟩))
          ⊢ wp frame (wpE (defs₀ (F := F)) Variants.none c none) E (cc1__layer_kernel i arg3 harg3 arg4 harg4 arg5 harg5 arg6 harg6 arg7 harg7 arg8 harg8 arg9 harg9) K } := by
  refine ⟨[], [], ?_, fun xi4 xi5 E K => ?run⟩
  case run =>
    simp only [cc1__layer_kernel_eq_skeleton]; unfold cc1__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Hand

end
-- ==== Proof.KernelIdeal.Run1B.lean ====
import proofs.«152868_j57621281243253_2_alg».proof.Proof.KernelIdeal.C1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 1, the body run whole in one case of its two conditionals (the accumulator is carried in, the outputs are left alone):
    on whole staging memrefs holding the input blocks, the body runs to its end; what it leaves in the accumulator
    is found by the run as a list of stored pieces. -/

set_option maxHeartbeats 1000000 in
noncomputable def kernelRun1_B (c : Dev nD) (i : grid1.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond1_0 i) (hc1 : ¬cond1_1 i)
    (x0 : Vec F S512x1024 .bf16) (x1 : Vec F S512x1024 .f32) (x2 : Vec F S512x1024 .f32) (x3 : Vec F S1x512 .f32) (xs0 : Vec F S512x512 .f32) :
    Σ' (L4 : List (View.Piece (Elt F) S512x512 .f32)) (L5 : List (View.Piece (Elt F) S512x512 .bf16)), { LS0 : List (View.Piece (Elt F) S512x512 .f32) //
      ∀ (xi4 : Vec F S512x512 .f32) (xi5 : Vec F S512x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi4 ∗ owns (c : Thread nD τ) arg8 fullShare xi5
                ∗ (∃ f, arg9.view.loc (c : Thread nD τ) ↦[arg9.view.set]{fullShare} arg9.view.writes (Elt F) f LS0)) -∗ K ⟨⟩))
          ⊢ wp frame (wpE (defs₀ (F := F)) Variants.none c none) E (cc1__layer_kernel i arg3 harg3 arg4 harg4 arg5 harg5 arg6 harg6 arg7 harg7 arg8 harg8 arg9 harg9) K } := by
  refine ⟨[], [], ?_, fun xi4 xi5 E K => ?run⟩
  case run =>
    simp only [cc1__layer_kernel_eq_skeleton]; unfold cc1__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Hand

end
-- ==== Proof.KernelIdeal.Run1C.lean ====
import proofs.«152868_j57621281243253_2_alg».proof.Proof.KernelIdeal.C1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 1, the body run whole in one case of its two conditionals (the accumulator is carried in, the outputs are stored):
    on whole staging memrefs holding the input blocks, the body runs to its end; what it leaves in the accumulator
    and in the two output buffers is found by the run as a list of stored pieces. -/

set_option maxHeartbeats 1000000 in
noncomputable def kernelRun1_C (c : Dev nD) (i : grid1.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond1_0 i) (hc1 : cond1_1 i)
    (x0 : Vec F S512x1024 .bf16) (x1 : Vec F S512x1024 .f32) (x2 : Vec F S512x1024 .f32) (x3 : Vec F S1x512 .f32) (xs0 : Vec F S512x512 .f32) :
    Σ' (L4 : List (View.Piece (Elt F) S512x512 .f32)) (L5 : List (View.Piece (Elt F) S512x512 .bf16)), { LS0 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5)
                ∗ (∃ f, arg9.view.loc (c : Thread nD τ) ↦[arg9.view.set]{fullShare} arg9.view.writes (Elt F) f LS0)) -∗ K ⟨⟩))
          ⊢ wp frame (wpE (defs₀ (F := F)) Variants.none c none) E (cc1__layer_kernel i arg3 harg3 arg4 harg4 arg5 harg5 arg6 harg6 arg7 harg7 arg8 harg8 arg9 harg9) K } := by
  refine ⟨?_, ?_, ?_, fun E K => ?run⟩
  case run =>
    simp only [cc1__layer_kernel_eq_skeleton]; unfold cc1__layer_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    iexists _; iexact HS0

end Cert.KernelIdeal.Hand

end
-- ==== Proof.KernelIdeal.Rgn1.lean ====
import proofs.«152868_j57621281243253_2_alg».proof.Proof.KernelIdeal.Run1A
import proofs.«152868_j57621281243253_2_alg».proof.Proof.KernelIdeal.Run1B
import proofs.«152868_j57621281243253_2_alg».proof.Proof.KernelIdeal.Run1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 1 over any contents `V` of the buffers at its entry: what each output window's staging buffer and the
    accumulator hold after the body at every grid point, the proof data of the region's pipeline, and the body
    obligation. The grid's last coordinate runs over 4 steps: the first resets the accumulator, every step adds its product, the last stores both outputs; in between the outputs' buffers are left alone and the accumulator is carried. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- What case A leaves in output window 4's staging buffer: its pieces read back (none: a placeholder nothing consults, the window being idle and not written back at these points). -/
def out1_A_4 (c : Dev nD) (i : grid1.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : cond1_0 i) (hc1 : ¬cond1_1 i)
    (x0 : Vec F S512x1024 .bf16) (x1 : Vec F S512x1024 .f32) (x2 : Vec F S512x1024 .f32) (x3 : Vec F S1x512 .f32) : Vec F S512x512 .f32 :=
  VO1_4.read (Elt F) (VO1_4.writes (Elt F) VO1_4.junk (kernelRun1_A c i arg3 harg3 arg4 harg4 arg5 harg5 arg6 harg6 arg7 harg7 arg8 harg8 arg9 harg9 hc0 hc1 x0 x1 x2 x3).1)
/-- The same for output window 5. -/
def out1_A_5 (c : Dev nD) (i : grid1.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : cond1_0 i) (hc1 : ¬cond1_1 i)
    (x0 : Vec F S512x1024 .bf16) (x1 : Vec F S512x1024 .f32) (x2 : Vec F S512x1024 .f32) (x3 : Vec F S1x512 .f32) : Vec F S512x512 .bf16 :=
  VO1_5.read (Elt F) (VO1_5.writes (Elt F) VO1_5.junk (kernelRun1_A c i arg3 harg3 arg4 harg4 arg5 harg5 arg6 harg6 arg7 harg7 arg8 harg8 arg9 harg9 hc0 hc1 x0 x1 x2 x3).2.1)
/-- The pieces case A stores into the accumulator cover it. -/
theorem scover1_A (c : Dev nD) (i : grid1.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : cond1_0 i) (hc1 : ¬cond1_1 i)
    (x0 : Vec F S512x1024 .bf16) (x1 : Vec F S512x1024 .f32) (x2 : Vec F S512x1024 .f32) (x3 : Vec F S1x512 .f32) (y : S512x512.Idx) :
    ∃ pc ∈ (kernelRun1_A c i arg3 harg3 arg4 harg4 arg5 harg5 arg6 harg6 arg7 harg7 arg8 harg8 arg9 harg9 hc0 hc1 x0 x1 x2 x3).2.2.1, y ∈ pc.1.set :=
  View.cover_of_tiledL (kernelRun1_A c i arg3 harg3 arg4 harg4 arg5 harg5 arg6 harg6 arg7 harg7 arg8 harg8 arg9 harg9 hc0 hc1 x0 x1 x2 x3).2.2.1 S512x512.size (by sl_kernel_rfl) y
/-- What case A leaves in the accumulator. -/
def sout1_A (c : Dev nD) (i : grid1.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : cond1_0 i) (hc1 : ¬cond1_1 i)
    (x0 : Vec F S512x1024 .bf16) (x1 : Vec F S512x1024 .f32) (x2 : Vec F S512x1024 .f32) (x3 : Vec F S1x512 .f32) : Vec F S512x512 .f32 :=
  VS1.read (Elt F) (VS1.writes (Elt F) VS1.junk (kernelRun1_A c i arg3 harg3 arg4 harg4 arg5 harg5 arg6 harg6 arg7 harg7 arg8 harg8 arg9 harg9 hc0 hc1 x0 x1 x2 x3).2.2.1)

/-- What case B leaves in output window 4's staging buffer: its pieces read back (none: a placeholder nothing consults, the window being idle and not written back at these points). -/
def out1_B_4 (c : Dev nD) (i : grid1.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond1_0 i) (hc1 : ¬cond1_1 i)
    (x0 : Vec F S512x1024 .bf16) (x1 : Vec F S512x1024 .f32) (x2 : Vec F S512x1024 .f32) (x3 : Vec F S1x512 .f32) (xs0 : Vec F S512x512 .f32) : Vec F S512x512 .f32 :=
  VO1_4.read (Elt F) (VO1_4.writes (Elt F) VO1_4.junk (kernelRun1_B c i arg3 harg3 arg4 harg4 arg5 harg5 arg6 harg6 arg7 harg7 arg8 harg8 arg9 harg9 hc0 hc1 x0 x1 x2 x3 xs0).1)
/-- The same for output window 5. -/
def out1_B_5 (c : Dev nD) (i : grid1.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond1_0 i) (hc1 : ¬cond1_1 i)
    (x0 : Vec F S512x1024 .bf16) (x1 : Vec F S512x1024 .f32) (x2 : Vec F S512x1024 .f32) (x3 : Vec F S1x512 .f32) (xs0 : Vec F S512x512 .f32) : Vec F S512x512 .bf16 :=
  VO1_5.read (Elt F) (VO1_5.writes (Elt F) VO1_5.junk (kernelRun1_B c i arg3 harg3 arg4 harg4 arg5 harg5 arg6 harg6 arg7 harg7 arg8 harg8 arg9 harg9 hc0 hc1 x0 x1 x2 x3 xs0).2.1)
/-- The pieces case B stores into the accumulator cover it. -/
theorem scover1_B (c : Dev nD) (i : grid1.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond1_0 i) (hc1 : ¬cond1_1 i)
    (x0 : Vec F S512x1024 .bf16) (x1 : Vec F S512x1024 .f32) (x2 : Vec F S512x1024 .f32) (x3 : Vec F S1x512 .f32) (xs0 : Vec F S512x512 .f32) (y : S512x512.Idx) :
    ∃ pc ∈ (kernelRun1_B c i arg3 harg3 arg4 harg4 arg5 harg5 arg6 harg6 arg7 harg7 arg8 harg8 arg9 harg9 hc0 hc1 x0 x1 x2 x3 xs0).2.2.1, y ∈ pc.1.set :=
  View.cover_of_tiledL (kernelRun1_B c i arg3 harg3 arg4 harg4 arg5 harg5 arg6 harg6 arg7 harg7 arg8 harg8 arg9 harg9 hc0 hc1 x0 x1 x2 x3 xs0).2.2.1 S512x512.size (by sl_kernel_rfl) y
/-- What case B leaves in the accumulator. -/
def sout1_B (c : Dev nD) (i : grid1.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond1_0 i) (hc1 : ¬cond1_1 i)
    (x0 : Vec F S512x1024 .bf16) (x1 : Vec F S512x1024 .f32) (x2 : Vec F S512x1024 .f32) (x3 : Vec F S1x512 .f32) (xs0 : Vec F S512x512 .f32) : Vec F S512x512 .f32 :=
  VS1.read (Elt F) (VS1.writes (Elt F) VS1.junk (kernelRun1_B c i arg3 harg3 arg4 harg4 arg5 harg5 arg6 harg6 arg7 harg7 arg8 harg8 arg9 harg9 hc0 hc1 x0 x1 x2 x3 xs0).2.2.1)

/-- The pieces case C stores into output window 4 tile its block, so they cover it. -/
theorem cover1_C_4 (c : Dev nD) (i : grid1.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond1_0 i) (hc1 : cond1_1 i)
    (x0 : Vec F S512x1024 .bf16) (x1 : Vec F S512x1024 .f32) (x2 : Vec F S512x1024 .f32) (x3 : Vec F S1x512 .f32) (xs0 : Vec F S512x512 .f32) (y : S512x512.Idx) :
    ∃ pc ∈ (kernelRun1_C c i arg3 harg3 arg4 harg4 arg5 harg5 arg6 harg6 arg7 harg7 arg8 harg8 arg9 harg9 hc0 hc1 x0 x1 x2 x3 xs0).1, y ∈ pc.1.set :=
  View.cover_of_tiledL (kernelRun1_C c i arg3 harg3 arg4 harg4 arg5 harg5 arg6 harg6 arg7 harg7 arg8 harg8 arg9 harg9 hc0 hc1 x0 x1 x2 x3 xs0).1 S512x512.size (by sl_kernel_rfl) y
/-- The same for output window 5. -/
theorem cover1_C_5 (c : Dev nD) (i : grid1.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond1_0 i) (hc1 : cond1_1 i)
    (x0 : Vec F S512x1024 .bf16) (x1 : Vec F S512x1024 .f32) (x2 : Vec F S512x1024 .f32) (x3 : Vec F S1x512 .f32) (xs0 : Vec F S512x512 .f32) (y : S512x512.Idx) :
    ∃ pc ∈ (kernelRun1_C c i arg3 harg3 arg4 harg4 arg5 harg5 arg6 harg6 arg7 harg7 arg8 harg8 arg9 harg9 hc0 hc1 x0 x1 x2 x3 xs0).2.1, y ∈ pc.1.set :=
  View.cover_of_tiledL (kernelRun1_C c i arg3 harg3 arg4 harg4 arg5 harg5 arg6 harg6 arg7 harg7 arg8 harg8 arg9 harg9 hc0 hc1 x0 x1 x2 x3 xs0).2.1 S512x512.size (by sl_kernel_rfl) y

/-- What case C leaves in output window 4's staging buffer: its pieces read back. -/
def out1_C_4 (c : Dev nD) (i : grid1.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond1_0 i) (hc1 : cond1_1 i)
    (x0 : Vec F S512x1024 .bf16) (x1 : Vec F S512x1024 .f32) (x2 : Vec F S512x1024 .f32) (x3 : Vec F S1x512 .f32) (xs0 : Vec F S512x512 .f32) : Vec F S512x512 .f32 :=
  VO1_4.read (Elt F) (VO1_4.writes (Elt F) VO1_4.junk (kernelRun1_C c i arg3 harg3 arg4 harg4 arg5 harg5 arg6 harg6 arg7 harg7 arg8 harg8 arg9 harg9 hc0 hc1 x0 x1 x2 x3 xs0).1)
/-- The same for output window 5. -/
def out1_C_5 (c : Dev nD) (i : grid1.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond1_0 i) (hc1 : cond1_1 i)
    (x0 : Vec F S512x1024 .bf16) (x1 : Vec F S512x1024 .f32) (x2 : Vec F S512x1024 .f32) (x3 : Vec F S1x512 .f32) (xs0 : Vec F S512x512 .f32) : Vec F S512x512 .bf16 :=
  VO1_5.read (Elt F) (VO1_5.writes (Elt F) VO1_5.junk (kernelRun1_C c i arg3 harg3 arg4 harg4 arg5 harg5 arg6 harg6 arg7 harg7 arg8 harg8 arg9 harg9 hc0 hc1 x0 x1 x2 x3 xs0).2.1)
/-- The pieces case C stores into the accumulator cover it. -/
theorem scover1_C (c : Dev nD) (i : grid1.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond1_0 i) (hc1 : cond1_1 i)
    (x0 : Vec F S512x1024 .bf16) (x1 : Vec F S512x1024 .f32) (x2 : Vec F S512x1024 .f32) (x3 : Vec F S1x512 .f32) (xs0 : Vec F S512x512 .f32) (y : S512x512.Idx) :
    ∃ pc ∈ (kernelRun1_C c i arg3 harg3 arg4 harg4 arg5 harg5 arg6 harg6 arg7 harg7 arg8 harg8 arg9 harg9 hc0 hc1 x0 x1 x2 x3 xs0).2.2.1, y ∈ pc.1.set :=
  View.cover_of_tiledL (kernelRun1_C c i arg3 harg3 arg4 harg4 arg5 harg5 arg6 harg6 arg7 harg7 arg8 harg8 arg9 harg9 hc0 hc1 x0 x1 x2 x3 xs0).2.2.1 S512x512.size (by sl_kernel_rfl) y
/-- What case C leaves in the accumulator. -/
def sout1_C (c : Dev nD) (i : grid1.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond1_0 i) (hc1 : cond1_1 i)
    (x0 : Vec F S512x1024 .bf16) (x1 : Vec F S512x1024 .f32) (x2 : Vec F S512x1024 .f32) (x3 : Vec F S1x512 .f32) (xs0 : Vec F S512x512 .f32) : Vec F S512x512 .f32 :=
  VS1.read (Elt F) (VS1.writes (Elt F) VS1.junk (kernelRun1_C c i arg3 harg3 arg4 harg4 arg5 harg5 arg6 harg6 arg7 harg7 arg8 harg8 arg9 harg9 hc0 hc1 x0 x1 x2 x3 xs0).2.2.1)

/-- THE ACCUMULATION. What the two outputs' staging buffers and the accumulator hold after the body at position `n`
    (a triple): the case the closed forms select at `n`, run at the point's memrefs and input blocks, the accumulator
    carried in at what position `n - 1` left. -/
def outsAt1 (c : Dev nD) : (n : ℕ) → n < cfg1.N → Vec F S512x512 .f32 × Vec F S512x512 .bf16 × Vec F S512x512 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 4 = 0 then
      if h1 : (n + 1) % 4 = 3 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 4 = 3 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2, out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2, out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2)

theorem outsAt1_A (c : Dev nD) (t : Fin cfg1.N) (h0 : t.val % 4 = 0) (h1 : ¬t.val % 4 = 3) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t) (iblk1 V c 2 t) (iblk1 V c 3 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t) (iblk1 V c 2 t) (iblk1 V c 3 t), sout1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_C (c : Dev nD) (t : Fin cfg1.N) (h0 : ¬t.val % 4 = 0) (h1 : t.val % 4 = 3) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2, out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2, sout1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

theorem outsAt1_B (c : Dev nD) (t : Fin cfg1.N) (h0 : ¬t.val % 4 = 0) (h1 : ¬t.val % 4 = 3) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2, out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2, sout1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- The region's invariant before position `n`: before the first point every buffer the region does not stage at
    anything; afterwards the accumulator at what the point before left in it. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2.2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2.2) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2.2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The proof data of region 1's pipeline on core `c`: the arrays as the region finds them; after the body at point
    `t` each input's buffer at its block and the outputs' at what the point leaves; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

theorem PhiS1_castSucc (c : Dev nD) (t : Fin cfg1.N) :
    (dat1 V c).Φ t.castSucc = PhiS1 V c t.val (Nat.le_of_lt t.isLt) := by
  dsimp only [dat1]; simp only [Fin.coe_castSucc]

set_option maxHeartbeats 4800000 in
/-- The body at any point: the inputs' memrefs hold their blocks; the closed forms say which case the point is in;
    the invariant hands the body the accumulator at what the point before left (at anything before the first point) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => h1 ((hcond1_1 t).mp h))) (noFlush1_4 t (fun h => h1 ((hcond1_1 t).mp h)))]
      rw [Dat.leavesExact_idle (dat1 V c) 5 t (idleAt1_5 t (fun h => h1 ((hcond1_1 t).mp h))) (noFlush1_5 t (fun h => h1 ((hcond1_1 t).mp h)))]
      rw [outsAt1_A V c t h0 h1]
      unfold sout1_A; (try dsimp only)
      by_cases hz : t.val = 0
      ·
        rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5
      ·
        rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5

  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t ((hcond1_1 t).mpr h1)], after1_4]
      rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold out1_C_4 out1_C_5 sout1_C; (try dsimp only)
      have hz : t.val ≠ 0 := by omega
      ·
        rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) _).2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        iintro ⟨H0, H1, H2, H3, ⟨%e4, H4⟩, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover1_C_4 c _ _ _ _ _ _ _ _ _ _ _ _ _ _ _ _ _ _ _ _ _ _)
        unfold owns; iexists _; isplitr
        swap; · iexact H5
        ipureintro; exact View.read_writes_of_cover _ _ _ _ _ (cover1_C_5 c _ _ _ _ _ _ _ _ _ _ _ _ _ _ _ _ _ _ _ _ _ _)

    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => h1 ((hcond1_1 t).mp h))) (noFlush1_4 t (fun h => h1 ((hcond1_1 t).mp h)))]
      rw [Dat.leavesExact_idle (dat1 V c) 5 t (idleAt1_5 t (fun h => h1 ((hcond1_1 t).mp h))) (noFlush1_5 t (fun h => h1 ((hcond1_1 t).mp h)))]
      rw [outsAt1_B V c t h0 h1]
      unfold sout1_B; (try dsimp only)
      have hz : t.val ≠ 0 := by omega
      ·
        rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg
theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Hand

end
-- ==== Proof.KernelIdeal.C2.lean ====
import proofs.«152868_j57621281243253_2_alg».proof.Proof.Gen.KernelIdeal.Launch
import proofs.«152868_j57621281243253_2_alg».proof.Proof.Gen.KernelIdeal.Skeleton
import proofs.«152868_j57621281243253_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 2: where on its grid the body's two conditionals hold, where its output windows are idle, and the
    memrefs the body is called with. The body resets its accumulator when the last grid coordinate is 0 and stores
    its two outputs when that coordinate is the last one. -/

/-- The accumulator is reset: the last grid coordinate is 0. -/
abbrev cond2_0 (i : grid2.Coords) : Prop := (Scalar.cmpi .ne (Scalar.extui (Scalar.cmpi .eq (BitVec.ofNat 32 (i 2).val) 0#32)) 0#32) = 1#1
/-- The outputs are stored: the last grid coordinate is the last one. -/
abbrev cond2_1 (i : grid2.Coords) : Prop := k2_cond2 i = 1#1

theorem hcond2_0 : ∀ t : Fin cfg2.N, cond2_0 (grid2.coords t) ↔ t.val % 2 = 0 :=
  (by decide +kernel : ∀ t : Fin grid2.N, cond2_0 (grid2.coords t) ↔ t.val % 2 = 0)
theorem hcond2_1 : ∀ t : Fin cfg2.N, cond2_1 (grid2.coords t) ↔ t.val % 2 = 1 :=
  (by decide +kernel : ∀ t : Fin grid2.N, cond2_1 (grid2.coords t) ↔ t.val % 2 = 1)
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cond2_1 (grid2.coords t) → cfg2.idle 4 (grid2.coords t) = false := by decide +kernel
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_5 : ∀ t : Fin cfg2.N, cond2_1 (grid2.coords t) → cfg2.idle 5 (grid2.coords t) = false := by decide +kernel
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel

/-- One staging buffer of each output window, through which its contents are stated. -/
abbrev VO2_4 : View sig .tc .vmem S512x512 .f32 := (Memref.whole cc2_stg4_0 : Memref sig .tc .vmem S512x512 .f32).view
abbrev VO2_5 : View sig .tc .vmem S512x512 .bf16 := (Memref.whole cc2_stg5_0 : Memref sig .tc .vmem S512x512 .bf16).view
abbrev ms2_0 (t : Fin cfg2.N) : Memref sig .tc .vmem S512x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x512 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S512x512 .bf16 := win2_5.stage (cfg2.slots t 5)
abbrev hs2_5 (t : Fin cfg2.N) : (ms2_5 t).IsWhole := hstage2_5 ((cfg2.slots t 5).cast nbuf2_5)
/-- The accumulator: a whole buffer of the kernel's own, passed beside the windows. -/
abbrev scM2 : Memref sig .tc .vmem S512x512 .f32 := Memref.whole cc2_scratch0
abbrev VS2 : View sig .tc .vmem S512x512 .f32 := (scM2).view

/-- The region's invariant, opened at the accumulator: it at some contents, every other buffer the region does not
    stage unopened, the generator register at some state. -/
theorem PhiA2_eq (c : Dev nD) :
    (Pipeline.ΦA spec2 c : sProp 𝕄)
      = iprop(iprop((∃ d, owns (c : Thread nD τ) scM2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

end Cert.KernelIdeal.Hand

end
-- ==== Proof.KernelIdeal.Run2A.lean ====
import proofs.«152868_j57621281243253_2_alg».proof.Proof.KernelIdeal.C2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 2, the body run whole in one case of its two conditionals (the accumulator is reset, the outputs are left alone):
    on whole staging memrefs holding the input blocks, the body runs to its end; what it leaves in the accumulator
    is found by the run as a list of stored pieces. -/

set_option maxHeartbeats 1000000 in
noncomputable def kernelRun2_A (c : Dev nD) (i : grid2.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : cond2_0 i) (hc1 : ¬cond2_1 i)
    (x0 : Vec F S512x1024 .bf16) (x1 : Vec F S512x1024 .f32) (x2 : Vec F S512x1024 .f32) (x3 : Vec F S1x512 .f32) :
    Σ' (L4 : List (View.Piece (Elt F) S512x512 .f32)) (L5 : List (View.Piece (Elt F) S512x512 .bf16)), { LS0 : List (View.Piece (Elt F) S512x512 .f32) //
      ∀ (xi4 : Vec F S512x512 .f32) (xi5 : Vec F S512x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi4 ∗ owns (c : Thread nD τ) arg8 fullShare xi5
                ∗ (∃ f, arg9.view.loc (c : Thread nD τ) ↦[arg9.view.set]{fullShare} arg9.view.writes (Elt F) f LS0)) -∗ K ⟨⟩))
          ⊢ wp frame (wpE (defs₀ (F := F)) Variants.none c none) E (cc2__layer_kernel i arg3 harg3 arg4 harg4 arg5 harg5 arg6 harg6 arg7 harg7 arg8 harg8 arg9 harg9) K } := by
  refine ⟨[], [], ?_, fun xi4 xi5 E K => ?run⟩
  case run =>
    simp only [cc2__layer_kernel_eq_skeleton]; unfold cc2__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Hand

end
-- ==== Proof.KernelIdeal.Run2C.lean ====
import proofs.«152868_j57621281243253_2_alg».proof.Proof.KernelIdeal.C2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 2, the body run whole in one case of its two conditionals (the accumulator is carried in, the outputs are stored):
    on whole staging memrefs holding the input blocks, the body runs to its end; what it leaves in the accumulator
    and in the two output buffers is found by the run as a list of stored pieces. -/

set_option maxHeartbeats 1000000 in
noncomputable def kernelRun2_C (c : Dev nD) (i : grid2.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond2_0 i) (hc1 : cond2_1 i)
    (x0 : Vec F S512x1024 .bf16) (x1 : Vec F S512x1024 .f32) (x2 : Vec F S512x1024 .f32) (x3 : Vec F S1x512 .f32) (xs0 : Vec F S512x512 .f32) :
    Σ' (L4 : List (View.Piece (Elt F) S512x512 .f32)) (L5 : List (View.Piece (Elt F) S512x512 .bf16)), { LS0 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5)
                ∗ (∃ f, arg9.view.loc (c : Thread nD τ) ↦[arg9.view.set]{fullShare} arg9.view.writes (Elt F) f LS0)) -∗ K ⟨⟩))
          ⊢ wp frame (wpE (defs₀ (F := F)) Variants.none c none) E (cc2__layer_kernel i arg3 harg3 arg4 harg4 arg5 harg5 arg6 harg6 arg7 harg7 arg8 harg8 arg9 harg9) K } := by
  refine ⟨?_, ?_, ?_, fun E K => ?run⟩
  case run =>
    simp only [cc2__layer_kernel_eq_skeleton]; unfold cc2__layer_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    iexists _; iexact HS0

end Cert.KernelIdeal.Hand

end
-- ==== Proof.KernelIdeal.Rgn2.lean ====
import proofs.«152868_j57621281243253_2_alg».proof.Proof.KernelIdeal.Run2A
import proofs.«152868_j57621281243253_2_alg».proof.Proof.KernelIdeal.Run2C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 2 over any contents `V` of the buffers at its entry: what each output window's staging buffer and the
    accumulator hold after the body at every grid point, the proof data of the region's pipeline, and the body
    obligation. The grid's last coordinate runs over 2 steps: the first resets the accumulator, every step adds its product, the last stores both outputs; in between the outputs' buffers are left alone and the accumulator is carried. -/

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- What case A leaves in output window 4's staging buffer: its pieces read back (none: a placeholder nothing consults, the window being idle and not written back at these points). -/
def out2_A_4 (c : Dev nD) (i : grid2.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : cond2_0 i) (hc1 : ¬cond2_1 i)
    (x0 : Vec F S512x1024 .bf16) (x1 : Vec F S512x1024 .f32) (x2 : Vec F S512x1024 .f32) (x3 : Vec F S1x512 .f32) : Vec F S512x512 .f32 :=
  VO2_4.read (Elt F) (VO2_4.writes (Elt F) VO2_4.junk (kernelRun2_A c i arg3 harg3 arg4 harg4 arg5 harg5 arg6 harg6 arg7 harg7 arg8 harg8 arg9 harg9 hc0 hc1 x0 x1 x2 x3).1)
/-- The same for output window 5. -/
def out2_A_5 (c : Dev nD) (i : grid2.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : cond2_0 i) (hc1 : ¬cond2_1 i)
    (x0 : Vec F S512x1024 .bf16) (x1 : Vec F S512x1024 .f32) (x2 : Vec F S512x1024 .f32) (x3 : Vec F S1x512 .f32) : Vec F S512x512 .bf16 :=
  VO2_5.read (Elt F) (VO2_5.writes (Elt F) VO2_5.junk (kernelRun2_A c i arg3 harg3 arg4 harg4 arg5 harg5 arg6 harg6 arg7 harg7 arg8 harg8 arg9 harg9 hc0 hc1 x0 x1 x2 x3).2.1)
/-- The pieces case A stores into the accumulator cover it. -/
theorem scover2_A (c : Dev nD) (i : grid2.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : cond2_0 i) (hc1 : ¬cond2_1 i)
    (x0 : Vec F S512x1024 .bf16) (x1 : Vec F S512x1024 .f32) (x2 : Vec F S512x1024 .f32) (x3 : Vec F S1x512 .f32) (y : S512x512.Idx) :
    ∃ pc ∈ (kernelRun2_A c i arg3 harg3 arg4 harg4 arg5 harg5 arg6 harg6 arg7 harg7 arg8 harg8 arg9 harg9 hc0 hc1 x0 x1 x2 x3).2.2.1, y ∈ pc.1.set :=
  View.cover_of_tiledL (kernelRun2_A c i arg3 harg3 arg4 harg4 arg5 harg5 arg6 harg6 arg7 harg7 arg8 harg8 arg9 harg9 hc0 hc1 x0 x1 x2 x3).2.2.1 S512x512.size (by sl_kernel_rfl) y
/-- What case A leaves in the accumulator. -/
def sout2_A (c : Dev nD) (i : grid2.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : cond2_0 i) (hc1 : ¬cond2_1 i)
    (x0 : Vec F S512x1024 .bf16) (x1 : Vec F S512x1024 .f32) (x2 : Vec F S512x1024 .f32) (x3 : Vec F S1x512 .f32) : Vec F S512x512 .f32 :=
  VS2.read (Elt F) (VS2.writes (Elt F) VS2.junk (kernelRun2_A c i arg3 harg3 arg4 harg4 arg5 harg5 arg6 harg6 arg7 harg7 arg8 harg8 arg9 harg9 hc0 hc1 x0 x1 x2 x3).2.2.1)

/-- The pieces case C stores into output window 4 tile its block, so they cover it. -/
theorem cover2_C_4 (c : Dev nD) (i : grid2.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond2_0 i) (hc1 : cond2_1 i)
    (x0 : Vec F S512x1024 .bf16) (x1 : Vec F S512x1024 .f32) (x2 : Vec F S512x1024 .f32) (x3 : Vec F S1x512 .f32) (xs0 : Vec F S512x512 .f32) (y : S512x512.Idx) :
    ∃ pc ∈ (kernelRun2_C c i arg3 harg3 arg4 harg4 arg5 harg5 arg6 harg6 arg7 harg7 arg8 harg8 arg9 harg9 hc0 hc1 x0 x1 x2 x3 xs0).1, y ∈ pc.1.set :=
  View.cover_of_tiledL (kernelRun2_C c i arg3 harg3 arg4 harg4 arg5 harg5 arg6 harg6 arg7 harg7 arg8 harg8 arg9 harg9 hc0 hc1 x0 x1 x2 x3 xs0).1 S512x512.size (by sl_kernel_rfl) y
/-- The same for output window 5. -/
theorem cover2_C_5 (c : Dev nD) (i : grid2.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond2_0 i) (hc1 : cond2_1 i)
    (x0 : Vec F S512x1024 .bf16) (x1 : Vec F S512x1024 .f32) (x2 : Vec F S512x1024 .f32) (x3 : Vec F S1x512 .f32) (xs0 : Vec F S512x512 .f32) (y : S512x512.Idx) :
    ∃ pc ∈ (kernelRun2_C c i arg3 harg3 arg4 harg4 arg5 harg5 arg6 harg6 arg7 harg7 arg8 harg8 arg9 harg9 hc0 hc1 x0 x1 x2 x3 xs0).2.1, y ∈ pc.1.set :=
  View.cover_of_tiledL (kernelRun2_C c i arg3 harg3 arg4 harg4 arg5 harg5 arg6 harg6 arg7 harg7 arg8 harg8 arg9 harg9 hc0 hc1 x0 x1 x2 x3 xs0).2.1 S512x512.size (by sl_kernel_rfl) y

/-- What case C leaves in output window 4's staging buffer: its pieces read back. -/
def out2_C_4 (c : Dev nD) (i : grid2.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond2_0 i) (hc1 : cond2_1 i)
    (x0 : Vec F S512x1024 .bf16) (x1 : Vec F S512x1024 .f32) (x2 : Vec F S512x1024 .f32) (x3 : Vec F S1x512 .f32) (xs0 : Vec F S512x512 .f32) : Vec F S512x512 .f32 :=
  VO2_4.read (Elt F) (VO2_4.writes (Elt F) VO2_4.junk (kernelRun2_C c i arg3 harg3 arg4 harg4 arg5 harg5 arg6 harg6 arg7 harg7 arg8 harg8 arg9 harg9 hc0 hc1 x0 x1 x2 x3 xs0).1)
/-- The same for output window 5. -/
def out2_C_5 (c : Dev nD) (i : grid2.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond2_0 i) (hc1 : cond2_1 i)
    (x0 : Vec F S512x1024 .bf16) (x1 : Vec F S512x1024 .f32) (x2 : Vec F S512x1024 .f32) (x3 : Vec F S1x512 .f32) (xs0 : Vec F S512x512 .f32) : Vec F S512x512 .bf16 :=
  VO2_5.read (Elt F) (VO2_5.writes (Elt F) VO2_5.junk (kernelRun2_C c i arg3 harg3 arg4 harg4 arg5 harg5 arg6 harg6 arg7 harg7 arg8 harg8 arg9 harg9 hc0 hc1 x0 x1 x2 x3 xs0).2.1)
/-- The pieces case C stores into the accumulator cover it. -/
theorem scover2_C (c : Dev nD) (i : grid2.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond2_0 i) (hc1 : cond2_1 i)
    (x0 : Vec F S512x1024 .bf16) (x1 : Vec F S512x1024 .f32) (x2 : Vec F S512x1024 .f32) (x3 : Vec F S1x512 .f32) (xs0 : Vec F S512x512 .f32) (y : S512x512.Idx) :
    ∃ pc ∈ (kernelRun2_C c i arg3 harg3 arg4 harg4 arg5 harg5 arg6 harg6 arg7 harg7 arg8 harg8 arg9 harg9 hc0 hc1 x0 x1 x2 x3 xs0).2.2.1, y ∈ pc.1.set :=
  View.cover_of_tiledL (kernelRun2_C c i arg3 harg3 arg4 harg4 arg5 harg5 arg6 harg6 arg7 harg7 arg8 harg8 arg9 harg9 hc0 hc1 x0 x1 x2 x3 xs0).2.2.1 S512x512.size (by sl_kernel_rfl) y
/-- What case C leaves in the accumulator. -/
def sout2_C (c : Dev nD) (i : grid2.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond2_0 i) (hc1 : cond2_1 i)
    (x0 : Vec F S512x1024 .bf16) (x1 : Vec F S512x1024 .f32) (x2 : Vec F S512x1024 .f32) (x3 : Vec F S1x512 .f32) (xs0 : Vec F S512x512 .f32) : Vec F S512x512 .f32 :=
  VS2.read (Elt F) (VS2.writes (Elt F) VS2.junk (kernelRun2_C c i arg3 harg3 arg4 harg4 arg5 harg5 arg6 harg6 arg7 harg7 arg8 harg8 arg9 harg9 hc0 hc1 x0 x1 x2 x3 xs0).2.2.1)

/-- THE ACCUMULATION. What the two outputs' staging buffers and the accumulator hold after the body at position `n`
    (a triple): the case the closed forms select at `n`, run at the point's memrefs and input blocks, the accumulator
    carried in at what position `n - 1` left. -/
def outsAt2 (c : Dev nD) : (n : ℕ) → n < cfg2.N → Vec F S512x512 .f32 × Vec F S512x512 .bf16 × Vec F S512x512 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h0 : (n + 1) % 2 = 0 then
      if h1 : (n + 1) % 2 = 1 then
        False.elim (by omega)
      else
        (out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩), out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩), sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩))
    else
      if h1 : (n + 1) % 2 = 1 then
        (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2, out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2, sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2)
      else
        False.elim (by omega)

theorem outsAt2_A (c : Dev nD) (t : Fin cfg2.N) (h0 : t.val % 2 = 0) (h1 : ¬t.val % 2 = 1) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) ((hcond2_0 t).mpr h0) (fun h => h1 ((hcond2_1 t).mp h)) (iblk2 V c 0 t) (iblk2 V c 1 t) (iblk2 V c 2 t) (iblk2 V c 3 t), out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) ((hcond2_0 t).mpr h0) (fun h => h1 ((hcond2_1 t).mp h)) (iblk2 V c 0 t) (iblk2 V c 1 t) (iblk2 V c 2 t) (iblk2 V c 3 t), sout2_A c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact (dif_pos h0).trans ((dif_neg h1).trans rfl)

theorem outsAt2_C (c : Dev nD) (t : Fin cfg2.N) (h0 : ¬t.val % 2 = 0) (h1 : t.val % 2 = 1) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2, out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2, sout2_C c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every buffer the region does not stage at
    anything; afterwards the accumulator at what the point before left in it. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2.2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare ((outsAt2 V c n hn).2.2) ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(owns (c : Thread nD τ) scM2 fullShare ((outsAt2 V c (n - 1) (by omega)).2.2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- The proof data of region 2's pipeline on core `c`: the arrays as the region finds them; after the body at point
    `t` each input's buffer at its block and the outputs' at what the point leaves; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
    | ⟨5, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]
theorem after2_5 (c : Dev nD) (t : Fin cfg2.N) : (dat2 V c).after 5 t = (outsAt2 V c t.val t.isLt).2.1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

theorem PhiS2_castSucc (c : Dev nD) (t : Fin cfg2.N) :
    (dat2 V c).Φ t.castSucc = PhiS2 V c t.val (Nat.le_of_lt t.isLt) := by
  dsimp only [dat2]; simp only [Fin.coe_castSucc]

set_option maxHeartbeats 4800000 in
/-- The body at any point: the inputs' memrefs hold their blocks; the closed forms say which case the point is in;
    the invariant hands the body the accumulator at what the point before left (at anything before the first point) and
    takes it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  by_cases h0 : t.val % 2 = 0
  · by_cases h1 : t.val % 2 = 1
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4 t (fun h => h1 ((hcond2_1 t).mp h))) (noFlush2_4 t (fun h => h1 ((hcond2_1 t).mp h)))]
      rw [Dat.leavesExact_idle (dat2 V c) 5 t (idleAt2_5 t (fun h => h1 ((hcond2_1 t).mp h))) (noFlush2_5 t (fun h => h1 ((hcond2_1 t).mp h)))]
      rw [outsAt2_A V c t h0 h1]
      unfold sout2_A; (try dsimp only)
      by_cases hz : t.val = 0
      ·
        rw [PhiS2_castSucc V c t, PhiS2_zero V c _ _ hz, PhiA2_eq]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5
      ·
        rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5

  · by_cases h1 : t.val % 2 = 1
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t ((hcond2_1 t).mpr h1)], after2_4]
      rw [show (dat2 V c).leavesExact 5 t = owns (c : Thread nD τ) (ms2_5 t) fullShare ((dat2 V c).after 5 t) from by
        unfold Dat.leavesExact; rw [liveAt2_5 t ((hcond2_1 t).mpr h1)], after2_5]
      rw [outsAt2_C V c t h0 h1]
      unfold out2_C_4 out2_C_5 sout2_C; (try dsimp only)
      have hz : t.val ≠ 0 := by omega
      ·
        rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) _).2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        iintro ⟨H0, H1, H2, H3, ⟨%e4, H4⟩, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_C c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover2_C_4 c _ _ _ _ _ _ _ _ _ _ _ _ _ _ _ _ _ _ _ _ _ _)
        unfold owns; iexists _; isplitr
        swap; · iexact H5
        ipureintro; exact View.read_writes_of_cover _ _ _ _ _ (cover2_C_5 c _ _ _ _ _ _ _ _ _ _ _ _ _ _ _ _ _ _ _ _ _ _)

    ·
      exfalso; omega

/-- The library's body obligation, at every point. -/
theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg
theorem hout2 (c : Dev nD) : (dat2 V c).Φ (Fin.last cfg2.N) ⊢ Pipeline.ΦA spec2 c :=
  Phi_out2 V c _ (by rw [Fin.val_last]; have : cfg2.N = 32 := N_2; omega)

end Cert.KernelIdeal.Hand

end
-- ==== Proof.KernelIdeal.C3.lean ====
import proofs.«152868_j57621281243253_2_alg».proof.Proof.Gen.KernelIdeal.Launch
import proofs.«152868_j57621281243253_2_alg».proof.Proof.Gen.KernelIdeal.Skeleton
import proofs.«152868_j57621281243253_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 3: where on its grid the body's two conditionals hold, where its output windows are idle, and the
    memrefs the body is called with. The body resets its accumulator when the last grid coordinate is 0 and stores
    its two outputs when that coordinate is the last one. -/

/-- The accumulator is reset: the last grid coordinate is 0. -/
abbrev cond3_0 (i : grid3.Coords) : Prop := (Scalar.cmpi .ne (Scalar.extui (Scalar.cmpi .eq (BitVec.ofNat 32 (i 2).val) 0#32)) 0#32) = 1#1
/-- The outputs are stored: the last grid coordinate is the last one. -/
abbrev cond3_1 (i : grid3.Coords) : Prop := k3_cond2 i = 1#1

theorem hcond3_0 : ∀ t : Fin cfg3.N, cond3_0 (grid3.coords t) :=
  (by decide +kernel : ∀ t : Fin grid3.N, cond3_0 (grid3.coords t))
theorem hcond3_1 : ∀ t : Fin cfg3.N, cond3_1 (grid3.coords t) :=
  (by decide +kernel : ∀ t : Fin grid3.N, cond3_1 (grid3.coords t))
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cond3_1 (grid3.coords t) → cfg3.idle 4 (grid3.coords t) = false := by decide +kernel
theorem liveAt3_5 : ∀ t : Fin cfg3.N, cond3_1 (grid3.coords t) → cfg3.idle 5 (grid3.coords t) = false := by decide +kernel

/-- One staging buffer of each output window, through which its contents are stated. -/
abbrev VO3_4 : View sig .tc .vmem S512x512 .f32 := (Memref.whole cc3_stg4_0 : Memref sig .tc .vmem S512x512 .f32).view
abbrev VO3_5 : View sig .tc .vmem S512x512 .bf16 := (Memref.whole cc3_stg5_0 : Memref sig .tc .vmem S512x512 .bf16).view
abbrev ms3_0 (t : Fin cfg3.N) : Memref sig .tc .vmem S512x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S512x1024 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S512x1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x512 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S512x512 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S512x512 .bf16 := win3_5.stage (cfg3.slots t 5)
abbrev hs3_5 (t : Fin cfg3.N) : (ms3_5 t).IsWhole := hstage3_5 ((cfg3.slots t 5).cast nbuf3_5)
/-- The accumulator: a whole buffer of the kernel's own, passed beside the windows. -/
abbrev scM3 : Memref sig .tc .vmem S512x512 .f32 := Memref.whole cc3_scratch0
abbrev VS3 : View sig .tc .vmem S512x512 .f32 := (scM3).view

/-- The region's invariant, opened at the accumulator: it at some contents, every other buffer the region does not
    stage unopened, the generator register at some state. -/
theorem PhiA3_eq (c : Dev nD) :
    (Pipeline.ΦA spec3 c : sProp 𝕄)
      = iprop(iprop((∃ d, owns (c : Thread nD τ) scM3 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

end Cert.KernelIdeal.Hand

end
-- ==== Proof.KernelIdeal.Run3D.lean ====
import proofs.«152868_j57621281243253_2_alg».proof.Proof.KernelIdeal.C3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 3, the body run whole in one case of its two conditionals (the accumulator is reset, the outputs are stored):
    on whole staging memrefs holding the input blocks, the body runs to its end; what it leaves in the accumulator
    and in the two output buffers is found by the run as a list of stored pieces. -/

set_option maxHeartbeats 1000000 in
noncomputable def kernelRun3_D (c : Dev nD) (i : grid3.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : cond3_0 i) (hc1 : cond3_1 i)
    (x0 : Vec F S512x1024 .bf16) (x1 : Vec F S512x1024 .f32) (x2 : Vec F S512x1024 .f32) (x3 : Vec F S1x512 .f32) :
    Σ' (L4 : List (View.Piece (Elt F) S512x512 .f32)) (L5 : List (View.Piece (Elt F) S512x512 .bf16)), { LS0 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5)
                ∗ (∃ f, arg9.view.loc (c : Thread nD τ) ↦[arg9.view.set]{fullShare} arg9.view.writes (Elt F) f LS0)) -∗ K ⟨⟩))
          ⊢ wp frame (wpE (defs₀ (F := F)) Variants.none c none) E (cc3__layer_kernel i arg3 harg3 arg4 harg4 arg5 harg5 arg6 harg6 arg7 harg7 arg8 harg8 arg9 harg9) K } := by
  refine ⟨?_, ?_, ?_, fun E K => ?run⟩
  case run =>
    simp only [cc3__layer_kernel_eq_skeleton]; unfold cc3__layer_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    iexists _; iexact HS0

end Cert.KernelIdeal.Hand

end
-- ==== Proof.KernelIdeal.Rgn3.lean ====
import proofs.«152868_j57621281243253_2_alg».proof.Proof.KernelIdeal.Run3D

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 3 over any contents `V` of the buffers at its entry: what each output window's staging buffer and the
    accumulator hold after the body at every grid point, the proof data of the region's pipeline, and the body
    obligation. Every point resets the accumulator, adds its product and stores both outputs. -/

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The pieces case D stores into output window 4 tile its block, so they cover it. -/
theorem cover3_D_4 (c : Dev nD) (i : grid3.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : cond3_0 i) (hc1 : cond3_1 i)
    (x0 : Vec F S512x1024 .bf16) (x1 : Vec F S512x1024 .f32) (x2 : Vec F S512x1024 .f32) (x3 : Vec F S1x512 .f32) (y : S512x512.Idx) :
    ∃ pc ∈ (kernelRun3_D c i arg3 harg3 arg4 harg4 arg5 harg5 arg6 harg6 arg7 harg7 arg8 harg8 arg9 harg9 hc0 hc1 x0 x1 x2 x3).1, y ∈ pc.1.set :=
  View.cover_of_tiledL (kernelRun3_D c i arg3 harg3 arg4 harg4 arg5 harg5 arg6 harg6 arg7 harg7 arg8 harg8 arg9 harg9 hc0 hc1 x0 x1 x2 x3).1 S512x512.size (by sl_kernel_rfl) y
/-- The same for output window 5. -/
theorem cover3_D_5 (c : Dev nD) (i : grid3.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : cond3_0 i) (hc1 : cond3_1 i)
    (x0 : Vec F S512x1024 .bf16) (x1 : Vec F S512x1024 .f32) (x2 : Vec F S512x1024 .f32) (x3 : Vec F S1x512 .f32) (y : S512x512.Idx) :
    ∃ pc ∈ (kernelRun3_D c i arg3 harg3 arg4 harg4 arg5 harg5 arg6 harg6 arg7 harg7 arg8 harg8 arg9 harg9 hc0 hc1 x0 x1 x2 x3).2.1, y ∈ pc.1.set :=
  View.cover_of_tiledL (kernelRun3_D c i arg3 harg3 arg4 harg4 arg5 harg5 arg6 harg6 arg7 harg7 arg8 harg8 arg9 harg9 hc0 hc1 x0 x1 x2 x3).2.1 S512x512.size (by sl_kernel_rfl) y

/-- What case D leaves in output window 4's staging buffer: its pieces read back. -/
def out3_D_4 (c : Dev nD) (i : grid3.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : cond3_0 i) (hc1 : cond3_1 i)
    (x0 : Vec F S512x1024 .bf16) (x1 : Vec F S512x1024 .f32) (x2 : Vec F S512x1024 .f32) (x3 : Vec F S1x512 .f32) : Vec F S512x512 .f32 :=
  VO3_4.read (Elt F) (VO3_4.writes (Elt F) VO3_4.junk (kernelRun3_D c i arg3 harg3 arg4 harg4 arg5 harg5 arg6 harg6 arg7 harg7 arg8 harg8 arg9 harg9 hc0 hc1 x0 x1 x2 x3).1)
/-- The same for output window 5. -/
def out3_D_5 (c : Dev nD) (i : grid3.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : cond3_0 i) (hc1 : cond3_1 i)
    (x0 : Vec F S512x1024 .bf16) (x1 : Vec F S512x1024 .f32) (x2 : Vec F S512x1024 .f32) (x3 : Vec F S1x512 .f32) : Vec F S512x512 .bf16 :=
  VO3_5.read (Elt F) (VO3_5.writes (Elt F) VO3_5.junk (kernelRun3_D c i arg3 harg3 arg4 harg4 arg5 harg5 arg6 harg6 arg7 harg7 arg8 harg8 arg9 harg9 hc0 hc1 x0 x1 x2 x3).2.1)
/-- The pieces case D stores into the accumulator cover it. -/
theorem scover3_D (c : Dev nD) (i : grid3.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : cond3_0 i) (hc1 : cond3_1 i)
    (x0 : Vec F S512x1024 .bf16) (x1 : Vec F S512x1024 .f32) (x2 : Vec F S512x1024 .f32) (x3 : Vec F S1x512 .f32) (y : S512x512.Idx) :
    ∃ pc ∈ (kernelRun3_D c i arg3 harg3 arg4 harg4 arg5 harg5 arg6 harg6 arg7 harg7 arg8 harg8 arg9 harg9 hc0 hc1 x0 x1 x2 x3).2.2.1, y ∈ pc.1.set :=
  View.cover_of_tiledL (kernelRun3_D c i arg3 harg3 arg4 harg4 arg5 harg5 arg6 harg6 arg7 harg7 arg8 harg8 arg9 harg9 hc0 hc1 x0 x1 x2 x3).2.2.1 S512x512.size (by sl_kernel_rfl) y
/-- What case D leaves in the accumulator. -/
def sout3_D (c : Dev nD) (i : grid3.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : cond3_0 i) (hc1 : cond3_1 i)
    (x0 : Vec F S512x1024 .bf16) (x1 : Vec F S512x1024 .f32) (x2 : Vec F S512x1024 .f32) (x3 : Vec F S1x512 .f32) : Vec F S512x512 .f32 :=
  VS3.read (Elt F) (VS3.writes (Elt F) VS3.junk (kernelRun3_D c i arg3 harg3 arg4 harg4 arg5 harg5 arg6 harg6 arg7 harg7 arg8 harg8 arg9 harg9 hc0 hc1 x0 x1 x2 x3).2.2.1)

/-- The proof data of region 3's pipeline on core `c`: the arrays as the region finds them; after the body at point
    `t` each input's buffer at its block and the outputs' at what the point leaves; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_D_4 c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) (hcond3_0 t) (hcond3_1 t) (iblk3 V c 0 t) (iblk3 V c 1 t) (iblk3 V c 2 t) (iblk3 V c 3 t)
    | ⟨5, _⟩ => out3_D_5 c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) (hcond3_0 t) (hcond3_1 t) (iblk3 V c 0 t) (iblk3 V c 1 t) (iblk3 V c 2 t) (iblk3 V c 3 t)
  Φ t := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_D_4 c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) (hcond3_0 t) (hcond3_1 t) (iblk3 V c 0 t) (iblk3 V c 1 t) (iblk3 V c 2 t) (iblk3 V c 3 t) := by dsimp only [dat3]
theorem after3_5 (c : Dev nD) (t : Fin cfg3.N) : (dat3 V c).after 5 t = out3_D_5 c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) (hcond3_0 t) (hcond3_1 t) (iblk3 V c 0 t) (iblk3 V c 1 t) (iblk3 V c 2 t) (iblk3 V c 3 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 4800000 in
/-- The body at any point: the inputs' memrefs hold their blocks; the run applies; the invariant hands the body the
    accumulator at some contents and takes it back at some contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = Pipeline.ΦA spec3 c from rfl, show (dat3 V c).Φ t.castSucc = Pipeline.ΦA spec3 c from rfl, PhiA3_eq]
  ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [show (dat3 V c).leavesExact 4 t = owns (c : Thread nD τ) (ms3_4 t) fullShare ((dat3 V c).after 4 t) from by
        unfold Dat.leavesExact; rw [liveAt3_4 t (hcond3_1 t)], after3_4]
      rw [show (dat3 V c).leavesExact 5 t = owns (c : Thread nD τ) (ms3_5 t) fullShare ((dat3 V c).after 5 t) from by
        unfold Dat.leavesExact; rw [liveAt3_5 t (hcond3_1 t)], after3_5]
      unfold out3_D_4 out3_D_5; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun3_D c (grid3.coords t) _ _ _ _ _ _ _ _ _ _ _ _ _ _ (hcond3_0 t) (hcond3_1 t) (iblk3 V c 0 t) (iblk3 V c 1 t) (iblk3 V c 2 t) (iblk3 V c 3 t)).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 HR Hg]
      · isplitl [HS0 HR]
        · isplitl [HS0]
          · iexists _; unfold owns; iexists _; isplitr
            swap; · iexact HS0
            ipureintro; rfl
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover3_D_4 c _ _ _ _ _ _ _ _ _ _ _ _ _ _ _ _ _ _ _ _ _)
      unfold owns; iexists _; isplitr
      swap; · iexact H5
      ipureintro; exact View.read_writes_of_cover _ _ _ _ _ (cover3_D_5 c _ _ _ _ _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := .rfl
theorem hout3 (c : Dev nD) : (dat3 V c).Φ (Fin.last cfg3.N) ⊢ Pipeline.ΦA spec3 c := .rfl

end Cert.KernelIdeal.Hand

end
-- ==== Proof.KernelIdeal.C4.lean ====
import proofs.«152868_j57621281243253_2_alg».proof.Proof.Gen.KernelIdeal.Launch
import proofs.«152868_j57621281243253_2_alg».proof.Proof.Gen.KernelIdeal.Skeleton
import proofs.«152868_j57621281243253_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 4: where on its grid the body's two conditionals hold, where its output windows are idle, and the
    memrefs the body is called with. The body resets its accumulator when the last grid coordinate is 0 and stores
    its two outputs when that coordinate is the last one. -/

/-- The accumulator is reset: the last grid coordinate is 0. -/
abbrev cond4_0 (i : grid4.Coords) : Prop := (Scalar.cmpi .ne (Scalar.extui (Scalar.cmpi .eq (BitVec.ofNat 32 (i 2).val) 0#32)) 0#32) = 1#1
/-- The outputs are stored: the last grid coordinate is the last one. -/
abbrev cond4_1 (i : grid4.Coords) : Prop := k4_cond2 i = 1#1

theorem hcond4_0 : ∀ t : Fin cfg4.N, cond4_0 (grid4.coords t) :=
  (by decide +kernel : ∀ t : Fin grid4.N, cond4_0 (grid4.coords t))
theorem hcond4_1 : ∀ t : Fin cfg4.N, cond4_1 (grid4.coords t) :=
  (by decide +kernel : ∀ t : Fin grid4.N, cond4_1 (grid4.coords t))
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cond4_1 (grid4.coords t) → cfg4.idle 4 (grid4.coords t) = false := by decide +kernel
theorem liveAt4_5 : ∀ t : Fin cfg4.N, cond4_1 (grid4.coords t) → cfg4.idle 5 (grid4.coords t) = false := by decide +kernel

/-- One staging buffer of each output window, through which its contents are stated. -/
abbrev VO4_4 : View sig .tc .vmem S512x256 .f32 := (Memref.whole cc4_stg4_0 : Memref sig .tc .vmem S512x256 .f32).view
abbrev VO4_5 : View sig .tc .vmem S512x256 .bf16 := (Memref.whole cc4_stg5_0 : Memref sig .tc .vmem S512x256 .bf16).view
abbrev ms4_0 (t : Fin cfg4.N) : Memref sig .tc .vmem S512x512 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S256x512 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S256x512 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x256 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S512x256 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S512x256 .bf16 := win4_5.stage (cfg4.slots t 5)
abbrev hs4_5 (t : Fin cfg4.N) : (ms4_5 t).IsWhole := hstage4_5 ((cfg4.slots t 5).cast nbuf4_5)
/-- The accumulator: a whole buffer of the kernel's own, passed beside the windows. -/
abbrev scM4 : Memref sig .tc .vmem S512x256 .f32 := Memref.whole cc4_scratch0
abbrev VS4 : View sig .tc .vmem S512x256 .f32 := (scM4).view

/-- The region's invariant, opened at the accumulator: it at some contents, every other buffer the region does not
    stage unopened, the generator register at some state. -/
theorem PhiA4_eq (c : Dev nD) :
    (Pipeline.ΦA spec4 c : sProp 𝕄)
      = iprop(iprop((∃ d, owns (c : Thread nD τ) scM4 fullShare d) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

end Cert.KernelIdeal.Hand

end
-- ==== Proof.KernelIdeal.Run4D.lean ====
import proofs.«152868_j57621281243253_2_alg».proof.Proof.KernelIdeal.C4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 4, the body run whole in one case of its two conditionals (the accumulator is reset, the outputs are stored):
    on whole staging memrefs holding the input blocks, the body runs to its end; what it leaves in the accumulator
    and in the two output buffers is found by the run as a list of stored pieces. -/

set_option maxHeartbeats 1000000 in
noncomputable def kernelRun4_D (c : Dev nD) (i : grid4.Coords) (arg3 : Memref sig .tc .vmem S512x512 .bf16) (harg3 : arg3.IsWhole) (arg4 : Memref sig .tc .vmem S256x512 .f32) (harg4 : arg4.IsWhole) (arg5 : Memref sig .tc .vmem S256x512 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .bf16) (harg8 : arg8.IsWhole) (arg9 : Memref sig .tc .vmem S512x256 .f32) (harg9 : arg9.IsWhole) (hc0 : cond4_0 i) (hc1 : cond4_1 i)
    (x0 : Vec F S512x512 .bf16) (x1 : Vec F S256x512 .f32) (x2 : Vec F S256x512 .f32) (x3 : Vec F S1x256 .f32) :
    Σ' (L4 : List (View.Piece (Elt F) S512x256 .f32)) (L5 : List (View.Piece (Elt F) S512x256 .bf16)), { LS0 : List (View.Piece (Elt F) S512x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5)
                ∗ (∃ f, arg9.view.loc (c : Thread nD τ) ↦[arg9.view.set]{fullShare} arg9.view.writes (Elt F) f LS0)) -∗ K ⟨⟩))
          ⊢ wp frame (wpE (defs₀ (F := F)) Variants.none c none) E (cc4__layer_kernel i arg3 harg3 arg4 harg4 arg5 harg5 arg6 harg6 arg7 harg7 arg8 harg8 arg9 harg9) K } := by
  refine ⟨?_, ?_, ?_, fun E K => ?run⟩
  case run =>
    simp only [cc4__layer_kernel_eq_skeleton]; unfold cc4__layer_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    iexists _; iexact HS0

end Cert.KernelIdeal.Hand

end
-- ==== Proof.KernelIdeal.Rgn4.lean ====
import proofs.«152868_j57621281243253_2_alg».proof.Proof.KernelIdeal.Run4D

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 4 over any contents `V` of the buffers at its entry: what each output window's staging buffer and the
    accumulator hold after the body at every grid point, the proof data of the region's pipeline, and the body
    obligation. Every point resets the accumulator, adds its product and stores both outputs. -/

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- The pieces case D stores into output window 4 tile its block, so they cover it. -/
theorem cover4_D_4 (c : Dev nD) (i : grid4.Coords) (arg3 : Memref sig .tc .vmem S512x512 .bf16) (harg3 : arg3.IsWhole) (arg4 : Memref sig .tc .vmem S256x512 .f32) (harg4 : arg4.IsWhole) (arg5 : Memref sig .tc .vmem S256x512 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .bf16) (harg8 : arg8.IsWhole) (arg9 : Memref sig .tc .vmem S512x256 .f32) (harg9 : arg9.IsWhole) (hc0 : cond4_0 i) (hc1 : cond4_1 i)
    (x0 : Vec F S512x512 .bf16) (x1 : Vec F S256x512 .f32) (x2 : Vec F S256x512 .f32) (x3 : Vec F S1x256 .f32) (y : S512x256.Idx) :
    ∃ pc ∈ (kernelRun4_D c i arg3 harg3 arg4 harg4 arg5 harg5 arg6 harg6 arg7 harg7 arg8 harg8 arg9 harg9 hc0 hc1 x0 x1 x2 x3).1, y ∈ pc.1.set :=
  View.cover_of_tiledL (kernelRun4_D c i arg3 harg3 arg4 harg4 arg5 harg5 arg6 harg6 arg7 harg7 arg8 harg8 arg9 harg9 hc0 hc1 x0 x1 x2 x3).1 S512x256.size (by sl_kernel_rfl) y
/-- The same for output window 5. -/
theorem cover4_D_5 (c : Dev nD) (i : grid4.Coords) (arg3 : Memref sig .tc .vmem S512x512 .bf16) (harg3 : arg3.IsWhole) (arg4 : Memref sig .tc .vmem S256x512 .f32) (harg4 : arg4.IsWhole) (arg5 : Memref sig .tc .vmem S256x512 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .bf16) (harg8 : arg8.IsWhole) (arg9 : Memref sig .tc .vmem S512x256 .f32) (harg9 : arg9.IsWhole) (hc0 : cond4_0 i) (hc1 : cond4_1 i)
    (x0 : Vec F S512x512 .bf16) (x1 : Vec F S256x512 .f32) (x2 : Vec F S256x512 .f32) (x3 : Vec F S1x256 .f32) (y : S512x256.Idx) :
    ∃ pc ∈ (kernelRun4_D c i arg3 harg3 arg4 harg4 arg5 harg5 arg6 harg6 arg7 harg7 arg8 harg8 arg9 harg9 hc0 hc1 x0 x1 x2 x3).2.1, y ∈ pc.1.set :=
  View.cover_of_tiledL (kernelRun4_D c i arg3 harg3 arg4 harg4 arg5 harg5 arg6 harg6 arg7 harg7 arg8 harg8 arg9 harg9 hc0 hc1 x0 x1 x2 x3).2.1 S512x256.size (by sl_kernel_rfl) y

/-- What case D leaves in output window 4's staging buffer: its pieces read back. -/
def out4_D_4 (c : Dev nD) (i : grid4.Coords) (arg3 : Memref sig .tc .vmem S512x512 .bf16) (harg3 : arg3.IsWhole) (arg4 : Memref sig .tc .vmem S256x512 .f32) (harg4 : arg4.IsWhole) (arg5 : Memref sig .tc .vmem S256x512 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .bf16) (harg8 : arg8.IsWhole) (arg9 : Memref sig .tc .vmem S512x256 .f32) (harg9 : arg9.IsWhole) (hc0 : cond4_0 i) (hc1 : cond4_1 i)
    (x0 : Vec F S512x512 .bf16) (x1 : Vec F S256x512 .f32) (x2 : Vec F S256x512 .f32) (x3 : Vec F S1x256 .f32) : Vec F S512x256 .f32 :=
  VO4_4.read (Elt F) (VO4_4.writes (Elt F) VO4_4.junk (kernelRun4_D c i arg3 harg3 arg4 harg4 arg5 harg5 arg6 harg6 arg7 harg7 arg8 harg8 arg9 harg9 hc0 hc1 x0 x1 x2 x3).1)
/-- The same for output window 5. -/
def out4_D_5 (c : Dev nD) (i : grid4.Coords) (arg3 : Memref sig .tc .vmem S512x512 .bf16) (harg3 : arg3.IsWhole) (arg4 : Memref sig .tc .vmem S256x512 .f32) (harg4 : arg4.IsWhole) (arg5 : Memref sig .tc .vmem S256x512 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .bf16) (harg8 : arg8.IsWhole) (arg9 : Memref sig .tc .vmem S512x256 .f32) (harg9 : arg9.IsWhole) (hc0 : cond4_0 i) (hc1 : cond4_1 i)
    (x0 : Vec F S512x512 .bf16) (x1 : Vec F S256x512 .f32) (x2 : Vec F S256x512 .f32) (x3 : Vec F S1x256 .f32) : Vec F S512x256 .bf16 :=
  VO4_5.read (Elt F) (VO4_5.writes (Elt F) VO4_5.junk (kernelRun4_D c i arg3 harg3 arg4 harg4 arg5 harg5 arg6 harg6 arg7 harg7 arg8 harg8 arg9 harg9 hc0 hc1 x0 x1 x2 x3).2.1)
/-- The pieces case D stores into the accumulator cover it. -/
theorem scover4_D (c : Dev nD) (i : grid4.Coords) (arg3 : Memref sig .tc .vmem S512x512 .bf16) (harg3 : arg3.IsWhole) (arg4 : Memref sig .tc .vmem S256x512 .f32) (harg4 : arg4.IsWhole) (arg5 : Memref sig .tc .vmem S256x512 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .bf16) (harg8 : arg8.IsWhole) (arg9 : Memref sig .tc .vmem S512x256 .f32) (harg9 : arg9.IsWhole) (hc0 : cond4_0 i) (hc1 : cond4_1 i)
    (x0 : Vec F S512x512 .bf16) (x1 : Vec F S256x512 .f32) (x2 : Vec F S256x512 .f32) (x3 : Vec F S1x256 .f32) (y : S512x256.Idx) :
    ∃ pc ∈ (kernelRun4_D c i arg3 harg3 arg4 harg4 arg5 harg5 arg6 harg6 arg7 harg7 arg8 harg8 arg9 harg9 hc0 hc1 x0 x1 x2 x3).2.2.1, y ∈ pc.1.set :=
  View.cover_of_tiledL (kernelRun4_D c i arg3 harg3 arg4 harg4 arg5 harg5 arg6 harg6 arg7 harg7 arg8 harg8 arg9 harg9 hc0 hc1 x0 x1 x2 x3).2.2.1 S512x256.size (by sl_kernel_rfl) y
/-- What case D leaves in the accumulator. -/
def sout4_D (c : Dev nD) (i : grid4.Coords) (arg3 : Memref sig .tc .vmem S512x512 .bf16) (harg3 : arg3.IsWhole) (arg4 : Memref sig .tc .vmem S256x512 .f32) (harg4 : arg4.IsWhole) (arg5 : Memref sig .tc .vmem S256x512 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .bf16) (harg8 : arg8.IsWhole) (arg9 : Memref sig .tc .vmem S512x256 .f32) (harg9 : arg9.IsWhole) (hc0 : cond4_0 i) (hc1 : cond4_1 i)
    (x0 : Vec F S512x512 .bf16) (x1 : Vec F S256x512 .f32) (x2 : Vec F S256x512 .f32) (x3 : Vec F S1x256 .f32) : Vec F S512x256 .f32 :=
  VS4.read (Elt F) (VS4.writes (Elt F) VS4.junk (kernelRun4_D c i arg3 harg3 arg4 harg4 arg5 harg5 arg6 harg6 arg7 harg7 arg8 harg8 arg9 harg9 hc0 hc1 x0 x1 x2 x3).2.2.1)

/-- The proof data of region 4's pipeline on core `c`: the arrays as the region finds them; after the body at point
    `t` each input's buffer at its block and the outputs' at what the point leaves; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_D_4 c (grid4.coords t) (ms4_0 t) (hs4_0 t) (ms4_1 t) (hs4_1 t) (ms4_2 t) (hs4_2 t) (ms4_3 t) (hs4_3 t) (ms4_4 t) (hs4_4 t) (ms4_5 t) (hs4_5 t) scM4 (Memref.isWhole_whole _) (hcond4_0 t) (hcond4_1 t) (iblk4 V c 0 t) (iblk4 V c 1 t) (iblk4 V c 2 t) (iblk4 V c 3 t)
    | ⟨5, _⟩ => out4_D_5 c (grid4.coords t) (ms4_0 t) (hs4_0 t) (ms4_1 t) (hs4_1 t) (ms4_2 t) (hs4_2 t) (ms4_3 t) (hs4_3 t) (ms4_4 t) (hs4_4 t) (ms4_5 t) (hs4_5 t) scM4 (Memref.isWhole_whole _) (hcond4_0 t) (hcond4_1 t) (iblk4 V c 0 t) (iblk4 V c 1 t) (iblk4 V c 2 t) (iblk4 V c 3 t)
  Φ t := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_D_4 c (grid4.coords t) (ms4_0 t) (hs4_0 t) (ms4_1 t) (hs4_1 t) (ms4_2 t) (hs4_2 t) (ms4_3 t) (hs4_3 t) (ms4_4 t) (hs4_4 t) (ms4_5 t) (hs4_5 t) scM4 (Memref.isWhole_whole _) (hcond4_0 t) (hcond4_1 t) (iblk4 V c 0 t) (iblk4 V c 1 t) (iblk4 V c 2 t) (iblk4 V c 3 t) := by dsimp only [dat4]
theorem after4_5 (c : Dev nD) (t : Fin cfg4.N) : (dat4 V c).after 5 t = out4_D_5 c (grid4.coords t) (ms4_0 t) (hs4_0 t) (ms4_1 t) (hs4_1 t) (ms4_2 t) (hs4_2 t) (ms4_3 t) (hs4_3 t) (ms4_4 t) (hs4_4 t) (ms4_5 t) (hs4_5 t) scM4 (Memref.isWhole_whole _) (hcond4_0 t) (hcond4_1 t) (iblk4 V c 0 t) (iblk4 V c 1 t) (iblk4 V c 2 t) (iblk4 V c 3 t) := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t)

set_option maxHeartbeats 4800000 in
/-- The body at any point: the inputs' memrefs hold their blocks; the run applies; the invariant hands the body the
    accumulator at some contents and takes it back at some contents; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = Pipeline.ΦA spec4 c from rfl, show (dat4 V c).Φ t.castSucc = Pipeline.ΦA spec4 c from rfl, PhiA4_eq]
  ·
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t (hcond4_1 t)], after4_4]
      rw [show (dat4 V c).leavesExact 5 t = owns (c : Thread nD τ) (ms4_5 t) fullShare ((dat4 V c).after 5 t) from by
        unfold Dat.leavesExact; rw [liveAt4_5 t (hcond4_1 t)], after4_5]
      unfold out4_D_4 out4_D_5; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun4_D c (grid4.coords t) _ _ _ _ _ _ _ _ _ _ _ _ _ _ (hcond4_0 t) (hcond4_1 t) (iblk4 V c 0 t) (iblk4 V c 1 t) (iblk4 V c 2 t) (iblk4 V c 3 t)).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 HR Hg]
      · isplitl [HS0 HR]
        · isplitl [HS0]
          · iexists _; unfold owns; iexists _; isplitr
            swap; · iexact HS0
            ipureintro; rfl
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover4_D_4 c _ _ _ _ _ _ _ _ _ _ _ _ _ _ _ _ _ _ _ _ _)
      unfold owns; iexists _; isplitr
      swap; · iexact H5
      ipureintro; exact View.read_writes_of_cover _ _ _ _ _ (cover4_D_5 c _ _ _ _ _ _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := .rfl
theorem hout4 (c : Dev nD) : (dat4 V c).Φ (Fin.last cfg4.N) ⊢ Pipeline.ΦA spec4 c := .rfl

end Cert.KernelIdeal.Hand

end
-- ==== Proof.KernelIdeal.C5.lean ====
import proofs.«152868_j57621281243253_2_alg».proof.Proof.Gen.KernelIdeal.Launch
import proofs.«152868_j57621281243253_2_alg».proof.Proof.Gen.KernelIdeal.Skeleton
import proofs.«152868_j57621281243253_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 5: where on its grid the body's two conditionals hold, where its output windows are idle, and the
    memrefs the body is called with. The body resets its accumulator when the last grid coordinate is 0 and stores
    its two outputs when that coordinate is the last one. -/

/-- The accumulator is reset: the last grid coordinate is 0. -/
abbrev cond5_0 (i : grid5.Coords) : Prop := (Scalar.cmpi .ne (Scalar.extui (Scalar.cmpi .eq (BitVec.ofNat 32 (i 2).val) 0#32)) 0#32) = 1#1
/-- The outputs are stored: the last grid coordinate is the last one. -/
abbrev cond5_1 (i : grid5.Coords) : Prop := k5_cond2 i = 1#1

theorem hcond5_0 : ∀ t : Fin cfg5.N, cond5_0 (grid5.coords t) :=
  (by decide +kernel : ∀ t : Fin grid5.N, cond5_0 (grid5.coords t))
theorem hcond5_1 : ∀ t : Fin cfg5.N, cond5_1 (grid5.coords t) :=
  (by decide +kernel : ∀ t : Fin grid5.N, cond5_1 (grid5.coords t))
theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
theorem liveAt5_3 : ∀ t : Fin cfg5.N, cfg5.idle 3 (grid5.coords t) = false := by decide +kernel
theorem liveAt5_4 : ∀ t : Fin cfg5.N, cond5_1 (grid5.coords t) → cfg5.idle 4 (grid5.coords t) = false := by decide +kernel
theorem liveAt5_5 : ∀ t : Fin cfg5.N, cond5_1 (grid5.coords t) → cfg5.idle 5 (grid5.coords t) = false := by decide +kernel

/-- One staging buffer of each output window, through which its contents are stated. -/
abbrev VO5_4 : View sig .tc .vmem S512x1 .f32 := (Memref.whole cc5_stg4_0 : Memref sig .tc .vmem S512x1 .f32).view
abbrev VO5_5 : View sig .tc .vmem S512x1 .bf16 := (Memref.whole cc5_stg5_0 : Memref sig .tc .vmem S512x1 .bf16).view
abbrev ms5_0 (t : Fin cfg5.N) : Memref sig .tc .vmem S512x256 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1x256 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x256 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x1 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S512x1 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S512x1 .bf16 := win5_5.stage (cfg5.slots t 5)
abbrev hs5_5 (t : Fin cfg5.N) : (ms5_5 t).IsWhole := hstage5_5 ((cfg5.slots t 5).cast nbuf5_5)
/-- The accumulator: a whole buffer of the kernel's own, passed beside the windows. -/
abbrev scM5 : Memref sig .tc .vmem S512x1 .f32 := Memref.whole cc5_scratch0
abbrev VS5 : View sig .tc .vmem S512x1 .f32 := (scM5).view

/-- The region's invariant, opened at the accumulator: it at some contents, every other buffer the region does not
    stage unopened, the generator register at some state. -/
theorem PhiA5_eq (c : Dev nD) :
    (Pipeline.ΦA spec5 c : sProp 𝕄)
      = iprop(iprop((∃ d, owns (c : Thread nD τ) scM5 fullShare d) ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; try rfl

end Cert.KernelIdeal.Hand

end
-- ==== Proof.KernelIdeal.Run5D.lean ====
import proofs.«152868_j57621281243253_2_alg».proof.Proof.KernelIdeal.C5

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 5, the body run whole in one case of its two conditionals (the accumulator is reset, the outputs are stored):
    on whole staging memrefs holding the input blocks, the body runs to its end; what it leaves in the accumulator
    and in the two output buffers is found by the run as a list of stored pieces. -/

set_option maxHeartbeats 1000000 in
noncomputable def kernelRun5_D (c : Dev nD) (i : grid5.Coords) (arg3 : Memref sig .tc .vmem S512x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : cond5_0 i) (hc1 : cond5_1 i)
    (x0 : Vec F S512x256 .bf16) (x1 : Vec F S1x256 .f32) (x2 : Vec F S1x256 .f32) (x3 : Vec F S1x1 .f32) :
    Σ' (L4 : List (View.Piece (Elt F) S512x1 .f32)) (L5 : List (View.Piece (Elt F) S512x1 .bf16)), { LS0 : List (View.Piece (Elt F) S512x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5)
                ∗ (∃ f, arg9.view.loc (c : Thread nD τ) ↦[arg9.view.set]{fullShare} arg9.view.writes (Elt F) f LS0)) -∗ K ⟨⟩))
          ⊢ wp frame (wpE (defs₀ (F := F)) Variants.none c none) E (cc5__layer_kernel i arg3 harg3 arg4 harg4 arg5 harg5 arg6 harg6 arg7 harg7 arg8 harg8 arg9 harg9) K } := by
  refine ⟨?_, ?_, ?_, fun E K => ?run⟩
  case run =>
    simp only [cc5__layer_kernel_eq_skeleton]; unfold cc5__layer_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    iexists _; iexact HS0

end Cert.KernelIdeal.Hand

end
-- ==== Proof.KernelIdeal.Rgn5.lean ====
import proofs.«152868_j57621281243253_2_alg».proof.Proof.KernelIdeal.Run5D

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 5 over any contents `V` of the buffers at its entry: what each output window's staging buffer and the
    accumulator hold after the body at every grid point, the proof data of the region's pipeline, and the body
    obligation. Every point resets the accumulator, adds its product and stores both outputs. -/

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- The pieces case D stores into output window 4 tile its block, so they cover it. -/
theorem cover5_D_4 (c : Dev nD) (i : grid5.Coords) (arg3 : Memref sig .tc .vmem S512x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : cond5_0 i) (hc1 : cond5_1 i)
    (x0 : Vec F S512x256 .bf16) (x1 : Vec F S1x256 .f32) (x2 : Vec F S1x256 .f32) (x3 : Vec F S1x1 .f32) (y : S512x1.Idx) :
    ∃ pc ∈ (kernelRun5_D c i arg3 harg3 arg4 harg4 arg5 harg5 arg6 harg6 arg7 harg7 arg8 harg8 arg9 harg9 hc0 hc1 x0 x1 x2 x3).1, y ∈ pc.1.set :=
  View.cover_of_tiledL (kernelRun5_D c i arg3 harg3 arg4 harg4 arg5 harg5 arg6 harg6 arg7 harg7 arg8 harg8 arg9 harg9 hc0 hc1 x0 x1 x2 x3).1 S512x1.size (by sl_kernel_rfl) y
/-- The same for output window 5. -/
theorem cover5_D_5 (c : Dev nD) (i : grid5.Coords) (arg3 : Memref sig .tc .vmem S512x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : cond5_0 i) (hc1 : cond5_1 i)
    (x0 : Vec F S512x256 .bf16) (x1 : Vec F S1x256 .f32) (x2 : Vec F S1x256 .f32) (x3 : Vec F S1x1 .f32) (y : S512x1.Idx) :
    ∃ pc ∈ (kernelRun5_D c i arg3 harg3 arg4 harg4 arg5 harg5 arg6 harg6 arg7 harg7 arg8 harg8 arg9 harg9 hc0 hc1 x0 x1 x2 x3).2.1, y ∈ pc.1.set :=
  View.cover_of_tiledL (kernelRun5_D c i arg3 harg3 arg4 harg4 arg5 harg5 arg6 harg6 arg7 harg7 arg8 harg8 arg9 harg9 hc0 hc1 x0 x1 x2 x3).2.1 S512x1.size (by sl_kernel_rfl) y

/-- What case D leaves in output window 4's staging buffer: its pieces read back. -/
def out5_D_4 (c : Dev nD) (i : grid5.Coords) (arg3 : Memref sig .tc .vmem S512x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : cond5_0 i) (hc1 : cond5_1 i)
    (x0 : Vec F S512x256 .bf16) (x1 : Vec F S1x256 .f32) (x2 : Vec F S1x256 .f32) (x3 : Vec F S1x1 .f32) : Vec F S512x1 .f32 :=
  VO5_4.read (Elt F) (VO5_4.writes (Elt F) VO5_4.junk (kernelRun5_D c i arg3 harg3 arg4 harg4 arg5 harg5 arg6 harg6 arg7 harg7 arg8 harg8 arg9 harg9 hc0 hc1 x0 x1 x2 x3).1)
/-- The same for output window 5. -/
def out5_D_5 (c : Dev nD) (i : grid5.Coords) (arg3 : Memref sig .tc .vmem S512x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : cond5_0 i) (hc1 : cond5_1 i)
    (x0 : Vec F S512x256 .bf16) (x1 : Vec F S1x256 .f32) (x2 : Vec F S1x256 .f32) (x3 : Vec F S1x1 .f32) : Vec F S512x1 .bf16 :=
  VO5_5.read (Elt F) (VO5_5.writes (Elt F) VO5_5.junk (kernelRun5_D c i arg3 harg3 arg4 harg4 arg5 harg5 arg6 harg6 arg7 harg7 arg8 harg8 arg9 harg9 hc0 hc1 x0 x1 x2 x3).2.1)
/-- The pieces case D stores into the accumulator cover it. -/
theorem scover5_D (c : Dev nD) (i : grid5.Coords) (arg3 : Memref sig .tc .vmem S512x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : cond5_0 i) (hc1 : cond5_1 i)
    (x0 : Vec F S512x256 .bf16) (x1 : Vec F S1x256 .f32) (x2 : Vec F S1x256 .f32) (x3 : Vec F S1x1 .f32) (y : S512x1.Idx) :
    ∃ pc ∈ (kernelRun5_D c i arg3 harg3 arg4 harg4 arg5 harg5 arg6 harg6 arg7 harg7 arg8 harg8 arg9 harg9 hc0 hc1 x0 x1 x2 x3).2.2.1, y ∈ pc.1.set :=
  View.cover_of_tiledL (kernelRun5_D c i arg3 harg3 arg4 harg4 arg5 harg5 arg6 harg6 arg7 harg7 arg8 harg8 arg9 harg9 hc0 hc1 x0 x1 x2 x3).2.2.1 S512x1.size (by sl_kernel_rfl) y
/-- What case D leaves in the accumulator. -/
def sout5_D (c : Dev nD) (i : grid5.Coords) (arg3 : Memref sig .tc .vmem S512x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : cond5_0 i) (hc1 : cond5_1 i)
    (x0 : Vec F S512x256 .bf16) (x1 : Vec F S1x256 .f32) (x2 : Vec F S1x256 .f32) (x3 : Vec F S1x1 .f32) : Vec F S512x1 .f32 :=
  VS5.read (Elt F) (VS5.writes (Elt F) VS5.junk (kernelRun5_D c i arg3 harg3 arg4 harg4 arg5 harg5 arg6 harg6 arg7 harg7 arg8 harg8 arg9 harg9 hc0 hc1 x0 x1 x2 x3).2.2.1)

/-- The proof data of region 5's pipeline on core `c`: the arrays as the region finds them; after the body at point
    `t` each input's buffer at its block and the outputs' at what the point leaves; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_D_4 c (grid5.coords t) (ms5_0 t) (hs5_0 t) (ms5_1 t) (hs5_1 t) (ms5_2 t) (hs5_2 t) (ms5_3 t) (hs5_3 t) (ms5_4 t) (hs5_4 t) (ms5_5 t) (hs5_5 t) scM5 (Memref.isWhole_whole _) (hcond5_0 t) (hcond5_1 t) (iblk5 V c 0 t) (iblk5 V c 1 t) (iblk5 V c 2 t) (iblk5 V c 3 t)
    | ⟨5, _⟩ => out5_D_5 c (grid5.coords t) (ms5_0 t) (hs5_0 t) (ms5_1 t) (hs5_1 t) (ms5_2 t) (hs5_2 t) (ms5_3 t) (hs5_3 t) (ms5_4 t) (hs5_4 t) (ms5_5 t) (hs5_5 t) scM5 (Memref.isWhole_whole _) (hcond5_0 t) (hcond5_1 t) (iblk5 V c 0 t) (iblk5 V c 1 t) (iblk5 V c 2 t) (iblk5 V c 3 t)
  Φ t := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5_D_4 c (grid5.coords t) (ms5_0 t) (hs5_0 t) (ms5_1 t) (hs5_1 t) (ms5_2 t) (hs5_2 t) (ms5_3 t) (hs5_3 t) (ms5_4 t) (hs5_4 t) (ms5_5 t) (hs5_5 t) scM5 (Memref.isWhole_whole _) (hcond5_0 t) (hcond5_1 t) (iblk5 V c 0 t) (iblk5 V c 1 t) (iblk5 V c 2 t) (iblk5 V c 3 t) := by dsimp only [dat5]
theorem after5_5 (c : Dev nD) (t : Fin cfg5.N) : (dat5 V c).after 5 t = out5_D_5 c (grid5.coords t) (ms5_0 t) (hs5_0 t) (ms5_1 t) (hs5_1 t) (ms5_2 t) (hs5_2 t) (ms5_3 t) (hs5_3 t) (ms5_4 t) (hs5_4 t) (ms5_5 t) (hs5_5 t) scM5 (Memref.isWhole_whole _) (hcond5_0 t) (hcond5_1 t) (iblk5 V c 0 t) (iblk5 V c 1 t) (iblk5 V c 2 t) (iblk5 V c 3 t) := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t)

set_option maxHeartbeats 4800000 in
/-- The body at any point: the inputs' memrefs hold their blocks; the run applies; the invariant hands the body the
    accumulator at some contents and takes it back at some contents; the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).owesAt () t.succ = (dat5 V c).owesAt () t.castSucc from rfl]
  rw [show (dat5 V c).Φ t.succ = Pipeline.ΦA spec5 c from rfl, show (dat5 V c).Φ t.castSucc = Pipeline.ΦA spec5 c from rfl, PhiA5_eq]
  ·
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [show (dat5 V c).leavesExact 3 t = owns (c : Thread nD τ) (ms5_3 t) fullShare ((dat5 V c).after 3 t) from by
        unfold Dat.leavesExact; rw [liveAt5_3 t], after5_3]
      rw [show (dat5 V c).leavesExact 4 t = owns (c : Thread nD τ) (ms5_4 t) fullShare ((dat5 V c).after 4 t) from by
        unfold Dat.leavesExact; rw [liveAt5_4 t (hcond5_1 t)], after5_4]
      rw [show (dat5 V c).leavesExact 5 t = owns (c : Thread nD τ) (ms5_5 t) fullShare ((dat5 V c).after 5 t) from by
        unfold Dat.leavesExact; rw [liveAt5_5 t (hcond5_1 t)], after5_5]
      unfold out5_D_4 out5_D_5; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun5_D c (grid5.coords t) _ _ _ _ _ _ _ _ _ _ _ _ _ _ (hcond5_0 t) (hcond5_1 t) (iblk5 V c 0 t) (iblk5 V c 1 t) (iblk5 V c 2 t) (iblk5 V c 3 t)).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 HR Hg]
      · isplitl [HS0 HR]
        · isplitl [HS0]
          · iexists _; unfold owns; iexists _; isplitr
            swap; · iexact HS0
            ipureintro; rfl
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover5_D_4 c _ _ _ _ _ _ _ _ _ _ _ _ _ _ _ _ _ _ _ _ _)
      unfold owns; iexists _; isplitr
      swap; · iexact H5
      ipureintro; exact View.read_writes_of_cover _ _ _ _ _ (cover5_D_5 c _ _ _ _ _ _ _ _ _ _ _ _ _ _ _ _ _ _ _ _ _)

/-- The library's body obligation, at every point. -/
theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := .rfl
theorem hout5 (c : Dev nD) : (dat5 V c).Φ (Fin.last cfg5.N) ⊢ Pipeline.ΦA spec5 c := .rfl

end Cert.KernelIdeal.Hand

end
-- ==== Proof.KernelIdeal.C6.lean ====
import proofs.«152868_j57621281243253_2_alg».proof.Proof.Gen.KernelIdeal.Launch
import proofs.«152868_j57621281243253_2_alg».proof.Proof.Gen.KernelIdeal.Skeleton
import proofs.«152868_j57621281243253_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 6: where on its grid the body's two conditionals hold, where its output windows are idle, and the
    memrefs the body is called with. The body resets its accumulator when the last grid coordinate is 0 and stores
    its two outputs when that coordinate is the last one. -/

/-- The accumulator is reset: the last grid coordinate is 0. -/
abbrev cond6_0 (i : grid6.Coords) : Prop := (Scalar.cmpi .ne (Scalar.extui (Scalar.cmpi .eq (BitVec.ofNat 32 (i 2).val) 0#32)) 0#32) = 1#1
/-- The outputs are stored: the last grid coordinate is the last one. -/
abbrev cond6_1 (i : grid6.Coords) : Prop := k6_cond2 i = 1#1

theorem hcond6_0 : ∀ t : Fin cfg6.N, cond6_0 (grid6.coords t) ↔ t.val % 6 = 0 :=
  (by decide +kernel : ∀ t : Fin grid6.N, cond6_0 (grid6.coords t) ↔ t.val % 6 = 0)
theorem hcond6_1 : ∀ t : Fin cfg6.N, cond6_1 (grid6.coords t) ↔ t.val % 6 = 5 :=
  (by decide +kernel : ∀ t : Fin grid6.N, cond6_1 (grid6.coords t) ↔ t.val % 6 = 5)
theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem liveAt6_3 : ∀ t : Fin cfg6.N, cfg6.idle 3 (grid6.coords t) = false := by decide +kernel
theorem liveAt6_4 : ∀ t : Fin cfg6.N, cond6_1 (grid6.coords t) → cfg6.idle 4 (grid6.coords t) = false := by decide +kernel
theorem idleAt6_4 : ∀ t : Fin cfg6.N, ¬cond6_1 (grid6.coords t) → cfg6.idle 4 (grid6.coords t) = true := by decide +kernel
theorem noFlush6_4 : ∀ t : Fin cfg6.N, ¬cond6_1 (grid6.coords t) → (cfg6.win 4).flush t = false := by decide +kernel
theorem liveAt6_5 : ∀ t : Fin cfg6.N, cond6_1 (grid6.coords t) → cfg6.idle 5 (grid6.coords t) = false := by decide +kernel
theorem idleAt6_5 : ∀ t : Fin cfg6.N, ¬cond6_1 (grid6.coords t) → cfg6.idle 5 (grid6.coords t) = true := by decide +kernel
theorem noFlush6_5 : ∀ t : Fin cfg6.N, ¬cond6_1 (grid6.coords t) → (cfg6.win 5).flush t = false := by decide +kernel

/-- One staging buffer of each output window, through which its contents are stated. -/
abbrev VO6_4 : View sig .tc .vmem S512x1 .f32 := (Memref.whole cc6_stg4_0 : Memref sig .tc .vmem S512x1 .f32).view
abbrev VO6_5 : View sig .tc .vmem S512x1 .bf16 := (Memref.whole cc6_stg5_0 : Memref sig .tc .vmem S512x1 .bf16).view
abbrev ms6_0 (t : Fin cfg6.N) : Memref sig .tc .vmem S512x1280 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S1x1280 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1x1280 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x1 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S512x1 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S512x1 .bf16 := win6_5.stage (cfg6.slots t 5)
abbrev hs6_5 (t : Fin cfg6.N) : (ms6_5 t).IsWhole := hstage6_5 ((cfg6.slots t 5).cast nbuf6_5)
/-- The accumulator: a whole buffer of the kernel's own, passed beside the windows. -/
abbrev scM6 : Memref sig .tc .vmem S512x1 .f32 := Memref.whole cc6_scratch0
abbrev VS6 : View sig .tc .vmem S512x1 .f32 := (scM6).view

/-- The region's invariant, opened at the accumulator: it at some contents, every other buffer the region does not
    stage unopened, the generator register at some state. -/
theorem PhiA6_eq (c : Dev nD) :
    (Pipeline.ΦA spec6 c : sProp 𝕄)
      = iprop(iprop((∃ d, owns (c : Thread nD τ) scM6 fullShare d) ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6, owns_whole]; try rfl

end Cert.KernelIdeal.Hand

end
-- ==== Proof.KernelIdeal.Run6A.lean ====
import proofs.«152868_j57621281243253_2_alg».proof.Proof.KernelIdeal.C6

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 6, the body run whole in one case of its two conditionals (the accumulator is reset, the outputs are left alone):
    on whole staging memrefs holding the input blocks, the body runs to its end; what it leaves in the accumulator
    is found by the run as a list of stored pieces. -/

set_option maxHeartbeats 1000000 in
noncomputable def kernelRun6_A (c : Dev nD) (i : grid6.Coords) (arg3 : Memref sig .tc .vmem S512x1280 .f32) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : cond6_0 i) (hc1 : ¬cond6_1 i)
    (x0 : Vec F S512x1280 .f32) (x1 : Vec F S1x1280 .f32) (x2 : Vec F S1x1280 .f32) (x3 : Vec F S1x1 .f32) :
    Σ' (L4 : List (View.Piece (Elt F) S512x1 .f32)) (L5 : List (View.Piece (Elt F) S512x1 .bf16)), { LS0 : List (View.Piece (Elt F) S512x1 .f32) //
      ∀ (xi4 : Vec F S512x1 .f32) (xi5 : Vec F S512x1 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi4 ∗ owns (c : Thread nD τ) arg8 fullShare xi5
                ∗ (∃ f, arg9.view.loc (c : Thread nD τ) ↦[arg9.view.set]{fullShare} arg9.view.writes (Elt F) f LS0)) -∗ K ⟨⟩))
          ⊢ wp frame (wpE (defs₀ (F := F)) Variants.none c none) E (cc6__layer_kernel i arg3 harg3 arg4 harg4 arg5 harg5 arg6 harg6 arg7 harg7 arg8 harg8 arg9 harg9) K } := by
  refine ⟨[], [], ?_, fun xi4 xi5 E K => ?run⟩
  case run =>
    simp only [cc6__layer_kernel_eq_skeleton]; unfold cc6__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Hand

end
-- ==== Proof.KernelIdeal.Run6B.lean ====
import proofs.«152868_j57621281243253_2_alg».proof.Proof.KernelIdeal.C6

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 6, the body run whole in one case of its two conditionals (the accumulator is carried in, the outputs are left alone):
    on whole staging memrefs holding the input blocks, the body runs to its end; what it leaves in the accumulator
    is found by the run as a list of stored pieces. -/

set_option maxHeartbeats 1000000 in
noncomputable def kernelRun6_B (c : Dev nD) (i : grid6.Coords) (arg3 : Memref sig .tc .vmem S512x1280 .f32) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : ¬cond6_0 i) (hc1 : ¬cond6_1 i)
    (x0 : Vec F S512x1280 .f32) (x1 : Vec F S1x1280 .f32) (x2 : Vec F S1x1280 .f32) (x3 : Vec F S1x1 .f32) (xs0 : Vec F S512x1 .f32) :
    Σ' (L4 : List (View.Piece (Elt F) S512x1 .f32)) (L5 : List (View.Piece (Elt F) S512x1 .bf16)), { LS0 : List (View.Piece (Elt F) S512x1 .f32) //
      ∀ (xi4 : Vec F S512x1 .f32) (xi5 : Vec F S512x1 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi4 ∗ owns (c : Thread nD τ) arg8 fullShare xi5
                ∗ (∃ f, arg9.view.loc (c : Thread nD τ) ↦[arg9.view.set]{fullShare} arg9.view.writes (Elt F) f LS0)) -∗ K ⟨⟩))
          ⊢ wp frame (wpE (defs₀ (F := F)) Variants.none c none) E (cc6__layer_kernel i arg3 harg3 arg4 harg4 arg5 harg5 arg6 harg6 arg7 harg7 arg8 harg8 arg9 harg9) K } := by
  refine ⟨[], [], ?_, fun xi4 xi5 E K => ?run⟩
  case run =>
    simp only [cc6__layer_kernel_eq_skeleton]; unfold cc6__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Hand

end
-- ==== Proof.KernelIdeal.Run6C.lean ====
import proofs.«152868_j57621281243253_2_alg».proof.Proof.KernelIdeal.C6

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 6, the body run whole in one case of its two conditionals (the accumulator is carried in, the outputs are stored):
    on whole staging memrefs holding the input blocks, the body runs to its end; what it leaves in the accumulator
    and in the two output buffers is found by the run as a list of stored pieces. -/

set_option maxHeartbeats 1000000 in
noncomputable def kernelRun6_C (c : Dev nD) (i : grid6.Coords) (arg3 : Memref sig .tc .vmem S512x1280 .f32) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : ¬cond6_0 i) (hc1 : cond6_1 i)
    (x0 : Vec F S512x1280 .f32) (x1 : Vec F S1x1280 .f32) (x2 : Vec F S1x1280 .f32) (x3 : Vec F S1x1 .f32) (xs0 : Vec F S512x1 .f32) :
    Σ' (L4 : List (View.Piece (Elt F) S512x1 .f32)) (L5 : List (View.Piece (Elt F) S512x1 .bf16)), { LS0 : List (View.Piece (Elt F) S512x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5)
                ∗ (∃ f, arg9.view.loc (c : Thread nD τ) ↦[arg9.view.set]{fullShare} arg9.view.writes (Elt F) f LS0)) -∗ K ⟨⟩))
          ⊢ wp frame (wpE (defs₀ (F := F)) Variants.none c none) E (cc6__layer_kernel i arg3 harg3 arg4 harg4 arg5 harg5 arg6 harg6 arg7 harg7 arg8 harg8 arg9 harg9) K } := by
  refine ⟨?_, ?_, ?_, fun E K => ?run⟩
  case run =>
    simp only [cc6__layer_kernel_eq_skeleton]; unfold cc6__layer_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    iexists _; iexact HS0

end Cert.KernelIdeal.Hand

end
-- ==== Proof.KernelIdeal.Rgn6.lean ====
import proofs.«152868_j57621281243253_2_alg».proof.Proof.KernelIdeal.Run6A
import proofs.«152868_j57621281243253_2_alg».proof.Proof.KernelIdeal.Run6B
import proofs.«152868_j57621281243253_2_alg».proof.Proof.KernelIdeal.Run6C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 6 over any contents `V` of the buffers at its entry: what each output window's staging buffer and the
    accumulator hold after the body at every grid point, the proof data of the region's pipeline, and the body
    obligation. The grid's last coordinate runs over 6 steps: the first resets the accumulator, every step adds its product, the last stores both outputs; in between the outputs' buffers are left alone and the accumulator is carried. -/

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- What case A leaves in output window 4's staging buffer: its pieces read back (none: a placeholder nothing consults, the window being idle and not written back at these points). -/
def out6_A_4 (c : Dev nD) (i : grid6.Coords) (arg3 : Memref sig .tc .vmem S512x1280 .f32) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : cond6_0 i) (hc1 : ¬cond6_1 i)
    (x0 : Vec F S512x1280 .f32) (x1 : Vec F S1x1280 .f32) (x2 : Vec F S1x1280 .f32) (x3 : Vec F S1x1 .f32) : Vec F S512x1 .f32 :=
  VO6_4.read (Elt F) (VO6_4.writes (Elt F) VO6_4.junk (kernelRun6_A c i arg3 harg3 arg4 harg4 arg5 harg5 arg6 harg6 arg7 harg7 arg8 harg8 arg9 harg9 hc0 hc1 x0 x1 x2 x3).1)
/-- The same for output window 5. -/
def out6_A_5 (c : Dev nD) (i : grid6.Coords) (arg3 : Memref sig .tc .vmem S512x1280 .f32) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : cond6_0 i) (hc1 : ¬cond6_1 i)
    (x0 : Vec F S512x1280 .f32) (x1 : Vec F S1x1280 .f32) (x2 : Vec F S1x1280 .f32) (x3 : Vec F S1x1 .f32) : Vec F S512x1 .bf16 :=
  VO6_5.read (Elt F) (VO6_5.writes (Elt F) VO6_5.junk (kernelRun6_A c i arg3 harg3 arg4 harg4 arg5 harg5 arg6 harg6 arg7 harg7 arg8 harg8 arg9 harg9 hc0 hc1 x0 x1 x2 x3).2.1)
/-- The pieces case A stores into the accumulator cover it. -/
theorem scover6_A (c : Dev nD) (i : grid6.Coords) (arg3 : Memref sig .tc .vmem S512x1280 .f32) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : cond6_0 i) (hc1 : ¬cond6_1 i)
    (x0 : Vec F S512x1280 .f32) (x1 : Vec F S1x1280 .f32) (x2 : Vec F S1x1280 .f32) (x3 : Vec F S1x1 .f32) (y : S512x1.Idx) :
    ∃ pc ∈ (kernelRun6_A c i arg3 harg3 arg4 harg4 arg5 harg5 arg6 harg6 arg7 harg7 arg8 harg8 arg9 harg9 hc0 hc1 x0 x1 x2 x3).2.2.1, y ∈ pc.1.set :=
  View.cover_of_tiledL (kernelRun6_A c i arg3 harg3 arg4 harg4 arg5 harg5 arg6 harg6 arg7 harg7 arg8 harg8 arg9 harg9 hc0 hc1 x0 x1 x2 x3).2.2.1 S512x1.size (by sl_kernel_rfl) y
/-- What case A leaves in the accumulator. -/
def sout6_A (c : Dev nD) (i : grid6.Coords) (arg3 : Memref sig .tc .vmem S512x1280 .f32) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : cond6_0 i) (hc1 : ¬cond6_1 i)
    (x0 : Vec F S512x1280 .f32) (x1 : Vec F S1x1280 .f32) (x2 : Vec F S1x1280 .f32) (x3 : Vec F S1x1 .f32) : Vec F S512x1 .f32 :=
  VS6.read (Elt F) (VS6.writes (Elt F) VS6.junk (kernelRun6_A c i arg3 harg3 arg4 harg4 arg5 harg5 arg6 harg6 arg7 harg7 arg8 harg8 arg9 harg9 hc0 hc1 x0 x1 x2 x3).2.2.1)

/-- What case B leaves in output window 4's staging buffer: its pieces read back (none: a placeholder nothing consults, the window being idle and not written back at these points). -/
def out6_B_4 (c : Dev nD) (i : grid6.Coords) (arg3 : Memref sig .tc .vmem S512x1280 .f32) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : ¬cond6_0 i) (hc1 : ¬cond6_1 i)
    (x0 : Vec F S512x1280 .f32) (x1 : Vec F S1x1280 .f32) (x2 : Vec F S1x1280 .f32) (x3 : Vec F S1x1 .f32) (xs0 : Vec F S512x1 .f32) : Vec F S512x1 .f32 :=
  VO6_4.read (Elt F) (VO6_4.writes (Elt F) VO6_4.junk (kernelRun6_B c i arg3 harg3 arg4 harg4 arg5 harg5 arg6 harg6 arg7 harg7 arg8 harg8 arg9 harg9 hc0 hc1 x0 x1 x2 x3 xs0).1)
/-- The same for output window 5. -/
def out6_B_5 (c : Dev nD) (i : grid6.Coords) (arg3 : Memref sig .tc .vmem S512x1280 .f32) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : ¬cond6_0 i) (hc1 : ¬cond6_1 i)
    (x0 : Vec F S512x1280 .f32) (x1 : Vec F S1x1280 .f32) (x2 : Vec F S1x1280 .f32) (x3 : Vec F S1x1 .f32) (xs0 : Vec F S512x1 .f32) : Vec F S512x1 .bf16 :=
  VO6_5.read (Elt F) (VO6_5.writes (Elt F) VO6_5.junk (kernelRun6_B c i arg3 harg3 arg4 harg4 arg5 harg5 arg6 harg6 arg7 harg7 arg8 harg8 arg9 harg9 hc0 hc1 x0 x1 x2 x3 xs0).2.1)
/-- The pieces case B stores into the accumulator cover it. -/
theorem scover6_B (c : Dev nD) (i : grid6.Coords) (arg3 : Memref sig .tc .vmem S512x1280 .f32) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : ¬cond6_0 i) (hc1 : ¬cond6_1 i)
    (x0 : Vec F S512x1280 .f32) (x1 : Vec F S1x1280 .f32) (x2 : Vec F S1x1280 .f32) (x3 : Vec F S1x1 .f32) (xs0 : Vec F S512x1 .f32) (y : S512x1.Idx) :
    ∃ pc ∈ (kernelRun6_B c i arg3 harg3 arg4 harg4 arg5 harg5 arg6 harg6 arg7 harg7 arg8 harg8 arg9 harg9 hc0 hc1 x0 x1 x2 x3 xs0).2.2.1, y ∈ pc.1.set :=
  View.cover_of_tiledL (kernelRun6_B c i arg3 harg3 arg4 harg4 arg5 harg5 arg6 harg6 arg7 harg7 arg8 harg8 arg9 harg9 hc0 hc1 x0 x1 x2 x3 xs0).2.2.1 S512x1.size (by sl_kernel_rfl) y
/-- What case B leaves in the accumulator. -/
def sout6_B (c : Dev nD) (i : grid6.Coords) (arg3 : Memref sig .tc .vmem S512x1280 .f32) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : ¬cond6_0 i) (hc1 : ¬cond6_1 i)
    (x0 : Vec F S512x1280 .f32) (x1 : Vec F S1x1280 .f32) (x2 : Vec F S1x1280 .f32) (x3 : Vec F S1x1 .f32) (xs0 : Vec F S512x1 .f32) : Vec F S512x1 .f32 :=
  VS6.read (Elt F) (VS6.writes (Elt F) VS6.junk (kernelRun6_B c i arg3 harg3 arg4 harg4 arg5 harg5 arg6 harg6 arg7 harg7 arg8 harg8 arg9 harg9 hc0 hc1 x0 x1 x2 x3 xs0).2.2.1)

/-- The pieces case C stores into output window 4 tile its block, so they cover it. -/
theorem cover6_C_4 (c : Dev nD) (i : grid6.Coords) (arg3 : Memref sig .tc .vmem S512x1280 .f32) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : ¬cond6_0 i) (hc1 : cond6_1 i)
    (x0 : Vec F S512x1280 .f32) (x1 : Vec F S1x1280 .f32) (x2 : Vec F S1x1280 .f32) (x3 : Vec F S1x1 .f32) (xs0 : Vec F S512x1 .f32) (y : S512x1.Idx) :
    ∃ pc ∈ (kernelRun6_C c i arg3 harg3 arg4 harg4 arg5 harg5 arg6 harg6 arg7 harg7 arg8 harg8 arg9 harg9 hc0 hc1 x0 x1 x2 x3 xs0).1, y ∈ pc.1.set :=
  View.cover_of_tiledL (kernelRun6_C c i arg3 harg3 arg4 harg4 arg5 harg5 arg6 harg6 arg7 harg7 arg8 harg8 arg9 harg9 hc0 hc1 x0 x1 x2 x3 xs0).1 S512x1.size (by sl_kernel_rfl) y
/-- The same for output window 5. -/
theorem cover6_C_5 (c : Dev nD) (i : grid6.Coords) (arg3 : Memref sig .tc .vmem S512x1280 .f32) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : ¬cond6_0 i) (hc1 : cond6_1 i)
    (x0 : Vec F S512x1280 .f32) (x1 : Vec F S1x1280 .f32) (x2 : Vec F S1x1280 .f32) (x3 : Vec F S1x1 .f32) (xs0 : Vec F S512x1 .f32) (y : S512x1.Idx) :
    ∃ pc ∈ (kernelRun6_C c i arg3 harg3 arg4 harg4 arg5 harg5 arg6 harg6 arg7 harg7 arg8 harg8 arg9 harg9 hc0 hc1 x0 x1 x2 x3 xs0).2.1, y ∈ pc.1.set :=
  View.cover_of_tiledL (kernelRun6_C c i arg3 harg3 arg4 harg4 arg5 harg5 arg6 harg6 arg7 harg7 arg8 harg8 arg9 harg9 hc0 hc1 x0 x1 x2 x3 xs0).2.1 S512x1.size (by sl_kernel_rfl) y

/-- What case C leaves in output window 4's staging buffer: its pieces read back. -/
def out6_C_4 (c : Dev nD) (i : grid6.Coords) (arg3 : Memref sig .tc .vmem S512x1280 .f32) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : ¬cond6_0 i) (hc1 : cond6_1 i)
    (x0 : Vec F S512x1280 .f32) (x1 : Vec F S1x1280 .f32) (x2 : Vec F S1x1280 .f32) (x3 : Vec F S1x1 .f32) (xs0 : Vec F S512x1 .f32) : Vec F S512x1 .f32 :=
  VO6_4.read (Elt F) (VO6_4.writes (Elt F) VO6_4.junk (kernelRun6_C c i arg3 harg3 arg4 harg4 arg5 harg5 arg6 harg6 arg7 harg7 arg8 harg8 arg9 harg9 hc0 hc1 x0 x1 x2 x3 xs0).1)
/-- The same for output window 5. -/
def out6_C_5 (c : Dev nD) (i : grid6.Coords) (arg3 : Memref sig .tc .vmem S512x1280 .f32) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : ¬cond6_0 i) (hc1 : cond6_1 i)
    (x0 : Vec F S512x1280 .f32) (x1 : Vec F S1x1280 .f32) (x2 : Vec F S1x1280 .f32) (x3 : Vec F S1x1 .f32) (xs0 : Vec F S512x1 .f32) : Vec F S512x1 .bf16 :=
  VO6_5.read (Elt F) (VO6_5.writes (Elt F) VO6_5.junk (kernelRun6_C c i arg3 harg3 arg4 harg4 arg5 harg5 arg6 harg6 arg7 harg7 arg8 harg8 arg9 harg9 hc0 hc1 x0 x1 x2 x3 xs0).2.1)
/-- The pieces case C stores into the accumulator cover it. -/
theorem scover6_C (c : Dev nD) (i : grid6.Coords) (arg3 : Memref sig .tc .vmem S512x1280 .f32) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : ¬cond6_0 i) (hc1 : cond6_1 i)
    (x0 : Vec F S512x1280 .f32) (x1 : Vec F S1x1280 .f32) (x2 : Vec F S1x1280 .f32) (x3 : Vec F S1x1 .f32) (xs0 : Vec F S512x1 .f32) (y : S512x1.Idx) :
    ∃ pc ∈ (kernelRun6_C c i arg3 harg3 arg4 harg4 arg5 harg5 arg6 harg6 arg7 harg7 arg8 harg8 arg9 harg9 hc0 hc1 x0 x1 x2 x3 xs0).2.2.1, y ∈ pc.1.set :=
  View.cover_of_tiledL (kernelRun6_C c i arg3 harg3 arg4 harg4 arg5 harg5 arg6 harg6 arg7 harg7 arg8 harg8 arg9 harg9 hc0 hc1 x0 x1 x2 x3 xs0).2.2.1 S512x1.size (by sl_kernel_rfl) y
/-- What case C leaves in the accumulator. -/
def sout6_C (c : Dev nD) (i : grid6.Coords) (arg3 : Memref sig .tc .vmem S512x1280 .f32) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : ¬cond6_0 i) (hc1 : cond6_1 i)
    (x0 : Vec F S512x1280 .f32) (x1 : Vec F S1x1280 .f32) (x2 : Vec F S1x1280 .f32) (x3 : Vec F S1x1 .f32) (xs0 : Vec F S512x1 .f32) : Vec F S512x1 .f32 :=
  VS6.read (Elt F) (VS6.writes (Elt F) VS6.junk (kernelRun6_C c i arg3 harg3 arg4 harg4 arg5 harg5 arg6 harg6 arg7 harg7 arg8 harg8 arg9 harg9 hc0 hc1 x0 x1 x2 x3 xs0).2.2.1)

/-- THE ACCUMULATION. What the two outputs' staging buffers and the accumulator hold after the body at position `n`
    (a triple): the case the closed forms select at `n`, run at the point's memrefs and input blocks, the accumulator
    carried in at what position `n - 1` left. -/
def outsAt6 (c : Dev nD) : (n : ℕ) → n < cfg6.N → Vec F S512x1 .f32 × Vec F S512x1 .bf16 × Vec F S512x1 .f32
  | 0, hn => (out6_A_4 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩), out6_A_5 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩), sout6_A c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩))
  | n + 1, hn =>
    if h0 : (n + 1) % 6 = 0 then
      if h1 : (n + 1) % 6 = 5 then
        False.elim (by omega)
      else
        (out6_A_4 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩), out6_A_5 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩), sout6_A c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩))
    else
      if h1 : (n + 1) % 6 = 5 then
        (out6_C_4 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (outsAt6 c n (Nat.lt_of_succ_lt hn)).2.2, out6_C_5 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (outsAt6 c n (Nat.lt_of_succ_lt hn)).2.2, sout6_C c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (outsAt6 c n (Nat.lt_of_succ_lt hn)).2.2)
      else
        (out6_B_4 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (outsAt6 c n (Nat.lt_of_succ_lt hn)).2.2, out6_B_5 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (outsAt6 c n (Nat.lt_of_succ_lt hn)).2.2, sout6_B c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (outsAt6 c n (Nat.lt_of_succ_lt hn)).2.2)

theorem outsAt6_A (c : Dev nD) (t : Fin cfg6.N) (h0 : t.val % 6 = 0) (h1 : ¬t.val % 6 = 5) :
    outsAt6 V c t.val t.isLt = (out6_A_4 c (grid6.coords t) (ms6_0 t) (hs6_0 t) (ms6_1 t) (hs6_1 t) (ms6_2 t) (hs6_2 t) (ms6_3 t) (hs6_3 t) (ms6_4 t) (hs6_4 t) (ms6_5 t) (hs6_5 t) scM6 (Memref.isWhole_whole _) ((hcond6_0 t).mpr h0) (fun h => h1 ((hcond6_1 t).mp h)) (iblk6 V c 0 t) (iblk6 V c 1 t) (iblk6 V c 2 t) (iblk6 V c 3 t), out6_A_5 c (grid6.coords t) (ms6_0 t) (hs6_0 t) (ms6_1 t) (hs6_1 t) (ms6_2 t) (hs6_2 t) (ms6_3 t) (hs6_3 t) (ms6_4 t) (hs6_4 t) (ms6_5 t) (hs6_5 t) scM6 (Memref.isWhole_whole _) ((hcond6_0 t).mpr h0) (fun h => h1 ((hcond6_1 t).mp h)) (iblk6 V c 0 t) (iblk6 V c 1 t) (iblk6 V c 2 t) (iblk6 V c 3 t), sout6_A c (grid6.coords t) (ms6_0 t) (hs6_0 t) (ms6_1 t) (hs6_1 t) (ms6_2 t) (hs6_2 t) (ms6_3 t) (hs6_3 t) (ms6_4 t) (hs6_4 t) (ms6_5 t) (hs6_5 t) scM6 (Memref.isWhole_whole _) ((hcond6_0 t).mpr h0) (fun h => h1 ((hcond6_1 t).mp h)) (iblk6 V c 0 t) (iblk6 V c 1 t) (iblk6 V c 2 t) (iblk6 V c 3 t)) := by
  obtain ⟨n, hn⟩ := t
  cases n with
  | zero => exact rfl
  | succ n => exact (dif_pos h0).trans ((dif_neg h1).trans rfl)

theorem outsAt6_C (c : Dev nD) (t : Fin cfg6.N) (h0 : ¬t.val % 6 = 0) (h1 : t.val % 6 = 5) :
    outsAt6 V c t.val t.isLt = (out6_C_4 c (grid6.coords t) (ms6_0 t) (hs6_0 t) (ms6_1 t) (hs6_1 t) (ms6_2 t) (hs6_2 t) (ms6_3 t) (hs6_3 t) (ms6_4 t) (hs6_4 t) (ms6_5 t) (hs6_5 t) scM6 (Memref.isWhole_whole _) (fun h => h0 ((hcond6_0 t).mp h)) ((hcond6_1 t).mpr h1) (iblk6 V c 0 t) (iblk6 V c 1 t) (iblk6 V c 2 t) (iblk6 V c 3 t) (outsAt6 V c (t.val - 1) (Nat.lt_of_le_of_lt (Nat.sub_le _ _) t.isLt)).2.2, out6_C_5 c (grid6.coords t) (ms6_0 t) (hs6_0 t) (ms6_1 t) (hs6_1 t) (ms6_2 t) (hs6_2 t) (ms6_3 t) (hs6_3 t) (ms6_4 t) (hs6_4 t) (ms6_5 t) (hs6_5 t) scM6 (Memref.isWhole_whole _) (fun h => h0 ((hcond6_0 t).mp h)) ((hcond6_1 t).mpr h1) (iblk6 V c 0 t) (iblk6 V c 1 t) (iblk6 V c 2 t) (iblk6 V c 3 t) (outsAt6 V c (t.val - 1) (Nat.lt_of_le_of_lt (Nat.sub_le _ _) t.isLt)).2.2, sout6_C c (grid6.coords t) (ms6_0 t) (hs6_0 t) (ms6_1 t) (hs6_1 t) (ms6_2 t) (hs6_2 t) (ms6_3 t) (hs6_3 t) (ms6_4 t) (hs6_4 t) (ms6_5 t) (hs6_5 t) scM6 (Memref.isWhole_whole _) (fun h => h0 ((hcond6_0 t).mp h)) ((hcond6_1 t).mpr h1) (iblk6 V c 0 t) (iblk6 V c 1 t) (iblk6 V c 2 t) (iblk6 V c 3 t) (outsAt6 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

theorem outsAt6_B (c : Dev nD) (t : Fin cfg6.N) (h0 : ¬t.val % 6 = 0) (h1 : ¬t.val % 6 = 5) :
    outsAt6 V c t.val t.isLt = (out6_B_4 c (grid6.coords t) (ms6_0 t) (hs6_0 t) (ms6_1 t) (hs6_1 t) (ms6_2 t) (hs6_2 t) (ms6_3 t) (hs6_3 t) (ms6_4 t) (hs6_4 t) (ms6_5 t) (hs6_5 t) scM6 (Memref.isWhole_whole _) (fun h => h0 ((hcond6_0 t).mp h)) (fun h => h1 ((hcond6_1 t).mp h)) (iblk6 V c 0 t) (iblk6 V c 1 t) (iblk6 V c 2 t) (iblk6 V c 3 t) (outsAt6 V c (t.val - 1) (Nat.lt_of_le_of_lt (Nat.sub_le _ _) t.isLt)).2.2, out6_B_5 c (grid6.coords t) (ms6_0 t) (hs6_0 t) (ms6_1 t) (hs6_1 t) (ms6_2 t) (hs6_2 t) (ms6_3 t) (hs6_3 t) (ms6_4 t) (hs6_4 t) (ms6_5 t) (hs6_5 t) scM6 (Memref.isWhole_whole _) (fun h => h0 ((hcond6_0 t).mp h)) (fun h => h1 ((hcond6_1 t).mp h)) (iblk6 V c 0 t) (iblk6 V c 1 t) (iblk6 V c 2 t) (iblk6 V c 3 t) (outsAt6 V c (t.val - 1) (Nat.lt_of_le_of_lt (Nat.sub_le _ _) t.isLt)).2.2, sout6_B c (grid6.coords t) (ms6_0 t) (hs6_0 t) (ms6_1 t) (hs6_1 t) (ms6_2 t) (hs6_2 t) (ms6_3 t) (hs6_3 t) (ms6_4 t) (hs6_4 t) (ms6_5 t) (hs6_5 t) scM6 (Memref.isWhole_whole _) (fun h => h0 ((hcond6_0 t).mp h)) (fun h => h1 ((hcond6_1 t).mp h)) (iblk6 V c 0 t) (iblk6 V c 1 t) (iblk6 V c 2 t) (iblk6 V c 3 t) (outsAt6 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- The region's invariant before position `n`: before the first point every buffer the region does not stage at
    anything; afterwards the accumulator at what the point before left in it. -/
def PhiS6 (c : Dev nD) : (n : ℕ) → n ≤ cfg6.N → sProp 𝕄
  | 0, _ => Pipeline.ΦA spec6 c
  | n + 1, hn => iprop(iprop(owns (c : Thread nD τ) scM6 fullShare ((outsAt6 V c n hn).2.2) ∗ Pipeline.scopedRestBut (Ix := Unit) (Name := ℕ) (U := UR sig nD τ) (Lvl := ℕ) (Val := Elt F) spec6 c [cc6_scratch0]) ∗ (∃ r, prngReg c r))

theorem PhiS6_zero (c : Dev nD) (n : ℕ) (h : n ≤ cfg6.N) (hz : n = 0) : PhiS6 V c n h = Pipeline.ΦA spec6 c := by
  subst hz; rfl
theorem PhiS6_succ (c : Dev nD) (n : ℕ) (hn : n < cfg6.N) :
    PhiS6 V c (n + 1) hn = iprop(iprop(owns (c : Thread nD τ) scM6 fullShare ((outsAt6 V c n hn).2.2) ∗ Pipeline.scopedRestBut (Ix := Unit) (Name := ℕ) (U := UR sig nD τ) (Lvl := ℕ) (Val := Elt F) spec6 c [cc6_scratch0]) ∗ (∃ r, prngReg c r)) := rfl
theorem PhiS6_pos (c : Dev nD) (n : ℕ) (h : n ≤ cfg6.N) (hz : n ≠ 0) :
    PhiS6 V c n h = iprop(iprop(owns (c : Thread nD τ) scM6 fullShare ((outsAt6 V c (n - 1) (by omega)).2.2) ∗ Pipeline.scopedRestBut (Ix := Unit) (Name := ℕ) (U := UR sig nD τ) (Lvl := ℕ) (Val := Elt F) spec6 c [cc6_scratch0]) ∗ (∃ r, prngReg c r)) := by
  cases n with
  | zero => exact absurd rfl hz
  | succ n => rfl

/-- The proof data of region 6's pipeline on core `c`: the arrays as the region finds them; after the body at point
    `t` each input's buffer at its block and the outputs' at what the point leaves; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => (outsAt6 V c t.val t.isLt).1
    | ⟨5, _⟩ => (outsAt6 V c t.val t.isLt).2.1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = (outsAt6 V c t.val t.isLt).1 := by dsimp only [dat6]
theorem after6_5 (c : Dev nD) (t : Fin cfg6.N) : (dat6 V c).after 5 t = (outsAt6 V c t.val t.isLt).2.1 := by dsimp only [dat6]
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t)

theorem PhiS6_castSucc (c : Dev nD) (t : Fin cfg6.N) :
    (dat6 V c).Φ t.castSucc = PhiS6 V c t.val (Nat.le_of_lt t.isLt) := by
  dsimp only [dat6]; simp only [Fin.coe_castSucc]

set_option maxHeartbeats 4800000 in
/-- The body at any point: the inputs' memrefs hold their blocks; the closed forms say which case the point is in;
    the invariant hands the body the accumulator at what the point before left (at anything before the first point) and
    takes it back at this point's contents; the core owes nothing throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).owesAt () t.succ = (dat6 V c).owesAt () t.castSucc from rfl]
  rw [show (dat6 V c).Φ t.succ = PhiS6 V c (t.val + 1) t.isLt from rfl, PhiS6_succ]
  have hN : t.val < 48 := lt_of_lt_of_eq t.isLt (show cfg6.N = 48 from N_6)
  by_cases h0 : t.val % 6 = 0
  · by_cases h1 : t.val % 6 = 5
    · exfalso; omega
    ·
      rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2 t], after6_2]
      rw [show (dat6 V c).leavesExact 3 t = owns (c : Thread nD τ) (ms6_3 t) fullShare ((dat6 V c).after 3 t) from by
        unfold Dat.leavesExact; rw [liveAt6_3 t], after6_3]
      rw [Dat.leavesExact_idle (dat6 V c) 4 t (idleAt6_4 t (fun h => h1 ((hcond6_1 t).mp h))) (noFlush6_4 t (fun h => h1 ((hcond6_1 t).mp h)))]
      rw [Dat.leavesExact_idle (dat6 V c) 5 t (idleAt6_5 t (fun h => h1 ((hcond6_1 t).mp h))) (noFlush6_5 t (fun h => h1 ((hcond6_1 t).mp h)))]
      rw [outsAt6_A V c t h0 h1]
      unfold sout6_A; (try dsimp only)
      by_cases hz : t.val = 0
      ·
        rw [PhiS6_castSucc V c t, PhiS6_zero V c _ _ hz, PhiA6_eq]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun6_A c (grid6.coords t) _ _ _ _ _ _ _ _ _ _ _ _ _ _ ((hcond6_0 t).mpr h0) (fun h => h1 ((hcond6_1 t).mp h)) (iblk6 V c 0 t) (iblk6 V c 1 t) (iblk6 V c 2 t) (iblk6 V c 3 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover6_A c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5
      ·
        rw [PhiS6_castSucc V c t, PhiS6_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun6_A c (grid6.coords t) _ _ _ _ _ _ _ _ _ _ _ _ _ _ ((hcond6_0 t).mpr h0) (fun h => h1 ((hcond6_1 t).mp h)) (iblk6 V c 0 t) (iblk6 V c 1 t) (iblk6 V c 2 t) (iblk6 V c 3 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover6_A c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5

  · by_cases h1 : t.val % 6 = 5
    ·
      rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2 t], after6_2]
      rw [show (dat6 V c).leavesExact 3 t = owns (c : Thread nD τ) (ms6_3 t) fullShare ((dat6 V c).after 3 t) from by
        unfold Dat.leavesExact; rw [liveAt6_3 t], after6_3]
      rw [show (dat6 V c).leavesExact 4 t = owns (c : Thread nD τ) (ms6_4 t) fullShare ((dat6 V c).after 4 t) from by
        unfold Dat.leavesExact; rw [liveAt6_4 t ((hcond6_1 t).mpr h1)], after6_4]
      rw [show (dat6 V c).leavesExact 5 t = owns (c : Thread nD τ) (ms6_5 t) fullShare ((dat6 V c).after 5 t) from by
        unfold Dat.leavesExact; rw [liveAt6_5 t ((hcond6_1 t).mpr h1)], after6_5]
      rw [outsAt6_C V c t h0 h1]
      unfold out6_C_4 out6_C_5 sout6_C; (try dsimp only)
      have hz : t.val ≠ 0 := by omega
      ·
        rw [PhiS6_castSucc V c t, PhiS6_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun6_C c (grid6.coords t) _ _ _ _ _ _ _ _ _ _ _ _ _ _ (fun h => h0 ((hcond6_0 t).mp h)) ((hcond6_1 t).mpr h1) (iblk6 V c 0 t) (iblk6 V c 1 t) (iblk6 V c 2 t) (iblk6 V c 3 t) _).2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        iintro ⟨H0, H1, H2, H3, ⟨%e4, H4⟩, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover6_C c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover6_C_4 c _ _ _ _ _ _ _ _ _ _ _ _ _ _ _ _ _ _ _ _ _ _)
        unfold owns; iexists _; isplitr
        swap; · iexact H5
        ipureintro; exact View.read_writes_of_cover _ _ _ _ _ (cover6_C_5 c _ _ _ _ _ _ _ _ _ _ _ _ _ _ _ _ _ _ _ _ _ _)

    ·
      rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2 t], after6_2]
      rw [show (dat6 V c).leavesExact 3 t = owns (c : Thread nD τ) (ms6_3 t) fullShare ((dat6 V c).after 3 t) from by
        unfold Dat.leavesExact; rw [liveAt6_3 t], after6_3]
      rw [Dat.leavesExact_idle (dat6 V c) 4 t (idleAt6_4 t (fun h => h1 ((hcond6_1 t).mp h))) (noFlush6_4 t (fun h => h1 ((hcond6_1 t).mp h)))]
      rw [Dat.leavesExact_idle (dat6 V c) 5 t (idleAt6_5 t (fun h => h1 ((hcond6_1 t).mp h))) (noFlush6_5 t (fun h => h1 ((hcond6_1 t).mp h)))]
      rw [outsAt6_B V c t h0 h1]
      unfold sout6_B; (try dsimp only)
      have hz : t.val ≠ 0 := by omega
      ·
        rw [PhiS6_castSucc V c t, PhiS6_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun6_B c (grid6.coords t) _ _ _ _ _ _ _ _ _ _ _ _ _ _ (fun h => h0 ((hcond6_0 t).mp h)) (fun h => h1 ((hcond6_1 t).mp h)) (iblk6 V c 0 t) (iblk6 V c 1 t) (iblk6 V c 2 t) (iblk6 V c 3 t) _).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover6_B c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5

/-- The library's body obligation, at every point. -/
theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After the last point the invariant gives the class's back: the accumulator's named contents are forgotten. -/
theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨HS0, HR⟩, Hg⟩
  isplitl [HS0 HR]
  · isplitl [HS0]
    · iexists _; iexact HS0
    iexact HR
  iexact Hg
theorem hout6 (c : Dev nD) : (dat6 V c).Φ (Fin.last cfg6.N) ⊢ Pipeline.ΦA spec6 c :=
  Phi_out6 V c _ (by rw [Fin.val_last]; have : cfg6.N = 48 := N_6; omega)

end Cert.KernelIdeal.Hand

end
-- ==== Proof.KernelIdeal.Main.lean ====
import proofs.«152868_j57621281243253_2_alg».proof.Proof.KernelIdeal.Rgn0
import proofs.«152868_j57621281243253_2_alg».proof.Proof.KernelIdeal.Rgn1
import proofs.«152868_j57621281243253_2_alg».proof.Proof.KernelIdeal.Rgn2
import proofs.«152868_j57621281243253_2_alg».proof.Proof.KernelIdeal.Rgn3
import proofs.«152868_j57621281243253_2_alg».proof.Proof.KernelIdeal.Rgn4
import proofs.«152868_j57621281243253_2_alg».proof.Proof.KernelIdeal.Rgn5
import proofs.«152868_j57621281243253_2_alg».proof.Proof.KernelIdeal.Rgn6
import proofs.«152868_j57621281243253_2_alg».proof.Proof.Gen.KernelIdeal.Regions
import Idealize.ShloMosaic.Lib.Pipeline.Regions
import Idealize.ShloMosaic.Lib.Pipeline.RegionsLoop
import Idealize.ShloMosaic.Lib.Pipeline.FrameSuffix
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The whole run of @main: host stretches and the seven regions in order, each entered from what the one before it
    left. Every buffer no scope hides ends at a NAMED valuation, `Wt15`: the launch contents pushed through each host
    stretch and, at each region, the region's arrays replaced by what its pipeline leaves in them. -/

variable (m : (ℓ : Loc nD τ sig) → Buf (Elt F) ℓ) (ρ : Dev nD → PrngReg)

/-- The buffers at launch. -/
abbrev Wt0 : Dev nD → Valuation τ sig (Elt F) := fun c b => (s₀ m ρ).mem ((c : Dev nD), b)

/-- After host stretch 0: region 0's entry. -/
abbrev Wt1 : Dev nD → Valuation τ sig (Elt F) := fun c => StableHlo.after hostOps0 (Wt0 m ρ c)
abbrev Vt1 : (c : Dev nD) → (b : Ref sig .tc) → Buf (Elt F) ((c : Thread nD τ).loc b) := fun c b => Wt1 m ρ c b
/-- After region 0: its arrays at what the pipeline leaves, every other buffer as entered. -/
def Wt2 (c : Dev nD) : Valuation τ sig (Elt F) :=
  Pipeline.withArrays spec0 c (Wt1 m ρ c) fun w => (dat0 (Vt1 m ρ) c).arrAt w cfg0.N
theorem Wt2_arr (c : Dev nD) (w : Fin cfg0.W) :
    Wt2 m ρ c (Proc.devRef .tc (Pipeline.arrRef spec0 w)) = (dat0 (Vt1 m ρ) c).arrAt w cfg0.N := by
  unfold Wt2; exact Pipeline.withArrays_arr spec0 launch0.win.arr_inj c _ _ w
theorem Wt2_of_ne (c : Dev nD) (b : Ref sig .tc) (hb : ∀ w, Pipeline.arrRef spec0 w ≠ b) :
    Wt2 m ρ c (Proc.devRef .tc b) = Wt1 m ρ c (Proc.devRef .tc b) := by
  unfold Wt2; exact Pipeline.withArrays_of_ne spec0 c _ _ b hb
abbrev Vt2 : (c : Dev nD) → (b : Ref sig .tc) → Buf (Elt F) ((c : Thread nD τ).loc b) := fun c b => Wt2 m ρ c b
theorem hF0 (c : Dev nD) (w : Fin cfg0.W) : (dat0 (Vt1 m ρ) c).arrAt w cfg0.N = Vt2 m ρ c (Pipeline.arrRef spec0 w) :=
  (Wt2_arr m ρ c w).symm
theorem hrest0 (c : Dev nD) : ∀ b, b ∉ Finset.univ.image (Pipeline.arrRef spec0) → Vt2 m ρ c b = Vt1 m ρ c b :=
  fun b hb => Wt2_of_ne m ρ c b fun w e => hb (Finset.mem_image.mpr ⟨w, Finset.mem_univ _, e⟩)
/-- Region 0 changes only its two output arrays: an input window's array ends as entered, any other buffer is bypassed. -/
theorem Wt2_keep (c : Dev nD) (b : Ref sig .tc) (h4 : b ≠ main_v1_0) (h5 : b ≠ main_v1_1) :
    Wt2 m ρ c (Proc.devRef .tc b) = Wt1 m ρ c (Proc.devRef .tc b) := by
  by_cases h : ∃ w, Pipeline.arrRef spec0 w = b
  · obtain ⟨w, rfl⟩ := h
    rw [Wt2_arr]
    match w with
    | ⟨0, _⟩ => exact ((dat0 (Vt1 m ρ) c).arrAt_in 0 rfl _).trans (A_eq0 (Vt1 m ρ) c 0)
    | ⟨1, _⟩ => exact ((dat0 (Vt1 m ρ) c).arrAt_in 1 rfl _).trans (A_eq0 (Vt1 m ρ) c 1)
    | ⟨2, _⟩ => exact ((dat0 (Vt1 m ρ) c).arrAt_in 2 rfl _).trans (A_eq0 (Vt1 m ρ) c 2)
    | ⟨3, _⟩ => exact ((dat0 (Vt1 m ρ) c).arrAt_in 3 rfl _).trans (A_eq0 (Vt1 m ρ) c 3)
    | ⟨4, _⟩ => exact absurd rfl h4
    | ⟨5, _⟩ => exact absurd rfl h5
  · exact Wt2_of_ne m ρ c b fun w e => h ⟨w, e⟩

/-- After host stretch 1: region 1's entry. -/
abbrev Wt3 : Dev nD → Valuation τ sig (Elt F) := fun c => StableHlo.after hostOps1 (Wt2 m ρ c)
abbrev Vt3 : (c : Dev nD) → (b : Ref sig .tc) → Buf (Elt F) ((c : Thread nD τ).loc b) := fun c b => Wt3 m ρ c b
/-- After region 1: its arrays at what the pipeline leaves, every other buffer as entered. -/
def Wt4 (c : Dev nD) : Valuation τ sig (Elt F) :=
  Pipeline.withArrays spec1 c (Wt3 m ρ c) fun w => (dat1 (Vt3 m ρ) c).arrAt w cfg1.N
theorem Wt4_arr (c : Dev nD) (w : Fin cfg1.W) :
    Wt4 m ρ c (Proc.devRef .tc (Pipeline.arrRef spec1 w)) = (dat1 (Vt3 m ρ) c).arrAt w cfg1.N := by
  unfold Wt4; exact Pipeline.withArrays_arr spec1 launch1.win.arr_inj c _ _ w
theorem Wt4_of_ne (c : Dev nD) (b : Ref sig .tc) (hb : ∀ w, Pipeline.arrRef spec1 w ≠ b) :
    Wt4 m ρ c (Proc.devRef .tc b) = Wt3 m ρ c (Proc.devRef .tc b) := by
  unfold Wt4; exact Pipeline.withArrays_of_ne spec1 c _ _ b hb
abbrev Vt4 : (c : Dev nD) → (b : Ref sig .tc) → Buf (Elt F) ((c : Thread nD τ).loc b) := fun c b => Wt4 m ρ c b
theorem hF1 (c : Dev nD) (w : Fin cfg1.W) : (dat1 (Vt3 m ρ) c).arrAt w cfg1.N = Vt4 m ρ c (Pipeline.arrRef spec1 w) :=
  (Wt4_arr m ρ c w).symm
theorem hrest1 (c : Dev nD) : ∀ b, b ∉ Finset.univ.image (Pipeline.arrRef spec1) → Vt4 m ρ c b = Vt3 m ρ c b :=
  fun b hb => Wt4_of_ne m ρ c b fun w e => hb (Finset.mem_image.mpr ⟨w, Finset.mem_univ _, e⟩)
/-- Region 1 changes only its two output arrays: an input window's array ends as entered, any other buffer is bypassed. -/
theorem Wt4_keep (c : Dev nD) (b : Ref sig .tc) (h4 : b ≠ main_v3_0) (h5 : b ≠ main_v3_1) :
    Wt4 m ρ c (Proc.devRef .tc b) = Wt3 m ρ c (Proc.devRef .tc b) := by
  by_cases h : ∃ w, Pipeline.arrRef spec1 w = b
  · obtain ⟨w, rfl⟩ := h
    rw [Wt4_arr]
    match w with
    | ⟨0, _⟩ => exact ((dat1 (Vt3 m ρ) c).arrAt_in 0 rfl _).trans (A_eq1 (Vt3 m ρ) c 0)
    | ⟨1, _⟩ => exact ((dat1 (Vt3 m ρ) c).arrAt_in 1 rfl _).trans (A_eq1 (Vt3 m ρ) c 1)
    | ⟨2, _⟩ => exact ((dat1 (Vt3 m ρ) c).arrAt_in 2 rfl _).trans (A_eq1 (Vt3 m ρ) c 2)
    | ⟨3, _⟩ => exact ((dat1 (Vt3 m ρ) c).arrAt_in 3 rfl _).trans (A_eq1 (Vt3 m ρ) c 3)
    | ⟨4, _⟩ => exact absurd rfl h4
    | ⟨5, _⟩ => exact absurd rfl h5
  · exact Wt4_of_ne m ρ c b fun w e => h ⟨w, e⟩

/-- After host stretch 2: region 2's entry. -/
abbrev Wt5 : Dev nD → Valuation τ sig (Elt F) := fun c => StableHlo.after hostOps2 (Wt4 m ρ c)
abbrev Vt5 : (c : Dev nD) → (b : Ref sig .tc) → Buf (Elt F) ((c : Thread nD τ).loc b) := fun c b => Wt5 m ρ c b
/-- After region 2: its arrays at what the pipeline leaves, every other buffer as entered. -/
def Wt6 (c : Dev nD) : Valuation τ sig (Elt F) :=
  Pipeline.withArrays spec2 c (Wt5 m ρ c) fun w => (dat2 (Vt5 m ρ) c).arrAt w cfg2.N
theorem Wt6_arr (c : Dev nD) (w : Fin cfg2.W) :
    Wt6 m ρ c (Proc.devRef .tc (Pipeline.arrRef spec2 w)) = (dat2 (Vt5 m ρ) c).arrAt w cfg2.N := by
  unfold Wt6; exact Pipeline.withArrays_arr spec2 launch2.win.arr_inj c _ _ w
theorem Wt6_of_ne (c : Dev nD) (b : Ref sig .tc) (hb : ∀ w, Pipeline.arrRef spec2 w ≠ b) :
    Wt6 m ρ c (Proc.devRef .tc b) = Wt5 m ρ c (Proc.devRef .tc b) := by
  unfold Wt6; exact Pipeline.withArrays_of_ne spec2 c _ _ b hb
abbrev Vt6 : (c : Dev nD) → (b : Ref sig .tc) → Buf (Elt F) ((c : Thread nD τ).loc b) := fun c b => Wt6 m ρ c b
theorem hF2 (c : Dev nD) (w : Fin cfg2.W) : (dat2 (Vt5 m ρ) c).arrAt w cfg2.N = Vt6 m ρ c (Pipeline.arrRef spec2 w) :=
  (Wt6_arr m ρ c w).symm
theorem hrest2 (c : Dev nD) : ∀ b, b ∉ Finset.univ.image (Pipeline.arrRef spec2) → Vt6 m ρ c b = Vt5 m ρ c b :=
  fun b hb => Wt6_of_ne m ρ c b fun w e => hb (Finset.mem_image.mpr ⟨w, Finset.mem_univ _, e⟩)
/-- Region 2 changes only its two output arrays: an input window's array ends as entered, any other buffer is bypassed. -/
theorem Wt6_keep (c : Dev nD) (b : Ref sig .tc) (h4 : b ≠ main_v5_0) (h5 : b ≠ main_v5_1) :
    Wt6 m ρ c (Proc.devRef .tc b) = Wt5 m ρ c (Proc.devRef .tc b) := by
  by_cases h : ∃ w, Pipeline.arrRef spec2 w = b
  · obtain ⟨w, rfl⟩ := h
    rw [Wt6_arr]
    match w with
    | ⟨0, _⟩ => exact ((dat2 (Vt5 m ρ) c).arrAt_in 0 rfl _).trans (A_eq2 (Vt5 m ρ) c 0)
    | ⟨1, _⟩ => exact ((dat2 (Vt5 m ρ) c).arrAt_in 1 rfl _).trans (A_eq2 (Vt5 m ρ) c 1)
    | ⟨2, _⟩ => exact ((dat2 (Vt5 m ρ) c).arrAt_in 2 rfl _).trans (A_eq2 (Vt5 m ρ) c 2)
    | ⟨3, _⟩ => exact ((dat2 (Vt5 m ρ) c).arrAt_in 3 rfl _).trans (A_eq2 (Vt5 m ρ) c 3)
    | ⟨4, _⟩ => exact absurd rfl h4
    | ⟨5, _⟩ => exact absurd rfl h5
  · exact Wt6_of_ne m ρ c b fun w e => h ⟨w, e⟩

/-- After host stretch 3: region 3's entry. -/
abbrev Wt7 : Dev nD → Valuation τ sig (Elt F) := fun c => StableHlo.after hostOps3 (Wt6 m ρ c)
abbrev Vt7 : (c : Dev nD) → (b : Ref sig .tc) → Buf (Elt F) ((c : Thread nD τ).loc b) := fun c b => Wt7 m ρ c b
/-- After region 3: its arrays at what the pipeline leaves, every other buffer as entered. -/
def Wt8 (c : Dev nD) : Valuation τ sig (Elt F) :=
  Pipeline.withArrays spec3 c (Wt7 m ρ c) fun w => (dat3 (Vt7 m ρ) c).arrAt w cfg3.N
theorem Wt8_arr (c : Dev nD) (w : Fin cfg3.W) :
    Wt8 m ρ c (Proc.devRef .tc (Pipeline.arrRef spec3 w)) = (dat3 (Vt7 m ρ) c).arrAt w cfg3.N := by
  unfold Wt8; exact Pipeline.withArrays_arr spec3 launch3.win.arr_inj c _ _ w
theorem Wt8_of_ne (c : Dev nD) (b : Ref sig .tc) (hb : ∀ w, Pipeline.arrRef spec3 w ≠ b) :
    Wt8 m ρ c (Proc.devRef .tc b) = Wt7 m ρ c (Proc.devRef .tc b) := by
  unfold Wt8; exact Pipeline.withArrays_of_ne spec3 c _ _ b hb
abbrev Vt8 : (c : Dev nD) → (b : Ref sig .tc) → Buf (Elt F) ((c : Thread nD τ).loc b) := fun c b => Wt8 m ρ c b
theorem hF3 (c : Dev nD) (w : Fin cfg3.W) : (dat3 (Vt7 m ρ) c).arrAt w cfg3.N = Vt8 m ρ c (Pipeline.arrRef spec3 w) :=
  (Wt8_arr m ρ c w).symm
theorem hrest3 (c : Dev nD) : ∀ b, b ∉ Finset.univ.image (Pipeline.arrRef spec3) → Vt8 m ρ c b = Vt7 m ρ c b :=
  fun b hb => Wt8_of_ne m ρ c b fun w e => hb (Finset.mem_image.mpr ⟨w, Finset.mem_univ _, e⟩)
/-- Region 3 changes only its two output arrays: an input window's array ends as entered, any other buffer is bypassed. -/
theorem Wt8_keep (c : Dev nD) (b : Ref sig .tc) (h4 : b ≠ main_v7_0) (h5 : b ≠ main_v7_1) :
    Wt8 m ρ c (Proc.devRef .tc b) = Wt7 m ρ c (Proc.devRef .tc b) := by
  by_cases h : ∃ w, Pipeline.arrRef spec3 w = b
  · obtain ⟨w, rfl⟩ := h
    rw [Wt8_arr]
    match w with
    | ⟨0, _⟩ => exact ((dat3 (Vt7 m ρ) c).arrAt_in 0 rfl _).trans (A_eq3 (Vt7 m ρ) c 0)
    | ⟨1, _⟩ => exact ((dat3 (Vt7 m ρ) c).arrAt_in 1 rfl _).trans (A_eq3 (Vt7 m ρ) c 1)
    | ⟨2, _⟩ => exact ((dat3 (Vt7 m ρ) c).arrAt_in 2 rfl _).trans (A_eq3 (Vt7 m ρ) c 2)
    | ⟨3, _⟩ => exact ((dat3 (Vt7 m ρ) c).arrAt_in 3 rfl _).trans (A_eq3 (Vt7 m ρ) c 3)
    | ⟨4, _⟩ => exact absurd rfl h4
    | ⟨5, _⟩ => exact absurd rfl h5
  · exact Wt8_of_ne m ρ c b fun w e => h ⟨w, e⟩

/-- After host stretch 4: region 4's entry. -/
abbrev Wt9 : Dev nD → Valuation τ sig (Elt F) := fun c => StableHlo.after hostOps4 (Wt8 m ρ c)
abbrev Vt9 : (c : Dev nD) → (b : Ref sig .tc) → Buf (Elt F) ((c : Thread nD τ).loc b) := fun c b => Wt9 m ρ c b
/-- After region 4: its arrays at what the pipeline leaves, every other buffer as entered. -/
def Wt10 (c : Dev nD) : Valuation τ sig (Elt F) :=
  Pipeline.withArrays spec4 c (Wt9 m ρ c) fun w => (dat4 (Vt9 m ρ) c).arrAt w cfg4.N
theorem Wt10_arr (c : Dev nD) (w : Fin cfg4.W) :
    Wt10 m ρ c (Proc.devRef .tc (Pipeline.arrRef spec4 w)) = (dat4 (Vt9 m ρ) c).arrAt w cfg4.N := by
  unfold Wt10; exact Pipeline.withArrays_arr spec4 launch4.win.arr_inj c _ _ w
theorem Wt10_of_ne (c : Dev nD) (b : Ref sig .tc) (hb : ∀ w, Pipeline.arrRef spec4 w ≠ b) :
    Wt10 m ρ c (Proc.devRef .tc b) = Wt9 m ρ c (Proc.devRef .tc b) := by
  unfold Wt10; exact Pipeline.withArrays_of_ne spec4 c _ _ b hb
abbrev Vt10 : (c : Dev nD) → (b : Ref sig .tc) → Buf (Elt F) ((c : Thread nD τ).loc b) := fun c b => Wt10 m ρ c b
theorem hF4 (c : Dev nD) (w : Fin cfg4.W) : (dat4 (Vt9 m ρ) c).arrAt w cfg4.N = Vt10 m ρ c (Pipeline.arrRef spec4 w) :=
  (Wt10_arr m ρ c w).symm
theorem hrest4 (c : Dev nD) : ∀ b, b ∉ Finset.univ.image (Pipeline.arrRef spec4) → Vt10 m ρ c b = Vt9 m ρ c b :=
  fun b hb => Wt10_of_ne m ρ c b fun w e => hb (Finset.mem_image.mpr ⟨w, Finset.mem_univ _, e⟩)
/-- Region 4 changes only its two output arrays: an input window's array ends as entered, any other buffer is bypassed. -/
theorem Wt10_keep (c : Dev nD) (b : Ref sig .tc) (h4 : b ≠ main_v9_0) (h5 : b ≠ main_v9_1) :
    Wt10 m ρ c (Proc.devRef .tc b) = Wt9 m ρ c (Proc.devRef .tc b) := by
  by_cases h : ∃ w, Pipeline.arrRef spec4 w = b
  · obtain ⟨w, rfl⟩ := h
    rw [Wt10_arr]
    match w with
    | ⟨0, _⟩ => exact ((dat4 (Vt9 m ρ) c).arrAt_in 0 rfl _).trans (A_eq4 (Vt9 m ρ) c 0)
    | ⟨1, _⟩ => exact ((dat4 (Vt9 m ρ) c).arrAt_in 1 rfl _).trans (A_eq4 (Vt9 m ρ) c 1)
    | ⟨2, _⟩ => exact ((dat4 (Vt9 m ρ) c).arrAt_in 2 rfl _).trans (A_eq4 (Vt9 m ρ) c 2)
    | ⟨3, _⟩ => exact ((dat4 (Vt9 m ρ) c).arrAt_in 3 rfl _).trans (A_eq4 (Vt9 m ρ) c 3)
    | ⟨4, _⟩ => exact absurd rfl h4
    | ⟨5, _⟩ => exact absurd rfl h5
  · exact Wt10_of_ne m ρ c b fun w e => h ⟨w, e⟩

/-- After host stretch 5: region 5's entry. -/
abbrev Wt11 : Dev nD → Valuation τ sig (Elt F) := fun c => StableHlo.after hostOps5 (Wt10 m ρ c)
abbrev Vt11 : (c : Dev nD) → (b : Ref sig .tc) → Buf (Elt F) ((c : Thread nD τ).loc b) := fun c b => Wt11 m ρ c b
/-- After region 5: its arrays at what the pipeline leaves, every other buffer as entered. -/
def Wt12 (c : Dev nD) : Valuation τ sig (Elt F) :=
  Pipeline.withArrays spec5 c (Wt11 m ρ c) fun w => (dat5 (Vt11 m ρ) c).arrAt w cfg5.N
theorem Wt12_arr (c : Dev nD) (w : Fin cfg5.W) :
    Wt12 m ρ c (Proc.devRef .tc (Pipeline.arrRef spec5 w)) = (dat5 (Vt11 m ρ) c).arrAt w cfg5.N := by
  unfold Wt12; exact Pipeline.withArrays_arr spec5 launch5.win.arr_inj c _ _ w
theorem Wt12_of_ne (c : Dev nD) (b : Ref sig .tc) (hb : ∀ w, Pipeline.arrRef spec5 w ≠ b) :
    Wt12 m ρ c (Proc.devRef .tc b) = Wt11 m ρ c (Proc.devRef .tc b) := by
  unfold Wt12; exact Pipeline.withArrays_of_ne spec5 c _ _ b hb
abbrev Vt12 : (c : Dev nD) → (b : Ref sig .tc) → Buf (Elt F) ((c : Thread nD τ).loc b) := fun c b => Wt12 m ρ c b
theorem hF5 (c : Dev nD) (w : Fin cfg5.W) : (dat5 (Vt11 m ρ) c).arrAt w cfg5.N = Vt12 m ρ c (Pipeline.arrRef spec5 w) :=
  (Wt12_arr m ρ c w).symm
theorem hrest5 (c : Dev nD) : ∀ b, b ∉ Finset.univ.image (Pipeline.arrRef spec5) → Vt12 m ρ c b = Vt11 m ρ c b :=
  fun b hb => Wt12_of_ne m ρ c b fun w e => hb (Finset.mem_image.mpr ⟨w, Finset.mem_univ _, e⟩)
/-- Region 5 changes only its two output arrays: an input window's array ends as entered, any other buffer is bypassed. -/
theorem Wt12_keep (c : Dev nD) (b : Ref sig .tc) (h4 : b ≠ main_v11_0) (h5 : b ≠ main_v11_1) :
    Wt12 m ρ c (Proc.devRef .tc b) = Wt11 m ρ c (Proc.devRef .tc b) := by
  by_cases h : ∃ w, Pipeline.arrRef spec5 w = b
  · obtain ⟨w, rfl⟩ := h
    rw [Wt12_arr]
    match w with
    | ⟨0, _⟩ => exact ((dat5 (Vt11 m ρ) c).arrAt_in 0 rfl _).trans (A_eq5 (Vt11 m ρ) c 0)
    | ⟨1, _⟩ => exact ((dat5 (Vt11 m ρ) c).arrAt_in 1 rfl _).trans (A_eq5 (Vt11 m ρ) c 1)
    | ⟨2, _⟩ => exact ((dat5 (Vt11 m ρ) c).arrAt_in 2 rfl _).trans (A_eq5 (Vt11 m ρ) c 2)
    | ⟨3, _⟩ => exact ((dat5 (Vt11 m ρ) c).arrAt_in 3 rfl _).trans (A_eq5 (Vt11 m ρ) c 3)
    | ⟨4, _⟩ => exact absurd rfl h4
    | ⟨5, _⟩ => exact absurd rfl h5
  · exact Wt12_of_ne m ρ c b fun w e => h ⟨w, e⟩

/-- After host stretch 6: region 6's entry. -/
abbrev Wt13 : Dev nD → Valuation τ sig (Elt F) := fun c => StableHlo.after hostOps6 (Wt12 m ρ c)
abbrev Vt13 : (c : Dev nD) → (b : Ref sig .tc) → Buf (Elt F) ((c : Thread nD τ).loc b) := fun c b => Wt13 m ρ c b
/-- After region 6: its arrays at what the pipeline leaves, every other buffer as entered. -/
def Wt14 (c : Dev nD) : Valuation τ sig (Elt F) :=
  Pipeline.withArrays spec6 c (Wt13 m ρ c) fun w => (dat6 (Vt13 m ρ) c).arrAt w cfg6.N
theorem Wt14_arr (c : Dev nD) (w : Fin cfg6.W) :
    Wt14 m ρ c (Proc.devRef .tc (Pipeline.arrRef spec6 w)) = (dat6 (Vt13 m ρ) c).arrAt w cfg6.N := by
  unfold Wt14; exact Pipeline.withArrays_arr spec6 launch6.win.arr_inj c _ _ w
theorem Wt14_of_ne (c : Dev nD) (b : Ref sig .tc) (hb : ∀ w, Pipeline.arrRef spec6 w ≠ b) :
    Wt14 m ρ c (Proc.devRef .tc b) = Wt13 m ρ c (Proc.devRef .tc b) := by
  unfold Wt14; exact Pipeline.withArrays_of_ne spec6 c _ _ b hb
abbrev Vt14 : (c : Dev nD) → (b : Ref sig .tc) → Buf (Elt F) ((c : Thread nD τ).loc b) := fun c b => Wt14 m ρ c b
theorem hF6 (c : Dev nD) (w : Fin cfg6.W) : (dat6 (Vt13 m ρ) c).arrAt w cfg6.N = Vt14 m ρ c (Pipeline.arrRef spec6 w) :=
  (Wt14_arr m ρ c w).symm
theorem hrest6 (c : Dev nD) : ∀ b, b ∉ Finset.univ.image (Pipeline.arrRef spec6) → Vt14 m ρ c b = Vt13 m ρ c b :=
  fun b hb => Wt14_of_ne m ρ c b fun w e => hb (Finset.mem_image.mpr ⟨w, Finset.mem_univ _, e⟩)
/-- Region 6 changes only its two output arrays: an input window's array ends as entered, any other buffer is bypassed. -/
theorem Wt14_keep (c : Dev nD) (b : Ref sig .tc) (h4 : b ≠ main_v14_0) (h5 : b ≠ main_v14_1) :
    Wt14 m ρ c (Proc.devRef .tc b) = Wt13 m ρ c (Proc.devRef .tc b) := by
  by_cases h : ∃ w, Pipeline.arrRef spec6 w = b
  · obtain ⟨w, rfl⟩ := h
    rw [Wt14_arr]
    match w with
    | ⟨0, _⟩ => exact ((dat6 (Vt13 m ρ) c).arrAt_in 0 rfl _).trans (A_eq6 (Vt13 m ρ) c 0)
    | ⟨1, _⟩ => exact ((dat6 (Vt13 m ρ) c).arrAt_in 1 rfl _).trans (A_eq6 (Vt13 m ρ) c 1)
    | ⟨2, _⟩ => exact ((dat6 (Vt13 m ρ) c).arrAt_in 2 rfl _).trans (A_eq6 (Vt13 m ρ) c 2)
    | ⟨3, _⟩ => exact ((dat6 (Vt13 m ρ) c).arrAt_in 3 rfl _).trans (A_eq6 (Vt13 m ρ) c 3)
    | ⟨4, _⟩ => exact absurd rfl h4
    | ⟨5, _⟩ => exact absurd rfl h5
  · exact Wt14_of_ne m ρ c b fun w e => h ⟨w, e⟩

/-- After the last host stretch: the end. -/
abbrev Wt15 : Dev nD → Valuation τ sig (Elt F) := fun c => StableHlo.after hostOps7 (Wt14 m ρ c)
theorem Wt15_main_arg0 (c : Dev nD) : Wt15 m ρ c (Proc.devRef .tc main_arg0) = m ((c : Thread nD τ).loc main_arg0) :=
  (StableHlo.after_of_writes_sub hostOps7 _ hostOps7_writes (by decide : main_arg0 ∉ hostOps7_W)).trans <|
    (Wt14_keep m ρ c main_arg0 (by decide) (by decide)).trans <|
    (StableHlo.after_of_writes_sub hostOps6 _ hostOps6_writes (by decide : main_arg0 ∉ hostOps6_W)).trans <|
    (Wt12_keep m ρ c main_arg0 (by decide) (by decide)).trans <|
    (StableHlo.after_of_writes_sub hostOps5 _ hostOps5_writes (by decide : main_arg0 ∉ hostOps5_W)).trans <|
    (Wt10_keep m ρ c main_arg0 (by decide) (by decide)).trans <|
    (StableHlo.after_of_writes_sub hostOps4 _ hostOps4_writes (by decide : main_arg0 ∉ hostOps4_W)).trans <|
    (Wt8_keep m ρ c main_arg0 (by decide) (by decide)).trans <|
    (StableHlo.after_of_writes_sub hostOps3 _ hostOps3_writes (by decide : main_arg0 ∉ hostOps3_W)).trans <|
    (Wt6_keep m ρ c main_arg0 (by decide) (by decide)).trans <|
    (StableHlo.after_of_writes_sub hostOps2 _ hostOps2_writes (by decide : main_arg0 ∉ hostOps2_W)).trans <|
    (Wt4_keep m ρ c main_arg0 (by decide) (by decide)).trans <|
    (StableHlo.after_of_writes_sub hostOps1 _ hostOps1_writes (by decide : main_arg0 ∉ hostOps1_W)).trans <|
    (Wt2_keep m ρ c main_arg0 (by decide) (by decide)).trans <|
    (StableHlo.after_of_writes_sub hostOps0 _ hostOps0_writes (by decide : main_arg0 ∉ hostOps0_W))
theorem Wt15_main_arg1 (c : Dev nD) : Wt15 m ρ c (Proc.devRef .tc main_arg1) = m ((c : Thread nD τ).loc main_arg1) :=
  (StableHlo.after_of_writes_sub hostOps7 _ hostOps7_writes (by decide : main_arg1 ∉ hostOps7_W)).trans <|
    (Wt14_keep m ρ c main_arg1 (by decide) (by decide)).trans <|
    (StableHlo.after_of_writes_sub hostOps6 _ hostOps6_writes (by decide : main_arg1 ∉ hostOps6_W)).trans <|
    (Wt12_keep m ρ c main_arg1 (by decide) (by decide)).trans <|
    (StableHlo.after_of_writes_sub hostOps5 _ hostOps5_writes (by decide : main_arg1 ∉ hostOps5_W)).trans <|
    (Wt10_keep m ρ c main_arg1 (by decide) (by decide)).trans <|
    (StableHlo.after_of_writes_sub hostOps4 _ hostOps4_writes (by decide : main_arg1 ∉ hostOps4_W)).trans <|
    (Wt8_keep m ρ c main_arg1 (by decide) (by decide)).trans <|
    (StableHlo.after_of_writes_sub hostOps3 _ hostOps3_writes (by decide : main_arg1 ∉ hostOps3_W)).trans <|
    (Wt6_keep m ρ c main_arg1 (by decide) (by decide)).trans <|
    (StableHlo.after_of_writes_sub hostOps2 _ hostOps2_writes (by decide : main_arg1 ∉ hostOps2_W)).trans <|
    (Wt4_keep m ρ c main_arg1 (by decide) (by decide)).trans <|
    (StableHlo.after_of_writes_sub hostOps1 _ hostOps1_writes (by decide : main_arg1 ∉ hostOps1_W)).trans <|
    (Wt2_keep m ρ c main_arg1 (by decide) (by decide)).trans <|
    (StableHlo.after_of_writes_sub hostOps0 _ hostOps0_writes (by decide : main_arg1 ∉ hostOps0_W))
theorem Wt15_main_arg2 (c : Dev nD) : Wt15 m ρ c (Proc.devRef .tc main_arg2) = m ((c : Thread nD τ).loc main_arg2) :=
  (StableHlo.after_of_writes_sub hostOps7 _ hostOps7_writes (by decide : main_arg2 ∉ hostOps7_W)).trans <|
    (Wt14_keep m ρ c main_arg2 (by decide) (by decide)).trans <|
    (StableHlo.after_of_writes_sub hostOps6 _ hostOps6_writes (by decide : main_arg2 ∉ hostOps6_W)).trans <|
    (Wt12_keep m ρ c main_arg2 (by decide) (by decide)).trans <|
    (StableHlo.after_of_writes_sub hostOps5 _ hostOps5_writes (by decide : main_arg2 ∉ hostOps5_W)).trans <|
    (Wt10_keep m ρ c main_arg2 (by decide) (by decide)).trans <|
    (StableHlo.after_of_writes_sub hostOps4 _ hostOps4_writes (by decide : main_arg2 ∉ hostOps4_W)).trans <|
    (Wt8_keep m ρ c main_arg2 (by decide) (by decide)).trans <|
    (StableHlo.after_of_writes_sub hostOps3 _ hostOps3_writes (by decide : main_arg2 ∉ hostOps3_W)).trans <|
    (Wt6_keep m ρ c main_arg2 (by decide) (by decide)).trans <|
    (StableHlo.after_of_writes_sub hostOps2 _ hostOps2_writes (by decide : main_arg2 ∉ hostOps2_W)).trans <|
    (Wt4_keep m ρ c main_arg2 (by decide) (by decide)).trans <|
    (StableHlo.after_of_writes_sub hostOps1 _ hostOps1_writes (by decide : main_arg2 ∉ hostOps1_W)).trans <|
    (Wt2_keep m ρ c main_arg2 (by decide) (by decide)).trans <|
    (StableHlo.after_of_writes_sub hostOps0 _ hostOps0_writes (by decide : main_arg2 ∉ hostOps0_W))
theorem Wt15_main_arg3 (c : Dev nD) : Wt15 m ρ c (Proc.devRef .tc main_arg3) = m ((c : Thread nD τ).loc main_arg3) :=
  (StableHlo.after_of_writes_sub hostOps7 _ hostOps7_writes (by decide : main_arg3 ∉ hostOps7_W)).trans <|
    (Wt14_keep m ρ c main_arg3 (by decide) (by decide)).trans <|
    (StableHlo.after_of_writes_sub hostOps6 _ hostOps6_writes (by decide : main_arg3 ∉ hostOps6_W)).trans <|
    (Wt12_keep m ρ c main_arg3 (by decide) (by decide)).trans <|
    (StableHlo.after_of_writes_sub hostOps5 _ hostOps5_writes (by decide : main_arg3 ∉ hostOps5_W)).trans <|
    (Wt10_keep m ρ c main_arg3 (by decide) (by decide)).trans <|
    (StableHlo.after_of_writes_sub hostOps4 _ hostOps4_writes (by decide : main_arg3 ∉ hostOps4_W)).trans <|
    (Wt8_keep m ρ c main_arg3 (by decide) (by decide)).trans <|
    (StableHlo.after_of_writes_sub hostOps3 _ hostOps3_writes (by decide : main_arg3 ∉ hostOps3_W)).trans <|
    (Wt6_keep m ρ c main_arg3 (by decide) (by decide)).trans <|
    (StableHlo.after_of_writes_sub hostOps2 _ hostOps2_writes (by decide : main_arg3 ∉ hostOps2_W)).trans <|
    (Wt4_keep m ρ c main_arg3 (by decide) (by decide)).trans <|
    (StableHlo.after_of_writes_sub hostOps1 _ hostOps1_writes (by decide : main_arg3 ∉ hostOps1_W)).trans <|
    (Wt2_keep m ρ c main_arg3 (by decide) (by decide)).trans <|
    (StableHlo.after_of_writes_sub hostOps0 _ hostOps0_writes (by decide : main_arg3 ∉ hostOps0_W))
theorem Wt15_main_arg4 (c : Dev nD) : Wt15 m ρ c (Proc.devRef .tc main_arg4) = m ((c : Thread nD τ).loc main_arg4) :=
  (StableHlo.after_of_writes_sub hostOps7 _ hostOps7_writes (by decide : main_arg4 ∉ hostOps7_W)).trans <|
    (Wt14_keep m ρ c main_arg4 (by decide) (by decide)).trans <|
    (StableHlo.after_of_writes_sub hostOps6 _ hostOps6_writes (by decide : main_arg4 ∉ hostOps6_W)).trans <|
    (Wt12_keep m ρ c main_arg4 (by decide) (by decide)).trans <|
    (StableHlo.after_of_writes_sub hostOps5 _ hostOps5_writes (by decide : main_arg4 ∉ hostOps5_W)).trans <|
    (Wt10_keep m ρ c main_arg4 (by decide) (by decide)).trans <|
    (StableHlo.after_of_writes_sub hostOps4 _ hostOps4_writes (by decide : main_arg4 ∉ hostOps4_W)).trans <|
    (Wt8_keep m ρ c main_arg4 (by decide) (by decide)).trans <|
    (StableHlo.after_of_writes_sub hostOps3 _ hostOps3_writes (by decide : main_arg4 ∉ hostOps3_W)).trans <|
    (Wt6_keep m ρ c main_arg4 (by decide) (by decide)).trans <|
    (StableHlo.after_of_writes_sub hostOps2 _ hostOps2_writes (by decide : main_arg4 ∉ hostOps2_W)).trans <|
    (Wt4_keep m ρ c main_arg4 (by decide) (by decide)).trans <|
    (StableHlo.after_of_writes_sub hostOps1 _ hostOps1_writes (by decide : main_arg4 ∉ hostOps1_W)).trans <|
    (Wt2_keep m ρ c main_arg4 (by decide) (by decide)).trans <|
    (StableHlo.after_of_writes_sub hostOps0 _ hostOps0_writes (by decide : main_arg4 ∉ hostOps0_W))
theorem Wt15_main_arg5 (c : Dev nD) : Wt15 m ρ c (Proc.devRef .tc main_arg5) = m ((c : Thread nD τ).loc main_arg5) :=
  (StableHlo.after_of_writes_sub hostOps7 _ hostOps7_writes (by decide : main_arg5 ∉ hostOps7_W)).trans <|
    (Wt14_keep m ρ c main_arg5 (by decide) (by decide)).trans <|
    (StableHlo.after_of_writes_sub hostOps6 _ hostOps6_writes (by decide : main_arg5 ∉ hostOps6_W)).trans <|
    (Wt12_keep m ρ c main_arg5 (by decide) (by decide)).trans <|
    (StableHlo.after_of_writes_sub hostOps5 _ hostOps5_writes (by decide : main_arg5 ∉ hostOps5_W)).trans <|
    (Wt10_keep m ρ c main_arg5 (by decide) (by decide)).trans <|
    (StableHlo.after_of_writes_sub hostOps4 _ hostOps4_writes (by decide : main_arg5 ∉ hostOps4_W)).trans <|
    (Wt8_keep m ρ c main_arg5 (by decide) (by decide)).trans <|
    (StableHlo.after_of_writes_sub hostOps3 _ hostOps3_writes (by decide : main_arg5 ∉ hostOps3_W)).trans <|
    (Wt6_keep m ρ c main_arg5 (by decide) (by decide)).trans <|
    (StableHlo.after_of_writes_sub hostOps2 _ hostOps2_writes (by decide : main_arg5 ∉ hostOps2_W)).trans <|
    (Wt4_keep m ρ c main_arg5 (by decide) (by decide)).trans <|
    (StableHlo.after_of_writes_sub hostOps1 _ hostOps1_writes (by decide : main_arg5 ∉ hostOps1_W)).trans <|
    (Wt2_keep m ρ c main_arg5 (by decide) (by decide)).trans <|
    (StableHlo.after_of_writes_sub hostOps0 _ hostOps0_writes (by decide : main_arg5 ∉ hostOps0_W))
theorem Wt15_main_arg6 (c : Dev nD) : Wt15 m ρ c (Proc.devRef .tc main_arg6) = m ((c : Thread nD τ).loc main_arg6) :=
  (StableHlo.after_of_writes_sub hostOps7 _ hostOps7_writes (by decide : main_arg6 ∉ hostOps7_W)).trans <|
    (Wt14_keep m ρ c main_arg6 (by decide) (by decide)).trans <|
    (StableHlo.after_of_writes_sub hostOps6 _ hostOps6_writes (by decide : main_arg6 ∉ hostOps6_W)).trans <|
    (Wt12_keep m ρ c main_arg6 (by decide) (by decide)).trans <|
    (StableHlo.after_of_writes_sub hostOps5 _ hostOps5_writes (by decide : main_arg6 ∉ hostOps5_W)).trans <|
    (Wt10_keep m ρ c main_arg6 (by decide) (by decide)).trans <|
    (StableHlo.after_of_writes_sub hostOps4 _ hostOps4_writes (by decide : main_arg6 ∉ hostOps4_W)).trans <|
    (Wt8_keep m ρ c main_arg6 (by decide) (by decide)).trans <|
    (StableHlo.after_of_writes_sub hostOps3 _ hostOps3_writes (by decide : main_arg6 ∉ hostOps3_W)).trans <|
    (Wt6_keep m ρ c main_arg6 (by decide) (by decide)).trans <|
    (StableHlo.after_of_writes_sub hostOps2 _ hostOps2_writes (by decide : main_arg6 ∉ hostOps2_W)).trans <|
    (Wt4_keep m ρ c main_arg6 (by decide) (by decide)).trans <|
    (StableHlo.after_of_writes_sub hostOps1 _ hostOps1_writes (by decide : main_arg6 ∉ hostOps1_W)).trans <|
    (Wt2_keep m ρ c main_arg6 (by decide) (by decide)).trans <|
    (StableHlo.after_of_writes_sub hostOps0 _ hostOps0_writes (by decide : main_arg6 ∉ hostOps0_W))
theorem Wt15_main_arg7 (c : Dev nD) : Wt15 m ρ c (Proc.devRef .tc main_arg7) = m ((c : Thread nD τ).loc main_arg7) :=
  (StableHlo.after_of_writes_sub hostOps7 _ hostOps7_writes (by decide : main_arg7 ∉ hostOps7_W)).trans <|
    (Wt14_keep m ρ c main_arg7 (by decide) (by decide)).trans <|
    (StableHlo.after_of_writes_sub hostOps6 _ hostOps6_writes (by decide : main_arg7 ∉ hostOps6_W)).trans <|
    (Wt12_keep m ρ c main_arg7 (by decide) (by decide)).trans <|
    (StableHlo.after_of_writes_sub hostOps5 _ hostOps5_writes (by decide : main_arg7 ∉ hostOps5_W)).trans <|
    (Wt10_keep m ρ c main_arg7 (by decide) (by decide)).trans <|
    (StableHlo.after_of_writes_sub hostOps4 _ hostOps4_writes (by decide : main_arg7 ∉ hostOps4_W)).trans <|
    (Wt8_keep m ρ c main_arg7 (by decide) (by decide)).trans <|
    (StableHlo.after_of_writes_sub hostOps3 _ hostOps3_writes (by decide : main_arg7 ∉ hostOps3_W)).trans <|
    (Wt6_keep m ρ c main_arg7 (by decide) (by decide)).trans <|
    (StableHlo.after_of_writes_sub hostOps2 _ hostOps2_writes (by decide : main_arg7 ∉ hostOps2_W)).trans <|
    (Wt4_keep m ρ c main_arg7 (by decide) (by decide)).trans <|
    (StableHlo.after_of_writes_sub hostOps1 _ hostOps1_writes (by decide : main_arg7 ∉ hostOps1_W)).trans <|
    (Wt2_keep m ρ c main_arg7 (by decide) (by decide)).trans <|
    (StableHlo.after_of_writes_sub hostOps0 _ hostOps0_writes (by decide : main_arg7 ∉ hostOps0_W))
theorem Wt15_main_arg8 (c : Dev nD) : Wt15 m ρ c (Proc.devRef .tc main_arg8) = m ((c : Thread nD τ).loc main_arg8) :=
  (StableHlo.after_of_writes_sub hostOps7 _ hostOps7_writes (by decide : main_arg8 ∉ hostOps7_W)).trans <|
    (Wt14_keep m ρ c main_arg8 (by decide) (by decide)).trans <|
    (StableHlo.after_of_writes_sub hostOps6 _ hostOps6_writes (by decide : main_arg8 ∉ hostOps6_W)).trans <|
    (Wt12_keep m ρ c main_arg8 (by decide) (by decide)).trans <|
    (StableHlo.after_of_writes_sub hostOps5 _ hostOps5_writes (by decide : main_arg8 ∉ hostOps5_W)).trans <|
    (Wt10_keep m ρ c main_arg8 (by decide) (by decide)).trans <|
    (StableHlo.after_of_writes_sub hostOps4 _ hostOps4_writes (by decide : main_arg8 ∉ hostOps4_W)).trans <|
    (Wt8_keep m ρ c main_arg8 (by decide) (by decide)).trans <|
    (StableHlo.after_of_writes_sub hostOps3 _ hostOps3_writes (by decide : main_arg8 ∉ hostOps3_W)).trans <|
    (Wt6_keep m ρ c main_arg8 (by decide) (by decide)).trans <|
    (StableHlo.after_of_writes_sub hostOps2 _ hostOps2_writes (by decide : main_arg8 ∉ hostOps2_W)).trans <|
    (Wt4_keep m ρ c main_arg8 (by decide) (by decide)).trans <|
    (StableHlo.after_of_writes_sub hostOps1 _ hostOps1_writes (by decide : main_arg8 ∉ hostOps1_W)).trans <|
    (Wt2_keep m ρ c main_arg8 (by decide) (by decide)).trans <|
    (StableHlo.after_of_writes_sub hostOps0 _ hostOps0_writes (by decide : main_arg8 ∉ hostOps0_W))
theorem Wt15_main_arg9 (c : Dev nD) : Wt15 m ρ c (Proc.devRef .tc main_arg9) = m ((c : Thread nD τ).loc main_arg9) :=
  (StableHlo.after_of_writes_sub hostOps7 _ hostOps7_writes (by decide : main_arg9 ∉ hostOps7_W)).trans <|
    (Wt14_keep m ρ c main_arg9 (by decide) (by decide)).trans <|
    (StableHlo.after_of_writes_sub hostOps6 _ hostOps6_writes (by decide : main_arg9 ∉ hostOps6_W)).trans <|
    (Wt12_keep m ρ c main_arg9 (by decide) (by decide)).trans <|
    (StableHlo.after_of_writes_sub hostOps5 _ hostOps5_writes (by decide : main_arg9 ∉ hostOps5_W)).trans <|
    (Wt10_keep m ρ c main_arg9 (by decide) (by decide)).trans <|
    (StableHlo.after_of_writes_sub hostOps4 _ hostOps4_writes (by decide : main_arg9 ∉ hostOps4_W)).trans <|
    (Wt8_keep m ρ c main_arg9 (by decide) (by decide)).trans <|
    (StableHlo.after_of_writes_sub hostOps3 _ hostOps3_writes (by decide : main_arg9 ∉ hostOps3_W)).trans <|
    (Wt6_keep m ρ c main_arg9 (by decide) (by decide)).trans <|
    (StableHlo.after_of_writes_sub hostOps2 _ hostOps2_writes (by decide : main_arg9 ∉ hostOps2_W)).trans <|
    (Wt4_keep m ρ c main_arg9 (by decide) (by decide)).trans <|
    (StableHlo.after_of_writes_sub hostOps1 _ hostOps1_writes (by decide : main_arg9 ∉ hostOps1_W)).trans <|
    (Wt2_keep m ρ c main_arg9 (by decide) (by decide)).trans <|
    (StableHlo.after_of_writes_sub hostOps0 _ hostOps0_writes (by decide : main_arg9 ∉ hostOps0_W))
theorem Wt15_main_arg10 (c : Dev nD) : Wt15 m ρ c (Proc.devRef .tc main_arg10) = m ((c : Thread nD τ).loc main_arg10) :=
  (StableHlo.after_of_writes_sub hostOps7 _ hostOps7_writes (by decide : main_arg10 ∉ hostOps7_W)).trans <|
    (Wt14_keep m ρ c main_arg10 (by decide) (by decide)).trans <|
    (StableHlo.after_of_writes_sub hostOps6 _ hostOps6_writes (by decide : main_arg10 ∉ hostOps6_W)).trans <|
    (Wt12_keep m ρ c main_arg10 (by decide) (by decide)).trans <|
    (StableHlo.after_of_writes_sub hostOps5 _ hostOps5_writes (by decide : main_arg10 ∉ hostOps5_W)).trans <|
    (Wt10_keep m ρ c main_arg10 (by decide) (by decide)).trans <|
    (StableHlo.after_of_writes_sub hostOps4 _ hostOps4_writes (by decide : main_arg10 ∉ hostOps4_W)).trans <|
    (Wt8_keep m ρ c main_arg10 (by decide) (by decide)).trans <|
    (StableHlo.after_of_writes_sub hostOps3 _ hostOps3_writes (by decide : main_arg10 ∉ hostOps3_W)).trans <|
    (Wt6_keep m ρ c main_arg10 (by decide) (by decide)).trans <|
    (StableHlo.after_of_writes_sub hostOps2 _ hostOps2_writes (by decide : main_arg10 ∉ hostOps2_W)).trans <|
    (Wt4_keep m ρ c main_arg10 (by decide) (by decide)).trans <|
    (StableHlo.after_of_writes_sub hostOps1 _ hostOps1_writes (by decide : main_arg10 ∉ hostOps1_W)).trans <|
    (Wt2_keep m ρ c main_arg10 (by decide) (by decide)).trans <|
    (StableHlo.after_of_writes_sub hostOps0 _ hostOps0_writes (by decide : main_arg10 ∉ hostOps0_W))
theorem Wt15_main_arg11 (c : Dev nD) : Wt15 m ρ c (Proc.devRef .tc main_arg11) = m ((c : Thread nD τ).loc main_arg11) :=
  (StableHlo.after_of_writes_sub hostOps7 _ hostOps7_writes (by decide : main_arg11 ∉ hostOps7_W)).trans <|
    (Wt14_keep m ρ c main_arg11 (by decide) (by decide)).trans <|
    (StableHlo.after_of_writes_sub hostOps6 _ hostOps6_writes (by decide : main_arg11 ∉ hostOps6_W)).trans <|
    (Wt12_keep m ρ c main_arg11 (by decide) (by decide)).trans <|
    (StableHlo.after_of_writes_sub hostOps5 _ hostOps5_writes (by decide : main_arg11 ∉ hostOps5_W)).trans <|
    (Wt10_keep m ρ c main_arg11 (by decide) (by decide)).trans <|
    (StableHlo.after_of_writes_sub hostOps4 _ hostOps4_writes (by decide : main_arg11 ∉ hostOps4_W)).trans <|
    (Wt8_keep m ρ c main_arg11 (by decide) (by decide)).trans <|
    (StableHlo.after_of_writes_sub hostOps3 _ hostOps3_writes (by decide : main_arg11 ∉ hostOps3_W)).trans <|
    (Wt6_keep m ρ c main_arg11 (by decide) (by decide)).trans <|
    (StableHlo.after_of_writes_sub hostOps2 _ hostOps2_writes (by decide : main_arg11 ∉ hostOps2_W)).trans <|
    (Wt4_keep m ρ c main_arg11 (by decide) (by decide)).trans <|
    (StableHlo.after_of_writes_sub hostOps1 _ hostOps1_writes (by decide : main_arg11 ∉ hostOps1_W)).trans <|
    (Wt2_keep m ρ c main_arg11 (by decide) (by decide)).trans <|
    (StableHlo.after_of_writes_sub hostOps0 _ hostOps0_writes (by decide : main_arg11 ∉ hostOps0_W))
theorem Wt15_main_arg12 (c : Dev nD) : Wt15 m ρ c (Proc.devRef .tc main_arg12) = m ((c : Thread nD τ).loc main_arg12) :=
  (StableHlo.after_of_writes_sub hostOps7 _ hostOps7_writes (by decide : main_arg12 ∉ hostOps7_W)).trans <|
    (Wt14_keep m ρ c main_arg12 (by decide) (by decide)).trans <|
    (StableHlo.after_of_writes_sub hostOps6 _ hostOps6_writes (by decide : main_arg12 ∉ hostOps6_W)).trans <|
    (Wt12_keep m ρ c main_arg12 (by decide) (by decide)).trans <|
    (StableHlo.after_of_writes_sub hostOps5 _ hostOps5_writes (by decide : main_arg12 ∉ hostOps5_W)).trans <|
    (Wt10_keep m ρ c main_arg12 (by decide) (by decide)).trans <|
    (StableHlo.after_of_writes_sub hostOps4 _ hostOps4_writes (by decide : main_arg12 ∉ hostOps4_W)).trans <|
    (Wt8_keep m ρ c main_arg12 (by decide) (by decide)).trans <|
    (StableHlo.after_of_writes_sub hostOps3 _ hostOps3_writes (by decide : main_arg12 ∉ hostOps3_W)).trans <|
    (Wt6_keep m ρ c main_arg12 (by decide) (by decide)).trans <|
    (StableHlo.after_of_writes_sub hostOps2 _ hostOps2_writes (by decide : main_arg12 ∉ hostOps2_W)).trans <|
    (Wt4_keep m ρ c main_arg12 (by decide) (by decide)).trans <|
    (StableHlo.after_of_writes_sub hostOps1 _ hostOps1_writes (by decide : main_arg12 ∉ hostOps1_W)).trans <|
    (Wt2_keep m ρ c main_arg12 (by decide) (by decide)).trans <|
    (StableHlo.after_of_writes_sub hostOps0 _ hostOps0_writes (by decide : main_arg12 ∉ hostOps0_W))
theorem Wt15_main_arg13 (c : Dev nD) : Wt15 m ρ c (Proc.devRef .tc main_arg13) = m ((c : Thread nD τ).loc main_arg13) :=
  (StableHlo.after_of_writes_sub hostOps7 _ hostOps7_writes (by decide : main_arg13 ∉ hostOps7_W)).trans <|
    (Wt14_keep m ρ c main_arg13 (by decide) (by decide)).trans <|
    (StableHlo.after_of_writes_sub hostOps6 _ hostOps6_writes (by decide : main_arg13 ∉ hostOps6_W)).trans <|
    (Wt12_keep m ρ c main_arg13 (by decide) (by decide)).trans <|
    (StableHlo.after_of_writes_sub hostOps5 _ hostOps5_writes (by decide : main_arg13 ∉ hostOps5_W)).trans <|
    (Wt10_keep m ρ c main_arg13 (by decide) (by decide)).trans <|
    (StableHlo.after_of_writes_sub hostOps4 _ hostOps4_writes (by decide : main_arg13 ∉ hostOps4_W)).trans <|
    (Wt8_keep m ρ c main_arg13 (by decide) (by decide)).trans <|
    (StableHlo.after_of_writes_sub hostOps3 _ hostOps3_writes (by decide : main_arg13 ∉ hostOps3_W)).trans <|
    (Wt6_keep m ρ c main_arg13 (by decide) (by decide)).trans <|
    (StableHlo.after_of_writes_sub hostOps2 _ hostOps2_writes (by decide : main_arg13 ∉ hostOps2_W)).trans <|
    (Wt4_keep m ρ c main_arg13 (by decide) (by decide)).trans <|
    (StableHlo.after_of_writes_sub hostOps1 _ hostOps1_writes (by decide : main_arg13 ∉ hostOps1_W)).trans <|
    (Wt2_keep m ρ c main_arg13 (by decide) (by decide)).trans <|
    (StableHlo.after_of_writes_sub hostOps0 _ hostOps0_writes (by decide : main_arg13 ∉ hostOps0_W))
theorem Wt15_main_arg14 (c : Dev nD) : Wt15 m ρ c (Proc.devRef .tc main_arg14) = m ((c : Thread nD τ).loc main_arg14) :=
  (StableHlo.after_of_writes_sub hostOps7 _ hostOps7_writes (by decide : main_arg14 ∉ hostOps7_W)).trans <|
    (Wt14_keep m ρ c main_arg14 (by decide) (by decide)).trans <|
    (StableHlo.after_of_writes_sub hostOps6 _ hostOps6_writes (by decide : main_arg14 ∉ hostOps6_W)).trans <|
    (Wt12_keep m ρ c main_arg14 (by decide) (by decide)).trans <|
    (StableHlo.after_of_writes_sub hostOps5 _ hostOps5_writes (by decide : main_arg14 ∉ hostOps5_W)).trans <|
    (Wt10_keep m ρ c main_arg14 (by decide) (by decide)).trans <|
    (StableHlo.after_of_writes_sub hostOps4 _ hostOps4_writes (by decide : main_arg14 ∉ hostOps4_W)).trans <|
    (Wt8_keep m ρ c main_arg14 (by decide) (by decide)).trans <|
    (StableHlo.after_of_writes_sub hostOps3 _ hostOps3_writes (by decide : main_arg14 ∉ hostOps3_W)).trans <|
    (Wt6_keep m ρ c main_arg14 (by decide) (by decide)).trans <|
    (StableHlo.after_of_writes_sub hostOps2 _ hostOps2_writes (by decide : main_arg14 ∉ hostOps2_W)).trans <|
    (Wt4_keep m ρ c main_arg14 (by decide) (by decide)).trans <|
    (StableHlo.after_of_writes_sub hostOps1 _ hostOps1_writes (by decide : main_arg14 ∉ hostOps1_W)).trans <|
    (Wt2_keep m ρ c main_arg14 (by decide) (by decide)).trans <|
    (StableHlo.after_of_writes_sub hostOps0 _ hostOps0_writes (by decide : main_arg14 ∉ hostOps0_W))
theorem Wt15_main_arg15 (c : Dev nD) : Wt15 m ρ c (Proc.devRef .tc main_arg15) = m ((c : Thread nD τ).loc main_arg15) :=
  (StableHlo.after_of_writes_sub hostOps7 _ hostOps7_writes (by decide : main_arg15 ∉ hostOps7_W)).trans <|
    (Wt14_keep m ρ c main_arg15 (by decide) (by decide)).trans <|
    (StableHlo.after_of_writes_sub hostOps6 _ hostOps6_writes (by decide : main_arg15 ∉ hostOps6_W)).trans <|
    (Wt12_keep m ρ c main_arg15 (by decide) (by decide)).trans <|
    (StableHlo.after_of_writes_sub hostOps5 _ hostOps5_writes (by decide : main_arg15 ∉ hostOps5_W)).trans <|
    (Wt10_keep m ρ c main_arg15 (by decide) (by decide)).trans <|
    (StableHlo.after_of_writes_sub hostOps4 _ hostOps4_writes (by decide : main_arg15 ∉ hostOps4_W)).trans <|
    (Wt8_keep m ρ c main_arg15 (by decide) (by decide)).trans <|
    (StableHlo.after_of_writes_sub hostOps3 _ hostOps3_writes (by decide : main_arg15 ∉ hostOps3_W)).trans <|
    (Wt6_keep m ρ c main_arg15 (by decide) (by decide)).trans <|
    (StableHlo.after_of_writes_sub hostOps2 _ hostOps2_writes (by decide : main_arg15 ∉ hostOps2_W)).trans <|
    (Wt4_keep m ρ c main_arg15 (by decide) (by decide)).trans <|
    (StableHlo.after_of_writes_sub hostOps1 _ hostOps1_writes (by decide : main_arg15 ∉ hostOps1_W)).trans <|
    (Wt2_keep m ρ c main_arg15 (by decide) (by decide)).trans <|
    (StableHlo.after_of_writes_sub hostOps0 _ hostOps0_writes (by decide : main_arg15 ∉ hostOps0_W))
theorem Wt15_main_arg16 (c : Dev nD) : Wt15 m ρ c (Proc.devRef .tc main_arg16) = m ((c : Thread nD τ).loc main_arg16) :=
  (StableHlo.after_of_writes_sub hostOps7 _ hostOps7_writes (by decide : main_arg16 ∉ hostOps7_W)).trans <|
    (Wt14_keep m ρ c main_arg16 (by decide) (by decide)).trans <|
    (StableHlo.after_of_writes_sub hostOps6 _ hostOps6_writes (by decide : main_arg16 ∉ hostOps6_W)).trans <|
    (Wt12_keep m ρ c main_arg16 (by decide) (by decide)).trans <|
    (StableHlo.after_of_writes_sub hostOps5 _ hostOps5_writes (by decide : main_arg16 ∉ hostOps5_W)).trans <|
    (Wt10_keep m ρ c main_arg16 (by decide) (by decide)).trans <|
    (StableHlo.after_of_writes_sub hostOps4 _ hostOps4_writes (by decide : main_arg16 ∉ hostOps4_W)).trans <|
    (Wt8_keep m ρ c main_arg16 (by decide) (by decide)).trans <|
    (StableHlo.after_of_writes_sub hostOps3 _ hostOps3_writes (by decide : main_arg16 ∉ hostOps3_W)).trans <|
    (Wt6_keep m ρ c main_arg16 (by decide) (by decide)).trans <|
    (StableHlo.after_of_writes_sub hostOps2 _ hostOps2_writes (by decide : main_arg16 ∉ hostOps2_W)).trans <|
    (Wt4_keep m ρ c main_arg16 (by decide) (by decide)).trans <|
    (StableHlo.after_of_writes_sub hostOps1 _ hostOps1_writes (by decide : main_arg16 ∉ hostOps1_W)).trans <|
    (Wt2_keep m ρ c main_arg16 (by decide) (by decide)).trans <|
    (StableHlo.after_of_writes_sub hostOps0 _ hostOps0_writes (by decide : main_arg16 ∉ hostOps0_W))
theorem Wt15_main_arg17 (c : Dev nD) : Wt15 m ρ c (Proc.devRef .tc main_arg17) = m ((c : Thread nD τ).loc main_arg17) :=
  (StableHlo.after_of_writes_sub hostOps7 _ hostOps7_writes (by decide : main_arg17 ∉ hostOps7_W)).trans <|
    (Wt14_keep m ρ c main_arg17 (by decide) (by decide)).trans <|
    (StableHlo.after_of_writes_sub hostOps6 _ hostOps6_writes (by decide : main_arg17 ∉ hostOps6_W)).trans <|
    (Wt12_keep m ρ c main_arg17 (by decide) (by decide)).trans <|
    (StableHlo.after_of_writes_sub hostOps5 _ hostOps5_writes (by decide : main_arg17 ∉ hostOps5_W)).trans <|
    (Wt10_keep m ρ c main_arg17 (by decide) (by decide)).trans <|
    (StableHlo.after_of_writes_sub hostOps4 _ hostOps4_writes (by decide : main_arg17 ∉ hostOps4_W)).trans <|
    (Wt8_keep m ρ c main_arg17 (by decide) (by decide)).trans <|
    (StableHlo.after_of_writes_sub hostOps3 _ hostOps3_writes (by decide : main_arg17 ∉ hostOps3_W)).trans <|
    (Wt6_keep m ρ c main_arg17 (by decide) (by decide)).trans <|
    (StableHlo.after_of_writes_sub hostOps2 _ hostOps2_writes (by decide : main_arg17 ∉ hostOps2_W)).trans <|
    (Wt4_keep m ρ c main_arg17 (by decide) (by decide)).trans <|
    (StableHlo.after_of_writes_sub hostOps1 _ hostOps1_writes (by decide : main_arg17 ∉ hostOps1_W)).trans <|
    (Wt2_keep m ρ c main_arg17 (by decide) (by decide)).trans <|
    (StableHlo.after_of_writes_sub hostOps0 _ hostOps0_writes (by decide : main_arg17 ∉ hostOps0_W))
theorem Wt15_main_arg18 (c : Dev nD) : Wt15 m ρ c (Proc.devRef .tc main_arg18) = m ((c : Thread nD τ).loc main_arg18) :=
  (StableHlo.after_of_writes_sub hostOps7 _ hostOps7_writes (by decide : main_arg18 ∉ hostOps7_W)).trans <|
    (Wt14_keep m ρ c main_arg18 (by decide) (by decide)).trans <|
    (StableHlo.after_of_writes_sub hostOps6 _ hostOps6_writes (by decide : main_arg18 ∉ hostOps6_W)).trans <|
    (Wt12_keep m ρ c main_arg18 (by decide) (by decide)).trans <|
    (StableHlo.after_of_writes_sub hostOps5 _ hostOps5_writes (by decide : main_arg18 ∉ hostOps5_W)).trans <|
    (Wt10_keep m ρ c main_arg18 (by decide) (by decide)).trans <|
    (StableHlo.after_of_writes_sub hostOps4 _ hostOps4_writes (by decide : main_arg18 ∉ hostOps4_W)).trans <|
    (Wt8_keep m ρ c main_arg18 (by decide) (by decide)).trans <|
    (StableHlo.after_of_writes_sub hostOps3 _ hostOps3_writes (by decide : main_arg18 ∉ hostOps3_W)).trans <|
    (Wt6_keep m ρ c main_arg18 (by decide) (by decide)).trans <|
    (StableHlo.after_of_writes_sub hostOps2 _ hostOps2_writes (by decide : main_arg18 ∉ hostOps2_W)).trans <|
    (Wt4_keep m ρ c main_arg18 (by decide) (by decide)).trans <|
    (StableHlo.after_of_writes_sub hostOps1 _ hostOps1_writes (by decide : main_arg18 ∉ hostOps1_W)).trans <|
    (Wt2_keep m ρ c main_arg18 (by decide) (by decide)).trans <|
    (StableHlo.after_of_writes_sub hostOps0 _ hostOps0_writes (by decide : main_arg18 ∉ hostOps0_W))
theorem Wt15_main_arg19 (c : Dev nD) : Wt15 m ρ c (Proc.devRef .tc main_arg19) = m ((c : Thread nD τ).loc main_arg19) :=
  (StableHlo.after_of_writes_sub hostOps7 _ hostOps7_writes (by decide : main_arg19 ∉ hostOps7_W)).trans <|
    (Wt14_keep m ρ c main_arg19 (by decide) (by decide)).trans <|
    (StableHlo.after_of_writes_sub hostOps6 _ hostOps6_writes (by decide : main_arg19 ∉ hostOps6_W)).trans <|
    (Wt12_keep m ρ c main_arg19 (by decide) (by decide)).trans <|
    (StableHlo.after_of_writes_sub hostOps5 _ hostOps5_writes (by decide : main_arg19 ∉ hostOps5_W)).trans <|
    (Wt10_keep m ρ c main_arg19 (by decide) (by decide)).trans <|
    (StableHlo.after_of_writes_sub hostOps4 _ hostOps4_writes (by decide : main_arg19 ∉ hostOps4_W)).trans <|
    (Wt8_keep m ρ c main_arg19 (by decide) (by decide)).trans <|
    (StableHlo.after_of_writes_sub hostOps3 _ hostOps3_writes (by decide : main_arg19 ∉ hostOps3_W)).trans <|
    (Wt6_keep m ρ c main_arg19 (by decide) (by decide)).trans <|
    (StableHlo.after_of_writes_sub hostOps2 _ hostOps2_writes (by decide : main_arg19 ∉ hostOps2_W)).trans <|
    (Wt4_keep m ρ c main_arg19 (by decide) (by decide)).trans <|
    (StableHlo.after_of_writes_sub hostOps1 _ hostOps1_writes (by decide : main_arg19 ∉ hostOps1_W)).trans <|
    (Wt2_keep m ρ c main_arg19 (by decide) (by decide)).trans <|
    (StableHlo.after_of_writes_sub hostOps0 _ hostOps0_writes (by decide : main_arg19 ∉ hostOps0_W))
theorem Wt15_main_arg20 (c : Dev nD) : Wt15 m ρ c (Proc.devRef .tc main_arg20) = m ((c : Thread nD τ).loc main_arg20) :=
  (StableHlo.after_of_writes_sub hostOps7 _ hostOps7_writes (by decide : main_arg20 ∉ hostOps7_W)).trans <|
    (Wt14_keep m ρ c main_arg20 (by decide) (by decide)).trans <|
    (StableHlo.after_of_writes_sub hostOps6 _ hostOps6_writes (by decide : main_arg20 ∉ hostOps6_W)).trans <|
    (Wt12_keep m ρ c main_arg20 (by decide) (by decide)).trans <|
    (StableHlo.after_of_writes_sub hostOps5 _ hostOps5_writes (by decide : main_arg20 ∉ hostOps5_W)).trans <|
    (Wt10_keep m ρ c main_arg20 (by decide) (by decide)).trans <|
    (StableHlo.after_of_writes_sub hostOps4 _ hostOps4_writes (by decide : main_arg20 ∉ hostOps4_W)).trans <|
    (Wt8_keep m ρ c main_arg20 (by decide) (by decide)).trans <|
    (StableHlo.after_of_writes_sub hostOps3 _ hostOps3_writes (by decide : main_arg20 ∉ hostOps3_W)).trans <|
    (Wt6_keep m ρ c main_arg20 (by decide) (by decide)).trans <|
    (StableHlo.after_of_writes_sub hostOps2 _ hostOps2_writes (by decide : main_arg20 ∉ hostOps2_W)).trans <|
    (Wt4_keep m ρ c main_arg20 (by decide) (by decide)).trans <|
    (StableHlo.after_of_writes_sub hostOps1 _ hostOps1_writes (by decide : main_arg20 ∉ hostOps1_W)).trans <|
    (Wt2_keep m ρ c main_arg20 (by decide) (by decide)).trans <|
    (StableHlo.after_of_writes_sub hostOps0 _ hostOps0_writes (by decide : main_arg20 ∉ hostOps0_W))
theorem Wt15_main_arg21 (c : Dev nD) : Wt15 m ρ c (Proc.devRef .tc main_arg21) = m ((c : Thread nD τ).loc main_arg21) :=
  (StableHlo.after_of_writes_sub hostOps7 _ hostOps7_writes (by decide : main_arg21 ∉ hostOps7_W)).trans <|
    (Wt14_keep m ρ c main_arg21 (by decide) (by decide)).trans <|
    (StableHlo.after_of_writes_sub hostOps6 _ hostOps6_writes (by decide : main_arg21 ∉ hostOps6_W)).trans <|
    (Wt12_keep m ρ c main_arg21 (by decide) (by decide)).trans <|
    (StableHlo.after_of_writes_sub hostOps5 _ hostOps5_writes (by decide : main_arg21 ∉ hostOps5_W)).trans <|
    (Wt10_keep m ρ c main_arg21 (by decide) (by decide)).trans <|
    (StableHlo.after_of_writes_sub hostOps4 _ hostOps4_writes (by decide : main_arg21 ∉ hostOps4_W)).trans <|
    (Wt8_keep m ρ c main_arg21 (by decide) (by decide)).trans <|
    (StableHlo.after_of_writes_sub hostOps3 _ hostOps3_writes (by decide : main_arg21 ∉ hostOps3_W)).trans <|
    (Wt6_keep m ρ c main_arg21 (by decide) (by decide)).trans <|
    (StableHlo.after_of_writes_sub hostOps2 _ hostOps2_writes (by decide : main_arg21 ∉ hostOps2_W)).trans <|
    (Wt4_keep m ρ c main_arg21 (by decide) (by decide)).trans <|
    (StableHlo.after_of_writes_sub hostOps1 _ hostOps1_writes (by decide : main_arg21 ∉ hostOps1_W)).trans <|
    (Wt2_keep m ρ c main_arg21 (by decide) (by decide)).trans <|
    (StableHlo.after_of_writes_sub hostOps0 _ hostOps0_writes (by decide : main_arg21 ∉ hostOps0_W))
theorem Wt15_main_arg22 (c : Dev nD) : Wt15 m ρ c (Proc.devRef .tc main_arg22) = m ((c : Thread nD τ).loc main_arg22) :=
  (StableHlo.after_of_writes_sub hostOps7 _ hostOps7_writes (by decide : main_arg22 ∉ hostOps7_W)).trans <|
    (Wt14_keep m ρ c main_arg22 (by decide) (by decide)).trans <|
    (StableHlo.after_of_writes_sub hostOps6 _ hostOps6_writes (by decide : main_arg22 ∉ hostOps6_W)).trans <|
    (Wt12_keep m ρ c main_arg22 (by decide) (by decide)).trans <|
    (StableHlo.after_of_writes_sub hostOps5 _ hostOps5_writes (by decide : main_arg22 ∉ hostOps5_W)).trans <|
    (Wt10_keep m ρ c main_arg22 (by decide) (by decide)).trans <|
    (StableHlo.after_of_writes_sub hostOps4 _ hostOps4_writes (by decide : main_arg22 ∉ hostOps4_W)).trans <|
    (Wt8_keep m ρ c main_arg22 (by decide) (by decide)).trans <|
    (StableHlo.after_of_writes_sub hostOps3 _ hostOps3_writes (by decide : main_arg22 ∉ hostOps3_W)).trans <|
    (Wt6_keep m ρ c main_arg22 (by decide) (by decide)).trans <|
    (StableHlo.after_of_writes_sub hostOps2 _ hostOps2_writes (by decide : main_arg22 ∉ hostOps2_W)).trans <|
    (Wt4_keep m ρ c main_arg22 (by decide) (by decide)).trans <|
    (StableHlo.after_of_writes_sub hostOps1 _ hostOps1_writes (by decide : main_arg22 ∉ hostOps1_W)).trans <|
    (Wt2_keep m ρ c main_arg22 (by decide) (by decide)).trans <|
    (StableHlo.after_of_writes_sub hostOps0 _ hostOps0_writes (by decide : main_arg22 ∉ hostOps0_W))

/-- Every pipeline's proof data, each at its region's entry contents. -/
def pdats : (p : Fin 7) → (c : Dev nD) → Dat τ (Elt F) Unit ℕ (UR sig nD τ) ℕ (Pipeline.pin (pcfgs (F := F)) adm p) c
  | ⟨0, _⟩ => fun c => dat0 (Vt1 m ρ) c
  | ⟨1, _⟩ => fun c => dat1 (Vt3 m ρ) c
  | ⟨2, _⟩ => fun c => dat2 (Vt5 m ρ) c
  | ⟨3, _⟩ => fun c => dat3 (Vt7 m ρ) c
  | ⟨4, _⟩ => fun c => dat4 (Vt9 m ρ) c
  | ⟨5, _⟩ => fun c => dat5 (Vt11 m ρ) c
  | ⟨6, _⟩ => fun c => dat6 (Vt13 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev Rr (c : Dev nD) : sProp 𝕄 := iprop((∃ r, prngReg c r) ∗ ∃ W, owes (c : Thread nD τ) (0 : CellTallies nD τ sig Unit) W)
/-- A host stretch as a segment over the buffers no scope hides. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Region 0 over the thread state: entered from every unhidden buffer at `Wt1`, left at `Wt2`. Its arrays are
    split out of those buffers and put back at the exit contents; the generator register goes into the invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vt1 m ρ) c).loose
  hwaits := Pipeline.hwaits_of_owed_zero _ _ _ _ L lv 0 fun _ _ => rfl
  pre c := iprop(StableHlo.held (c : Thread nD τ) (Pipeline.ucRefs τ sig) (Wt1 m ρ c) ∗ Rr c)
  post c := iprop(StableHlo.held (c : Thread nD τ) (Pipeline.ucRefs τ sig) (Wt2 m ρ c) ∗ Rr c)
  X c := iprop(∃ r, prngReg c r)
  Y c := iprop(∃ r, prngReg c r)
  Z c := Pipeline.unscopedRest (Ix := Unit) (Name := ℕ) (U := UR sig nD τ) (Lvl := ℕ) spec0 c (Vt1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vt1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vt1 m ρ) c); unfold Pipeline.ΦA
    iintro ⟨Hp, -, Hr⟩
    isplitl [Hr]; · iexact Hr
    iexact Hp
  hout c := by
    rw [Pipeline.ownSems0_none]
    refine BIBase.Entails.trans (hout0 (Vt1 m ρ) c) ?_; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vt1 m ρ c) (Vt2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unhidden buffer at `Wt3`, left at `Wt4`. Its arrays are
    split out of those buffers and put back at the exit contents; the generator register goes into the invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vt3 m ρ) c).loose
  hwaits := Pipeline.hwaits_of_owed_zero _ _ _ _ L lv 1 fun _ _ => rfl
  pre c := iprop(StableHlo.held (c : Thread nD τ) (Pipeline.ucRefs τ sig) (Wt3 m ρ c) ∗ Rr c)
  post c := iprop(StableHlo.held (c : Thread nD τ) (Pipeline.ucRefs τ sig) (Wt4 m ρ c) ∗ Rr c)
  X c := iprop(∃ r, prngReg c r)
  Y c := iprop(∃ r, prngReg c r)
  Z c := Pipeline.unscopedRest (Ix := Unit) (Name := ℕ) (U := UR sig nD τ) (Lvl := ℕ) spec1 c (Vt3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vt3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vt3 m ρ) c); unfold Pipeline.ΦA
    iintro ⟨Hp, -, Hr⟩
    isplitl [Hr]; · iexact Hr
    iexact Hp
  hout c := by
    rw [Pipeline.ownSems0_none]
    refine BIBase.Entails.trans (hout1 (Vt3 m ρ) c) ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vt3 m ρ c) (Vt4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unhidden buffer at `Wt5`, left at `Wt6`. Its arrays are
    split out of those buffers and put back at the exit contents; the generator register goes into the invariant and
    comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vt5 m ρ) c).loose
  hwaits := Pipeline.hwaits_of_owed_zero _ _ _ _ L lv 2 fun _ _ => rfl
  pre c := iprop(StableHlo.held (c : Thread nD τ) (Pipeline.ucRefs τ sig) (Wt5 m ρ c) ∗ Rr c)
  post c := iprop(StableHlo.held (c : Thread nD τ) (Pipeline.ucRefs τ sig) (Wt6 m ρ c) ∗ Rr c)
  X c := iprop(∃ r, prngReg c r)
  Y c := iprop(∃ r, prngReg c r)
  Z c := Pipeline.unscopedRest (Ix := Unit) (Name := ℕ) (U := UR sig nD τ) (Lvl := ℕ) spec2 c (Vt5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vt5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (Vt5 m ρ) c); unfold Pipeline.ΦA
    iintro ⟨Hp, -, Hr⟩
    isplitl [Hr]; · iexact Hr
    iexact Hp
  hout c := by
    rw [Pipeline.ownSems0_none]
    refine BIBase.Entails.trans (hout2 (Vt5 m ρ) c) ?_; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vt5 m ρ c) (Vt6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unhidden buffer at `Wt7`, left at `Wt8`. Its arrays are
    split out of those buffers and put back at the exit contents; the generator register goes into the invariant and
    comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vt7 m ρ) c).loose
  hwaits := Pipeline.hwaits_of_owed_zero _ _ _ _ L lv 3 fun _ _ => rfl
  pre c := iprop(StableHlo.held (c : Thread nD τ) (Pipeline.ucRefs τ sig) (Wt7 m ρ c) ∗ Rr c)
  post c := iprop(StableHlo.held (c : Thread nD τ) (Pipeline.ucRefs τ sig) (Wt8 m ρ c) ∗ Rr c)
  X c := iprop(∃ r, prngReg c r)
  Y c := iprop(∃ r, prngReg c r)
  Z c := Pipeline.unscopedRest (Ix := Unit) (Name := ℕ) (U := UR sig nD τ) (Lvl := ℕ) spec3 c (Vt7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vt7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (Vt7 m ρ) c); unfold Pipeline.ΦA
    iintro ⟨Hp, -, Hr⟩
    isplitl [Hr]; · iexact Hr
    iexact Hp
  hout c := by
    rw [Pipeline.ownSems0_none]
    refine BIBase.Entails.trans (hout3 (Vt7 m ρ) c) ?_; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vt7 m ρ c) (Vt8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unhidden buffer at `Wt9`, left at `Wt10`. Its arrays are
    split out of those buffers and put back at the exit contents; the generator register goes into the invariant and
    comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vt9 m ρ) c).loose
  hwaits := Pipeline.hwaits_of_owed_zero _ _ _ _ L lv 4 fun _ _ => rfl
  pre c := iprop(StableHlo.held (c : Thread nD τ) (Pipeline.ucRefs τ sig) (Wt9 m ρ c) ∗ Rr c)
  post c := iprop(StableHlo.held (c : Thread nD τ) (Pipeline.ucRefs τ sig) (Wt10 m ρ c) ∗ Rr c)
  X c := iprop(∃ r, prngReg c r)
  Y c := iprop(∃ r, prngReg c r)
  Z c := Pipeline.unscopedRest (Ix := Unit) (Name := ℕ) (U := UR sig nD τ) (Lvl := ℕ) spec4 c (Vt9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (Vt9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (Vt9 m ρ) c); unfold Pipeline.ΦA
    iintro ⟨Hp, -, Hr⟩
    isplitl [Hr]; · iexact Hr
    iexact Hp
  hout c := by
    rw [Pipeline.ownSems0_none]
    refine BIBase.Entails.trans (hout4 (Vt9 m ρ) c) ?_; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (Vt9 m ρ c) (Vt10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unhidden buffer at `Wt11`, left at `Wt12`. Its arrays are
    split out of those buffers and put back at the exit contents; the generator register goes into the invariant and
    comes back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vt11 m ρ) c).loose
  hwaits := Pipeline.hwaits_of_owed_zero _ _ _ _ L lv 5 fun _ _ => rfl
  pre c := iprop(StableHlo.held (c : Thread nD τ) (Pipeline.ucRefs τ sig) (Wt11 m ρ c) ∗ Rr c)
  post c := iprop(StableHlo.held (c : Thread nD τ) (Pipeline.ucRefs τ sig) (Wt12 m ρ c) ∗ Rr c)
  X c := iprop(∃ r, prngReg c r)
  Y c := iprop(∃ r, prngReg c r)
  Z c := Pipeline.unscopedRest (Ix := Unit) (Name := ℕ) (U := UR sig nD τ) (Lvl := ℕ) spec5 c (Vt11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (Vt11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin5 (Vt11 m ρ) c); unfold Pipeline.ΦA
    iintro ⟨Hp, -, Hr⟩
    isplitl [Hr]; · iexact Hr
    iexact Hp
  hout c := by
    rw [Pipeline.ownSems0_none]
    refine BIBase.Entails.trans (hout5 (Vt11 m ρ) c) ?_; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (Vt11 m ρ c) (Vt12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unhidden buffer at `Wt13`, left at `Wt14`. Its arrays are
    split out of those buffers and put back at the exit contents; the generator register goes into the invariant and
    comes back; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Vt13 m ρ) c).loose
  hwaits := Pipeline.hwaits_of_owed_zero _ _ _ _ L lv 6 fun _ _ => rfl
  pre c := iprop(StableHlo.held (c : Thread nD τ) (Pipeline.ucRefs τ sig) (Wt13 m ρ c) ∗ Rr c)
  post c := iprop(StableHlo.held (c : Thread nD τ) (Pipeline.ucRefs τ sig) (Wt14 m ρ c) ∗ Rr c)
  X c := iprop(∃ r, prngReg c r)
  Y c := iprop(∃ r, prngReg c r)
  Z c := Pipeline.unscopedRest (Ix := Unit) (Name := ℕ) (U := UR sig nD τ) (Lvl := ℕ) spec6 c (Vt13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (Vt13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin6 (Vt13 m ρ) c); unfold Pipeline.ΦA
    iintro ⟨Hp, -, Hr⟩
    isplitl [Hr]; · iexact Hr
    iexact Hp
  hout c := by
    rw [Pipeline.ownSems0_none]
    refine BIBase.Entails.trans (hout6 (Vt13 m ρ) c) ?_; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (Vt13 m ρ c) (Vt14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The last thread state without the `owes`: every unhidden buffer at `Wt15`, the generator register at some state. -/
abbrev Tn (c : Dev nD) : sProp 𝕄 := iprop(StableHlo.held (c : Thread nD τ) (Pipeline.ucRefs τ sig) (Wt15 m ρ c) ∗ ∃ r, prngReg c r)

/-- @main's fifteen segments in order. -/
abbrev segs : List (Pipeline.Seg (pcfgs (F := F)) adm (pdats m ρ) () defs₀ 𝒱₀ L lv) :=
  [ .host (hseg hostOps0 hostOps0_sub hostOps0_fresh (Wt0 m ρ)),
    .region (reg0 m ρ),
    .host (hseg hostOps1 hostOps1_sub hostOps1_fresh (Wt2 m ρ)),
    .region (reg1 m ρ),
    .host (hseg hostOps2 hostOps2_sub hostOps2_fresh (Wt4 m ρ)),
    .region (reg2 m ρ),
    .host (hseg hostOps3 hostOps3_sub hostOps3_fresh (Wt6 m ρ)),
    .region (reg3 m ρ),
    .host (hseg hostOps4 hostOps4_sub hostOps4_fresh (Wt8 m ρ)),
    .region (reg4 m ρ),
    .host (hseg hostOps5 hostOps5_sub hostOps5_fresh (Wt10 m ρ)),
    .region (reg5 m ρ),
    .host (hseg hostOps6 hostOps6_sub hostOps6_fresh (Wt12 m ρ)),
    .region (reg6 m ρ),
    .host (hseg hostOps7 hostOps7_sub hostOps7_fresh (Wt14 m ρ)) ]

theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    every final memory holds every unhidden buffer of every core at `Wt15`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = Wt15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wt0 m ρ c) ∗ Rr c)) (Tₙ := Tn m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (Wt15 m ρ c) ∗ Rr c) ⊢ iprop(Tn m ρ c ∗ ∃ W, owes (c : Thread nD τ) (0 : CellTallies nD τ sig Unit) W)
      unfold Rr Tn
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Wt0 m ρ c)
        from Pipeline.unscopedBufs_held c (Wt0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wt15 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wt15 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)
      ∧       r.2.mem ((c.tc : Thread nD τ).loc main_arg14) = m ((c.tc : Thread nD τ).loc main_arg14)
      ∧       r.2.mem ((c.tc : Thread nD τ).loc main_arg15) = m ((c.tc : Thread nD τ).loc main_arg15)
      ∧       r.2.mem ((c.tc : Thread nD τ).loc main_arg16) = m ((c.tc : Thread nD τ).loc main_arg16)
      ∧       r.2.mem ((c.tc : Thread nD τ).loc main_arg17) = m ((c.tc : Thread nD τ).loc main_arg17)
      ∧       r.2.mem ((c.tc : Thread nD τ).loc main_arg18) = m ((c.tc : Thread nD τ).loc main_arg18)
      ∧       r.2.mem ((c.tc : Thread nD τ).loc main_arg19) = m ((c.tc : Thread nD τ).loc main_arg19)
      ∧       r.2.mem ((c.tc : Thread nD τ).loc main_arg20) = m ((c.tc : Thread nD τ).loc main_arg20)
      ∧       r.2.mem ((c.tc : Thread nD τ).loc main_arg21) = m ((c.tc : Thread nD τ).loc main_arg21)
      ∧       r.2.mem ((c.tc : Thread nD τ).loc main_arg22) = m ((c.tc : Thread nD τ).loc main_arg22)) :=
  (θ_run defs _ _).mono (fun s h c =>
    ⟨(h c _ (mem_uc main_arg0 (by decide))).trans (Wt15_main_arg0 m ρ c),
     (h c _ (mem_uc main_arg1 (by decide))).trans (Wt15_main_arg1 m ρ c),
     (h c _ (mem_uc main_arg2 (by decide))).trans (Wt15_main_arg2 m ρ c),
     (h c _ (mem_uc main_arg3 (by decide))).trans (Wt15_main_arg3 m ρ c),
     (h c _ (mem_uc main_arg4 (by decide))).trans (Wt15_main_arg4 m ρ c),
     (h c _ (mem_uc main_arg5 (by decide))).trans (Wt15_main_arg5 m ρ c),
     (h c _ (mem_uc main_arg6 (by decide))).trans (Wt15_main_arg6 m ρ c),
     (h c _ (mem_uc main_arg7 (by decide))).trans (Wt15_main_arg7 m ρ c),
     (h c _ (mem_uc main_arg8 (by decide))).trans (Wt15_main_arg8 m ρ c),
     (h c _ (mem_uc main_arg9 (by decide))).trans (Wt15_main_arg9 m ρ c),
     (h c _ (mem_uc main_arg10 (by decide))).trans (Wt15_main_arg10 m ρ c),
     (h c _ (mem_uc main_arg11 (by decide))).trans (Wt15_main_arg11 m ρ c),
     (h c _ (mem_uc main_arg12 (by decide))).trans (Wt15_main_arg12 m ρ c),
     (h c _ (mem_uc main_arg13 (by decide))).trans (Wt15_main_arg13 m ρ c),
     (h c _ (mem_uc main_arg14 (by decide))).trans (Wt15_main_arg14 m ρ c),
     (h c _ (mem_uc main_arg15 (by decide))).trans (Wt15_main_arg15 m ρ c),
     (h c _ (mem_uc main_arg16 (by decide))).trans (Wt15_main_arg16 m ρ c),
     (h c _ (mem_uc main_arg17 (by decide))).trans (Wt15_main_arg17 m ρ c),
     (h c _ (mem_uc main_arg18 (by decide))).trans (Wt15_main_arg18 m ρ c),
     (h c _ (mem_uc main_arg19 (by decide))).trans (Wt15_main_arg19 m ρ c),
     (h c _ (mem_uc main_arg20 (by decide))).trans (Wt15_main_arg20 m ρ c),
     (h c _ (mem_uc main_arg21 (by decide))).trans (Wt15_main_arg21 m ρ c),
     (h c _ (mem_uc main_arg22 (by decide))).trans (Wt15_main_arg22 m ρ c)⟩) (run_all m ρ)

end Cert.KernelIdeal.Hand

end
-- ==== Proof.Pay0.lean ====
/- The stored values of layer kernel 0, each read at one index of its block, on the extended reals
   (F := Ideal): the zero block, the accumulation step (accumulator plus the row-by-row contraction of
   the activations with the masked weights), the bias addition, and the rectified output. -/
import proofs.«152868_j57621281243253_2_alg».proof.Proof.Gen.KernelIdeal.Skeleton
import Idealize.ShloMosaic.Lib.ValueLayout
import Idealize.ShloMosaic.Lib.ValueIdx
import Idealize.ShloMosaic.PureOps.Ideal.Laws

noncomputable section

namespace Cert.KernelIdeal.Pay

open Idealize.ShloMosaic Idealize.SL.Sem Idealize.ShloMosaic.ValueIdx Cert.KernelIdeal Cert.KernelIdeal.Gen
open scoped BigOperators

/-- The zero block: every entry is the extended real 0. -/
theorem pay1_0 (p : Fin 512) (q : Fin 512) : k0_pay1 (F := Ideal) (ix2 p q) = 0 := by
  unfold k0_pay1
  rw [shapeCast_self]
  exact Ideal.ofBits_zero_f32

/-- Left operand index of the contraction: the kept (row) coordinate is the output's row. -/
theorem lhs_0_0 (i : S512x512.Idx) (c : dot_S512x1024_S512x1024_S512x512_1_1_0_0_n_n.contr.Idx) :
    (dot_S512x1024_S512x1024_S512x512_1_1_0_0_n_n.lhsIdx i c 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
/-- Left operand index: the contracted (column) coordinate is the contraction position. -/
theorem lhs_0_1 (i : S512x512.Idx) (c : dot_S512x1024_S512x1024_S512x512_1_1_0_0_n_n.contr.Idx) :
    (dot_S512x1024_S512x1024_S512x512_1_1_0_0_n_n.lhsIdx i c 1).val = (c ⟨0, by decide⟩).val :=
  dot_S512x1024_S512x1024_S512x512_1_1_0_0_n_n.lhsIdx_val_of_single rfl i c
/-- Right operand index: the kept (row) coordinate is the output's column. -/
theorem rhs_0_0 (i : S512x512.Idx) (c : dot_S512x1024_S512x1024_S512x512_1_1_0_0_n_n.contr.Idx) :
    (dot_S512x1024_S512x1024_S512x512_1_1_0_0_n_n.rhsIdx i c 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
/-- Right operand index: the contracted (column) coordinate is the contraction position. -/
theorem rhs_0_1 (i : S512x512.Idx) (c : dot_S512x1024_S512x1024_S512x512_1_1_0_0_n_n.contr.Idx) :
    (dot_S512x1024_S512x1024_S512x512_1_1_0_0_n_n.rhsIdx i c 1).val = (c ⟨0, by decide⟩).val :=
  dot_S512x1024_S512x1024_S512x512_1_1_0_0_n_n.rhsIdx_val_of_single rfl i c

/-- The contraction into the zero accumulator, read at (p, q): both operands are contracted along
    their columns, so the entry is the sum over k of a(p, k) · b(q, k). -/
theorem matmul_0 {φ₁ φ₂ : FTy} (a : FVec Ideal S512x1024 φ₁) (b : FVec Ideal S512x1024 φ₂) (p : Fin 512) (q : Fin 512) :
    matmul dot_S512x1024_S512x1024_S512x512_1_1_0_0_n_n none a b (constant (F := Ideal) S512x512 .f32 0x00000000#32) (ix2 p q)
      = ∑ k : Fin 1024, a (ix2 p k) * b (ix2 q k) := by
  simp only [matmul]
  rw [Ideal.matmul_constant_zero_apply, ← Equiv.sum_comp (ValueIdx.contrEquiv1 dot_S512x1024_S512x1024_S512x512_1_1_0_0_n_n 1024 rfl rfl).symm]
  refine Finset.sum_congr rfl fun k _ => ?_
  have hk := ValueIdx.contrEquiv1_symm_val dot_S512x1024_S512x1024_S512x512_1_1_0_0_n_n 1024 rfl rfl k
  have el : dot_S512x1024_S512x1024_S512x512_1_1_0_0_n_n.lhsIdx (ix2 p q) ((ValueIdx.contrEquiv1 dot_S512x1024_S512x1024_S512x512_1_1_0_0_n_n 1024 rfl rfl).symm k) = ix2 p k := funext fun x => Fin.ext (by
    match x with
    | ⟨0, _⟩ => exact lhs_0_0 _ _
    | ⟨1, _⟩ => exact (lhs_0_1 _ _).trans hk)
  have er : dot_S512x1024_S512x1024_S512x512_1_1_0_0_n_n.rhsIdx (ix2 p q) ((ValueIdx.contrEquiv1 dot_S512x1024_S512x1024_S512x512_1_1_0_0_n_n 1024 rfl rfl).symm k) = ix2 q k := funext fun x => Fin.ext (by
    match x with
    | ⟨0, _⟩ => exact rhs_0_0 _ _
    | ⟨1, _⟩ => exact (rhs_0_1 _ _).trans hk)
  rw [el, er]

/-- The accumulation step: the accumulator plus the contraction of the activations' row p with the
    masked weights' row q (weight times mask, entry by entry). -/
theorem pay2_0 (v3 : Vec Ideal S512x1024 .f32) (v5 : Vec Ideal S512x1024 .f32) (v6 : Vec Ideal S512x1024 .f32) (v9 : Vec Ideal S512x512 .f32)
    (p : Fin 512) (q : Fin 512) :
    k0_pay2 (F := Ideal) v3 v5 v6 v9 (ix2 p q)
      = v9 (ix2 p q) + ∑ k : Fin 1024, v3 (ix2 p k) * (v5 (ix2 q k) * v6 (ix2 q k)) := by
  unfold k0_pay2
  rw [shapeCast_self, addf_apply]
  exact congrArg (v9 (ix2 p q) + ·) (matmul_0 _ _ p q)

/-- The bias addition: the one bias row is repeated along the rows. -/
theorem pay3_0 (v18 : Vec Ideal S512x512 .f32) (v19 : Vec Ideal S1x512 .f32) (p : Fin 512) (q : Fin 512) :
    k0_pay3 (F := Ideal) v18 v19 (ix2 p q) = v18 (ix2 p q) + v19 (ix2 (0 : Fin 1) q) := by
  unfold k0_pay3
  rw [shapeCast_self, addf_apply]
  exact congrArg (v18 (ix2 p q) + ·) (broadcastTo_1b_ab_apply v19 _ p q)

/-- The rectified output: the larger of the biased value and 0. -/
theorem pay4_0 (v18 : Vec Ideal S512x512 .f32) (v19 : Vec Ideal S1x512 .f32) (p : Fin 512) (q : Fin 512) :
    k0_pay4 (F := Ideal) v18 v19 (ix2 p q) = max (v18 (ix2 p q) + v19 (ix2 (0 : Fin 1) q)) 0 := by
  unfold k0_pay4
  rw [truncf_apply, maximumf_apply, pay3_0]
  exact congrArg (max (v18 (ix2 p q) + v19 (ix2 (0 : Fin 1) q))) Ideal.ofBits_zero_f32

end Cert.KernelIdeal.Pay
-- ==== Proof.Blk0.lean ====
/- The blocks of region 0's six windows, read at an index: an entry (a, b) of the block at grid point t
   is the array's entry at (block row index × block rows + a, block column index × block columns + b);
   and every index of the two result arrays lies in the block of a point that writes it back. -/
import proofs.«152868_j57621281243253_2_alg».proof.Proof.Gen.KernelIdeal.Points
import proofs.«152868_j57621281243253_2_alg».proof.Proof.Gen.KernelIdeal.Launch
import Idealize.ShloMosaic.Lib.Pipeline.Value
import Idealize.ShloMosaic.Lib.ValueIdx

noncomputable section

namespace Cert.KernelIdeal.Blk

open Idealize.ShloMosaic Idealize.ShloMosaic.TcCoe Idealize.SL Idealize.SL.Sem Cert.KernelIdeal Cert.KernelIdeal.Gen

variable {F : FTy → Type} [FloatOps F]

/-- The grid has 512 points. -/
theorem lt_0 (t : Fin cfg0.N) : t.val < 512 := by
  have h : t.val < grid0.N := t.isLt
  rw [N_0] at h; exact h

/-- The printed index maps, decided over the grid: each window's block index on each axis, in terms of
    the point's position (the last grid coordinate runs fastest). -/
theorem idx_0 : ∀ t : Fin cfg0.N,
    win0_0.index t (0 : Fin 2) = t.val / 64 ∧ win0_0.index t (1 : Fin 2) = t.val % 8
    ∧ win0_1.index t (0 : Fin 2) = t.val / 8 % 8 ∧ win0_1.index t (1 : Fin 2) = t.val % 8
    ∧ win0_2.index t (0 : Fin 2) = t.val / 8 % 8 ∧ win0_2.index t (1 : Fin 2) = t.val % 8
    ∧ win0_3.index t (0 : Fin 2) = 0 ∧ win0_3.index t (1 : Fin 2) = t.val / 8 % 8
    ∧ win0_4.index t (0 : Fin 2) = t.val / 64 ∧ win0_4.index t (1 : Fin 2) = t.val / 8 % 8
    ∧ win0_5.index t (0 : Fin 2) = t.val / 64 ∧ win0_5.index t (1 : Fin 2) = t.val / 8 % 8 :=
  (by decide +kernel : ∀ t : Fin grid0.N, _)

/-- Window 0's block at point t, read at (a, b). -/
theorem blk_read_0_0 (A : (⟨S4096x8192, .f32⟩ : BufTy).Contents (Elt F)) (t : Fin cfg0.N) (a : Fin 512) (b : Fin 1024) :
    ((cfg0.win 0).blk t).view.read (Elt F) A (ValueIdx.ix2 a b)
      = A (ValueIdx.ix2 (⟨t.val / 64 * 512 + a.val, by have := lt_0 t; omega⟩ : Fin 4096) (⟨t.val % 8 * 1024 + b.val, by have := lt_0 t; omega⟩ : Fin 8192)) := by
  obtain ⟨e00, e01, e10, e11, e20, e21, e30, e31, e40, e41, e50, e51⟩ := idx_0 t
  rw [View.read_apply]
  show A _ = A _
  congr 1
  funext x
  apply Fin.ext
  match x with
  | ⟨0, _⟩ => show win0_0.index t (0 : Fin 2) * 512 + 1 * a.val = t.val / 64 * 512 + a.val; rw [e00]; omega
  | ⟨1, _⟩ => show win0_0.index t (1 : Fin 2) * 1024 + 1 * b.val = t.val % 8 * 1024 + b.val; rw [e01]; omega

/-- Window 1's block at point t, read at (a, b). -/
theorem blk_read_0_1 (A : (⟨S4096x8192, .f32⟩ : BufTy).Contents (Elt F)) (t : Fin cfg0.N) (a : Fin 512) (b : Fin 1024) :
    ((cfg0.win 1).blk t).view.read (Elt F) A (ValueIdx.ix2 a b)
      = A (ValueIdx.ix2 (⟨t.val / 8 % 8 * 512 + a.val, by have := lt_0 t; omega⟩ : Fin 4096) (⟨t.val % 8 * 1024 + b.val, by have := lt_0 t; omega⟩ : Fin 8192)) := by
  obtain ⟨e00, e01, e10, e11, e20, e21, e30, e31, e40, e41, e50, e51⟩ := idx_0 t
  rw [View.read_apply]
  show A _ = A _
  congr 1
  funext x
  apply Fin.ext
  match x with
  | ⟨0, _⟩ => show win0_1.index t (0 : Fin 2) * 512 + 1 * a.val = t.val / 8 % 8 * 512 + a.val; rw [e10]; omega
  | ⟨1, _⟩ => show win0_1.index t (1 : Fin 2) * 1024 + 1 * b.val = t.val % 8 * 1024 + b.val; rw [e11]; omega

/-- Window 2's block at point t, read at (a, b). -/
theorem blk_read_0_2 (A : (⟨S4096x8192, .f32⟩ : BufTy).Contents (Elt F)) (t : Fin cfg0.N) (a : Fin 512) (b : Fin 1024) :
    ((cfg0.win 2).blk t).view.read (Elt F) A (ValueIdx.ix2 a b)
      = A (ValueIdx.ix2 (⟨t.val / 8 % 8 * 512 + a.val, by have := lt_0 t; omega⟩ : Fin 4096) (⟨t.val % 8 * 1024 + b.val, by have := lt_0 t; omega⟩ : Fin 8192)) := by
  obtain ⟨e00, e01, e10, e11, e20, e21, e30, e31, e40, e41, e50, e51⟩ := idx_0 t
  rw [View.read_apply]
  show A _ = A _
  congr 1
  funext x
  apply Fin.ext
  match x with
  | ⟨0, _⟩ => show win0_2.index t (0 : Fin 2) * 512 + 1 * a.val = t.val / 8 % 8 * 512 + a.val; rw [e20]; omega
  | ⟨1, _⟩ => show win0_2.index t (1 : Fin 2) * 1024 + 1 * b.val = t.val % 8 * 1024 + b.val; rw [e21]; omega

/-- Window 3's block at point t, read at (a, b). -/
theorem blk_read_0_3 (A : (⟨S1x4096, .f32⟩ : BufTy).Contents (Elt F)) (t : Fin cfg0.N) (a : Fin 1) (b : Fin 512) :
    ((cfg0.win 3).blk t).view.read (Elt F) A (ValueIdx.ix2 a b)
      = A (ValueIdx.ix2 a (⟨t.val / 8 % 8 * 512 + b.val, by have := lt_0 t; omega⟩ : Fin 4096)) := by
  obtain ⟨e00, e01, e10, e11, e20, e21, e30, e31, e40, e41, e50, e51⟩ := idx_0 t
  rw [View.read_apply]
  show A _ = A _
  congr 1
  funext x
  apply Fin.ext
  match x with
  | ⟨0, _⟩ => show win0_3.index t (0 : Fin 2) * 1 + 1 * a.val = a.val; rw [e30]; omega
  | ⟨1, _⟩ => show win0_3.index t (1 : Fin 2) * 512 + 1 * b.val = t.val / 8 % 8 * 512 + b.val; rw [e31]; omega

/-- Window 4's block at point t, read at (a, b). -/
theorem blk_read_0_4 (A : (⟨S4096x4096, .f32⟩ : BufTy).Contents (Elt F)) (t : Fin cfg0.N) (a : Fin 512) (b : Fin 512) :
    ((cfg0.win 4).blk t).view.read (Elt F) A (ValueIdx.ix2 a b)
      = A (ValueIdx.ix2 (⟨t.val / 64 * 512 + a.val, by have := lt_0 t; omega⟩ : Fin 4096) (⟨t.val / 8 % 8 * 512 + b.val, by have := lt_0 t; omega⟩ : Fin 4096)) := by
  obtain ⟨e00, e01, e10, e11, e20, e21, e30, e31, e40, e41, e50, e51⟩ := idx_0 t
  rw [View.read_apply]
  show A _ = A _
  congr 1
  funext x
  apply Fin.ext
  match x with
  | ⟨0, _⟩ => show win0_4.index t (0 : Fin 2) * 512 + 1 * a.val = t.val / 64 * 512 + a.val; rw [e40]; omega
  | ⟨1, _⟩ => show win0_4.index t (1 : Fin 2) * 512 + 1 * b.val = t.val / 8 % 8 * 512 + b.val; rw [e41]; omega

/-- Window 5's block at point t, read at (a, b). -/
theorem blk_read_0_5 (A : (⟨S4096x4096, .bf16⟩ : BufTy).Contents (Elt F)) (t : Fin cfg0.N) (a : Fin 512) (b : Fin 512) :
    ((cfg0.win 5).blk t).view.read (Elt F) A (ValueIdx.ix2 a b)
      = A (ValueIdx.ix2 (⟨t.val / 64 * 512 + a.val, by have := lt_0 t; omega⟩ : Fin 4096) (⟨t.val / 8 % 8 * 512 + b.val, by have := lt_0 t; omega⟩ : Fin 4096)) := by
  obtain ⟨e00, e01, e10, e11, e20, e21, e30, e31, e40, e41, e50, e51⟩ := idx_0 t
  rw [View.read_apply]
  show A _ = A _
  congr 1
  funext x
  apply Fin.ext
  match x with
  | ⟨0, _⟩ => show win0_5.index t (0 : Fin 2) * 512 + 1 * a.val = t.val / 64 * 512 + a.val; rw [e50]; omega
  | ⟨1, _⟩ => show win0_5.index t (1 : Fin 2) * 512 + 1 * b.val = t.val / 8 % 8 * 512 + b.val; rw [e51]; omega

/-- Every index of result array 0 lies in the block of a point that writes it back: the point of its
    block row and block column at the last step of the contraction axis. -/
theorem cover_0_4 (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  obtain ⟨t, ht⟩ : ∃ t : Fin cfg0.N, t.val = ((i 0).val / 512 * 8 + (i 1).val / 512) * 8 + 7 :=
    ⟨⟨((i 0).val / 512 * 8 + (i 1).val / 512) * 8 + 7, by show _ < grid0.N; rw [N_0]; omega⟩, rfl⟩
  obtain ⟨e00, e01, e10, e11, e20, e21, e30, e31, e40, e41, e50, e51⟩ := idx_0 t
  refine ⟨t, (flush0_4 t).mpr (by omega), ?_⟩
  show i ∈ ((View.whole main_v1_0).slice (win0_4.rect t)).set
  rw [View.set_slice_whole, Rect.mem_set_unit]
  intro x
  match x with
  | ⟨0, _⟩ => show win0_4.index t (0 : Fin 2) * 512 ≤ (i 0).val ∧ (i 0).val < win0_4.index t (0 : Fin 2) * 512 + 512; rw [e40]; omega
  | ⟨1, _⟩ => show win0_4.index t (1 : Fin 2) * 512 ≤ (i 1).val ∧ (i 1).val < win0_4.index t (1 : Fin 2) * 512 + 512; rw [e41]; omega

/-- Every index of result array 1 lies in the block of a point that writes it back: the point of its
    block row and block column at the last step of the contraction axis. -/
theorem cover_0_5 (i : S4096x4096.Idx) :
    ∃ t : Fin cfg0.N, (cfg0.win 5).flush t = true ∧ i ∈ ((cfg0.win 5).blk t).view.set := by
  have hi0 : (i 0).val < 4096 := (i 0).isLt
  have hi1 : (i 1).val < 4096 := (i 1).isLt
  obtain ⟨t, ht⟩ : ∃ t : Fin cfg0.N, t.val = ((i 0).val / 512 * 8 + (i 1).val / 512) * 8 + 7 :=
    ⟨⟨((i 0).val / 512 * 8 + (i 1).val / 512) * 8 + 7, by show _ < grid0.N; rw [N_0]; omega⟩, rfl⟩
  obtain ⟨e00, e01, e10, e11, e20, e21, e30, e31, e40, e41, e50, e51⟩ := idx_0 t
  refine ⟨t, (flush0_5 t).mpr (by omega), ?_⟩
  show i ∈ ((View.whole main_v1_1).slice (win0_5.rect t)).set
  rw [View.set_slice_whole, Rect.mem_set_unit]
  intro x
  match x with
  | ⟨0, _⟩ => show win0_5.index t (0 : Fin 2) * 512 ≤ (i 0).val ∧ (i 0).val < win0_5.index t (0 : Fin 2) * 512 + 512; rw [e50]; omega
  | ⟨1, _⟩ => show win0_5.index t (1 : Fin 2) * 512 ≤ (i 1).val ∧ (i 1).val < win0_5.index t (1 : Fin 2) * 512 + 512; rw [e51]; omega

end Cert.KernelIdeal.Blk
-- ==== Proof.LibStoreThenLoad.lean ====
/-
  Reading a whole buffer back after several whole-buffer stores.

  A list of stores is kept last store first. When the LAST store covered the whole buffer, a load of the whole buffer
  reads that store's value, whatever the earlier stores were: an accumulator that a kernel body zeroes, overwrites with
  its updated value, and reads back within the same body. (The library's View.readCov_unit_zero is the case of one
  store.)
-/
import Idealize.ShloMosaic.Lib.Pipeline.Value
import Idealize.ShloMosaic.Lib.Pipeline.FrameBody

noncomputable section

namespace Cert.StoreThenLoad

open Idealize.ShloMosaic

/-- A load of the whole buffer (the rectangle at offset zero of the buffer's full size) after the stores w :: L,
    where w — the last store — went through that same whole rectangle, reads w. -/
theorem readCov_cons_unit_zero {Val : EltTy → Type} [∀ e, Nonempty (Val e)] {sig : RefSig} {κ : Kind} {sp : Space} {S : Shape} {e : EltTy}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩), View.canon_cons_unit_zero rfl, View.ld_unit_zero rfl]

end Cert.StoreThenLoad

end
-- ==== Proof.Spec.lean ====
/-
  The network both programs compute, written once as plain functions on extended-real arrays.

  A masked linear layer sends a batch `x` of rows of length `K` to, at row `p` and output feature `j`,
  the dot product of row `p` of `x` with row `j` of the elementwise product `w ∘ m`, plus the bias `b j`.
  Five such layers, each followed by `max(·, 0)`, feed a last layer with one output feature; the first four
  layers' values BEFORE the `max` are also laid side by side (4096 + 2048 + 1024 + 512 = 7680 columns) and
  sent through one more masked linear layer with one output feature. The result at row `p` is the last layer's
  value plus the logistic of `alpha` times the side path's value.
-/
import Idealize.ShloMosaic.PureOps.Ideal
import Idealize.ShloMosaic.Lib.ValueIdx

noncomputable section

namespace Cert.Mlp

open Idealize.ShloMosaic Idealize.ShloMosaic.ValueIdx

/-- An array of extended reals of the given shape. -/
abbrev Arr (s : Shape) : Type := s.Idx → EReal

/-- A masked linear layer: at `(p, j)`, the sum over `k` of `x (p, k) * (w (j, k) * m (j, k))`, plus `b j`. -/
def lin {B N K : Nat} (x : Arr ⟨2, ![B, K]⟩) (w m : Arr ⟨2, ![N, K]⟩) (b : Arr ⟨1, ![N]⟩) : Arr ⟨2, ![B, N]⟩ :=
  fun j => (∑ k : Fin K, x (ix2 (j 0) k) * (w (ix2 (j 1) k) * m (ix2 (j 1) k))) + b (ix1 (j 1))

theorem lin_apply {B N K : Nat} (x : Arr ⟨2, ![B, K]⟩) (w m : Arr ⟨2, ![N, K]⟩) (b : Arr ⟨1, ![N]⟩) (p : Fin B) (q : Fin N) :
    lin x w m b (ix2 p q) = (∑ k : Fin K, x (ix2 p k) * (w (ix2 q k) * m (ix2 q k))) + b (ix1 q) := rfl

/-- The positive part, entry by entry. -/
def pos {s : Shape} (v : Arr s) : Arr s := fun j => max (v j) 0

theorem pos_apply {s : Shape} (v : Arr s) (j : s.Idx) : pos v j = max (v j) 0 := rfl

/-- Four arrays of 4096 rows laid side by side: columns 0–4095 from `a`, 4096–6143 from `b`, 6144–7167 from `c`,
    7168–7679 from `d`. -/
def side (a : Arr ⟨2, ![4096, 4096]⟩) (b : Arr ⟨2, ![4096, 2048]⟩) (c : Arr ⟨2, ![4096, 1024]⟩) (d : Arr ⟨2, ![4096, 512]⟩) :
    Arr ⟨2, ![4096, 7680]⟩ :=
  fun j =>
    if h0 : (j 1).val < 4096 then a (ix2 (j 0) ⟨(j 1).val, h0⟩)
    else if h1 : (j 1).val < 6144 then b (ix2 (j 0) ⟨(j 1).val - 4096, by omega⟩)
    else if h2 : (j 1).val < 7168 then c (ix2 (j 0) ⟨(j 1).val - 6144, by omega⟩)
    else d (ix2 (j 0) ⟨(j 1).val - 7168, by have h : (j 1).val < 7680 := (j 1).isLt; show (j 1).val - 7168 < 512; omega⟩)

/-- The arguments of the network, in the programs' order. -/
structure Args where
  x : Arr ⟨2, ![4096, 8192]⟩
  w0 : Arr ⟨2, ![4096, 8192]⟩
  b0 : Arr ⟨1, ![4096]⟩
  m0 : Arr ⟨2, ![4096, 8192]⟩
  w1 : Arr ⟨2, ![2048, 4096]⟩
  b1 : Arr ⟨1, ![2048]⟩
  m1 : Arr ⟨2, ![2048, 4096]⟩
  w2 : Arr ⟨2, ![1024, 2048]⟩
  b2 : Arr ⟨1, ![1024]⟩
  m2 : Arr ⟨2, ![1024, 2048]⟩
  w3 : Arr ⟨2, ![512, 1024]⟩
  b3 : Arr ⟨1, ![512]⟩
  m3 : Arr ⟨2, ![512, 1024]⟩
  w4 : Arr ⟨2, ![256, 512]⟩
  b4 : Arr ⟨1, ![256]⟩
  m4 : Arr ⟨2, ![256, 512]⟩
  w5 : Arr ⟨2, ![1, 256]⟩
  b5 : Arr ⟨1, ![1]⟩
  m5 : Arr ⟨2, ![1, 256]⟩
  ws : Arr ⟨2, ![1, 7680]⟩
  bs : Arr ⟨1, ![1]⟩
  ms : Arr ⟨2, ![1, 7680]⟩
  alpha : Arr ⟨0, ![]⟩

variable (A : Args)

/-- The layers' values before the positive part. -/
def pre0 : Arr ⟨2, ![4096, 4096]⟩ := lin A.x A.w0 A.m0 A.b0
def pre1 : Arr ⟨2, ![4096, 2048]⟩ := lin (pos (pre0 A)) A.w1 A.m1 A.b1
def pre2 : Arr ⟨2, ![4096, 1024]⟩ := lin (pos (pre1 A)) A.w2 A.m2 A.b2
def pre3 : Arr ⟨2, ![4096, 512]⟩ := lin (pos (pre2 A)) A.w3 A.m3 A.b3
def pre4 : Arr ⟨2, ![4096, 256]⟩ := lin (pos (pre3 A)) A.w4 A.m4 A.b4
def pre5 : Arr ⟨2, ![4096, 1]⟩ := lin (pos (pre4 A)) A.w5 A.m5 A.b5
/-- The side path: the first four layers' values side by side, through one more masked linear layer. -/
def preS : Arr ⟨2, ![4096, 1]⟩ := lin (side (pre0 A) (pre1 A) (pre2 A) (pre3 A)) A.ws A.ms A.bs

/-- The last stretch both programs share: the logistic of `alpha` (as `1 / (1 + exp (-alpha))`), spread over the
    rows, times the side path's column, added to the last layer's column, the unit axis dropped. Kept as ONE function of the
    two columns and `alpha`; it is never opened. -/
def tail {sc : Shape} (bc : (Arr ⟨0, ![]⟩) → Arr ⟨2, ![4096, 1]⟩) (drop : Arr ⟨2, ![4096, 1]⟩ → Arr sc)
    (alpha : Arr ⟨0, ![]⟩) (u v : Arr ⟨2, ![4096, 1]⟩) : Arr sc :=
  drop (addf (F := Ideal) (φ := .f32) u (mulf (F := Ideal) (φ := .f32) (bc (Host.divf (F := Ideal) (constant (F := Ideal) ⟨0, ![]⟩ .f32 0x3F800000#32)
    (addf (F := Ideal) (φ := .f32) (constant (F := Ideal) ⟨0, ![]⟩ .f32 0x3F800000#32) (Host.exp (F := Ideal) (Host.negf (F := Ideal) (φ := .f32) alpha))))) v))

end Cert.Mlp

end
-- ==== Proof.SpecRow.lean ====
/-
  The masked linear layer with its bias given as a ONE-ROW array [1, N] — the form in which the kernel program hands
  the bias to a region (a reshape of the bias vector) — and that it is the layer of the specification.
-/
import proofs.«152868_j57621281243253_2_alg».proof.Proof.Spec

noncomputable section

namespace Cert.Mlp

open Idealize.ShloMosaic Idealize.ShloMosaic.ValueIdx

/-- The masked linear layer with a one-row bias: at `(p, j)`, the sum over `k` of `x (p, k) * (w (j, k) * m (j, k))`,
    plus `b (0, j)`. -/
def linR {B N K : Nat} (x : Arr ⟨2, ![B, K]⟩) (w m : Arr ⟨2, ![N, K]⟩) (b : Arr ⟨2, ![1, N]⟩) : Arr ⟨2, ![B, N]⟩ :=
  fun j => (∑ k : Fin K, x (ix2 (j 0) k) * (w (ix2 (j 1) k) * m (ix2 (j 1) k))) + b (ix2 (0 : Fin 1) (j 1))

theorem linR_apply {B N K : Nat} (x : Arr ⟨2, ![B, K]⟩) (w m : Arr ⟨2, ![N, K]⟩) (b : Arr ⟨2, ![1, N]⟩) (p : Fin B) (q : Fin N) :
    linR x w m b (ix2 p q) = (∑ k : Fin K, x (ix2 p k) * (w (ix2 q k) * m (ix2 q k))) + b (ix2 (0 : Fin 1) q) := rfl

/-- An array is the one-row-bias layer when it is so at every index. -/
theorem linR_of_reads {B N K : Nat} (x : Arr ⟨2, ![B, K]⟩) (w m : Arr ⟨2, ![N, K]⟩) (b : Arr ⟨2, ![1, N]⟩) (out : Arr ⟨2, ![B, N]⟩)
    (h : ∀ (p : Fin B) (q : Fin N), out (ix2 p q) = (∑ k : Fin K, x (ix2 p k) * (w (ix2 q k) * m (ix2 q k))) + b (ix2 (0 : Fin 1) q)) :
    out = linR x w m b := by
  funext j
  rw [eq_ix2 j]
  exact h (j 0) (j 1)

/-- With the row holding the bias vector's entries, the one-row-bias layer is the layer. -/
theorem linR_eq_lin {B N K : Nat} (x : Arr ⟨2, ![B, K]⟩) (w m : Arr ⟨2, ![N, K]⟩) (b : Arr ⟨1, ![N]⟩) (br : Arr ⟨2, ![1, N]⟩)
    (h : ∀ q : Fin N, br (ix2 (0 : Fin 1) q) = b (ix1 q)) : linR x w m br = lin x w m b := by
  funext j
  show _ + br (ix2 (0 : Fin 1) (j 1)) = _ + b (ix1 (j 1))
  rw [h (j 1)]

end Cert.Mlp

end
-- ==== Proof.KernelIdeal.Val0.lean ====
import proofs.«152868_j57621281243253_2_alg».proof.Proof.KernelIdeal.Rgn0
import proofs.«152868_j57621281243253_2_alg».proof.Proof.Pay0
import proofs.«152868_j57621281243253_2_alg».proof.Proof.Blk0
import proofs.«152868_j57621281243253_2_alg».proof.Proof.LibStoreThenLoad
import proofs.«152868_j57621281243253_2_alg».proof.Proof.SpecRow
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.KernelIdeal.Pay Cert.KernelIdeal.Blk

/-! Region 0's values. The grid's last coordinate runs over 8 steps of the contraction: the first resets the accumulator,
    every step adds its block's product, the last stores the accumulator plus the bias row and its positive part. So
    the two output arrays end at the masked linear layer of the region's input arrays and at its positive part. -/

theorem hz2_0 : (![0, 0] : Fin 2 → Nat) = fun _ => 0 := funext fun a => by fin_cases a <;> rfl

/-- What the resetting case leaves in the accumulator: the zero block plus the point's product. -/
theorem sout0_A_eq (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : cond0_0 i) (hc1 : ¬cond0_1 i)
    (x0 : Vec F S512x1024 .f32) (x1 : Vec F S512x1024 .f32) (x2 : Vec F S512x1024 .f32) (x3 : Vec F S1x512 .f32) :
    sout0_A c i arg3 harg3 arg4 harg4 arg5 harg5 arg6 harg6 arg7 harg7 arg8 harg8 arg9 harg9 hc0 hc1 x0 x1 x2 x3 = k0_pay2 x0 x1 x2 (k0_pay1 (F := F)) := by
  unfold sout0_A
  rw [View.read_writes_eq_canon _ _ _ (scover0_A c i arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero hz2_0]
  rw [View.readCov_unit_zero (S := S512x512) _ hz2_0]
  simp only [View.readAt_eq_ld, harg3.read_unread, harg4.read_unread, harg5.read_unread, harg6.read_unread, harg9.read_unread,
    View.ld_unit_zero (S := S512x1024) hz2_0, View.ld_unit_zero (S := S512x512) hz2_0, View.ld_unit_zero (S := S1x512) hz2_0]

/-- What a middle case leaves in the accumulator: what it held plus the point's product. -/
theorem sout0_B_eq (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond0_0 i) (hc1 : ¬cond0_1 i)
    (x0 : Vec F S512x1024 .f32) (x1 : Vec F S512x1024 .f32) (x2 : Vec F S512x1024 .f32) (x3 : Vec F S1x512 .f32) (xs0 : Vec F S512x512 .f32) :
    sout0_B c i arg3 harg3 arg4 harg4 arg5 harg5 arg6 harg6 arg7 harg7 arg8 harg8 arg9 harg9 hc0 hc1 x0 x1 x2 x3 xs0 = k0_pay2 x0 x1 x2 xs0 := by
  unfold sout0_B
  rw [View.read_writes_eq_canon _ _ _ (scover0_B c i arg3 harg3 arg4 harg4 arg5 harg5 arg6 harg6 arg7 harg7 arg8 harg8 arg9 harg9 hc0 hc1 x0 x1 x2 x3 xs0)]
  unfold kernelRun0_B
  dsimp only
  sl_unfold_words
  rw [View.canon_unit_zero hz2_0]
  simp only [View.readAt_eq_ld, harg3.read_unread, harg4.read_unread, harg5.read_unread, harg6.read_unread, harg9.read_unread,
    View.ld_unit_zero (S := S512x1024) hz2_0, View.ld_unit_zero (S := S512x512) hz2_0, View.ld_unit_zero (S := S1x512) hz2_0]

/-- What the storing case leaves in the accumulator: what it held plus the point's product. -/
theorem sout0_C_eq (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond0_0 i) (hc1 : cond0_1 i)
    (x0 : Vec F S512x1024 .f32) (x1 : Vec F S512x1024 .f32) (x2 : Vec F S512x1024 .f32) (x3 : Vec F S1x512 .f32) (xs0 : Vec F S512x512 .f32) :
    sout0_C c i arg3 harg3 arg4 harg4 arg5 harg5 arg6 harg6 arg7 harg7 arg8 harg8 arg9 harg9 hc0 hc1 x0 x1 x2 x3 xs0 = k0_pay2 x0 x1 x2 xs0 := by
  unfold sout0_C
  rw [View.read_writes_eq_canon _ _ _ (scover0_C c i arg3 harg3 arg4 harg4 arg5 harg5 arg6 harg6 arg7 harg7 arg8 harg8 arg9 harg9 hc0 hc1 x0 x1 x2 x3 xs0)]
  unfold kernelRun0_C
  dsimp only
  sl_unfold_words
  rw [View.canon_unit_zero hz2_0]
  simp only [View.readAt_eq_ld, harg3.read_unread, harg4.read_unread, harg5.read_unread, harg6.read_unread, harg9.read_unread,
    View.ld_unit_zero (S := S512x1024) hz2_0, View.ld_unit_zero (S := S512x512) hz2_0, View.ld_unit_zero (S := S1x512) hz2_0]

/-- What the storing case leaves in the first output's buffer: the bias row added to the updated accumulator. -/
theorem out0_C_4_eq (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond0_0 i) (hc1 : cond0_1 i)
    (x0 : Vec F S512x1024 .f32) (x1 : Vec F S512x1024 .f32) (x2 : Vec F S512x1024 .f32) (x3 : Vec F S1x512 .f32) (xs0 : Vec F S512x512 .f32) :
    out0_C_4 c i arg3 harg3 arg4 harg4 arg5 harg5 arg6 harg6 arg7 harg7 arg8 harg8 arg9 harg9 hc0 hc1 x0 x1 x2 x3 xs0 = k0_pay3 (k0_pay2 x0 x1 x2 xs0) x3 := by
  unfold out0_C_4
  rw [View.read_writes_eq_canon _ _ _ (cover0_C_4 c i arg3 harg3 arg4 harg4 arg5 harg5 arg6 harg6 arg7 harg7 arg8 harg8 arg9 harg9 hc0 hc1 x0 x1 x2 x3 xs0)]
  unfold kernelRun0_C
  dsimp only
  sl_unfold_words
  rw [View.canon_unit_zero hz2_0]
  rw [View.readCov_unit_zero (S := S512x512) _ hz2_0]
  simp only [View.readAt_eq_ld, harg3.read_unread, harg4.read_unread, harg5.read_unread, harg6.read_unread, harg9.read_unread,
    View.ld_unit_zero (S := S512x1024) hz2_0, View.ld_unit_zero (S := S512x512) hz2_0, View.ld_unit_zero (S := S1x512) hz2_0]

/-- The same for the second output: the positive part of that. -/
theorem out0_C_5_eq (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond0_0 i) (hc1 : cond0_1 i)
    (x0 : Vec F S512x1024 .f32) (x1 : Vec F S512x1024 .f32) (x2 : Vec F S512x1024 .f32) (x3 : Vec F S1x512 .f32) (xs0 : Vec F S512x512 .f32) :
    out0_C_5 c i arg3 harg3 arg4 harg4 arg5 harg5 arg6 harg6 arg7 harg7 arg8 harg8 arg9 harg9 hc0 hc1 x0 x1 x2 x3 xs0 = k0_pay4 (k0_pay2 x0 x1 x2 xs0) x3 := by
  unfold out0_C_5
  rw [View.read_writes_eq_canon _ _ _ (cover0_C_5 c i arg3 harg3 arg4 harg4 arg5 harg5 arg6 harg6 arg7 harg7 arg8 harg8 arg9 harg9 hc0 hc1 x0 x1 x2 x3 xs0)]
  unfold kernelRun0_C
  dsimp only
  sl_unfold_words
  rw [View.canon_unit_zero hz2_0]
  rw [View.readCov_unit_zero (S := S512x512) _ hz2_0]
  simp only [View.readAt_eq_ld, harg3.read_unread, harg4.read_unread, harg5.read_unread, harg6.read_unread, harg9.read_unread,
    View.ld_unit_zero (S := S512x1024) hz2_0, View.ld_unit_zero (S := S512x512) hz2_0, View.ld_unit_zero (S := S1x512) hz2_0]

/-- One step of the accumulation at an entry, over any blocks: if the accumulator's entry is the sum of the first a terms
    of a sequence and the block's products are its next 1024 terms, the updated entry is the sum of the first a + 1024. -/
theorem step0 (x0 : Vec Ideal S512x1024 .f32) (x1 x2 : Vec Ideal S512x1024 .f32) (acc : Vec Ideal S512x512 .f32)
    (f : ℕ → EReal) (a : ℕ) (p q : Fin 512)
    (hacc : acc (ix2 p q) = ∑ l ∈ Finset.range a, f l)
    (hblk : ∀ k : Fin 1024, x0 (ix2 p k) * (x1 (ix2 q k) * x2 (ix2 q k)) = f (a + k.val)) :
    k0_pay2 (F := Ideal) x0 x1 x2 acc (ix2 p q) = ∑ l ∈ Finset.range (a + 1024), f l := by
  rw [pay2_0, hacc, Finset.sum_range_add, Finset.sum_range (fun x => f (a + x))]
  exact congrArg (_ + ·) (Finset.sum_congr rfl fun k _ => hblk k)

/-- Term l of the contraction of row P of the activations with row Q of the masked weight (zero past the last column). -/
def term0 (X : Cert.Mlp.Arr ⟨2, ![4096, 8192]⟩) (W M : Cert.Mlp.Arr ⟨2, ![4096, 8192]⟩) (P : Fin 4096) (Q : Fin 4096) (l : ℕ) : EReal :=
  if h : l < 8192 then X (ix2 P ⟨l, h⟩) * (W (ix2 Q ⟨l, h⟩) * M (ix2 Q ⟨l, h⟩)) else 0

theorem term0_lt (X : Cert.Mlp.Arr ⟨2, ![4096, 8192]⟩) (W M : Cert.Mlp.Arr ⟨2, ![4096, 8192]⟩) (P : Fin 4096) (Q : Fin 4096) (l : ℕ) (h : l < 8192) :
    term0 X W M P Q l = X (ix2 P ⟨l, h⟩) * (W (ix2 Q ⟨l, h⟩) * M (ix2 Q ⟨l, h⟩)) := dif_pos h

/-- All 8192 terms, summed, are the contraction. -/
theorem term0_sum (X : Cert.Mlp.Arr ⟨2, ![4096, 8192]⟩) (W M : Cert.Mlp.Arr ⟨2, ![4096, 8192]⟩) (P : Fin 4096) (Q : Fin 4096) :
    ∑ l ∈ Finset.range 8192, term0 X W M P Q l = ∑ k : Fin 8192, X (ix2 P k) * (W (ix2 Q k) * M (ix2 Q k)) := by
  rw [Finset.sum_range]
  exact Finset.sum_congr rfl fun k _ => term0_lt X W M P Q k.val k.isLt

variable (V : (c : Dev nD) → (b : Ref sig .tc) → Buf (Elt Ideal) ((c : Thread nD τ).loc b))

/-- One step at grid point t: the point's blocks are the arrays' columns t % 8 * 1024 … of rows P and Q. -/
theorem stepAt0 (c : Dev nD) (t : Fin cfg0.N) (acc : Vec Ideal S512x512 .f32) (p q : Fin 512) (P : Fin 4096) (Q : Fin 4096)
    (hP : P.val = t.val / 64 * 512 + p.val) (hQ : Q.val = t.val / 8 % 8 * 512 + q.val)
    (hacc : acc (ix2 p q) = ∑ l ∈ Finset.range (t.val % 8 * 1024), term0 (V c main_arg0) (V c main_arg1) (V c main_arg3) P Q l) :
    k0_pay2 (F := Ideal) (iblk0 V c 0 t) (iblk0 V c 1 t) (iblk0 V c 2 t) acc (ix2 p q)
      = ∑ l ∈ Finset.range (t.val % 8 * 1024 + 1024), term0 (V c main_arg0) (V c main_arg1) (V c main_arg3) P Q l := by
  have ht := lt_0 t
  obtain ⟨Pv, hPv⟩ := P
  obtain ⟨Qv, hQv⟩ := Q
  dsimp only at hP hQ
  subst hP hQ
  refine step0 (iblk0 V c 0 t) (iblk0 V c 1 t) (iblk0 V c 2 t) acc _ _ p q hacc fun k => ?_
  have hl : t.val % 8 * 1024 + k.val < 8192 := by have := k.isLt; omega
  have e0 : iblk0 V c 0 t (ix2 p k) = _ := blk_read_0_0 (F := Ideal) (V c main_arg0) t p k
  have e1 : iblk0 V c 1 t (ix2 q k) = _ := blk_read_0_1 (F := Ideal) (V c main_arg1) t q k
  have e2 : iblk0 V c 2 t (ix2 q k) = _ := blk_read_0_2 (F := Ideal) (V c main_arg3) t q k
  rw [e0, e1, e2, term0_lt _ _ _ _ _ _ hl]

/-- THE ACCUMULATOR after the body at point t, at an entry: the sum of the first (t % 8 + 1) * 1024 terms of the contraction
    of the point's rows. By induction on the position: a resetting point starts from the zero block, any other adds its
    block to what the point before left (same rows, the next columns). -/
theorem acc0_aux (c : Dev nD) : ∀ (n : ℕ) (t : Fin cfg0.N), t.val = n → ∀ (p q : Fin 512) (P : Fin 4096) (Q : Fin 4096),
    P.val = t.val / 64 * 512 + p.val → Q.val = t.val / 8 % 8 * 512 + q.val →
    (outsAt0 V c t.val t.isLt).2.2 (ix2 p q) = ∑ l ∈ Finset.range (t.val % 8 * 1024 + 1024), term0 (V c main_arg0) (V c main_arg1) (V c main_arg3) P Q l := by
  intro n
  induction n using Nat.strong_induction_on with
  | _ n ih =>
    intro t htn p q P Q hP hQ
    have hN := lt_0 t
    by_cases h0 : t.val % 8 = 0
    · have h1 : ¬t.val % 8 = 7 := by omega
      rw [outsAt0_A V c t h0 h1]
      dsimp only
      refine (congrFun (sout0_A_eq (F := Ideal) c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t)) (ix2 p q)).trans ?_
      refine stepAt0 V c t (k0_pay1 (F := Ideal)) p q P Q hP hQ ?_
      rw [pay1_0, h0, Nat.zero_mul, Finset.range_zero, Finset.sum_empty]
    · have hprev : (outsAt0 V c (t.val - 1) (Nat.lt_of_le_of_lt (Nat.sub_le _ _) t.isLt)).2.2 (ix2 p q) = ∑ l ∈ Finset.range (t.val % 8 * 1024), term0 (V c main_arg0) (V c main_arg1) (V c main_arg3) P Q l :=
        (ih (t.val - 1) (by omega) ⟨t.val - 1, Nat.lt_of_le_of_lt (Nat.sub_le _ _) t.isLt⟩ rfl p q P Q
          (by show P.val = (t.val - 1) / 64 * 512 + p.val; omega) (by show Q.val = (t.val - 1) / 8 % 8 * 512 + q.val; omega)).trans
          (by show ∑ l ∈ Finset.range ((t.val - 1) % 8 * 1024 + 1024), _ = _
              rw [show (t.val - 1) % 8 * 1024 + 1024 = t.val % 8 * 1024 from by omega])
      by_cases h1 : t.val % 8 = 7
      · rw [outsAt0_C V c t h0 h1]
        dsimp only
        refine (congrFun (sout0_C_eq (F := Ideal) c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2) (ix2 p q)).trans ?_
        exact stepAt0 V c t _ p q P Q hP hQ hprev
      · rw [outsAt0_B V c t h0 h1]
        dsimp only
        refine (congrFun (sout0_B_eq (F := Ideal) c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2) (ix2 p q)).trans ?_
        exact stepAt0 V c t _ p q P Q hP hQ hprev

/-- The masked linear layer of the region's four input arrays: what the first output array ends holding. -/
abbrev G0 (c : Dev nD) : Cert.Mlp.Arr ⟨2, ![4096, 4096]⟩ :=
  Cert.Mlp.linR (B := 4096) (N := 4096) (K := 8192) (V c main_arg0) (V c main_arg1) (V c main_arg3) (V c main_v0)

/-- At a storing point, the updated accumulator's entry plus the bias row's is the layer's entry there. -/
theorem point0 (c : Dev nD) (t : Fin cfg0.N) (h1 : t.val % 8 = 7) (p q : Fin 512) (P : Fin 4096) (Q : Fin 4096)
    (hP : P.val = t.val / 64 * 512 + p.val) (hQ : Q.val = t.val / 8 % 8 * 512 + q.val) :
    k0_pay2 (F := Ideal) (iblk0 V c 0 t) (iblk0 V c 1 t) (iblk0 V c 2 t) (outsAt0 V c (t.val - 1) (Nat.lt_of_le_of_lt (Nat.sub_le _ _) t.isLt)).2.2 (ix2 p q)
        + iblk0 V c 3 t (ix2 (0 : Fin 1) q)
      = G0 V c (ix2 P Q) := by
  have ht := lt_0 t
  have hprev : (outsAt0 V c (t.val - 1) (Nat.lt_of_le_of_lt (Nat.sub_le _ _) t.isLt)).2.2 (ix2 p q) = ∑ l ∈ Finset.range (t.val % 8 * 1024), term0 (V c main_arg0) (V c main_arg1) (V c main_arg3) P Q l :=
    (acc0_aux V c (t.val - 1) ⟨t.val - 1, Nat.lt_of_le_of_lt (Nat.sub_le _ _) t.isLt⟩ rfl p q P Q
      (by show P.val = (t.val - 1) / 64 * 512 + p.val; omega) (by show Q.val = (t.val - 1) / 8 % 8 * 512 + q.val; omega)).trans
      (by show ∑ l ∈ Finset.range ((t.val - 1) % 8 * 1024 + 1024), _ = _
          rw [show (t.val - 1) % 8 * 1024 + 1024 = t.val % 8 * 1024 from by omega])
  have hs := stepAt0 V c t _ p q P Q hP hQ hprev
  rw [show t.val % 8 * 1024 + 1024 = 8192 from by omega, term0_sum] at hs
  have e3 : iblk0 V c 3 t (ix2 (0 : Fin 1) q) = _ := blk_read_0_3 (F := Ideal) (V c main_v0) t (0 : Fin 1) q
  rw [hs, e3]
  obtain ⟨Pv, hPv⟩ := P
  obtain ⟨Qv, hQv⟩ := Q
  dsimp only at hP hQ
  subst hP hQ
  rfl

theorem flushed0_4 (c : Dev nD) (t : Fin cfg0.N) (hf : (cfg0.win 4).flush t = true) :
    (dat0 V c).flushed 4 t = ((cfg0.win 4).blk t).view.read (Elt Ideal) (G0 V c) := by
  have h1 : t.val % 8 = 7 := (flush0_4 t).mp hf
  have h0 : ¬t.val % 8 = 0 := by omega
  have ht := lt_0 t
  show (cfg0.win 4).cut (grid0.coords t) ((dat0 V c).after 4 t) = _
  rw [after0_4, outsAt0_C V c t h0 h1]
  dsimp only
  funext y
  obtain ⟨p, q, rfl⟩ : ∃ (p : Fin 512) (q : Fin 512), y = ix2 p q := ⟨y 0, y 1, eq_ix2 y⟩
  refine (congrFun (out0_C_4_eq (F := Ideal) c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2) (ix2 p q)).trans ?_
  refine (pay3_0 _ _ p q).trans ?_
  rw [blk_read_0_4 (F := Ideal) (G0 V c) t p q]
  exact point0 V c t h1 p q _ _ rfl rfl

theorem flushed0_5 (c : Dev nD) (t : Fin cfg0.N) (hf : (cfg0.win 5).flush t = true) :
    (dat0 V c).flushed 5 t = ((cfg0.win 5).blk t).view.read (Elt Ideal) (Cert.Mlp.pos (G0 V c)) := by
  have h1 : t.val % 8 = 7 := (flush0_5 t).mp hf
  have h0 : ¬t.val % 8 = 0 := by omega
  have ht := lt_0 t
  show (cfg0.win 5).cut (grid0.coords t) ((dat0 V c).after 5 t) = _
  rw [after0_5, outsAt0_C V c t h0 h1]
  dsimp only
  funext y
  obtain ⟨p, q, rfl⟩ : ∃ (p : Fin 512) (q : Fin 512), y = ix2 p q := ⟨y 0, y 1, eq_ix2 y⟩
  refine (congrFun (out0_C_5_eq (F := Ideal) c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2) (ix2 p q)).trans ?_
  refine (pay4_0 _ _ p q).trans ?_
  rw [blk_read_0_5 (F := Ideal) (Cert.Mlp.pos (G0 V c)) t p q]
  exact congrArg (fun z : EReal => max z 0) (point0 V c t h1 p q _ _ rfl rfl)

/-- The first output array ends at the masked linear layer of the region's input arrays, -/
theorem final0_pre (c : Dev nD) : (dat0 V c).arrAt 4 cfg0.N = Cert.Mlp.linR (B := 4096) (N := 4096) (K := 8192) (V c main_arg0) (V c main_arg1) (V c main_arg3) (V c main_v0) :=
  (dat0 V c).arrAt_eq_of_cover 4 (G0 V c) (flushed0_4 V c) (cover_0_4)
/-- and the second at its positive part. -/
theorem final0_post (c : Dev nD) : (dat0 V c).arrAt 5 cfg0.N = Cert.Mlp.pos (Cert.Mlp.linR (B := 4096) (N := 4096) (K := 8192) (V c main_arg0) (V c main_arg1) (V c main_arg3) (V c main_v0)) :=
  (dat0 V c).arrAt_eq_of_cover 5 (Cert.Mlp.pos (G0 V c)) (flushed0_5 V c) (cover_0_5)

end Cert.KernelIdeal.Hand

end
-- ==== Proof.Pay1.lean ====
/- The stored values of layer kernel 1, each read at one index of its block, on the extended reals
   (F := Ideal): the zero block, the accumulation step (accumulator plus the row-by-row contraction of
   the activations with the masked weights), the bias addition, and the rectified output. -/
import proofs.«152868_j57621281243253_2_alg».proof.Proof.Gen.KernelIdeal.Skeleton
import Idealize.ShloMosaic.Lib.ValueLayout
import Idealize.ShloMosaic.Lib.ValueIdx
import Idealize.ShloMosaic.PureOps.Ideal.Laws

noncomputable section

namespace Cert.KernelIdeal.Pay

open Idealize.ShloMosaic Idealize.SL.Sem Idealize.ShloMosaic.ValueIdx Cert.KernelIdeal Cert.KernelIdeal.Gen
open scoped BigOperators

/-- The zero block: every entry is the extended real 0. -/
theorem pay1_1 (p : Fin 512) (q : Fin 512) : k1_pay1 (F := Ideal) (ix2 p q) = 0 := by
  unfold k1_pay1
  rw [shapeCast_self]
  exact Ideal.ofBits_zero_f32

/-- Left operand index of the contraction: the kept (row) coordinate is the output's row. -/
theorem lhs_1_0 (i : S512x512.Idx) (c : dot_S512x1024_S512x1024_S512x512_1_1_0_0_n_n.contr.Idx) :
    (dot_S512x1024_S512x1024_S512x512_1_1_0_0_n_n.lhsIdx i c 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
/-- Left operand index: the contracted (column) coordinate is the contraction position. -/
theorem lhs_1_1 (i : S512x512.Idx) (c : dot_S512x1024_S512x1024_S512x512_1_1_0_0_n_n.contr.Idx) :
    (dot_S512x1024_S512x1024_S512x512_1_1_0_0_n_n.lhsIdx i c 1).val = (c ⟨0, by decide⟩).val :=
  dot_S512x1024_S512x1024_S512x512_1_1_0_0_n_n.lhsIdx_val_of_single rfl i c
/-- Right operand index: the kept (row) coordinate is the output's column. -/
theorem rhs_1_0 (i : S512x512.Idx) (c : dot_S512x1024_S512x1024_S512x512_1_1_0_0_n_n.contr.Idx) :
    (dot_S512x1024_S512x1024_S512x512_1_1_0_0_n_n.rhsIdx i c 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
/-- Right operand index: the contracted (column) coordinate is the contraction position. -/
theorem rhs_1_1 (i : S512x512.Idx) (c : dot_S512x1024_S512x1024_S512x512_1_1_0_0_n_n.contr.Idx) :
    (dot_S512x1024_S512x1024_S512x512_1_1_0_0_n_n.rhsIdx i c 1).val = (c ⟨0, by decide⟩).val :=
  dot_S512x1024_S512x1024_S512x512_1_1_0_0_n_n.rhsIdx_val_of_single rfl i c

/-- The contraction into the zero accumulator, read at (p, q): both operands are contracted along
    their columns, so the entry is the sum over k of a(p, k) · b(q, k). -/
theorem matmul_1 {φ₁ φ₂ : FTy} (a : FVec Ideal S512x1024 φ₁) (b : FVec Ideal S512x1024 φ₂) (p : Fin 512) (q : Fin 512) :
    matmul dot_S512x1024_S512x1024_S512x512_1_1_0_0_n_n none a b (constant (F := Ideal) S512x512 .f32 0x00000000#32) (ix2 p q)
      = ∑ k : Fin 1024, a (ix2 p k) * b (ix2 q k) := by
  simp only [matmul]
  rw [Ideal.matmul_constant_zero_apply, ← Equiv.sum_comp (ValueIdx.contrEquiv1 dot_S512x1024_S512x1024_S512x512_1_1_0_0_n_n 1024 rfl rfl).symm]
  refine Finset.sum_congr rfl fun k _ => ?_
  have hk := ValueIdx.contrEquiv1_symm_val dot_S512x1024_S512x1024_S512x512_1_1_0_0_n_n 1024 rfl rfl k
  have el : dot_S512x1024_S512x1024_S512x512_1_1_0_0_n_n.lhsIdx (ix2 p q) ((ValueIdx.contrEquiv1 dot_S512x1024_S512x1024_S512x512_1_1_0_0_n_n 1024 rfl rfl).symm k) = ix2 p k := funext fun x => Fin.ext (by
    match x with
    | ⟨0, _⟩ => exact lhs_1_0 _ _
    | ⟨1, _⟩ => exact (lhs_1_1 _ _).trans hk)
  have er : dot_S512x1024_S512x1024_S512x512_1_1_0_0_n_n.rhsIdx (ix2 p q) ((ValueIdx.contrEquiv1 dot_S512x1024_S512x1024_S512x512_1_1_0_0_n_n 1024 rfl rfl).symm k) = ix2 q k := funext fun x => Fin.ext (by
    match x with
    | ⟨0, _⟩ => exact rhs_1_0 _ _
    | ⟨1, _⟩ => exact (rhs_1_1 _ _).trans hk)
  rw [el, er]

/-- The accumulation step: the accumulator plus the contraction of the activations' row p with the
    masked weights' row q (weight times mask, entry by entry). -/
theorem pay2_1 (v3 : Vec Ideal S512x1024 .bf16) (v5 : Vec Ideal S512x1024 .f32) (v6 : Vec Ideal S512x1024 .f32) (v9 : Vec Ideal S512x512 .f32)
    (p : Fin 512) (q : Fin 512) :
    k1_pay2 (F := Ideal) v3 v5 v6 v9 (ix2 p q)
      = v9 (ix2 p q) + ∑ k : Fin 1024, v3 (ix2 p k) * (v5 (ix2 q k) * v6 (ix2 q k)) := by
  unfold k1_pay2
  rw [shapeCast_self, shapeCast_self, addf_apply]
  exact congrArg (v9 (ix2 p q) + ·) (matmul_1 _ _ p q)

/-- The bias addition: the one bias row is repeated along the rows. -/
theorem pay3_1 (v18 : Vec Ideal S512x512 .f32) (v19 : Vec Ideal S1x512 .f32) (p : Fin 512) (q : Fin 512) :
    k1_pay3 (F := Ideal) v18 v19 (ix2 p q) = v18 (ix2 p q) + v19 (ix2 (0 : Fin 1) q) := by
  unfold k1_pay3
  rw [shapeCast_self, addf_apply]
  exact congrArg (v18 (ix2 p q) + ·) (broadcastTo_1b_ab_apply v19 _ p q)

/-- The rectified output: the larger of the biased value and 0. -/
theorem pay4_1 (v18 : Vec Ideal S512x512 .f32) (v19 : Vec Ideal S1x512 .f32) (p : Fin 512) (q : Fin 512) :
    k1_pay4 (F := Ideal) v18 v19 (ix2 p q) = max (v18 (ix2 p q) + v19 (ix2 (0 : Fin 1) q)) 0 := by
  unfold k1_pay4
  rw [truncf_apply, maximumf_apply, pay3_1]
  exact congrArg (max (v18 (ix2 p q) + v19 (ix2 (0 : Fin 1) q))) Ideal.ofBits_zero_f32

end Cert.KernelIdeal.Pay
-- ==== Proof.Blk1.lean ====
/- The blocks of region 1's six windows, read at an index: an entry (a, b) of the block at grid point t
   is the array's entry at (block row index × block rows + a, block column index × block columns + b);
   and every index of the two result arrays lies in the block of a point that writes it back. -/
import proofs.«152868_j57621281243253_2_alg».proof.Proof.Gen.KernelIdeal.Points
import proofs.«152868_j57621281243253_2_alg».proof.Proof.Gen.KernelIdeal.Launch
import Idealize.ShloMosaic.Lib.Pipeline.Value
import Idealize.ShloMosaic.Lib.ValueIdx

noncomputable section

namespace Cert.KernelIdeal.Blk

open Idealize.ShloMosaic Idealize.ShloMosaic.TcCoe Idealize.SL Idealize.SL.Sem Cert.KernelIdeal Cert.KernelIdeal.Gen

variable {F : FTy → Type} [FloatOps F]

/-- The grid has 128 points. -/
theorem lt_1 (t : Fin cfg1.N) : t.val < 128 := by
  have h : t.val < grid1.N := t.isLt
  rw [N_1] at h; exact h

/-- The printed index maps, decided over the grid: each window's block index on each axis, in terms of
    the point's position (the last grid coordinate runs fastest). -/
theorem idx_1 : ∀ t : Fin cfg1.N,
    win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 2) = t.val / 4 % 4 ∧ win1_2.index t (1 : Fin 2) = t.val % 4
    ∧ win1_3.index t (0 : Fin 2) = 0 ∧ win1_3.index t (1 : Fin 2) = t.val / 4 % 4
    ∧ win1_4.index t (0 : Fin 2) = t.val / 16 ∧ win1_4.index t (1 : Fin 2) = t.val / 4 % 4
    ∧ win1_5.index t (0 : Fin 2) = t.val / 16 ∧ win1_5.index t (1 : Fin 2) = t.val / 4 % 4 :=
  (by decide +kernel : ∀ t : Fin grid1.N, _)

/-- Window 0's block at point t, read at (a, b). -/
theorem blk_read_1_0 (A : (⟨S4096x4096, .bf16⟩ : BufTy).Contents (Elt F)) (t : Fin cfg1.N) (a : Fin 512) (b : Fin 1024) :
    ((cfg1.win 0).blk t).view.read (Elt F) A (ValueIdx.ix2 a b)
      = A (ValueIdx.ix2 (⟨t.val / 16 * 512 + a.val, by have := lt_1 t; omega⟩ : Fin 4096) (⟨t.val % 4 * 1024 + b.val, by have := lt_1 t; omega⟩ : Fin 4096)) := by
  obtain ⟨e00, e01, e10, e11, e20, e21, e30, e31, e40, e41, e50, e51⟩ := idx_1 t
  rw [View.read_apply]
  show A _ = A _
  congr 1
  funext x
  apply Fin.ext
  match x with
  | ⟨0, _⟩ => show win1_0.index t (0 : Fin 2) * 512 + 1 * a.val = t.val / 16 * 512 + a.val; rw [e00]; omega
  | ⟨1, _⟩ => show win1_0.index t (1 : Fin 2) * 1024 + 1 * b.val = t.val % 4 * 1024 + b.val; rw [e01]; omega

/-- Window 1's block at point t, read at (a, b). -/
theorem blk_read_1_1 (A : (⟨S2048x4096, .f32⟩ : BufTy).Contents (Elt F)) (t : Fin cfg1.N) (a : Fin 512) (b : Fin 1024) :
    ((cfg1.win 1).blk t).view.read (Elt F) A (ValueIdx.ix2 a b)
      = A (ValueIdx.ix2 (⟨t.val / 4 % 4 * 512 + a.val, by have := lt_1 t; omega⟩ : Fin 2048) (⟨t.val % 4 * 1024 + b.val, by have := lt_1 t; omega⟩ : Fin 4096)) := by
  obtain ⟨e00, e01, e10, e11, e20, e21, e30, e31, e40, e41, e50, e51⟩ := idx_1 t
  rw [View.read_apply]
  show A _ = A _
  congr 1
  funext x
  apply Fin.ext
  match x with
  | ⟨0, _⟩ => show win1_1.index t (0 : Fin 2) * 512 + 1 * a.val = t.val / 4 % 4 * 512 + a.val; rw [e10]; omega
  | ⟨1, _⟩ => show win1_1.index t (1 : Fin 2) * 1024 + 1 * b.val = t.val % 4 * 1024 + b.val; rw [e11]; omega

/-- Window 2's block at point t, read at (a, b). -/
theorem blk_read_1_2 (A : (⟨S2048x4096, .f32⟩ : BufTy).Contents (Elt F)) (t : Fin cfg1.N) (a : Fin 512) (b : Fin 1024) :
    ((cfg1.win 2).blk t).view.read (Elt F) A (ValueIdx.ix2 a b)
      = A (ValueIdx.ix2 (⟨t.val / 4 % 4 * 512 + a.val, by have := lt_1 t; omega⟩ : Fin 2048) (⟨t.val % 4 * 1024 + b.val, by have := lt_1 t; omega⟩ : Fin 4096)) := by
  obtain ⟨e00, e01, e10, e11, e20, e21, e30, e31, e40, e41, e50, e51⟩ := idx_1 t
  rw [View.read_apply]
  show A _ = A _
  congr 1
  funext x
  apply Fin.ext
  match x with
  | ⟨0, _⟩ => show win1_2.index t (0 : Fin 2) * 512 + 1 * a.val = t.val / 4 % 4 * 512 + a.val; rw [e20]; omega
  | ⟨1, _⟩ => show win1_2.index t (1 : Fin 2) * 1024 + 1 * b.val = t.val % 4 * 1024 + b.val; rw [e21]; omega

/-- Window 3's block at point t, read at (a, b). -/
theorem blk_read_1_3 (A : (⟨S1x2048, .f32⟩ : BufTy).Contents (Elt F)) (t : Fin cfg1.N) (a : Fin 1) (b : Fin 512) :
    ((cfg1.win 3).blk t).view.read (Elt F) A (ValueIdx.ix2 a b)
      = A (ValueIdx.ix2 a (⟨t.val / 4 % 4 * 512 + b.val, by have := lt_1 t; omega⟩ : Fin 2048)) := by
  obtain ⟨e00, e01, e10, e11, e20, e21, e30, e31, e40, e41, e50, e51⟩ := idx_1 t
  rw [View.read_apply]
  show A _ = A _
  congr 1
  funext x
  apply Fin.ext
  match x with
  | ⟨0, _⟩ => show win1_3.index t (0 : Fin 2) * 1 + 1 * a.val = a.val; rw [e30]; omega
  | ⟨1, _⟩ => show win1_3.index t (1 : Fin 2) * 512 + 1 * b.val = t.val / 4 % 4 * 512 + b.val; rw [e31]; omega

/-- Window 4's block at point t, read at (a, b). -/
theorem blk_read_1_4 (A : (⟨S4096x2048, .f32⟩ : BufTy).Contents (Elt F)) (t : Fin cfg1.N) (a : Fin 512) (b : Fin 512) :
    ((cfg1.win 4).blk t).view.read (Elt F) A (ValueIdx.ix2 a b)
      = A (ValueIdx.ix2 (⟨t.val / 16 * 512 + a.val, by have := lt_1 t; omega⟩ : Fin 4096) (⟨t.val / 4 % 4 * 512 + b.val, by have := lt_1 t; omega⟩ : Fin 2048)) := by
  obtain ⟨e00, e01, e10, e11, e20, e21, e30, e31, e40, e41, e50, e51⟩ := idx_1 t
  rw [View.read_apply]
  show A _ = A _
  congr 1
  funext x
  apply Fin.ext
  match x with
  | ⟨0, _⟩ => show win1_4.index t (0 : Fin 2) * 512 + 1 * a.val = t.val / 16 * 512 + a.val; rw [e40]; omega
  | ⟨1, _⟩ => show win1_4.index t (1 : Fin 2) * 512 + 1 * b.val = t.val / 4 % 4 * 512 + b.val; rw [e41]; omega

/-- Window 5's block at point t, read at (a, b). -/
theorem blk_read_1_5 (A : (⟨S4096x2048, .bf16⟩ : BufTy).Contents (Elt F)) (t : Fin cfg1.N) (a : Fin 512) (b : Fin 512) :
    ((cfg1.win 5).blk t).view.read (Elt F) A (ValueIdx.ix2 a b)
      = A (ValueIdx.ix2 (⟨t.val / 16 * 512 + a.val, by have := lt_1 t; omega⟩ : Fin 4096) (⟨t.val / 4 % 4 * 512 + b.val, by have := lt_1 t; omega⟩ : Fin 2048)) := by
  obtain ⟨e00, e01, e10, e11, e20, e21, e30, e31, e40, e41, e50, e51⟩ := idx_1 t
  rw [View.read_apply]
  show A _ = A _
  congr 1
  funext x
  apply Fin.ext
  match x with
  | ⟨0, _⟩ => show win1_5.index t (0 : Fin 2) * 512 + 1 * a.val = t.val / 16 * 512 + a.val; rw [e50]; omega
  | ⟨1, _⟩ => show win1_5.index t (1 : Fin 2) * 512 + 1 * b.val = t.val / 4 % 4 * 512 + b.val; rw [e51]; omega

/-- Every index of result array 0 lies in the block of a point that writes it back: the point of its
    block row and block column at the last step of the contraction axis. -/
theorem cover_1_4 (i : S4096x2048.Idx) :
    ∃ t : Fin cfg1.N, (cfg1.win 4).flush t = true ∧ i ∈ ((cfg1.win 4).blk t).view.set := by
  have hi0 : (i 0).val < 4096 := (i 0).isLt
  have hi1 : (i 1).val < 2048 := (i 1).isLt
  obtain ⟨t, ht⟩ : ∃ t : Fin cfg1.N, t.val = ((i 0).val / 512 * 4 + (i 1).val / 512) * 4 + 3 :=
    ⟨⟨((i 0).val / 512 * 4 + (i 1).val / 512) * 4 + 3, by show _ < grid1.N; rw [N_1]; omega⟩, rfl⟩
  obtain ⟨e00, e01, e10, e11, e20, e21, e30, e31, e40, e41, e50, e51⟩ := idx_1 t
  refine ⟨t, (flush1_4 t).mpr (by omega), ?_⟩
  show i ∈ ((View.whole main_v3_0).slice (win1_4.rect t)).set
  rw [View.set_slice_whole, Rect.mem_set_unit]
  intro x
  match x with
  | ⟨0, _⟩ => show win1_4.index t (0 : Fin 2) * 512 ≤ (i 0).val ∧ (i 0).val < win1_4.index t (0 : Fin 2) * 512 + 512; rw [e40]; omega
  | ⟨1, _⟩ => show win1_4.index t (1 : Fin 2) * 512 ≤ (i 1).val ∧ (i 1).val < win1_4.index t (1 : Fin 2) * 512 + 512; rw [e41]; omega

/-- Every index of result array 1 lies in the block of a point that writes it back: the point of its
    block row and block column at the last step of the contraction axis. -/
theorem cover_1_5 (i : S4096x2048.Idx) :
    ∃ t : Fin cfg1.N, (cfg1.win 5).flush t = true ∧ i ∈ ((cfg1.win 5).blk t).view.set := by
  have hi0 : (i 0).val < 4096 := (i 0).isLt
  have hi1 : (i 1).val < 2048 := (i 1).isLt
  obtain ⟨t, ht⟩ : ∃ t : Fin cfg1.N, t.val = ((i 0).val / 512 * 4 + (i 1).val / 512) * 4 + 3 :=
    ⟨⟨((i 0).val / 512 * 4 + (i 1).val / 512) * 4 + 3, by show _ < grid1.N; rw [N_1]; omega⟩, rfl⟩
  obtain ⟨e00, e01, e10, e11, e20, e21, e30, e31, e40, e41, e50, e51⟩ := idx_1 t
  refine ⟨t, (flush1_5 t).mpr (by omega), ?_⟩
  show i ∈ ((View.whole main_v3_1).slice (win1_5.rect t)).set
  rw [View.set_slice_whole, Rect.mem_set_unit]
  intro x
  match x with
  | ⟨0, _⟩ => show win1_5.index t (0 : Fin 2) * 512 ≤ (i 0).val ∧ (i 0).val < win1_5.index t (0 : Fin 2) * 512 + 512; rw [e50]; omega
  | ⟨1, _⟩ => show win1_5.index t (1 : Fin 2) * 512 ≤ (i 1).val ∧ (i 1).val < win1_5.index t (1 : Fin 2) * 512 + 512; rw [e51]; omega

end Cert.KernelIdeal.Blk
-- ==== Proof.KernelIdeal.Val1.lean ====
import proofs.«152868_j57621281243253_2_alg».proof.Proof.KernelIdeal.Rgn1
import proofs.«152868_j57621281243253_2_alg».proof.Proof.Pay1
import proofs.«152868_j57621281243253_2_alg».proof.Proof.Blk1
import proofs.«152868_j57621281243253_2_alg».proof.Proof.LibStoreThenLoad
import proofs.«152868_j57621281243253_2_alg».proof.Proof.SpecRow
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.KernelIdeal.Pay Cert.KernelIdeal.Blk

/-! Region 1's values. The grid's last coordinate runs over 4 steps of the contraction: the first resets the accumulator,
    every step adds its block's product, the last stores the accumulator plus the bias row and its positive part. So
    the two output arrays end at the masked linear layer of the region's input arrays and at its positive part. -/

theorem hz2_1 : (![0, 0] : Fin 2 → Nat) = fun _ => 0 := funext fun a => by fin_cases a <;> rfl

/-- What the resetting case leaves in the accumulator: the zero block plus the point's product. -/
theorem sout1_A_eq (c : Dev nD) (i : grid1.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : cond1_0 i) (hc1 : ¬cond1_1 i)
    (x0 : Vec F S512x1024 .bf16) (x1 : Vec F S512x1024 .f32) (x2 : Vec F S512x1024 .f32) (x3 : Vec F S1x512 .f32) :
    sout1_A c i arg3 harg3 arg4 harg4 arg5 harg5 arg6 harg6 arg7 harg7 arg8 harg8 arg9 harg9 hc0 hc1 x0 x1 x2 x3 = k1_pay2 x0 x1 x2 (k1_pay1 (F := F)) := by
  unfold sout1_A
  rw [View.read_writes_eq_canon _ _ _ (scover1_A c i arg3 harg3 arg4 harg4 arg5 harg5 arg6 harg6 arg7 harg7 arg8 harg8 arg9 harg9 hc0 hc1 x0 x1 x2 x3)]
  unfold kernelRun1_A
  dsimp only
  sl_unfold_words
  rw [View.canon_cons_unit_zero hz2_1]
  rw [View.readCov_unit_zero (S := S512x512) _ hz2_1]
  simp only [View.readAt_eq_ld, harg3.read_unread, harg4.read_unread, harg5.read_unread, harg6.read_unread, harg9.read_unread,
    View.ld_unit_zero (S := S512x1024) hz2_1, View.ld_unit_zero (S := S512x512) hz2_1, View.ld_unit_zero (S := S1x512) hz2_1]

/-- What a middle case leaves in the accumulator: what it held plus the point's product. -/
theorem sout1_B_eq (c : Dev nD) (i : grid1.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond1_0 i) (hc1 : ¬cond1_1 i)
    (x0 : Vec F S512x1024 .bf16) (x1 : Vec F S512x1024 .f32) (x2 : Vec F S512x1024 .f32) (x3 : Vec F S1x512 .f32) (xs0 : Vec F S512x512 .f32) :
    sout1_B c i arg3 harg3 arg4 harg4 arg5 harg5 arg6 harg6 arg7 harg7 arg8 harg8 arg9 harg9 hc0 hc1 x0 x1 x2 x3 xs0 = k1_pay2 x0 x1 x2 xs0 := by
  unfold sout1_B
  rw [View.read_writes_eq_canon _ _ _ (scover1_B c i arg3 harg3 arg4 harg4 arg5 harg5 arg6 harg6 arg7 harg7 arg8 harg8 arg9 harg9 hc0 hc1 x0 x1 x2 x3 xs0)]
  unfold kernelRun1_B
  dsimp only
  sl_unfold_words
  rw [View.canon_unit_zero hz2_1]
  simp only [View.readAt_eq_ld, harg3.read_unread, harg4.read_unread, harg5.read_unread, harg6.read_unread, harg9.read_unread,
    View.ld_unit_zero (S := S512x1024) hz2_1, View.ld_unit_zero (S := S512x512) hz2_1, View.ld_unit_zero (S := S1x512) hz2_1]

/-- What the storing case leaves in the accumulator: what it held plus the point's product. -/
theorem sout1_C_eq (c : Dev nD) (i : grid1.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond1_0 i) (hc1 : cond1_1 i)
    (x0 : Vec F S512x1024 .bf16) (x1 : Vec F S512x1024 .f32) (x2 : Vec F S512x1024 .f32) (x3 : Vec F S1x512 .f32) (xs0 : Vec F S512x512 .f32) :
    sout1_C c i arg3 harg3 arg4 harg4 arg5 harg5 arg6 harg6 arg7 harg7 arg8 harg8 arg9 harg9 hc0 hc1 x0 x1 x2 x3 xs0 = k1_pay2 x0 x1 x2 xs0 := by
  unfold sout1_C
  rw [View.read_writes_eq_canon _ _ _ (scover1_C c i arg3 harg3 arg4 harg4 arg5 harg5 arg6 harg6 arg7 harg7 arg8 harg8 arg9 harg9 hc0 hc1 x0 x1 x2 x3 xs0)]
  unfold kernelRun1_C
  dsimp only
  sl_unfold_words
  rw [View.canon_unit_zero hz2_1]
  simp only [View.readAt_eq_ld, harg3.read_unread, harg4.read_unread, harg5.read_unread, harg6.read_unread, harg9.read_unread,
    View.ld_unit_zero (S := S512x1024) hz2_1, View.ld_unit_zero (S := S512x512) hz2_1, View.ld_unit_zero (S := S1x512) hz2_1]

/-- What the storing case leaves in the first output's buffer: the bias row added to the updated accumulator. -/
theorem out1_C_4_eq (c : Dev nD) (i : grid1.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond1_0 i) (hc1 : cond1_1 i)
    (x0 : Vec F S512x1024 .bf16) (x1 : Vec F S512x1024 .f32) (x2 : Vec F S512x1024 .f32) (x3 : Vec F S1x512 .f32) (xs0 : Vec F S512x512 .f32) :
    out1_C_4 c i arg3 harg3 arg4 harg4 arg5 harg5 arg6 harg6 arg7 harg7 arg8 harg8 arg9 harg9 hc0 hc1 x0 x1 x2 x3 xs0 = k1_pay3 (k1_pay2 x0 x1 x2 xs0) x3 := by
  unfold out1_C_4
  rw [View.read_writes_eq_canon _ _ _ (cover1_C_4 c i arg3 harg3 arg4 harg4 arg5 harg5 arg6 harg6 arg7 harg7 arg8 harg8 arg9 harg9 hc0 hc1 x0 x1 x2 x3 xs0)]
  unfold kernelRun1_C
  dsimp only
  sl_unfold_words
  rw [View.canon_unit_zero hz2_1]
  rw [View.readCov_unit_zero (S := S512x512) _ hz2_1]
  simp only [View.readAt_eq_ld, harg3.read_unread, harg4.read_unread, harg5.read_unread, harg6.read_unread, harg9.read_unread,
    View.ld_unit_zero (S := S512x1024) hz2_1, View.ld_unit_zero (S := S512x512) hz2_1, View.ld_unit_zero (S := S1x512) hz2_1]

/-- The same for the second output: the positive part of that. -/
theorem out1_C_5_eq (c : Dev nD) (i : grid1.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond1_0 i) (hc1 : cond1_1 i)
    (x0 : Vec F S512x1024 .bf16) (x1 : Vec F S512x1024 .f32) (x2 : Vec F S512x1024 .f32) (x3 : Vec F S1x512 .f32) (xs0 : Vec F S512x512 .f32) :
    out1_C_5 c i arg3 harg3 arg4 harg4 arg5 harg5 arg6 harg6 arg7 harg7 arg8 harg8 arg9 harg9 hc0 hc1 x0 x1 x2 x3 xs0 = k1_pay4 (k1_pay2 x0 x1 x2 xs0) x3 := by
  unfold out1_C_5
  rw [View.read_writes_eq_canon _ _ _ (cover1_C_5 c i arg3 harg3 arg4 harg4 arg5 harg5 arg6 harg6 arg7 harg7 arg8 harg8 arg9 harg9 hc0 hc1 x0 x1 x2 x3 xs0)]
  unfold kernelRun1_C
  dsimp only
  sl_unfold_words
  rw [View.canon_unit_zero hz2_1]
  rw [View.readCov_unit_zero (S := S512x512) _ hz2_1]
  simp only [View.readAt_eq_ld, harg3.read_unread, harg4.read_unread, harg5.read_unread, harg6.read_unread, harg9.read_unread,
    View.ld_unit_zero (S := S512x1024) hz2_1, View.ld_unit_zero (S := S512x512) hz2_1, View.ld_unit_zero (S := S1x512) hz2_1]

/-- One step of the accumulation at an entry, over any blocks: if the accumulator's entry is the sum of the first a terms
    of a sequence and the block's products are its next 1024 terms, the updated entry is the sum of the first a + 1024. -/
theorem step1 (x0 : Vec Ideal S512x1024 .bf16) (x1 x2 : Vec Ideal S512x1024 .f32) (acc : Vec Ideal S512x512 .f32)
    (f : ℕ → EReal) (a : ℕ) (p q : Fin 512)
    (hacc : acc (ix2 p q) = ∑ l ∈ Finset.range a, f l)
    (hblk : ∀ k : Fin 1024, x0 (ix2 p k) * (x1 (ix2 q k) * x2 (ix2 q k)) = f (a + k.val)) :
    k1_pay2 (F := Ideal) x0 x1 x2 acc (ix2 p q) = ∑ l ∈ Finset.range (a + 1024), f l := by
  rw [pay2_1, hacc, Finset.sum_range_add, Finset.sum_range (fun x => f (a + x))]
  exact congrArg (_ + ·) (Finset.sum_congr rfl fun k _ => hblk k)

/-- Term l of the contraction of row P of the activations with row Q of the masked weight (zero past the last column). -/
def term1 (X : Cert.Mlp.Arr ⟨2, ![4096, 4096]⟩) (W M : Cert.Mlp.Arr ⟨2, ![2048, 4096]⟩) (P : Fin 4096) (Q : Fin 2048) (l : ℕ) : EReal :=
  if h : l < 4096 then X (ix2 P ⟨l, h⟩) * (W (ix2 Q ⟨l, h⟩) * M (ix2 Q ⟨l, h⟩)) else 0

theorem term1_lt (X : Cert.Mlp.Arr ⟨2, ![4096, 4096]⟩) (W M : Cert.Mlp.Arr ⟨2, ![2048, 4096]⟩) (P : Fin 4096) (Q : Fin 2048) (l : ℕ) (h : l < 4096) :
    term1 X W M P Q l = X (ix2 P ⟨l, h⟩) * (W (ix2 Q ⟨l, h⟩) * M (ix2 Q ⟨l, h⟩)) := dif_pos h

/-- All 4096 terms, summed, are the contraction. -/
theorem term1_sum (X : Cert.Mlp.Arr ⟨2, ![4096, 4096]⟩) (W M : Cert.Mlp.Arr ⟨2, ![2048, 4096]⟩) (P : Fin 4096) (Q : Fin 2048) :
    ∑ l ∈ Finset.range 4096, term1 X W M P Q l = ∑ k : Fin 4096, X (ix2 P k) * (W (ix2 Q k) * M (ix2 Q k)) := by
  rw [Finset.sum_range]
  exact Finset.sum_congr rfl fun k _ => term1_lt X W M P Q k.val k.isLt

variable (V : (c : Dev nD) → (b : Ref sig .tc) → Buf (Elt Ideal) ((c : Thread nD τ).loc b))

/-- One step at grid point t: the point's blocks are the arrays' columns t % 4 * 1024 … of rows P and Q. -/
theorem stepAt1 (c : Dev nD) (t : Fin cfg1.N) (acc : Vec Ideal S512x512 .f32) (p q : Fin 512) (P : Fin 4096) (Q : Fin 2048)
    (hP : P.val = t.val / 16 * 512 + p.val) (hQ : Q.val = t.val / 4 % 4 * 512 + q.val)
    (hacc : acc (ix2 p q) = ∑ l ∈ Finset.range (t.val % 4 * 1024), term1 (V c main_v1_1) (V c main_arg4) (V c main_arg6) P Q l) :
    k1_pay2 (F := Ideal) (iblk1 V c 0 t) (iblk1 V c 1 t) (iblk1 V c 2 t) acc (ix2 p q)
      = ∑ l ∈ Finset.range (t.val % 4 * 1024 + 1024), term1 (V c main_v1_1) (V c main_arg4) (V c main_arg6) P Q l := by
  have ht := lt_1 t
  obtain ⟨Pv, hPv⟩ := P
  obtain ⟨Qv, hQv⟩ := Q
  dsimp only at hP hQ
  subst hP hQ
  refine step1 (iblk1 V c 0 t) (iblk1 V c 1 t) (iblk1 V c 2 t) acc _ _ p q hacc fun k => ?_
  have hl : t.val % 4 * 1024 + k.val < 4096 := by have := k.isLt; omega
  have e0 : iblk1 V c 0 t (ix2 p k) = _ := blk_read_1_0 (F := Ideal) (V c main_v1_1) t p k
  have e1 : iblk1 V c 1 t (ix2 q k) = _ := blk_read_1_1 (F := Ideal) (V c main_arg4) t q k
  have e2 : iblk1 V c 2 t (ix2 q k) = _ := blk_read_1_2 (F := Ideal) (V c main_arg6) t q k
  rw [e0, e1, e2, term1_lt _ _ _ _ _ _ hl]

/-- THE ACCUMULATOR after the body at point t, at an entry: the sum of the first (t % 4 + 1) * 1024 terms of the contraction
    of the point's rows. By induction on the position: a resetting point starts from the zero block, any other adds its
    block to what the point before left (same rows, the next columns). -/
theorem acc1_aux (c : Dev nD) : ∀ (n : ℕ) (t : Fin cfg1.N), t.val = n → ∀ (p q : Fin 512) (P : Fin 4096) (Q : Fin 2048),
    P.val = t.val / 16 * 512 + p.val → Q.val = t.val / 4 % 4 * 512 + q.val →
    (outsAt1 V c t.val t.isLt).2.2 (ix2 p q) = ∑ l ∈ Finset.range (t.val % 4 * 1024 + 1024), term1 (V c main_v1_1) (V c main_arg4) (V c main_arg6) P Q l := by
  intro n
  induction n using Nat.strong_induction_on with
  | _ n ih =>
    intro t htn p q P Q hP hQ
    have hN := lt_1 t
    by_cases h0 : t.val % 4 = 0
    · have h1 : ¬t.val % 4 = 3 := by omega
      rw [outsAt1_A V c t h0 h1]
      dsimp only
      refine (congrFun (sout1_A_eq (F := Ideal) c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t)) (ix2 p q)).trans ?_
      refine stepAt1 V c t (k1_pay1 (F := Ideal)) p q P Q hP hQ ?_
      rw [pay1_1, h0, Nat.zero_mul, Finset.range_zero, Finset.sum_empty]
    · have hprev : (outsAt1 V c (t.val - 1) (Nat.lt_of_le_of_lt (Nat.sub_le _ _) t.isLt)).2.2 (ix2 p q) = ∑ l ∈ Finset.range (t.val % 4 * 1024), term1 (V c main_v1_1) (V c main_arg4) (V c main_arg6) P Q l :=
        (ih (t.val - 1) (by omega) ⟨t.val - 1, Nat.lt_of_le_of_lt (Nat.sub_le _ _) t.isLt⟩ rfl p q P Q
          (by show P.val = (t.val - 1) / 16 * 512 + p.val; omega) (by show Q.val = (t.val - 1) / 4 % 4 * 512 + q.val; omega)).trans
          (by show ∑ l ∈ Finset.range ((t.val - 1) % 4 * 1024 + 1024), _ = _
              rw [show (t.val - 1) % 4 * 1024 + 1024 = t.val % 4 * 1024 from by omega])
      by_cases h1 : t.val % 4 = 3
      · rw [outsAt1_C V c t h0 h1]
        dsimp only
        refine (congrFun (sout1_C_eq (F := Ideal) c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2) (ix2 p q)).trans ?_
        exact stepAt1 V c t _ p q P Q hP hQ hprev
      · rw [outsAt1_B V c t h0 h1]
        dsimp only
        refine (congrFun (sout1_B_eq (F := Ideal) c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2) (ix2 p q)).trans ?_
        exact stepAt1 V c t _ p q P Q hP hQ hprev

/-- The masked linear layer of the region's four input arrays: what the first output array ends holding. -/
abbrev G1 (c : Dev nD) : Cert.Mlp.Arr ⟨2, ![4096, 2048]⟩ :=
  Cert.Mlp.linR (B := 4096) (N := 2048) (K := 4096) (V c main_v1_1) (V c main_arg4) (V c main_arg6) (V c main_v2)

/-- At a storing point, the updated accumulator's entry plus the bias row's is the layer's entry there. -/
theorem point1 (c : Dev nD) (t : Fin cfg1.N) (h1 : t.val % 4 = 3) (p q : Fin 512) (P : Fin 4096) (Q : Fin 2048)
    (hP : P.val = t.val / 16 * 512 + p.val) (hQ : Q.val = t.val / 4 % 4 * 512 + q.val) :
    k1_pay2 (F := Ideal) (iblk1 V c 0 t) (iblk1 V c 1 t) (iblk1 V c 2 t) (outsAt1 V c (t.val - 1) (Nat.lt_of_le_of_lt (Nat.sub_le _ _) t.isLt)).2.2 (ix2 p q)
        + iblk1 V c 3 t (ix2 (0 : Fin 1) q)
      = G1 V c (ix2 P Q) := by
  have ht := lt_1 t
  have hprev : (outsAt1 V c (t.val - 1) (Nat.lt_of_le_of_lt (Nat.sub_le _ _) t.isLt)).2.2 (ix2 p q) = ∑ l ∈ Finset.range (t.val % 4 * 1024), term1 (V c main_v1_1) (V c main_arg4) (V c main_arg6) P Q l :=
    (acc1_aux V c (t.val - 1) ⟨t.val - 1, Nat.lt_of_le_of_lt (Nat.sub_le _ _) t.isLt⟩ rfl p q P Q
      (by show P.val = (t.val - 1) / 16 * 512 + p.val; omega) (by show Q.val = (t.val - 1) / 4 % 4 * 512 + q.val; omega)).trans
      (by show ∑ l ∈ Finset.range ((t.val - 1) % 4 * 1024 + 1024), _ = _
          rw [show (t.val - 1) % 4 * 1024 + 1024 = t.val % 4 * 1024 from by omega])
  have hs := stepAt1 V c t _ p q P Q hP hQ hprev
  rw [show t.val % 4 * 1024 + 1024 = 4096 from by omega, term1_sum] at hs
  have e3 : iblk1 V c 3 t (ix2 (0 : Fin 1) q) = _ := blk_read_1_3 (F := Ideal) (V c main_v2) t (0 : Fin 1) q
  rw [hs, e3]
  obtain ⟨Pv, hPv⟩ := P
  obtain ⟨Qv, hQv⟩ := Q
  dsimp only at hP hQ
  subst hP hQ
  rfl

theorem flushed1_4 (c : Dev nD) (t : Fin cfg1.N) (hf : (cfg1.win 4).flush t = true) :
    (dat1 V c).flushed 4 t = ((cfg1.win 4).blk t).view.read (Elt Ideal) (G1 V c) := by
  have h1 : t.val % 4 = 3 := (flush1_4 t).mp hf
  have h0 : ¬t.val % 4 = 0 := by omega
  have ht := lt_1 t
  show (cfg1.win 4).cut (grid1.coords t) ((dat1 V c).after 4 t) = _
  rw [after1_4, outsAt1_C V c t h0 h1]
  dsimp only
  funext y
  obtain ⟨p, q, rfl⟩ : ∃ (p : Fin 512) (q : Fin 512), y = ix2 p q := ⟨y 0, y 1, eq_ix2 y⟩
  refine (congrFun (out1_C_4_eq (F := Ideal) c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2) (ix2 p q)).trans ?_
  refine (pay3_1 _ _ p q).trans ?_
  rw [blk_read_1_4 (F := Ideal) (G1 V c) t p q]
  exact point1 V c t h1 p q _ _ rfl rfl

theorem flushed1_5 (c : Dev nD) (t : Fin cfg1.N) (hf : (cfg1.win 5).flush t = true) :
    (dat1 V c).flushed 5 t = ((cfg1.win 5).blk t).view.read (Elt Ideal) (Cert.Mlp.pos (G1 V c)) := by
  have h1 : t.val % 4 = 3 := (flush1_5 t).mp hf
  have h0 : ¬t.val % 4 = 0 := by omega
  have ht := lt_1 t
  show (cfg1.win 5).cut (grid1.coords t) ((dat1 V c).after 5 t) = _
  rw [after1_5, outsAt1_C V c t h0 h1]
  dsimp only
  funext y
  obtain ⟨p, q, rfl⟩ : ∃ (p : Fin 512) (q : Fin 512), y = ix2 p q := ⟨y 0, y 1, eq_ix2 y⟩
  refine (congrFun (out1_C_5_eq (F := Ideal) c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2) (ix2 p q)).trans ?_
  refine (pay4_1 _ _ p q).trans ?_
  rw [blk_read_1_5 (F := Ideal) (Cert.Mlp.pos (G1 V c)) t p q]
  exact congrArg (fun z : EReal => max z 0) (point1 V c t h1 p q _ _ rfl rfl)

/-- The first output array ends at the masked linear layer of the region's input arrays, -/
theorem final1_pre (c : Dev nD) : (dat1 V c).arrAt 4 cfg1.N = Cert.Mlp.linR (B := 4096) (N := 2048) (K := 4096) (V c main_v1_1) (V c main_arg4) (V c main_arg6) (V c main_v2) :=
  (dat1 V c).arrAt_eq_of_cover 4 (G1 V c) (flushed1_4 V c) (cover_1_4)
/-- and the second at its positive part. -/
theorem final1_post (c : Dev nD) : (dat1 V c).arrAt 5 cfg1.N = Cert.Mlp.pos (Cert.Mlp.linR (B := 4096) (N := 2048) (K := 4096) (V c main_v1_1) (V c main_arg4) (V c main_arg6) (V c main_v2)) :=
  (dat1 V c).arrAt_eq_of_cover 5 (Cert.Mlp.pos (G1 V c)) (flushed1_5 V c) (cover_1_5)

end Cert.KernelIdeal.Hand

end
-- ==== Proof.Pay2.lean ====
/- The stored values of layer kernel 2, each read at one index of its block, on the extended reals
   (F := Ideal): the zero block, the accumulation step (accumulator plus the row-by-row contraction of
   the activations with the masked weights), the bias addition, and the rectified output. -/
import proofs.«152868_j57621281243253_2_alg».proof.Proof.Gen.KernelIdeal.Skeleton
import Idealize.ShloMosaic.Lib.ValueLayout
import Idealize.ShloMosaic.Lib.ValueIdx
import Idealize.ShloMosaic.PureOps.Ideal.Laws

noncomputable section

namespace Cert.KernelIdeal.Pay

open Idealize.ShloMosaic Idealize.SL.Sem Idealize.ShloMosaic.ValueIdx Cert.KernelIdeal Cert.KernelIdeal.Gen
open scoped BigOperators

/-- The zero block: every entry is the extended real 0. -/
theorem pay1_2 (p : Fin 512) (q : Fin 512) : k2_pay1 (F := Ideal) (ix2 p q) = 0 := by
  unfold k2_pay1
  rw [shapeCast_self]
  exact Ideal.ofBits_zero_f32

/-- Left operand index of the contraction: the kept (row) coordinate is the output's row. -/
theorem lhs_2_0 (i : S512x512.Idx) (c : dot_S512x1024_S512x1024_S512x512_1_1_0_0_n_n.contr.Idx) :
    (dot_S512x1024_S512x1024_S512x512_1_1_0_0_n_n.lhsIdx i c 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
/-- Left operand index: the contracted (column) coordinate is the contraction position. -/
theorem lhs_2_1 (i : S512x512.Idx) (c : dot_S512x1024_S512x1024_S512x512_1_1_0_0_n_n.contr.Idx) :
    (dot_S512x1024_S512x1024_S512x512_1_1_0_0_n_n.lhsIdx i c 1).val = (c ⟨0, by decide⟩).val :=
  dot_S512x1024_S512x1024_S512x512_1_1_0_0_n_n.lhsIdx_val_of_single rfl i c
/-- Right operand index: the kept (row) coordinate is the output's column. -/
theorem rhs_2_0 (i : S512x512.Idx) (c : dot_S512x1024_S512x1024_S512x512_1_1_0_0_n_n.contr.Idx) :
    (dot_S512x1024_S512x1024_S512x512_1_1_0_0_n_n.rhsIdx i c 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
/-- Right operand index: the contracted (column) coordinate is the contraction position. -/
theorem rhs_2_1 (i : S512x512.Idx) (c : dot_S512x1024_S512x1024_S512x512_1_1_0_0_n_n.contr.Idx) :
    (dot_S512x1024_S512x1024_S512x512_1_1_0_0_n_n.rhsIdx i c 1).val = (c ⟨0, by decide⟩).val :=
  dot_S512x1024_S512x1024_S512x512_1_1_0_0_n_n.rhsIdx_val_of_single rfl i c

/-- The contraction into the zero accumulator, read at (p, q): both operands are contracted along
    their columns, so the entry is the sum over k of a(p, k) · b(q, k). -/
theorem matmul_2 {φ₁ φ₂ : FTy} (a : FVec Ideal S512x1024 φ₁) (b : FVec Ideal S512x1024 φ₂) (p : Fin 512) (q : Fin 512) :
    matmul dot_S512x1024_S512x1024_S512x512_1_1_0_0_n_n none a b (constant (F := Ideal) S512x512 .f32 0x00000000#32) (ix2 p q)
      = ∑ k : Fin 1024, a (ix2 p k) * b (ix2 q k) := by
  simp only [matmul]
  rw [Ideal.matmul_constant_zero_apply, ← Equiv.sum_comp (ValueIdx.contrEquiv1 dot_S512x1024_S512x1024_S512x512_1_1_0_0_n_n 1024 rfl rfl).symm]
  refine Finset.sum_congr rfl fun k _ => ?_
  have hk := ValueIdx.contrEquiv1_symm_val dot_S512x1024_S512x1024_S512x512_1_1_0_0_n_n 1024 rfl rfl k
  have el : dot_S512x1024_S512x1024_S512x512_1_1_0_0_n_n.lhsIdx (ix2 p q) ((ValueIdx.contrEquiv1 dot_S512x1024_S512x1024_S512x512_1_1_0_0_n_n 1024 rfl rfl).symm k) = ix2 p k := funext fun x => Fin.ext (by
    match x with
    | ⟨0, _⟩ => exact lhs_2_0 _ _
    | ⟨1, _⟩ => exact (lhs_2_1 _ _).trans hk)
  have er : dot_S512x1024_S512x1024_S512x512_1_1_0_0_n_n.rhsIdx (ix2 p q) ((ValueIdx.contrEquiv1 dot_S512x1024_S512x1024_S512x512_1_1_0_0_n_n 1024 rfl rfl).symm k) = ix2 q k := funext fun x => Fin.ext (by
    match x with
    | ⟨0, _⟩ => exact rhs_2_0 _ _
    | ⟨1, _⟩ => exact (rhs_2_1 _ _).trans hk)
  rw [el, er]

/-- The accumulation step: the accumulator plus the contraction of the activations' row p with the
    masked weights' row q (weight times mask, entry by entry). -/
theorem pay2_2 (v3 : Vec Ideal S512x1024 .bf16) (v5 : Vec Ideal S512x1024 .f32) (v6 : Vec Ideal S512x1024 .f32) (v9 : Vec Ideal S512x512 .f32)
    (p : Fin 512) (q : Fin 512) :
    k2_pay2 (F := Ideal) v3 v5 v6 v9 (ix2 p q)
      = v9 (ix2 p q) + ∑ k : Fin 1024, v3 (ix2 p k) * (v5 (ix2 q k) * v6 (ix2 q k)) := by
  unfold k2_pay2
  rw [shapeCast_self, shapeCast_self, addf_apply]
  exact congrArg (v9 (ix2 p q) + ·) (matmul_2 _ _ p q)

/-- The bias addition: the one bias row is repeated along the rows. -/
theorem pay3_2 (v18 : Vec Ideal S512x512 .f32) (v19 : Vec Ideal S1x512 .f32) (p : Fin 512) (q : Fin 512) :
    k2_pay3 (F := Ideal) v18 v19 (ix2 p q) = v18 (ix2 p q) + v19 (ix2 (0 : Fin 1) q) := by
  unfold k2_pay3
  rw [shapeCast_self, addf_apply]
  exact congrArg (v18 (ix2 p q) + ·) (broadcastTo_1b_ab_apply v19 _ p q)

/-- The rectified output: the larger of the biased value and 0. -/
theorem pay4_2 (v18 : Vec Ideal S512x512 .f32) (v19 : Vec Ideal S1x512 .f32) (p : Fin 512) (q : Fin 512) :
    k2_pay4 (F := Ideal) v18 v19 (ix2 p q) = max (v18 (ix2 p q) + v19 (ix2 (0 : Fin 1) q)) 0 := by
  unfold k2_pay4
  rw [truncf_apply, maximumf_apply, pay3_2]
  exact congrArg (max (v18 (ix2 p q) + v19 (ix2 (0 : Fin 1) q))) Ideal.ofBits_zero_f32

end Cert.KernelIdeal.Pay
-- ==== Proof.Blk2.lean ====
/- The blocks of region 2's six windows, read at an index: an entry (a, b) of the block at grid point t
   is the array's entry at (block row index × block rows + a, block column index × block columns + b);
   and every index of the two result arrays lies in the block of a point that writes it back. -/
import proofs.«152868_j57621281243253_2_alg».proof.Proof.Gen.KernelIdeal.Points
import proofs.«152868_j57621281243253_2_alg».proof.Proof.Gen.KernelIdeal.Launch
import Idealize.ShloMosaic.Lib.Pipeline.Value
import Idealize.ShloMosaic.Lib.ValueIdx

noncomputable section

namespace Cert.KernelIdeal.Blk

open Idealize.ShloMosaic Idealize.ShloMosaic.TcCoe Idealize.SL Idealize.SL.Sem Cert.KernelIdeal Cert.KernelIdeal.Gen

variable {F : FTy → Type} [FloatOps F]

/-- The grid has 32 points. -/
theorem lt_2 (t : Fin cfg2.N) : t.val < 32 := by
  have h : t.val < grid2.N := t.isLt
  rw [N_2] at h; exact h

/-- The printed index maps, decided over the grid: each window's block index on each axis, in terms of
    the point's position (the last grid coordinate runs fastest). -/
theorem idx_2 : ∀ t : Fin cfg2.N,
    win2_0.index t (0 : Fin 2) = t.val / 4 ∧ win2_0.index t (1 : Fin 2) = t.val % 2
    ∧ win2_1.index t (0 : Fin 2) = t.val / 2 % 2 ∧ win2_1.index t (1 : Fin 2) = t.val % 2
    ∧ win2_2.index t (0 : Fin 2) = t.val / 2 % 2 ∧ win2_2.index t (1 : Fin 2) = t.val % 2
    ∧ win2_3.index t (0 : Fin 2) = 0 ∧ win2_3.index t (1 : Fin 2) = t.val / 2 % 2
    ∧ win2_4.index t (0 : Fin 2) = t.val / 4 ∧ win2_4.index t (1 : Fin 2) = t.val / 2 % 2
    ∧ win2_5.index t (0 : Fin 2) = t.val / 4 ∧ win2_5.index t (1 : Fin 2) = t.val / 2 % 2 :=
  (by decide +kernel : ∀ t : Fin grid2.N, _)

/-- Window 0's block at point t, read at (a, b). -/
theorem blk_read_2_0 (A : (⟨S4096x2048, .bf16⟩ : BufTy).Contents (Elt F)) (t : Fin cfg2.N) (a : Fin 512) (b : Fin 1024) :
    ((cfg2.win 0).blk t).view.read (Elt F) A (ValueIdx.ix2 a b)
      = A (ValueIdx.ix2 (⟨t.val / 4 * 512 + a.val, by have := lt_2 t; omega⟩ : Fin 4096) (⟨t.val % 2 * 1024 + b.val, by have := lt_2 t; omega⟩ : Fin 2048)) := by
  obtain ⟨e00, e01, e10, e11, e20, e21, e30, e31, e40, e41, e50, e51⟩ := idx_2 t
  rw [View.read_apply]
  show A _ = A _
  congr 1
  funext x
  apply Fin.ext
  match x with
  | ⟨0, _⟩ => show win2_0.index t (0 : Fin 2) * 512 + 1 * a.val = t.val / 4 * 512 + a.val; rw [e00]; omega
  | ⟨1, _⟩ => show win2_0.index t (1 : Fin 2) * 1024 + 1 * b.val = t.val % 2 * 1024 + b.val; rw [e01]; omega

/-- Window 1's block at point t, read at (a, b). -/
theorem blk_read_2_1 (A : (⟨S1024x2048, .f32⟩ : BufTy).Contents (Elt F)) (t : Fin cfg2.N) (a : Fin 512) (b : Fin 1024) :
    ((cfg2.win 1).blk t).view.read (Elt F) A (ValueIdx.ix2 a b)
      = A (ValueIdx.ix2 (⟨t.val / 2 % 2 * 512 + a.val, by have := lt_2 t; omega⟩ : Fin 1024) (⟨t.val % 2 * 1024 + b.val, by have := lt_2 t; omega⟩ : Fin 2048)) := by
  obtain ⟨e00, e01, e10, e11, e20, e21, e30, e31, e40, e41, e50, e51⟩ := idx_2 t
  rw [View.read_apply]
  show A _ = A _
  congr 1
  funext x
  apply Fin.ext
  match x with
  | ⟨0, _⟩ => show win2_1.index t (0 : Fin 2) * 512 + 1 * a.val = t.val / 2 % 2 * 512 + a.val; rw [e10]; omega
  | ⟨1, _⟩ => show win2_1.index t (1 : Fin 2) * 1024 + 1 * b.val = t.val % 2 * 1024 + b.val; rw [e11]; omega

/-- Window 2's block at point t, read at (a, b). -/
theorem blk_read_2_2 (A : (⟨S1024x2048, .f32⟩ : BufTy).Contents (Elt F)) (t : Fin cfg2.N) (a : Fin 512) (b : Fin 1024) :
    ((cfg2.win 2).blk t).view.read (Elt F) A (ValueIdx.ix2 a b)
      = A (ValueIdx.ix2 (⟨t.val / 2 % 2 * 512 + a.val, by have := lt_2 t; omega⟩ : Fin 1024) (⟨t.val % 2 * 1024 + b.val, by have := lt_2 t; omega⟩ : Fin 2048)) := by
  obtain ⟨e00, e01, e10, e11, e20, e21, e30, e31, e40, e41, e50, e51⟩ := idx_2 t
  rw [View.read_apply]
  show A _ = A _
  congr 1
  funext x
  apply Fin.ext
  match x with
  | ⟨0, _⟩ => show win2_2.index t (0 : Fin 2) * 512 + 1 * a.val = t.val / 2 % 2 * 512 + a.val; rw [e20]; omega
  | ⟨1, _⟩ => show win2_2.index t (1 : Fin 2) * 1024 + 1 * b.val = t.val % 2 * 1024 + b.val; rw [e21]; omega

/-- Window 3's block at point t, read at (a, b). -/
theorem blk_read_2_3 (A : (⟨S1x1024, .f32⟩ : BufTy).Contents (Elt F)) (t : Fin cfg2.N) (a : Fin 1) (b : Fin 512) :
    ((cfg2.win 3).blk t).view.read (Elt F) A (ValueIdx.ix2 a b)
      = A (ValueIdx.ix2 a (⟨t.val / 2 % 2 * 512 + b.val, by have := lt_2 t; omega⟩ : Fin 1024)) := by
  obtain ⟨e00, e01, e10, e11, e20, e21, e30, e31, e40, e41, e50, e51⟩ := idx_2 t
  rw [View.read_apply]
  show A _ = A _
  congr 1
  funext x
  apply Fin.ext
  match x with
  | ⟨0, _⟩ => show win2_3.index t (0 : Fin 2) * 1 + 1 * a.val = a.val; rw [e30]; omega
  | ⟨1, _⟩ => show win2_3.index t (1 : Fin 2) * 512 + 1 * b.val = t.val / 2 % 2 * 512 + b.val; rw [e31]; omega

/-- Window 4's block at point t, read at (a, b). -/
theorem blk_read_2_4 (A : (⟨S4096x1024, .f32⟩ : BufTy).Contents (Elt F)) (t : Fin cfg2.N) (a : Fin 512) (b : Fin 512) :
    ((cfg2.win 4).blk t).view.read (Elt F) A (ValueIdx.ix2 a b)
      = A (ValueIdx.ix2 (⟨t.val / 4 * 512 + a.val, by have := lt_2 t; omega⟩ : Fin 4096) (⟨t.val / 2 % 2 * 512 + b.val, by have := lt_2 t; omega⟩ : Fin 1024)) := by
  obtain ⟨e00, e01, e10, e11, e20, e21, e30, e31, e40, e41, e50, e51⟩ := idx_2 t
  rw [View.read_apply]
  show A _ = A _
  congr 1
  funext x
  apply Fin.ext
  match x with
  | ⟨0, _⟩ => show win2_4.index t (0 : Fin 2) * 512 + 1 * a.val = t.val / 4 * 512 + a.val; rw [e40]; omega
  | ⟨1, _⟩ => show win2_4.index t (1 : Fin 2) * 512 + 1 * b.val = t.val / 2 % 2 * 512 + b.val; rw [e41]; omega

/-- Window 5's block at point t, read at (a, b). -/
theorem blk_read_2_5 (A : (⟨S4096x1024, .bf16⟩ : BufTy).Contents (Elt F)) (t : Fin cfg2.N) (a : Fin 512) (b : Fin 512) :
    ((cfg2.win 5).blk t).view.read (Elt F) A (ValueIdx.ix2 a b)
      = A (ValueIdx.ix2 (⟨t.val / 4 * 512 + a.val, by have := lt_2 t; omega⟩ : Fin 4096) (⟨t.val / 2 % 2 * 512 + b.val, by have := lt_2 t; omega⟩ : Fin 1024)) := by
  obtain ⟨e00, e01, e10, e11, e20, e21, e30, e31, e40, e41, e50, e51⟩ := idx_2 t
  rw [View.read_apply]
  show A _ = A _
  congr 1
  funext x
  apply Fin.ext
  match x with
  | ⟨0, _⟩ => show win2_5.index t (0 : Fin 2) * 512 + 1 * a.val = t.val / 4 * 512 + a.val; rw [e50]; omega
  | ⟨1, _⟩ => show win2_5.index t (1 : Fin 2) * 512 + 1 * b.val = t.val / 2 % 2 * 512 + b.val; rw [e51]; omega

/-- Every index of result array 0 lies in the block of a point that writes it back: the point of its
    block row and block column at the last step of the contraction axis. -/
theorem cover_2_4 (i : S4096x1024.Idx) :
    ∃ t : Fin cfg2.N, (cfg2.win 4).flush t = true ∧ i ∈ ((cfg2.win 4).blk t).view.set := by
  have hi0 : (i 0).val < 4096 := (i 0).isLt
  have hi1 : (i 1).val < 1024 := (i 1).isLt
  obtain ⟨t, ht⟩ : ∃ t : Fin cfg2.N, t.val = ((i 0).val / 512 * 2 + (i 1).val / 512) * 2 + 1 :=
    ⟨⟨((i 0).val / 512 * 2 + (i 1).val / 512) * 2 + 1, by show _ < grid2.N; rw [N_2]; omega⟩, rfl⟩
  obtain ⟨e00, e01, e10, e11, e20, e21, e30, e31, e40, e41, e50, e51⟩ := idx_2 t
  refine ⟨t, (flush2_4 t).mpr (by omega), ?_⟩
  show i ∈ ((View.whole main_v5_0).slice (win2_4.rect t)).set
  rw [View.set_slice_whole, Rect.mem_set_unit]
  intro x
  match x with
  | ⟨0, _⟩ => show win2_4.index t (0 : Fin 2) * 512 ≤ (i 0).val ∧ (i 0).val < win2_4.index t (0 : Fin 2) * 512 + 512; rw [e40]; omega
  | ⟨1, _⟩ => show win2_4.index t (1 : Fin 2) * 512 ≤ (i 1).val ∧ (i 1).val < win2_4.index t (1 : Fin 2) * 512 + 512; rw [e41]; omega

/-- Every index of result array 1 lies in the block of a point that writes it back: the point of its
    block row and block column at the last step of the contraction axis. -/
theorem cover_2_5 (i : S4096x1024.Idx) :
    ∃ t : Fin cfg2.N, (cfg2.win 5).flush t = true ∧ i ∈ ((cfg2.win 5).blk t).view.set := by
  have hi0 : (i 0).val < 4096 := (i 0).isLt
  have hi1 : (i 1).val < 1024 := (i 1).isLt
  obtain ⟨t, ht⟩ : ∃ t : Fin cfg2.N, t.val = ((i 0).val / 512 * 2 + (i 1).val / 512) * 2 + 1 :=
    ⟨⟨((i 0).val / 512 * 2 + (i 1).val / 512) * 2 + 1, by show _ < grid2.N; rw [N_2]; omega⟩, rfl⟩
  obtain ⟨e00, e01, e10, e11, e20, e21, e30, e31, e40, e41, e50, e51⟩ := idx_2 t
  refine ⟨t, (flush2_5 t).mpr (by omega), ?_⟩
  show i ∈ ((View.whole main_v5_1).slice (win2_5.rect t)).set
  rw [View.set_slice_whole, Rect.mem_set_unit]
  intro x
  match x with
  | ⟨0, _⟩ => show win2_5.index t (0 : Fin 2) * 512 ≤ (i 0).val ∧ (i 0).val < win2_5.index t (0 : Fin 2) * 512 + 512; rw [e50]; omega
  | ⟨1, _⟩ => show win2_5.index t (1 : Fin 2) * 512 ≤ (i 1).val ∧ (i 1).val < win2_5.index t (1 : Fin 2) * 512 + 512; rw [e51]; omega

end Cert.KernelIdeal.Blk
-- ==== Proof.KernelIdeal.Val2.lean ====
import proofs.«152868_j57621281243253_2_alg».proof.Proof.KernelIdeal.Rgn2
import proofs.«152868_j57621281243253_2_alg».proof.Proof.Pay2
import proofs.«152868_j57621281243253_2_alg».proof.Proof.Blk2
import proofs.«152868_j57621281243253_2_alg».proof.Proof.LibStoreThenLoad
import proofs.«152868_j57621281243253_2_alg».proof.Proof.SpecRow
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.KernelIdeal.Pay Cert.KernelIdeal.Blk

/-! Region 2's values. The grid's last coordinate runs over 2 steps of the contraction: the first resets the accumulator,
    every step adds its block's product, the last stores the accumulator plus the bias row and its positive part. So
    the two output arrays end at the masked linear layer of the region's input arrays and at its positive part. -/

theorem hz2_2 : (![0, 0] : Fin 2 → Nat) = fun _ => 0 := funext fun a => by fin_cases a <;> rfl

/-- What the resetting case leaves in the accumulator: the zero block plus the point's product. -/
theorem sout2_A_eq (c : Dev nD) (i : grid2.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : cond2_0 i) (hc1 : ¬cond2_1 i)
    (x0 : Vec F S512x1024 .bf16) (x1 : Vec F S512x1024 .f32) (x2 : Vec F S512x1024 .f32) (x3 : Vec F S1x512 .f32) :
    sout2_A c i arg3 harg3 arg4 harg4 arg5 harg5 arg6 harg6 arg7 harg7 arg8 harg8 arg9 harg9 hc0 hc1 x0 x1 x2 x3 = k2_pay2 x0 x1 x2 (k2_pay1 (F := F)) := by
  unfold sout2_A
  rw [View.read_writes_eq_canon _ _ _ (scover2_A c i arg3 harg3 arg4 harg4 arg5 harg5 arg6 harg6 arg7 harg7 arg8 harg8 arg9 harg9 hc0 hc1 x0 x1 x2 x3)]
  unfold kernelRun2_A
  dsimp only
  sl_unfold_words
  rw [View.canon_cons_unit_zero hz2_2]
  rw [View.readCov_unit_zero (S := S512x512) _ hz2_2]
  simp only [View.readAt_eq_ld, harg3.read_unread, harg4.read_unread, harg5.read_unread, harg6.read_unread, harg9.read_unread,
    View.ld_unit_zero (S := S512x1024) hz2_2, View.ld_unit_zero (S := S512x512) hz2_2, View.ld_unit_zero (S := S1x512) hz2_2]

/-- What the storing case leaves in the accumulator: what it held plus the point's product. -/
theorem sout2_C_eq (c : Dev nD) (i : grid2.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond2_0 i) (hc1 : cond2_1 i)
    (x0 : Vec F S512x1024 .bf16) (x1 : Vec F S512x1024 .f32) (x2 : Vec F S512x1024 .f32) (x3 : Vec F S1x512 .f32) (xs0 : Vec F S512x512 .f32) :
    sout2_C c i arg3 harg3 arg4 harg4 arg5 harg5 arg6 harg6 arg7 harg7 arg8 harg8 arg9 harg9 hc0 hc1 x0 x1 x2 x3 xs0 = k2_pay2 x0 x1 x2 xs0 := by
  unfold sout2_C
  rw [View.read_writes_eq_canon _ _ _ (scover2_C c i arg3 harg3 arg4 harg4 arg5 harg5 arg6 harg6 arg7 harg7 arg8 harg8 arg9 harg9 hc0 hc1 x0 x1 x2 x3 xs0)]
  unfold kernelRun2_C
  dsimp only
  sl_unfold_words
  rw [View.canon_unit_zero hz2_2]
  simp only [View.readAt_eq_ld, harg3.read_unread, harg4.read_unread, harg5.read_unread, harg6.read_unread, harg9.read_unread,
    View.ld_unit_zero (S := S512x1024) hz2_2, View.ld_unit_zero (S := S512x512) hz2_2, View.ld_unit_zero (S := S1x512) hz2_2]

/-- What the storing case leaves in the first output's buffer: the bias row added to the updated accumulator. -/
theorem out2_C_4_eq (c : Dev nD) (i : grid2.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond2_0 i) (hc1 : cond2_1 i)
    (x0 : Vec F S512x1024 .bf16) (x1 : Vec F S512x1024 .f32) (x2 : Vec F S512x1024 .f32) (x3 : Vec F S1x512 .f32) (xs0 : Vec F S512x512 .f32) :
    out2_C_4 c i arg3 harg3 arg4 harg4 arg5 harg5 arg6 harg6 arg7 harg7 arg8 harg8 arg9 harg9 hc0 hc1 x0 x1 x2 x3 xs0 = k2_pay3 (k2_pay2 x0 x1 x2 xs0) x3 := by
  unfold out2_C_4
  rw [View.read_writes_eq_canon _ _ _ (cover2_C_4 c i arg3 harg3 arg4 harg4 arg5 harg5 arg6 harg6 arg7 harg7 arg8 harg8 arg9 harg9 hc0 hc1 x0 x1 x2 x3 xs0)]
  unfold kernelRun2_C
  dsimp only
  sl_unfold_words
  rw [View.canon_unit_zero hz2_2]
  rw [View.readCov_unit_zero (S := S512x512) _ hz2_2]
  simp only [View.readAt_eq_ld, harg3.read_unread, harg4.read_unread, harg5.read_unread, harg6.read_unread, harg9.read_unread,
    View.ld_unit_zero (S := S512x1024) hz2_2, View.ld_unit_zero (S := S512x512) hz2_2, View.ld_unit_zero (S := S1x512) hz2_2]

/-- The same for the second output: the positive part of that. -/
theorem out2_C_5_eq (c : Dev nD) (i : grid2.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : ¬cond2_0 i) (hc1 : cond2_1 i)
    (x0 : Vec F S512x1024 .bf16) (x1 : Vec F S512x1024 .f32) (x2 : Vec F S512x1024 .f32) (x3 : Vec F S1x512 .f32) (xs0 : Vec F S512x512 .f32) :
    out2_C_5 c i arg3 harg3 arg4 harg4 arg5 harg5 arg6 harg6 arg7 harg7 arg8 harg8 arg9 harg9 hc0 hc1 x0 x1 x2 x3 xs0 = k2_pay4 (k2_pay2 x0 x1 x2 xs0) x3 := by
  unfold out2_C_5
  rw [View.read_writes_eq_canon _ _ _ (cover2_C_5 c i arg3 harg3 arg4 harg4 arg5 harg5 arg6 harg6 arg7 harg7 arg8 harg8 arg9 harg9 hc0 hc1 x0 x1 x2 x3 xs0)]
  unfold kernelRun2_C
  dsimp only
  sl_unfold_words
  rw [View.canon_unit_zero hz2_2]
  rw [View.readCov_unit_zero (S := S512x512) _ hz2_2]
  simp only [View.readAt_eq_ld, harg3.read_unread, harg4.read_unread, harg5.read_unread, harg6.read_unread, harg9.read_unread,
    View.ld_unit_zero (S := S512x1024) hz2_2, View.ld_unit_zero (S := S512x512) hz2_2, View.ld_unit_zero (S := S1x512) hz2_2]

/-- One step of the accumulation at an entry, over any blocks: if the accumulator's entry is the sum of the first a terms
    of a sequence and the block's products are its next 1024 terms, the updated entry is the sum of the first a + 1024. -/
theorem step2 (x0 : Vec Ideal S512x1024 .bf16) (x1 x2 : Vec Ideal S512x1024 .f32) (acc : Vec Ideal S512x512 .f32)
    (f : ℕ → EReal) (a : ℕ) (p q : Fin 512)
    (hacc : acc (ix2 p q) = ∑ l ∈ Finset.range a, f l)
    (hblk : ∀ k : Fin 1024, x0 (ix2 p k) * (x1 (ix2 q k) * x2 (ix2 q k)) = f (a + k.val)) :
    k2_pay2 (F := Ideal) x0 x1 x2 acc (ix2 p q) = ∑ l ∈ Finset.range (a + 1024), f l := by
  rw [pay2_2, hacc, Finset.sum_range_add, Finset.sum_range (fun x => f (a + x))]
  exact congrArg (_ + ·) (Finset.sum_congr rfl fun k _ => hblk k)

/-- Term l of the contraction of row P of the activations with row Q of the masked weight (zero past the last column). -/
def term2 (X : Cert.Mlp.Arr ⟨2, ![4096, 2048]⟩) (W M : Cert.Mlp.Arr ⟨2, ![1024, 2048]⟩) (P : Fin 4096) (Q : Fin 1024) (l : ℕ) : EReal :=
  if h : l < 2048 then X (ix2 P ⟨l, h⟩) * (W (ix2 Q ⟨l, h⟩) * M (ix2 Q ⟨l, h⟩)) else 0

theorem term2_lt (X : Cert.Mlp.Arr ⟨2, ![4096, 2048]⟩) (W M : Cert.Mlp.Arr ⟨2, ![1024, 2048]⟩) (P : Fin 4096) (Q : Fin 1024) (l : ℕ) (h : l < 2048) :
    term2 X W M P Q l = X (ix2 P ⟨l, h⟩) * (W (ix2 Q ⟨l, h⟩) * M (ix2 Q ⟨l, h⟩)) := dif_pos h

/-- All 2048 terms, summed, are the contraction. -/
theorem term2_sum (X : Cert.Mlp.Arr ⟨2, ![4096, 2048]⟩) (W M : Cert.Mlp.Arr ⟨2, ![1024, 2048]⟩) (P : Fin 4096) (Q : Fin 1024) :
    ∑ l ∈ Finset.range 2048, term2 X W M P Q l = ∑ k : Fin 2048, X (ix2 P k) * (W (ix2 Q k) * M (ix2 Q k)) := by
  rw [Finset.sum_range]
  exact Finset.sum_congr rfl fun k _ => term2_lt X W M P Q k.val k.isLt

variable (V : (c : Dev nD) → (b : Ref sig .tc) → Buf (Elt Ideal) ((c : Thread nD τ).loc b))

/-- One step at grid point t: the point's blocks are the arrays' columns t % 2 * 1024 … of rows P and Q. -/
theorem stepAt2 (c : Dev nD) (t : Fin cfg2.N) (acc : Vec Ideal S512x512 .f32) (p q : Fin 512) (P : Fin 4096) (Q : Fin 1024)
    (hP : P.val = t.val / 4 * 512 + p.val) (hQ : Q.val = t.val / 2 % 2 * 512 + q.val)
    (hacc : acc (ix2 p q) = ∑ l ∈ Finset.range (t.val % 2 * 1024), term2 (V c main_v3_1) (V c main_arg7) (V c main_arg9) P Q l) :
    k2_pay2 (F := Ideal) (iblk2 V c 0 t) (iblk2 V c 1 t) (iblk2 V c 2 t) acc (ix2 p q)
      = ∑ l ∈ Finset.range (t.val % 2 * 1024 + 1024), term2 (V c main_v3_1) (V c main_arg7) (V c main_arg9) P Q l := by
  have ht := lt_2 t
  obtain ⟨Pv, hPv⟩ := P
  obtain ⟨Qv, hQv⟩ := Q
  dsimp only at hP hQ
  subst hP hQ
  refine step2 (iblk2 V c 0 t) (iblk2 V c 1 t) (iblk2 V c 2 t) acc _ _ p q hacc fun k => ?_
  have hl : t.val % 2 * 1024 + k.val < 2048 := by have := k.isLt; omega
  have e0 : iblk2 V c 0 t (ix2 p k) = _ := blk_read_2_0 (F := Ideal) (V c main_v3_1) t p k
  have e1 : iblk2 V c 1 t (ix2 q k) = _ := blk_read_2_1 (F := Ideal) (V c main_arg7) t q k
  have e2 : iblk2 V c 2 t (ix2 q k) = _ := blk_read_2_2 (F := Ideal) (V c main_arg9) t q k
  rw [e0, e1, e2, term2_lt _ _ _ _ _ _ hl]

/-- THE ACCUMULATOR after the body at point t, at an entry: the sum of the first (t % 2 + 1) * 1024 terms of the contraction
    of the point's rows. By induction on the position: a resetting point starts from the zero block, any other adds its
    block to what the point before left (same rows, the next columns). -/
theorem acc2_aux (c : Dev nD) : ∀ (n : ℕ) (t : Fin cfg2.N), t.val = n → ∀ (p q : Fin 512) (P : Fin 4096) (Q : Fin 1024),
    P.val = t.val / 4 * 512 + p.val → Q.val = t.val / 2 % 2 * 512 + q.val →
    (outsAt2 V c t.val t.isLt).2.2 (ix2 p q) = ∑ l ∈ Finset.range (t.val % 2 * 1024 + 1024), term2 (V c main_v3_1) (V c main_arg7) (V c main_arg9) P Q l := by
  intro n
  induction n using Nat.strong_induction_on with
  | _ n ih =>
    intro t htn p q P Q hP hQ
    have hN := lt_2 t
    by_cases h0 : t.val % 2 = 0
    · have h1 : ¬t.val % 2 = 1 := by omega
      rw [outsAt2_A V c t h0 h1]
      dsimp only
      refine (congrFun (sout2_A_eq (F := Ideal) c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t)) (ix2 p q)).trans ?_
      refine stepAt2 V c t (k2_pay1 (F := Ideal)) p q P Q hP hQ ?_
      rw [pay1_2, h0, Nat.zero_mul, Finset.range_zero, Finset.sum_empty]
    · have hprev : (outsAt2 V c (t.val - 1) (Nat.lt_of_le_of_lt (Nat.sub_le _ _) t.isLt)).2.2 (ix2 p q) = ∑ l ∈ Finset.range (t.val % 2 * 1024), term2 (V c main_v3_1) (V c main_arg7) (V c main_arg9) P Q l :=
        (ih (t.val - 1) (by omega) ⟨t.val - 1, Nat.lt_of_le_of_lt (Nat.sub_le _ _) t.isLt⟩ rfl p q P Q
          (by show P.val = (t.val - 1) / 4 * 512 + p.val; omega) (by show Q.val = (t.val - 1) / 2 % 2 * 512 + q.val; omega)).trans
          (by show ∑ l ∈ Finset.range ((t.val - 1) % 2 * 1024 + 1024), _ = _
              rw [show (t.val - 1) % 2 * 1024 + 1024 = t.val % 2 * 1024 from by omega])
      by_cases h1 : t.val % 2 = 1
      · rw [outsAt2_C V c t h0 h1]
        dsimp only
        refine (congrFun (sout2_C_eq (F := Ideal) c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2) (ix2 p q)).trans ?_
        exact stepAt2 V c t _ p q P Q hP hQ hprev
      · exfalso; omega

/-- The masked linear layer of the region's four input arrays: what the first output array ends holding. -/
abbrev G2 (c : Dev nD) : Cert.Mlp.Arr ⟨2, ![4096, 1024]⟩ :=
  Cert.Mlp.linR (B := 4096) (N := 1024) (K := 2048) (V c main_v3_1) (V c main_arg7) (V c main_arg9) (V c main_v4)

/-- At a storing point, the updated accumulator's entry plus the bias row's is the layer's entry there. -/
theorem point2 (c : Dev nD) (t : Fin cfg2.N) (h1 : t.val % 2 = 1) (p q : Fin 512) (P : Fin 4096) (Q : Fin 1024)
    (hP : P.val = t.val / 4 * 512 + p.val) (hQ : Q.val = t.val / 2 % 2 * 512 + q.val) :
    k2_pay2 (F := Ideal) (iblk2 V c 0 t) (iblk2 V c 1 t) (iblk2 V c 2 t) (outsAt2 V c (t.val - 1) (Nat.lt_of_le_of_lt (Nat.sub_le _ _) t.isLt)).2.2 (ix2 p q)
        + iblk2 V c 3 t (ix2 (0 : Fin 1) q)
      = G2 V c (ix2 P Q) := by
  have ht := lt_2 t
  have hprev : (outsAt2 V c (t.val - 1) (Nat.lt_of_le_of_lt (Nat.sub_le _ _) t.isLt)).2.2 (ix2 p q) = ∑ l ∈ Finset.range (t.val % 2 * 1024), term2 (V c main_v3_1) (V c main_arg7) (V c main_arg9) P Q l :=
    (acc2_aux V c (t.val - 1) ⟨t.val - 1, Nat.lt_of_le_of_lt (Nat.sub_le _ _) t.isLt⟩ rfl p q P Q
      (by show P.val = (t.val - 1) / 4 * 512 + p.val; omega) (by show Q.val = (t.val - 1) / 2 % 2 * 512 + q.val; omega)).trans
      (by show ∑ l ∈ Finset.range ((t.val - 1) % 2 * 1024 + 1024), _ = _
          rw [show (t.val - 1) % 2 * 1024 + 1024 = t.val % 2 * 1024 from by omega])
  have hs := stepAt2 V c t _ p q P Q hP hQ hprev
  rw [show t.val % 2 * 1024 + 1024 = 2048 from by omega, term2_sum] at hs
  have e3 : iblk2 V c 3 t (ix2 (0 : Fin 1) q) = _ := blk_read_2_3 (F := Ideal) (V c main_v4) t (0 : Fin 1) q
  rw [hs, e3]
  obtain ⟨Pv, hPv⟩ := P
  obtain ⟨Qv, hQv⟩ := Q
  dsimp only at hP hQ
  subst hP hQ
  rfl

theorem flushed2_4 (c : Dev nD) (t : Fin cfg2.N) (hf : (cfg2.win 4).flush t = true) :
    (dat2 V c).flushed 4 t = ((cfg2.win 4).blk t).view.read (Elt Ideal) (G2 V c) := by
  have h1 : t.val % 2 = 1 := (flush2_4 t).mp hf
  have h0 : ¬t.val % 2 = 0 := by omega
  have ht := lt_2 t
  show (cfg2.win 4).cut (grid2.coords t) ((dat2 V c).after 4 t) = _
  rw [after2_4, outsAt2_C V c t h0 h1]
  dsimp only
  funext y
  obtain ⟨p, q, rfl⟩ : ∃ (p : Fin 512) (q : Fin 512), y = ix2 p q := ⟨y 0, y 1, eq_ix2 y⟩
  refine (congrFun (out2_C_4_eq (F := Ideal) c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2) (ix2 p q)).trans ?_
  refine (pay3_2 _ _ p q).trans ?_
  rw [blk_read_2_4 (F := Ideal) (G2 V c) t p q]
  exact point2 V c t h1 p q _ _ rfl rfl

theorem flushed2_5 (c : Dev nD) (t : Fin cfg2.N) (hf : (cfg2.win 5).flush t = true) :
    (dat2 V c).flushed 5 t = ((cfg2.win 5).blk t).view.read (Elt Ideal) (Cert.Mlp.pos (G2 V c)) := by
  have h1 : t.val % 2 = 1 := (flush2_5 t).mp hf
  have h0 : ¬t.val % 2 = 0 := by omega
  have ht := lt_2 t
  show (cfg2.win 5).cut (grid2.coords t) ((dat2 V c).after 5 t) = _
  rw [after2_5, outsAt2_C V c t h0 h1]
  dsimp only
  funext y
  obtain ⟨p, q, rfl⟩ : ∃ (p : Fin 512) (q : Fin 512), y = ix2 p q := ⟨y 0, y 1, eq_ix2 y⟩
  refine (congrFun (out2_C_5_eq (F := Ideal) c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2) (ix2 p q)).trans ?_
  refine (pay4_2 _ _ p q).trans ?_
  rw [blk_read_2_5 (F := Ideal) (Cert.Mlp.pos (G2 V c)) t p q]
  exact congrArg (fun z : EReal => max z 0) (point2 V c t h1 p q _ _ rfl rfl)

/-- The first output array ends at the masked linear layer of the region's input arrays, -/
theorem final2_pre (c : Dev nD) : (dat2 V c).arrAt 4 cfg2.N = Cert.Mlp.linR (B := 4096) (N := 1024) (K := 2048) (V c main_v3_1) (V c main_arg7) (V c main_arg9) (V c main_v4) :=
  (dat2 V c).arrAt_eq_of_cover 4 (G2 V c) (flushed2_4 V c) (cover_2_4)
/-- and the second at its positive part. -/
theorem final2_post (c : Dev nD) : (dat2 V c).arrAt 5 cfg2.N = Cert.Mlp.pos (Cert.Mlp.linR (B := 4096) (N := 1024) (K := 2048) (V c main_v3_1) (V c main_arg7) (V c main_arg9) (V c main_v4)) :=
  (dat2 V c).arrAt_eq_of_cover 5 (Cert.Mlp.pos (G2 V c)) (flushed2_5 V c) (cover_2_5)

end Cert.KernelIdeal.Hand

end
-- ==== Proof.Pay3.lean ====
/- The stored values of layer kernel 3, each read at one index of its block, on the extended reals
   (F := Ideal): the zero block, the accumulation step (accumulator plus the row-by-row contraction of
   the activations with the masked weights), the bias addition, and the rectified output. -/
import proofs.«152868_j57621281243253_2_alg».proof.Proof.Gen.KernelIdeal.Skeleton
import Idealize.ShloMosaic.Lib.ValueLayout
import Idealize.ShloMosaic.Lib.ValueIdx
import Idealize.ShloMosaic.PureOps.Ideal.Laws

noncomputable section

namespace Cert.KernelIdeal.Pay

open Idealize.ShloMosaic Idealize.SL.Sem Idealize.ShloMosaic.ValueIdx Cert.KernelIdeal Cert.KernelIdeal.Gen
open scoped BigOperators

/-- The zero block: every entry is the extended real 0. -/
theorem pay1_3 (p : Fin 512) (q : Fin 512) : k3_pay1 (F := Ideal) (ix2 p q) = 0 := by
  unfold k3_pay1
  rw [shapeCast_self]
  exact Ideal.ofBits_zero_f32

/-- Left operand index of the contraction: the kept (row) coordinate is the output's row. -/
theorem lhs_3_0 (i : S512x512.Idx) (c : dot_S512x1024_S512x1024_S512x512_1_1_0_0_n_n.contr.Idx) :
    (dot_S512x1024_S512x1024_S512x512_1_1_0_0_n_n.lhsIdx i c 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
/-- Left operand index: the contracted (column) coordinate is the contraction position. -/
theorem lhs_3_1 (i : S512x512.Idx) (c : dot_S512x1024_S512x1024_S512x512_1_1_0_0_n_n.contr.Idx) :
    (dot_S512x1024_S512x1024_S512x512_1_1_0_0_n_n.lhsIdx i c 1).val = (c ⟨0, by decide⟩).val :=
  dot_S512x1024_S512x1024_S512x512_1_1_0_0_n_n.lhsIdx_val_of_single rfl i c
/-- Right operand index: the kept (row) coordinate is the output's column. -/
theorem rhs_3_0 (i : S512x512.Idx) (c : dot_S512x1024_S512x1024_S512x512_1_1_0_0_n_n.contr.Idx) :
    (dot_S512x1024_S512x1024_S512x512_1_1_0_0_n_n.rhsIdx i c 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
/-- Right operand index: the contracted (column) coordinate is the contraction position. -/
theorem rhs_3_1 (i : S512x512.Idx) (c : dot_S512x1024_S512x1024_S512x512_1_1_0_0_n_n.contr.Idx) :
    (dot_S512x1024_S512x1024_S512x512_1_1_0_0_n_n.rhsIdx i c 1).val = (c ⟨0, by decide⟩).val :=
  dot_S512x1024_S512x1024_S512x512_1_1_0_0_n_n.rhsIdx_val_of_single rfl i c

/-- The contraction into the zero accumulator, read at (p, q): both operands are contracted along
    their columns, so the entry is the sum over k of a(p, k) · b(q, k). -/
theorem matmul_3 {φ₁ φ₂ : FTy} (a : FVec Ideal S512x1024 φ₁) (b : FVec Ideal S512x1024 φ₂) (p : Fin 512) (q : Fin 512) :
    matmul dot_S512x1024_S512x1024_S512x512_1_1_0_0_n_n none a b (constant (F := Ideal) S512x512 .f32 0x00000000#32) (ix2 p q)
      = ∑ k : Fin 1024, a (ix2 p k) * b (ix2 q k) := by
  simp only [matmul]
  rw [Ideal.matmul_constant_zero_apply, ← Equiv.sum_comp (ValueIdx.contrEquiv1 dot_S512x1024_S512x1024_S512x512_1_1_0_0_n_n 1024 rfl rfl).symm]
  refine Finset.sum_congr rfl fun k _ => ?_
  have hk := ValueIdx.contrEquiv1_symm_val dot_S512x1024_S512x1024_S512x512_1_1_0_0_n_n 1024 rfl rfl k
  have el : dot_S512x1024_S512x1024_S512x512_1_1_0_0_n_n.lhsIdx (ix2 p q) ((ValueIdx.contrEquiv1 dot_S512x1024_S512x1024_S512x512_1_1_0_0_n_n 1024 rfl rfl).symm k) = ix2 p k := funext fun x => Fin.ext (by
    match x with
    | ⟨0, _⟩ => exact lhs_3_0 _ _
    | ⟨1, _⟩ => exact (lhs_3_1 _ _).trans hk)
  have er : dot_S512x1024_S512x1024_S512x512_1_1_0_0_n_n.rhsIdx (ix2 p q) ((ValueIdx.contrEquiv1 dot_S512x1024_S512x1024_S512x512_1_1_0_0_n_n 1024 rfl rfl).symm k) = ix2 q k := funext fun x => Fin.ext (by
    match x with
    | ⟨0, _⟩ => exact rhs_3_0 _ _
    | ⟨1, _⟩ => exact (rhs_3_1 _ _).trans hk)
  rw [el, er]

/-- The accumulation step: the accumulator plus the contraction of the activations' row p with the
    masked weights' row q (weight times mask, entry by entry). -/
theorem pay2_3 (v3 : Vec Ideal S512x1024 .bf16) (v5 : Vec Ideal S512x1024 .f32) (v6 : Vec Ideal S512x1024 .f32) (v9 : Vec Ideal S512x512 .f32)
    (p : Fin 512) (q : Fin 512) :
    k3_pay2 (F := Ideal) v3 v5 v6 v9 (ix2 p q)
      = v9 (ix2 p q) + ∑ k : Fin 1024, v3 (ix2 p k) * (v5 (ix2 q k) * v6 (ix2 q k)) := by
  unfold k3_pay2
  rw [shapeCast_self, shapeCast_self, addf_apply]
  exact congrArg (v9 (ix2 p q) + ·) (matmul_3 _ _ p q)

/-- The bias addition: the one bias row is repeated along the rows. -/
theorem pay3_3 (v18 : Vec Ideal S512x512 .f32) (v19 : Vec Ideal S1x512 .f32) (p : Fin 512) (q : Fin 512) :
    k3_pay3 (F := Ideal) v18 v19 (ix2 p q) = v18 (ix2 p q) + v19 (ix2 (0 : Fin 1) q) := by
  unfold k3_pay3
  rw [shapeCast_self, addf_apply]
  exact congrArg (v18 (ix2 p q) + ·) (broadcastTo_1b_ab_apply v19 _ p q)

/-- The rectified output: the larger of the biased value and 0. -/
theorem pay4_3 (v18 : Vec Ideal S512x512 .f32) (v19 : Vec Ideal S1x512 .f32) (p : Fin 512) (q : Fin 512) :
    k3_pay4 (F := Ideal) v18 v19 (ix2 p q) = max (v18 (ix2 p q) + v19 (ix2 (0 : Fin 1) q)) 0 := by
  unfold k3_pay4
  rw [truncf_apply, maximumf_apply, pay3_3]
  exact congrArg (max (v18 (ix2 p q) + v19 (ix2 (0 : Fin 1) q))) Ideal.ofBits_zero_f32

end Cert.KernelIdeal.Pay
-- ==== Proof.Blk3.lean ====
/- The blocks of region 3's six windows, read at an index: an entry (a, b) of the block at grid point t
   is the array's entry at (block row index × block rows + a, block column index × block columns + b);
   and every index of the two result arrays lies in the block of a point that writes it back. -/
import proofs.«152868_j57621281243253_2_alg».proof.Proof.Gen.KernelIdeal.Points
import proofs.«152868_j57621281243253_2_alg».proof.Proof.Gen.KernelIdeal.Launch
import Idealize.ShloMosaic.Lib.Pipeline.Value
import Idealize.ShloMosaic.Lib.ValueIdx

noncomputable section

namespace Cert.KernelIdeal.Blk

open Idealize.ShloMosaic Idealize.ShloMosaic.TcCoe Idealize.SL Idealize.SL.Sem Cert.KernelIdeal Cert.KernelIdeal.Gen

variable {F : FTy → Type} [FloatOps F]

/-- The grid has 8 points. -/
theorem lt_3 (t : Fin cfg3.N) : t.val < 8 := by
  have h : t.val < grid3.N := t.isLt
  rw [N_3] at h; exact h

/-- The printed index maps, decided over the grid: each window's block index on each axis, in terms of
    the point's position (the last grid coordinate runs fastest). -/
theorem idx_3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

/-- Window 0's block at point t, read at (a, b). -/
theorem blk_read_3_0 (A : (⟨S4096x1024, .bf16⟩ : BufTy).Contents (Elt F)) (t : Fin cfg3.N) (a : Fin 512) (b : Fin 1024) :
    ((cfg3.win 0).blk t).view.read (Elt F) A (ValueIdx.ix2 a b)
      = A (ValueIdx.ix2 (⟨t.val * 512 + a.val, by have := lt_3 t; omega⟩ : Fin 4096) b) := by
  obtain ⟨e00, e01, e10, e11, e20, e21, e30, e31, e40, e41, e50, e51⟩ := idx_3 t
  rw [View.read_apply]
  show A _ = A _
  congr 1
  funext x
  apply Fin.ext
  match x with
  | ⟨0, _⟩ => show win3_0.index t (0 : Fin 2) * 512 + 1 * a.val = t.val * 512 + a.val; rw [e00]; omega
  | ⟨1, _⟩ => show win3_0.index t (1 : Fin 2) * 1024 + 1 * b.val = b.val; rw [e01]; omega

/-- Window 1's block at point t, read at (a, b). -/
theorem blk_read_3_1 (A : (⟨S512x1024, .f32⟩ : BufTy).Contents (Elt F)) (t : Fin cfg3.N) (a : Fin 512) (b : Fin 1024) :
    ((cfg3.win 1).blk t).view.read (Elt F) A (ValueIdx.ix2 a b)
      = A (ValueIdx.ix2 a b) := by
  obtain ⟨e00, e01, e10, e11, e20, e21, e30, e31, e40, e41, e50, e51⟩ := idx_3 t
  rw [View.read_apply]
  show A _ = A _
  congr 1
  funext x
  apply Fin.ext
  match x with
  | ⟨0, _⟩ => show win3_1.index t (0 : Fin 2) * 512 + 1 * a.val = a.val; rw [e10]; omega
  | ⟨1, _⟩ => show win3_1.index t (1 : Fin 2) * 1024 + 1 * b.val = b.val; rw [e11]; omega

/-- Window 2's block at point t, read at (a, b). -/
theorem blk_read_3_2 (A : (⟨S512x1024, .f32⟩ : BufTy).Contents (Elt F)) (t : Fin cfg3.N) (a : Fin 512) (b : Fin 1024) :
    ((cfg3.win 2).blk t).view.read (Elt F) A (ValueIdx.ix2 a b)
      = A (ValueIdx.ix2 a b) := by
  obtain ⟨e00, e01, e10, e11, e20, e21, e30, e31, e40, e41, e50, e51⟩ := idx_3 t
  rw [View.read_apply]
  show A _ = A _
  congr 1
  funext x
  apply Fin.ext
  match x with
  | ⟨0, _⟩ => show win3_2.index t (0 : Fin 2) * 512 + 1 * a.val = a.val; rw [e20]; omega
  | ⟨1, _⟩ => show win3_2.index t (1 : Fin 2) * 1024 + 1 * b.val = b.val; rw [e21]; omega

/-- Window 3's block at point t, read at (a, b). -/
theorem blk_read_3_3 (A : (⟨S1x512, .f32⟩ : BufTy).Contents (Elt F)) (t : Fin cfg3.N) (a : Fin 1) (b : Fin 512) :
    ((cfg3.win 3).blk t).view.read (Elt F) A (ValueIdx.ix2 a b)
      = A (ValueIdx.ix2 a b) := by
  obtain ⟨e00, e01, e10, e11, e20, e21, e30, e31, e40, e41, e50, e51⟩ := idx_3 t
  rw [View.read_apply]
  show A _ = A _
  congr 1
  funext x
  apply Fin.ext
  match x with
  | ⟨0, _⟩ => show win3_3.index t (0 : Fin 2) * 1 + 1 * a.val = a.val; rw [e30]; omega
  | ⟨1, _⟩ => show win3_3.index t (1 : Fin 2) * 512 + 1 * b.val = b.val; rw [e31]; omega

/-- Window 4's block at point t, read at (a, b). -/
theorem blk_read_3_4 (A : (⟨S4096x512, .f32⟩ : BufTy).Contents (Elt F)) (t : Fin cfg3.N) (a : Fin 512) (b : Fin 512) :
    ((cfg3.win 4).blk t).view.read (Elt F) A (ValueIdx.ix2 a b)
      = A (ValueIdx.ix2 (⟨t.val * 512 + a.val, by have := lt_3 t; omega⟩ : Fin 4096) b) := by
  obtain ⟨e00, e01, e10, e11, e20, e21, e30, e31, e40, e41, e50, e51⟩ := idx_3 t
  rw [View.read_apply]
  show A _ = A _
  congr 1
  funext x
  apply Fin.ext
  match x with
  | ⟨0, _⟩ => show win3_4.index t (0 : Fin 2) * 512 + 1 * a.val = t.val * 512 + a.val; rw [e40]; omega
  | ⟨1, _⟩ => show win3_4.index t (1 : Fin 2) * 512 + 1 * b.val = b.val; rw [e41]; omega

/-- Window 5's block at point t, read at (a, b). -/
theorem blk_read_3_5 (A : (⟨S4096x512, .bf16⟩ : BufTy).Contents (Elt F)) (t : Fin cfg3.N) (a : Fin 512) (b : Fin 512) :
    ((cfg3.win 5).blk t).view.read (Elt F) A (ValueIdx.ix2 a b)
      = A (ValueIdx.ix2 (⟨t.val * 512 + a.val, by have := lt_3 t; omega⟩ : Fin 4096) b) := by
  obtain ⟨e00, e01, e10, e11, e20, e21, e30, e31, e40, e41, e50, e51⟩ := idx_3 t
  rw [View.read_apply]
  show A _ = A _
  congr 1
  funext x
  apply Fin.ext
  match x with
  | ⟨0, _⟩ => show win3_5.index t (0 : Fin 2) * 512 + 1 * a.val = t.val * 512 + a.val; rw [e50]; omega
  | ⟨1, _⟩ => show win3_5.index t (1 : Fin 2) * 512 + 1 * b.val = b.val; rw [e51]; omega

/-- Every index of result array 0 lies in the block of a point that writes it back: the point of its
    block row and block column at the last step of the contraction axis. -/
theorem cover_3_4 (i : S4096x512.Idx) :
    ∃ t : Fin cfg3.N, (cfg3.win 4).flush t = true ∧ i ∈ ((cfg3.win 4).blk t).view.set := by
  have hi0 : (i 0).val < 4096 := (i 0).isLt
  have hi1 : (i 1).val < 512 := (i 1).isLt
  obtain ⟨t, ht⟩ : ∃ t : Fin cfg3.N, t.val = ((i 0).val / 512 * 1 + (i 1).val / 512) * 1 + 0 :=
    ⟨⟨((i 0).val / 512 * 1 + (i 1).val / 512) * 1 + 0, by show _ < grid3.N; rw [N_3]; omega⟩, rfl⟩
  obtain ⟨e00, e01, e10, e11, e20, e21, e30, e31, e40, e41, e50, e51⟩ := idx_3 t
  refine ⟨t, flush3_4 t, ?_⟩
  show i ∈ ((View.whole main_v7_0).slice (win3_4.rect t)).set
  rw [View.set_slice_whole, Rect.mem_set_unit]
  intro x
  match x with
  | ⟨0, _⟩ => show win3_4.index t (0 : Fin 2) * 512 ≤ (i 0).val ∧ (i 0).val < win3_4.index t (0 : Fin 2) * 512 + 512; rw [e40]; omega
  | ⟨1, _⟩ => show win3_4.index t (1 : Fin 2) * 512 ≤ (i 1).val ∧ (i 1).val < win3_4.index t (1 : Fin 2) * 512 + 512; rw [e41]; omega

/-- Every index of result array 1 lies in the block of a point that writes it back: the point of its
    block row and block column at the last step of the contraction axis. -/
theorem cover_3_5 (i : S4096x512.Idx) :
    ∃ t : Fin cfg3.N, (cfg3.win 5).flush t = true ∧ i ∈ ((cfg3.win 5).blk t).view.set := by
  have hi0 : (i 0).val < 4096 := (i 0).isLt
  have hi1 : (i 1).val < 512 := (i 1).isLt
  obtain ⟨t, ht⟩ : ∃ t : Fin cfg3.N, t.val = ((i 0).val / 512 * 1 + (i 1).val / 512) * 1 + 0 :=
    ⟨⟨((i 0).val / 512 * 1 + (i 1).val / 512) * 1 + 0, by show _ < grid3.N; rw [N_3]; omega⟩, rfl⟩
  obtain ⟨e00, e01, e10, e11, e20, e21, e30, e31, e40, e41, e50, e51⟩ := idx_3 t
  refine ⟨t, flush3_5 t, ?_⟩
  show i ∈ ((View.whole main_v7_1).slice (win3_5.rect t)).set
  rw [View.set_slice_whole, Rect.mem_set_unit]
  intro x
  match x with
  | ⟨0, _⟩ => show win3_5.index t (0 : Fin 2) * 512 ≤ (i 0).val ∧ (i 0).val < win3_5.index t (0 : Fin 2) * 512 + 512; rw [e50]; omega
  | ⟨1, _⟩ => show win3_5.index t (1 : Fin 2) * 512 ≤ (i 1).val ∧ (i 1).val < win3_5.index t (1 : Fin 2) * 512 + 512; rw [e51]; omega

end Cert.KernelIdeal.Blk
-- ==== Proof.KernelIdeal.Val3.lean ====
import proofs.«152868_j57621281243253_2_alg».proof.Proof.KernelIdeal.Rgn3
import proofs.«152868_j57621281243253_2_alg».proof.Proof.Pay3
import proofs.«152868_j57621281243253_2_alg».proof.Proof.Blk3
import proofs.«152868_j57621281243253_2_alg».proof.Proof.LibStoreThenLoad
import proofs.«152868_j57621281243253_2_alg».proof.Proof.SpecRow
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.KernelIdeal.Pay Cert.KernelIdeal.Blk

/-! Region 3's values. Every grid point resets the accumulator, adds the point's product and stores: the first output's
    block is the product of the activations' row block with the masked weight's rows plus the bias row, the second its positive part. So the
    two output arrays end at the masked linear layer of the region's input arrays and at its positive part. -/

theorem hz2_3 : (![0, 0] : Fin 2 → Nat) = fun _ => 0 := funext fun a => by fin_cases a <;> rfl

/-- What the one case leaves in the first output's buffer: the bias added to the accumulator, itself the zero block plus
    the point's product. -/
theorem out3_D_4_eq (c : Dev nD) (i : grid3.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : cond3_0 i) (hc1 : cond3_1 i)
    (x0 : Vec F S512x1024 .bf16) (x1 : Vec F S512x1024 .f32) (x2 : Vec F S512x1024 .f32) (x3 : Vec F S1x512 .f32) :
    out3_D_4 c i arg3 harg3 arg4 harg4 arg5 harg5 arg6 harg6 arg7 harg7 arg8 harg8 arg9 harg9 hc0 hc1 x0 x1 x2 x3 = k3_pay3 (k3_pay2 x0 x1 x2 (k3_pay1 (F := F))) x3 := by
  unfold out3_D_4
  rw [View.read_writes_eq_canon _ _ _ (cover3_D_4 c i arg3 harg3 arg4 harg4 arg5 harg5 arg6 harg6 arg7 harg7 arg8 harg8 arg9 harg9 hc0 hc1 x0 x1 x2 x3)]
  unfold kernelRun3_D
  dsimp only
  sl_unfold_words
  rw [View.canon_unit_zero hz2_3]
  rw [Cert.StoreThenLoad.readCov_cons_unit_zero _ hz2_3, View.readCov_unit_zero (S := S512x512) _ hz2_3]
  simp only [View.readAt_eq_ld, harg3.read_unread, harg4.read_unread, harg5.read_unread, harg6.read_unread,
    View.ld_unit_zero (S := S512x1024) hz2_3, View.ld_unit_zero (S := S512x1024) hz2_3, View.ld_unit_zero (S := S1x512) hz2_3]

/-- The same for the second output. -/
theorem out3_D_5_eq (c : Dev nD) (i : grid3.Coords) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (hc0 : cond3_0 i) (hc1 : cond3_1 i)
    (x0 : Vec F S512x1024 .bf16) (x1 : Vec F S512x1024 .f32) (x2 : Vec F S512x1024 .f32) (x3 : Vec F S1x512 .f32) :
    out3_D_5 c i arg3 harg3 arg4 harg4 arg5 harg5 arg6 harg6 arg7 harg7 arg8 harg8 arg9 harg9 hc0 hc1 x0 x1 x2 x3 = k3_pay4 (k3_pay2 x0 x1 x2 (k3_pay1 (F := F))) x3 := by
  unfold out3_D_5
  rw [View.read_writes_eq_canon _ _ _ (cover3_D_5 c i arg3 harg3 arg4 harg4 arg5 harg5 arg6 harg6 arg7 harg7 arg8 harg8 arg9 harg9 hc0 hc1 x0 x1 x2 x3)]
  unfold kernelRun3_D
  dsimp only
  sl_unfold_words
  rw [View.canon_unit_zero hz2_3]
  rw [Cert.StoreThenLoad.readCov_cons_unit_zero _ hz2_3, View.readCov_unit_zero (S := S512x512) _ hz2_3]
  simp only [View.readAt_eq_ld, harg3.read_unread, harg4.read_unread, harg5.read_unread, harg6.read_unread,
    View.ld_unit_zero (S := S512x1024) hz2_3, View.ld_unit_zero (S := S512x1024) hz2_3, View.ld_unit_zero (S := S1x512) hz2_3]

/-- One point's first output at an entry, over any blocks: the dot product of row `p` of the activations' block with row
    `q` of the masked weight's block, plus the bias row's entry `q`. -/
theorem point3_pre (x0 : Vec Ideal S512x1024 .bf16) (x1 x2 : Vec Ideal S512x1024 .f32) (x3 : Vec Ideal S1x512 .f32) (p : Fin 512) (q : Fin 512) :
    k3_pay3 (F := Ideal) (k3_pay2 x0 x1 x2 (k3_pay1 (F := Ideal))) x3 (ix2 p q)
      = (∑ k : Fin 1024, x0 (ix2 p k) * (x1 (ix2 q k) * x2 (ix2 q k))) + x3 (ix2 (0 : Fin 1) q) := by
  rw [pay3_3, pay2_3, pay1_3, zero_add]
theorem point3_post (x0 : Vec Ideal S512x1024 .bf16) (x1 x2 : Vec Ideal S512x1024 .f32) (x3 : Vec Ideal S1x512 .f32) (p : Fin 512) (q : Fin 512) :
    k3_pay4 (F := Ideal) (k3_pay2 x0 x1 x2 (k3_pay1 (F := Ideal))) x3 (ix2 p q)
      = max ((∑ k : Fin 1024, x0 (ix2 p k) * (x1 (ix2 q k) * x2 (ix2 q k))) + x3 (ix2 (0 : Fin 1) q)) 0 := by
  rw [pay4_3, pay2_3, pay1_3, zero_add]

variable (V : (c : Dev nD) → (b : Ref sig .tc) → Buf (Elt Ideal) ((c : Thread nD τ).loc b))

/-- The masked linear layer of the region's four input arrays: what the first output array ends holding. -/
abbrev G3 (c : Dev nD) : Cert.Mlp.Arr ⟨2, ![4096, 512]⟩ :=
  Cert.Mlp.linR (B := 4096) (N := 512) (K := 1024) (V c main_v5_1) (V c main_arg10) (V c main_arg12) (V c main_v6)

theorem flushed3_4 (c : Dev nD) (t : Fin cfg3.N) (hf : (cfg3.win 4).flush t = true) :
    (dat3 V c).flushed 4 t = ((cfg3.win 4).blk t).view.read (Elt Ideal) (G3 V c) := by
  show (cfg3.win 4).cut (grid3.coords t) ((dat3 V c).after 4 t) = _
  rw [after3_4]
  funext y
  obtain ⟨p, q, rfl⟩ : ∃ (p : Fin 512) (q : Fin 512), y = ix2 p q := ⟨y 0, y 1, eq_ix2 y⟩
  refine (congrFun (out3_D_4_eq (F := Ideal) c (grid3.coords t) _ _ _ _ _ _ _ _ _ _ _ _ _ _ (hcond3_0 t) (hcond3_1 t) (iblk3 V c 0 t) (iblk3 V c 1 t) (iblk3 V c 2 t) (iblk3 V c 3 t)) (ix2 p q)).trans ?_
  refine (point3_pre (iblk3 V c 0 t) (iblk3 V c 1 t) (iblk3 V c 2 t) (iblk3 V c 3 t) p q).trans ?_
  rw [blk_read_3_4 (F := Ideal) (G3 V c) t p q]
  have e0 : ∀ k : Fin 1024, iblk3 V c 0 t (ix2 p k) = _ := fun k => blk_read_3_0 (F := Ideal) (V c main_v5_1) t p k
  have e1 : ∀ k : Fin 1024, iblk3 V c 1 t (ix2 q k) = _ := fun k => blk_read_3_1 (F := Ideal) (V c main_arg10) t q k
  have e2 : ∀ k : Fin 1024, iblk3 V c 2 t (ix2 q k) = _ := fun k => blk_read_3_2 (F := Ideal) (V c main_arg12) t q k
  have e3 : iblk3 V c 3 t (ix2 (0 : Fin 1) q) = _ := blk_read_3_3 (F := Ideal) (V c main_v6) t (0 : Fin 1) q
  simp only [e0, e1, e2, e3]
  rfl

theorem flushed3_5 (c : Dev nD) (t : Fin cfg3.N) (hf : (cfg3.win 5).flush t = true) :
    (dat3 V c).flushed 5 t = ((cfg3.win 5).blk t).view.read (Elt Ideal) (Cert.Mlp.pos (G3 V c)) := by
  show (cfg3.win 5).cut (grid3.coords t) ((dat3 V c).after 5 t) = _
  rw [after3_5]
  funext y
  obtain ⟨p, q, rfl⟩ : ∃ (p : Fin 512) (q : Fin 512), y = ix2 p q := ⟨y 0, y 1, eq_ix2 y⟩
  refine (congrFun (out3_D_5_eq (F := Ideal) c (grid3.coords t) _ _ _ _ _ _ _ _ _ _ _ _ _ _ (hcond3_0 t) (hcond3_1 t) (iblk3 V c 0 t) (iblk3 V c 1 t) (iblk3 V c 2 t) (iblk3 V c 3 t)) (ix2 p q)).trans ?_
  refine (point3_post (iblk3 V c 0 t) (iblk3 V c 1 t) (iblk3 V c 2 t) (iblk3 V c 3 t) p q).trans ?_
  rw [blk_read_3_5 (F := Ideal) (Cert.Mlp.pos (G3 V c)) t p q]
  have e0 : ∀ k : Fin 1024, iblk3 V c 0 t (ix2 p k) = _ := fun k => blk_read_3_0 (F := Ideal) (V c main_v5_1) t p k
  have e1 : ∀ k : Fin 1024, iblk3 V c 1 t (ix2 q k) = _ := fun k => blk_read_3_1 (F := Ideal) (V c main_arg10) t q k
  have e2 : ∀ k : Fin 1024, iblk3 V c 2 t (ix2 q k) = _ := fun k => blk_read_3_2 (F := Ideal) (V c main_arg12) t q k
  have e3 : iblk3 V c 3 t (ix2 (0 : Fin 1) q) = _ := blk_read_3_3 (F := Ideal) (V c main_v6) t (0 : Fin 1) q
  simp only [e0, e1, e2, e3]
  rfl

/-- The first output array ends at the masked linear layer of the region's input arrays, -/
theorem final3_pre (c : Dev nD) : (dat3 V c).arrAt 4 cfg3.N = G3 V c :=
  (dat3 V c).arrAt_eq_of_cover 4 (G3 V c) (flushed3_4 V c) (cover_3_4)
/-- and the second at its positive part. -/
theorem final3_post (c : Dev nD) : (dat3 V c).arrAt 5 cfg3.N = Cert.Mlp.pos (G3 V c) :=
  (dat3 V c).arrAt_eq_of_cover 5 (Cert.Mlp.pos (G3 V c)) (flushed3_5 V c) (cover_3_5)

end Cert.KernelIdeal.Hand

end
-- ==== Proof.Pay4.lean ====
/- The stored values of layer kernel 4, each read at one index of its block, on the extended reals
   (F := Ideal): the zero block, the accumulation step (accumulator plus the row-by-row contraction of
   the activations with the masked weights), the bias addition, and the rectified output. -/
import proofs.«152868_j57621281243253_2_alg».proof.Proof.Gen.KernelIdeal.Skeleton
import Idealize.ShloMosaic.Lib.ValueLayout
import Idealize.ShloMosaic.Lib.ValueIdx
import Idealize.ShloMosaic.PureOps.Ideal.Laws

noncomputable section

namespace Cert.KernelIdeal.Pay

open Idealize.ShloMosaic Idealize.SL.Sem Idealize.ShloMosaic.ValueIdx Cert.KernelIdeal Cert.KernelIdeal.Gen
open scoped BigOperators

/-- The zero block: every entry is the extended real 0. -/
theorem pay1_4 (p : Fin 512) (q : Fin 256) : k4_pay1 (F := Ideal) (ix2 p q) = 0 := by
  unfold k4_pay1
  rw [shapeCast_self]
  exact Ideal.ofBits_zero_f32

/-- Left operand index of the contraction: the kept (row) coordinate is the output's row. -/
theorem lhs_4_0 (i : S512x256.Idx) (c : dot_S512x512_S256x512_S512x256_1_1_0_0_n_n.contr.Idx) :
    (dot_S512x512_S256x512_S512x256_1_1_0_0_n_n.lhsIdx i c 0).val = (i 0).val := by
  unfold DotDims.lhsIdx
  rw [dif_neg (show ¬(0 : Fin S512x512.rank) ∈ dot_S512x512_S256x512_S512x256_1_1_0_0_n_n.lhsBatch by decide), dif_pos (show (0 : Fin S512x512.rank) ∈ dot_S512x512_S256x512_S512x256_1_1_0_0_n_n.lhsNonContracting by decide)]
  rfl
/-- Left operand index: the contracted (column) coordinate is the contraction position. -/
theorem lhs_4_1 (i : S512x256.Idx) (c : dot_S512x512_S256x512_S512x256_1_1_0_0_n_n.contr.Idx) :
    (dot_S512x512_S256x512_S512x256_1_1_0_0_n_n.lhsIdx i c 1).val = (c ⟨0, by decide⟩).val :=
  dot_S512x512_S256x512_S512x256_1_1_0_0_n_n.lhsIdx_val_of_single rfl i c
/-- Right operand index: the kept (row) coordinate is the output's column. -/
theorem rhs_4_0 (i : S512x256.Idx) (c : dot_S512x512_S256x512_S512x256_1_1_0_0_n_n.contr.Idx) :
    (dot_S512x512_S256x512_S512x256_1_1_0_0_n_n.rhsIdx i c 0).val = (i 1).val := by
  unfold DotDims.rhsIdx
  rw [dif_neg (show ¬(0 : Fin S256x512.rank) ∈ dot_S512x512_S256x512_S512x256_1_1_0_0_n_n.rhsBatch by decide), dif_pos (show (0 : Fin S256x512.rank) ∈ dot_S512x512_S256x512_S512x256_1_1_0_0_n_n.rhsNonContracting by decide)]
  rfl
/-- Right operand index: the contracted (column) coordinate is the contraction position. -/
theorem rhs_4_1 (i : S512x256.Idx) (c : dot_S512x512_S256x512_S512x256_1_1_0_0_n_n.contr.Idx) :
    (dot_S512x512_S256x512_S512x256_1_1_0_0_n_n.rhsIdx i c 1).val = (c ⟨0, by decide⟩).val :=
  dot_S512x512_S256x512_S512x256_1_1_0_0_n_n.rhsIdx_val_of_single rfl i c

/-- The contraction into the zero accumulator, read at (p, q): both operands are contracted along
    their columns, so the entry is the sum over k of a(p, k) · b(q, k). -/
theorem matmul_4 {φ₁ φ₂ : FTy} (a : FVec Ideal S512x512 φ₁) (b : FVec Ideal S256x512 φ₂) (p : Fin 512) (q : Fin 256) :
    matmul dot_S512x512_S256x512_S512x256_1_1_0_0_n_n none a b (constant (F := Ideal) S512x256 .f32 0x00000000#32) (ix2 p q)
      = ∑ k : Fin 512, a (ix2 p k) * b (ix2 q k) := by
  simp only [matmul]
  rw [Ideal.matmul_constant_zero_apply, ← Equiv.sum_comp (ValueIdx.contrEquiv1 dot_S512x512_S256x512_S512x256_1_1_0_0_n_n 512 rfl rfl).symm]
  refine Finset.sum_congr rfl fun k _ => ?_
  have hk := ValueIdx.contrEquiv1_symm_val dot_S512x512_S256x512_S512x256_1_1_0_0_n_n 512 rfl rfl k
  have el : dot_S512x512_S256x512_S512x256_1_1_0_0_n_n.lhsIdx (ix2 p q) ((ValueIdx.contrEquiv1 dot_S512x512_S256x512_S512x256_1_1_0_0_n_n 512 rfl rfl).symm k) = ix2 p k := funext fun x => Fin.ext (by
    match x with
    | ⟨0, _⟩ => exact lhs_4_0 _ _
    | ⟨1, _⟩ => exact (lhs_4_1 _ _).trans hk)
  have er : dot_S512x512_S256x512_S512x256_1_1_0_0_n_n.rhsIdx (ix2 p q) ((ValueIdx.contrEquiv1 dot_S512x512_S256x512_S512x256_1_1_0_0_n_n 512 rfl rfl).symm k) = ix2 q k := funext fun x => Fin.ext (by
    match x with
    | ⟨0, _⟩ => exact rhs_4_0 _ _
    | ⟨1, _⟩ => exact (rhs_4_1 _ _).trans hk)
  rw [el, er]

/-- The accumulation step: the accumulator plus the contraction of the activations' row p with the
    masked weights' row q (weight times mask, entry by entry). -/
theorem pay2_4 (v3 : Vec Ideal S512x512 .bf16) (v5 : Vec Ideal S256x512 .f32) (v6 : Vec Ideal S256x512 .f32) (v9 : Vec Ideal S512x256 .f32)
    (p : Fin 512) (q : Fin 256) :
    k4_pay2 (F := Ideal) v3 v5 v6 v9 (ix2 p q)
      = v9 (ix2 p q) + ∑ k : Fin 512, v3 (ix2 p k) * (v5 (ix2 q k) * v6 (ix2 q k)) := by
  unfold k4_pay2
  rw [shapeCast_self, shapeCast_self, addf_apply]
  exact congrArg (v9 (ix2 p q) + ·) (matmul_4 _ _ p q)

/-- The bias addition: the one bias row is repeated along the rows. -/
theorem pay3_4 (v18 : Vec Ideal S512x256 .f32) (v19 : Vec Ideal S1x256 .f32) (p : Fin 512) (q : Fin 256) :
    k4_pay3 (F := Ideal) v18 v19 (ix2 p q) = v18 (ix2 p q) + v19 (ix2 (0 : Fin 1) q) := by
  unfold k4_pay3
  rw [shapeCast_self, addf_apply]
  exact congrArg (v18 (ix2 p q) + ·) (broadcastTo_1b_ab_apply v19 _ p q)

/-- The rectified output: the larger of the biased value and 0. -/
theorem pay4_4 (v18 : Vec Ideal S512x256 .f32) (v19 : Vec Ideal S1x256 .f32) (p : Fin 512) (q : Fin 256) :
    k4_pay4 (F := Ideal) v18 v19 (ix2 p q) = max (v18 (ix2 p q) + v19 (ix2 (0 : Fin 1) q)) 0 := by
  unfold k4_pay4
  rw [truncf_apply, maximumf_apply, pay3_4]
  exact congrArg (max (v18 (ix2 p q) + v19 (ix2 (0 : Fin 1) q))) Ideal.ofBits_zero_f32

end Cert.KernelIdeal.Pay
-- ==== Proof.Blk4.lean ====
/- The blocks of region 4's six windows, read at an index: an entry (a, b) of the block at grid point t
   is the array's entry at (block row index × block rows + a, block column index × block columns + b);
   and every index of the two result arrays lies in the block of a point that writes it back. -/
import proofs.«152868_j57621281243253_2_alg».proof.Proof.Gen.KernelIdeal.Points
import proofs.«152868_j57621281243253_2_alg».proof.Proof.Gen.KernelIdeal.Launch
import Idealize.ShloMosaic.Lib.Pipeline.Value
import Idealize.ShloMosaic.Lib.ValueIdx

noncomputable section

namespace Cert.KernelIdeal.Blk

open Idealize.ShloMosaic Idealize.ShloMosaic.TcCoe Idealize.SL Idealize.SL.Sem Cert.KernelIdeal Cert.KernelIdeal.Gen

variable {F : FTy → Type} [FloatOps F]

/-- The grid has 8 points. -/
theorem lt_4 (t : Fin cfg4.N) : t.val < 8 := by
  have h : t.val < grid4.N := t.isLt
  rw [N_4] at h; exact h

/-- The printed index maps, decided over the grid: each window's block index on each axis, in terms of
    the point's position (the last grid coordinate runs fastest). -/
theorem idx_4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

/-- Window 0's block at point t, read at (a, b). -/
theorem blk_read_4_0 (A : (⟨S4096x512, .bf16⟩ : BufTy).Contents (Elt F)) (t : Fin cfg4.N) (a : Fin 512) (b : Fin 512) :
    ((cfg4.win 0).blk t).view.read (Elt F) A (ValueIdx.ix2 a b)
      = A (ValueIdx.ix2 (⟨t.val * 512 + a.val, by have := lt_4 t; omega⟩ : Fin 4096) b) := by
  obtain ⟨e00, e01, e10, e11, e20, e21, e30, e31, e40, e41, e50, e51⟩ := idx_4 t
  rw [View.read_apply]
  show A _ = A _
  congr 1
  funext x
  apply Fin.ext
  match x with
  | ⟨0, _⟩ => show win4_0.index t (0 : Fin 2) * 512 + 1 * a.val = t.val * 512 + a.val; rw [e00]; omega
  | ⟨1, _⟩ => show win4_0.index t (1 : Fin 2) * 512 + 1 * b.val = b.val; rw [e01]; omega

/-- Window 1's block at point t, read at (a, b). -/
theorem blk_read_4_1 (A : (⟨S256x512, .f32⟩ : BufTy).Contents (Elt F)) (t : Fin cfg4.N) (a : Fin 256) (b : Fin 512) :
    ((cfg4.win 1).blk t).view.read (Elt F) A (ValueIdx.ix2 a b)
      = A (ValueIdx.ix2 a b) := by
  obtain ⟨e00, e01, e10, e11, e20, e21, e30, e31, e40, e41, e50, e51⟩ := idx_4 t
  rw [View.read_apply]
  show A _ = A _
  congr 1
  funext x
  apply Fin.ext
  match x with
  | ⟨0, _⟩ => show win4_1.index t (0 : Fin 2) * 256 + 1 * a.val = a.val; rw [e10]; omega
  | ⟨1, _⟩ => show win4_1.index t (1 : Fin 2) * 512 + 1 * b.val = b.val; rw [e11]; omega

/-- Window 2's block at point t, read at (a, b). -/
theorem blk_read_4_2 (A : (⟨S256x512, .f32⟩ : BufTy).Contents (Elt F)) (t : Fin cfg4.N) (a : Fin 256) (b : Fin 512) :
    ((cfg4.win 2).blk t).view.read (Elt F) A (ValueIdx.ix2 a b)
      = A (ValueIdx.ix2 a b) := by
  obtain ⟨e00, e01, e10, e11, e20, e21, e30, e31, e40, e41, e50, e51⟩ := idx_4 t
  rw [View.read_apply]
  show A _ = A _
  congr 1
  funext x
  apply Fin.ext
  match x with
  | ⟨0, _⟩ => show win4_2.index t (0 : Fin 2) * 256 + 1 * a.val = a.val; rw [e20]; omega
  | ⟨1, _⟩ => show win4_2.index t (1 : Fin 2) * 512 + 1 * b.val = b.val; rw [e21]; omega

/-- Window 3's block at point t, read at (a, b). -/
theorem blk_read_4_3 (A : (⟨S1x256, .f32⟩ : BufTy).Contents (Elt F)) (t : Fin cfg4.N) (a : Fin 1) (b : Fin 256) :
    ((cfg4.win 3).blk t).view.read (Elt F) A (ValueIdx.ix2 a b)
      = A (ValueIdx.ix2 a b) := by
  obtain ⟨e00, e01, e10, e11, e20, e21, e30, e31, e40, e41, e50, e51⟩ := idx_4 t
  rw [View.read_apply]
  show A _ = A _
  congr 1
  funext x
  apply Fin.ext
  match x with
  | ⟨0, _⟩ => show win4_3.index t (0 : Fin 2) * 1 + 1 * a.val = a.val; rw [e30]; omega
  | ⟨1, _⟩ => show win4_3.index t (1 : Fin 2) * 256 + 1 * b.val = b.val; rw [e31]; omega

/-- Window 4's block at point t, read at (a, b). -/
theorem blk_read_4_4 (A : (⟨S4096x256, .f32⟩ : BufTy).Contents (Elt F)) (t : Fin cfg4.N) (a : Fin 512) (b : Fin 256) :
    ((cfg4.win 4).blk t).view.read (Elt F) A (ValueIdx.ix2 a b)
      = A (ValueIdx.ix2 (⟨t.val * 512 + a.val, by have := lt_4 t; omega⟩ : Fin 4096) b) := by
  obtain ⟨e00, e01, e10, e11, e20, e21, e30, e31, e40, e41, e50, e51⟩ := idx_4 t
  rw [View.read_apply]
  show A _ = A _
  congr 1
  funext x
  apply Fin.ext
  match x with
  | ⟨0, _⟩ => show win4_4.index t (0 : Fin 2) * 512 + 1 * a.val = t.val * 512 + a.val; rw [e40]; omega
  | ⟨1, _⟩ => show win4_4.index t (1 : Fin 2) * 256 + 1 * b.val = b.val; rw [e41]; omega

/-- Window 5's block at point t, read at (a, b). -/
theorem blk_read_4_5 (A : (⟨S4096x256, .bf16⟩ : BufTy).Contents (Elt F)) (t : Fin cfg4.N) (a : Fin 512) (b : Fin 256) :
    ((cfg4.win 5).blk t).view.read (Elt F) A (ValueIdx.ix2 a b)
      = A (ValueIdx.ix2 (⟨t.val * 512 + a.val, by have := lt_4 t; omega⟩ : Fin 4096) b) := by
  obtain ⟨e00, e01, e10, e11, e20, e21, e30, e31, e40, e41, e50, e51⟩ := idx_4 t
  rw [View.read_apply]
  show A _ = A _
  congr 1
  funext x
  apply Fin.ext
  match x with
  | ⟨0, _⟩ => show win4_5.index t (0 : Fin 2) * 512 + 1 * a.val = t.val * 512 + a.val; rw [e50]; omega
  | ⟨1, _⟩ => show win4_5.index t (1 : Fin 2) * 256 + 1 * b.val = b.val; rw [e51]; omega

/-- Every index of result array 0 lies in the block of a point that writes it back: the point of its
    block row and block column at the last step of the contraction axis. -/
theorem cover_4_4 (i : S4096x256.Idx) :
    ∃ t : Fin cfg4.N, (cfg4.win 4).flush t = true ∧ i ∈ ((cfg4.win 4).blk t).view.set := by
  have hi0 : (i 0).val < 4096 := (i 0).isLt
  have hi1 : (i 1).val < 256 := (i 1).isLt
  obtain ⟨t, ht⟩ : ∃ t : Fin cfg4.N, t.val = ((i 0).val / 512 * 1 + (i 1).val / 256) * 1 + 0 :=
    ⟨⟨((i 0).val / 512 * 1 + (i 1).val / 256) * 1 + 0, by show _ < grid4.N; rw [N_4]; omega⟩, rfl⟩
  obtain ⟨e00, e01, e10, e11, e20, e21, e30, e31, e40, e41, e50, e51⟩ := idx_4 t
  refine ⟨t, flush4_4 t, ?_⟩
  show i ∈ ((View.whole main_v9_0).slice (win4_4.rect t)).set
  rw [View.set_slice_whole, Rect.mem_set_unit]
  intro x
  match x with
  | ⟨0, _⟩ => show win4_4.index t (0 : Fin 2) * 512 ≤ (i 0).val ∧ (i 0).val < win4_4.index t (0 : Fin 2) * 512 + 512; rw [e40]; omega
  | ⟨1, _⟩ => show win4_4.index t (1 : Fin 2) * 256 ≤ (i 1).val ∧ (i 1).val < win4_4.index t (1 : Fin 2) * 256 + 256; rw [e41]; omega

/-- Every index of result array 1 lies in the block of a point that writes it back: the point of its
    block row and block column at the last step of the contraction axis. -/
theorem cover_4_5 (i : S4096x256.Idx) :
    ∃ t : Fin cfg4.N, (cfg4.win 5).flush t = true ∧ i ∈ ((cfg4.win 5).blk t).view.set := by
  have hi0 : (i 0).val < 4096 := (i 0).isLt
  have hi1 : (i 1).val < 256 := (i 1).isLt
  obtain ⟨t, ht⟩ : ∃ t : Fin cfg4.N, t.val = ((i 0).val / 512 * 1 + (i 1).val / 256) * 1 + 0 :=
    ⟨⟨((i 0).val / 512 * 1 + (i 1).val / 256) * 1 + 0, by show _ < grid4.N; rw [N_4]; omega⟩, rfl⟩
  obtain ⟨e00, e01, e10, e11, e20, e21, e30, e31, e40, e41, e50, e51⟩ := idx_4 t
  refine ⟨t, flush4_5 t, ?_⟩
  show i ∈ ((View.whole main_v9_1).slice (win4_5.rect t)).set
  rw [View.set_slice_whole, Rect.mem_set_unit]
  intro x
  match x with
  | ⟨0, _⟩ => show win4_5.index t (0 : Fin 2) * 512 ≤ (i 0).val ∧ (i 0).val < win4_5.index t (0 : Fin 2) * 512 + 512; rw [e50]; omega
  | ⟨1, _⟩ => show win4_5.index t (1 : Fin 2) * 256 ≤ (i 1).val ∧ (i 1).val < win4_5.index t (1 : Fin 2) * 256 + 256; rw [e51]; omega

end Cert.KernelIdeal.Blk
-- ==== Proof.KernelIdeal.Val4.lean ====
import proofs.«152868_j57621281243253_2_alg».proof.Proof.KernelIdeal.Rgn4
import proofs.«152868_j57621281243253_2_alg».proof.Proof.Pay4
import proofs.«152868_j57621281243253_2_alg».proof.Proof.Blk4
import proofs.«152868_j57621281243253_2_alg».proof.Proof.LibStoreThenLoad
import proofs.«152868_j57621281243253_2_alg».proof.Proof.SpecRow
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.KernelIdeal.Pay Cert.KernelIdeal.Blk

/-! Region 4's values. Every grid point resets the accumulator, adds the point's product and stores: the first output's
    block is the product of the activations' row block with the masked weight's rows plus the bias row, the second its positive part. So the
    two output arrays end at the masked linear layer of the region's input arrays and at its positive part. -/

theorem hz2_4 : (![0, 0] : Fin 2 → Nat) = fun _ => 0 := funext fun a => by fin_cases a <;> rfl

/-- What the one case leaves in the first output's buffer: the bias added to the accumulator, itself the zero block plus
    the point's product. -/
theorem out4_D_4_eq (c : Dev nD) (i : grid4.Coords) (arg3 : Memref sig .tc .vmem S512x512 .bf16) (harg3 : arg3.IsWhole) (arg4 : Memref sig .tc .vmem S256x512 .f32) (harg4 : arg4.IsWhole) (arg5 : Memref sig .tc .vmem S256x512 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .bf16) (harg8 : arg8.IsWhole) (arg9 : Memref sig .tc .vmem S512x256 .f32) (harg9 : arg9.IsWhole) (hc0 : cond4_0 i) (hc1 : cond4_1 i)
    (x0 : Vec F S512x512 .bf16) (x1 : Vec F S256x512 .f32) (x2 : Vec F S256x512 .f32) (x3 : Vec F S1x256 .f32) :
    out4_D_4 c i arg3 harg3 arg4 harg4 arg5 harg5 arg6 harg6 arg7 harg7 arg8 harg8 arg9 harg9 hc0 hc1 x0 x1 x2 x3 = k4_pay3 (k4_pay2 x0 x1 x2 (k4_pay1 (F := F))) x3 := by
  unfold out4_D_4
  rw [View.read_writes_eq_canon _ _ _ (cover4_D_4 c i arg3 harg3 arg4 harg4 arg5 harg5 arg6 harg6 arg7 harg7 arg8 harg8 arg9 harg9 hc0 hc1 x0 x1 x2 x3)]
  unfold kernelRun4_D
  dsimp only
  sl_unfold_words
  rw [View.canon_unit_zero hz2_4]
  rw [Cert.StoreThenLoad.readCov_cons_unit_zero _ hz2_4, View.readCov_unit_zero (S := S512x256) _ hz2_4]
  simp only [View.readAt_eq_ld, harg3.read_unread, harg4.read_unread, harg5.read_unread, harg6.read_unread,
    View.ld_unit_zero (S := S512x512) hz2_4, View.ld_unit_zero (S := S256x512) hz2_4, View.ld_unit_zero (S := S1x256) hz2_4]

/-- The same for the second output. -/
theorem out4_D_5_eq (c : Dev nD) (i : grid4.Coords) (arg3 : Memref sig .tc .vmem S512x512 .bf16) (harg3 : arg3.IsWhole) (arg4 : Memref sig .tc .vmem S256x512 .f32) (harg4 : arg4.IsWhole) (arg5 : Memref sig .tc .vmem S256x512 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S512x256 .bf16) (harg8 : arg8.IsWhole) (arg9 : Memref sig .tc .vmem S512x256 .f32) (harg9 : arg9.IsWhole) (hc0 : cond4_0 i) (hc1 : cond4_1 i)
    (x0 : Vec F S512x512 .bf16) (x1 : Vec F S256x512 .f32) (x2 : Vec F S256x512 .f32) (x3 : Vec F S1x256 .f32) :
    out4_D_5 c i arg3 harg3 arg4 harg4 arg5 harg5 arg6 harg6 arg7 harg7 arg8 harg8 arg9 harg9 hc0 hc1 x0 x1 x2 x3 = k4_pay4 (k4_pay2 x0 x1 x2 (k4_pay1 (F := F))) x3 := by
  unfold out4_D_5
  rw [View.read_writes_eq_canon _ _ _ (cover4_D_5 c i arg3 harg3 arg4 harg4 arg5 harg5 arg6 harg6 arg7 harg7 arg8 harg8 arg9 harg9 hc0 hc1 x0 x1 x2 x3)]
  unfold kernelRun4_D
  dsimp only
  sl_unfold_words
  rw [View.canon_unit_zero hz2_4]
  rw [Cert.StoreThenLoad.readCov_cons_unit_zero _ hz2_4, View.readCov_unit_zero (S := S512x256) _ hz2_4]
  simp only [View.readAt_eq_ld, harg3.read_unread, harg4.read_unread, harg5.read_unread, harg6.read_unread,
    View.ld_unit_zero (S := S512x512) hz2_4, View.ld_unit_zero (S := S256x512) hz2_4, View.ld_unit_zero (S := S1x256) hz2_4]

/-- One point's first output at an entry, over any blocks: the dot product of row `p` of the activations' block with row
    `q` of the masked weight's block, plus the bias row's entry `q`. -/
theorem point4_pre (x0 : Vec Ideal S512x512 .bf16) (x1 x2 : Vec Ideal S256x512 .f32) (x3 : Vec Ideal S1x256 .f32) (p : Fin 512) (q : Fin 256) :
    k4_pay3 (F := Ideal) (k4_pay2 x0 x1 x2 (k4_pay1 (F := Ideal))) x3 (ix2 p q)
      = (∑ k : Fin 512, x0 (ix2 p k) * (x1 (ix2 q k) * x2 (ix2 q k))) + x3 (ix2 (0 : Fin 1) q) := by
  rw [pay3_4, pay2_4, pay1_4, zero_add]
theorem point4_post (x0 : Vec Ideal S512x512 .bf16) (x1 x2 : Vec Ideal S256x512 .f32) (x3 : Vec Ideal S1x256 .f32) (p : Fin 512) (q : Fin 256) :
    k4_pay4 (F := Ideal) (k4_pay2 x0 x1 x2 (k4_pay1 (F := Ideal))) x3 (ix2 p q)
      = max ((∑ k : Fin 512, x0 (ix2 p k) * (x1 (ix2 q k) * x2 (ix2 q k))) + x3 (ix2 (0 : Fin 1) q)) 0 := by
  rw [pay4_4, pay2_4, pay1_4, zero_add]

variable (V : (c : Dev nD) → (b : Ref sig .tc) → Buf (Elt Ideal) ((c : Thread nD τ).loc b))

/-- The masked linear layer of the region's four input arrays: what the first output array ends holding. -/
abbrev G4 (c : Dev nD) : Cert.Mlp.Arr ⟨2, ![4096, 256]⟩ :=
  Cert.Mlp.linR (B := 4096) (N := 256) (K := 512) (V c main_v7_1) (V c main_arg13) (V c main_arg15) (V c main_v8)

theorem flushed4_4 (c : Dev nD) (t : Fin cfg4.N) (hf : (cfg4.win 4).flush t = true) :
    (dat4 V c).flushed 4 t = ((cfg4.win 4).blk t).view.read (Elt Ideal) (G4 V c) := by
  show (cfg4.win 4).cut (grid4.coords t) ((dat4 V c).after 4 t) = _
  rw [after4_4]
  funext y
  obtain ⟨p, q, rfl⟩ : ∃ (p : Fin 512) (q : Fin 256), y = ix2 p q := ⟨y 0, y 1, eq_ix2 y⟩
  refine (congrFun (out4_D_4_eq (F := Ideal) c (grid4.coords t) _ _ _ _ _ _ _ _ _ _ _ _ _ _ (hcond4_0 t) (hcond4_1 t) (iblk4 V c 0 t) (iblk4 V c 1 t) (iblk4 V c 2 t) (iblk4 V c 3 t)) (ix2 p q)).trans ?_
  refine (point4_pre (iblk4 V c 0 t) (iblk4 V c 1 t) (iblk4 V c 2 t) (iblk4 V c 3 t) p q).trans ?_
  rw [blk_read_4_4 (F := Ideal) (G4 V c) t p q]
  have e0 : ∀ k : Fin 512, iblk4 V c 0 t (ix2 p k) = _ := fun k => blk_read_4_0 (F := Ideal) (V c main_v7_1) t p k
  have e1 : ∀ k : Fin 512, iblk4 V c 1 t (ix2 q k) = _ := fun k => blk_read_4_1 (F := Ideal) (V c main_arg13) t q k
  have e2 : ∀ k : Fin 512, iblk4 V c 2 t (ix2 q k) = _ := fun k => blk_read_4_2 (F := Ideal) (V c main_arg15) t q k
  have e3 : iblk4 V c 3 t (ix2 (0 : Fin 1) q) = _ := blk_read_4_3 (F := Ideal) (V c main_v8) t (0 : Fin 1) q
  simp only [e0, e1, e2, e3]
  rfl

theorem flushed4_5 (c : Dev nD) (t : Fin cfg4.N) (hf : (cfg4.win 5).flush t = true) :
    (dat4 V c).flushed 5 t = ((cfg4.win 5).blk t).view.read (Elt Ideal) (Cert.Mlp.pos (G4 V c)) := by
  show (cfg4.win 5).cut (grid4.coords t) ((dat4 V c).after 5 t) = _
  rw [after4_5]
  funext y
  obtain ⟨p, q, rfl⟩ : ∃ (p : Fin 512) (q : Fin 256), y = ix2 p q := ⟨y 0, y 1, eq_ix2 y⟩
  refine (congrFun (out4_D_5_eq (F := Ideal) c (grid4.coords t) _ _ _ _ _ _ _ _ _ _ _ _ _ _ (hcond4_0 t) (hcond4_1 t) (iblk4 V c 0 t) (iblk4 V c 1 t) (iblk4 V c 2 t) (iblk4 V c 3 t)) (ix2 p q)).trans ?_
  refine (point4_post (iblk4 V c 0 t) (iblk4 V c 1 t) (iblk4 V c 2 t) (iblk4 V c 3 t) p q).trans ?_
  rw [blk_read_4_5 (F := Ideal) (Cert.Mlp.pos (G4 V c)) t p q]
  have e0 : ∀ k : Fin 512, iblk4 V c 0 t (ix2 p k) = _ := fun k => blk_read_4_0 (F := Ideal) (V c main_v7_1) t p k
  have e1 : ∀ k : Fin 512, iblk4 V c 1 t (ix2 q k) = _ := fun k => blk_read_4_1 (F := Ideal) (V c main_arg13) t q k
  have e2 : ∀ k : Fin 512, iblk4 V c 2 t (ix2 q k) = _ := fun k => blk_read_4_2 (F := Ideal) (V c main_arg15) t q k
  have e3 : iblk4 V c 3 t (ix2 (0 : Fin 1) q) = _ := blk_read_4_3 (F := Ideal) (V c main_v8) t (0 : Fin 1) q
  simp only [e0, e1, e2, e3]
  rfl

/-- The first output array ends at the masked linear layer of the region's input arrays, -/
theorem final4_pre (c : Dev nD) : (dat4 V c).arrAt 4 cfg4.N = G4 V c :=
  (dat4 V c).arrAt_eq_of_cover 4 (G4 V c) (flushed4_4 V c) (cover_4_4)
/-- and the second at its positive part. -/
theorem final4_post (c : Dev nD) : (dat4 V c).arrAt 5 cfg4.N = Cert.Mlp.pos (G4 V c) :=
  (dat4 V c).arrAt_eq_of_cover 5 (Cert.Mlp.pos (G4 V c)) (flushed4_5 V c) (cover_4_5)

end Cert.KernelIdeal.Hand

end
-- ==== Proof.Pay5.lean ====
/- The stored values of layer kernel 5 (one output feature), each read at one index of its block, on
   the extended reals (F := Ideal): the zero column, the accumulation step (accumulator plus the sum
   along each row of the activations times the one masked weight row), and the bias addition. -/
import proofs.«152868_j57621281243253_2_alg».proof.Proof.Gen.KernelIdeal.Skeleton
import Idealize.ShloMosaic.Lib.ValueLayout
import Idealize.ShloMosaic.Lib.ValueIdx
import Idealize.ShloMosaic.PureOps.Ideal.Laws

noncomputable section

namespace Cert.KernelIdeal.Pay

open Idealize.ShloMosaic Idealize.SL.Sem Idealize.ShloMosaic.ValueIdx Cert.KernelIdeal Cert.KernelIdeal.Gen
open scoped BigOperators

/-- The zero column: every entry is the extended real 0. -/
theorem pay1_5 (p : Fin 512) (q : Fin 1) : k5_pay1 (F := Ideal) (ix2 p q) = 0 := by
  unfold k5_pay1
  rw [shapeCast_self]
  exact Ideal.ofBits_zero_f32

/-- A length-a vector viewed as an a-by-1 column reads, at (i, u), the vector at i. -/
theorem shapeCast_a_a1_apply_5 {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the columns, read at row p: the sum over k of the entry (p, k). -/
theorem rowsum_5 (src : FVec Ideal S512x256 .f32) (hφ : FKind.Formats .f32)
    (hacc : (0x00000000#32 : BitVec 32) = 0x00000000#32) (p : Fin 512) :
    multiReduction .add [1] S512 src 0x00000000#32 reduces_S512x256_S512 hφ hacc (ix1 p) = ∑ k : Fin 256, src (ix2 p k) := by
  refine (Ideal.multiReduction_add_single src 0x00000000#32 reduces_S512x256_S512 hφ hacc (ix1 p)).trans ?_
  exact Finset.sum_congr rfl fun k _ => congrArg src (funext fun c => Fin.ext (by
    match c with
    | ⟨0, _⟩ => rfl
    | ⟨1, _⟩ => rfl))

/-- The accumulation step: the accumulator plus the sum over k of the activation (p, k) times the
    masked weight (weight times mask) at k of the one weight row. -/
theorem pay2_5 (v3 : Vec Ideal S512x256 .bf16) (v6 : Vec Ideal S1x256 .f32) (v7 : Vec Ideal S1x256 .f32) (v11 : Vec Ideal S512x1 .f32)
    (p : Fin 512) (q : Fin 1) :
    k5_pay2 (F := Ideal) v3 v6 v7 v11 (ix2 p q)
      = v11 (ix2 p q) + ∑ k : Fin 256, v3 (ix2 p k) * (v6 (ix2 (0 : Fin 1) k) * v7 (ix2 (0 : Fin 1) k)) := by
  unfold k5_pay2
  rw [shapeCast_self, shapeCast_self, addf_apply]
  refine congrArg (v11 (ix2 p q) + ·) ?_
  refine (shapeCast_a_a1_apply_5 _ _ p q).trans ?_
  refine (rowsum_5 _ _ _ p).trans ?_
  refine Finset.sum_congr rfl fun k _ => ?_
  refine (mulf_apply _ _ _).trans ?_
  refine congrArg (v3 (ix2 p k) * ·) ?_
  exact broadcastTo_1b_ab_apply _ _ p k

/-- The bias addition: the one bias entry is repeated along the rows. -/
theorem pay3_5 (v21 : Vec Ideal S512x1 .f32) (v22 : Vec Ideal S1x1 .f32) (p : Fin 512) (q : Fin 1) :
    k5_pay3 (F := Ideal) v21 v22 (ix2 p q) = v21 (ix2 p q) + v22 (ix2 (0 : Fin 1) q) := by
  unfold k5_pay3
  rw [shapeCast_self, addf_apply]
  exact congrArg (v21 (ix2 p q) + ·) (broadcastTo_1b_ab_apply v22 _ p q)

/-- The stored output: the biased value (this layer has no rectification). -/
theorem pay4_5 (v21 : Vec Ideal S512x1 .f32) (v22 : Vec Ideal S1x1 .f32) (p : Fin 512) (q : Fin 1) :
    k5_pay4 (F := Ideal) v21 v22 (ix2 p q) = v21 (ix2 p q) + v22 (ix2 (0 : Fin 1) q) := by
  unfold k5_pay4
  rw [truncf_apply]
  exact pay3_5 v21 v22 p q

end Cert.KernelIdeal.Pay
-- ==== Proof.Blk5.lean ====
/- The blocks of region 5's six windows, read at an index: an entry (a, b) of the block at grid point t
   is the array's entry at (block row index × block rows + a, block column index × block columns + b);
   and every index of the two result arrays lies in the block of a point that writes it back. -/
import proofs.«152868_j57621281243253_2_alg».proof.Proof.Gen.KernelIdeal.Points
import proofs.«152868_j57621281243253_2_alg».proof.Proof.Gen.KernelIdeal.Launch
import Idealize.ShloMosaic.Lib.Pipeline.Value
import Idealize.ShloMosaic.Lib.ValueIdx

noncomputable section

namespace Cert.KernelIdeal.Blk

open Idealize.ShloMosaic Idealize.ShloMosaic.TcCoe Idealize.SL Idealize.SL.Sem Cert.KernelIdeal Cert.KernelIdeal.Gen

variable {F : FTy → Type} [FloatOps F]

/-- The grid has 8 points. -/
theorem lt_5 (t : Fin cfg5.N) : t.val < 8 := by
  have h : t.val < grid5.N := t.isLt
  rw [N_5] at h; exact h

/-- The printed index maps, decided over the grid: each window's block index on each axis, in terms of
    the point's position (the last grid coordinate runs fastest). -/
theorem idx_5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0
    ∧ win5_5.index t (0 : Fin 2) = t.val ∧ win5_5.index t (1 : Fin 2) = 0 :=
  (by decide +kernel : ∀ t : Fin grid5.N, _)

/-- Window 0's block at point t, read at (a, b). -/
theorem blk_read_5_0 (A : (⟨S4096x256, .bf16⟩ : BufTy).Contents (Elt F)) (t : Fin cfg5.N) (a : Fin 512) (b : Fin 256) :
    ((cfg5.win 0).blk t).view.read (Elt F) A (ValueIdx.ix2 a b)
      = A (ValueIdx.ix2 (⟨t.val * 512 + a.val, by have := lt_5 t; omega⟩ : Fin 4096) b) := by
  obtain ⟨e00, e01, e10, e11, e20, e21, e30, e31, e40, e41, e50, e51⟩ := idx_5 t
  rw [View.read_apply]
  show A _ = A _
  congr 1
  funext x
  apply Fin.ext
  match x with
  | ⟨0, _⟩ => show win5_0.index t (0 : Fin 2) * 512 + 1 * a.val = t.val * 512 + a.val; rw [e00]; omega
  | ⟨1, _⟩ => show win5_0.index t (1 : Fin 2) * 256 + 1 * b.val = b.val; rw [e01]; omega

/-- Window 1's block at point t, read at (a, b). -/
theorem blk_read_5_1 (A : (⟨S1x256, .f32⟩ : BufTy).Contents (Elt F)) (t : Fin cfg5.N) (a : Fin 1) (b : Fin 256) :
    ((cfg5.win 1).blk t).view.read (Elt F) A (ValueIdx.ix2 a b)
      = A (ValueIdx.ix2 a b) := by
  obtain ⟨e00, e01, e10, e11, e20, e21, e30, e31, e40, e41, e50, e51⟩ := idx_5 t
  rw [View.read_apply]
  show A _ = A _
  congr 1
  funext x
  apply Fin.ext
  match x with
  | ⟨0, _⟩ => show win5_1.index t (0 : Fin 2) * 1 + 1 * a.val = a.val; rw [e10]; omega
  | ⟨1, _⟩ => show win5_1.index t (1 : Fin 2) * 256 + 1 * b.val = b.val; rw [e11]; omega

/-- Window 2's block at point t, read at (a, b). -/
theorem blk_read_5_2 (A : (⟨S1x256, .f32⟩ : BufTy).Contents (Elt F)) (t : Fin cfg5.N) (a : Fin 1) (b : Fin 256) :
    ((cfg5.win 2).blk t).view.read (Elt F) A (ValueIdx.ix2 a b)
      = A (ValueIdx.ix2 a b) := by
  obtain ⟨e00, e01, e10, e11, e20, e21, e30, e31, e40, e41, e50, e51⟩ := idx_5 t
  rw [View.read_apply]
  show A _ = A _
  congr 1
  funext x
  apply Fin.ext
  match x with
  | ⟨0, _⟩ => show win5_2.index t (0 : Fin 2) * 1 + 1 * a.val = a.val; rw [e20]; omega
  | ⟨1, _⟩ => show win5_2.index t (1 : Fin 2) * 256 + 1 * b.val = b.val; rw [e21]; omega

/-- Window 3's block at point t, read at (a, b). -/
theorem blk_read_5_3 (A : (⟨S1x1, .f32⟩ : BufTy).Contents (Elt F)) (t : Fin cfg5.N) (a : Fin 1) (b : Fin 1) :
    ((cfg5.win 3).blk t).view.read (Elt F) A (ValueIdx.ix2 a b)
      = A (ValueIdx.ix2 a b) := by
  obtain ⟨e00, e01, e10, e11, e20, e21, e30, e31, e40, e41, e50, e51⟩ := idx_5 t
  rw [View.read_apply]
  show A _ = A _
  congr 1
  funext x
  apply Fin.ext
  match x with
  | ⟨0, _⟩ => show win5_3.index t (0 : Fin 2) * 1 + 1 * a.val = a.val; rw [e30]; omega
  | ⟨1, _⟩ => show win5_3.index t (1 : Fin 2) * 1 + 1 * b.val = b.val; rw [e31]; omega

/-- Window 4's block at point t, read at (a, b). -/
theorem blk_read_5_4 (A : (⟨S4096x1, .f32⟩ : BufTy).Contents (Elt F)) (t : Fin cfg5.N) (a : Fin 512) (b : Fin 1) :
    ((cfg5.win 4).blk t).view.read (Elt F) A (ValueIdx.ix2 a b)
      = A (ValueIdx.ix2 (⟨t.val * 512 + a.val, by have := lt_5 t; omega⟩ : Fin 4096) b) := by
  obtain ⟨e00, e01, e10, e11, e20, e21, e30, e31, e40, e41, e50, e51⟩ := idx_5 t
  rw [View.read_apply]
  show A _ = A _
  congr 1
  funext x
  apply Fin.ext
  match x with
  | ⟨0, _⟩ => show win5_4.index t (0 : Fin 2) * 512 + 1 * a.val = t.val * 512 + a.val; rw [e40]; omega
  | ⟨1, _⟩ => show win5_4.index t (1 : Fin 2) * 1 + 1 * b.val = b.val; rw [e41]; omega

/-- Window 5's block at point t, read at (a, b). -/
theorem blk_read_5_5 (A : (⟨S4096x1, .bf16⟩ : BufTy).Contents (Elt F)) (t : Fin cfg5.N) (a : Fin 512) (b : Fin 1) :
    ((cfg5.win 5).blk t).view.read (Elt F) A (ValueIdx.ix2 a b)
      = A (ValueIdx.ix2 (⟨t.val * 512 + a.val, by have := lt_5 t; omega⟩ : Fin 4096) b) := by
  obtain ⟨e00, e01, e10, e11, e20, e21, e30, e31, e40, e41, e50, e51⟩ := idx_5 t
  rw [View.read_apply]
  show A _ = A _
  congr 1
  funext x
  apply Fin.ext
  match x with
  | ⟨0, _⟩ => show win5_5.index t (0 : Fin 2) * 512 + 1 * a.val = t.val * 512 + a.val; rw [e50]; omega
  | ⟨1, _⟩ => show win5_5.index t (1 : Fin 2) * 1 + 1 * b.val = b.val; rw [e51]; omega

/-- Every index of result array 0 lies in the block of a point that writes it back: the point of its
    block row and block column at the last step of the contraction axis. -/
theorem cover_5_4 (i : S4096x1.Idx) :
    ∃ t : Fin cfg5.N, (cfg5.win 4).flush t = true ∧ i ∈ ((cfg5.win 4).blk t).view.set := by
  have hi0 : (i 0).val < 4096 := (i 0).isLt
  have hi1 : (i 1).val < 1 := (i 1).isLt
  obtain ⟨t, ht⟩ : ∃ t : Fin cfg5.N, t.val = ((i 0).val / 512 * 1 + (i 1).val / 1) * 1 + 0 :=
    ⟨⟨((i 0).val / 512 * 1 + (i 1).val / 1) * 1 + 0, by show _ < grid5.N; rw [N_5]; omega⟩, rfl⟩
  obtain ⟨e00, e01, e10, e11, e20, e21, e30, e31, e40, e41, e50, e51⟩ := idx_5 t
  refine ⟨t, flush5_4 t, ?_⟩
  show i ∈ ((View.whole main_v11_0).slice (win5_4.rect t)).set
  rw [View.set_slice_whole, Rect.mem_set_unit]
  intro x
  match x with
  | ⟨0, _⟩ => show win5_4.index t (0 : Fin 2) * 512 ≤ (i 0).val ∧ (i 0).val < win5_4.index t (0 : Fin 2) * 512 + 512; rw [e40]; omega
  | ⟨1, _⟩ => show win5_4.index t (1 : Fin 2) * 1 ≤ (i 1).val ∧ (i 1).val < win5_4.index t (1 : Fin 2) * 1 + 1; rw [e41]; omega

/-- Every index of result array 1 lies in the block of a point that writes it back: the point of its
    block row and block column at the last step of the contraction axis. -/
theorem cover_5_5 (i : S4096x1.Idx) :
    ∃ t : Fin cfg5.N, (cfg5.win 5).flush t = true ∧ i ∈ ((cfg5.win 5).blk t).view.set := by
  have hi0 : (i 0).val < 4096 := (i 0).isLt
  have hi1 : (i 1).val < 1 := (i 1).isLt
  obtain ⟨t, ht⟩ : ∃ t : Fin cfg5.N, t.val = ((i 0).val / 512 * 1 + (i 1).val / 1) * 1 + 0 :=
    ⟨⟨((i 0).val / 512 * 1 + (i 1).val / 1) * 1 + 0, by show _ < grid5.N; rw [N_5]; omega⟩, rfl⟩
  obtain ⟨e00, e01, e10, e11, e20, e21, e30, e31, e40, e41, e50, e51⟩ := idx_5 t
  refine ⟨t, flush5_5 t, ?_⟩
  show i ∈ ((View.whole main_v11_1).slice (win5_5.rect t)).set
  rw [View.set_slice_whole, Rect.mem_set_unit]
  intro x
  match x with
  | ⟨0, _⟩ => show win5_5.index t (0 : Fin 2) * 512 ≤ (i 0).val ∧ (i 0).val < win5_5.index t (0 : Fin 2) * 512 + 512; rw [e50]; omega
  | ⟨1, _⟩ => show win5_5.index t (1 : Fin 2) * 1 ≤ (i 1).val ∧ (i 1).val < win5_5.index t (1 : Fin 2) * 1 + 1; rw [e51]; omega

end Cert.KernelIdeal.Blk
-- ==== Proof.KernelIdeal.Val5.lean ====
import proofs.«152868_j57621281243253_2_alg».proof.Proof.KernelIdeal.Rgn5
import proofs.«152868_j57621281243253_2_alg».proof.Proof.Pay5
import proofs.«152868_j57621281243253_2_alg».proof.Proof.Blk5
import proofs.«152868_j57621281243253_2_alg».proof.Proof.LibStoreThenLoad
import proofs.«152868_j57621281243253_2_alg».proof.Proof.SpecRow
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.KernelIdeal.Pay Cert.KernelIdeal.Blk

/-! Region 5's values. Every grid point resets the accumulator, adds the point's product and stores: the first output's
    block is the product of the activations' row block with the masked weight's rows plus the bias row, the second the same. So the
    two output arrays end at the masked linear layer of the region's input arrays. -/

theorem hz2_5 : (![0, 0] : Fin 2 → Nat) = fun _ => 0 := funext fun a => by fin_cases a <;> rfl

/-- What the one case leaves in the first output's buffer: the bias added to the accumulator, itself the zero block plus
    the point's product. -/
theorem out5_D_4_eq (c : Dev nD) (i : grid5.Coords) (arg3 : Memref sig .tc .vmem S512x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : cond5_0 i) (hc1 : cond5_1 i)
    (x0 : Vec F S512x256 .bf16) (x1 : Vec F S1x256 .f32) (x2 : Vec F S1x256 .f32) (x3 : Vec F S1x1 .f32) :
    out5_D_4 c i arg3 harg3 arg4 harg4 arg5 harg5 arg6 harg6 arg7 harg7 arg8 harg8 arg9 harg9 hc0 hc1 x0 x1 x2 x3 = k5_pay3 (k5_pay2 x0 x1 x2 (k5_pay1 (F := F))) x3 := by
  unfold out5_D_4
  rw [View.read_writes_eq_canon _ _ _ (cover5_D_4 c i arg3 harg3 arg4 harg4 arg5 harg5 arg6 harg6 arg7 harg7 arg8 harg8 arg9 harg9 hc0 hc1 x0 x1 x2 x3)]
  unfold kernelRun5_D
  dsimp only
  sl_unfold_words
  rw [View.canon_unit_zero hz2_5]
  rw [Cert.StoreThenLoad.readCov_cons_unit_zero _ hz2_5, View.readCov_unit_zero (S := S512x1) _ hz2_5]
  simp only [View.readAt_eq_ld, harg3.read_unread, harg4.read_unread, harg5.read_unread, harg6.read_unread,
    View.ld_unit_zero (S := S512x256) hz2_5, View.ld_unit_zero (S := S1x256) hz2_5, View.ld_unit_zero (S := S1x1) hz2_5]

/-- The same for the second output. -/
theorem out5_D_5_eq (c : Dev nD) (i : grid5.Coords) (arg3 : Memref sig .tc .vmem S512x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : cond5_0 i) (hc1 : cond5_1 i)
    (x0 : Vec F S512x256 .bf16) (x1 : Vec F S1x256 .f32) (x2 : Vec F S1x256 .f32) (x3 : Vec F S1x1 .f32) :
    out5_D_5 c i arg3 harg3 arg4 harg4 arg5 harg5 arg6 harg6 arg7 harg7 arg8 harg8 arg9 harg9 hc0 hc1 x0 x1 x2 x3 = k5_pay4 (k5_pay2 x0 x1 x2 (k5_pay1 (F := F))) x3 := by
  unfold out5_D_5
  rw [View.read_writes_eq_canon _ _ _ (cover5_D_5 c i arg3 harg3 arg4 harg4 arg5 harg5 arg6 harg6 arg7 harg7 arg8 harg8 arg9 harg9 hc0 hc1 x0 x1 x2 x3)]
  unfold kernelRun5_D
  dsimp only
  sl_unfold_words
  rw [View.canon_unit_zero hz2_5]
  rw [Cert.StoreThenLoad.readCov_cons_unit_zero _ hz2_5, View.readCov_unit_zero (S := S512x1) _ hz2_5]
  simp only [View.readAt_eq_ld, harg3.read_unread, harg4.read_unread, harg5.read_unread, harg6.read_unread,
    View.ld_unit_zero (S := S512x256) hz2_5, View.ld_unit_zero (S := S1x256) hz2_5, View.ld_unit_zero (S := S1x1) hz2_5]

/-- One point's first output at an entry, over any blocks: the dot product of row `p` of the activations' block with row
    `q` of the masked weight's block, plus the bias row's entry `q`. -/
theorem point5_pre (x0 : Vec Ideal S512x256 .bf16) (x1 x2 : Vec Ideal S1x256 .f32) (x3 : Vec Ideal S1x1 .f32) (p : Fin 512) (q : Fin 1) :
    k5_pay3 (F := Ideal) (k5_pay2 x0 x1 x2 (k5_pay1 (F := Ideal))) x3 (ix2 p q)
      = (∑ k : Fin 256, x0 (ix2 p k) * (x1 (ix2 (0 : Fin 1) k) * x2 (ix2 (0 : Fin 1) k))) + x3 (ix2 (0 : Fin 1) q) := by
  rw [pay3_5, pay2_5, pay1_5, zero_add]
theorem point5_post (x0 : Vec Ideal S512x256 .bf16) (x1 x2 : Vec Ideal S1x256 .f32) (x3 : Vec Ideal S1x1 .f32) (p : Fin 512) (q : Fin 1) :
    k5_pay4 (F := Ideal) (k5_pay2 x0 x1 x2 (k5_pay1 (F := Ideal))) x3 (ix2 p q)
      = (∑ k : Fin 256, x0 (ix2 p k) * (x1 (ix2 (0 : Fin 1) k) * x2 (ix2 (0 : Fin 1) k))) + x3 (ix2 (0 : Fin 1) q) := by
  rw [pay4_5, pay2_5, pay1_5, zero_add]

variable (V : (c : Dev nD) → (b : Ref sig .tc) → Buf (Elt Ideal) ((c : Thread nD τ).loc b))

/-- The masked linear layer of the region's four input arrays: what the first output array ends holding. -/
abbrev G5 (c : Dev nD) : Cert.Mlp.Arr ⟨2, ![4096, 1]⟩ :=
  Cert.Mlp.linR (B := 4096) (N := 1) (K := 256) (V c main_v9_1) (V c main_arg16) (V c main_arg18) (V c main_v10)

theorem flushed5_4 (c : Dev nD) (t : Fin cfg5.N) (hf : (cfg5.win 4).flush t = true) :
    (dat5 V c).flushed 4 t = ((cfg5.win 4).blk t).view.read (Elt Ideal) (G5 V c) := by
  show (cfg5.win 4).cut (grid5.coords t) ((dat5 V c).after 4 t) = _
  rw [after5_4]
  funext y
  obtain ⟨p, q, rfl⟩ : ∃ (p : Fin 512) (q : Fin 1), y = ix2 p q := ⟨y 0, y 1, eq_ix2 y⟩
  obtain rfl : q = (0 : Fin 1) := Subsingleton.elim _ _
  refine (congrFun (out5_D_4_eq (F := Ideal) c (grid5.coords t) _ _ _ _ _ _ _ _ _ _ _ _ _ _ (hcond5_0 t) (hcond5_1 t) (iblk5 V c 0 t) (iblk5 V c 1 t) (iblk5 V c 2 t) (iblk5 V c 3 t)) (ix2 p (0 : Fin 1))).trans ?_
  refine (point5_pre (iblk5 V c 0 t) (iblk5 V c 1 t) (iblk5 V c 2 t) (iblk5 V c 3 t) p (0 : Fin 1)).trans ?_
  rw [blk_read_5_4 (F := Ideal) (G5 V c) t p (0 : Fin 1)]
  have e0 : ∀ k : Fin 256, iblk5 V c 0 t (ix2 p k) = _ := fun k => blk_read_5_0 (F := Ideal) (V c main_v9_1) t p k
  have e1 : ∀ k : Fin 256, iblk5 V c 1 t (ix2 (0 : Fin 1) k) = _ := fun k => blk_read_5_1 (F := Ideal) (V c main_arg16) t (0 : Fin 1) k
  have e2 : ∀ k : Fin 256, iblk5 V c 2 t (ix2 (0 : Fin 1) k) = _ := fun k => blk_read_5_2 (F := Ideal) (V c main_arg18) t (0 : Fin 1) k
  have e3 : iblk5 V c 3 t (ix2 (0 : Fin 1) (0 : Fin 1)) = _ := blk_read_5_3 (F := Ideal) (V c main_v10) t (0 : Fin 1) (0 : Fin 1)
  simp only [e0, e1, e2, e3]
  rfl

theorem flushed5_5 (c : Dev nD) (t : Fin cfg5.N) (hf : (cfg5.win 5).flush t = true) :
    (dat5 V c).flushed 5 t = ((cfg5.win 5).blk t).view.read (Elt Ideal) (G5 V c) := by
  show (cfg5.win 5).cut (grid5.coords t) ((dat5 V c).after 5 t) = _
  rw [after5_5]
  funext y
  obtain ⟨p, q, rfl⟩ : ∃ (p : Fin 512) (q : Fin 1), y = ix2 p q := ⟨y 0, y 1, eq_ix2 y⟩
  obtain rfl : q = (0 : Fin 1) := Subsingleton.elim _ _
  refine (congrFun (out5_D_5_eq (F := Ideal) c (grid5.coords t) _ _ _ _ _ _ _ _ _ _ _ _ _ _ (hcond5_0 t) (hcond5_1 t) (iblk5 V c 0 t) (iblk5 V c 1 t) (iblk5 V c 2 t) (iblk5 V c 3 t)) (ix2 p (0 : Fin 1))).trans ?_
  refine (point5_post (iblk5 V c 0 t) (iblk5 V c 1 t) (iblk5 V c 2 t) (iblk5 V c 3 t) p (0 : Fin 1)).trans ?_
  rw [blk_read_5_5 (F := Ideal) (G5 V c) t p (0 : Fin 1)]
  have e0 : ∀ k : Fin 256, iblk5 V c 0 t (ix2 p k) = _ := fun k => blk_read_5_0 (F := Ideal) (V c main_v9_1) t p k
  have e1 : ∀ k : Fin 256, iblk5 V c 1 t (ix2 (0 : Fin 1) k) = _ := fun k => blk_read_5_1 (F := Ideal) (V c main_arg16) t (0 : Fin 1) k
  have e2 : ∀ k : Fin 256, iblk5 V c 2 t (ix2 (0 : Fin 1) k) = _ := fun k => blk_read_5_2 (F := Ideal) (V c main_arg18) t (0 : Fin 1) k
  have e3 : iblk5 V c 3 t (ix2 (0 : Fin 1) (0 : Fin 1)) = _ := blk_read_5_3 (F := Ideal) (V c main_v10) t (0 : Fin 1) (0 : Fin 1)
  simp only [e0, e1, e2, e3]
  rfl

/-- The first output array ends at the masked linear layer of the region's input arrays, -/
theorem final5_pre (c : Dev nD) : (dat5 V c).arrAt 4 cfg5.N = G5 V c :=
  (dat5 V c).arrAt_eq_of_cover 4 (G5 V c) (flushed5_4 V c) (cover_5_4)
/-- and the second at the same. -/
theorem final5_post (c : Dev nD) : (dat5 V c).arrAt 5 cfg5.N = G5 V c :=
  (dat5 V c).arrAt_eq_of_cover 5 (G5 V c) (flushed5_5 V c) (cover_5_5)

end Cert.KernelIdeal.Hand

end
-- ==== Proof.Pay6.lean ====
/- The stored values of layer kernel 6 (one output feature), each read at one index of its block, on
   the extended reals (F := Ideal): the zero column, the accumulation step (accumulator plus the sum
   along each row of the activations times the one masked weight row), and the bias addition. -/
import proofs.«152868_j57621281243253_2_alg».proof.Proof.Gen.KernelIdeal.Skeleton
import Idealize.ShloMosaic.Lib.ValueLayout
import Idealize.ShloMosaic.Lib.ValueIdx
import Idealize.ShloMosaic.PureOps.Ideal.Laws

noncomputable section

namespace Cert.KernelIdeal.Pay

open Idealize.ShloMosaic Idealize.SL.Sem Idealize.ShloMosaic.ValueIdx Cert.KernelIdeal Cert.KernelIdeal.Gen
open scoped BigOperators

/-- The zero column: every entry is the extended real 0. -/
theorem pay1_6 (p : Fin 512) (q : Fin 1) : k6_pay1 (F := Ideal) (ix2 p q) = 0 := by
  unfold k6_pay1
  rw [shapeCast_self]
  exact Ideal.ofBits_zero_f32

/-- A length-a vector viewed as an a-by-1 column reads, at (i, u), the vector at i. -/
theorem shapeCast_a_a1_apply_6 {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the columns, read at row p: the sum over k of the entry (p, k). -/
theorem rowsum_6 (src : FVec Ideal S512x1280 .f32) (hφ : FKind.Formats .f32)
    (hacc : (0x00000000#32 : BitVec 32) = 0x00000000#32) (p : Fin 512) :
    multiReduction .add [1] S512 src 0x00000000#32 reduces_S512x1280_S512 hφ hacc (ix1 p) = ∑ k : Fin 1280, src (ix2 p k) := by
  refine (Ideal.multiReduction_add_single src 0x00000000#32 reduces_S512x1280_S512 hφ hacc (ix1 p)).trans ?_
  exact Finset.sum_congr rfl fun k _ => congrArg src (funext fun c => Fin.ext (by
    match c with
    | ⟨0, _⟩ => rfl
    | ⟨1, _⟩ => rfl))

/-- The accumulation step: the accumulator plus the sum over k of the activation (p, k) times the
    masked weight (weight times mask) at k of the one weight row. -/
theorem pay2_6 (v3 : Vec Ideal S512x1280 .f32) (v5 : Vec Ideal S1x1280 .f32) (v6 : Vec Ideal S1x1280 .f32) (v10 : Vec Ideal S512x1 .f32)
    (p : Fin 512) (q : Fin 1) :
    k6_pay2 (F := Ideal) v3 v5 v6 v10 (ix2 p q)
      = v10 (ix2 p q) + ∑ k : Fin 1280, v3 (ix2 p k) * (v5 (ix2 (0 : Fin 1) k) * v6 (ix2 (0 : Fin 1) k)) := by
  unfold k6_pay2
  rw [shapeCast_self, shapeCast_self, addf_apply]
  refine congrArg (v10 (ix2 p q) + ·) ?_
  refine (shapeCast_a_a1_apply_6 _ _ p q).trans ?_
  refine (rowsum_6 _ _ _ p).trans ?_
  refine Finset.sum_congr rfl fun k _ => ?_
  refine (mulf_apply _ _ _).trans ?_
  refine congrArg (v3 (ix2 p k) * ·) ?_
  exact broadcastTo_1b_ab_apply _ _ p k

/-- The bias addition: the one bias entry is repeated along the rows. -/
theorem pay3_6 (v20 : Vec Ideal S512x1 .f32) (v21 : Vec Ideal S1x1 .f32) (p : Fin 512) (q : Fin 1) :
    k6_pay3 (F := Ideal) v20 v21 (ix2 p q) = v20 (ix2 p q) + v21 (ix2 (0 : Fin 1) q) := by
  unfold k6_pay3
  rw [shapeCast_self, addf_apply]
  exact congrArg (v20 (ix2 p q) + ·) (broadcastTo_1b_ab_apply v21 _ p q)

/-- The stored output: the biased value (this layer has no rectification). -/
theorem pay4_6 (v20 : Vec Ideal S512x1 .f32) (v21 : Vec Ideal S1x1 .f32) (p : Fin 512) (q : Fin 1) :
    k6_pay4 (F := Ideal) v20 v21 (ix2 p q) = v20 (ix2 p q) + v21 (ix2 (0 : Fin 1) q) := by
  unfold k6_pay4
  rw [truncf_apply]
  exact pay3_6 v20 v21 p q

end Cert.KernelIdeal.Pay
-- ==== Proof.Blk6.lean ====
/- The blocks of region 6's six windows, read at an index: an entry (a, b) of the block at grid point t
   is the array's entry at (block row index × block rows + a, block column index × block columns + b);
   and every index of the two result arrays lies in the block of a point that writes it back. -/
import proofs.«152868_j57621281243253_2_alg».proof.Proof.Gen.KernelIdeal.Points
import proofs.«152868_j57621281243253_2_alg».proof.Proof.Gen.KernelIdeal.Launch
import Idealize.ShloMosaic.Lib.Pipeline.Value
import Idealize.ShloMosaic.Lib.ValueIdx

noncomputable section

namespace Cert.KernelIdeal.Blk

open Idealize.ShloMosaic Idealize.ShloMosaic.TcCoe Idealize.SL Idealize.SL.Sem Cert.KernelIdeal Cert.KernelIdeal.Gen

variable {F : FTy → Type} [FloatOps F]

/-- The grid has 48 points. -/
theorem lt_6 (t : Fin cfg6.N) : t.val < 48 := by
  have h : t.val < grid6.N := t.isLt
  rw [N_6] at h; exact h

/-- The printed index maps, decided over the grid: each window's block index on each axis, in terms of
    the point's position (the last grid coordinate runs fastest). -/
theorem idx_6 : ∀ t : Fin cfg6.N,
    win6_0.index t (0 : Fin 2) = t.val / 6 ∧ win6_0.index t (1 : Fin 2) = t.val % 6
    ∧ win6_1.index t (0 : Fin 2) = 0 ∧ win6_1.index t (1 : Fin 2) = t.val % 6
    ∧ win6_2.index t (0 : Fin 2) = 0 ∧ win6_2.index t (1 : Fin 2) = t.val % 6
    ∧ win6_3.index t (0 : Fin 2) = 0 ∧ win6_3.index t (1 : Fin 2) = 0
    ∧ win6_4.index t (0 : Fin 2) = t.val / 6 ∧ win6_4.index t (1 : Fin 2) = 0
    ∧ win6_5.index t (0 : Fin 2) = t.val / 6 ∧ win6_5.index t (1 : Fin 2) = 0 :=
  (by decide +kernel : ∀ t : Fin grid6.N, _)

/-- Window 0's block at point t, read at (a, b). -/
theorem blk_read_6_0 (A : (⟨S4096x7680, .f32⟩ : BufTy).Contents (Elt F)) (t : Fin cfg6.N) (a : Fin 512) (b : Fin 1280) :
    ((cfg6.win 0).blk t).view.read (Elt F) A (ValueIdx.ix2 a b)
      = A (ValueIdx.ix2 (⟨t.val / 6 * 512 + a.val, by have := lt_6 t; omega⟩ : Fin 4096) (⟨t.val % 6 * 1280 + b.val, by have := lt_6 t; omega⟩ : Fin 7680)) := by
  obtain ⟨e00, e01, e10, e11, e20, e21, e30, e31, e40, e41, e50, e51⟩ := idx_6 t
  rw [View.read_apply]
  show A _ = A _
  congr 1
  funext x
  apply Fin.ext
  match x with
  | ⟨0, _⟩ => show win6_0.index t (0 : Fin 2) * 512 + 1 * a.val = t.val / 6 * 512 + a.val; rw [e00]; omega
  | ⟨1, _⟩ => show win6_0.index t (1 : Fin 2) * 1280 + 1 * b.val = t.val % 6 * 1280 + b.val; rw [e01]; omega

/-- Window 1's block at point t, read at (a, b). -/
theorem blk_read_6_1 (A : (⟨S1x7680, .f32⟩ : BufTy).Contents (Elt F)) (t : Fin cfg6.N) (a : Fin 1) (b : Fin 1280) :
    ((cfg6.win 1).blk t).view.read (Elt F) A (ValueIdx.ix2 a b)
      = A (ValueIdx.ix2 a (⟨t.val % 6 * 1280 + b.val, by have := lt_6 t; omega⟩ : Fin 7680)) := by
  obtain ⟨e00, e01, e10, e11, e20, e21, e30, e31, e40, e41, e50, e51⟩ := idx_6 t
  rw [View.read_apply]
  show A _ = A _
  congr 1
  funext x
  apply Fin.ext
  match x with
  | ⟨0, _⟩ => show win6_1.index t (0 : Fin 2) * 1 + 1 * a.val = a.val; rw [e10]; omega
  | ⟨1, _⟩ => show win6_1.index t (1 : Fin 2) * 1280 + 1 * b.val = t.val % 6 * 1280 + b.val; rw [e11]; omega

/-- Window 2's block at point t, read at (a, b). -/
theorem blk_read_6_2 (A : (⟨S1x7680, .f32⟩ : BufTy).Contents (Elt F)) (t : Fin cfg6.N) (a : Fin 1) (b : Fin 1280) :
    ((cfg6.win 2).blk t).view.read (Elt F) A (ValueIdx.ix2 a b)
      = A (ValueIdx.ix2 a (⟨t.val % 6 * 1280 + b.val, by have := lt_6 t; omega⟩ : Fin 7680)) := by
  obtain ⟨e00, e01, e10, e11, e20, e21, e30, e31, e40, e41, e50, e51⟩ := idx_6 t
  rw [View.read_apply]
  show A _ = A _
  congr 1
  funext x
  apply Fin.ext
  match x with
  | ⟨0, _⟩ => show win6_2.index t (0 : Fin 2) * 1 + 1 * a.val = a.val; rw [e20]; omega
  | ⟨1, _⟩ => show win6_2.index t (1 : Fin 2) * 1280 + 1 * b.val = t.val % 6 * 1280 + b.val; rw [e21]; omega

/-- Window 3's block at point t, read at (a, b). -/
theorem blk_read_6_3 (A : (⟨S1x1, .f32⟩ : BufTy).Contents (Elt F)) (t : Fin cfg6.N) (a : Fin 1) (b : Fin 1) :
    ((cfg6.win 3).blk t).view.read (Elt F) A (ValueIdx.ix2 a b)
      = A (ValueIdx.ix2 a b) := by
  obtain ⟨e00, e01, e10, e11, e20, e21, e30, e31, e40, e41, e50, e51⟩ := idx_6 t
  rw [View.read_apply]
  show A _ = A _
  congr 1
  funext x
  apply Fin.ext
  match x with
  | ⟨0, _⟩ => show win6_3.index t (0 : Fin 2) * 1 + 1 * a.val = a.val; rw [e30]; omega
  | ⟨1, _⟩ => show win6_3.index t (1 : Fin 2) * 1 + 1 * b.val = b.val; rw [e31]; omega

/-- Window 4's block at point t, read at (a, b). -/
theorem blk_read_6_4 (A : (⟨S4096x1, .f32⟩ : BufTy).Contents (Elt F)) (t : Fin cfg6.N) (a : Fin 512) (b : Fin 1) :
    ((cfg6.win 4).blk t).view.read (Elt F) A (ValueIdx.ix2 a b)
      = A (ValueIdx.ix2 (⟨t.val / 6 * 512 + a.val, by have := lt_6 t; omega⟩ : Fin 4096) b) := by
  obtain ⟨e00, e01, e10, e11, e20, e21, e30, e31, e40, e41, e50, e51⟩ := idx_6 t
  rw [View.read_apply]
  show A _ = A _
  congr 1
  funext x
  apply Fin.ext
  match x with
  | ⟨0, _⟩ => show win6_4.index t (0 : Fin 2) * 512 + 1 * a.val = t.val / 6 * 512 + a.val; rw [e40]; omega
  | ⟨1, _⟩ => show win6_4.index t (1 : Fin 2) * 1 + 1 * b.val = b.val; rw [e41]; omega

/-- Window 5's block at point t, read at (a, b). -/
theorem blk_read_6_5 (A : (⟨S4096x1, .bf16⟩ : BufTy).Contents (Elt F)) (t : Fin cfg6.N) (a : Fin 512) (b : Fin 1) :
    ((cfg6.win 5).blk t).view.read (Elt F) A (ValueIdx.ix2 a b)
      = A (ValueIdx.ix2 (⟨t.val / 6 * 512 + a.val, by have := lt_6 t; omega⟩ : Fin 4096) b) := by
  obtain ⟨e00, e01, e10, e11, e20, e21, e30, e31, e40, e41, e50, e51⟩ := idx_6 t
  rw [View.read_apply]
  show A _ = A _
  congr 1
  funext x
  apply Fin.ext
  match x with
  | ⟨0, _⟩ => show win6_5.index t (0 : Fin 2) * 512 + 1 * a.val = t.val / 6 * 512 + a.val; rw [e50]; omega
  | ⟨1, _⟩ => show win6_5.index t (1 : Fin 2) * 1 + 1 * b.val = b.val; rw [e51]; omega

/-- Every index of result array 0 lies in the block of a point that writes it back: the point of its
    block row and block column at the last step of the contraction axis. -/
theorem cover_6_4 (i : S4096x1.Idx) :
    ∃ t : Fin cfg6.N, (cfg6.win 4).flush t = true ∧ i ∈ ((cfg6.win 4).blk t).view.set := by
  have hi0 : (i 0).val < 4096 := (i 0).isLt
  have hi1 : (i 1).val < 1 := (i 1).isLt
  obtain ⟨t, ht⟩ : ∃ t : Fin cfg6.N, t.val = ((i 0).val / 512 * 1 + (i 1).val / 1) * 6 + 5 :=
    ⟨⟨((i 0).val / 512 * 1 + (i 1).val / 1) * 6 + 5, by show _ < grid6.N; rw [N_6]; omega⟩, rfl⟩
  obtain ⟨e00, e01, e10, e11, e20, e21, e30, e31, e40, e41, e50, e51⟩ := idx_6 t
  refine ⟨t, (flush6_4 t).mpr (by omega), ?_⟩
  show i ∈ ((View.whole main_v14_0).slice (win6_4.rect t)).set
  rw [View.set_slice_whole, Rect.mem_set_unit]
  intro x
  match x with
  | ⟨0, _⟩ => show win6_4.index t (0 : Fin 2) * 512 ≤ (i 0).val ∧ (i 0).val < win6_4.index t (0 : Fin 2) * 512 + 512; rw [e40]; omega
  | ⟨1, _⟩ => show win6_4.index t (1 : Fin 2) * 1 ≤ (i 1).val ∧ (i 1).val < win6_4.index t (1 : Fin 2) * 1 + 1; rw [e41]; omega

/-- Every index of result array 1 lies in the block of a point that writes it back: the point of its
    block row and block column at the last step of the contraction axis. -/
theorem cover_6_5 (i : S4096x1.Idx) :
    ∃ t : Fin cfg6.N, (cfg6.win 5).flush t = true ∧ i ∈ ((cfg6.win 5).blk t).view.set := by
  have hi0 : (i 0).val < 4096 := (i 0).isLt
  have hi1 : (i 1).val < 1 := (i 1).isLt
  obtain ⟨t, ht⟩ : ∃ t : Fin cfg6.N, t.val = ((i 0).val / 512 * 1 + (i 1).val / 1) * 6 + 5 :=
    ⟨⟨((i 0).val / 512 * 1 + (i 1).val / 1) * 6 + 5, by show _ < grid6.N; rw [N_6]; omega⟩, rfl⟩
  obtain ⟨e00, e01, e10, e11, e20, e21, e30, e31, e40, e41, e50, e51⟩ := idx_6 t
  refine ⟨t, (flush6_5 t).mpr (by omega), ?_⟩
  show i ∈ ((View.whole main_v14_1).slice (win6_5.rect t)).set
  rw [View.set_slice_whole, Rect.mem_set_unit]
  intro x
  match x with
  | ⟨0, _⟩ => show win6_5.index t (0 : Fin 2) * 512 ≤ (i 0).val ∧ (i 0).val < win6_5.index t (0 : Fin 2) * 512 + 512; rw [e50]; omega
  | ⟨1, _⟩ => show win6_5.index t (1 : Fin 2) * 1 ≤ (i 1).val ∧ (i 1).val < win6_5.index t (1 : Fin 2) * 1 + 1; rw [e51]; omega

end Cert.KernelIdeal.Blk
-- ==== Proof.KernelIdeal.Val6.lean ====
import proofs.«152868_j57621281243253_2_alg».proof.Proof.KernelIdeal.Rgn6
import proofs.«152868_j57621281243253_2_alg».proof.Proof.Pay6
import proofs.«152868_j57621281243253_2_alg».proof.Proof.Blk6
import proofs.«152868_j57621281243253_2_alg».proof.Proof.LibStoreThenLoad
import proofs.«152868_j57621281243253_2_alg».proof.Proof.SpecRow
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.KernelIdeal.Pay Cert.KernelIdeal.Blk

/-! Region 6's values. The grid's last coordinate runs over 6 steps of 1280 columns each: the first step resets the
    accumulator, every step adds the product of its column blocks, the last adds the bias row and stores the two output
    blocks. After step k the accumulator holds the dot products over the first (k + 1) · 1280 columns — by induction on the
    grid position — so after the last step over all 7680: the two output arrays end at the masked linear layer of the
    region's input arrays. -/

theorem hz2_6 : (![0, 0] : Fin 2 → Nat) = fun _ => 0 := funext fun a => by fin_cases a <;> rfl

/-- The resetting case leaves in the accumulator the zero block plus the point's product. -/
theorem sout6_A_eq (c : Dev nD) (i : grid6.Coords) (arg3 : Memref sig .tc .vmem S512x1280 .f32) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : cond6_0 i) (hc1 : ¬cond6_1 i)
    (x0 : Vec F S512x1280 .f32) (x1 : Vec F S1x1280 .f32) (x2 : Vec F S1x1280 .f32) (x3 : Vec F S1x1 .f32) :
    sout6_A c i arg3 harg3 arg4 harg4 arg5 harg5 arg6 harg6 arg7 harg7 arg8 harg8 arg9 harg9 hc0 hc1 x0 x1 x2 x3 = k6_pay2 x0 x1 x2 (k6_pay1 (F := F)) := by
  unfold sout6_A
  rw [View.read_writes_eq_canon _ _ _ (scover6_A c i arg3 harg3 arg4 harg4 arg5 harg5 arg6 harg6 arg7 harg7 arg8 harg8 arg9 harg9 hc0 hc1 x0 x1 x2 x3)]
  unfold kernelRun6_A
  dsimp only
  sl_unfold_words
  rw [View.canon_cons_unit_zero (S := S512x1) hz2_6, View.readCov_unit_zero (S := S512x1) _ hz2_6]
  simp only [View.readAt_eq_ld, harg3.read_unread, harg4.read_unread, harg5.read_unread, harg6.read_unread, harg9.read_unread,
    View.ld_unit_zero (S := S512x1280) hz2_6, View.ld_unit_zero (S := S1x1280) hz2_6, View.ld_unit_zero (S := S1x1) hz2_6, View.ld_unit_zero (S := S512x1) hz2_6]

/-- A middle case leaves in the accumulator what was carried in plus the point's product. -/
theorem sout6_B_eq (c : Dev nD) (i : grid6.Coords) (arg3 : Memref sig .tc .vmem S512x1280 .f32) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : ¬cond6_0 i) (hc1 : ¬cond6_1 i)
    (x0 : Vec F S512x1280 .f32) (x1 : Vec F S1x1280 .f32) (x2 : Vec F S1x1280 .f32) (x3 : Vec F S1x1 .f32) (xs0 : Vec F S512x1 .f32) :
    sout6_B c i arg3 harg3 arg4 harg4 arg5 harg5 arg6 harg6 arg7 harg7 arg8 harg8 arg9 harg9 hc0 hc1 x0 x1 x2 x3 xs0 = k6_pay2 x0 x1 x2 xs0 := by
  unfold sout6_B
  rw [View.read_writes_eq_canon _ _ _ (scover6_B c i arg3 harg3 arg4 harg4 arg5 harg5 arg6 harg6 arg7 harg7 arg8 harg8 arg9 harg9 hc0 hc1 x0 x1 x2 x3 xs0)]
  unfold kernelRun6_B
  dsimp only
  sl_unfold_words
  rw [View.canon_unit_zero hz2_6]
  simp only [View.readAt_eq_ld, harg3.read_unread, harg4.read_unread, harg5.read_unread, harg6.read_unread, harg9.read_unread,
    View.ld_unit_zero (S := S512x1280) hz2_6, View.ld_unit_zero (S := S1x1280) hz2_6, View.ld_unit_zero (S := S1x1) hz2_6, View.ld_unit_zero (S := S512x1) hz2_6]

/-- The storing case leaves the same in the accumulator, -/
theorem sout6_C_eq (c : Dev nD) (i : grid6.Coords) (arg3 : Memref sig .tc .vmem S512x1280 .f32) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : ¬cond6_0 i) (hc1 : cond6_1 i)
    (x0 : Vec F S512x1280 .f32) (x1 : Vec F S1x1280 .f32) (x2 : Vec F S1x1280 .f32) (x3 : Vec F S1x1 .f32) (xs0 : Vec F S512x1 .f32) :
    sout6_C c i arg3 harg3 arg4 harg4 arg5 harg5 arg6 harg6 arg7 harg7 arg8 harg8 arg9 harg9 hc0 hc1 x0 x1 x2 x3 xs0 = k6_pay2 x0 x1 x2 xs0 := by
  unfold sout6_C
  rw [View.read_writes_eq_canon _ _ _ (scover6_C c i arg3 harg3 arg4 harg4 arg5 harg5 arg6 harg6 arg7 harg7 arg8 harg8 arg9 harg9 hc0 hc1 x0 x1 x2 x3 xs0)]
  unfold kernelRun6_C
  dsimp only
  sl_unfold_words
  rw [View.canon_unit_zero hz2_6]
  simp only [View.readAt_eq_ld, harg3.read_unread, harg4.read_unread, harg5.read_unread, harg6.read_unread, harg9.read_unread,
    View.ld_unit_zero (S := S512x1280) hz2_6, View.ld_unit_zero (S := S1x1280) hz2_6, View.ld_unit_zero (S := S1x1) hz2_6, View.ld_unit_zero (S := S512x1) hz2_6]
/-- in the first output's buffer the bias added to it, -/
theorem out6_C_4_eq (c : Dev nD) (i : grid6.Coords) (arg3 : Memref sig .tc .vmem S512x1280 .f32) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : ¬cond6_0 i) (hc1 : cond6_1 i)
    (x0 : Vec F S512x1280 .f32) (x1 : Vec F S1x1280 .f32) (x2 : Vec F S1x1280 .f32) (x3 : Vec F S1x1 .f32) (xs0 : Vec F S512x1 .f32) :
    out6_C_4 c i arg3 harg3 arg4 harg4 arg5 harg5 arg6 harg6 arg7 harg7 arg8 harg8 arg9 harg9 hc0 hc1 x0 x1 x2 x3 xs0 = k6_pay3 (k6_pay2 x0 x1 x2 xs0) x3 := by
  unfold out6_C_4
  rw [View.read_writes_eq_canon _ _ _ (cover6_C_4 c i arg3 harg3 arg4 harg4 arg5 harg5 arg6 harg6 arg7 harg7 arg8 harg8 arg9 harg9 hc0 hc1 x0 x1 x2 x3 xs0)]
  unfold kernelRun6_C
  dsimp only
  sl_unfold_words
  rw [View.canon_unit_zero hz2_6]
  rw [View.readCov_unit_zero (S := S512x1) _ hz2_6]
  simp only [View.readAt_eq_ld, harg3.read_unread, harg4.read_unread, harg5.read_unread, harg6.read_unread, harg9.read_unread,
    View.ld_unit_zero (S := S512x1280) hz2_6, View.ld_unit_zero (S := S1x1280) hz2_6, View.ld_unit_zero (S := S1x1) hz2_6, View.ld_unit_zero (S := S512x1) hz2_6]
/-- and in the second output's buffer the second payload of the same. -/
theorem out6_C_5_eq (c : Dev nD) (i : grid6.Coords) (arg3 : Memref sig .tc .vmem S512x1280 .f32) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x1 .bf16) (harg8 : arg8.IsWhole) (arg9 : Memref sig .tc .vmem S512x1 .f32) (harg9 : arg9.IsWhole) (hc0 : ¬cond6_0 i) (hc1 : cond6_1 i)
    (x0 : Vec F S512x1280 .f32) (x1 : Vec F S1x1280 .f32) (x2 : Vec F S1x1280 .f32) (x3 : Vec F S1x1 .f32) (xs0 : Vec F S512x1 .f32) :
    out6_C_5 c i arg3 harg3 arg4 harg4 arg5 harg5 arg6 harg6 arg7 harg7 arg8 harg8 arg9 harg9 hc0 hc1 x0 x1 x2 x3 xs0 = k6_pay4 (k6_pay2 x0 x1 x2 xs0) x3 := by
  unfold out6_C_5
  rw [View.read_writes_eq_canon _ _ _ (cover6_C_5 c i arg3 harg3 arg4 harg4 arg5 harg5 arg6 harg6 arg7 harg7 arg8 harg8 arg9 harg9 hc0 hc1 x0 x1 x2 x3 xs0)]
  unfold kernelRun6_C
  dsimp only
  sl_unfold_words
  rw [View.canon_unit_zero hz2_6]
  rw [View.readCov_unit_zero (S := S512x1) _ hz2_6]
  simp only [View.readAt_eq_ld, harg3.read_unread, harg4.read_unread, harg5.read_unread, harg6.read_unread, harg9.read_unread,
    View.ld_unit_zero (S := S512x1280) hz2_6, View.ld_unit_zero (S := S1x1280) hz2_6, View.ld_unit_zero (S := S1x1) hz2_6, View.ld_unit_zero (S := S512x1) hz2_6]

/-- One point's accumulator at an entry, over any blocks and any carried-in accumulator. -/
theorem pointAcc6 (x0 : Vec Ideal S512x1280 .f32) (x1 x2 : Vec Ideal S1x1280 .f32) (xs0 : Vec Ideal S512x1 .f32) (p : Fin 512) (q : Fin 1) :
    k6_pay2 (F := Ideal) x0 x1 x2 xs0 (ix2 p q)
      = xs0 (ix2 p q) + ∑ k : Fin 1280, x0 (ix2 p k) * (x1 (ix2 q k) * x2 (ix2 q k)) := by
  obtain rfl : q = (0 : Fin 1) := Subsingleton.elim _ _
  rw [pay2_6]
theorem pointPre6 (x0 : Vec Ideal S512x1280 .f32) (x1 x2 : Vec Ideal S1x1280 .f32) (x3 : Vec Ideal S1x1 .f32) (xs0 : Vec Ideal S512x1 .f32) (p : Fin 512) (q : Fin 1) :
    k6_pay3 (F := Ideal) (k6_pay2 x0 x1 x2 xs0) x3 (ix2 p q)
      = (xs0 (ix2 p q) + ∑ k : Fin 1280, x0 (ix2 p k) * (x1 (ix2 q k) * x2 (ix2 q k))) + x3 (ix2 (0 : Fin 1) q) := by
  rw [pay3_6, pointAcc6]
theorem pointPost6 (x0 : Vec Ideal S512x1280 .f32) (x1 x2 : Vec Ideal S1x1280 .f32) (x3 : Vec Ideal S1x1 .f32) (xs0 : Vec Ideal S512x1 .f32) (p : Fin 512) (q : Fin 1) :
    k6_pay4 (F := Ideal) (k6_pay2 x0 x1 x2 xs0) x3 (ix2 p q)
      = (xs0 (ix2 p q) + ∑ k : Fin 1280, x0 (ix2 p k) * (x1 (ix2 q k) * x2 (ix2 q k))) + x3 (ix2 (0 : Fin 1) q) := by
  rw [pay4_6, pointAcc6]

variable (V : (c : Dev nD) → (b : Ref sig .tc) → Buf (Elt Ideal) ((c : Thread nD τ).loc b))

/-- The region's input arrays, as arrays of extended reals, and its input blocks at a point, as vectors. -/
abbrev X6 (c : Dev nD) : Cert.Mlp.Arr ⟨2, ![4096, 7680]⟩ := V c main_v12
abbrev W6 (c : Dev nD) : Cert.Mlp.Arr ⟨2, ![1, 7680]⟩ := V c main_arg19
abbrev M6 (c : Dev nD) : Cert.Mlp.Arr ⟨2, ![1, 7680]⟩ := V c main_arg21
abbrev ib6_0 (c : Dev nD) (t : Fin cfg6.N) : Vec Ideal S512x1280 .f32 := iblk6 V c 0 t
abbrev ib6_1 (c : Dev nD) (t : Fin cfg6.N) : Vec Ideal S1x1280 .f32 := iblk6 V c 1 t
abbrev ib6_2 (c : Dev nD) (t : Fin cfg6.N) : Vec Ideal S1x1280 .f32 := iblk6 V c 2 t
abbrev ib6_3 (c : Dev nD) (t : Fin cfg6.N) : Vec Ideal S1x1 .f32 := iblk6 V c 3 t

/-- Term `l` of the dot product of row `a` of the activations with row `b` of the masked weight (zero outside the arrays). -/
def term6 (c : Dev nD) (a b l : ℕ) : EReal :=
  if h : a < 4096 ∧ b < 1 ∧ l < 7680 then
    X6 V c (ix2 (⟨a, h.1⟩ : Fin 4096) (⟨l, h.2.2⟩ : Fin 7680)) * (W6 V c (ix2 (⟨b, h.2.1⟩ : Fin 1) (⟨l, h.2.2⟩ : Fin 7680)) * M6 V c (ix2 (⟨b, h.2.1⟩ : Fin 1) (⟨l, h.2.2⟩ : Fin 7680)))
  else 0

theorem ltN6 (n : ℕ) (hn : n < cfg6.N) : n < 48 := lt_of_lt_of_eq hn N_6

/-- One point's product is the next 1280 terms. -/
theorem step6 (c : Dev nD) (t : Fin cfg6.N) (p : Fin 512) (q : Fin 1) :
    ∑ k : Fin 1280, ib6_0 V c t (ix2 p k) * (ib6_1 V c t (ix2 q k) * ib6_2 V c t (ix2 q k))
      = ∑ x ∈ Finset.range 1280, term6 V c (t.val / 6 * 512 + p.val) (q.val) (t.val % 6 * 1280 + x) := by
  rw [Finset.sum_range]
  refine Finset.sum_congr rfl fun k _ => ?_
  have ht := lt_6 t
  have hk : t.val / 6 * 512 + p.val < 4096 ∧ q.val < 1 ∧ t.val % 6 * 1280 + k.val < 7680 := by
    have := k.isLt; have := p.isLt; have := q.isLt; omega
  unfold term6; rw [dif_pos hk]
  have e0 : ib6_0 V c t (ix2 p k) = _ := blk_read_6_0 (F := Ideal) (V c main_v12) t p k
  have e1 : ib6_1 V c t (ix2 q k) = _ := blk_read_6_1 (F := Ideal) (V c main_arg19) t q k
  have e2 : ib6_2 V c t (ix2 q k) = _ := blk_read_6_2 (F := Ideal) (V c main_arg21) t q k
  rw [e0, e1, e2]

/-- What each case leaves, at a grid point, as payloads of the point's blocks and of what the point before left. -/
theorem accA6 (c : Dev nD) (t : Fin cfg6.N) (h0 : t.val % 6 = 0) (h1 : ¬t.val % 6 = 5) :
    (outsAt6 V c t.val t.isLt).2.2 = k6_pay2 (F := Ideal) (ib6_0 V c t) (ib6_1 V c t) (ib6_2 V c t) (k6_pay1 (F := Ideal)) := by
  rw [outsAt6_A V c t h0 h1]
  dsimp only
  exact sout6_A_eq (F := Ideal) c _ _ _ _ _ _ _ _ _ _ _ _ _ _ _ _ _ _ _ _ _
theorem accB6 (c : Dev nD) (t : Fin cfg6.N) (h0 : ¬t.val % 6 = 0) (h1 : ¬t.val % 6 = 5) :
    (outsAt6 V c t.val t.isLt).2.2 = k6_pay2 (F := Ideal) (ib6_0 V c t) (ib6_1 V c t) (ib6_2 V c t) (outsAt6 V c (t.val - 1) (Nat.lt_of_le_of_lt (Nat.sub_le _ _) t.isLt)).2.2 := by
  rw [outsAt6_B V c t h0 h1]
  dsimp only
  exact sout6_B_eq (F := Ideal) c _ _ _ _ _ _ _ _ _ _ _ _ _ _ _ _ _ _ _ _ _ _
theorem accC6 (c : Dev nD) (t : Fin cfg6.N) (h0 : ¬t.val % 6 = 0) (h1 : t.val % 6 = 5) :
    (outsAt6 V c t.val t.isLt).2.2 = k6_pay2 (F := Ideal) (ib6_0 V c t) (ib6_1 V c t) (ib6_2 V c t) (outsAt6 V c (t.val - 1) (Nat.lt_of_le_of_lt (Nat.sub_le _ _) t.isLt)).2.2 := by
  rw [outsAt6_C V c t h0 h1]
  dsimp only
  exact sout6_C_eq (F := Ideal) c _ _ _ _ _ _ _ _ _ _ _ _ _ _ _ _ _ _ _ _ _ _
theorem outC4_6 (c : Dev nD) (t : Fin cfg6.N) (h0 : ¬t.val % 6 = 0) (h1 : t.val % 6 = 5) :
    (outsAt6 V c t.val t.isLt).1 = k6_pay3 (F := Ideal) (k6_pay2 (F := Ideal) (ib6_0 V c t) (ib6_1 V c t) (ib6_2 V c t) (outsAt6 V c (t.val - 1) (Nat.lt_of_le_of_lt (Nat.sub_le _ _) t.isLt)).2.2) (ib6_3 V c t) := by
  rw [outsAt6_C V c t h0 h1]
  dsimp only
  exact out6_C_4_eq (F := Ideal) c _ _ _ _ _ _ _ _ _ _ _ _ _ _ _ _ _ _ _ _ _ _
theorem outC5_6 (c : Dev nD) (t : Fin cfg6.N) (h0 : ¬t.val % 6 = 0) (h1 : t.val % 6 = 5) :
    (outsAt6 V c t.val t.isLt).2.1 = k6_pay4 (F := Ideal) (k6_pay2 (F := Ideal) (ib6_0 V c t) (ib6_1 V c t) (ib6_2 V c t) (outsAt6 V c (t.val - 1) (Nat.lt_of_le_of_lt (Nat.sub_le _ _) t.isLt)).2.2) (ib6_3 V c t) := by
  rw [outsAt6_C V c t h0 h1]
  dsimp only
  exact out6_C_5_eq (F := Ideal) c _ _ _ _ _ _ _ _ _ _ _ _ _ _ _ _ _ _ _ _ _ _

/-- THE ACCUMULATOR'S CLOSED FORM: after position `n` it holds, at `(p, q)`, the sum of the first `(n % 6 + 1) · 1280`
    terms of the dot product of the position's rows. By induction on the position. -/
theorem acc6 (c : Dev nD) : ∀ (n : ℕ) (hn : n < cfg6.N) (p : Fin 512) (q : Fin 1),
    (outsAt6 V c n hn).2.2 (ix2 p q)
      = ∑ l ∈ Finset.range ((n % 6 + 1) * 1280), term6 V c (n / 6 * 512 + p.val) (q.val) l := by
  intro n
  induction n using Nat.strong_induction_on with
  | _ n ih =>
    intro hn p q
    have hN := ltN6 n hn
    by_cases h0 : n % 6 = 0
    · have h1 : ¬n % 6 = 5 := by omega
      refine (congrFun (accA6 V c ⟨n, hn⟩ h0 h1) (ix2 p q)).trans ?_
      refine (pointAcc6 _ _ _ _ p q).trans ?_
      rw [pay1_6, zero_add]
      refine (step6 V c ⟨n, hn⟩ p q).trans ?_
      show ∑ x ∈ Finset.range 1280, term6 V c (n / 6 * 512 + p.val) (q.val) (n % 6 * 1280 + x) = _
      rw [h0]
      simp only [Nat.zero_mul, Nat.zero_add, Nat.one_mul]
    · have hpos : 0 < n := by omega
      have hprev : n - 1 < n := by omega
      have hprevN : n - 1 < cfg6.N := lt_trans hprev hn
      have IH := ih (n - 1) hprev hprevN p q
      have eX : (n - 1) / 6 * 512 + p.val = n / 6 * 512 + p.val := by omega
      have eK : (n - 1) % 6 + 1 = n % 6 := by omega
      rw [eX, eK] at IH
      have hsum : ∑ l ∈ Finset.range ((n % 6 + 1) * 1280), term6 V c (n / 6 * 512 + p.val) (q.val) l
          = (∑ l ∈ Finset.range (n % 6 * 1280), term6 V c (n / 6 * 512 + p.val) (q.val) l)
            + ∑ x ∈ Finset.range 1280, term6 V c (n / 6 * 512 + p.val) (q.val) (n % 6 * 1280 + x) := by
        rw [show (n % 6 + 1) * 1280 = n % 6 * 1280 + 1280 from by ring, Finset.sum_range_add]
      refine Eq.trans ?_ hsum.symm
      refine Eq.trans ?_ (congrArg (fun z => z + ∑ x ∈ Finset.range 1280, term6 V c (n / 6 * 512 + p.val) (q.val) (n % 6 * 1280 + x)) IH)
      by_cases h1 : n % 6 = 5
      · refine (congrFun (accC6 V c ⟨n, hn⟩ h0 h1) (ix2 p q)).trans ?_
        refine (pointAcc6 _ _ _ _ p q).trans ?_
        exact congrArg (fun z => _ + z) (step6 V c ⟨n, hn⟩ p q)
      · refine (congrFun (accB6 V c ⟨n, hn⟩ h0 h1) (ix2 p q)).trans ?_
        refine (pointAcc6 _ _ _ _ p q).trans ?_
        exact congrArg (fun z => _ + z) (step6 V c ⟨n, hn⟩ p q)

/-- The masked linear layer of the region's four input arrays: what the first output array ends holding. -/
abbrev G6 (c : Dev nD) : Cert.Mlp.Arr ⟨2, ![4096, 1]⟩ :=
  Cert.Mlp.linR (B := 4096) (N := 1) (K := 7680) (V c main_v12) (V c main_arg19) (V c main_arg21) (V c main_v13)

/-- All 7680 terms are the whole dot product. -/
theorem whole6 (c : Dev nD) (a : Fin 4096) (b : Fin 1) :
    ∑ l ∈ Finset.range 7680, term6 V c a.val b.val l
      = ∑ k : Fin 7680, X6 V c (ix2 a k) * (W6 V c (ix2 b k) * M6 V c (ix2 b k)) := by
  rw [Finset.sum_range]
  refine Finset.sum_congr rfl fun k _ => ?_
  unfold term6; rw [dif_pos ⟨a.isLt, b.isLt, k.isLt⟩]

theorem flushed6_4 (c : Dev nD) (t : Fin cfg6.N) (hf : (cfg6.win 4).flush t = true) :
    (dat6 V c).flushed 4 t = ((cfg6.win 4).blk t).view.read (Elt Ideal) (G6 V c) := by
  have ht := lt_6 t
  have h1 : t.val % 6 = 5 := (flush6_4 t).mp hf
  have h0 : ¬t.val % 6 = 0 := by omega
  show (cfg6.win 4).cut (grid6.coords t) ((dat6 V c).after 4 t) = _
  rw [after6_4, outC4_6 V c t h0 h1]
  funext y
  obtain ⟨p, q, rfl⟩ : ∃ (p : Fin 512) (q : Fin 1), y = ix2 p q := ⟨y 0, y 1, eq_ix2 y⟩
  refine (pointPre6 _ _ _ _ _ p q).trans ?_
  have hacc := acc6 V c (t.val - 1) (Nat.lt_of_le_of_lt (Nat.sub_le _ _) t.isLt) p q
  have eX : (t.val - 1) / 6 * 512 + p.val = t.val / 6 * 512 + p.val := by omega
  have eK : (t.val - 1) % 6 + 1 = t.val % 6 := by omega
  rw [eX, eK, h1] at hacc
  have hstep := step6 V c t p q
  rw [h1] at hstep
  have hX : t.val / 6 * 512 + p.val < 4096 := by have := p.isLt; omega
  have hW : q.val < 1 := by have := q.isLt; omega
  have hall : (outsAt6 V c (t.val - 1) (Nat.lt_of_le_of_lt (Nat.sub_le _ _) t.isLt)).2.2 (ix2 p q)
      + ∑ k : Fin 1280, ib6_0 V c t (ix2 p k) * (ib6_1 V c t (ix2 q k) * ib6_2 V c t (ix2 q k))
      = ∑ k : Fin 7680, X6 V c (ix2 (⟨t.val / 6 * 512 + p.val, hX⟩ : Fin 4096) k) * (W6 V c (ix2 (⟨q.val, hW⟩ : Fin 1) k) * M6 V c (ix2 (⟨q.val, hW⟩ : Fin 1) k)) := by
    rw [hacc, hstep, ← Finset.sum_range_add]
    exact whole6 V c ⟨_, hX⟩ ⟨_, hW⟩
  have e3 : ib6_3 V c t (ix2 (0 : Fin 1) q) = _ := blk_read_6_3 (F := Ideal) (V c main_v13) t (0 : Fin 1) q
  refine (congrArg (fun z => z + ib6_3 V c t (ix2 (0 : Fin 1) q)) hall).trans ?_
  rw [e3, blk_read_6_4 (F := Ideal) (G6 V c) t p q]
  rfl

theorem flushed6_5 (c : Dev nD) (t : Fin cfg6.N) (hf : (cfg6.win 5).flush t = true) :
    (dat6 V c).flushed 5 t = ((cfg6.win 5).blk t).view.read (Elt Ideal) (G6 V c) := by
  have ht := lt_6 t
  have h1 : t.val % 6 = 5 := (flush6_5 t).mp hf
  have h0 : ¬t.val % 6 = 0 := by omega
  show (cfg6.win 5).cut (grid6.coords t) ((dat6 V c).after 5 t) = _
  rw [after6_5, outC5_6 V c t h0 h1]
  funext y
  obtain ⟨p, q, rfl⟩ : ∃ (p : Fin 512) (q : Fin 1), y = ix2 p q := ⟨y 0, y 1, eq_ix2 y⟩
  refine (pointPost6 _ _ _ _ _ p q).trans ?_
  have hacc := acc6 V c (t.val - 1) (Nat.lt_of_le_of_lt (Nat.sub_le _ _) t.isLt) p q
  have eX : (t.val - 1) / 6 * 512 + p.val = t.val / 6 * 512 + p.val := by omega
  have eK : (t.val - 1) % 6 + 1 = t.val % 6 := by omega
  rw [eX, eK, h1] at hacc
  have hstep := step6 V c t p q
  rw [h1] at hstep
  have hX : t.val / 6 * 512 + p.val < 4096 := by have := p.isLt; omega
  have hW : q.val < 1 := by have := q.isLt; omega
  have hall : (outsAt6 V c (t.val - 1) (Nat.lt_of_le_of_lt (Nat.sub_le _ _) t.isLt)).2.2 (ix2 p q)
      + ∑ k : Fin 1280, ib6_0 V c t (ix2 p k) * (ib6_1 V c t (ix2 q k) * ib6_2 V c t (ix2 q k))
      = ∑ k : Fin 7680, X6 V c (ix2 (⟨t.val / 6 * 512 + p.val, hX⟩ : Fin 4096) k) * (W6 V c (ix2 (⟨q.val, hW⟩ : Fin 1) k) * M6 V c (ix2 (⟨q.val, hW⟩ : Fin 1) k)) := by
    rw [hacc, hstep, ← Finset.sum_range_add]
    exact whole6 V c ⟨_, hX⟩ ⟨_, hW⟩
  have e3 : ib6_3 V c t (ix2 (0 : Fin 1) q) = _ := blk_read_6_3 (F := Ideal) (V c main_v13) t (0 : Fin 1) q
  refine (congrArg (fun z => z + ib6_3 V c t (ix2 (0 : Fin 1) q)) hall).trans ?_
  rw [e3, blk_read_6_5 (F := Ideal) (G6 V c) t p q]
  rfl

/-- The first output array ends at the masked linear layer of the region's input arrays, -/
theorem final6_pre (c : Dev nD) : (dat6 V c).arrAt 4 cfg6.N = G6 V c :=
  (dat6 V c).arrAt_eq_of_cover 4 (G6 V c) (flushed6_4 V c) (cover_6_4)
/-- and the second at the same. -/
theorem final6_post (c : Dev nD) : (dat6 V c).arrAt 5 cfg6.N = G6 V c :=
  (dat6 V c).arrAt_eq_of_cover 5 (G6 V c) (flushed6_5 V c) (cover_6_5)

end Cert.KernelIdeal.Hand

end
-- ==== Proof.RefLib.lean ====
/-
  The reference program's arguments gathered into the network's argument record, and the two ways a stage of the
  reference is recognised as a stage of the network: a masked linear layer from its value at every row and output
  feature, and the positive part from its value at every index.
-/
import proofs.«152868_j57621281243253_2_alg».proof.Proof.Spec
import proofs.«152868_j57621281243253_2_alg».proof.Proof.Gen.ReferenceIdeal.Read

noncomputable section

namespace Cert.RefSide

open Cert.ReferenceIdeal Cert.ReferenceIdeal.Gen Cert.ReferenceIdeal.Read Idealize.ShloMosaic Idealize.ShloMosaic.ValueIdx Cert.Mlp

/-- The programs' arguments, in the programs' order, as the network's argument record. -/
abbrev args (x0 : (⟨S4096x8192, .f32⟩ : BufTy).Contents (Elt Ideal)) (x1 : (⟨S4096x8192, .f32⟩ : BufTy).Contents (Elt Ideal)) (x2 : (⟨S4096, .f32⟩ : BufTy).Contents (Elt Ideal)) (x3 : (⟨S4096x8192, .f32⟩ : BufTy).Contents (Elt Ideal)) (x4 : (⟨S2048x4096, .f32⟩ : BufTy).Contents (Elt Ideal)) (x5 : (⟨S2048, .f32⟩ : BufTy).Contents (Elt Ideal)) (x6 : (⟨S2048x4096, .f32⟩ : BufTy).Contents (Elt Ideal)) (x7 : (⟨S1024x2048, .f32⟩ : BufTy).Contents (Elt Ideal)) (x8 : (⟨S1024, .f32⟩ : BufTy).Contents (Elt Ideal)) (x9 : (⟨S1024x2048, .f32⟩ : BufTy).Contents (Elt Ideal)) (x10 : (⟨S512x1024, .f32⟩ : BufTy).Contents (Elt Ideal)) (x11 : (⟨S512, .f32⟩ : BufTy).Contents (Elt Ideal)) (x12 : (⟨S512x1024, .f32⟩ : BufTy).Contents (Elt Ideal)) (x13 : (⟨S256x512, .f32⟩ : BufTy).Contents (Elt Ideal)) (x14 : (⟨S256, .f32⟩ : BufTy).Contents (Elt Ideal)) (x15 : (⟨S256x512, .f32⟩ : BufTy).Contents (Elt Ideal)) (x16 : (⟨S1x256, .f32⟩ : BufTy).Contents (Elt Ideal)) (x17 : (⟨S1, .f32⟩ : BufTy).Contents (Elt Ideal)) (x18 : (⟨S1x256, .f32⟩ : BufTy).Contents (Elt Ideal)) (x19 : (⟨S1x7680, .f32⟩ : BufTy).Contents (Elt Ideal)) (x20 : (⟨S1, .f32⟩ : BufTy).Contents (Elt Ideal)) (x21 : (⟨S1x7680, .f32⟩ : BufTy).Contents (Elt Ideal)) (x22 : (⟨S_, .f32⟩ : BufTy).Contents (Elt Ideal)) : Cert.Mlp.Args :=
  ⟨x0, x1, x2, x3, x4, x5, x6, x7, x8, x9, x10, x11, x12, x13, x14, x15, x16, x17, x18, x19, x20, x21, x22⟩

/-- An array whose entry at row `p` and feature `q` is the dot product of row `p` of `x` with row `q` of `w ∘ m`,
    plus `b q`, is the masked linear layer. -/
theorem lin_of_reads {B N K : Nat} (x : Arr ⟨2, ![B, K]⟩) (w m : Arr ⟨2, ![N, K]⟩) (b : Arr ⟨1, ![N]⟩)
    (out : Arr ⟨2, ![B, N]⟩)
    (h : ∀ (p : Fin B) (q : Fin N),
      out (ix2 p q) = (∑ k : Fin K, x (ix2 p k) * (w (ix2 q k) * m (ix2 q k))) + b (ix1 q)) :
    out = lin x w m b := by
  funext j
  obtain ⟨p, q, rfl⟩ : ∃ (p : Fin B) (q : Fin N), j = ix2 p q := ⟨j 0, j 1, eq_ix2 j⟩
  exact h p q

/-- An array whose every entry is the larger of `v`'s entry and zero is the positive part of `v`. -/
theorem pos_of_reads {s : Shape} (v out : Arr s) (h : ∀ j : s.Idx, out j = max (v j) 0) : out = pos v :=
  funext h

end Cert.RefSide

end
-- ==== Proof.RefL0.lean ====
/-
  The reference's first layer: the stage after the bias add is the network's first masked linear layer of the
  arguments, and the stage after the maximum with the zero array is its positive part.
-/
import proofs.«152868_j57621281243253_2_alg».proof.Proof.RefLib

noncomputable section

namespace Cert.RefSide

open Cert.ReferenceIdeal Cert.ReferenceIdeal.Gen Cert.ReferenceIdeal.Read Idealize.ShloMosaic Idealize.ShloMosaic.ValueIdx Cert.Mlp

/-- The first layer's stage at row `p` and feature `q`: the transposed masked weight read at `(k, q)` is the masked
    weight at `(q, k)`, and the bias spread over the rows is the bias at `q`. -/
theorem v5_at (x0 : (⟨S4096x8192, .f32⟩ : BufTy).Contents (Elt Ideal)) (x1 : (⟨S4096x8192, .f32⟩ : BufTy).Contents (Elt Ideal)) (x2 : (⟨S4096, .f32⟩ : BufTy).Contents (Elt Ideal)) (x3 : (⟨S4096x8192, .f32⟩ : BufTy).Contents (Elt Ideal)) (p : Fin 4096) (q : Fin 4096) :
    val_main_v5 (F := Ideal) x0 x1 x2 x3 (ix2 p q)
      = (∑ k : Fin 8192, x0 (ix2 p k) * (x1 (ix2 q k) * x3 (ix2 q k))) + x2 (ix1 q) := by
  have hl : ∀ k : Fin 8192, lidx_main_v2 (ix2 p q) k = ix2 p k := fun k => funext fun a => by
    match a with | ⟨0, _⟩ => rfl | ⟨1, _⟩ => rfl
  have hr : ∀ k : Fin 8192, idx_main_v1 (ridx_main_v2 (ix2 p q) k) = ix2 q k := fun k => funext fun a => by
    match a with | ⟨0, _⟩ => rfl | ⟨1, _⟩ => rfl
  have hb : idx_main_v3 (idx_main_v4 (ix2 p q)) = ix1 q := funext fun a => by
    match a with | ⟨0, _⟩ => rfl
  rw [val_main_v5_apply, val_main_v2_apply, val_main_v4_apply, val_main_v3_apply, hb]
  simp only [val_main_v1_apply, val_main_v0_apply, hl, hr, Ideal.addf_def, Ideal.mulf_def]

/-- The first layer's stage is the network's first masked linear layer. -/
theorem v5_eq (x0 : (⟨S4096x8192, .f32⟩ : BufTy).Contents (Elt Ideal)) (x1 : (⟨S4096x8192, .f32⟩ : BufTy).Contents (Elt Ideal)) (x2 : (⟨S4096, .f32⟩ : BufTy).Contents (Elt Ideal)) (x3 : (⟨S4096x8192, .f32⟩ : BufTy).Contents (Elt Ideal)) (x4 : (⟨S2048x4096, .f32⟩ : BufTy).Contents (Elt Ideal)) (x5 : (⟨S2048, .f32⟩ : BufTy).Contents (Elt Ideal)) (x6 : (⟨S2048x4096, .f32⟩ : BufTy).Contents (Elt Ideal)) (x7 : (⟨S1024x2048, .f32⟩ : BufTy).Contents (Elt Ideal)) (x8 : (⟨S1024, .f32⟩ : BufTy).Contents (Elt Ideal)) (x9 : (⟨S1024x2048, .f32⟩ : BufTy).Contents (Elt Ideal)) (x10 : (⟨S512x1024, .f32⟩ : BufTy).Contents (Elt Ideal)) (x11 : (⟨S512, .f32⟩ : BufTy).Contents (Elt Ideal)) (x12 : (⟨S512x1024, .f32⟩ : BufTy).Contents (Elt Ideal)) (x13 : (⟨S256x512, .f32⟩ : BufTy).Contents (Elt Ideal)) (x14 : (⟨S256, .f32⟩ : BufTy).Contents (Elt Ideal)) (x15 : (⟨S256x512, .f32⟩ : BufTy).Contents (Elt Ideal)) (x16 : (⟨S1x256, .f32⟩ : BufTy).Contents (Elt Ideal)) (x17 : (⟨S1, .f32⟩ : BufTy).Contents (Elt Ideal)) (x18 : (⟨S1x256, .f32⟩ : BufTy).Contents (Elt Ideal)) (x19 : (⟨S1x7680, .f32⟩ : BufTy).Contents (Elt Ideal)) (x20 : (⟨S1, .f32⟩ : BufTy).Contents (Elt Ideal)) (x21 : (⟨S1x7680, .f32⟩ : BufTy).Contents (Elt Ideal)) (x22 : (⟨S_, .f32⟩ : BufTy).Contents (Elt Ideal)) :
    val_main_v5 (F := Ideal) x0 x1 x2 x3 = Cert.Mlp.pre0 (args x0 x1 x2 x3 x4 x5 x6 x7 x8 x9 x10 x11 x12 x13 x14 x15 x16 x17 x18 x19 x20 x21 x22) :=
  lin_of_reads x0 x1 x3 x2 _ (v5_at x0 x1 x2 x3)

/-- The zero array the first maximum is taken against, at any index. -/
theorem call0_zero (j : S4096x4096.Idx) : val_main_call0_v0 (F := Ideal) j = 0 := by
  rw [val_main_call0_v0_apply, val_main_call0_cst_apply, Ideal.ofBits_def, Ideal.ofBits_zero_f32]

/-- The first layer's stage after the maximum is the positive part of the first masked linear layer. -/
theorem v6_eq (x0 : (⟨S4096x8192, .f32⟩ : BufTy).Contents (Elt Ideal)) (x1 : (⟨S4096x8192, .f32⟩ : BufTy).Contents (Elt Ideal)) (x2 : (⟨S4096, .f32⟩ : BufTy).Contents (Elt Ideal)) (x3 : (⟨S4096x8192, .f32⟩ : BufTy).Contents (Elt Ideal)) (x4 : (⟨S2048x4096, .f32⟩ : BufTy).Contents (Elt Ideal)) (x5 : (⟨S2048, .f32⟩ : BufTy).Contents (Elt Ideal)) (x6 : (⟨S2048x4096, .f32⟩ : BufTy).Contents (Elt Ideal)) (x7 : (⟨S1024x2048, .f32⟩ : BufTy).Contents (Elt Ideal)) (x8 : (⟨S1024, .f32⟩ : BufTy).Contents (Elt Ideal)) (x9 : (⟨S1024x2048, .f32⟩ : BufTy).Contents (Elt Ideal)) (x10 : (⟨S512x1024, .f32⟩ : BufTy).Contents (Elt Ideal)) (x11 : (⟨S512, .f32⟩ : BufTy).Contents (Elt Ideal)) (x12 : (⟨S512x1024, .f32⟩ : BufTy).Contents (Elt Ideal)) (x13 : (⟨S256x512, .f32⟩ : BufTy).Contents (Elt Ideal)) (x14 : (⟨S256, .f32⟩ : BufTy).Contents (Elt Ideal)) (x15 : (⟨S256x512, .f32⟩ : BufTy).Contents (Elt Ideal)) (x16 : (⟨S1x256, .f32⟩ : BufTy).Contents (Elt Ideal)) (x17 : (⟨S1, .f32⟩ : BufTy).Contents (Elt Ideal)) (x18 : (⟨S1x256, .f32⟩ : BufTy).Contents (Elt Ideal)) (x19 : (⟨S1x7680, .f32⟩ : BufTy).Contents (Elt Ideal)) (x20 : (⟨S1, .f32⟩ : BufTy).Contents (Elt Ideal)) (x21 : (⟨S1x7680, .f32⟩ : BufTy).Contents (Elt Ideal)) (x22 : (⟨S_, .f32⟩ : BufTy).Contents (Elt Ideal)) :
    val_main_v6 (F := Ideal) x0 x1 x2 x3 = Cert.Mlp.pos (Cert.Mlp.pre0 (args x0 x1 x2 x3 x4 x5 x6 x7 x8 x9 x10 x11 x12 x13 x14 x15 x16 x17 x18 x19 x20 x21 x22)) := by
  refine pos_of_reads _ _ fun j => ?_
  rw [val_main_v6_apply, call0_zero, v5_eq x0 x1 x2 x3 x4 x5 x6 x7 x8 x9 x10 x11 x12 x13 x14 x15 x16 x17 x18 x19 x20 x21 x22, Ideal.maximumf_def]

end Cert.RefSide

end
-- ==== Proof.RefL1.lean ====
/-
  The reference's second layer: the stage after the bias add is the network's second masked linear layer,
  and the stage after the maximum with the zero array is its positive part.
-/
import proofs.«152868_j57621281243253_2_alg».proof.Proof.RefL0

noncomputable section

namespace Cert.RefSide

open Cert.ReferenceIdeal Cert.ReferenceIdeal.Gen Cert.ReferenceIdeal.Read Idealize.ShloMosaic Idealize.ShloMosaic.ValueIdx Cert.Mlp

/-- The second layer's stage at row `p` and feature `q`, over the previous layer's positive part: the transposed
    masked weight read at `(k, q)` is the masked weight at `(q, k)`, and the bias spread over the rows is the bias at `q`. -/
theorem v12_at (x0 : (⟨S4096x8192, .f32⟩ : BufTy).Contents (Elt Ideal)) (x1 : (⟨S4096x8192, .f32⟩ : BufTy).Contents (Elt Ideal)) (x2 : (⟨S4096, .f32⟩ : BufTy).Contents (Elt Ideal)) (x3 : (⟨S4096x8192, .f32⟩ : BufTy).Contents (Elt Ideal)) (x4 : (⟨S2048x4096, .f32⟩ : BufTy).Contents (Elt Ideal)) (x5 : (⟨S2048, .f32⟩ : BufTy).Contents (Elt Ideal)) (x6 : (⟨S2048x4096, .f32⟩ : BufTy).Contents (Elt Ideal)) (x7 : (⟨S1024x2048, .f32⟩ : BufTy).Contents (Elt Ideal)) (x8 : (⟨S1024, .f32⟩ : BufTy).Contents (Elt Ideal)) (x9 : (⟨S1024x2048, .f32⟩ : BufTy).Contents (Elt Ideal)) (x10 : (⟨S512x1024, .f32⟩ : BufTy).Contents (Elt Ideal)) (x11 : (⟨S512, .f32⟩ : BufTy).Contents (Elt Ideal)) (x12 : (⟨S512x1024, .f32⟩ : BufTy).Contents (Elt Ideal)) (x13 : (⟨S256x512, .f32⟩ : BufTy).Contents (Elt Ideal)) (x14 : (⟨S256, .f32⟩ : BufTy).Contents (Elt Ideal)) (x15 : (⟨S256x512, .f32⟩ : BufTy).Contents (Elt Ideal)) (x16 : (⟨S1x256, .f32⟩ : BufTy).Contents (Elt Ideal)) (x17 : (⟨S1, .f32⟩ : BufTy).Contents (Elt Ideal)) (x18 : (⟨S1x256, .f32⟩ : BufTy).Contents (Elt Ideal)) (x19 : (⟨S1x7680, .f32⟩ : BufTy).Contents (Elt Ideal)) (x20 : (⟨S1, .f32⟩ : BufTy).Contents (Elt Ideal)) (x21 : (⟨S1x7680, .f32⟩ : BufTy).Contents (Elt Ideal)) (x22 : (⟨S_, .f32⟩ : BufTy).Contents (Elt Ideal)) (p : Fin 4096) (q : Fin 2048) :
    val_main_v12 (F := Ideal) x0 x1 x2 x3 x4 x5 x6 (ix2 p q)
      = (∑ k : Fin 4096, Cert.Mlp.pos (Cert.Mlp.pre0 (args x0 x1 x2 x3 x4 x5 x6 x7 x8 x9 x10 x11 x12 x13 x14 x15 x16 x17 x18 x19 x20 x21 x22)) (ix2 p k) * (x4 (ix2 q k) * x6 (ix2 q k))) + x5 (ix1 q) := by
  have hl : ∀ k : Fin 4096, lidx_main_v9 (ix2 p q) k = ix2 p k := fun k => funext fun a => by
    match a with | ⟨0, _⟩ => rfl | ⟨1, _⟩ => rfl
  have hr : ∀ k : Fin 4096, idx_main_v8 (ridx_main_v9 (ix2 p q) k) = ix2 q k := fun k => funext fun a => by
    match a with | ⟨0, _⟩ => rfl | ⟨1, _⟩ => rfl
  have hb : idx_main_v10 (idx_main_v11 (ix2 p q)) = ix1 q := funext fun a => by
    match a with | ⟨0, _⟩ => rfl
  rw [val_main_v12_apply, val_main_v9_apply, val_main_v11_apply, val_main_v10_apply, hb, v6_eq x0 x1 x2 x3 x4 x5 x6 x7 x8 x9 x10 x11 x12 x13 x14 x15 x16 x17 x18 x19 x20 x21 x22]
  simp only [val_main_v8_apply, val_main_v7_apply, hl, hr, Ideal.addf_def, Ideal.mulf_def]

/-- The second layer's stage is the network's second masked linear layer. -/
theorem v12_eq (x0 : (⟨S4096x8192, .f32⟩ : BufTy).Contents (Elt Ideal)) (x1 : (⟨S4096x8192, .f32⟩ : BufTy).Contents (Elt Ideal)) (x2 : (⟨S4096, .f32⟩ : BufTy).Contents (Elt Ideal)) (x3 : (⟨S4096x8192, .f32⟩ : BufTy).Contents (Elt Ideal)) (x4 : (⟨S2048x4096, .f32⟩ : BufTy).Contents (Elt Ideal)) (x5 : (⟨S2048, .f32⟩ : BufTy).Contents (Elt Ideal)) (x6 : (⟨S2048x4096, .f32⟩ : BufTy).Contents (Elt Ideal)) (x7 : (⟨S1024x2048, .f32⟩ : BufTy).Contents (Elt Ideal)) (x8 : (⟨S1024, .f32⟩ : BufTy).Contents (Elt Ideal)) (x9 : (⟨S1024x2048, .f32⟩ : BufTy).Contents (Elt Ideal)) (x10 : (⟨S512x1024, .f32⟩ : BufTy).Contents (Elt Ideal)) (x11 : (⟨S512, .f32⟩ : BufTy).Contents (Elt Ideal)) (x12 : (⟨S512x1024, .f32⟩ : BufTy).Contents (Elt Ideal)) (x13 : (⟨S256x512, .f32⟩ : BufTy).Contents (Elt Ideal)) (x14 : (⟨S256, .f32⟩ : BufTy).Contents (Elt Ideal)) (x15 : (⟨S256x512, .f32⟩ : BufTy).Contents (Elt Ideal)) (x16 : (⟨S1x256, .f32⟩ : BufTy).Contents (Elt Ideal)) (x17 : (⟨S1, .f32⟩ : BufTy).Contents (Elt Ideal)) (x18 : (⟨S1x256, .f32⟩ : BufTy).Contents (Elt Ideal)) (x19 : (⟨S1x7680, .f32⟩ : BufTy).Contents (Elt Ideal)) (x20 : (⟨S1, .f32⟩ : BufTy).Contents (Elt Ideal)) (x21 : (⟨S1x7680, .f32⟩ : BufTy).Contents (Elt Ideal)) (x22 : (⟨S_, .f32⟩ : BufTy).Contents (Elt Ideal)) :
    val_main_v12 (F := Ideal) x0 x1 x2 x3 x4 x5 x6 = Cert.Mlp.pre1 (args x0 x1 x2 x3 x4 x5 x6 x7 x8 x9 x10 x11 x12 x13 x14 x15 x16 x17 x18 x19 x20 x21 x22) :=
  lin_of_reads (Cert.Mlp.pos (Cert.Mlp.pre0 (args x0 x1 x2 x3 x4 x5 x6 x7 x8 x9 x10 x11 x12 x13 x14 x15 x16 x17 x18 x19 x20 x21 x22))) x4 x6 x5 _ (v12_at x0 x1 x2 x3 x4 x5 x6 x7 x8 x9 x10 x11 x12 x13 x14 x15 x16 x17 x18 x19 x20 x21 x22)

/-- The zero array the second maximum is taken against, at any index. -/
theorem call1_zero (j : S4096x2048.Idx) : val_main_call1_v0 (F := Ideal) j = 0 := by
  rw [val_main_call1_v0_apply, val_main_call1_cst_apply, Ideal.ofBits_def, Ideal.ofBits_zero_f32]

/-- The second layer's stage after the maximum is the positive part of the second masked linear layer. -/
theorem v13_eq (x0 : (⟨S4096x8192, .f32⟩ : BufTy).Contents (Elt Ideal)) (x1 : (⟨S4096x8192, .f32⟩ : BufTy).Contents (Elt Ideal)) (x2 : (⟨S4096, .f32⟩ : BufTy).Contents (Elt Ideal)) (x3 : (⟨S4096x8192, .f32⟩ : BufTy).Contents (Elt Ideal)) (x4 : (⟨S2048x4096, .f32⟩ : BufTy).Contents (Elt Ideal)) (x5 : (⟨S2048, .f32⟩ : BufTy).Contents (Elt Ideal)) (x6 : (⟨S2048x4096, .f32⟩ : BufTy).Contents (Elt Ideal)) (x7 : (⟨S1024x2048, .f32⟩ : BufTy).Contents (Elt Ideal)) (x8 : (⟨S1024, .f32⟩ : BufTy).Contents (Elt Ideal)) (x9 : (⟨S1024x2048, .f32⟩ : BufTy).Contents (Elt Ideal)) (x10 : (⟨S512x1024, .f32⟩ : BufTy).Contents (Elt Ideal)) (x11 : (⟨S512, .f32⟩ : BufTy).Contents (Elt Ideal)) (x12 : (⟨S512x1024, .f32⟩ : BufTy).Contents (Elt Ideal)) (x13 : (⟨S256x512, .f32⟩ : BufTy).Contents (Elt Ideal)) (x14 : (⟨S256, .f32⟩ : BufTy).Contents (Elt Ideal)) (x15 : (⟨S256x512, .f32⟩ : BufTy).Contents (Elt Ideal)) (x16 : (⟨S1x256, .f32⟩ : BufTy).Contents (Elt Ideal)) (x17 : (⟨S1, .f32⟩ : BufTy).Contents (Elt Ideal)) (x18 : (⟨S1x256, .f32⟩ : BufTy).Contents (Elt Ideal)) (x19 : (⟨S1x7680, .f32⟩ : BufTy).Contents (Elt Ideal)) (x20 : (⟨S1, .f32⟩ : BufTy).Contents (Elt Ideal)) (x21 : (⟨S1x7680, .f32⟩ : BufTy).Contents (Elt Ideal)) (x22 : (⟨S_, .f32⟩ : BufTy).Contents (Elt Ideal)) :
    val_main_v13 (F := Ideal) x0 x1 x2 x3 x4 x5 x6 = Cert.Mlp.pos (Cert.Mlp.pre1 (args x0 x1 x2 x3 x4 x5 x6 x7 x8 x9 x10 x11 x12 x13 x14 x15 x16 x17 x18 x19 x20 x21 x22)) := by
  refine pos_of_reads _ _ fun j => ?_
  rw [val_main_v13_apply, call1_zero, v12_eq x0 x1 x2 x3 x4 x5 x6 x7 x8 x9 x10 x11 x12 x13 x14 x15 x16 x17 x18 x19 x20 x21 x22, Ideal.maximumf_def]

end Cert.RefSide

end
-- ==== Proof.RefL2.lean ====
/-
  The reference's third layer: the stage after the bias add is the network's third masked linear layer,
  and the stage after the maximum with the zero array is its positive part.
-/
import proofs.«152868_j57621281243253_2_alg».proof.Proof.RefL1

noncomputable section

namespace Cert.RefSide

open Cert.ReferenceIdeal Cert.ReferenceIdeal.Gen Cert.ReferenceIdeal.Read Idealize.ShloMosaic Idealize.ShloMosaic.ValueIdx Cert.Mlp

/-- The third layer's stage at row `p` and feature `q`, over the previous layer's positive part: the transposed
    masked weight read at `(k, q)` is the masked weight at `(q, k)`, and the bias spread over the rows is the bias at `q`. -/
theorem v19_at (x0 : (⟨S4096x8192, .f32⟩ : BufTy).Contents (Elt Ideal)) (x1 : (⟨S4096x8192, .f32⟩ : BufTy).Contents (Elt Ideal)) (x2 : (⟨S4096, .f32⟩ : BufTy).Contents (Elt Ideal)) (x3 : (⟨S4096x8192, .f32⟩ : BufTy).Contents (Elt Ideal)) (x4 : (⟨S2048x4096, .f32⟩ : BufTy).Contents (Elt Ideal)) (x5 : (⟨S2048, .f32⟩ : BufTy).Contents (Elt Ideal)) (x6 : (⟨S2048x4096, .f32⟩ : BufTy).Contents (Elt Ideal)) (x7 : (⟨S1024x2048, .f32⟩ : BufTy).Contents (Elt Ideal)) (x8 : (⟨S1024, .f32⟩ : BufTy).Contents (Elt Ideal)) (x9 : (⟨S1024x2048, .f32⟩ : BufTy).Contents (Elt Ideal)) (x10 : (⟨S512x1024, .f32⟩ : BufTy).Contents (Elt Ideal)) (x11 : (⟨S512, .f32⟩ : BufTy).Contents (Elt Ideal)) (x12 : (⟨S512x1024, .f32⟩ : BufTy).Contents (Elt Ideal)) (x13 : (⟨S256x512, .f32⟩ : BufTy).Contents (Elt Ideal)) (x14 : (⟨S256, .f32⟩ : BufTy).Contents (Elt Ideal)) (x15 : (⟨S256x512, .f32⟩ : BufTy).Contents (Elt Ideal)) (x16 : (⟨S1x256, .f32⟩ : BufTy).Contents (Elt Ideal)) (x17 : (⟨S1, .f32⟩ : BufTy).Contents (Elt Ideal)) (x18 : (⟨S1x256, .f32⟩ : BufTy).Contents (Elt Ideal)) (x19 : (⟨S1x7680, .f32⟩ : BufTy).Contents (Elt Ideal)) (x20 : (⟨S1, .f32⟩ : BufTy).Contents (Elt Ideal)) (x21 : (⟨S1x7680, .f32⟩ : BufTy).Contents (Elt Ideal)) (x22 : (⟨S_, .f32⟩ : BufTy).Contents (Elt Ideal)) (p : Fin 4096) (q : Fin 1024) :
    val_main_v19 (F := Ideal) x0 x1 x2 x3 x4 x5 x6 x7 x8 x9 (ix2 p q)
      = (∑ k : Fin 2048, Cert.Mlp.pos (Cert.Mlp.pre1 (args x0 x1 x2 x3 x4 x5 x6 x7 x8 x9 x10 x11 x12 x13 x14 x15 x16 x17 x18 x19 x20 x21 x22)) (ix2 p k) * (x7 (ix2 q k) * x9 (ix2 q k))) + x8 (ix1 q) := by
  have hl : ∀ k : Fin 2048, lidx_main_v16 (ix2 p q) k = ix2 p k := fun k => funext fun a => by
    match a with | ⟨0, _⟩ => rfl | ⟨1, _⟩ => rfl
  have hr : ∀ k : Fin 2048, idx_main_v15 (ridx_main_v16 (ix2 p q) k) = ix2 q k := fun k => funext fun a => by
    match a with | ⟨0, _⟩ => rfl | ⟨1, _⟩ => rfl
  have hb : idx_main_v17 (idx_main_v18 (ix2 p q)) = ix1 q := funext fun a => by
    match a with | ⟨0, _⟩ => rfl
  rw [val_main_v19_apply, val_main_v16_apply, val_main_v18_apply, val_main_v17_apply, hb, v13_eq x0 x1 x2 x3 x4 x5 x6 x7 x8 x9 x10 x11 x12 x13 x14 x15 x16 x17 x18 x19 x20 x21 x22]
  simp only [val_main_v15_apply, val_main_v14_apply, hl, hr, Ideal.addf_def, Ideal.mulf_def]

/-- The third layer's stage is the network's third masked linear layer. -/
theorem v19_eq (x0 : (⟨S4096x8192, .f32⟩ : BufTy).Contents (Elt Ideal)) (x1 : (⟨S4096x8192, .f32⟩ : BufTy).Contents (Elt Ideal)) (x2 : (⟨S4096, .f32⟩ : BufTy).Contents (Elt Ideal)) (x3 : (⟨S4096x8192, .f32⟩ : BufTy).Contents (Elt Ideal)) (x4 : (⟨S2048x4096, .f32⟩ : BufTy).Contents (Elt Ideal)) (x5 : (⟨S2048, .f32⟩ : BufTy).Contents (Elt Ideal)) (x6 : (⟨S2048x4096, .f32⟩ : BufTy).Contents (Elt Ideal)) (x7 : (⟨S1024x2048, .f32⟩ : BufTy).Contents (Elt Ideal)) (x8 : (⟨S1024, .f32⟩ : BufTy).Contents (Elt Ideal)) (x9 : (⟨S1024x2048, .f32⟩ : BufTy).Contents (Elt Ideal)) (x10 : (⟨S512x1024, .f32⟩ : BufTy).Contents (Elt Ideal)) (x11 : (⟨S512, .f32⟩ : BufTy).Contents (Elt Ideal)) (x12 : (⟨S512x1024, .f32⟩ : BufTy).Contents (Elt Ideal)) (x13 : (⟨S256x512, .f32⟩ : BufTy).Contents (Elt Ideal)) (x14 : (⟨S256, .f32⟩ : BufTy).Contents (Elt Ideal)) (x15 : (⟨S256x512, .f32⟩ : BufTy).Contents (Elt Ideal)) (x16 : (⟨S1x256, .f32⟩ : BufTy).Contents (Elt Ideal)) (x17 : (⟨S1, .f32⟩ : BufTy).Contents (Elt Ideal)) (x18 : (⟨S1x256, .f32⟩ : BufTy).Contents (Elt Ideal)) (x19 : (⟨S1x7680, .f32⟩ : BufTy).Contents (Elt Ideal)) (x20 : (⟨S1, .f32⟩ : BufTy).Contents (Elt Ideal)) (x21 : (⟨S1x7680, .f32⟩ : BufTy).Contents (Elt Ideal)) (x22 : (⟨S_, .f32⟩ : BufTy).Contents (Elt Ideal)) :
    val_main_v19 (F := Ideal) x0 x1 x2 x3 x4 x5 x6 x7 x8 x9 = Cert.Mlp.pre2 (args x0 x1 x2 x3 x4 x5 x6 x7 x8 x9 x10 x11 x12 x13 x14 x15 x16 x17 x18 x19 x20 x21 x22) :=
  lin_of_reads (Cert.Mlp.pos (Cert.Mlp.pre1 (args x0 x1 x2 x3 x4 x5 x6 x7 x8 x9 x10 x11 x12 x13 x14 x15 x16 x17 x18 x19 x20 x21 x22))) x7 x9 x8 _ (v19_at x0 x1 x2 x3 x4 x5 x6 x7 x8 x9 x10 x11 x12 x13 x14 x15 x16 x17 x18 x19 x20 x21 x22)

/-- The zero array the third maximum is taken against, at any index. -/
theorem call2_zero (j : S4096x1024.Idx) : val_main_call2_v0 (F := Ideal) j = 0 := by
  rw [val_main_call2_v0_apply, val_main_call2_cst_apply, Ideal.ofBits_def, Ideal.ofBits_zero_f32]

/-- The third layer's stage after the maximum is the positive part of the third masked linear layer. -/
theorem v20_eq (x0 : (⟨S4096x8192, .f32⟩ : BufTy).Contents (Elt Ideal)) (x1 : (⟨S4096x8192, .f32⟩ : BufTy).Contents (Elt Ideal)) (x2 : (⟨S4096, .f32⟩ : BufTy).Contents (Elt Ideal)) (x3 : (⟨S4096x8192, .f32⟩ : BufTy).Contents (Elt Ideal)) (x4 : (⟨S2048x4096, .f32⟩ : BufTy).Contents (Elt Ideal)) (x5 : (⟨S2048, .f32⟩ : BufTy).Contents (Elt Ideal)) (x6 : (⟨S2048x4096, .f32⟩ : BufTy).Contents (Elt Ideal)) (x7 : (⟨S1024x2048, .f32⟩ : BufTy).Contents (Elt Ideal)) (x8 : (⟨S1024, .f32⟩ : BufTy).Contents (Elt Ideal)) (x9 : (⟨S1024x2048, .f32⟩ : BufTy).Contents (Elt Ideal)) (x10 : (⟨S512x1024, .f32⟩ : BufTy).Contents (Elt Ideal)) (x11 : (⟨S512, .f32⟩ : BufTy).Contents (Elt Ideal)) (x12 : (⟨S512x1024, .f32⟩ : BufTy).Contents (Elt Ideal)) (x13 : (⟨S256x512, .f32⟩ : BufTy).Contents (Elt Ideal)) (x14 : (⟨S256, .f32⟩ : BufTy).Contents (Elt Ideal)) (x15 : (⟨S256x512, .f32⟩ : BufTy).Contents (Elt Ideal)) (x16 : (⟨S1x256, .f32⟩ : BufTy).Contents (Elt Ideal)) (x17 : (⟨S1, .f32⟩ : BufTy).Contents (Elt Ideal)) (x18 : (⟨S1x256, .f32⟩ : BufTy).Contents (Elt Ideal)) (x19 : (⟨S1x7680, .f32⟩ : BufTy).Contents (Elt Ideal)) (x20 : (⟨S1, .f32⟩ : BufTy).Contents (Elt Ideal)) (x21 : (⟨S1x7680, .f32⟩ : BufTy).Contents (Elt Ideal)) (x22 : (⟨S_, .f32⟩ : BufTy).Contents (Elt Ideal)) :
    val_main_v20 (F := Ideal) x0 x1 x2 x3 x4 x5 x6 x7 x8 x9 = Cert.Mlp.pos (Cert.Mlp.pre2 (args x0 x1 x2 x3 x4 x5 x6 x7 x8 x9 x10 x11 x12 x13 x14 x15 x16 x17 x18 x19 x20 x21 x22)) := by
  refine pos_of_reads _ _ fun j => ?_
  rw [val_main_v20_apply, call2_zero, v19_eq x0 x1 x2 x3 x4 x5 x6 x7 x8 x9 x10 x11 x12 x13 x14 x15 x16 x17 x18 x19 x20 x21 x22, Ideal.maximumf_def]

end Cert.RefSide

end
-- ==== Proof.RefL3.lean ====
/-
  The reference's fourth layer: the stage after the bias add is the network's fourth masked linear layer,
  and the stage after the maximum with the zero array is its positive part.
-/
import proofs.«152868_j57621281243253_2_alg».proof.Proof.RefL2

noncomputable section

namespace Cert.RefSide

open Cert.ReferenceIdeal Cert.ReferenceIdeal.Gen Cert.ReferenceIdeal.Read Idealize.ShloMosaic Idealize.ShloMosaic.ValueIdx Cert.Mlp

/-- The fourth layer's stage at row `p` and feature `q`, over the previous layer's positive part: the transposed
    masked weight read at `(k, q)` is the masked weight at `(q, k)`, and the bias spread over the rows is the bias at `q`. -/
theorem v26_at (x0 : (⟨S4096x8192, .f32⟩ : BufTy).Contents (Elt Ideal)) (x1 : (⟨S4096x8192, .f32⟩ : BufTy).Contents (Elt Ideal)) (x2 : (⟨S4096, .f32⟩ : BufTy).Contents (Elt Ideal)) (x3 : (⟨S4096x8192, .f32⟩ : BufTy).Contents (Elt Ideal)) (x4 : (⟨S2048x4096, .f32⟩ : BufTy).Contents (Elt Ideal)) (x5 : (⟨S2048, .f32⟩ : BufTy).Contents (Elt Ideal)) (x6 : (⟨S2048x4096, .f32⟩ : BufTy).Contents (Elt Ideal)) (x7 : (⟨S1024x2048, .f32⟩ : BufTy).Contents (Elt Ideal)) (x8 : (⟨S1024, .f32⟩ : BufTy).Contents (Elt Ideal)) (x9 : (⟨S1024x2048, .f32⟩ : BufTy).Contents (Elt Ideal)) (x10 : (⟨S512x1024, .f32⟩ : BufTy).Contents (Elt Ideal)) (x11 : (⟨S512, .f32⟩ : BufTy).Contents (Elt Ideal)) (x12 : (⟨S512x1024, .f32⟩ : BufTy).Contents (Elt Ideal)) (x13 : (⟨S256x512, .f32⟩ : BufTy).Contents (Elt Ideal)) (x14 : (⟨S256, .f32⟩ : BufTy).Contents (Elt Ideal)) (x15 : (⟨S256x512, .f32⟩ : BufTy).Contents (Elt Ideal)) (x16 : (⟨S1x256, .f32⟩ : BufTy).Contents (Elt Ideal)) (x17 : (⟨S1, .f32⟩ : BufTy).Contents (Elt Ideal)) (x18 : (⟨S1x256, .f32⟩ : BufTy).Contents (Elt Ideal)) (x19 : (⟨S1x7680, .f32⟩ : BufTy).Contents (Elt Ideal)) (x20 : (⟨S1, .f32⟩ : BufTy).Contents (Elt Ideal)) (x21 : (⟨S1x7680, .f32⟩ : BufTy).Contents (Elt Ideal)) (x22 : (⟨S_, .f32⟩ : BufTy).Contents (Elt Ideal)) (p : Fin 4096) (q : Fin 512) :
    val_main_v26 (F := Ideal) x0 x1 x2 x3 x4 x5 x6 x7 x8 x9 x10 x11 x12 (ix2 p q)
      = (∑ k : Fin 1024, Cert.Mlp.pos (Cert.Mlp.pre2 (args x0 x1 x2 x3 x4 x5 x6 x7 x8 x9 x10 x11 x12 x13 x14 x15 x16 x17 x18 x19 x20 x21 x22)) (ix2 p k) * (x10 (ix2 q k) * x12 (ix2 q k))) + x11 (ix1 q) := by
  have hl : ∀ k : Fin 1024, lidx_main_v23 (ix2 p q) k = ix2 p k := fun k => funext fun a => by
    match a with | ⟨0, _⟩ => rfl | ⟨1, _⟩ => rfl
  have hr : ∀ k : Fin 1024, idx_main_v22 (ridx_main_v23 (ix2 p q) k) = ix2 q k := fun k => funext fun a => by
    match a with | ⟨0, _⟩ => rfl | ⟨1, _⟩ => rfl
  have hb : idx_main_v24 (idx_main_v25 (ix2 p q)) = ix1 q := funext fun a => by
    match a with | ⟨0, _⟩ => rfl
  rw [val_main_v26_apply, val_main_v23_apply, val_main_v25_apply, val_main_v24_apply, hb, v20_eq x0 x1 x2 x3 x4 x5 x6 x7 x8 x9 x10 x11 x12 x13 x14 x15 x16 x17 x18 x19 x20 x21 x22]
  simp only [val_main_v22_apply, val_main_v21_apply, hl, hr, Ideal.addf_def, Ideal.mulf_def]

/-- The fourth layer's stage is the network's fourth masked linear layer. -/
theorem v26_eq (x0 : (⟨S4096x8192, .f32⟩ : BufTy).Contents (Elt Ideal)) (x1 : (⟨S4096x8192, .f32⟩ : BufTy).Contents (Elt Ideal)) (x2 : (⟨S4096, .f32⟩ : BufTy).Contents (Elt Ideal)) (x3 : (⟨S4096x8192, .f32⟩ : BufTy).Contents (Elt Ideal)) (x4 : (⟨S2048x4096, .f32⟩ : BufTy).Contents (Elt Ideal)) (x5 : (⟨S2048, .f32⟩ : BufTy).Contents (Elt Ideal)) (x6 : (⟨S2048x4096, .f32⟩ : BufTy).Contents (Elt Ideal)) (x7 : (⟨S1024x2048, .f32⟩ : BufTy).Contents (Elt Ideal)) (x8 : (⟨S1024, .f32⟩ : BufTy).Contents (Elt Ideal)) (x9 : (⟨S1024x2048, .f32⟩ : BufTy).Contents (Elt Ideal)) (x10 : (⟨S512x1024, .f32⟩ : BufTy).Contents (Elt Ideal)) (x11 : (⟨S512, .f32⟩ : BufTy).Contents (Elt Ideal)) (x12 : (⟨S512x1024, .f32⟩ : BufTy).Contents (Elt Ideal)) (x13 : (⟨S256x512, .f32⟩ : BufTy).Contents (Elt Ideal)) (x14 : (⟨S256, .f32⟩ : BufTy).Contents (Elt Ideal)) (x15 : (⟨S256x512, .f32⟩ : BufTy).Contents (Elt Ideal)) (x16 : (⟨S1x256, .f32⟩ : BufTy).Contents (Elt Ideal)) (x17 : (⟨S1, .f32⟩ : BufTy).Contents (Elt Ideal)) (x18 : (⟨S1x256, .f32⟩ : BufTy).Contents (Elt Ideal)) (x19 : (⟨S1x7680, .f32⟩ : BufTy).Contents (Elt Ideal)) (x20 : (⟨S1, .f32⟩ : BufTy).Contents (Elt Ideal)) (x21 : (⟨S1x7680, .f32⟩ : BufTy).Contents (Elt Ideal)) (x22 : (⟨S_, .f32⟩ : BufTy).Contents (Elt Ideal)) :
    val_main_v26 (F := Ideal) x0 x1 x2 x3 x4 x5 x6 x7 x8 x9 x10 x11 x12 = Cert.Mlp.pre3 (args x0 x1 x2 x3 x4 x5 x6 x7 x8 x9 x10 x11 x12 x13 x14 x15 x16 x17 x18 x19 x20 x21 x22) :=
  lin_of_reads (Cert.Mlp.pos (Cert.Mlp.pre2 (args x0 x1 x2 x3 x4 x5 x6 x7 x8 x9 x10 x11 x12 x13 x14 x15 x16 x17 x18 x19 x20 x21 x22))) x10 x12 x11 _ (v26_at x0 x1 x2 x3 x4 x5 x6 x7 x8 x9 x10 x11 x12 x13 x14 x15 x16 x17 x18 x19 x20 x21 x22)

/-- The zero array the fourth maximum is taken against, at any index. -/
theorem call3_zero (j : S4096x512.Idx) : val_main_call3_v0 (F := Ideal) j = 0 := by
  rw [val_main_call3_v0_apply, val_main_call3_cst_apply, Ideal.ofBits_def, Ideal.ofBits_zero_f32]

/-- The fourth layer's stage after the maximum is the positive part of the fourth masked linear layer. -/
theorem v27_eq (x0 : (⟨S4096x8192, .f32⟩ : BufTy).Contents (Elt Ideal)) (x1 : (⟨S4096x8192, .f32⟩ : BufTy).Contents (Elt Ideal)) (x2 : (⟨S4096, .f32⟩ : BufTy).Contents (Elt Ideal)) (x3 : (⟨S4096x8192, .f32⟩ : BufTy).Contents (Elt Ideal)) (x4 : (⟨S2048x4096, .f32⟩ : BufTy).Contents (Elt Ideal)) (x5 : (⟨S2048, .f32⟩ : BufTy).Contents (Elt Ideal)) (x6 : (⟨S2048x4096, .f32⟩ : BufTy).Contents (Elt Ideal)) (x7 : (⟨S1024x2048, .f32⟩ : BufTy).Contents (Elt Ideal)) (x8 : (⟨S1024, .f32⟩ : BufTy).Contents (Elt Ideal)) (x9 : (⟨S1024x2048, .f32⟩ : BufTy).Contents (Elt Ideal)) (x10 : (⟨S512x1024, .f32⟩ : BufTy).Contents (Elt Ideal)) (x11 : (⟨S512, .f32⟩ : BufTy).Contents (Elt Ideal)) (x12 : (⟨S512x1024, .f32⟩ : BufTy).Contents (Elt Ideal)) (x13 : (⟨S256x512, .f32⟩ : BufTy).Contents (Elt Ideal)) (x14 : (⟨S256, .f32⟩ : BufTy).Contents (Elt Ideal)) (x15 : (⟨S256x512, .f32⟩ : BufTy).Contents (Elt Ideal)) (x16 : (⟨S1x256, .f32⟩ : BufTy).Contents (Elt Ideal)) (x17 : (⟨S1, .f32⟩ : BufTy).Contents (Elt Ideal)) (x18 : (⟨S1x256, .f32⟩ : BufTy).Contents (Elt Ideal)) (x19 : (⟨S1x7680, .f32⟩ : BufTy).Contents (Elt Ideal)) (x20 : (⟨S1, .f32⟩ : BufTy).Contents (Elt Ideal)) (x21 : (⟨S1x7680, .f32⟩ : BufTy).Contents (Elt Ideal)) (x22 : (⟨S_, .f32⟩ : BufTy).Contents (Elt Ideal)) :
    val_main_v27 (F := Ideal) x0 x1 x2 x3 x4 x5 x6 x7 x8 x9 x10 x11 x12 = Cert.Mlp.pos (Cert.Mlp.pre3 (args x0 x1 x2 x3 x4 x5 x6 x7 x8 x9 x10 x11 x12 x13 x14 x15 x16 x17 x18 x19 x20 x21 x22)) := by
  refine pos_of_reads _ _ fun j => ?_
  rw [val_main_v27_apply, call3_zero, v26_eq x0 x1 x2 x3 x4 x5 x6 x7 x8 x9 x10 x11 x12 x13 x14 x15 x16 x17 x18 x19 x20 x21 x22, Ideal.maximumf_def]

end Cert.RefSide

end
-- ==== Proof.RefSidePath.lean ====
/-
  The reference's side path: the four stages laid side by side along the feature axis are the network's `side` of the
  first four masked linear layers, and the masked linear layer on top of them is the network's side path.
-/
import proofs.«152868_j57621281243253_2_alg».proof.Proof.RefL3

noncomputable section

namespace Cert.RefSide

open Cert.ReferenceIdeal Cert.ReferenceIdeal.Gen Cert.ReferenceIdeal.Read Idealize.ShloMosaic Idealize.ShloMosaic.ValueIdx Cert.Mlp

/-- The network's `side` at row `p` and column `c`, by the band the column falls in. -/
theorem side_at (a0 : Arr ⟨2, ![4096, 4096]⟩) (a1 : Arr ⟨2, ![4096, 2048]⟩) (a2 : Arr ⟨2, ![4096, 1024]⟩)
    (a3 : Arr ⟨2, ![4096, 512]⟩) (p : Fin 4096) (c : Fin 7680) :
    side a0 a1 a2 a3 (ix2 p c) =
      if h0 : c.val < 4096 then a0 (ix2 p ⟨c.val, h0⟩)
      else if h1 : c.val < 6144 then a1 (ix2 p ⟨c.val - 4096, by omega⟩)
      else if h2 : c.val < 7168 then a2 (ix2 p ⟨c.val - 6144, by omega⟩)
      else a3 (ix2 p ⟨c.val - 7168, by have h : c.val < 7680 := c.isLt; omega⟩) := rfl

/-- Four arrays of 4096 rows joined along the feature axis, read at row `p` and column `c`: the array whose band of
    columns holds `c`, at `c` less the widths of the arrays before it. -/
theorem concat_at (a0 : Arr ⟨2, ![4096, 4096]⟩) (a1 : Arr ⟨2, ![4096, 2048]⟩) (a2 : Arr ⟨2, ![4096, 1024]⟩)
    (a3 : Arr ⟨2, ![4096, 512]⟩) (p : Fin 4096) (c : Fin 7680) :
    concatenate S4096x7680 1 [⟨S4096x4096, a0⟩, ⟨S4096x2048, a1⟩, ⟨S4096x1024, a2⟩, ⟨S4096x512, a3⟩]
        concatenates_S4096x4096_S4096x2048_S4096x1024_S4096x512_S4096x7680_d1 (ix2 p c)
      = side a0 a1 a2 a3 (ix2 p c) := by
  have hc : c.val < 7680 := c.isLt
  rw [side_at]
  by_cases h0 : c.val < 4096
  · rw [dif_pos h0]
    exact concatenate_apply_piece (1 : Fin S4096x7680.rank) _ _ (ix2 p c) 0 (by show (0 : Nat) < 4; omega) S4096x4096 a0 rfl rfl 0 rfl
      (ix2 p ⟨c.val, h0⟩)
      (fun b hb => by match b with | ⟨0, _⟩ => rfl | ⟨1, _⟩ => exact absurd rfl hb)
      (by show 0 + c.val = c.val; omega)
  · rw [dif_neg h0]
    by_cases h1 : c.val < 6144
    · rw [dif_pos h1]
      exact concatenate_apply_piece (1 : Fin S4096x7680.rank) _ _ (ix2 p c) 1 (by show (1 : Nat) < 4; omega) S4096x2048 a1 rfl rfl 4096 rfl
        (ix2 p ⟨c.val - 4096, by omega⟩)
        (fun b hb => by match b with | ⟨0, _⟩ => rfl | ⟨1, _⟩ => exact absurd rfl hb)
        (by show 4096 + (c.val - 4096) = c.val; omega)
    · rw [dif_neg h1]
      by_cases h2 : c.val < 7168
      · rw [dif_pos h2]
        exact concatenate_apply_piece (1 : Fin S4096x7680.rank) _ _ (ix2 p c) 2 (by show (2 : Nat) < 4; omega) S4096x1024 a2 rfl rfl 6144 rfl
          (ix2 p ⟨c.val - 6144, by omega⟩)
          (fun b hb => by match b with | ⟨0, _⟩ => rfl | ⟨1, _⟩ => exact absurd rfl hb)
          (by show 6144 + (c.val - 6144) = c.val; omega)
      · rw [dif_neg h2]
        exact concatenate_apply_piece (1 : Fin S4096x7680.rank) _ _ (ix2 p c) 3 (by show (3 : Nat) < 4; omega) S4096x512 a3 rfl rfl 7168 rfl
          (ix2 p ⟨c.val - 7168, by omega⟩)
          (fun b hb => by match b with | ⟨0, _⟩ => rfl | ⟨1, _⟩ => exact absurd rfl hb)
          (by show 7168 + (c.val - 7168) = c.val; omega)

/-- The joined stage is the network's `side` of the first four masked linear layers. -/
theorem v41_eq (x0 : (⟨S4096x8192, .f32⟩ : BufTy).Contents (Elt Ideal)) (x1 : (⟨S4096x8192, .f32⟩ : BufTy).Contents (Elt Ideal)) (x2 : (⟨S4096, .f32⟩ : BufTy).Contents (Elt Ideal)) (x3 : (⟨S4096x8192, .f32⟩ : BufTy).Contents (Elt Ideal)) (x4 : (⟨S2048x4096, .f32⟩ : BufTy).Contents (Elt Ideal)) (x5 : (⟨S2048, .f32⟩ : BufTy).Contents (Elt Ideal)) (x6 : (⟨S2048x4096, .f32⟩ : BufTy).Contents (Elt Ideal)) (x7 : (⟨S1024x2048, .f32⟩ : BufTy).Contents (Elt Ideal)) (x8 : (⟨S1024, .f32⟩ : BufTy).Contents (Elt Ideal)) (x9 : (⟨S1024x2048, .f32⟩ : BufTy).Contents (Elt Ideal)) (x10 : (⟨S512x1024, .f32⟩ : BufTy).Contents (Elt Ideal)) (x11 : (⟨S512, .f32⟩ : BufTy).Contents (Elt Ideal)) (x12 : (⟨S512x1024, .f32⟩ : BufTy).Contents (Elt Ideal)) (x13 : (⟨S256x512, .f32⟩ : BufTy).Contents (Elt Ideal)) (x14 : (⟨S256, .f32⟩ : BufTy).Contents (Elt Ideal)) (x15 : (⟨S256x512, .f32⟩ : BufTy).Contents (Elt Ideal)) (x16 : (⟨S1x256, .f32⟩ : BufTy).Contents (Elt Ideal)) (x17 : (⟨S1, .f32⟩ : BufTy).Contents (Elt Ideal)) (x18 : (⟨S1x256, .f32⟩ : BufTy).Contents (Elt Ideal)) (x19 : (⟨S1x7680, .f32⟩ : BufTy).Contents (Elt Ideal)) (x20 : (⟨S1, .f32⟩ : BufTy).Contents (Elt Ideal)) (x21 : (⟨S1x7680, .f32⟩ : BufTy).Contents (Elt Ideal)) (x22 : (⟨S_, .f32⟩ : BufTy).Contents (Elt Ideal)) :
    val_main_v41 (F := Ideal) x0 x1 x2 x3 x4 x5 x6 x7 x8 x9 x10 x11 x12
      = Cert.Mlp.side (Cert.Mlp.pre0 (args x0 x1 x2 x3 x4 x5 x6 x7 x8 x9 x10 x11 x12 x13 x14 x15 x16 x17 x18 x19 x20 x21 x22)) (Cert.Mlp.pre1 (args x0 x1 x2 x3 x4 x5 x6 x7 x8 x9 x10 x11 x12 x13 x14 x15 x16 x17 x18 x19 x20 x21 x22)) (Cert.Mlp.pre2 (args x0 x1 x2 x3 x4 x5 x6 x7 x8 x9 x10 x11 x12 x13 x14 x15 x16 x17 x18 x19 x20 x21 x22)) (Cert.Mlp.pre3 (args x0 x1 x2 x3 x4 x5 x6 x7 x8 x9 x10 x11 x12 x13 x14 x15 x16 x17 x18 x19 x20 x21 x22)) := by
  unfold val_main_v41
  rw [v5_eq x0 x1 x2 x3 x4 x5 x6 x7 x8 x9 x10 x11 x12 x13 x14 x15 x16 x17 x18 x19 x20 x21 x22, v12_eq x0 x1 x2 x3 x4 x5 x6 x7 x8 x9 x10 x11 x12 x13 x14 x15 x16 x17 x18 x19 x20 x21 x22, v19_eq x0 x1 x2 x3 x4 x5 x6 x7 x8 x9 x10 x11 x12 x13 x14 x15 x16 x17 x18 x19 x20 x21 x22, v26_eq x0 x1 x2 x3 x4 x5 x6 x7 x8 x9 x10 x11 x12 x13 x14 x15 x16 x17 x18 x19 x20 x21 x22]
  generalize Cert.Mlp.pre0 (args x0 x1 x2 x3 x4 x5 x6 x7 x8 x9 x10 x11 x12 x13 x14 x15 x16 x17 x18 x19 x20 x21 x22) = a0
  generalize Cert.Mlp.pre1 (args x0 x1 x2 x3 x4 x5 x6 x7 x8 x9 x10 x11 x12 x13 x14 x15 x16 x17 x18 x19 x20 x21 x22) = a1
  generalize Cert.Mlp.pre2 (args x0 x1 x2 x3 x4 x5 x6 x7 x8 x9 x10 x11 x12 x13 x14 x15 x16 x17 x18 x19 x20 x21 x22) = a2
  generalize Cert.Mlp.pre3 (args x0 x1 x2 x3 x4 x5 x6 x7 x8 x9 x10 x11 x12 x13 x14 x15 x16 x17 x18 x19 x20 x21 x22) = a3
  funext j
  obtain ⟨p, c, rfl⟩ : ∃ (p : Fin 4096) (c : Fin 7680), j = ix2 p c := ⟨j 0, j 1, eq_ix2 j⟩
  exact concat_at a0 a1 a2 a3 p c

/-- The side path's stage at row `p` and its one feature `q`, over the joined array. -/
theorem v47_at (x0 : (⟨S4096x8192, .f32⟩ : BufTy).Contents (Elt Ideal)) (x1 : (⟨S4096x8192, .f32⟩ : BufTy).Contents (Elt Ideal)) (x2 : (⟨S4096, .f32⟩ : BufTy).Contents (Elt Ideal)) (x3 : (⟨S4096x8192, .f32⟩ : BufTy).Contents (Elt Ideal)) (x4 : (⟨S2048x4096, .f32⟩ : BufTy).Contents (Elt Ideal)) (x5 : (⟨S2048, .f32⟩ : BufTy).Contents (Elt Ideal)) (x6 : (⟨S2048x4096, .f32⟩ : BufTy).Contents (Elt Ideal)) (x7 : (⟨S1024x2048, .f32⟩ : BufTy).Contents (Elt Ideal)) (x8 : (⟨S1024, .f32⟩ : BufTy).Contents (Elt Ideal)) (x9 : (⟨S1024x2048, .f32⟩ : BufTy).Contents (Elt Ideal)) (x10 : (⟨S512x1024, .f32⟩ : BufTy).Contents (Elt Ideal)) (x11 : (⟨S512, .f32⟩ : BufTy).Contents (Elt Ideal)) (x12 : (⟨S512x1024, .f32⟩ : BufTy).Contents (Elt Ideal)) (x13 : (⟨S256x512, .f32⟩ : BufTy).Contents (Elt Ideal)) (x14 : (⟨S256, .f32⟩ : BufTy).Contents (Elt Ideal)) (x15 : (⟨S256x512, .f32⟩ : BufTy).Contents (Elt Ideal)) (x16 : (⟨S1x256, .f32⟩ : BufTy).Contents (Elt Ideal)) (x17 : (⟨S1, .f32⟩ : BufTy).Contents (Elt Ideal)) (x18 : (⟨S1x256, .f32⟩ : BufTy).Contents (Elt Ideal)) (x19 : (⟨S1x7680, .f32⟩ : BufTy).Contents (Elt Ideal)) (x20 : (⟨S1, .f32⟩ : BufTy).Contents (Elt Ideal)) (x21 : (⟨S1x7680, .f32⟩ : BufTy).Contents (Elt Ideal)) (x22 : (⟨S_, .f32⟩ : BufTy).Contents (Elt Ideal)) (p : Fin 4096) (q : Fin 1) :
    val_main_v47 (F := Ideal) x0 x1 x2 x3 x4 x5 x6 x7 x8 x9 x10 x11 x12 x19 x20 x21 (ix2 p q)
      = (∑ k : Fin 7680, Cert.Mlp.side (Cert.Mlp.pre0 (args x0 x1 x2 x3 x4 x5 x6 x7 x8 x9 x10 x11 x12 x13 x14 x15 x16 x17 x18 x19 x20 x21 x22)) (Cert.Mlp.pre1 (args x0 x1 x2 x3 x4 x5 x6 x7 x8 x9 x10 x11 x12 x13 x14 x15 x16 x17 x18 x19 x20 x21 x22)) (Cert.Mlp.pre2 (args x0 x1 x2 x3 x4 x5 x6 x7 x8 x9 x10 x11 x12 x13 x14 x15 x16 x17 x18 x19 x20 x21 x22)) (Cert.Mlp.pre3 (args x0 x1 x2 x3 x4 x5 x6 x7 x8 x9 x10 x11 x12 x13 x14 x15 x16 x17 x18 x19 x20 x21 x22)) (ix2 p k)
            * (x19 (ix2 q k) * x21 (ix2 q k))) + x20 (ix1 q) := by
  have hl : ∀ k : Fin 7680, lidx_main_v44 (ix2 p q) k = ix2 p k := fun k => funext fun a => by
    match a with | ⟨0, _⟩ => rfl | ⟨1, _⟩ => rfl
  have hr : ∀ k : Fin 7680, idx_main_v43 (ridx_main_v44 (ix2 p q) k) = ix2 q k := fun k => funext fun a => by
    match a with | ⟨0, _⟩ => rfl | ⟨1, _⟩ => rfl
  have hb : idx_main_v45 (idx_main_v46 (ix2 p q)) = ix1 q := funext fun a => by
    match a with | ⟨0, _⟩ => exact Fin.ext (by have := q.isLt; show (0 : Nat) = q.val; omega)
  rw [val_main_v47_apply, val_main_v44_apply, val_main_v46_apply, val_main_v45_apply, hb, v41_eq x0 x1 x2 x3 x4 x5 x6 x7 x8 x9 x10 x11 x12 x13 x14 x15 x16 x17 x18 x19 x20 x21 x22]
  simp only [val_main_v43_apply, val_main_v42_apply, hl, hr, Ideal.addf_def, Ideal.mulf_def]

/-- The side path's stage is the network's side path. -/
theorem v47_eq (x0 : (⟨S4096x8192, .f32⟩ : BufTy).Contents (Elt Ideal)) (x1 : (⟨S4096x8192, .f32⟩ : BufTy).Contents (Elt Ideal)) (x2 : (⟨S4096, .f32⟩ : BufTy).Contents (Elt Ideal)) (x3 : (⟨S4096x8192, .f32⟩ : BufTy).Contents (Elt Ideal)) (x4 : (⟨S2048x4096, .f32⟩ : BufTy).Contents (Elt Ideal)) (x5 : (⟨S2048, .f32⟩ : BufTy).Contents (Elt Ideal)) (x6 : (⟨S2048x4096, .f32⟩ : BufTy).Contents (Elt Ideal)) (x7 : (⟨S1024x2048, .f32⟩ : BufTy).Contents (Elt Ideal)) (x8 : (⟨S1024, .f32⟩ : BufTy).Contents (Elt Ideal)) (x9 : (⟨S1024x2048, .f32⟩ : BufTy).Contents (Elt Ideal)) (x10 : (⟨S512x1024, .f32⟩ : BufTy).Contents (Elt Ideal)) (x11 : (⟨S512, .f32⟩ : BufTy).Contents (Elt Ideal)) (x12 : (⟨S512x1024, .f32⟩ : BufTy).Contents (Elt Ideal)) (x13 : (⟨S256x512, .f32⟩ : BufTy).Contents (Elt Ideal)) (x14 : (⟨S256, .f32⟩ : BufTy).Contents (Elt Ideal)) (x15 : (⟨S256x512, .f32⟩ : BufTy).Contents (Elt Ideal)) (x16 : (⟨S1x256, .f32⟩ : BufTy).Contents (Elt Ideal)) (x17 : (⟨S1, .f32⟩ : BufTy).Contents (Elt Ideal)) (x18 : (⟨S1x256, .f32⟩ : BufTy).Contents (Elt Ideal)) (x19 : (⟨S1x7680, .f32⟩ : BufTy).Contents (Elt Ideal)) (x20 : (⟨S1, .f32⟩ : BufTy).Contents (Elt Ideal)) (x21 : (⟨S1x7680, .f32⟩ : BufTy).Contents (Elt Ideal)) (x22 : (⟨S_, .f32⟩ : BufTy).Contents (Elt Ideal)) :
    val_main_v47 (F := Ideal) x0 x1 x2 x3 x4 x5 x6 x7 x8 x9 x10 x11 x12 x19 x20 x21 = Cert.Mlp.preS (args x0 x1 x2 x3 x4 x5 x6 x7 x8 x9 x10 x11 x12 x13 x14 x15 x16 x17 x18 x19 x20 x21 x22) :=
  lin_of_reads (Cert.Mlp.side (Cert.Mlp.pre0 (args x0 x1 x2 x3 x4 x5 x6 x7 x8 x9 x10 x11 x12 x13 x14 x15 x16 x17 x18 x19 x20 x21 x22)) (Cert.Mlp.pre1 (args x0 x1 x2 x3 x4 x5 x6 x7 x8 x9 x10 x11 x12 x13 x14 x15 x16 x17 x18 x19 x20 x21 x22)) (Cert.Mlp.pre2 (args x0 x1 x2 x3 x4 x5 x6 x7 x8 x9 x10 x11 x12 x13 x14 x15 x16 x17 x18 x19 x20 x21 x22)) (Cert.Mlp.pre3 (args x0 x1 x2 x3 x4 x5 x6 x7 x8 x9 x10 x11 x12 x13 x14 x15 x16 x17 x18 x19 x20 x21 x22))) x19 x21 x20 _
    (v47_at x0 x1 x2 x3 x4 x5 x6 x7 x8 x9 x10 x11 x12 x13 x14 x15 x16 x17 x18 x19 x20 x21 x22)

end Cert.RefSide

end
-- ==== Proof.ChainHost.lean ====
/-
  The host stretches of the kernel program read at the buffers the regions take from them, from any contents `W` of
  the buffers before the stretch: each bias row holds the bias vector's entries, the joined array is the four layers'
  values side by side, and the last stretch is the network's shared last stretch of the two columns.
-/
import proofs.«152868_j57621281243253_2_alg».proof.Proof.Gen.KernelIdeal.Regions
import proofs.«152868_j57621281243253_2_alg».proof.Proof.SpecRow
import proofs.«152868_j57621281243253_2_alg».proof.Proof.RefSidePath
import Idealize.ShloMosaic.Lib.Pipeline.Value

noncomputable section

namespace Cert.KernelIdeal.Chain

open Cert.KernelIdeal Cert.KernelIdeal.Gen
open Idealize.ShloMosaic Idealize.ShloMosaic.TcCoe Idealize.SL.Sem Idealize.ShloMosaic.StableHlo Idealize.ShloMosaic.ValueIdx
open Cert.Mlp

/-- Host stretch 0 leaves in the bias row the bias vector's entries: the row at `(0, q)` is the vector at `q`. -/
theorem row0 (W : Valuation τ sig (Elt Ideal)) (q : Fin 4096) :
    (StableHlo.after hostOps0 W (Proc.devRef .tc main_v0) : S1x4096.Idx → EReal) (ix2 (0 : Fin 1) q)
      = (W (Proc.devRef .tc main_arg2) : S4096.Idx → EReal) (ix1 q) := by
  have e : (StableHlo.after hostOps0 W (Proc.devRef .tc main_v0) : S1x4096.Idx → EReal)
      = shapeCast S1x4096 (W (Proc.devRef .tc main_arg2) : S4096.Idx → EReal) shapeCasts_S4096_S1x4096 := by
    after_results; rfl
  rw [e]
  exact shapeCast_apply _ shapeCasts_S4096_S1x4096 (ix2 (0 : Fin 1) q) (ix1 q)
    (by rewrite [Shape.rowMajor_val_two, Shape.rowMajor_val_one]; show q.val = 0 * 4096 + q.val; omega)

/-- Host stretch 1 leaves in the bias row the bias vector's entries: the row at `(0, q)` is the vector at `q`. -/
theorem row1 (W : Valuation τ sig (Elt Ideal)) (q : Fin 2048) :
    (StableHlo.after hostOps1 W (Proc.devRef .tc main_v2) : S1x2048.Idx → EReal) (ix2 (0 : Fin 1) q)
      = (W (Proc.devRef .tc main_arg5) : S2048.Idx → EReal) (ix1 q) := by
  have e : (StableHlo.after hostOps1 W (Proc.devRef .tc main_v2) : S1x2048.Idx → EReal)
      = shapeCast S1x2048 (W (Proc.devRef .tc main_arg5) : S2048.Idx → EReal) shapeCasts_S2048_S1x2048 := by
    after_results; rfl
  rw [e]
  exact shapeCast_apply _ shapeCasts_S2048_S1x2048 (ix2 (0 : Fin 1) q) (ix1 q)
    (by rewrite [Shape.rowMajor_val_two, Shape.rowMajor_val_one]; show q.val = 0 * 2048 + q.val; omega)

/-- Host stretch 2 leaves in the bias row the bias vector's entries: the row at `(0, q)` is the vector at `q`. -/
theorem row2 (W : Valuation τ sig (Elt Ideal)) (q : Fin 1024) :
    (StableHlo.after hostOps2 W (Proc.devRef .tc main_v4) : S1x1024.Idx → EReal) (ix2 (0 : Fin 1) q)
      = (W (Proc.devRef .tc main_arg8) : S1024.Idx → EReal) (ix1 q) := by
  have e : (StableHlo.after hostOps2 W (Proc.devRef .tc main_v4) : S1x1024.Idx → EReal)
      = shapeCast S1x1024 (W (Proc.devRef .tc main_arg8) : S1024.Idx → EReal) shapeCasts_S1024_S1x1024 := by
    after_results; rfl
  rw [e]
  exact shapeCast_apply _ shapeCasts_S1024_S1x1024 (ix2 (0 : Fin 1) q) (ix1 q)
    (by rewrite [Shape.rowMajor_val_two, Shape.rowMajor_val_one]; show q.val = 0 * 1024 + q.val; omega)

/-- Host stretch 3 leaves in the bias row the bias vector's entries: the row at `(0, q)` is the vector at `q`. -/
theorem row3 (W : Valuation τ sig (Elt Ideal)) (q : Fin 512) :
    (StableHlo.after hostOps3 W (Proc.devRef .tc main_v6) : S1x512.Idx → EReal) (ix2 (0 : Fin 1) q)
      = (W (Proc.devRef .tc main_arg11) : S512.Idx → EReal) (ix1 q) := by
  have e : (StableHlo.after hostOps3 W (Proc.devRef .tc main_v6) : S1x512.Idx → EReal)
      = shapeCast S1x512 (W (Proc.devRef .tc main_arg11) : S512.Idx → EReal) shapeCasts_S512_S1x512 := by
    after_results; rfl
  rw [e]
  exact shapeCast_apply _ shapeCasts_S512_S1x512 (ix2 (0 : Fin 1) q) (ix1 q)
    (by rewrite [Shape.rowMajor_val_two, Shape.rowMajor_val_one]; show q.val = 0 * 512 + q.val; omega)

/-- Host stretch 4 leaves in the bias row the bias vector's entries: the row at `(0, q)` is the vector at `q`. -/
theorem row4 (W : Valuation τ sig (Elt Ideal)) (q : Fin 256) :
    (StableHlo.after hostOps4 W (Proc.devRef .tc main_v8) : S1x256.Idx → EReal) (ix2 (0 : Fin 1) q)
      = (W (Proc.devRef .tc main_arg14) : S256.Idx → EReal) (ix1 q) := by
  have e : (StableHlo.after hostOps4 W (Proc.devRef .tc main_v8) : S1x256.Idx → EReal)
      = shapeCast S1x256 (W (Proc.devRef .tc main_arg14) : S256.Idx → EReal) shapeCasts_S256_S1x256 := by
    after_results; rfl
  rw [e]
  exact shapeCast_apply _ shapeCasts_S256_S1x256 (ix2 (0 : Fin 1) q) (ix1 q)
    (by rewrite [Shape.rowMajor_val_two, Shape.rowMajor_val_one]; show q.val = 0 * 256 + q.val; omega)

/-- Host stretch 5 leaves in the bias row the bias vector's entries: the row at `(0, q)` is the vector at `q`. -/
theorem row5 (W : Valuation τ sig (Elt Ideal)) (q : Fin 1) :
    (StableHlo.after hostOps5 W (Proc.devRef .tc main_v10) : S1x1.Idx → EReal) (ix2 (0 : Fin 1) q)
      = (W (Proc.devRef .tc main_arg17) : S1.Idx → EReal) (ix1 q) := by
  have e : (StableHlo.after hostOps5 W (Proc.devRef .tc main_v10) : S1x1.Idx → EReal)
      = shapeCast S1x1 (W (Proc.devRef .tc main_arg17) : S1.Idx → EReal) shapeCasts_S1_S1x1 := by
    after_results; rfl
  rw [e]
  exact shapeCast_apply _ shapeCasts_S1_S1x1 (ix2 (0 : Fin 1) q) (ix1 q)
    (by rewrite [Shape.rowMajor_val_two, Shape.rowMajor_val_one]; show q.val = 0 * 1 + q.val; omega)

/-- Host stretch 6 leaves in the bias row the bias vector's entries: the row at `(0, q)` is the vector at `q`. -/
theorem row6 (W : Valuation τ sig (Elt Ideal)) (q : Fin 1) :
    (StableHlo.after hostOps6 W (Proc.devRef .tc main_v13) : S1x1.Idx → EReal) (ix2 (0 : Fin 1) q)
      = (W (Proc.devRef .tc main_arg20) : S1.Idx → EReal) (ix1 q) := by
  have e : (StableHlo.after hostOps6 W (Proc.devRef .tc main_v13) : S1x1.Idx → EReal)
      = shapeCast S1x1 (W (Proc.devRef .tc main_arg20) : S1.Idx → EReal) shapeCasts_S1_S1x1 := by
    after_results; rfl
  rw [e]
  exact shapeCast_apply _ shapeCasts_S1_S1x1 (ix2 (0 : Fin 1) q) (ix1 q)
    (by rewrite [Shape.rowMajor_val_two, Shape.rowMajor_val_one]; show q.val = 0 * 1 + q.val; omega)

/-- Host stretch 6 leaves in the joined array the four layers' values side by side. -/
theorem cat6 (W : Valuation τ sig (Elt Ideal)) :
    (StableHlo.after hostOps6 W (Proc.devRef .tc main_v12) : S4096x7680.Idx → EReal)
      = Cert.Mlp.side (W (Proc.devRef .tc main_v1_0) : S4096x4096.Idx → EReal) (W (Proc.devRef .tc main_v3_0) : S4096x2048.Idx → EReal)
          (W (Proc.devRef .tc main_v5_0) : S4096x1024.Idx → EReal) (W (Proc.devRef .tc main_v7_0) : S4096x512.Idx → EReal) := by
  have e : (StableHlo.after hostOps6 W (Proc.devRef .tc main_v12) : S4096x7680.Idx → EReal)
      = concatenate S4096x7680 1 [⟨S4096x4096, (W (Proc.devRef .tc main_v1_0) : S4096x4096.Idx → EReal)⟩,
          ⟨S4096x2048, (W (Proc.devRef .tc main_v3_0) : S4096x2048.Idx → EReal)⟩,
          ⟨S4096x1024, (W (Proc.devRef .tc main_v5_0) : S4096x1024.Idx → EReal)⟩,
          ⟨S4096x512, (W (Proc.devRef .tc main_v7_0) : S4096x512.Idx → EReal)⟩]
          concatenates_S4096x4096_S4096x2048_S4096x1024_S4096x512_S4096x7680_d1 := by
    after_results; rfl
  rw [e]
  funext j
  obtain ⟨p, k, rfl⟩ : ∃ (p : Fin 4096) (k : Fin 7680), j = ix2 p k := ⟨j 0, j 1, eq_ix2 j⟩
  exact Cert.RefSide.concat_at _ _ _ _ p k

/-- Host stretch 7 leaves in the result the network's shared last stretch of `alpha`, the last layer's column and
    the side path's column. -/
theorem tail7 (W : Valuation τ sig (Elt Ideal)) :
    (StableHlo.after hostOps7 W (Proc.devRef .tc main_v22) : S4096.Idx → EReal)
      = Cert.Mlp.tail (broadcastInDim S4096x1 ![] bcast_S_S4096x1) (fun v => shapeCast _ v shapeCasts_S4096x1_S4096)
          (W (Proc.devRef .tc main_arg22)) (W (Proc.devRef .tc main_v11_0)) (W (Proc.devRef .tc main_v14_0)) := by
  after_results; rfl

end Cert.KernelIdeal.Chain

end
-- ==== Proof.ChainFacts.lean ====
/-
  What the seven regions are taken to leave in their output arrays, from ANY contents `V` of the buffers at the
  region's entry: the masked linear layer (its bias a one-row array) of the entry's activations, weight, mask and
  bias row, and its positive part.
-/
import proofs.«152868_j57621281243253_2_alg».proof.Proof.KernelIdeal.Rgn0
import proofs.«152868_j57621281243253_2_alg».proof.Proof.KernelIdeal.Rgn1
import proofs.«152868_j57621281243253_2_alg».proof.Proof.KernelIdeal.Rgn2
import proofs.«152868_j57621281243253_2_alg».proof.Proof.KernelIdeal.Rgn3
import proofs.«152868_j57621281243253_2_alg».proof.Proof.KernelIdeal.Rgn4
import proofs.«152868_j57621281243253_2_alg».proof.Proof.KernelIdeal.Rgn5
import proofs.«152868_j57621281243253_2_alg».proof.Proof.KernelIdeal.Rgn6
import proofs.«152868_j57621281243253_2_alg».proof.Proof.SpecRow

noncomputable section

namespace Cert.KernelIdeal.Chain

open Cert.KernelIdeal Cert.KernelIdeal.Gen
open Idealize.ShloMosaic Idealize.ShloMosaic.TcCoe Idealize.SL.Sem Idealize.ShloMosaic.StableHlo Idealize.ShloMosaic.ValueIdx
open Cert.Mlp

open Cert.KernelIdeal.Hand

/-- Contents of every TensorCore buffer of every device, at extended reals. -/
abbrev VT : Type := (c : Dev nD) → (b : Ref sig .tc) → Buf (Elt Ideal) ((c : Thread nD τ).loc b)

/-- The regions' values: fourteen equations, two per region, each for any entry contents and any device. -/
structure FinalFacts : Prop where
  /-- Region 0's first output array at the end of its grid: the masked linear layer of the region's entry arrays. -/
  final0_pre : ∀ (V : VT) (c : Dev nD), (dat0 V c).arrAt 4 cfg0.N = Cert.Mlp.linR (V c main_arg0) (V c main_arg1) (V c main_arg3) (V c main_v0)
  /-- Region 0's second output array at the end of its grid: the positive part of that layer. -/
  final0_post : ∀ (V : VT) (c : Dev nD), (dat0 V c).arrAt 5 cfg0.N = Cert.Mlp.pos (Cert.Mlp.linR (V c main_arg0) (V c main_arg1) (V c main_arg3) (V c main_v0))
  /-- Region 1's first output array at the end of its grid: the masked linear layer of the region's entry arrays. -/
  final1_pre : ∀ (V : VT) (c : Dev nD), (dat1 V c).arrAt 4 cfg1.N = Cert.Mlp.linR (V c main_v1_1) (V c main_arg4) (V c main_arg6) (V c main_v2)
  /-- Region 1's second output array at the end of its grid: the positive part of that layer. -/
  final1_post : ∀ (V : VT) (c : Dev nD), (dat1 V c).arrAt 5 cfg1.N = Cert.Mlp.pos (Cert.Mlp.linR (V c main_v1_1) (V c main_arg4) (V c main_arg6) (V c main_v2))
  /-- Region 2's first output array at the end of its grid: the masked linear layer of the region's entry arrays. -/
  final2_pre : ∀ (V : VT) (c : Dev nD), (dat2 V c).arrAt 4 cfg2.N = Cert.Mlp.linR (V c main_v3_1) (V c main_arg7) (V c main_arg9) (V c main_v4)
  /-- Region 2's second output array at the end of its grid: the positive part of that layer. -/
  final2_post : ∀ (V : VT) (c : Dev nD), (dat2 V c).arrAt 5 cfg2.N = Cert.Mlp.pos (Cert.Mlp.linR (V c main_v3_1) (V c main_arg7) (V c main_arg9) (V c main_v4))
  /-- Region 3's first output array at the end of its grid: the masked linear layer of the region's entry arrays. -/
  final3_pre : ∀ (V : VT) (c : Dev nD), (dat3 V c).arrAt 4 cfg3.N = Cert.Mlp.linR (V c main_v5_1) (V c main_arg10) (V c main_arg12) (V c main_v6)
  /-- Region 3's second output array at the end of its grid: the positive part of that layer. -/
  final3_post : ∀ (V : VT) (c : Dev nD), (dat3 V c).arrAt 5 cfg3.N = Cert.Mlp.pos (Cert.Mlp.linR (V c main_v5_1) (V c main_arg10) (V c main_arg12) (V c main_v6))
  /-- Region 4's first output array at the end of its grid: the masked linear layer of the region's entry arrays. -/
  final4_pre : ∀ (V : VT) (c : Dev nD), (dat4 V c).arrAt 4 cfg4.N = Cert.Mlp.linR (V c main_v7_1) (V c main_arg13) (V c main_arg15) (V c main_v8)
  /-- Region 4's second output array at the end of its grid: the positive part of that layer. -/
  final4_post : ∀ (V : VT) (c : Dev nD), (dat4 V c).arrAt 5 cfg4.N = Cert.Mlp.pos (Cert.Mlp.linR (V c main_v7_1) (V c main_arg13) (V c main_arg15) (V c main_v8))
  /-- Region 5's first output array at the end of its grid: the masked linear layer of the region's entry arrays. -/
  final5_pre : ∀ (V : VT) (c : Dev nD), (dat5 V c).arrAt 4 cfg5.N = Cert.Mlp.linR (V c main_v9_1) (V c main_arg16) (V c main_arg18) (V c main_v10)
  /-- Region 5's second output array at the end of its grid: that layer again. -/
  final5_post : ∀ (V : VT) (c : Dev nD), (dat5 V c).arrAt 5 cfg5.N = Cert.Mlp.linR (V c main_v9_1) (V c main_arg16) (V c main_arg18) (V c main_v10)
  /-- Region 6's first output array at the end of its grid: the masked linear layer of the region's entry arrays. -/
  final6_pre : ∀ (V : VT) (c : Dev nD), (dat6 V c).arrAt 4 cfg6.N = Cert.Mlp.linR (V c main_v12) (V c main_arg19) (V c main_arg21) (V c main_v13)
  /-- Region 6's second output array at the end of its grid: that layer again. -/
  final6_post : ∀ (V : VT) (c : Dev nD), (dat6 V c).arrAt 5 cfg6.N = Cert.Mlp.linR (V c main_v12) (V c main_arg19) (V c main_arg21) (V c main_v13)

end Cert.KernelIdeal.Chain

end
-- ==== Proof.ChainWalk.lean ====
/-
  The kernel program's buffers followed from launch to the end, stretch by stretch: a buffer nothing writes keeps its
  contents, a region's output arrays are (by the regions' values, taken as `FinalFacts`) the network's layers of the
  region's entry arrays, and so the result buffer ends at the network's shared last stretch of the last layer's column
  and the side path's column.
-/
import proofs.«152868_j57621281243253_2_alg».proof.Proof.KernelIdeal.Main
import proofs.«152868_j57621281243253_2_alg».proof.Proof.ChainHost
import proofs.«152868_j57621281243253_2_alg».proof.Proof.ChainFacts

noncomputable section

namespace Cert.KernelIdeal.Chain

open Cert.KernelIdeal Cert.KernelIdeal.Gen
open Idealize.ShloMosaic Idealize.ShloMosaic.TcCoe Idealize.SL.Sem Idealize.ShloMosaic.StableHlo Idealize.ShloMosaic.ValueIdx
open Cert.Mlp

open Cert.KernelIdeal.Hand

variable (m : (ℓ : Loc nD τ sig) → Buf (Elt Ideal) ℓ) (ρ : Dev nD → PrngReg)

/-- The launch contents of the 23 arguments on device `c`, in the programs' order, as the network's argument record. -/
abbrev argsK (c : Dev nD) : Cert.Mlp.Args :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15), m ((c : Thread nD τ).loc main_arg16), m ((c : Thread nD τ).loc main_arg17), m ((c : Thread nD τ).loc main_arg18), m ((c : Thread nD τ).loc main_arg19), m ((c : Thread nD τ).loc main_arg20), m ((c : Thread nD τ).loc main_arg21), m ((c : Thread nD τ).loc main_arg22)⟩

/-- The one-row-bias layer of arrays equal to the network's inputs, its row holding the bias vector, is the layer. -/
theorem linR_congr_lin {B N K : Nat} {x x' : Arr ⟨2, ![B, K]⟩} {w w' mk mk' : Arr ⟨2, ![N, K]⟩} {br : Arr ⟨2, ![1, N]⟩}
    {b : Arr ⟨1, ![N]⟩} (hx : x = x') (hw : w = w') (hm : mk = mk')
    (hb : ∀ q : Fin N, br (ix2 (0 : Fin 1) q) = b (ix1 q)) : linR x w mk br = lin x' w' mk' b := by
  subst hx hw hm
  exact linR_eq_lin _ _ _ _ _ hb

theorem side_congr {a0 a0' : Arr ⟨2, ![4096, 4096]⟩} {a1 a1' : Arr ⟨2, ![4096, 2048]⟩} {a2 a2' : Arr ⟨2, ![4096, 1024]⟩}
    {a3 a3' : Arr ⟨2, ![4096, 512]⟩} (h0 : a0 = a0') (h1 : a1 = a1') (h2 : a2 = a2') (h3 : a3 = a3') :
    side a0 a1 a2 a3 = side a0' a1' a2' a3' := by
  subst h0 h1 h2 h3; rfl

theorem tail_congr {sc : Shape} (bc : (Arr ⟨0, ![]⟩) → Arr ⟨2, ![4096, 1]⟩) (drop : Arr ⟨2, ![4096, 1]⟩ → Arr sc)
    {a a' : Arr ⟨0, ![]⟩} {u u' v v' : Arr ⟨2, ![4096, 1]⟩} (ha : a = a') (hu : u = u') (hv : v = v') :
    Cert.Mlp.tail bc drop a u v = Cert.Mlp.tail bc drop a' u' v' := by
  subst ha hu hv; rfl

/-! ### Buffers nothing writes between two points of the run keep their contents -/

theorem carry_main_arg1_0_1 (c : Dev nD) :
    Wt1 m ρ c (Proc.devRef .tc main_arg1) = m ((c : Thread nD τ).loc main_arg1) :=
  (StableHlo.after_of_writes_sub hostOps0 _ hostOps0_writes (by decide : main_arg1 ∉ hostOps0_W))
theorem carry_main_arg3_0_1 (c : Dev nD) :
    Wt1 m ρ c (Proc.devRef .tc main_arg3) = m ((c : Thread nD τ).loc main_arg3) :=
  (StableHlo.after_of_writes_sub hostOps0 _ hostOps0_writes (by decide : main_arg3 ∉ hostOps0_W))
theorem carry_main_arg0_0_1 (c : Dev nD) :
    Wt1 m ρ c (Proc.devRef .tc main_arg0) = m ((c : Thread nD τ).loc main_arg0) :=
  (StableHlo.after_of_writes_sub hostOps0 _ hostOps0_writes (by decide : main_arg0 ∉ hostOps0_W))
theorem carry_main_arg4_0_3 (c : Dev nD) :
    Wt3 m ρ c (Proc.devRef .tc main_arg4) = m ((c : Thread nD τ).loc main_arg4) :=
  (StableHlo.after_of_writes_sub hostOps1 _ hostOps1_writes (by decide : main_arg4 ∉ hostOps1_W)).trans <|
    (Wt2_keep m ρ c main_arg4 (by decide) (by decide)).trans <|
    (StableHlo.after_of_writes_sub hostOps0 _ hostOps0_writes (by decide : main_arg4 ∉ hostOps0_W))
theorem carry_main_arg6_0_3 (c : Dev nD) :
    Wt3 m ρ c (Proc.devRef .tc main_arg6) = m ((c : Thread nD τ).loc main_arg6) :=
  (StableHlo.after_of_writes_sub hostOps1 _ hostOps1_writes (by decide : main_arg6 ∉ hostOps1_W)).trans <|
    (Wt2_keep m ρ c main_arg6 (by decide) (by decide)).trans <|
    (StableHlo.after_of_writes_sub hostOps0 _ hostOps0_writes (by decide : main_arg6 ∉ hostOps0_W))
theorem carry_main_v1_1_2_3 (c : Dev nD) :
    Wt3 m ρ c (Proc.devRef .tc main_v1_1) = Wt2 m ρ c (Proc.devRef .tc main_v1_1) :=
  (StableHlo.after_of_writes_sub hostOps1 _ hostOps1_writes (by decide : main_v1_1 ∉ hostOps1_W))
theorem carry_main_arg5_0_2 (c : Dev nD) :
    Wt2 m ρ c (Proc.devRef .tc main_arg5) = m ((c : Thread nD τ).loc main_arg5) :=
  (Wt2_keep m ρ c main_arg5 (by decide) (by decide)).trans <|
    (StableHlo.after_of_writes_sub hostOps0 _ hostOps0_writes (by decide : main_arg5 ∉ hostOps0_W))
theorem carry_main_arg7_0_5 (c : Dev nD) :
    Wt5 m ρ c (Proc.devRef .tc main_arg7) = m ((c : Thread nD τ).loc main_arg7) :=
  (StableHlo.after_of_writes_sub hostOps2 _ hostOps2_writes (by decide : main_arg7 ∉ hostOps2_W)).trans <|
    (Wt4_keep m ρ c main_arg7 (by decide) (by decide)).trans <|
    (StableHlo.after_of_writes_sub hostOps1 _ hostOps1_writes (by decide : main_arg7 ∉ hostOps1_W)).trans <|
    (Wt2_keep m ρ c main_arg7 (by decide) (by decide)).trans <|
    (StableHlo.after_of_writes_sub hostOps0 _ hostOps0_writes (by decide : main_arg7 ∉ hostOps0_W))
theorem carry_main_arg9_0_5 (c : Dev nD) :
    Wt5 m ρ c (Proc.devRef .tc main_arg9) = m ((c : Thread nD τ).loc main_arg9) :=
  (StableHlo.after_of_writes_sub hostOps2 _ hostOps2_writes (by decide : main_arg9 ∉ hostOps2_W)).trans <|
    (Wt4_keep m ρ c main_arg9 (by decide) (by decide)).trans <|
    (StableHlo.after_of_writes_sub hostOps1 _ hostOps1_writes (by decide : main_arg9 ∉ hostOps1_W)).trans <|
    (Wt2_keep m ρ c main_arg9 (by decide) (by decide)).trans <|
    (StableHlo.after_of_writes_sub hostOps0 _ hostOps0_writes (by decide : main_arg9 ∉ hostOps0_W))
theorem carry_main_v3_1_4_5 (c : Dev nD) :
    Wt5 m ρ c (Proc.devRef .tc main_v3_1) = Wt4 m ρ c (Proc.devRef .tc main_v3_1) :=
  (StableHlo.after_of_writes_sub hostOps2 _ hostOps2_writes (by decide : main_v3_1 ∉ hostOps2_W))
theorem carry_main_arg8_0_4 (c : Dev nD) :
    Wt4 m ρ c (Proc.devRef .tc main_arg8) = m ((c : Thread nD τ).loc main_arg8) :=
  (Wt4_keep m ρ c main_arg8 (by decide) (by decide)).trans <|
    (StableHlo.after_of_writes_sub hostOps1 _ hostOps1_writes (by decide : main_arg8 ∉ hostOps1_W)).trans <|
    (Wt2_keep m ρ c main_arg8 (by decide) (by decide)).trans <|
    (StableHlo.after_of_writes_sub hostOps0 _ hostOps0_writes (by decide : main_arg8 ∉ hostOps0_W))
theorem carry_main_arg10_0_7 (c : Dev nD) :
    Wt7 m ρ c (Proc.devRef .tc main_arg10) = m ((c : Thread nD τ).loc main_arg10) :=
  (StableHlo.after_of_writes_sub hostOps3 _ hostOps3_writes (by decide : main_arg10 ∉ hostOps3_W)).trans <|
    (Wt6_keep m ρ c main_arg10 (by decide) (by decide)).trans <|
    (StableHlo.after_of_writes_sub hostOps2 _ hostOps2_writes (by decide : main_arg10 ∉ hostOps2_W)).trans <|
    (Wt4_keep m ρ c main_arg10 (by decide) (by decide)).trans <|
    (StableHlo.after_of_writes_sub hostOps1 _ hostOps1_writes (by decide : main_arg10 ∉ hostOps1_W)).trans <|
    (Wt2_keep m ρ c main_arg10 (by decide) (by decide)).trans <|
    (StableHlo.after_of_writes_sub hostOps0 _ hostOps0_writes (by decide : main_arg10 ∉ hostOps0_W))
theorem carry_main_arg12_0_7 (c : Dev nD) :
    Wt7 m ρ c (Proc.devRef .tc main_arg12) = m ((c : Thread nD τ).loc main_arg12) :=
  (StableHlo.after_of_writes_sub hostOps3 _ hostOps3_writes (by decide : main_arg12 ∉ hostOps3_W)).trans <|
    (Wt6_keep m ρ c main_arg12 (by decide) (by decide)).trans <|
    (StableHlo.after_of_writes_sub hostOps2 _ hostOps2_writes (by decide : main_arg12 ∉ hostOps2_W)).trans <|
    (Wt4_keep m ρ c main_arg12 (by decide) (by decide)).trans <|
    (StableHlo.after_of_writes_sub hostOps1 _ hostOps1_writes (by decide : main_arg12 ∉ hostOps1_W)).trans <|
    (Wt2_keep m ρ c main_arg12 (by decide) (by decide)).trans <|
    (StableHlo.after_of_writes_sub hostOps0 _ hostOps0_writes (by decide : main_arg12 ∉ hostOps0_W))
theorem carry_main_v5_1_6_7 (c : Dev nD) :
    Wt7 m ρ c (Proc.devRef .tc main_v5_1) = Wt6 m ρ c (Proc.devRef .tc main_v5_1) :=
  (StableHlo.after_of_writes_sub hostOps3 _ hostOps3_writes (by decide : main_v5_1 ∉ hostOps3_W))
theorem carry_main_arg11_0_6 (c : Dev nD) :
    Wt6 m ρ c (Proc.devRef .tc main_arg11) = m ((c : Thread nD τ).loc main_arg11) :=
  (Wt6_keep m ρ c main_arg11 (by decide) (by decide)).trans <|
    (StableHlo.after_of_writes_sub hostOps2 _ hostOps2_writes (by decide : main_arg11 ∉ hostOps2_W)).trans <|
    (Wt4_keep m ρ c main_arg11 (by decide) (by decide)).trans <|
    (StableHlo.after_of_writes_sub hostOps1 _ hostOps1_writes (by decide : main_arg11 ∉ hostOps1_W)).trans <|
    (Wt2_keep m ρ c main_arg11 (by decide) (by decide)).trans <|
    (StableHlo.after_of_writes_sub hostOps0 _ hostOps0_writes (by decide : main_arg11 ∉ hostOps0_W))
theorem carry_main_arg13_0_9 (c : Dev nD) :
    Wt9 m ρ c (Proc.devRef .tc main_arg13) = m ((c : Thread nD τ).loc main_arg13) :=
  (StableHlo.after_of_writes_sub hostOps4 _ hostOps4_writes (by decide : main_arg13 ∉ hostOps4_W)).trans <|
    (Wt8_keep m ρ c main_arg13 (by decide) (by decide)).trans <|
    (StableHlo.after_of_writes_sub hostOps3 _ hostOps3_writes (by decide : main_arg13 ∉ hostOps3_W)).trans <|
    (Wt6_keep m ρ c main_arg13 (by decide) (by decide)).trans <|
    (StableHlo.after_of_writes_sub hostOps2 _ hostOps2_writes (by decide : main_arg13 ∉ hostOps2_W)).trans <|
    (Wt4_keep m ρ c main_arg13 (by decide) (by decide)).trans <|
    (StableHlo.after_of_writes_sub hostOps1 _ hostOps1_writes (by decide : main_arg13 ∉ hostOps1_W)).trans <|
    (Wt2_keep m ρ c main_arg13 (by decide) (by decide)).trans <|
    (StableHlo.after_of_writes_sub hostOps0 _ hostOps0_writes (by decide : main_arg13 ∉ hostOps0_W))
theorem carry_main_arg15_0_9 (c : Dev nD) :
    Wt9 m ρ c (Proc.devRef .tc main_arg15) = m ((c : Thread nD τ).loc main_arg15) :=
  (StableHlo.after_of_writes_sub hostOps4 _ hostOps4_writes (by decide : main_arg15 ∉ hostOps4_W)).trans <|
    (Wt8_keep m ρ c main_arg15 (by decide) (by decide)).trans <|
    (StableHlo.after_of_writes_sub hostOps3 _ hostOps3_writes (by decide : main_arg15 ∉ hostOps3_W)).trans <|
    (Wt6_keep m ρ c main_arg15 (by decide) (by decide)).trans <|
    (StableHlo.after_of_writes_sub hostOps2 _ hostOps2_writes (by decide : main_arg15 ∉ hostOps2_W)).trans <|
    (Wt4_keep m ρ c main_arg15 (by decide) (by decide)).trans <|
    (StableHlo.after_of_writes_sub hostOps1 _ hostOps1_writes (by decide : main_arg15 ∉ hostOps1_W)).trans <|
    (Wt2_keep m ρ c main_arg15 (by decide) (by decide)).trans <|
    (StableHlo.after_of_writes_sub hostOps0 _ hostOps0_writes (by decide : main_arg15 ∉ hostOps0_W))
theorem carry_main_v7_1_8_9 (c : Dev nD) :
    Wt9 m ρ c (Proc.devRef .tc main_v7_1) = Wt8 m ρ c (Proc.devRef .tc main_v7_1) :=
  (StableHlo.after_of_writes_sub hostOps4 _ hostOps4_writes (by decide : main_v7_1 ∉ hostOps4_W))
theorem carry_main_arg14_0_8 (c : Dev nD) :
    Wt8 m ρ c (Proc.devRef .tc main_arg14) = m ((c : Thread nD τ).loc main_arg14) :=
  (Wt8_keep m ρ c main_arg14 (by decide) (by decide)).trans <|
    (StableHlo.after_of_writes_sub hostOps3 _ hostOps3_writes (by decide : main_arg14 ∉ hostOps3_W)).trans <|
    (Wt6_keep m ρ c main_arg14 (by decide) (by decide)).trans <|
    (StableHlo.after_of_writes_sub hostOps2 _ hostOps2_writes (by decide : main_arg14 ∉ hostOps2_W)).trans <|
    (Wt4_keep m ρ c main_arg14 (by decide) (by decide)).trans <|
    (StableHlo.after_of_writes_sub hostOps1 _ hostOps1_writes (by decide : main_arg14 ∉ hostOps1_W)).trans <|
    (Wt2_keep m ρ c main_arg14 (by decide) (by decide)).trans <|
    (StableHlo.after_of_writes_sub hostOps0 _ hostOps0_writes (by decide : main_arg14 ∉ hostOps0_W))
theorem carry_main_arg16_0_11 (c : Dev nD) :
    Wt11 m ρ c (Proc.devRef .tc main_arg16) = m ((c : Thread nD τ).loc main_arg16) :=
  (StableHlo.after_of_writes_sub hostOps5 _ hostOps5_writes (by decide : main_arg16 ∉ hostOps5_W)).trans <|
    (Wt10_keep m ρ c main_arg16 (by decide) (by decide)).trans <|
    (StableHlo.after_of_writes_sub hostOps4 _ hostOps4_writes (by decide : main_arg16 ∉ hostOps4_W)).trans <|
    (Wt8_keep m ρ c main_arg16 (by decide) (by decide)).trans <|
    (StableHlo.after_of_writes_sub hostOps3 _ hostOps3_writes (by decide : main_arg16 ∉ hostOps3_W)).trans <|
    (Wt6_keep m ρ c main_arg16 (by decide) (by decide)).trans <|
    (StableHlo.after_of_writes_sub hostOps2 _ hostOps2_writes (by decide : main_arg16 ∉ hostOps2_W)).trans <|
    (Wt4_keep m ρ c main_arg16 (by decide) (by decide)).trans <|
    (StableHlo.after_of_writes_sub hostOps1 _ hostOps1_writes (by decide : main_arg16 ∉ hostOps1_W)).trans <|
    (Wt2_keep m ρ c main_arg16 (by decide) (by decide)).trans <|
    (StableHlo.after_of_writes_sub hostOps0 _ hostOps0_writes (by decide : main_arg16 ∉ hostOps0_W))
theorem carry_main_arg18_0_11 (c : Dev nD) :
    Wt11 m ρ c (Proc.devRef .tc main_arg18) = m ((c : Thread nD τ).loc main_arg18) :=
  (StableHlo.after_of_writes_sub hostOps5 _ hostOps5_writes (by decide : main_arg18 ∉ hostOps5_W)).trans <|
    (Wt10_keep m ρ c main_arg18 (by decide) (by decide)).trans <|
    (StableHlo.after_of_writes_sub hostOps4 _ hostOps4_writes (by decide : main_arg18 ∉ hostOps4_W)).trans <|
    (Wt8_keep m ρ c main_arg18 (by decide) (by decide)).trans <|
    (StableHlo.after_of_writes_sub hostOps3 _ hostOps3_writes (by decide : main_arg18 ∉ hostOps3_W)).trans <|
    (Wt6_keep m ρ c main_arg18 (by decide) (by decide)).trans <|
    (StableHlo.after_of_writes_sub hostOps2 _ hostOps2_writes (by decide : main_arg18 ∉ hostOps2_W)).trans <|
    (Wt4_keep m ρ c main_arg18 (by decide) (by decide)).trans <|
    (StableHlo.after_of_writes_sub hostOps1 _ hostOps1_writes (by decide : main_arg18 ∉ hostOps1_W)).trans <|
    (Wt2_keep m ρ c main_arg18 (by decide) (by decide)).trans <|
    (StableHlo.after_of_writes_sub hostOps0 _ hostOps0_writes (by decide : main_arg18 ∉ hostOps0_W))
theorem carry_main_v9_1_10_11 (c : Dev nD) :
    Wt11 m ρ c (Proc.devRef .tc main_v9_1) = Wt10 m ρ c (Proc.devRef .tc main_v9_1) :=
  (StableHlo.after_of_writes_sub hostOps5 _ hostOps5_writes (by decide : main_v9_1 ∉ hostOps5_W))
theorem carry_main_arg17_0_10 (c : Dev nD) :
    Wt10 m ρ c (Proc.devRef .tc main_arg17) = m ((c : Thread nD τ).loc main_arg17) :=
  (Wt10_keep m ρ c main_arg17 (by decide) (by decide)).trans <|
    (StableHlo.after_of_writes_sub hostOps4 _ hostOps4_writes (by decide : main_arg17 ∉ hostOps4_W)).trans <|
    (Wt8_keep m ρ c main_arg17 (by decide) (by decide)).trans <|
    (StableHlo.after_of_writes_sub hostOps3 _ hostOps3_writes (by decide : main_arg17 ∉ hostOps3_W)).trans <|
    (Wt6_keep m ρ c main_arg17 (by decide) (by decide)).trans <|
    (StableHlo.after_of_writes_sub hostOps2 _ hostOps2_writes (by decide : main_arg17 ∉ hostOps2_W)).trans <|
    (Wt4_keep m ρ c main_arg17 (by decide) (by decide)).trans <|
    (StableHlo.after_of_writes_sub hostOps1 _ hostOps1_writes (by decide : main_arg17 ∉ hostOps1_W)).trans <|
    (Wt2_keep m ρ c main_arg17 (by decide) (by decide)).trans <|
    (StableHlo.after_of_writes_sub hostOps0 _ hostOps0_writes (by decide : main_arg17 ∉ hostOps0_W))
theorem carry_main_arg19_0_13 (c : Dev nD) :
    Wt13 m ρ c (Proc.devRef .tc main_arg19) = m ((c : Thread nD τ).loc main_arg19) :=
  (StableHlo.after_of_writes_sub hostOps6 _ hostOps6_writes (by decide : main_arg19 ∉ hostOps6_W)).trans <|
    (Wt12_keep m ρ c main_arg19 (by decide) (by decide)).trans <|
    (StableHlo.after_of_writes_sub hostOps5 _ hostOps5_writes (by decide : main_arg19 ∉ hostOps5_W)).trans <|
    (Wt10_keep m ρ c main_arg19 (by decide) (by decide)).trans <|
    (StableHlo.after_of_writes_sub hostOps4 _ hostOps4_writes (by decide : main_arg19 ∉ hostOps4_W)).trans <|
    (Wt8_keep m ρ c main_arg19 (by decide) (by decide)).trans <|
    (StableHlo.after_of_writes_sub hostOps3 _ hostOps3_writes (by decide : main_arg19 ∉ hostOps3_W)).trans <|
    (Wt6_keep m ρ c main_arg19 (by decide) (by decide)).trans <|
    (StableHlo.after_of_writes_sub hostOps2 _ hostOps2_writes (by decide : main_arg19 ∉ hostOps2_W)).trans <|
    (Wt4_keep m ρ c main_arg19 (by decide) (by decide)).trans <|
    (StableHlo.after_of_writes_sub hostOps1 _ hostOps1_writes (by decide : main_arg19 ∉ hostOps1_W)).trans <|
    (Wt2_keep m ρ c main_arg19 (by decide) (by decide)).trans <|
    (StableHlo.after_of_writes_sub hostOps0 _ hostOps0_writes (by decide : main_arg19 ∉ hostOps0_W))
theorem carry_main_arg21_0_13 (c : Dev nD) :
    Wt13 m ρ c (Proc.devRef .tc main_arg21) = m ((c : Thread nD τ).loc main_arg21) :=
  (StableHlo.after_of_writes_sub hostOps6 _ hostOps6_writes (by decide : main_arg21 ∉ hostOps6_W)).trans <|
    (Wt12_keep m ρ c main_arg21 (by decide) (by decide)).trans <|
    (StableHlo.after_of_writes_sub hostOps5 _ hostOps5_writes (by decide : main_arg21 ∉ hostOps5_W)).trans <|
    (Wt10_keep m ρ c main_arg21 (by decide) (by decide)).trans <|
    (StableHlo.after_of_writes_sub hostOps4 _ hostOps4_writes (by decide : main_arg21 ∉ hostOps4_W)).trans <|
    (Wt8_keep m ρ c main_arg21 (by decide) (by decide)).trans <|
    (StableHlo.after_of_writes_sub hostOps3 _ hostOps3_writes (by decide : main_arg21 ∉ hostOps3_W)).trans <|
    (Wt6_keep m ρ c main_arg21 (by decide) (by decide)).trans <|
    (StableHlo.after_of_writes_sub hostOps2 _ hostOps2_writes (by decide : main_arg21 ∉ hostOps2_W)).trans <|
    (Wt4_keep m ρ c main_arg21 (by decide) (by decide)).trans <|
    (StableHlo.after_of_writes_sub hostOps1 _ hostOps1_writes (by decide : main_arg21 ∉ hostOps1_W)).trans <|
    (Wt2_keep m ρ c main_arg21 (by decide) (by decide)).trans <|
    (StableHlo.after_of_writes_sub hostOps0 _ hostOps0_writes (by decide : main_arg21 ∉ hostOps0_W))
theorem carry_main_v1_0_2_12 (c : Dev nD) :
    Wt12 m ρ c (Proc.devRef .tc main_v1_0) = Wt2 m ρ c (Proc.devRef .tc main_v1_0) :=
  (Wt12_keep m ρ c main_v1_0 (by decide) (by decide)).trans <|
    (StableHlo.after_of_writes_sub hostOps5 _ hostOps5_writes (by decide : main_v1_0 ∉ hostOps5_W)).trans <|
    (Wt10_keep m ρ c main_v1_0 (by decide) (by decide)).trans <|
    (StableHlo.after_of_writes_sub hostOps4 _ hostOps4_writes (by decide : main_v1_0 ∉ hostOps4_W)).trans <|
    (Wt8_keep m ρ c main_v1_0 (by decide) (by decide)).trans <|
    (StableHlo.after_of_writes_sub hostOps3 _ hostOps3_writes (by decide : main_v1_0 ∉ hostOps3_W)).trans <|
    (Wt6_keep m ρ c main_v1_0 (by decide) (by decide)).trans <|
    (StableHlo.after_of_writes_sub hostOps2 _ hostOps2_writes (by decide : main_v1_0 ∉ hostOps2_W)).trans <|
    (Wt4_keep m ρ c main_v1_0 (by decide) (by decide)).trans <|
    (StableHlo.after_of_writes_sub hostOps1 _ hostOps1_writes (by decide : main_v1_0 ∉ hostOps1_W))
theorem carry_main_v3_0_4_12 (c : Dev nD) :
    Wt12 m ρ c (Proc.devRef .tc main_v3_0) = Wt4 m ρ c (Proc.devRef .tc main_v3_0) :=
  (Wt12_keep m ρ c main_v3_0 (by decide) (by decide)).trans <|
    (StableHlo.after_of_writes_sub hostOps5 _ hostOps5_writes (by decide : main_v3_0 ∉ hostOps5_W)).trans <|
    (Wt10_keep m ρ c main_v3_0 (by decide) (by decide)).trans <|
    (StableHlo.after_of_writes_sub hostOps4 _ hostOps4_writes (by decide : main_v3_0 ∉ hostOps4_W)).trans <|
    (Wt8_keep m ρ c main_v3_0 (by decide) (by decide)).trans <|
    (StableHlo.after_of_writes_sub hostOps3 _ hostOps3_writes (by decide : main_v3_0 ∉ hostOps3_W)).trans <|
    (Wt6_keep m ρ c main_v3_0 (by decide) (by decide)).trans <|
    (StableHlo.after_of_writes_sub hostOps2 _ hostOps2_writes (by decide : main_v3_0 ∉ hostOps2_W))
theorem carry_main_v5_0_6_12 (c : Dev nD) :
    Wt12 m ρ c (Proc.devRef .tc main_v5_0) = Wt6 m ρ c (Proc.devRef .tc main_v5_0) :=
  (Wt12_keep m ρ c main_v5_0 (by decide) (by decide)).trans <|
    (StableHlo.after_of_writes_sub hostOps5 _ hostOps5_writes (by decide : main_v5_0 ∉ hostOps5_W)).trans <|
    (Wt10_keep m ρ c main_v5_0 (by decide) (by decide)).trans <|
    (StableHlo.after_of_writes_sub hostOps4 _ hostOps4_writes (by decide : main_v5_0 ∉ hostOps4_W)).trans <|
    (Wt8_keep m ρ c main_v5_0 (by decide) (by decide)).trans <|
    (StableHlo.after_of_writes_sub hostOps3 _ hostOps3_writes (by decide : main_v5_0 ∉ hostOps3_W))
theorem carry_main_v7_0_8_12 (c : Dev nD) :
    Wt12 m ρ c (Proc.devRef .tc main_v7_0) = Wt8 m ρ c (Proc.devRef .tc main_v7_0) :=
  (Wt12_keep m ρ c main_v7_0 (by decide) (by decide)).trans <|
    (StableHlo.after_of_writes_sub hostOps5 _ hostOps5_writes (by decide : main_v7_0 ∉ hostOps5_W)).trans <|
    (Wt10_keep m ρ c main_v7_0 (by decide) (by decide)).trans <|
    (StableHlo.after_of_writes_sub hostOps4 _ hostOps4_writes (by decide : main_v7_0 ∉ hostOps4_W))
theorem carry_main_arg20_0_12 (c : Dev nD) :
    Wt12 m ρ c (Proc.devRef .tc main_arg20) = m ((c : Thread nD τ).loc main_arg20) :=
  (Wt12_keep m ρ c main_arg20 (by decide) (by decide)).trans <|
    (StableHlo.after_of_writes_sub hostOps5 _ hostOps5_writes (by decide : main_arg20 ∉ hostOps5_W)).trans <|
    (Wt10_keep m ρ c main_arg20 (by decide) (by decide)).trans <|
    (StableHlo.after_of_writes_sub hostOps4 _ hostOps4_writes (by decide : main_arg20 ∉ hostOps4_W)).trans <|
    (Wt8_keep m ρ c main_arg20 (by decide) (by decide)).trans <|
    (StableHlo.after_of_writes_sub hostOps3 _ hostOps3_writes (by decide : main_arg20 ∉ hostOps3_W)).trans <|
    (Wt6_keep m ρ c main_arg20 (by decide) (by decide)).trans <|
    (StableHlo.after_of_writes_sub hostOps2 _ hostOps2_writes (by decide : main_arg20 ∉ hostOps2_W)).trans <|
    (Wt4_keep m ρ c main_arg20 (by decide) (by decide)).trans <|
    (StableHlo.after_of_writes_sub hostOps1 _ hostOps1_writes (by decide : main_arg20 ∉ hostOps1_W)).trans <|
    (Wt2_keep m ρ c main_arg20 (by decide) (by decide)).trans <|
    (StableHlo.after_of_writes_sub hostOps0 _ hostOps0_writes (by decide : main_arg20 ∉ hostOps0_W))
theorem carry_main_arg22_0_14 (c : Dev nD) :
    Wt14 m ρ c (Proc.devRef .tc main_arg22) = m ((c : Thread nD τ).loc main_arg22) :=
  (Wt14_keep m ρ c main_arg22 (by decide) (by decide)).trans <|
    (StableHlo.after_of_writes_sub hostOps6 _ hostOps6_writes (by decide : main_arg22 ∉ hostOps6_W)).trans <|
    (Wt12_keep m ρ c main_arg22 (by decide) (by decide)).trans <|
    (StableHlo.after_of_writes_sub hostOps5 _ hostOps5_writes (by decide : main_arg22 ∉ hostOps5_W)).trans <|
    (Wt10_keep m ρ c main_arg22 (by decide) (by decide)).trans <|
    (StableHlo.after_of_writes_sub hostOps4 _ hostOps4_writes (by decide : main_arg22 ∉ hostOps4_W)).trans <|
    (Wt8_keep m ρ c main_arg22 (by decide) (by decide)).trans <|
    (StableHlo.after_of_writes_sub hostOps3 _ hostOps3_writes (by decide : main_arg22 ∉ hostOps3_W)).trans <|
    (Wt6_keep m ρ c main_arg22 (by decide) (by decide)).trans <|
    (StableHlo.after_of_writes_sub hostOps2 _ hostOps2_writes (by decide : main_arg22 ∉ hostOps2_W)).trans <|
    (Wt4_keep m ρ c main_arg22 (by decide) (by decide)).trans <|
    (StableHlo.after_of_writes_sub hostOps1 _ hostOps1_writes (by decide : main_arg22 ∉ hostOps1_W)).trans <|
    (Wt2_keep m ρ c main_arg22 (by decide) (by decide)).trans <|
    (StableHlo.after_of_writes_sub hostOps0 _ hostOps0_writes (by decide : main_arg22 ∉ hostOps0_W))
theorem carry_main_v11_0_12_14 (c : Dev nD) :
    Wt14 m ρ c (Proc.devRef .tc main_v11_0) = Wt12 m ρ c (Proc.devRef .tc main_v11_0) :=
  (Wt14_keep m ρ c main_v11_0 (by decide) (by decide)).trans <|
    (StableHlo.after_of_writes_sub hostOps6 _ hostOps6_writes (by decide : main_v11_0 ∉ hostOps6_W))

/-! ### The regions' outputs, in order -/

/-- Region 0's entry arrays are the first layer's inputs: its one-row-bias layer of them is the network's first masked linear layer. -/
theorem lin0_eq (H : FinalFacts) (c : Dev nD) :
    Cert.Mlp.linR (Vt1 m ρ c main_arg0) (Vt1 m ρ c main_arg1) (Vt1 m ρ c main_arg3) (Vt1 m ρ c main_v0) = Cert.Mlp.pre0 (argsK m c) :=
  linR_congr_lin (carry_main_arg0_0_1 m ρ c) (carry_main_arg1_0_1 m ρ c) (carry_main_arg3_0_1 m ρ c)
    (fun q => row0 (Wt0 m ρ c) q)

/-- After region 0, its first output array is the network's first masked linear layer. -/
theorem out0_pre (H : FinalFacts) (c : Dev nD) :
    (Wt2 m ρ c (Proc.devRef .tc main_v1_0) : S4096x4096.Idx → EReal) = Cert.Mlp.pre0 (argsK m c) :=
  ((Wt2_arr m ρ c 4).trans (H.final0_pre (Vt1 m ρ) c)).trans (lin0_eq m ρ H c)

/-- After region 0, its second output array is the positive part of the first masked linear layer. -/
theorem out0_post (H : FinalFacts) (c : Dev nD) :
    (Wt2 m ρ c (Proc.devRef .tc main_v1_1) : S4096x4096.Idx → EReal) = Cert.Mlp.pos (Cert.Mlp.pre0 (argsK m c)) :=
  ((Wt2_arr m ρ c 5).trans (H.final0_post (Vt1 m ρ) c)).trans (congrArg Cert.Mlp.pos (lin0_eq m ρ H c))

/-- Region 1's entry arrays are the second layer's inputs: its one-row-bias layer of them is the network's second masked linear layer. -/
theorem lin1_eq (H : FinalFacts) (c : Dev nD) :
    Cert.Mlp.linR (Vt3 m ρ c main_v1_1) (Vt3 m ρ c main_arg4) (Vt3 m ρ c main_arg6) (Vt3 m ρ c main_v2) = Cert.Mlp.pre1 (argsK m c) :=
  linR_congr_lin ((carry_main_v1_1_2_3 m ρ c).trans (out0_post m ρ H c)) (carry_main_arg4_0_3 m ρ c) (carry_main_arg6_0_3 m ρ c)
    (fun q => (row1 (Wt2 m ρ c) q).trans (congrFun (carry_main_arg5_0_2 m ρ c) (ix1 q)))

/-- After region 1, its first output array is the network's second masked linear layer. -/
theorem out1_pre (H : FinalFacts) (c : Dev nD) :
    (Wt4 m ρ c (Proc.devRef .tc main_v3_0) : S4096x2048.Idx → EReal) = Cert.Mlp.pre1 (argsK m c) :=
  ((Wt4_arr m ρ c 4).trans (H.final1_pre (Vt3 m ρ) c)).trans (lin1_eq m ρ H c)

/-- After region 1, its second output array is the positive part of the second masked linear layer. -/
theorem out1_post (H : FinalFacts) (c : Dev nD) :
    (Wt4 m ρ c (Proc.devRef .tc main_v3_1) : S4096x2048.Idx → EReal) = Cert.Mlp.pos (Cert.Mlp.pre1 (argsK m c)) :=
  ((Wt4_arr m ρ c 5).trans (H.final1_post (Vt3 m ρ) c)).trans (congrArg Cert.Mlp.pos (lin1_eq m ρ H c))

/-- Region 2's entry arrays are the third layer's inputs: its one-row-bias layer of them is the network's third masked linear layer. -/
theorem lin2_eq (H : FinalFacts) (c : Dev nD) :
    Cert.Mlp.linR (Vt5 m ρ c main_v3_1) (Vt5 m ρ c main_arg7) (Vt5 m ρ c main_arg9) (Vt5 m ρ c main_v4) = Cert.Mlp.pre2 (argsK m c) :=
  linR_congr_lin ((carry_main_v3_1_4_5 m ρ c).trans (out1_post m ρ H c)) (carry_main_arg7_0_5 m ρ c) (carry_main_arg9_0_5 m ρ c)
    (fun q => (row2 (Wt4 m ρ c) q).trans (congrFun (carry_main_arg8_0_4 m ρ c) (ix1 q)))

/-- After region 2, its first output array is the network's third masked linear layer. -/
theorem out2_pre (H : FinalFacts) (c : Dev nD) :
    (Wt6 m ρ c (Proc.devRef .tc main_v5_0) : S4096x1024.Idx → EReal) = Cert.Mlp.pre2 (argsK m c) :=
  ((Wt6_arr m ρ c 4).trans (H.final2_pre (Vt5 m ρ) c)).trans (lin2_eq m ρ H c)

/-- After region 2, its second output array is the positive part of the third masked linear layer. -/
theorem out2_post (H : FinalFacts) (c : Dev nD) :
    (Wt6 m ρ c (Proc.devRef .tc main_v5_1) : S4096x1024.Idx → EReal) = Cert.Mlp.pos (Cert.Mlp.pre2 (argsK m c)) :=
  ((Wt6_arr m ρ c 5).trans (H.final2_post (Vt5 m ρ) c)).trans (congrArg Cert.Mlp.pos (lin2_eq m ρ H c))

/-- Region 3's entry arrays are the fourth layer's inputs: its one-row-bias layer of them is the network's fourth masked linear layer. -/
theorem lin3_eq (H : FinalFacts) (c : Dev nD) :
    Cert.Mlp.linR (Vt7 m ρ c main_v5_1) (Vt7 m ρ c main_arg10) (Vt7 m ρ c main_arg12) (Vt7 m ρ c main_v6) = Cert.Mlp.pre3 (argsK m c) :=
  linR_congr_lin ((carry_main_v5_1_6_7 m ρ c).trans (out2_post m ρ H c)) (carry_main_arg10_0_7 m ρ c) (carry_main_arg12_0_7 m ρ c)
    (fun q => (row3 (Wt6 m ρ c) q).trans (congrFun (carry_main_arg11_0_6 m ρ c) (ix1 q)))

/-- After region 3, its first output array is the network's fourth masked linear layer. -/
theorem out3_pre (H : FinalFacts) (c : Dev nD) :
    (Wt8 m ρ c (Proc.devRef .tc main_v7_0) : S4096x512.Idx → EReal) = Cert.Mlp.pre3 (argsK m c) :=
  ((Wt8_arr m ρ c 4).trans (H.final3_pre (Vt7 m ρ) c)).trans (lin3_eq m ρ H c)

/-- After region 3, its second output array is the positive part of the fourth masked linear layer. -/
theorem out3_post (H : FinalFacts) (c : Dev nD) :
    (Wt8 m ρ c (Proc.devRef .tc main_v7_1) : S4096x512.Idx → EReal) = Cert.Mlp.pos (Cert.Mlp.pre3 (argsK m c)) :=
  ((Wt8_arr m ρ c 5).trans (H.final3_post (Vt7 m ρ) c)).trans (congrArg Cert.Mlp.pos (lin3_eq m ρ H c))

/-- Region 4's entry arrays are the fifth layer's inputs: its one-row-bias layer of them is the network's fifth masked linear layer. -/
theorem lin4_eq (H : FinalFacts) (c : Dev nD) :
    Cert.Mlp.linR (Vt9 m ρ c main_v7_1) (Vt9 m ρ c main_arg13) (Vt9 m ρ c main_arg15) (Vt9 m ρ c main_v8) = Cert.Mlp.pre4 (argsK m c) :=
  linR_congr_lin ((carry_main_v7_1_8_9 m ρ c).trans (out3_post m ρ H c)) (carry_main_arg13_0_9 m ρ c) (carry_main_arg15_0_9 m ρ c)
    (fun q => (row4 (Wt8 m ρ c) q).trans (congrFun (carry_main_arg14_0_8 m ρ c) (ix1 q)))

/-- After region 4, its first output array is the network's fifth masked linear layer. -/
theorem out4_pre (H : FinalFacts) (c : Dev nD) :
    (Wt10 m ρ c (Proc.devRef .tc main_v9_0) : S4096x256.Idx → EReal) = Cert.Mlp.pre4 (argsK m c) :=
  ((Wt10_arr m ρ c 4).trans (H.final4_pre (Vt9 m ρ) c)).trans (lin4_eq m ρ H c)

/-- After region 4, its second output array is the positive part of the fifth masked linear layer. -/
theorem out4_post (H : FinalFacts) (c : Dev nD) :
    (Wt10 m ρ c (Proc.devRef .tc main_v9_1) : S4096x256.Idx → EReal) = Cert.Mlp.pos (Cert.Mlp.pre4 (argsK m c)) :=
  ((Wt10_arr m ρ c 5).trans (H.final4_post (Vt9 m ρ) c)).trans (congrArg Cert.Mlp.pos (lin4_eq m ρ H c))

/-- Region 5's entry arrays are the sixth layer's inputs: its one-row-bias layer of them is the network's sixth masked linear layer. -/
theorem lin5_eq (H : FinalFacts) (c : Dev nD) :
    Cert.Mlp.linR (Vt11 m ρ c main_v9_1) (Vt11 m ρ c main_arg16) (Vt11 m ρ c main_arg18) (Vt11 m ρ c main_v10) = Cert.Mlp.pre5 (argsK m c) :=
  linR_congr_lin ((carry_main_v9_1_10_11 m ρ c).trans (out4_post m ρ H c)) (carry_main_arg16_0_11 m ρ c) (carry_main_arg18_0_11 m ρ c)
    (fun q => (row5 (Wt10 m ρ c) q).trans (congrFun (carry_main_arg17_0_10 m ρ c) (ix1 q)))

/-- After region 5, its first output array is the network's sixth masked linear layer. -/
theorem out5_pre (H : FinalFacts) (c : Dev nD) :
    (Wt12 m ρ c (Proc.devRef .tc main_v11_0) : S4096x1.Idx → EReal) = Cert.Mlp.pre5 (argsK m c) :=
  ((Wt12_arr m ρ c 4).trans (H.final5_pre (Vt11 m ρ) c)).trans (lin5_eq m ρ H c)

/-- Region 6's entry arrays are the side path's inputs: its one-row-bias layer of them is the network's side path. -/
theorem lin6_eq (H : FinalFacts) (c : Dev nD) :
    Cert.Mlp.linR (Vt13 m ρ c main_v12) (Vt13 m ρ c main_arg19) (Vt13 m ρ c main_arg21) (Vt13 m ρ c main_v13) = Cert.Mlp.preS (argsK m c) :=
  linR_congr_lin ((cat6 (Wt12 m ρ c)).trans (side_congr
        ((carry_main_v1_0_2_12 m ρ c).trans (out0_pre m ρ H c))
        ((carry_main_v3_0_4_12 m ρ c).trans (out1_pre m ρ H c))
        ((carry_main_v5_0_6_12 m ρ c).trans (out2_pre m ρ H c))
        ((carry_main_v7_0_8_12 m ρ c).trans (out3_pre m ρ H c)))) (carry_main_arg19_0_13 m ρ c) (carry_main_arg21_0_13 m ρ c)
    (fun q => (row6 (Wt12 m ρ c) q).trans (congrFun (carry_main_arg20_0_12 m ρ c) (ix1 q)))

/-- After region 6, its first output array is the network's side path. -/
theorem out6_pre (H : FinalFacts) (c : Dev nD) :
    (Wt14 m ρ c (Proc.devRef .tc main_v14_0) : S4096x1.Idx → EReal) = Cert.Mlp.preS (argsK m c) :=
  ((Wt14_arr m ρ c 4).trans (H.final6_pre (Vt13 m ρ) c)).trans (lin6_eq m ρ H c)

/-- THE RESULT. At the end of the run the result buffer is the network's shared last stretch of `alpha`, the last
    layer's column and the side path's column. -/
theorem result_at (H : FinalFacts) (c : Dev nD) :
    Wt15 m ρ c (Proc.devRef .tc main_v22)
      = Cert.Mlp.tail (broadcastInDim S4096x1 ![] bcast_S_S4096x1) (fun v => shapeCast _ v shapeCasts_S4096x1_S4096)
          (m ((c : Thread nD τ).loc main_arg22)) (Cert.Mlp.pre5 (argsK m c)) (Cert.Mlp.preS (argsK m c)) :=
  (tail7 (Wt14 m ρ c)).trans (tail_congr _ _ (carry_main_arg22_0_14 m ρ c)
    ((carry_main_v11_0_12_14 m ρ c).trans (out5_pre m ρ H c)) (out6_pre m ρ H c))

end Cert.KernelIdeal.Chain

end
-- ==== Proof.RefL4.lean ====
/-
  The reference's fifth layer: the stage after the bias add is the network's fifth masked linear layer,
  and the stage after the maximum with the zero array is its positive part.
-/
import proofs.«152868_j57621281243253_2_alg».proof.Proof.RefL3

noncomputable section

namespace Cert.RefSide

open Cert.ReferenceIdeal Cert.ReferenceIdeal.Gen Cert.ReferenceIdeal.Read Idealize.ShloMosaic Idealize.ShloMosaic.ValueIdx Cert.Mlp

/-- The fifth layer's stage at row `p` and feature `q`, over the previous layer's positive part: the transposed
    masked weight read at `(k, q)` is the masked weight at `(q, k)`, and the bias spread over the rows is the bias at `q`. -/
theorem v33_at (x0 : (⟨S4096x8192, .f32⟩ : BufTy).Contents (Elt Ideal)) (x1 : (⟨S4096x8192, .f32⟩ : BufTy).Contents (Elt Ideal)) (x2 : (⟨S4096, .f32⟩ : BufTy).Contents (Elt Ideal)) (x3 : (⟨S4096x8192, .f32⟩ : BufTy).Contents (Elt Ideal)) (x4 : (⟨S2048x4096, .f32⟩ : BufTy).Contents (Elt Ideal)) (x5 : (⟨S2048, .f32⟩ : BufTy).Contents (Elt Ideal)) (x6 : (⟨S2048x4096, .f32⟩ : BufTy).Contents (Elt Ideal)) (x7 : (⟨S1024x2048, .f32⟩ : BufTy).Contents (Elt Ideal)) (x8 : (⟨S1024, .f32⟩ : BufTy).Contents (Elt Ideal)) (x9 : (⟨S1024x2048, .f32⟩ : BufTy).Contents (Elt Ideal)) (x10 : (⟨S512x1024, .f32⟩ : BufTy).Contents (Elt Ideal)) (x11 : (⟨S512, .f32⟩ : BufTy).Contents (Elt Ideal)) (x12 : (⟨S512x1024, .f32⟩ : BufTy).Contents (Elt Ideal)) (x13 : (⟨S256x512, .f32⟩ : BufTy).Contents (Elt Ideal)) (x14 : (⟨S256, .f32⟩ : BufTy).Contents (Elt Ideal)) (x15 : (⟨S256x512, .f32⟩ : BufTy).Contents (Elt Ideal)) (x16 : (⟨S1x256, .f32⟩ : BufTy).Contents (Elt Ideal)) (x17 : (⟨S1, .f32⟩ : BufTy).Contents (Elt Ideal)) (x18 : (⟨S1x256, .f32⟩ : BufTy).Contents (Elt Ideal)) (x19 : (⟨S1x7680, .f32⟩ : BufTy).Contents (Elt Ideal)) (x20 : (⟨S1, .f32⟩ : BufTy).Contents (Elt Ideal)) (x21 : (⟨S1x7680, .f32⟩ : BufTy).Contents (Elt Ideal)) (x22 : (⟨S_, .f32⟩ : BufTy).Contents (Elt Ideal)) (p : Fin 4096) (q : Fin 256) :
    val_main_v33 (F := Ideal) x0 x1 x2 x3 x4 x5 x6 x7 x8 x9 x10 x11 x12 x13 x14 x15 (ix2 p q)
      = (∑ k : Fin 512, Cert.Mlp.pos (Cert.Mlp.pre3 (args x0 x1 x2 x3 x4 x5 x6 x7 x8 x9 x10 x11 x12 x13 x14 x15 x16 x17 x18 x19 x20 x21 x22)) (ix2 p k) * (x13 (ix2 q k) * x15 (ix2 q k))) + x14 (ix1 q) := by
  have hl : ∀ k : Fin 512, lidx_main_v30 (ix2 p q) k = ix2 p k := fun k => funext fun a => by
    match a with | ⟨0, _⟩ => rfl | ⟨1, _⟩ => rfl
  have hr : ∀ k : Fin 512, idx_main_v29 (ridx_main_v30 (ix2 p q) k) = ix2 q k := fun k => funext fun a => by
    match a with | ⟨0, _⟩ => rfl | ⟨1, _⟩ => rfl
  have hb : idx_main_v31 (idx_main_v32 (ix2 p q)) = ix1 q := funext fun a => by
    match a with | ⟨0, _⟩ => rfl
  rw [val_main_v33_apply, val_main_v30_apply, val_main_v32_apply, val_main_v31_apply, hb, v27_eq x0 x1 x2 x3 x4 x5 x6 x7 x8 x9 x10 x11 x12 x13 x14 x15 x16 x17 x18 x19 x20 x21 x22]
  simp only [val_main_v29_apply, val_main_v28_apply, hl, hr, Ideal.addf_def, Ideal.mulf_def]

/-- The fifth layer's stage is the network's fifth masked linear layer. -/
theorem v33_eq (x0 : (⟨S4096x8192, .f32⟩ : BufTy).Contents (Elt Ideal)) (x1 : (⟨S4096x8192, .f32⟩ : BufTy).Contents (Elt Ideal)) (x2 : (⟨S4096, .f32⟩ : BufTy).Contents (Elt Ideal)) (x3 : (⟨S4096x8192, .f32⟩ : BufTy).Contents (Elt Ideal)) (x4 : (⟨S2048x4096, .f32⟩ : BufTy).Contents (Elt Ideal)) (x5 : (⟨S2048, .f32⟩ : BufTy).Contents (Elt Ideal)) (x6 : (⟨S2048x4096, .f32⟩ : BufTy).Contents (Elt Ideal)) (x7 : (⟨S1024x2048, .f32⟩ : BufTy).Contents (Elt Ideal)) (x8 : (⟨S1024, .f32⟩ : BufTy).Contents (Elt Ideal)) (x9 : (⟨S1024x2048, .f32⟩ : BufTy).Contents (Elt Ideal)) (x10 : (⟨S512x1024, .f32⟩ : BufTy).Contents (Elt Ideal)) (x11 : (⟨S512, .f32⟩ : BufTy).Contents (Elt Ideal)) (x12 : (⟨S512x1024, .f32⟩ : BufTy).Contents (Elt Ideal)) (x13 : (⟨S256x512, .f32⟩ : BufTy).Contents (Elt Ideal)) (x14 : (⟨S256, .f32⟩ : BufTy).Contents (Elt Ideal)) (x15 : (⟨S256x512, .f32⟩ : BufTy).Contents (Elt Ideal)) (x16 : (⟨S1x256, .f32⟩ : BufTy).Contents (Elt Ideal)) (x17 : (⟨S1, .f32⟩ : BufTy).Contents (Elt Ideal)) (x18 : (⟨S1x256, .f32⟩ : BufTy).Contents (Elt Ideal)) (x19 : (⟨S1x7680, .f32⟩ : BufTy).Contents (Elt Ideal)) (x20 : (⟨S1, .f32⟩ : BufTy).Contents (Elt Ideal)) (x21 : (⟨S1x7680, .f32⟩ : BufTy).Contents (Elt Ideal)) (x22 : (⟨S_, .f32⟩ : BufTy).Contents (Elt Ideal)) :
    val_main_v33 (F := Ideal) x0 x1 x2 x3 x4 x5 x6 x7 x8 x9 x10 x11 x12 x13 x14 x15 = Cert.Mlp.pre4 (args x0 x1 x2 x3 x4 x5 x6 x7 x8 x9 x10 x11 x12 x13 x14 x15 x16 x17 x18 x19 x20 x21 x22) :=
  lin_of_reads (Cert.Mlp.pos (Cert.Mlp.pre3 (args x0 x1 x2 x3 x4 x5 x6 x7 x8 x9 x10 x11 x12 x13 x14 x15 x16 x17 x18 x19 x20 x21 x22))) x13 x15 x14 _ (v33_at x0 x1 x2 x3 x4 x5 x6 x7 x8 x9 x10 x11 x12 x13 x14 x15 x16 x17 x18 x19 x20 x21 x22)

/-- The zero array the fifth maximum is taken against, at any index. -/
theorem call4_zero (j : S4096x256.Idx) : val_main_call4_v0 (F := Ideal) j = 0 := by
  rw [val_main_call4_v0_apply, val_main_call4_cst_apply, Ideal.ofBits_def, Ideal.ofBits_zero_f32]

/-- The fifth layer's stage after the maximum is the positive part of the fifth masked linear layer. -/
theorem v34_eq (x0 : (⟨S4096x8192, .f32⟩ : BufTy).Contents (Elt Ideal)) (x1 : (⟨S4096x8192, .f32⟩ : BufTy).Contents (Elt Ideal)) (x2 : (⟨S4096, .f32⟩ : BufTy).Contents (Elt Ideal)) (x3 : (⟨S4096x8192, .f32⟩ : BufTy).Contents (Elt Ideal)) (x4 : (⟨S2048x4096, .f32⟩ : BufTy).Contents (Elt Ideal)) (x5 : (⟨S2048, .f32⟩ : BufTy).Contents (Elt Ideal)) (x6 : (⟨S2048x4096, .f32⟩ : BufTy).Contents (Elt Ideal)) (x7 : (⟨S1024x2048, .f32⟩ : BufTy).Contents (Elt Ideal)) (x8 : (⟨S1024, .f32⟩ : BufTy).Contents (Elt Ideal)) (x9 : (⟨S1024x2048, .f32⟩ : BufTy).Contents (Elt Ideal)) (x10 : (⟨S512x1024, .f32⟩ : BufTy).Contents (Elt Ideal)) (x11 : (⟨S512, .f32⟩ : BufTy).Contents (Elt Ideal)) (x12 : (⟨S512x1024, .f32⟩ : BufTy).Contents (Elt Ideal)) (x13 : (⟨S256x512, .f32⟩ : BufTy).Contents (Elt Ideal)) (x14 : (⟨S256, .f32⟩ : BufTy).Contents (Elt Ideal)) (x15 : (⟨S256x512, .f32⟩ : BufTy).Contents (Elt Ideal)) (x16 : (⟨S1x256, .f32⟩ : BufTy).Contents (Elt Ideal)) (x17 : (⟨S1, .f32⟩ : BufTy).Contents (Elt Ideal)) (x18 : (⟨S1x256, .f32⟩ : BufTy).Contents (Elt Ideal)) (x19 : (⟨S1x7680, .f32⟩ : BufTy).Contents (Elt Ideal)) (x20 : (⟨S1, .f32⟩ : BufTy).Contents (Elt Ideal)) (x21 : (⟨S1x7680, .f32⟩ : BufTy).Contents (Elt Ideal)) (x22 : (⟨S_, .f32⟩ : BufTy).Contents (Elt Ideal)) :
    val_main_v34 (F := Ideal) x0 x1 x2 x3 x4 x5 x6 x7 x8 x9 x10 x11 x12 x13 x14 x15 = Cert.Mlp.pos (Cert.Mlp.pre4 (args x0 x1 x2 x3 x4 x5 x6 x7 x8 x9 x10 x11 x12 x13 x14 x15 x16 x17 x18 x19 x20 x21 x22)) := by
  refine pos_of_reads _ _ fun j => ?_
  rw [val_main_v34_apply, call4_zero, v33_eq x0 x1 x2 x3 x4 x5 x6 x7 x8 x9 x10 x11 x12 x13 x14 x15 x16 x17 x18 x19 x20 x21 x22, Ideal.maximumf_def]

end Cert.RefSide

end
-- ==== Proof.RefL5.lean ====
/-
  The reference's sixth layer: the stage after the bias add is the network's sixth masked linear layer.
-/
import proofs.«152868_j57621281243253_2_alg».proof.Proof.RefL4

noncomputable section

namespace Cert.RefSide

open Cert.ReferenceIdeal Cert.ReferenceIdeal.Gen Cert.ReferenceIdeal.Read Idealize.ShloMosaic Idealize.ShloMosaic.ValueIdx Cert.Mlp

/-- The sixth layer's stage at row `p` and feature `q`, over the previous layer's positive part: the transposed
    masked weight read at `(k, q)` is the masked weight at `(q, k)`, and the bias spread over the rows is the bias at `q`. -/
theorem v40_at (x0 : (⟨S4096x8192, .f32⟩ : BufTy).Contents (Elt Ideal)) (x1 : (⟨S4096x8192, .f32⟩ : BufTy).Contents (Elt Ideal)) (x2 : (⟨S4096, .f32⟩ : BufTy).Contents (Elt Ideal)) (x3 : (⟨S4096x8192, .f32⟩ : BufTy).Contents (Elt Ideal)) (x4 : (⟨S2048x4096, .f32⟩ : BufTy).Contents (Elt Ideal)) (x5 : (⟨S2048, .f32⟩ : BufTy).Contents (Elt Ideal)) (x6 : (⟨S2048x4096, .f32⟩ : BufTy).Contents (Elt Ideal)) (x7 : (⟨S1024x2048, .f32⟩ : BufTy).Contents (Elt Ideal)) (x8 : (⟨S1024, .f32⟩ : BufTy).Contents (Elt Ideal)) (x9 : (⟨S1024x2048, .f32⟩ : BufTy).Contents (Elt Ideal)) (x10 : (⟨S512x1024, .f32⟩ : BufTy).Contents (Elt Ideal)) (x11 : (⟨S512, .f32⟩ : BufTy).Contents (Elt Ideal)) (x12 : (⟨S512x1024, .f32⟩ : BufTy).Contents (Elt Ideal)) (x13 : (⟨S256x512, .f32⟩ : BufTy).Contents (Elt Ideal)) (x14 : (⟨S256, .f32⟩ : BufTy).Contents (Elt Ideal)) (x15 : (⟨S256x512, .f32⟩ : BufTy).Contents (Elt Ideal)) (x16 : (⟨S1x256, .f32⟩ : BufTy).Contents (Elt Ideal)) (x17 : (⟨S1, .f32⟩ : BufTy).Contents (Elt Ideal)) (x18 : (⟨S1x256, .f32⟩ : BufTy).Contents (Elt Ideal)) (x19 : (⟨S1x7680, .f32⟩ : BufTy).Contents (Elt Ideal)) (x20 : (⟨S1, .f32⟩ : BufTy).Contents (Elt Ideal)) (x21 : (⟨S1x7680, .f32⟩ : BufTy).Contents (Elt Ideal)) (x22 : (⟨S_, .f32⟩ : BufTy).Contents (Elt Ideal)) (p : Fin 4096) (q : Fin 1) :
    val_main_v40 (F := Ideal) x0 x1 x2 x3 x4 x5 x6 x7 x8 x9 x10 x11 x12 x13 x14 x15 x16 x17 x18 (ix2 p q)
      = (∑ k : Fin 256, Cert.Mlp.pos (Cert.Mlp.pre4 (args x0 x1 x2 x3 x4 x5 x6 x7 x8 x9 x10 x11 x12 x13 x14 x15 x16 x17 x18 x19 x20 x21 x22)) (ix2 p k) * (x16 (ix2 q k) * x18 (ix2 q k))) + x17 (ix1 q) := by
  have hl : ∀ k : Fin 256, lidx_main_v37 (ix2 p q) k = ix2 p k := fun k => funext fun a => by
    match a with | ⟨0, _⟩ => rfl | ⟨1, _⟩ => rfl
  have hr : ∀ k : Fin 256, idx_main_v36 (ridx_main_v37 (ix2 p q) k) = ix2 q k := fun k => funext fun a => by
    match a with | ⟨0, _⟩ => rfl | ⟨1, _⟩ => rfl
  have hb : idx_main_v38 (idx_main_v39 (ix2 p q)) = ix1 q := funext fun a => by
    match a with | ⟨0, _⟩ => exact Fin.ext (by have := q.isLt; show (0 : Nat) = q.val; omega)
  rw [val_main_v40_apply, val_main_v37_apply, val_main_v39_apply, val_main_v38_apply, hb, v34_eq x0 x1 x2 x3 x4 x5 x6 x7 x8 x9 x10 x11 x12 x13 x14 x15 x16 x17 x18 x19 x20 x21 x22]
  simp only [val_main_v36_apply, val_main_v35_apply, hl, hr, Ideal.addf_def, Ideal.mulf_def]

/-- The sixth layer's stage is the network's sixth masked linear layer. -/
theorem v40_eq (x0 : (⟨S4096x8192, .f32⟩ : BufTy).Contents (Elt Ideal)) (x1 : (⟨S4096x8192, .f32⟩ : BufTy).Contents (Elt Ideal)) (x2 : (⟨S4096, .f32⟩ : BufTy).Contents (Elt Ideal)) (x3 : (⟨S4096x8192, .f32⟩ : BufTy).Contents (Elt Ideal)) (x4 : (⟨S2048x4096, .f32⟩ : BufTy).Contents (Elt Ideal)) (x5 : (⟨S2048, .f32⟩ : BufTy).Contents (Elt Ideal)) (x6 : (⟨S2048x4096, .f32⟩ : BufTy).Contents (Elt Ideal)) (x7 : (⟨S1024x2048, .f32⟩ : BufTy).Contents (Elt Ideal)) (x8 : (⟨S1024, .f32⟩ : BufTy).Contents (Elt Ideal)) (x9 : (⟨S1024x2048, .f32⟩ : BufTy).Contents (Elt Ideal)) (x10 : (⟨S512x1024, .f32⟩ : BufTy).Contents (Elt Ideal)) (x11 : (⟨S512, .f32⟩ : BufTy).Contents (Elt Ideal)) (x12 : (⟨S512x1024, .f32⟩ : BufTy).Contents (Elt Ideal)) (x13 : (⟨S256x512, .f32⟩ : BufTy).Contents (Elt Ideal)) (x14 : (⟨S256, .f32⟩ : BufTy).Contents (Elt Ideal)) (x15 : (⟨S256x512, .f32⟩ : BufTy).Contents (Elt Ideal)) (x16 : (⟨S1x256, .f32⟩ : BufTy).Contents (Elt Ideal)) (x17 : (⟨S1, .f32⟩ : BufTy).Contents (Elt Ideal)) (x18 : (⟨S1x256, .f32⟩ : BufTy).Contents (Elt Ideal)) (x19 : (⟨S1x7680, .f32⟩ : BufTy).Contents (Elt Ideal)) (x20 : (⟨S1, .f32⟩ : BufTy).Contents (Elt Ideal)) (x21 : (⟨S1x7680, .f32⟩ : BufTy).Contents (Elt Ideal)) (x22 : (⟨S_, .f32⟩ : BufTy).Contents (Elt Ideal)) :
    val_main_v40 (F := Ideal) x0 x1 x2 x3 x4 x5 x6 x7 x8 x9 x10 x11 x12 x13 x14 x15 x16 x17 x18 = Cert.Mlp.pre5 (args x0 x1 x2 x3 x4 x5 x6 x7 x8 x9 x10 x11 x12 x13 x14 x15 x16 x17 x18 x19 x20 x21 x22) :=
  lin_of_reads (Cert.Mlp.pos (Cert.Mlp.pre4 (args x0 x1 x2 x3 x4 x5 x6 x7 x8 x9 x10 x11 x12 x13 x14 x15 x16 x17 x18 x19 x20 x21 x22))) x16 x18 x17 _ (v40_at x0 x1 x2 x3 x4 x5 x6 x7 x8 x9 x10 x11 x12 x13 x14 x15 x16 x17 x18 x19 x20 x21 x22)

end Cert.RefSide

end
-- ==== Proof.RefResult.lean ====
/-
  The reference's result: the network's shared last stretch applied to the last layer's column and the side path's
  column.
-/
import proofs.«152868_j57621281243253_2_alg».proof.Proof.RefL5
import proofs.«152868_j57621281243253_2_alg».proof.Proof.RefSidePath

noncomputable section

namespace Cert.RefSide

open Cert.ReferenceIdeal Cert.ReferenceIdeal.Gen Cert.ReferenceIdeal.Read Idealize.ShloMosaic Idealize.ShloMosaic.ValueIdx Cert.Mlp

/-- The reference's result stage is the shared last stretch of the network, with the logistic of `alpha` spread over
    the rows by the broadcast and the unit axis dropped by the reshape, at the last layer's and the side path's columns. -/
theorem result_is_spec (x0 : (⟨S4096x8192, .f32⟩ : BufTy).Contents (Elt Ideal)) (x1 : (⟨S4096x8192, .f32⟩ : BufTy).Contents (Elt Ideal)) (x2 : (⟨S4096, .f32⟩ : BufTy).Contents (Elt Ideal)) (x3 : (⟨S4096x8192, .f32⟩ : BufTy).Contents (Elt Ideal)) (x4 : (⟨S2048x4096, .f32⟩ : BufTy).Contents (Elt Ideal)) (x5 : (⟨S2048, .f32⟩ : BufTy).Contents (Elt Ideal)) (x6 : (⟨S2048x4096, .f32⟩ : BufTy).Contents (Elt Ideal)) (x7 : (⟨S1024x2048, .f32⟩ : BufTy).Contents (Elt Ideal)) (x8 : (⟨S1024, .f32⟩ : BufTy).Contents (Elt Ideal)) (x9 : (⟨S1024x2048, .f32⟩ : BufTy).Contents (Elt Ideal)) (x10 : (⟨S512x1024, .f32⟩ : BufTy).Contents (Elt Ideal)) (x11 : (⟨S512, .f32⟩ : BufTy).Contents (Elt Ideal)) (x12 : (⟨S512x1024, .f32⟩ : BufTy).Contents (Elt Ideal)) (x13 : (⟨S256x512, .f32⟩ : BufTy).Contents (Elt Ideal)) (x14 : (⟨S256, .f32⟩ : BufTy).Contents (Elt Ideal)) (x15 : (⟨S256x512, .f32⟩ : BufTy).Contents (Elt Ideal)) (x16 : (⟨S1x256, .f32⟩ : BufTy).Contents (Elt Ideal)) (x17 : (⟨S1, .f32⟩ : BufTy).Contents (Elt Ideal)) (x18 : (⟨S1x256, .f32⟩ : BufTy).Contents (Elt Ideal)) (x19 : (⟨S1x7680, .f32⟩ : BufTy).Contents (Elt Ideal)) (x20 : (⟨S1, .f32⟩ : BufTy).Contents (Elt Ideal)) (x21 : (⟨S1x7680, .f32⟩ : BufTy).Contents (Elt Ideal)) (x22 : (⟨S_, .f32⟩ : BufTy).Contents (Elt Ideal)) :
    val_main_v55 (F := Ideal) x0 x1 x2 x3 x4 x5 x6 x7 x8 x9 x10 x11 x12 x13 x14 x15 x16 x17 x18 x19 x20 x21 x22
      = Cert.Mlp.tail (broadcastInDim S4096x1 ![] bcast_S_S4096x1) (fun v => shapeCast _ v shapeCasts_S4096x1_S4096) x22
          (Cert.Mlp.pre5 (args x0 x1 x2 x3 x4 x5 x6 x7 x8 x9 x10 x11 x12 x13 x14 x15 x16 x17 x18 x19 x20 x21 x22)) (Cert.Mlp.preS (args x0 x1 x2 x3 x4 x5 x6 x7 x8 x9 x10 x11 x12 x13 x14 x15 x16 x17 x18 x19 x20 x21 x22)) := by
  unfold val_main_v55 val_main_v54 val_main_v53
  rw [v40_eq x0 x1 x2 x3 x4 x5 x6 x7 x8 x9 x10 x11 x12 x13 x14 x15 x16 x17 x18 x19 x20 x21 x22, v47_eq x0 x1 x2 x3 x4 x5 x6 x7 x8 x9 x10 x11 x12 x13 x14 x15 x16 x17 x18 x19 x20 x21 x22]
  generalize Cert.Mlp.pre5 (args x0 x1 x2 x3 x4 x5 x6 x7 x8 x9 x10 x11 x12 x13 x14 x15 x16 x17 x18 x19 x20 x21 x22) = u
  generalize Cert.Mlp.preS (args x0 x1 x2 x3 x4 x5 x6 x7 x8 x9 x10 x11 x12 x13 x14 x15 x16 x17 x18 x19 x20 x21 x22) = v
  rfl

end Cert.RefSide

end
-- ==== Proof.RefAgree.lean ====
/-
  The reference's result as the network's last stretch at arrays EQUAL to the reference's arguments: the form in which
  two programs run from memories that agree on the arguments are compared.
-/
import proofs.«152868_j57621281243253_2_alg».proof.Proof.RefResult

noncomputable section

namespace Cert.RefSide

open Cert.ReferenceIdeal Cert.ReferenceIdeal.Gen Cert.ReferenceIdeal.Read Idealize.ShloMosaic Idealize.ShloMosaic.ValueIdx Cert.Mlp

/-- The reference's result stage, its arguments equal one by one to `y0 … y22`, is the shared last stretch of the
    network at `y0 … y22`. -/
theorem result_of_agree (x0 : (⟨S4096x8192, .f32⟩ : BufTy).Contents (Elt Ideal)) (x1 : (⟨S4096x8192, .f32⟩ : BufTy).Contents (Elt Ideal)) (x2 : (⟨S4096, .f32⟩ : BufTy).Contents (Elt Ideal)) (x3 : (⟨S4096x8192, .f32⟩ : BufTy).Contents (Elt Ideal)) (x4 : (⟨S2048x4096, .f32⟩ : BufTy).Contents (Elt Ideal)) (x5 : (⟨S2048, .f32⟩ : BufTy).Contents (Elt Ideal)) (x6 : (⟨S2048x4096, .f32⟩ : BufTy).Contents (Elt Ideal)) (x7 : (⟨S1024x2048, .f32⟩ : BufTy).Contents (Elt Ideal)) (x8 : (⟨S1024, .f32⟩ : BufTy).Contents (Elt Ideal)) (x9 : (⟨S1024x2048, .f32⟩ : BufTy).Contents (Elt Ideal)) (x10 : (⟨S512x1024, .f32⟩ : BufTy).Contents (Elt Ideal)) (x11 : (⟨S512, .f32⟩ : BufTy).Contents (Elt Ideal)) (x12 : (⟨S512x1024, .f32⟩ : BufTy).Contents (Elt Ideal)) (x13 : (⟨S256x512, .f32⟩ : BufTy).Contents (Elt Ideal)) (x14 : (⟨S256, .f32⟩ : BufTy).Contents (Elt Ideal)) (x15 : (⟨S256x512, .f32⟩ : BufTy).Contents (Elt Ideal)) (x16 : (⟨S1x256, .f32⟩ : BufTy).Contents (Elt Ideal)) (x17 : (⟨S1, .f32⟩ : BufTy).Contents (Elt Ideal)) (x18 : (⟨S1x256, .f32⟩ : BufTy).Contents (Elt Ideal)) (x19 : (⟨S1x7680, .f32⟩ : BufTy).Contents (Elt Ideal)) (x20 : (⟨S1, .f32⟩ : BufTy).Contents (Elt Ideal)) (x21 : (⟨S1x7680, .f32⟩ : BufTy).Contents (Elt Ideal)) (x22 : (⟨S_, .f32⟩ : BufTy).Contents (Elt Ideal))
    (y0 : (⟨S4096x8192, .f32⟩ : BufTy).Contents (Elt Ideal)) (y1 : (⟨S4096x8192, .f32⟩ : BufTy).Contents (Elt Ideal)) (y2 : (⟨S4096, .f32⟩ : BufTy).Contents (Elt Ideal)) (y3 : (⟨S4096x8192, .f32⟩ : BufTy).Contents (Elt Ideal)) (y4 : (⟨S2048x4096, .f32⟩ : BufTy).Contents (Elt Ideal)) (y5 : (⟨S2048, .f32⟩ : BufTy).Contents (Elt Ideal)) (y6 : (⟨S2048x4096, .f32⟩ : BufTy).Contents (Elt Ideal)) (y7 : (⟨S1024x2048, .f32⟩ : BufTy).Contents (Elt Ideal)) (y8 : (⟨S1024, .f32⟩ : BufTy).Contents (Elt Ideal)) (y9 : (⟨S1024x2048, .f32⟩ : BufTy).Contents (Elt Ideal)) (y10 : (⟨S512x1024, .f32⟩ : BufTy).Contents (Elt Ideal)) (y11 : (⟨S512, .f32⟩ : BufTy).Contents (Elt Ideal)) (y12 : (⟨S512x1024, .f32⟩ : BufTy).Contents (Elt Ideal)) (y13 : (⟨S256x512, .f32⟩ : BufTy).Contents (Elt Ideal)) (y14 : (⟨S256, .f32⟩ : BufTy).Contents (Elt Ideal)) (y15 : (⟨S256x512, .f32⟩ : BufTy).Contents (Elt Ideal)) (y16 : (⟨S1x256, .f32⟩ : BufTy).Contents (Elt Ideal)) (y17 : (⟨S1, .f32⟩ : BufTy).Contents (Elt Ideal)) (y18 : (⟨S1x256, .f32⟩ : BufTy).Contents (Elt Ideal)) (y19 : (⟨S1x7680, .f32⟩ : BufTy).Contents (Elt Ideal)) (y20 : (⟨S1, .f32⟩ : BufTy).Contents (Elt Ideal)) (y21 : (⟨S1x7680, .f32⟩ : BufTy).Contents (Elt Ideal)) (y22 : (⟨S_, .f32⟩ : BufTy).Contents (Elt Ideal))
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) (h18 : x18 = y18) (h19 : x19 = y19) (h20 : x20 = y20) (h21 : x21 = y21) (h22 : x22 = y22) :
    val_main_v55 (F := Ideal) x0 x1 x2 x3 x4 x5 x6 x7 x8 x9 x10 x11 x12 x13 x14 x15 x16 x17 x18 x19 x20 x21 x22
      = Cert.Mlp.tail (broadcastInDim S4096x1 ![] bcast_S_S4096x1) (fun v => shapeCast _ v shapeCasts_S4096x1_S4096) y22
          (Cert.Mlp.pre5 (args y0 y1 y2 y3 y4 y5 y6 y7 y8 y9 y10 y11 y12 y13 y14 y15 y16 y17 y18 y19 y20 y21 y22)) (Cert.Mlp.preS (args y0 y1 y2 y3 y4 y5 y6 y7 y8 y9 y10 y11 y12 y13 y14 y15 y16 y17 y18 y19 y20 y21 y22)) := by
  subst h0 h1 h2 h3 h4 h5 h6 h7 h8 h9 h10 h11 h12 h13 h14 h15 h16 h17 h18 h19 h20 h21 h22
  exact result_is_spec x0 x1 x2 x3 x4 x5 x6 x7 x8 x9 x10 x11 x12 x13 x14 x15 x16 x17 x18 x19 x20 x21 x22

end Cert.RefSide

end
-- ==== Proof.ChainAssembly.lean ====
/-
  The two programs at extended reals, from memories that agree on the arguments: both run, both leave in their result
  the network's shared last stretch of the last layer's column and the side path's column of the kernel program's
  arguments, and both leave the arguments as launched.
-/
import proofs.«152868_j57621281243253_2_alg».proof.Defs
import proofs.«152868_j57621281243253_2_alg».proof.Proof.ChainWalk
import proofs.«152868_j57621281243253_2_alg».proof.Proof.RefAgree
import proofs.«152868_j57621281243253_2_alg».proof.Proof.Gen.ReferenceIdeal.Run
import proofs.«152868_j57621281243253_2_alg».proof.Proof.Gen.ReferenceIdeal.Read
import proofs.«152868_j57621281243253_2_alg».proof.Proof.Gen.Pre_finite_inputs

noncomputable section

namespace Cert.KernelIdeal.Chain

open Cert.KernelIdeal Cert.KernelIdeal.Gen
open Idealize.ShloMosaic Idealize.ShloMosaic.TcCoe Idealize.SL.Sem Idealize.ShloMosaic.StableHlo Idealize.ShloMosaic.ValueIdx
open Cert.Mlp

open Cert.KernelIdeal.Hand

/-- THE CLAIM AT EXTENDED REALS, from the regions' values. -/
theorem algebraic_of (H : FinalFacts) : Cert.algebraic_KernelIdeal_ReferenceIdeal := by
  intro m ρ m' ρ' _ hagree
  refine ⟨fun c => Cert.Mlp.tail (broadcastInDim S4096x1 ![] bcast_S_S4096x1)
      (fun v => shapeCast _ v shapeCasts_S4096x1_S4096) (m ((c : Thread nD τ).loc main_arg22))
      (Cert.Mlp.pre5 (argsK m c)) (Cert.Mlp.preS (argsK m c)), ?_, ?_⟩
  · exact (θ_run defs _ _).mono (fun s h c =>
      ⟨(h c _ (mem_uc main_v22 (by decide))).trans (result_at m ρ H c),
       (h c _ (mem_uc main_arg0 (by decide))).trans (Wt15_main_arg0 m ρ c),
       (h c _ (mem_uc main_arg1 (by decide))).trans (Wt15_main_arg1 m ρ c),
       (h c _ (mem_uc main_arg2 (by decide))).trans (Wt15_main_arg2 m ρ c),
       (h c _ (mem_uc main_arg3 (by decide))).trans (Wt15_main_arg3 m ρ c),
       (h c _ (mem_uc main_arg4 (by decide))).trans (Wt15_main_arg4 m ρ c),
       (h c _ (mem_uc main_arg5 (by decide))).trans (Wt15_main_arg5 m ρ c),
       (h c _ (mem_uc main_arg6 (by decide))).trans (Wt15_main_arg6 m ρ c),
       (h c _ (mem_uc main_arg7 (by decide))).trans (Wt15_main_arg7 m ρ c),
       (h c _ (mem_uc main_arg8 (by decide))).trans (Wt15_main_arg8 m ρ c),
       (h c _ (mem_uc main_arg9 (by decide))).trans (Wt15_main_arg9 m ρ c),
       (h c _ (mem_uc main_arg10 (by decide))).trans (Wt15_main_arg10 m ρ c),
       (h c _ (mem_uc main_arg11 (by decide))).trans (Wt15_main_arg11 m ρ c),
       (h c _ (mem_uc main_arg12 (by decide))).trans (Wt15_main_arg12 m ρ c),
       (h c _ (mem_uc main_arg13 (by decide))).trans (Wt15_main_arg13 m ρ c),
       (h c _ (mem_uc main_arg14 (by decide))).trans (Wt15_main_arg14 m ρ c),
       (h c _ (mem_uc main_arg15 (by decide))).trans (Wt15_main_arg15 m ρ c),
       (h c _ (mem_uc main_arg16 (by decide))).trans (Wt15_main_arg16 m ρ c),
       (h c _ (mem_uc main_arg17 (by decide))).trans (Wt15_main_arg17 m ρ c),
       (h c _ (mem_uc main_arg18 (by decide))).trans (Wt15_main_arg18 m ρ c),
       (h c _ (mem_uc main_arg19 (by decide))).trans (Wt15_main_arg19 m ρ c),
       (h c _ (mem_uc main_arg20 (by decide))).trans (Wt15_main_arg20 m ρ c),
       (h c _ (mem_uc main_arg21 (by decide))).trans (Wt15_main_arg21 m ρ c),
       (h c _ (mem_uc main_arg22 (by decide))).trans (Wt15_main_arg22 m ρ c)⟩)
      (run_all (F := Ideal) m ρ)
  · exact (θ_run Cert.ReferenceIdeal.defs _ _).mono (fun s h c =>
      ⟨((h c).1.trans (Cert.ReferenceIdeal.Read.val_main_v55_eq m' c)).trans
        (Cert.RefSide.result_of_agree _ _ _ _ _ _ _ _ _ _ _ _ _ _ _ _ _ _ _ _ _ _ _ _ _ _ _ _ _ _ _ _ _ _ _ _ _ _ _ _ _ _ _ _ _ _
          (hagree c).1
          (hagree c).2.1
          (hagree c).2.2.1
          (hagree c).2.2.2.1
          (hagree c).2.2.2.2.1
          (hagree c).2.2.2.2.2.1
          (hagree c).2.2.2.2.2.2.1
          (hagree c).2.2.2.2.2.2.2.1
          (hagree c).2.2.2.2.2.2.2.2.1
          (hagree c).2.2.2.2.2.2.2.2.2.1
          (hagree c).2.2.2.2.2.2.2.2.2.2.1
          (hagree c).2.2.2.2.2.2.2.2.2.2.2.1
          (hagree c).2.2.2.2.2.2.2.2.2.2.2.2.1
          (hagree c).2.2.2.2.2.2.2.2.2.2.2.2.2.1
          (hagree c).2.2.2.2.2.2.2.2.2.2.2.2.2.2.1
          (hagree c).2.2.2.2.2.2.2.2.2.2.2.2.2.2.2.1
          (hagree c).2.2.2.2.2.2.2.2.2.2.2.2.2.2.2.2.1
          (hagree c).2.2.2.2.2.2.2.2.2.2.2.2.2.2.2.2.2.1
          (hagree c).2.2.2.2.2.2.2.2.2.2.2.2.2.2.2.2.2.2.1
          (hagree c).2.2.2.2.2.2.2.2.2.2.2.2.2.2.2.2.2.2.2.1
          (hagree c).2.2.2.2.2.2.2.2.2.2.2.2.2.2.2.2.2.2.2.2.1
          (hagree c).2.2.2.2.2.2.2.2.2.2.2.2.2.2.2.2.2.2.2.2.2.1
          (hagree c).2.2.2.2.2.2.2.2.2.2.2.2.2.2.2.2.2.2.2.2.2.2),
       (h c).2⟩)
      (Cert.ReferenceIdeal.Value.run (F := Ideal) m' ρ')

end Cert.KernelIdeal.Chain

end
-- ==== Proof.lean ====
/-
  The certificate of a seven-layer masked network against its whole-array reference.

  The kernel program runs seven regions, one per masked linear layer `x · (w ∘ m)ᵀ + b`: five of them through the
  matrix unit, each followed by `max(·, 0)`, and two with ONE output feature as a row-wise product and lane sum. Every
  region tiles its batch, its output features and its input features; the last grid coordinate runs over the input
  features' blocks, an accumulator is reset at its first step, added to at every step, and at its last step the bias
  row is added and the two output blocks (before and after the positive part) are stored. Between the regions the host
  reshapes the bias vectors to rows, lays the first four layers' values side by side for the side path, and at the end
  adds the logistic of `alpha` times the side path's column to the last layer's column.

  FRAMES. Each region's body is run once per case of its two conditionals (reset or not, store or not), the pieces each
  buffer ends with found by the run; what the two output buffers and the accumulator hold after each grid point is
  defined by recursion on the point; the region's invariant carries the accumulator at what the point before left.
  The seven regions and the eight host stretches are composed in order, every buffer no scope hides ending at a named
  valuation; the argument arrays are read back off it. The same text proves the frame of the word-level program and
  of its idealization (modules under Proof/Kernel and Proof/KernelIdeal).

  VALUES, at the extended reals. The accumulator after grid position `n` holds the dot products over the first
  `(n mod K + 1)` column blocks — by induction on the position, a step being `∑ over a + b columns = ∑ over a + ∑ over
  the next b` — so each region's two output arrays end at the masked linear layer of its input arrays and at its
  positive part (Proof/KernelIdeal/Val*.lean); walking the valuations stretch by stretch gives the result buffer as
  the specification's network (Proof/Spec.lean) of the launch contents (Proof/Chain*.lean). The reference's host
  operations, read one at a time at an index, are the same network (Proof/Ref*.lean). Only commutativity and
  associativity of addition on the extended reals are used; the finiteness of the inputs is never needed.
-/
import proofs.«152868_j57621281243253_2_alg».proof.Defs
import proofs.«152868_j57621281243253_2_alg».proof.Proof.Gen.Kernel
import proofs.«152868_j57621281243253_2_alg».proof.Proof.Gen.KernelIdeal
import proofs.«152868_j57621281243253_2_alg».proof.Proof.Gen.ReferenceIdeal
import proofs.«152868_j57621281243253_2_alg».proof.Proof.Gen.ReferenceIdeal.Run
import proofs.«152868_j57621281243253_2_alg».proof.Proof.Gen.Pre_finite_inputs
import proofs.«152868_j57621281243253_2_alg».proof.Proof.Kernel.Main
import proofs.«152868_j57621281243253_2_alg».proof.Proof.KernelIdeal.Main
import proofs.«152868_j57621281243253_2_alg».proof.Proof.KernelIdeal.Val0
import proofs.«152868_j57621281243253_2_alg».proof.Proof.KernelIdeal.Val1
import proofs.«152868_j57621281243253_2_alg».proof.Proof.KernelIdeal.Val2
import proofs.«152868_j57621281243253_2_alg».proof.Proof.KernelIdeal.Val3
import proofs.«152868_j57621281243253_2_alg».proof.Proof.KernelIdeal.Val4
import proofs.«152868_j57621281243253_2_alg».proof.Proof.KernelIdeal.Val5
import proofs.«152868_j57621281243253_2_alg».proof.Proof.KernelIdeal.Val6
import proofs.«152868_j57621281243253_2_alg».proof.Proof.ChainAssembly

noncomputable section

namespace Cert.Proof

open Idealize.ShloMosaic Idealize.SL.Sem

/-- The word-level program runs to the end, faults nowhere and leaves its arguments unchanged. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The seven regions' values: each region's two output arrays end at the masked linear layer of its input arrays
    and at its positive part (the last two regions: at the layer itself twice). -/
theorem finalFacts : Cert.KernelIdeal.Chain.FinalFacts where
  final0_pre := Cert.KernelIdeal.Hand.final0_pre
  final0_post := Cert.KernelIdeal.Hand.final0_post
  final1_pre := Cert.KernelIdeal.Hand.final1_pre
  final1_post := Cert.KernelIdeal.Hand.final1_post
  final2_pre := Cert.KernelIdeal.Hand.final2_pre
  final2_post := Cert.KernelIdeal.Hand.final2_post
  final3_pre := Cert.KernelIdeal.Hand.final3_pre
  final3_post := Cert.KernelIdeal.Hand.final3_post
  final4_pre := Cert.KernelIdeal.Hand.final4_pre
  final4_post := Cert.KernelIdeal.Hand.final4_post
  final5_pre := Cert.KernelIdeal.Hand.final5_pre
  final5_post := Cert.KernelIdeal.Hand.final5_post
  final6_pre := Cert.KernelIdeal.Hand.final6_pre
  final6_post := Cert.KernelIdeal.Hand.final6_post

/-- At the extended reals the kernel program's result and the reference's are one function of the arguments. -/
theorem algebraic : Cert.algebraic_KernelIdeal_ReferenceIdeal := Cert.KernelIdeal.Chain.algebraic_of finalFacts

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
